-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v50) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x128 : Shape := ⟨2, ![4096, 128]⟩
abbrev S128 : Shape := ⟨1, ![128]⟩
abbrev S128x129 : Shape := ⟨2, ![128, 129]⟩
abbrev S_ : Shape := ⟨0, ![]⟩

class Facts : Prop where
  bcast_S_S4096x128 : S_.BroadcastsInDim S4096x128 (![] : Fin 0 → Fin S4096x128.rank)
  reducesTo_S4096x128_S_d0_1 : S4096x128.ReducesTo [0, 1] S_
  h_S_ : 0 < S_.numel
  bcast_S_S128 : S_.BroadcastsInDim S128 (![] : Fin 0 → Fin S128.rank)
  reducesTo_S128_S_d0 : S128.ReducesTo [0] S_
  bcast_S_S128x129 : S_.BroadcastsInDim S128x129 (![] : Fin 0 → Fin S128x129.rank)
  reducesTo_S128x129_S_d0_1 : S128x129.ReducesTo [0, 1] S_

variable [Facts]

def fn_part1 {F : FTy → Type} [FloatOps F] (main_arg4 : FVec F S128 .f32) (main_arg5 : FVec F S128 .f32) (main_arg6 : FVec F S128 .f32) (main_v13 : IVec S_ 1) (main_v16 : IVec S128x129 1) : IVec S_ 1 :=
  let main_c_5 : IVec S_ 1 := constantI S_ 1 1#1
  let main_v17 : IVec S_ 1 := (fun x v => Host.reduce IntOp.andi x v reducesTo_S128x129_S_d0_1 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128 .f32 := Host.absf main_arg6
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  main_v33

def fn {F : FTy → Type} [FloatOps F] (main_arg0 : FVec F S4096x128 .f32) (main_arg1 : FVec F S128 .f32) (main_arg2 : FVec F S128 .f32) (main_arg3 : FVec F S128x129 .f32) (main_arg4 : FVec F S128 .f32) (main_arg5 : FVec F S128 .f32) (main_arg6 : FVec F S128 .f32) : IVec S_ 1 :=
  let main_v0 : FVec F S4096x128 .f32 := Host.absf main_arg0
  let main_cst : FVec F S_ .f32 := constant S_ .f32 0x7F800000#32
  let main_v1 : FVec F S4096x128 .f32 := broadcastInDim S4096x128 ![] bcast_S_S4096x128 main_cst
  let main_v2 : IVec S4096x128 1 := cmpf .olt main_v0 main_v1
  let main_c : IVec S_ 1 := constantI S_ 1 1#1
  let main_v3 : IVec S_ 1 := (fun x v => Host.reduce IntOp.andi x v reducesTo_S4096x128_S_d0_1 h_S_) main_v2 main_c
  let main_v4 : FVec F S128 .f32 := Host.absf main_arg1
  let main_cst_0 : FVec F S_ .f32 := constant S_ .f32 0x7F800000#32
  let main_v5 : FVec F S128 .f32 := broadcastInDim S128 ![] bcast_S_S128 main_cst_0
  let main_v6 : IVec S128 1 := cmpf .olt main_v4 main_v5
  let main_c_1 : IVec S_ 1 := constantI S_ 1 1#1
  let main_v7 : IVec S_ 1 := (fun x v => Host.reduce IntOp.andi x v reducesTo_S128_S_d0 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x129 .f32 := Host.absf main_arg3
  let main_cst_4 : FVec F S_ .f32 := constant S_ .f32 0x7F800000#32
  let main_v15 : FVec F S128x129 .f32 := broadcastInDim S128x129 ![] bcast_S_S128x129 main_cst_4
  let main_v16 : IVec S128x129 1 := cmpf .olt main_v14 main_v15
  fn_part1 (F := F) main_arg4 main_arg5 main_arg6 main_v13 main_v16
-- ==== Kernel.lean ====
abbrev S4096x128 : Shape := ⟨2, ![4096, 128]⟩
abbrev S128 : Shape := ⟨1, ![128]⟩
abbrev S128x129 : Shape := ⟨2, ![128, 129]⟩
abbrev S_ : Shape := ⟨0, ![]⟩
abbrev S1x128 : Shape := ⟨2, ![1, 128]⟩
abbrev S64x128 : Shape := ⟨2, ![64, 128]⟩
abbrev S64x128x1 : Shape := ⟨3, ![64, 128, 1]⟩
abbrev S64x1x128 : Shape := ⟨3, ![64, 1, 128]⟩
abbrev S64x128x128 : Shape := ⟨3, ![64, 128, 128]⟩
abbrev S64x1x127 : Shape := ⟨3, ![64, 1, 127]⟩
abbrev S64x127 : Shape := ⟨2, ![64, 127]⟩
abbrev S64x1x1 : Shape := ⟨3, ![64, 1, 1]⟩
abbrev S64x1 : Shape := ⟨2, ![64, 1]⟩
abbrev S64x1x126 : Shape := ⟨3, ![64, 1, 126]⟩
abbrev S64x126 : Shape := ⟨2, ![64, 126]⟩
abbrev S64x1x2 : Shape := ⟨3, ![64, 1, 2]⟩
abbrev S64x2 : Shape := ⟨2, ![64, 2]⟩
abbrev S64x1x125 : Shape := ⟨3, ![64, 1, 125]⟩
abbrev S64x125 : Shape := ⟨2, ![64, 125]⟩
abbrev S64x1x3 : Shape := ⟨3, ![64, 1, 3]⟩
abbrev S64x3 : Shape := ⟨2, ![64, 3]⟩
abbrev S64x1x124 : Shape := ⟨3, ![64, 1, 124]⟩
abbrev S64x124 : Shape := ⟨2, ![64, 124]⟩
abbrev S64x1x4 : Shape := ⟨3, ![64, 1, 4]⟩
abbrev S64x4 : Shape := ⟨2, ![64, 4]⟩
abbrev S64x1x123 : Shape := ⟨3, ![64, 1, 123]⟩
abbrev S64x123 : Shape := ⟨2, ![64, 123]⟩
abbrev S64x1x5 : Shape := ⟨3, ![64, 1, 5]⟩
abbrev S64x5 : Shape := ⟨2, ![64, 5]⟩
abbrev S64x1x122 : Shape := ⟨3, ![64, 1, 122]⟩
abbrev S64x122 : Shape := ⟨2, ![64, 122]⟩
abbrev S64x1x6 : Shape := ⟨3, ![64, 1, 6]⟩
abbrev S64x6 : Shape := ⟨2, ![64, 6]⟩
abbrev S64x1x121 : Shape := ⟨3, ![64, 1, 121]⟩
abbrev S64x121 : Shape := ⟨2, ![64, 121]⟩
abbrev S64x1x7 : Shape := ⟨3, ![64, 1, 7]⟩
abbrev S64x7 : Shape := ⟨2, ![64, 7]⟩
abbrev S64x1x120 : Shape := ⟨3, ![64, 1, 120]⟩
abbrev S64x120 : Shape := ⟨2, ![64, 120]⟩
abbrev S64x1x8 : Shape := ⟨3, ![64, 1, 8]⟩
abbrev S64x8 : Shape := ⟨2, ![64, 8]⟩
abbrev S64x1x119 : Shape := ⟨3, ![64, 1, 119]⟩
abbrev S64x119 : Shape := ⟨2, ![64, 119]⟩
abbrev S64x1x9 : Shape := ⟨3, ![64, 1, 9]⟩
abbrev S64x9 : Shape := ⟨2, ![64, 9]⟩
abbrev S64x1x118 : Shape := ⟨3, ![64, 1, 118]⟩
abbrev S64x118 : Shape := ⟨2, ![64, 118]⟩
abbrev S64x1x10 : Shape := ⟨3, ![64, 1, 10]⟩
abbrev S64x10 : Shape := ⟨2, ![64, 10]⟩
abbrev S64x1x117 : Shape := ⟨3, ![64, 1, 117]⟩
abbrev S64x117 : Shape := ⟨2, ![64, 117]⟩
abbrev S64x1x11 : Shape := ⟨3, ![64, 1, 11]⟩
abbrev S64x11 : Shape := ⟨2, ![64, 11]⟩
abbrev S64x1x116 : Shape := ⟨3, ![64, 1, 116]⟩
abbrev S64x116 : Shape := ⟨2, ![64, 116]⟩
abbrev S64x1x12 : Shape := ⟨3, ![64, 1, 12]⟩
abbrev S64x12 : Shape := ⟨2, ![64, 12]⟩
abbrev S64x1x115 : Shape := ⟨3, ![64, 1, 115]⟩
abbrev S64x115 : Shape := ⟨2, ![64, 115]⟩
abbrev S64x1x13 : Shape := ⟨3, ![64, 1, 13]⟩
abbrev S64x13 : Shape := ⟨2, ![64, 13]⟩
abbrev S64x1x114 : Shape := ⟨3, ![64, 1, 114]⟩
abbrev S64x114 : Shape := ⟨2, ![64, 114]⟩
abbrev S64x1x14 : Shape := ⟨3, ![64, 1, 14]⟩
abbrev S64x14 : Shape := ⟨2, ![64, 14]⟩
abbrev S64x1x113 : Shape := ⟨3, ![64, 1, 113]⟩
abbrev S64x113 : Shape := ⟨2, ![64, 113]⟩
abbrev S64x1x15 : Shape := ⟨3, ![64, 1, 15]⟩
abbrev S64x15 : Shape := ⟨2, ![64, 15]⟩
abbrev S64x1x112 : Shape := ⟨3, ![64, 1, 112]⟩
abbrev S64x112 : Shape := ⟨2, ![64, 112]⟩
abbrev S64x1x16 : Shape := ⟨3, ![64, 1, 16]⟩
abbrev S64x16 : Shape := ⟨2, ![64, 16]⟩
abbrev S64x1x111 : Shape := ⟨3, ![64, 1, 111]⟩
abbrev S64x111 : Shape := ⟨2, ![64, 111]⟩
abbrev S64x1x17 : Shape := ⟨3, ![64, 1, 17]⟩
abbrev S64x17 : Shape := ⟨2, ![64, 17]⟩
abbrev S64x1x110 : Shape := ⟨3, ![64, 1, 110]⟩
abbrev S64x110 : Shape := ⟨2, ![64, 110]⟩
abbrev S64x1x18 : Shape := ⟨3, ![64, 1, 18]⟩
abbrev S64x18 : Shape := ⟨2, ![64, 18]⟩
abbrev S64x1x109 : Shape := ⟨3, ![64, 1, 109]⟩
abbrev S64x109 : Shape := ⟨2, ![64, 109]⟩
abbrev S64x1x19 : Shape := ⟨3, ![64, 1, 19]⟩
abbrev S64x19 : Shape := ⟨2, ![64, 19]⟩
abbrev S64x1x108 : Shape := ⟨3, ![64, 1, 108]⟩
abbrev S64x108 : Shape := ⟨2, ![64, 108]⟩
abbrev S64x1x20 : Shape := ⟨3, ![64, 1, 20]⟩
abbrev S64x20 : Shape := ⟨2, ![64, 20]⟩
abbrev S64x1x107 : Shape := ⟨3, ![64, 1, 107]⟩
abbrev S64x107 : Shape := ⟨2, ![64, 107]⟩
abbrev S64x1x21 : Shape := ⟨3, ![64, 1, 21]⟩
abbrev S64x21 : Shape := ⟨2, ![64, 21]⟩
abbrev S64x1x106 : Shape := ⟨3, ![64, 1, 106]⟩
abbrev S64x106 : Shape := ⟨2, ![64, 106]⟩
abbrev S64x1x22 : Shape := ⟨3, ![64, 1, 22]⟩
abbrev S64x22 : Shape := ⟨2, ![64, 22]⟩
abbrev S64x1x105 : Shape := ⟨3, ![64, 1, 105]⟩
abbrev S64x105 : Shape := ⟨2, ![64, 105]⟩
abbrev S64x1x23 : Shape := ⟨3, ![64, 1, 23]⟩
abbrev S64x23 : Shape := ⟨2, ![64, 23]⟩
abbrev S64x1x104 : Shape := ⟨3, ![64, 1, 104]⟩
abbrev S64x104 : Shape := ⟨2, ![64, 104]⟩
abbrev S64x1x24 : Shape := ⟨3, ![64, 1, 24]⟩
abbrev S64x24 : Shape := ⟨2, ![64, 24]⟩
abbrev S64x1x103 : Shape := ⟨3, ![64, 1, 103]⟩
abbrev S64x103 : Shape := ⟨2, ![64, 103]⟩
abbrev S64x1x25 : Shape := ⟨3, ![64, 1, 25]⟩
abbrev S64x25 : Shape := ⟨2, ![64, 25]⟩
abbrev S64x1x102 : Shape := ⟨3, ![64, 1, 102]⟩
abbrev S64x102 : Shape := ⟨2, ![64, 102]⟩
abbrev S64x1x26 : Shape := ⟨3, ![64, 1, 26]⟩
abbrev S64x26 : Shape := ⟨2, ![64, 26]⟩
abbrev S64x1x101 : Shape := ⟨3, ![64, 1, 101]⟩
abbrev S64x101 : Shape := ⟨2, ![64, 101]⟩
abbrev S64x1x27 : Shape := ⟨3, ![64, 1, 27]⟩
abbrev S64x27 : Shape := ⟨2, ![64, 27]⟩
abbrev S64x1x100 : Shape := ⟨3, ![64, 1, 100]⟩
abbrev S64x100 : Shape := ⟨2, ![64, 100]⟩
abbrev S64x1x28 : Shape := ⟨3, ![64, 1, 28]⟩
abbrev S64x28 : Shape := ⟨2, ![64, 28]⟩
abbrev S64x1x99 : Shape := ⟨3, ![64, 1, 99]⟩
abbrev S64x99 : Shape := ⟨2, ![64, 99]⟩
abbrev S64x1x29 : Shape := ⟨3, ![64, 1, 29]⟩
abbrev S64x29 : Shape := ⟨2, ![64, 29]⟩
abbrev S64x1x98 : Shape := ⟨3, ![64, 1, 98]⟩
abbrev S64x98 : Shape := ⟨2, ![64, 98]⟩
abbrev S64x1x30 : Shape := ⟨3, ![64, 1, 30]⟩
abbrev S64x30 : Shape := ⟨2, ![64, 30]⟩
abbrev S64x1x97 : Shape := ⟨3, ![64, 1, 97]⟩
abbrev S64x97 : Shape := ⟨2, ![64, 97]⟩
abbrev S64x1x31 : Shape := ⟨3, ![64, 1, 31]⟩
abbrev S64x31 : Shape := ⟨2, ![64, 31]⟩
abbrev S64x1x96 : Shape := ⟨3, ![64, 1, 96]⟩
abbrev S64x96 : Shape := ⟨2, ![64, 96]⟩
abbrev S64x1x32 : Shape := ⟨3, ![64, 1, 32]⟩
abbrev S64x32 : Shape := ⟨2, ![64, 32]⟩
abbrev S64x1x95 : Shape := ⟨3, ![64, 1, 95]⟩
abbrev S64x95 : Shape := ⟨2, ![64, 95]⟩
abbrev S64x1x33 : Shape := ⟨3, ![64, 1, 33]⟩
abbrev S64x33 : Shape := ⟨2, ![64, 33]⟩
abbrev S64x1x94 : Shape := ⟨3, ![64, 1, 94]⟩
abbrev S64x94 : Shape := ⟨2, ![64, 94]⟩
abbrev S64x1x34 : Shape := ⟨3, ![64, 1, 34]⟩
abbrev S64x34 : Shape := ⟨2, ![64, 34]⟩
abbrev S64x1x93 : Shape := ⟨3, ![64, 1, 93]⟩
abbrev S64x93 : Shape := ⟨2, ![64, 93]⟩
abbrev S64x1x35 : Shape := ⟨3, ![64, 1, 35]⟩
abbrev S64x35 : Shape := ⟨2, ![64, 35]⟩
abbrev S64x1x92 : Shape := ⟨3, ![64, 1, 92]⟩
abbrev S64x92 : Shape := ⟨2, ![64, 92]⟩
abbrev S64x1x36 : Shape := ⟨3, ![64, 1, 36]⟩
abbrev S64x36 : Shape := ⟨2, ![64, 36]⟩
abbrev S64x1x91 : Shape := ⟨3, ![64, 1, 91]⟩
abbrev S64x91 : Shape := ⟨2, ![64, 91]⟩
abbrev S64x1x37 : Shape := ⟨3, ![64, 1, 37]⟩
abbrev S64x37 : Shape := ⟨2, ![64, 37]⟩
abbrev S64x1x90 : Shape := ⟨3, ![64, 1, 90]⟩
abbrev S64x90 : Shape := ⟨2, ![64, 90]⟩
abbrev S64x1x38 : Shape := ⟨3, ![64, 1, 38]⟩
abbrev S64x38 : Shape := ⟨2, ![64, 38]⟩
abbrev S64x1x89 : Shape := ⟨3, ![64, 1, 89]⟩
abbrev S64x89 : Shape := ⟨2, ![64, 89]⟩
abbrev S64x1x39 : Shape := ⟨3, ![64, 1, 39]⟩
abbrev S64x39 : Shape := ⟨2, ![64, 39]⟩
abbrev S64x1x88 : Shape := ⟨3, ![64, 1, 88]⟩
abbrev S64x88 : Shape := ⟨2, ![64, 88]⟩
abbrev S64x1x40 : Shape := ⟨3, ![64, 1, 40]⟩
abbrev S64x40 : Shape := ⟨2, ![64, 40]⟩
abbrev S64x1x87 : Shape := ⟨3, ![64, 1, 87]⟩
abbrev S64x87 : Shape := ⟨2, ![64, 87]⟩
abbrev S64x1x41 : Shape := ⟨3, ![64, 1, 41]⟩
abbrev S64x41 : Shape := ⟨2, ![64, 41]⟩
abbrev S64x1x86 : Shape := ⟨3, ![64, 1, 86]⟩
abbrev S64x86 : Shape := ⟨2, ![64, 86]⟩
abbrev S64x1x42 : Shape := ⟨3, ![64, 1, 42]⟩
abbrev S64x42 : Shape := ⟨2, ![64, 42]⟩
abbrev S64x1x85 : Shape := ⟨3, ![64, 1, 85]⟩
abbrev S64x85 : Shape := ⟨2, ![64, 85]⟩
abbrev S64x1x43 : Shape := ⟨3, ![64, 1, 43]⟩
abbrev S64x43 : Shape := ⟨2, ![64, 43]⟩
abbrev S64x1x84 : Shape := ⟨3, ![64, 1, 84]⟩
abbrev S64x84 : Shape := ⟨2, ![64, 84]⟩
abbrev S64x1x44 : Shape := ⟨3, ![64, 1, 44]⟩
abbrev S64x44 : Shape := ⟨2, ![64, 44]⟩
abbrev S64x1x83 : Shape := ⟨3, ![64, 1, 83]⟩
abbrev S64x83 : Shape := ⟨2, ![64, 83]⟩
abbrev S64x1x45 : Shape := ⟨3, ![64, 1, 45]⟩
abbrev S64x45 : Shape := ⟨2, ![64, 45]⟩
abbrev S64x1x82 : Shape := ⟨3, ![64, 1, 82]⟩
abbrev S64x82 : Shape := ⟨2, ![64, 82]⟩
abbrev S64x1x46 : Shape := ⟨3, ![64, 1, 46]⟩
abbrev S64x46 : Shape := ⟨2, ![64, 46]⟩
abbrev S64x1x81 : Shape := ⟨3, ![64, 1, 81]⟩
abbrev S64x81 : Shape := ⟨2, ![64, 81]⟩
abbrev S64x1x47 : Shape := ⟨3, ![64, 1, 47]⟩
abbrev S64x47 : Shape := ⟨2, ![64, 47]⟩
abbrev S64x1x80 : Shape := ⟨3, ![64, 1, 80]⟩
abbrev S64x80 : Shape := ⟨2, ![64, 80]⟩
abbrev S64x1x48 : Shape := ⟨3, ![64, 1, 48]⟩
abbrev S64x48 : Shape := ⟨2, ![64, 48]⟩
abbrev S64x1x79 : Shape := ⟨3, ![64, 1, 79]⟩
abbrev S64x79 : Shape := ⟨2, ![64, 79]⟩
abbrev S64x1x49 : Shape := ⟨3, ![64, 1, 49]⟩
abbrev S64x49 : Shape := ⟨2, ![64, 49]⟩
abbrev S64x1x78 : Shape := ⟨3, ![64, 1, 78]⟩
abbrev S64x78 : Shape := ⟨2, ![64, 78]⟩
abbrev S64x1x50 : Shape := ⟨3, ![64, 1, 50]⟩
abbrev S64x50 : Shape := ⟨2, ![64, 50]⟩
abbrev S64x1x77 : Shape := ⟨3, ![64, 1, 77]⟩
abbrev S64x77 : Shape := ⟨2, ![64, 77]⟩
abbrev S64x1x51 : Shape := ⟨3, ![64, 1, 51]⟩
abbrev S64x51 : Shape := ⟨2, ![64, 51]⟩
abbrev S64x1x76 : Shape := ⟨3, ![64, 1, 76]⟩
abbrev S64x76 : Shape := ⟨2, ![64, 76]⟩
abbrev S64x1x52 : Shape := ⟨3, ![64, 1, 52]⟩
abbrev S64x52 : Shape := ⟨2, ![64, 52]⟩
abbrev S64x1x75 : Shape := ⟨3, ![64, 1, 75]⟩
abbrev S64x75 : Shape := ⟨2, ![64, 75]⟩
abbrev S64x1x53 : Shape := ⟨3, ![64, 1, 53]⟩
abbrev S64x53 : Shape := ⟨2, ![64, 53]⟩
abbrev S64x1x74 : Shape := ⟨3, ![64, 1, 74]⟩
abbrev S64x74 : Shape := ⟨2, ![64, 74]⟩
abbrev S64x1x54 : Shape := ⟨3, ![64, 1, 54]⟩
abbrev S64x54 : Shape := ⟨2, ![64, 54]⟩
abbrev S64x1x73 : Shape := ⟨3, ![64, 1, 73]⟩
abbrev S64x73 : Shape := ⟨2, ![64, 73]⟩
abbrev S64x1x55 : Shape := ⟨3, ![64, 1, 55]⟩
abbrev S64x55 : Shape := ⟨2, ![64, 55]⟩
abbrev S64x1x72 : Shape := ⟨3, ![64, 1, 72]⟩
abbrev S64x72 : Shape := ⟨2, ![64, 72]⟩
abbrev S64x1x56 : Shape := ⟨3, ![64, 1, 56]⟩
abbrev S64x56 : Shape := ⟨2, ![64, 56]⟩
abbrev S64x1x71 : Shape := ⟨3, ![64, 1, 71]⟩
abbrev S64x71 : Shape := ⟨2, ![64, 71]⟩
abbrev S64x1x57 : Shape := ⟨3, ![64, 1, 57]⟩
abbrev S64x57 : Shape := ⟨2, ![64, 57]⟩
abbrev S64x1x70 : Shape := ⟨3, ![64, 1, 70]⟩
abbrev S64x70 : Shape := ⟨2, ![64, 70]⟩
abbrev S64x1x58 : Shape := ⟨3, ![64, 1, 58]⟩
abbrev S64x58 : Shape := ⟨2, ![64, 58]⟩
abbrev S64x1x69 : Shape := ⟨3, ![64, 1, 69]⟩
abbrev S64x69 : Shape := ⟨2, ![64, 69]⟩
abbrev S64x1x59 : Shape := ⟨3, ![64, 1, 59]⟩
abbrev S64x59 : Shape := ⟨2, ![64, 59]⟩
abbrev S64x1x68 : Shape := ⟨3, ![64, 1, 68]⟩
abbrev S64x68 : Shape := ⟨2, ![64, 68]⟩
abbrev S64x1x60 : Shape := ⟨3, ![64, 1, 60]⟩
abbrev S64x60 : Shape := ⟨2, ![64, 60]⟩
abbrev S64x1x67 : Shape := ⟨3, ![64, 1, 67]⟩
abbrev S64x67 : Shape := ⟨2, ![64, 67]⟩
abbrev S64x1x61 : Shape := ⟨3, ![64, 1, 61]⟩
abbrev S64x61 : Shape := ⟨2, ![64, 61]⟩
abbrev S64x1x66 : Shape := ⟨3, ![64, 1, 66]⟩
abbrev S64x66 : Shape := ⟨2, ![64, 66]⟩
abbrev S64x1x62 : Shape := ⟨3, ![64, 1, 62]⟩
abbrev S64x62 : Shape := ⟨2, ![64, 62]⟩
abbrev S64x1x65 : Shape := ⟨3, ![64, 1, 65]⟩
abbrev S64x65 : Shape := ⟨2, ![64, 65]⟩
abbrev S64x1x63 : Shape := ⟨3, ![64, 1, 63]⟩
abbrev S64x63 : Shape := ⟨2, ![64, 63]⟩
abbrev S64x1x64 : Shape := ⟨3, ![64, 1, 64]⟩
abbrev S64x64 : Shape := ⟨2, ![64, 64]⟩
abbrev S128x128 : Shape := ⟨2, ![128, 128]⟩
abbrev S128x1 : Shape := ⟨2, ![128, 1]⟩
abbrev S8192x128 : Shape := ⟨2, ![8192, 128]⟩
abbrev S1x1x128 : Shape := ⟨3, ![1, 1, 128]⟩
abbrev S4096x128x128 : Shape := ⟨3, ![4096, 128, 128]⟩

abbrev nBuf : Space → Nat
  | .hbm => 46
  | .vmem => 24
  | .smem => 0
  | _ => 0

abbrev bufTy : (tb : Table) → Fin (tcTables nBuf tb) → BufTy
  | .hbm, ⟨0, _⟩ => ⟨S4096x128, .f32⟩
  | .hbm, ⟨1, _⟩ => ⟨S128, .f32⟩
  | .hbm, ⟨2, _⟩ => ⟨S128, .f32⟩
  | .hbm, ⟨3, _⟩ => ⟨S128x129, .f32⟩
  | .hbm, ⟨4, _⟩ => ⟨S128, .f32⟩
  | .hbm, ⟨5, _⟩ => ⟨S128, .f32⟩
  | .hbm, ⟨6, _⟩ => ⟨S128, .f32⟩
  | .hbm, ⟨7, _⟩ => ⟨S_, .f32⟩
  | .hbm, ⟨8, _⟩ => ⟨S128, .f32⟩
  | .hbm, ⟨9, _⟩ => ⟨S_, .f32⟩
  | .hbm, ⟨10, _⟩ => ⟨S128, .f32⟩
  | .hbm, ⟨11, _⟩ => ⟨S128, .f32⟩
  | .hbm, ⟨12, _⟩ => ⟨S_, .i32⟩
  | .hbm, ⟨13, _⟩ => ⟨S_, .f32⟩
  | .hbm, ⟨14, _⟩ => ⟨S128, .f32⟩
  | .hbm, ⟨15, _⟩ => ⟨S1x128, .f32⟩
  | .hbm, ⟨16, _⟩ => ⟨S_, .f32⟩
  | .hbm, ⟨17, _⟩ => ⟨S1x128, .f32⟩
  | .hbm, ⟨18, _⟩ => ⟨S1x128, .f32⟩
  | .hbm, ⟨19, _⟩ => ⟨S4096x128, .f32⟩
  | .hbm, ⟨20, _⟩ => ⟨S4096x128, .f32⟩
  | .hbm, ⟨21, _⟩ => ⟨S4096x128, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S128, .f32⟩
  | .hbm, ⟨27, _⟩ => ⟨S128, .f32⟩
  | .hbm, ⟨28, _⟩ => ⟨S128, .f32⟩
  | .hbm, ⟨29, _⟩ => ⟨S_, .f32⟩
  | .hbm, ⟨30, _⟩ => ⟨S_, .i1⟩
  | .hbm, ⟨31, _⟩ => ⟨S_, .f32⟩
  | .hbm, ⟨32, _⟩ => ⟨S_, .f32⟩
  | .hbm, ⟨33, _⟩ => ⟨S128, .f32⟩
  | .hbm, ⟨34, _⟩ => ⟨S128, .f32⟩
  | .hbm, ⟨35, _⟩ => ⟨S128, .f32⟩
  | .hbm, ⟨36, _⟩ => ⟨S128, .f32⟩
  | .hbm, ⟨37, _⟩ => ⟨S_, .f32⟩
  | .hbm, ⟨38, _⟩ => ⟨S128, .f32⟩
  | .hbm, ⟨39, _⟩ => ⟨S128, .f32⟩
  | .hbm, ⟨40, _⟩ => ⟨S_, .f32⟩
  | .hbm, ⟨41, _⟩ => ⟨S128, .f32⟩
  | .hbm, ⟨42, _⟩ => ⟨S128, .f32⟩
  | .hbm, ⟨43, _⟩ => ⟨S128, .f32⟩
  | .hbm, ⟨44, _⟩ => ⟨S128, .f32⟩
  | .hbm, ⟨45, _⟩ => ⟨S4096x128x128, .f32⟩
  | .local _ .vmem, ⟨0, _⟩ => ⟨S64x128, .f32⟩
  | .local _ .vmem, ⟨1, _⟩ => ⟨S64x128, .f32⟩
  | .local _ .vmem, ⟨2, _⟩ => ⟨S128, .f32⟩
  | .local _ .vmem, ⟨3, _⟩ => ⟨S128, .f32⟩
  | .local _ .vmem, ⟨4, _⟩ => ⟨S128, .f32⟩
  | .local _ .vmem, ⟨5, _⟩ => ⟨S128, .f32⟩
  | .local _ .vmem, ⟨6, _⟩ => ⟨S128x129, .f32⟩
  | .local _ .vmem, ⟨7, _⟩ => ⟨S128, .f32⟩
  | .local _ .vmem, ⟨8, _⟩ => ⟨S128, .f32⟩
  | .local _ .vmem, ⟨9, _⟩ => ⟨S128, .f32⟩
  | .local _ .vmem, ⟨10, _⟩ => ⟨S64x128, .f32⟩
  | .local _ .vmem, ⟨11, _⟩ => ⟨S64x128, .f32⟩
  | .local _ .vmem, ⟨12, _⟩ => ⟨S128, .f32⟩
  | .local _ .vmem, ⟨13, _⟩ => ⟨S128, .f32⟩
  | .local _ .vmem, ⟨14, _⟩ => ⟨S128, .f32⟩
  | .local _ .vmem, ⟨15, _⟩ => ⟨S128, .f32⟩
  | .local _ .vmem, ⟨16, _⟩ => ⟨S128x129, .f32⟩
  | .local _ .vmem, ⟨17, _⟩ => ⟨S128, .f32⟩
  | .local _ .vmem, ⟨18, _⟩ => ⟨S128, .f32⟩
  | .local _ .vmem, ⟨19, _⟩ => ⟨S128, .f32⟩
  | .local _ .vmem, ⟨20, _⟩ => ⟨S128, .f32⟩
  | .local _ .vmem, ⟨21, _⟩ => ⟨S128, .f32⟩
  | .local _ .vmem, ⟨22, _⟩ => ⟨S64x128x128, .f32⟩
  | .local _ .vmem, ⟨23, _⟩ => ⟨S64x128x128, .f32⟩
  | _, _ => ⟨S4096x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_cst_0 : Ref sig .tc := ⟨.hbm, 9, rfl⟩
abbrev main_v1 : Ref sig .tc := ⟨.hbm, 10, rfl⟩
abbrev main_v2 : Ref sig .tc := ⟨.hbm, 11, rfl⟩
abbrev main_c : Ref sig .tc := ⟨.hbm, 12, rfl⟩
abbrev main_call0_cst : Ref sig .tc := ⟨.hbm, 13, rfl⟩
abbrev main_call0_v0 : Ref sig .tc := ⟨.hbm, 14, rfl⟩
abbrev main_call0_v1 : Ref sig .tc := ⟨.hbm, 15, rfl⟩
abbrev main_call0_cst_0 : Ref sig .tc := ⟨.hbm, 16, rfl⟩
abbrev main_call0_v2 : Ref sig .tc := ⟨.hbm, 17, rfl⟩
abbrev main_call0_v3 : Ref sig .tc := ⟨.hbm, 18, rfl⟩
abbrev main_call0_v4 : Ref sig .tc := ⟨.hbm, 19, rfl⟩
abbrev main_call0_v5 : Ref sig .tc := ⟨.hbm, 20, rfl⟩
abbrev main_call0_v6 : Ref sig .tc := ⟨.hbm, 21, rfl⟩
abbrev main_call0_v7 : Ref sig .tc := ⟨.hbm, 22, rfl⟩
abbrev main_call0_cst_1 : Ref sig .tc := ⟨.hbm, 23, rfl⟩
abbrev main_call0_v8 : Ref sig .tc := ⟨.hbm, 24, rfl⟩
abbrev main_call0_cst_2 : Ref sig .tc := ⟨.hbm, 25, rfl⟩
abbrev main_call0_v9 : Ref sig .tc := ⟨.hbm, 26, rfl⟩
abbrev main_call0_v10 : Ref sig .tc := ⟨.hbm, 27, rfl⟩
abbrev main_call0_v11 : Ref sig .tc := ⟨.hbm, 28, rfl⟩
abbrev main_call0_cst_3 : Ref sig .tc := ⟨.hbm, 29, rfl⟩
abbrev main_call0_v12 : Ref sig .tc := ⟨.hbm, 30, rfl⟩
abbrev main_call0_cst_4 : Ref sig .tc := ⟨.hbm, 31, rfl⟩
abbrev main_call0_call0_v0 : Ref sig .tc := ⟨.hbm, 32, rfl⟩
abbrev main_call0_call0_v1 : Ref sig .tc := ⟨.hbm, 33, rfl⟩
abbrev main_v3 : Ref sig .tc := ⟨.hbm, 34, rfl⟩
abbrev main_v4_0 : Ref sig .tc := ⟨.hbm, 35, rfl⟩
abbrev main_v4_1 : Ref sig .tc := ⟨.hbm, 36, rfl⟩
abbrev main_cst_1 : Ref sig .tc := ⟨.hbm, 37, rfl⟩
abbrev main_v5 : Ref sig .tc := ⟨.hbm, 38, rfl⟩
abbrev main_v6 : Ref sig .tc := ⟨.hbm, 39, rfl⟩
abbrev main_cst_2 : Ref sig .tc := ⟨.hbm, 40, rfl⟩
abbrev main_v7 : Ref sig .tc := ⟨.hbm, 41, rfl⟩
abbrev main_v8 : Ref sig .tc := ⟨.hbm, 42, rfl⟩
abbrev main_v9 : Ref sig .tc := ⟨.hbm, 43, rfl⟩
abbrev main_v10 : Ref sig .tc := ⟨.hbm, 44, rfl⟩
abbrev main_v11 : Ref sig .tc := ⟨.hbm, 45, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg6_0 : Ref sig .tc := ⟨.vmem, 17, rfl⟩
abbrev cc1_stg7_0 : Ref sig .tc := ⟨.vmem, 18, rfl⟩
abbrev cc1_stg8_0 : Ref sig .tc := ⟨.vmem, 19, rfl⟩
abbrev cc1_stg9_0 : Ref sig .tc := ⟨.vmem, 20, rfl⟩
abbrev cc1_stg10_0 : Ref sig .tc := ⟨.vmem, 21, rfl⟩
abbrev cc1_stg11_0 : Ref sig .tc := ⟨.vmem, 22, rfl⟩
abbrev cc1_stg11_1 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc1_sem0_0 : DmaSem sig := 10
abbrev cc1_sem0_1 : DmaSem sig := 11
abbrev cc1_sem1_0 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem6_0 : DmaSem sig := 17
abbrev cc1_sem7_0 : DmaSem sig := 18
abbrev cc1_sem8_0 : DmaSem sig := 19
abbrev cc1_sem9_0 : DmaSem sig := 20
abbrev cc1_sem10_0 : DmaSem sig := 21
abbrev cc1_sem11_0 : DmaSem sig := 22
abbrev cc1_sem11_1 : DmaSem sig := 23

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

abbrev stage0_0 : Fin 2 → Memref sig .tc .vmem S64x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x129 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev grid1 : Pipeline.Grid := ⟨1, ![64], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_7 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_8 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_9 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_10 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_11 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S64x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x129 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S128 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S128 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 1 → Memref sig .tc .vmem S128 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev stage1_11 : Fin 2 → Memref sig .tc .vmem S64x128x128 .f32 := fun | 0 => Memref.whole cc1_stg11_0 | 1 => Memref.whole cc1_stg11_1 | ⟨_ + 2, h⟩ => absurd h (Nat.not_lt.2 (Nat.le_add_left _ _))
abbrev sem1_11 : Fin 2 → DmaSem sig := fun | 0 => cc1_sem11_0 | 1 => cc1_sem11_1 | ⟨_ + 2, h⟩ => absurd h (Nat.not_lt.2 (Nat.le_add_left _ _))
abbrev reads1_11 : Fin grid1.rank → Bool := ![true]

class Facts₀ : Prop where
  reducesTo_S4096x128_S128_d0 : S4096x128.ReducesTo [0] S128
  h_S_ : 0 < S_.numel
  bcast_S_S128 : S_.BroadcastsInDim S128 (![] : Fin 0 → Fin S128.rank)
  bcast_S128_S1x128_1 : S128.BroadcastsInDim S1x128 (![1] : Fin 1 → Fin S1x128.rank)
  bcast_S_S1x128 : S_.BroadcastsInDim S1x128 (![] : Fin 0 → Fin S1x128.rank)
  bcast_S1x128_S4096x128_0_1 : S1x128.BroadcastsInDim S4096x128 (![0, 1] : Fin 2 → Fin S4096x128.rank)
  inb_S128_S128_0 : ∀ a, (![0] : Fin 1 → Nat) a + S128.size a ≤ S128.size a
  h_S128 : 0 < S128.numel
  inb_S64x128_S64x128_0_0 : ∀ a, (![0, 0] : Fin 2 → Nat) a + S64x128.size a ≤ S64x128.size a
  h_S64x128 : 0 < S64x128.numel
  shapeCasts_S128_S128 : S128.ShapeCasts S128
  inb_S128x129_S128x129_0_0 : ∀ a, (![0, 0] : Fin 2 → Nat) a + S128x129.size a ≤ S128x129.size a
  h_S128x129 : 0 < S128x129.numel
  shapeCasts_S128_S1x128 : S128.ShapeCasts S1x128
  broadcasts_S1x128_S64x128 : S1x128.Broadcasts S64x128
  shapeCasts_S64x128_S64x128x1 : S64x128.ShapeCasts S64x128x1
  shapeCasts_S64x128_S64x1x128 : S64x128.ShapeCasts S64x1x128
  broadcasts_S64x128x1_S64x128x128 : S64x128x1.Broadcasts S64x128x128
  broadcasts_S64x1x128_S64x128x128 : S64x1x128.Broadcasts S64x128x128
  slices_S64x128x128_o0_0_1_S64x1x127 : S64x128x128.Slices ![0, 0, 1] S64x1x127
  shapeCasts_S64x1x127_S64x127 : S64x1x127.ShapeCasts S64x127
  slices_S64x128x128_o0_1_0_S64x1x1 : S64x128x128.Slices ![0, 1, 0] S64x1x1
  shapeCasts_S64x1x1_S64x1 : S64x1x1.ShapeCasts S64x1
  concatenates_S64x127_S64x1_S64x128_d1 : Shape.Concatenates [S64x127, S64x1] S64x128 1
  slices_S64x128x128_o0_1_2_S64x1x126 : S64x128x128.Slices ![0, 1, 2] S64x1x126
  shapeCasts_S64x1x126_S64x126 : S64x1x126.ShapeCasts S64x126
  slices_S64x128x128_o0_2_0_S64x1x2 : S64x128x128.Slices ![0, 2, 0] S64x1x2
  shapeCasts_S64x1x2_S64x2 : S64x1x2.ShapeCasts S64x2
  concatenates_S64x126_S64x2_S64x128_d1 : Shape.Concatenates [S64x126, S64x2] S64x128 1
  slices_S64x128x128_o0_2_3_S64x1x125 : S64x128x128.Slices ![0, 2, 3] S64x1x125
  shapeCasts_S64x1x125_S64x125 : S64x1x125.ShapeCasts S64x125
  slices_S64x128x128_o0_3_0_S64x1x3 : S64x128x128.Slices ![0, 3, 0] S64x1x3
  shapeCasts_S64x1x3_S64x3 : S64x1x3.ShapeCasts S64x3
  concatenates_S64x125_S64x3_S64x128_d1 : Shape.Concatenates [S64x125, S64x3] S64x128 1
  slices_S64x128x128_o0_3_4_S64x1x124 : S64x128x128.Slices ![0, 3, 4] S64x1x124
  shapeCasts_S64x1x124_S64x124 : S64x1x124.ShapeCasts S64x124
  slices_S64x128x128_o0_4_0_S64x1x4 : S64x128x128.Slices ![0, 4, 0] S64x1x4
  shapeCasts_S64x1x4_S64x4 : S64x1x4.ShapeCasts S64x4
  concatenates_S64x124_S64x4_S64x128_d1 : Shape.Concatenates [S64x124, S64x4] S64x128 1
  slices_S64x128x128_o0_4_5_S64x1x123 : S64x128x128.Slices ![0, 4, 5] S64x1x123
  shapeCasts_S64x1x123_S64x123 : S64x1x123.ShapeCasts S64x123
  slices_S64x128x128_o0_5_0_S64x1x5 : S64x128x128.Slices ![0, 5, 0] S64x1x5
  shapeCasts_S64x1x5_S64x5 : S64x1x5.ShapeCasts S64x5
  concatenates_S64x123_S64x5_S64x128_d1 : Shape.Concatenates [S64x123, S64x5] S64x128 1
  slices_S64x128x128_o0_5_6_S64x1x122 : S64x128x128.Slices ![0, 5, 6] S64x1x122
  shapeCasts_S64x1x122_S64x122 : S64x1x122.ShapeCasts S64x122
  slices_S64x128x128_o0_6_0_S64x1x6 : S64x128x128.Slices ![0, 6, 0] S64x1x6
  shapeCasts_S64x1x6_S64x6 : S64x1x6.ShapeCasts S64x6
  concatenates_S64x122_S64x6_S64x128_d1 : Shape.Concatenates [S64x122, S64x6] S64x128 1
  slices_S64x128x128_o0_6_7_S64x1x121 : S64x128x128.Slices ![0, 6, 7] S64x1x121
  shapeCasts_S64x1x121_S64x121 : S64x1x121.ShapeCasts S64x121
  slices_S64x128x128_o0_7_0_S64x1x7 : S64x128x128.Slices ![0, 7, 0] S64x1x7
  shapeCasts_S64x1x7_S64x7 : S64x1x7.ShapeCasts S64x7
  concatenates_S64x121_S64x7_S64x128_d1 : Shape.Concatenates [S64x121, S64x7] S64x128 1
  slices_S64x128x128_o0_7_8_S64x1x120 : S64x128x128.Slices ![0, 7, 8] S64x1x120
  shapeCasts_S64x1x120_S64x120 : S64x1x120.ShapeCasts S64x120
  slices_S64x128x128_o0_8_0_S64x1x8 : S64x128x128.Slices ![0, 8, 0] S64x1x8
  shapeCasts_S64x1x8_S64x8 : S64x1x8.ShapeCasts S64x8
  concatenates_S64x120_S64x8_S64x128_d1 : Shape.Concatenates [S64x120, S64x8] S64x128 1
  slices_S64x128x128_o0_8_9_S64x1x119 : S64x128x128.Slices ![0, 8, 9] S64x1x119
  shapeCasts_S64x1x119_S64x119 : S64x1x119.ShapeCasts S64x119
  slices_S64x128x128_o0_9_0_S64x1x9 : S64x128x128.Slices ![0, 9, 0] S64x1x9
  shapeCasts_S64x1x9_S64x9 : S64x1x9.ShapeCasts S64x9
  concatenates_S64x119_S64x9_S64x128_d1 : Shape.Concatenates [S64x119, S64x9] S64x128 1
  slices_S64x128x128_o0_9_10_S64x1x118 : S64x128x128.Slices ![0, 9, 10] S64x1x118
  shapeCasts_S64x1x118_S64x118 : S64x1x118.ShapeCasts S64x118
  slices_S64x128x128_o0_10_0_S64x1x10 : S64x128x128.Slices ![0, 10, 0] S64x1x10
  shapeCasts_S64x1x10_S64x10 : S64x1x10.ShapeCasts S64x10
  concatenates_S64x118_S64x10_S64x128_d1 : Shape.Concatenates [S64x118, S64x10] S64x128 1
  slices_S64x128x128_o0_10_11_S64x1x117 : S64x128x128.Slices ![0, 10, 11] S64x1x117
  shapeCasts_S64x1x117_S64x117 : S64x1x117.ShapeCasts S64x117
  slices_S64x128x128_o0_11_0_S64x1x11 : S64x128x128.Slices ![0, 11, 0] S64x1x11
  shapeCasts_S64x1x11_S64x11 : S64x1x11.ShapeCasts S64x11
  concatenates_S64x117_S64x11_S64x128_d1 : Shape.Concatenates [S64x117, S64x11] S64x128 1
  slices_S64x128x128_o0_11_12_S64x1x116 : S64x128x128.Slices ![0, 11, 12] S64x1x116
  shapeCasts_S64x1x116_S64x116 : S64x1x116.ShapeCasts S64x116
  slices_S64x128x128_o0_12_0_S64x1x12 : S64x128x128.Slices ![0, 12, 0] S64x1x12
  shapeCasts_S64x1x12_S64x12 : S64x1x12.ShapeCasts S64x12
  concatenates_S64x116_S64x12_S64x128_d1 : Shape.Concatenates [S64x116, S64x12] S64x128 1
  slices_S64x128x128_o0_12_13_S64x1x115 : S64x128x128.Slices ![0, 12, 13] S64x1x115
  shapeCasts_S64x1x115_S64x115 : S64x1x115.ShapeCasts S64x115
  slices_S64x128x128_o0_13_0_S64x1x13 : S64x128x128.Slices ![0, 13, 0] S64x1x13
  shapeCasts_S64x1x13_S64x13 : S64x1x13.ShapeCasts S64x13
  concatenates_S64x115_S64x13_S64x128_d1 : Shape.Concatenates [S64x115, S64x13] S64x128 1
  slices_S64x128x128_o0_13_14_S64x1x114 : S64x128x128.Slices ![0, 13, 14] S64x1x114
  shapeCasts_S64x1x114_S64x114 : S64x1x114.ShapeCasts S64x114
  slices_S64x128x128_o0_14_0_S64x1x14 : S64x128x128.Slices ![0, 14, 0] S64x1x14
  shapeCasts_S64x1x14_S64x14 : S64x1x14.ShapeCasts S64x14
  concatenates_S64x114_S64x14_S64x128_d1 : Shape.Concatenates [S64x114, S64x14] S64x128 1
  slices_S64x128x128_o0_14_15_S64x1x113 : S64x128x128.Slices ![0, 14, 15] S64x1x113
  shapeCasts_S64x1x113_S64x113 : S64x1x113.ShapeCasts S64x113
  slices_S64x128x128_o0_15_0_S64x1x15 : S64x128x128.Slices ![0, 15, 0] S64x1x15
  shapeCasts_S64x1x15_S64x15 : S64x1x15.ShapeCasts S64x15
  concatenates_S64x113_S64x15_S64x128_d1 : Shape.Concatenates [S64x113, S64x15] S64x128 1
  slices_S64x128x128_o0_15_16_S64x1x112 : S64x128x128.Slices ![0, 15, 16] S64x1x112
  shapeCasts_S64x1x112_S64x112 : S64x1x112.ShapeCasts S64x112
  slices_S64x128x128_o0_16_0_S64x1x16 : S64x128x128.Slices ![0, 16, 0] S64x1x16
  shapeCasts_S64x1x16_S64x16 : S64x1x16.ShapeCasts S64x16
  concatenates_S64x112_S64x16_S64x128_d1 : Shape.Concatenates [S64x112, S64x16] S64x128 1
  slices_S64x128x128_o0_16_17_S64x1x111 : S64x128x128.Slices ![0, 16, 17] S64x1x111
  shapeCasts_S64x1x111_S64x111 : S64x1x111.ShapeCasts S64x111
  slices_S64x128x128_o0_17_0_S64x1x17 : S64x128x128.Slices ![0, 17, 0] S64x1x17
  shapeCasts_S64x1x17_S64x17 : S64x1x17.ShapeCasts S64x17
  concatenates_S64x111_S64x17_S64x128_d1 : Shape.Concatenates [S64x111, S64x17] S64x128 1
  slices_S64x128x128_o0_17_18_S64x1x110 : S64x128x128.Slices ![0, 17, 18] S64x1x110
  shapeCasts_S64x1x110_S64x110 : S64x1x110.ShapeCasts S64x110
  slices_S64x128x128_o0_18_0_S64x1x18 : S64x128x128.Slices ![0, 18, 0] S64x1x18
  shapeCasts_S64x1x18_S64x18 : S64x1x18.ShapeCasts S64x18
  concatenates_S64x110_S64x18_S64x128_d1 : Shape.Concatenates [S64x110, S64x18] S64x128 1
  slices_S64x128x128_o0_18_19_S64x1x109 : S64x128x128.Slices ![0, 18, 19] S64x1x109
  shapeCasts_S64x1x109_S64x109 : S64x1x109.ShapeCasts S64x109
  slices_S64x128x128_o0_19_0_S64x1x19 : S64x128x128.Slices ![0, 19, 0] S64x1x19
  shapeCasts_S64x1x19_S64x19 : S64x1x19.ShapeCasts S64x19
  concatenates_S64x109_S64x19_S64x128_d1 : Shape.Concatenates [S64x109, S64x19] S64x128 1
  slices_S64x128x128_o0_19_20_S64x1x108 : S64x128x128.Slices ![0, 19, 20] S64x1x108
  shapeCasts_S64x1x108_S64x108 : S64x1x108.ShapeCasts S64x108
  slices_S64x128x128_o0_20_0_S64x1x20 : S64x128x128.Slices ![0, 20, 0] S64x1x20
  shapeCasts_S64x1x20_S64x20 : S64x1x20.ShapeCasts S64x20
  concatenates_S64x108_S64x20_S64x128_d1 : Shape.Concatenates [S64x108, S64x20] S64x128 1
  slices_S64x128x128_o0_20_21_S64x1x107 : S64x128x128.Slices ![0, 20, 21] S64x1x107
  shapeCasts_S64x1x107_S64x107 : S64x1x107.ShapeCasts S64x107
  slices_S64x128x128_o0_21_0_S64x1x21 : S64x128x128.Slices ![0, 21, 0] S64x1x21
  shapeCasts_S64x1x21_S64x21 : S64x1x21.ShapeCasts S64x21
  concatenates_S64x107_S64x21_S64x128_d1 : Shape.Concatenates [S64x107, S64x21] S64x128 1
  slices_S64x128x128_o0_21_22_S64x1x106 : S64x128x128.Slices ![0, 21, 22] S64x1x106
  shapeCasts_S64x1x106_S64x106 : S64x1x106.ShapeCasts S64x106
  slices_S64x128x128_o0_22_0_S64x1x22 : S64x128x128.Slices ![0, 22, 0] S64x1x22
  shapeCasts_S64x1x22_S64x22 : S64x1x22.ShapeCasts S64x22
  concatenates_S64x106_S64x22_S64x128_d1 : Shape.Concatenates [S64x106, S64x22] S64x128 1
  slices_S64x128x128_o0_22_23_S64x1x105 : S64x128x128.Slices ![0, 22, 23] S64x1x105
  shapeCasts_S64x1x105_S64x105 : S64x1x105.ShapeCasts S64x105
  slices_S64x128x128_o0_23_0_S64x1x23 : S64x128x128.Slices ![0, 23, 0] S64x1x23
  shapeCasts_S64x1x23_S64x23 : S64x1x23.ShapeCasts S64x23
  concatenates_S64x105_S64x23_S64x128_d1 : Shape.Concatenates [S64x105, S64x23] S64x128 1
  slices_S64x128x128_o0_23_24_S64x1x104 : S64x128x128.Slices ![0, 23, 24] S64x1x104
  shapeCasts_S64x1x104_S64x104 : S64x1x104.ShapeCasts S64x104
  slices_S64x128x128_o0_24_0_S64x1x24 : S64x128x128.Slices ![0, 24, 0] S64x1x24
  shapeCasts_S64x1x24_S64x24 : S64x1x24.ShapeCasts S64x24
  concatenates_S64x104_S64x24_S64x128_d1 : Shape.Concatenates [S64x104, S64x24] S64x128 1
  slices_S64x128x128_o0_24_25_S64x1x103 : S64x128x128.Slices ![0, 24, 25] S64x1x103
  shapeCasts_S64x1x103_S64x103 : S64x1x103.ShapeCasts S64x103
  slices_S64x128x128_o0_25_0_S64x1x25 : S64x128x128.Slices ![0, 25, 0] S64x1x25
  shapeCasts_S64x1x25_S64x25 : S64x1x25.ShapeCasts S64x25
  concatenates_S64x103_S64x25_S64x128_d1 : Shape.Concatenates [S64x103, S64x25] S64x128 1
  slices_S64x128x128_o0_25_26_S64x1x102 : S64x128x128.Slices ![0, 25, 26] S64x1x102
  shapeCasts_S64x1x102_S64x102 : S64x1x102.ShapeCasts S64x102
  slices_S64x128x128_o0_26_0_S64x1x26 : S64x128x128.Slices ![0, 26, 0] S64x1x26
  shapeCasts_S64x1x26_S64x26 : S64x1x26.ShapeCasts S64x26
  concatenates_S64x102_S64x26_S64x128_d1 : Shape.Concatenates [S64x102, S64x26] S64x128 1
  slices_S64x128x128_o0_26_27_S64x1x101 : S64x128x128.Slices ![0, 26, 27] S64x1x101
  shapeCasts_S64x1x101_S64x101 : S64x1x101.ShapeCasts S64x101
  slices_S64x128x128_o0_27_0_S64x1x27 : S64x128x128.Slices ![0, 27, 0] S64x1x27
  shapeCasts_S64x1x27_S64x27 : S64x1x27.ShapeCasts S64x27
  concatenates_S64x101_S64x27_S64x128_d1 : Shape.Concatenates [S64x101, S64x27] S64x128 1
  slices_S64x128x128_o0_27_28_S64x1x100 : S64x128x128.Slices ![0, 27, 28] S64x1x100
  shapeCasts_S64x1x100_S64x100 : S64x1x100.ShapeCasts S64x100
  slices_S64x128x128_o0_28_0_S64x1x28 : S64x128x128.Slices ![0, 28, 0] S64x1x28
  shapeCasts_S64x1x28_S64x28 : S64x1x28.ShapeCasts S64x28
  concatenates_S64x100_S64x28_S64x128_d1 : Shape.Concatenates [S64x100, S64x28] S64x128 1
  slices_S64x128x128_o0_28_29_S64x1x99 : S64x128x128.Slices ![0, 28, 29] S64x1x99
  shapeCasts_S64x1x99_S64x99 : S64x1x99.ShapeCasts S64x99
  slices_S64x128x128_o0_29_0_S64x1x29 : S64x128x128.Slices ![0, 29, 0] S64x1x29
  shapeCasts_S64x1x29_S64x29 : S64x1x29.ShapeCasts S64x29
  concatenates_S64x99_S64x29_S64x128_d1 : Shape.Concatenates [S64x99, S64x29] S64x128 1
  slices_S64x128x128_o0_29_30_S64x1x98 : S64x128x128.Slices ![0, 29, 30] S64x1x98
  shapeCasts_S64x1x98_S64x98 : S64x1x98.ShapeCasts S64x98
  slices_S64x128x128_o0_30_0_S64x1x30 : S64x128x128.Slices ![0, 30, 0] S64x1x30
  shapeCasts_S64x1x30_S64x30 : S64x1x30.ShapeCasts S64x30
  concatenates_S64x98_S64x30_S64x128_d1 : Shape.Concatenates [S64x98, S64x30] S64x128 1
  slices_S64x128x128_o0_30_31_S64x1x97 : S64x128x128.Slices ![0, 30, 31] S64x1x97
  shapeCasts_S64x1x97_S64x97 : S64x1x97.ShapeCasts S64x97
  slices_S64x128x128_o0_31_0_S64x1x31 : S64x128x128.Slices ![0, 31, 0] S64x1x31
  shapeCasts_S64x1x31_S64x31 : S64x1x31.ShapeCasts S64x31
  concatenates_S64x97_S64x31_S64x128_d1 : Shape.Concatenates [S64x97, S64x31] S64x128 1
  slices_S64x128x128_o0_31_32_S64x1x96 : S64x128x128.Slices ![0, 31, 32] S64x1x96
  shapeCasts_S64x1x96_S64x96 : S64x1x96.ShapeCasts S64x96
  slices_S64x128x128_o0_32_0_S64x1x32 : S64x128x128.Slices ![0, 32, 0] S64x1x32
  shapeCasts_S64x1x32_S64x32 : S64x1x32.ShapeCasts S64x32
  concatenates_S64x96_S64x32_S64x128_d1 : Shape.Concatenates [S64x96, S64x32] S64x128 1
  slices_S64x128x128_o0_32_33_S64x1x95 : S64x128x128.Slices ![0, 32, 33] S64x1x95
  shapeCasts_S64x1x95_S64x95 : S64x1x95.ShapeCasts S64x95
  slices_S64x128x128_o0_33_0_S64x1x33 : S64x128x128.Slices ![0, 33, 0] S64x1x33
  shapeCasts_S64x1x33_S64x33 : S64x1x33.ShapeCasts S64x33
  concatenates_S64x95_S64x33_S64x128_d1 : Shape.Concatenates [S64x95, S64x33] S64x128 1
  slices_S64x128x128_o0_33_34_S64x1x94 : S64x128x128.Slices ![0, 33, 34] S64x1x94
  shapeCasts_S64x1x94_S64x94 : S64x1x94.ShapeCasts S64x94
  slices_S64x128x128_o0_34_0_S64x1x34 : S64x128x128.Slices ![0, 34, 0] S64x1x34
  shapeCasts_S64x1x34_S64x34 : S64x1x34.ShapeCasts S64x34
  concatenates_S64x94_S64x34_S64x128_d1 : Shape.Concatenates [S64x94, S64x34] S64x128 1
  slices_S64x128x128_o0_34_35_S64x1x93 : S64x128x128.Slices ![0, 34, 35] S64x1x93
  shapeCasts_S64x1x93_S64x93 : S64x1x93.ShapeCasts S64x93
  slices_S64x128x128_o0_35_0_S64x1x35 : S64x128x128.Slices ![0, 35, 0] S64x1x35
  shapeCasts_S64x1x35_S64x35 : S64x1x35.ShapeCasts S64x35
  concatenates_S64x93_S64x35_S64x128_d1 : Shape.Concatenates [S64x93, S64x35] S64x128 1
  slices_S64x128x128_o0_35_36_S64x1x92 : S64x128x128.Slices ![0, 35, 36] S64x1x92
  shapeCasts_S64x1x92_S64x92 : S64x1x92.ShapeCasts S64x92
  slices_S64x128x128_o0_36_0_S64x1x36 : S64x128x128.Slices ![0, 36, 0] S64x1x36
  shapeCasts_S64x1x36_S64x36 : S64x1x36.ShapeCasts S64x36
  concatenates_S64x92_S64x36_S64x128_d1 : Shape.Concatenates [S64x92, S64x36] S64x128 1
  slices_S64x128x128_o0_36_37_S64x1x91 : S64x128x128.Slices ![0, 36, 37] S64x1x91
  shapeCasts_S64x1x91_S64x91 : S64x1x91.ShapeCasts S64x91
  slices_S64x128x128_o0_37_0_S64x1x37 : S64x128x128.Slices ![0, 37, 0] S64x1x37
  shapeCasts_S64x1x37_S64x37 : S64x1x37.ShapeCasts S64x37
  concatenates_S64x91_S64x37_S64x128_d1 : Shape.Concatenates [S64x91, S64x37] S64x128 1
  slices_S64x128x128_o0_37_38_S64x1x90 : S64x128x128.Slices ![0, 37, 38] S64x1x90
  shapeCasts_S64x1x90_S64x90 : S64x1x90.ShapeCasts S64x90
  slices_S64x128x128_o0_38_0_S64x1x38 : S64x128x128.Slices ![0, 38, 0] S64x1x38
  shapeCasts_S64x1x38_S64x38 : S64x1x38.ShapeCasts S64x38
  concatenates_S64x90_S64x38_S64x128_d1 : Shape.Concatenates [S64x90, S64x38] S64x128 1
  slices_S64x128x128_o0_38_39_S64x1x89 : S64x128x128.Slices ![0, 38, 39] S64x1x89
  shapeCasts_S64x1x89_S64x89 : S64x1x89.ShapeCasts S64x89
  slices_S64x128x128_o0_39_0_S64x1x39 : S64x128x128.Slices ![0, 39, 0] S64x1x39
  shapeCasts_S64x1x39_S64x39 : S64x1x39.ShapeCasts S64x39
  concatenates_S64x89_S64x39_S64x128_d1 : Shape.Concatenates [S64x89, S64x39] S64x128 1
  slices_S64x128x128_o0_39_40_S64x1x88 : S64x128x128.Slices ![0, 39, 40] S64x1x88
  shapeCasts_S64x1x88_S64x88 : S64x1x88.ShapeCasts S64x88
  slices_S64x128x128_o0_40_0_S64x1x40 : S64x128x128.Slices ![0, 40, 0] S64x1x40
  shapeCasts_S64x1x40_S64x40 : S64x1x40.ShapeCasts S64x40
  concatenates_S64x88_S64x40_S64x128_d1 : Shape.Concatenates [S64x88, S64x40] S64x128 1
  slices_S64x128x128_o0_40_41_S64x1x87 : S64x128x128.Slices ![0, 40, 41] S64x1x87
  shapeCasts_S64x1x87_S64x87 : S64x1x87.ShapeCasts S64x87
  slices_S64x128x128_o0_41_0_S64x1x41 : S64x128x128.Slices ![0, 41, 0] S64x1x41
  shapeCasts_S64x1x41_S64x41 : S64x1x41.ShapeCasts S64x41
  concatenates_S64x87_S64x41_S64x128_d1 : Shape.Concatenates [S64x87, S64x41] S64x128 1
  slices_S64x128x128_o0_41_42_S64x1x86 : S64x128x128.Slices ![0, 41, 42] S64x1x86
  shapeCasts_S64x1x86_S64x86 : S64x1x86.ShapeCasts S64x86
  slices_S64x128x128_o0_42_0_S64x1x42 : S64x128x128.Slices ![0, 42, 0] S64x1x42
  shapeCasts_S64x1x42_S64x42 : S64x1x42.ShapeCasts S64x42
  concatenates_S64x86_S64x42_S64x128_d1 : Shape.Concatenates [S64x86, S64x42] S64x128 1
  slices_S64x128x128_o0_42_43_S64x1x85 : S64x128x128.Slices ![0, 42, 43] S64x1x85
  shapeCasts_S64x1x85_S64x85 : S64x1x85.ShapeCasts S64x85
  slices_S64x128x128_o0_43_0_S64x1x43 : S64x128x128.Slices ![0, 43, 0] S64x1x43
  shapeCasts_S64x1x43_S64x43 : S64x1x43.ShapeCasts S64x43
  concatenates_S64x85_S64x43_S64x128_d1 : Shape.Concatenates [S64x85, S64x43] S64x128 1
  slices_S64x128x128_o0_43_44_S64x1x84 : S64x128x128.Slices ![0, 43, 44] S64x1x84
  shapeCasts_S64x1x84_S64x84 : S64x1x84.ShapeCasts S64x84
  slices_S64x128x128_o0_44_0_S64x1x44 : S64x128x128.Slices ![0, 44, 0] S64x1x44
  shapeCasts_S64x1x44_S64x44 : S64x1x44.ShapeCasts S64x44
  concatenates_S64x84_S64x44_S64x128_d1 : Shape.Concatenates [S64x84, S64x44] S64x128 1
  slices_S64x128x128_o0_44_45_S64x1x83 : S64x128x128.Slices ![0, 44, 45] S64x1x83
  shapeCasts_S64x1x83_S64x83 : S64x1x83.ShapeCasts S64x83
  slices_S64x128x128_o0_45_0_S64x1x45 : S64x128x128.Slices ![0, 45, 0] S64x1x45
  shapeCasts_S64x1x45_S64x45 : S64x1x45.ShapeCasts S64x45
  concatenates_S64x83_S64x45_S64x128_d1 : Shape.Concatenates [S64x83, S64x45] S64x128 1
  slices_S64x128x128_o0_45_46_S64x1x82 : S64x128x128.Slices ![0, 45, 46] S64x1x82
  shapeCasts_S64x1x82_S64x82 : S64x1x82.ShapeCasts S64x82
  slices_S64x128x128_o0_46_0_S64x1x46 : S64x128x128.Slices ![0, 46, 0] S64x1x46
  shapeCasts_S64x1x46_S64x46 : S64x1x46.ShapeCasts S64x46
  concatenates_S64x82_S64x46_S64x128_d1 : Shape.Concatenates [S64x82, S64x46] S64x128 1
  slices_S64x128x128_o0_46_47_S64x1x81 : S64x128x128.Slices ![0, 46, 47] S64x1x81
  shapeCasts_S64x1x81_S64x81 : S64x1x81.ShapeCasts S64x81
  slices_S64x128x128_o0_47_0_S64x1x47 : S64x128x128.Slices ![0, 47, 0] S64x1x47
  shapeCasts_S64x1x47_S64x47 : S64x1x47.ShapeCasts S64x47
  concatenates_S64x81_S64x47_S64x128_d1 : Shape.Concatenates [S64x81, S64x47] S64x128 1
  slices_S64x128x128_o0_47_48_S64x1x80 : S64x128x128.Slices ![0, 47, 48] S64x1x80
  shapeCasts_S64x1x80_S64x80 : S64x1x80.ShapeCasts S64x80
  slices_S64x128x128_o0_48_0_S64x1x48 : S64x128x128.Slices ![0, 48, 0] S64x1x48
  shapeCasts_S64x1x48_S64x48 : S64x1x48.ShapeCasts S64x48
  concatenates_S64x80_S64x48_S64x128_d1 : Shape.Concatenates [S64x80, S64x48] S64x128 1
  slices_S64x128x128_o0_48_49_S64x1x79 : S64x128x128.Slices ![0, 48, 49] S64x1x79
  shapeCasts_S64x1x79_S64x79 : S64x1x79.ShapeCasts S64x79
  slices_S64x128x128_o0_49_0_S64x1x49 : S64x128x128.Slices ![0, 49, 0] S64x1x49
  shapeCasts_S64x1x49_S64x49 : S64x1x49.ShapeCasts S64x49
  concatenates_S64x79_S64x49_S64x128_d1 : Shape.Concatenates [S64x79, S64x49] S64x128 1
  slices_S64x128x128_o0_49_50_S64x1x78 : S64x128x128.Slices ![0, 49, 50] S64x1x78
  shapeCasts_S64x1x78_S64x78 : S64x1x78.ShapeCasts S64x78
  slices_S64x128x128_o0_50_0_S64x1x50 : S64x128x128.Slices ![0, 50, 0] S64x1x50
  shapeCasts_S64x1x50_S64x50 : S64x1x50.ShapeCasts S64x50
  concatenates_S64x78_S64x50_S64x128_d1 : Shape.Concatenates [S64x78, S64x50] S64x128 1
  slices_S64x128x128_o0_50_51_S64x1x77 : S64x128x128.Slices ![0, 50, 51] S64x1x77
  shapeCasts_S64x1x77_S64x77 : S64x1x77.ShapeCasts S64x77
  slices_S64x128x128_o0_51_0_S64x1x51 : S64x128x128.Slices ![0, 51, 0] S64x1x51
  shapeCasts_S64x1x51_S64x51 : S64x1x51.ShapeCasts S64x51
  concatenates_S64x77_S64x51_S64x128_d1 : Shape.Concatenates [S64x77, S64x51] S64x128 1
  slices_S64x128x128_o0_51_52_S64x1x76 : S64x128x128.Slices ![0, 51, 52] S64x1x76
  shapeCasts_S64x1x76_S64x76 : S64x1x76.ShapeCasts S64x76
  slices_S64x128x128_o0_52_0_S64x1x52 : S64x128x128.Slices ![0, 52, 0] S64x1x52
  shapeCasts_S64x1x52_S64x52 : S64x1x52.ShapeCasts S64x52
  concatenates_S64x76_S64x52_S64x128_d1 : Shape.Concatenates [S64x76, S64x52] S64x128 1
  slices_S64x128x128_o0_52_53_S64x1x75 : S64x128x128.Slices ![0, 52, 53] S64x1x75
  shapeCasts_S64x1x75_S64x75 : S64x1x75.ShapeCasts S64x75
  slices_S64x128x128_o0_53_0_S64x1x53 : S64x128x128.Slices ![0, 53, 0] S64x1x53
  shapeCasts_S64x1x53_S64x53 : S64x1x53.ShapeCasts S64x53
  concatenates_S64x75_S64x53_S64x128_d1 : Shape.Concatenates [S64x75, S64x53] S64x128 1
  slices_S64x128x128_o0_53_54_S64x1x74 : S64x128x128.Slices ![0, 53, 54] S64x1x74
  shapeCasts_S64x1x74_S64x74 : S64x1x74.ShapeCasts S64x74
  slices_S64x128x128_o0_54_0_S64x1x54 : S64x128x128.Slices ![0, 54, 0] S64x1x54
  shapeCasts_S64x1x54_S64x54 : S64x1x54.ShapeCasts S64x54
  concatenates_S64x74_S64x54_S64x128_d1 : Shape.Concatenates [S64x74, S64x54] S64x128 1
  slices_S64x128x128_o0_54_55_S64x1x73 : S64x128x128.Slices ![0, 54, 55] S64x1x73
  shapeCasts_S64x1x73_S64x73 : S64x1x73.ShapeCasts S64x73
  slices_S64x128x128_o0_55_0_S64x1x55 : S64x128x128.Slices ![0, 55, 0] S64x1x55
  shapeCasts_S64x1x55_S64x55 : S64x1x55.ShapeCasts S64x55
  concatenates_S64x73_S64x55_S64x128_d1 : Shape.Concatenates [S64x73, S64x55] S64x128 1
  slices_S64x128x128_o0_55_56_S64x1x72 : S64x128x128.Slices ![0, 55, 56] S64x1x72
  shapeCasts_S64x1x72_S64x72 : S64x1x72.ShapeCasts S64x72
  slices_S64x128x128_o0_56_0_S64x1x56 : S64x128x128.Slices ![0, 56, 0] S64x1x56
  shapeCasts_S64x1x56_S64x56 : S64x1x56.ShapeCasts S64x56
  concatenates_S64x72_S64x56_S64x128_d1 : Shape.Concatenates [S64x72, S64x56] S64x128 1
  slices_S64x128x128_o0_56_57_S64x1x71 : S64x128x128.Slices ![0, 56, 57] S64x1x71
  shapeCasts_S64x1x71_S64x71 : S64x1x71.ShapeCasts S64x71
  slices_S64x128x128_o0_57_0_S64x1x57 : S64x128x128.Slices ![0, 57, 0] S64x1x57
  shapeCasts_S64x1x57_S64x57 : S64x1x57.ShapeCasts S64x57
  concatenates_S64x71_S64x57_S64x128_d1 : Shape.Concatenates [S64x71, S64x57] S64x128 1
  slices_S64x128x128_o0_57_58_S64x1x70 : S64x128x128.Slices ![0, 57, 58] S64x1x70
  shapeCasts_S64x1x70_S64x70 : S64x1x70.ShapeCasts S64x70
  slices_S64x128x128_o0_58_0_S64x1x58 : S64x128x128.Slices ![0, 58, 0] S64x1x58
  shapeCasts_S64x1x58_S64x58 : S64x1x58.ShapeCasts S64x58
  concatenates_S64x70_S64x58_S64x128_d1 : Shape.Concatenates [S64x70, S64x58] S64x128 1
  slices_S64x128x128_o0_58_59_S64x1x69 : S64x128x128.Slices ![0, 58, 59] S64x1x69
  shapeCasts_S64x1x69_S64x69 : S64x1x69.ShapeCasts S64x69
  slices_S64x128x128_o0_59_0_S64x1x59 : S64x128x128.Slices ![0, 59, 0] S64x1x59
  shapeCasts_S64x1x59_S64x59 : S64x1x59.ShapeCasts S64x59
  concatenates_S64x69_S64x59_S64x128_d1 : Shape.Concatenates [S64x69, S64x59] S64x128 1
  slices_S64x128x128_o0_59_60_S64x1x68 : S64x128x128.Slices ![0, 59, 60] S64x1x68
  shapeCasts_S64x1x68_S64x68 : S64x1x68.ShapeCasts S64x68
  slices_S64x128x128_o0_60_0_S64x1x60 : S64x128x128.Slices ![0, 60, 0] S64x1x60
  shapeCasts_S64x1x60_S64x60 : S64x1x60.ShapeCasts S64x60
  concatenates_S64x68_S64x60_S64x128_d1 : Shape.Concatenates [S64x68, S64x60] S64x128 1
  slices_S64x128x128_o0_60_61_S64x1x67 : S64x128x128.Slices ![0, 60, 61] S64x1x67
  shapeCasts_S64x1x67_S64x67 : S64x1x67.ShapeCasts S64x67
  slices_S64x128x128_o0_61_0_S64x1x61 : S64x128x128.Slices ![0, 61, 0] S64x1x61
  shapeCasts_S64x1x61_S64x61 : S64x1x61.ShapeCasts S64x61
  concatenates_S64x67_S64x61_S64x128_d1 : Shape.Concatenates [S64x67, S64x61] S64x128 1
  slices_S64x128x128_o0_61_62_S64x1x66 : S64x128x128.Slices ![0, 61, 62] S64x1x66
  shapeCasts_S64x1x66_S64x66 : S64x1x66.ShapeCasts S64x66
  slices_S64x128x128_o0_62_0_S64x1x62 : S64x128x128.Slices ![0, 62, 0] S64x1x62
  shapeCasts_S64x1x62_S64x62 : S64x1x62.ShapeCasts S64x62
  concatenates_S64x66_S64x62_S64x128_d1 : Shape.Concatenates [S64x66, S64x62] S64x128 1
  slices_S64x128x128_o0_62_63_S64x1x65 : S64x128x128.Slices ![0, 62, 63] S64x1x65
  shapeCasts_S64x1x65_S64x65 : S64x1x65.ShapeCasts S64x65
  slices_S64x128x128_o0_63_0_S64x1x63 : S64x128x128.Slices ![0, 63, 0] S64x1x63
  shapeCasts_S64x1x63_S64x63 : S64x1x63.ShapeCasts S64x63
  concatenates_S64x65_S64x63_S64x128_d1 : Shape.Concatenates [S64x65, S64x63] S64x128 1
  slices_S64x128x128_o0_63_64_S64x1x64 : S64x128x128.Slices ![0, 63, 64] S64x1x64
  shapeCasts_S64x1x64_S64x64 : S64x1x64.ShapeCasts S64x64
  slices_S64x128x128_o0_64_0_S64x1x64 : S64x128x128.Slices ![0, 64, 0] S64x1x64
  concatenates_S64x64_S64x64_S64x128_d1 : Shape.Concatenates [S64x64, S64x64] S64x128 1
  slices_S64x128x128_o0_64_65_S64x1x63 : S64x128x128.Slices ![0, 64, 65] S64x1x63
  slices_S64x128x128_o0_65_0_S64x1x65 : S64x128x128.Slices ![0, 65, 0] S64x1x65
  concatenates_S64x63_S64x65_S64x128_d1 : Shape.Concatenates [S64x63, S64x65] S64x128 1
  slices_S64x128x128_o0_65_66_S64x1x62 : S64x128x128.Slices ![0, 65, 66] S64x1x62
  slices_S64x128x128_o0_66_0_S64x1x66 : S64x128x128.Slices ![0, 66, 0] S64x1x66
  concatenates_S64x62_S64x66_S64x128_d1 : Shape.Concatenates [S64x62, S64x66] S64x128 1
  slices_S64x128x128_o0_66_67_S64x1x61 : S64x128x128.Slices ![0, 66, 67] S64x1x61
  slices_S64x128x128_o0_67_0_S64x1x67 : S64x128x128.Slices ![0, 67, 0] S64x1x67
  concatenates_S64x61_S64x67_S64x128_d1 : Shape.Concatenates [S64x61, S64x67] S64x128 1
  slices_S64x128x128_o0_67_68_S64x1x60 : S64x128x128.Slices ![0, 67, 68] S64x1x60
  slices_S64x128x128_o0_68_0_S64x1x68 : S64x128x128.Slices ![0, 68, 0] S64x1x68
  concatenates_S64x60_S64x68_S64x128_d1 : Shape.Concatenates [S64x60, S64x68] S64x128 1
  slices_S64x128x128_o0_68_69_S64x1x59 : S64x128x128.Slices ![0, 68, 69] S64x1x59
  slices_S64x128x128_o0_69_0_S64x1x69 : S64x128x128.Slices ![0, 69, 0] S64x1x69
  concatenates_S64x59_S64x69_S64x128_d1 : Shape.Concatenates [S64x59, S64x69] S64x128 1
  slices_S64x128x128_o0_69_70_S64x1x58 : S64x128x128.Slices ![0, 69, 70] S64x1x58
  slices_S64x128x128_o0_70_0_S64x1x70 : S64x128x128.Slices ![0, 70, 0] S64x1x70
  concatenates_S64x58_S64x70_S64x128_d1 : Shape.Concatenates [S64x58, S64x70] S64x128 1
  slices_S64x128x128_o0_70_71_S64x1x57 : S64x128x128.Slices ![0, 70, 71] S64x1x57
  slices_S64x128x128_o0_71_0_S64x1x71 : S64x128x128.Slices ![0, 71, 0] S64x1x71
  concatenates_S64x57_S64x71_S64x128_d1 : Shape.Concatenates [S64x57, S64x71] S64x128 1
  slices_S64x128x128_o0_71_72_S64x1x56 : S64x128x128.Slices ![0, 71, 72] S64x1x56
  slices_S64x128x128_o0_72_0_S64x1x72 : S64x128x128.Slices ![0, 72, 0] S64x1x72
  concatenates_S64x56_S64x72_S64x128_d1 : Shape.Concatenates [S64x56, S64x72] S64x128 1
  slices_S64x128x128_o0_72_73_S64x1x55 : S64x128x128.Slices ![0, 72, 73] S64x1x55
  slices_S64x128x128_o0_73_0_S64x1x73 : S64x128x128.Slices ![0, 73, 0] S64x1x73
  concatenates_S64x55_S64x73_S64x128_d1 : Shape.Concatenates [S64x55, S64x73] S64x128 1
  slices_S64x128x128_o0_73_74_S64x1x54 : S64x128x128.Slices ![0, 73, 74] S64x1x54
  slices_S64x128x128_o0_74_0_S64x1x74 : S64x128x128.Slices ![0, 74, 0] S64x1x74
  concatenates_S64x54_S64x74_S64x128_d1 : Shape.Concatenates [S64x54, S64x74] S64x128 1
  slices_S64x128x128_o0_74_75_S64x1x53 : S64x128x128.Slices ![0, 74, 75] S64x1x53
  slices_S64x128x128_o0_75_0_S64x1x75 : S64x128x128.Slices ![0, 75, 0] S64x1x75
  concatenates_S64x53_S64x75_S64x128_d1 : Shape.Concatenates [S64x53, S64x75] S64x128 1
  slices_S64x128x128_o0_75_76_S64x1x52 : S64x128x128.Slices ![0, 75, 76] S64x1x52
  slices_S64x128x128_o0_76_0_S64x1x76 : S64x128x128.Slices ![0, 76, 0] S64x1x76
  concatenates_S64x52_S64x76_S64x128_d1 : Shape.Concatenates [S64x52, S64x76] S64x128 1
  slices_S64x128x128_o0_76_77_S64x1x51 : S64x128x128.Slices ![0, 76, 77] S64x1x51
  slices_S64x128x128_o0_77_0_S64x1x77 : S64x128x128.Slices ![0, 77, 0] S64x1x77
  concatenates_S64x51_S64x77_S64x128_d1 : Shape.Concatenates [S64x51, S64x77] S64x128 1
  slices_S64x128x128_o0_77_78_S64x1x50 : S64x128x128.Slices ![0, 77, 78] S64x1x50
  slices_S64x128x128_o0_78_0_S64x1x78 : S64x128x128.Slices ![0, 78, 0] S64x1x78
  concatenates_S64x50_S64x78_S64x128_d1 : Shape.Concatenates [S64x50, S64x78] S64x128 1
  slices_S64x128x128_o0_78_79_S64x1x49 : S64x128x128.Slices ![0, 78, 79] S64x1x49
  slices_S64x128x128_o0_79_0_S64x1x79 : S64x128x128.Slices ![0, 79, 0] S64x1x79
  concatenates_S64x49_S64x79_S64x128_d1 : Shape.Concatenates [S64x49, S64x79] S64x128 1
  slices_S64x128x128_o0_79_80_S64x1x48 : S64x128x128.Slices ![0, 79, 80] S64x1x48
  slices_S64x128x128_o0_80_0_S64x1x80 : S64x128x128.Slices ![0, 80, 0] S64x1x80
  concatenates_S64x48_S64x80_S64x128_d1 : Shape.Concatenates [S64x48, S64x80] S64x128 1
  slices_S64x128x128_o0_80_81_S64x1x47 : S64x128x128.Slices ![0, 80, 81] S64x1x47
  slices_S64x128x128_o0_81_0_S64x1x81 : S64x128x128.Slices ![0, 81, 0] S64x1x81
  concatenates_S64x47_S64x81_S64x128_d1 : Shape.Concatenates [S64x47, S64x81] S64x128 1
  slices_S64x128x128_o0_81_82_S64x1x46 : S64x128x128.Slices ![0, 81, 82] S64x1x46
  slices_S64x128x128_o0_82_0_S64x1x82 : S64x128x128.Slices ![0, 82, 0] S64x1x82
  concatenates_S64x46_S64x82_S64x128_d1 : Shape.Concatenates [S64x46, S64x82] S64x128 1
  slices_S64x128x128_o0_82_83_S64x1x45 : S64x128x128.Slices ![0, 82, 83] S64x1x45
  slices_S64x128x128_o0_83_0_S64x1x83 : S64x128x128.Slices ![0, 83, 0] S64x1x83
  concatenates_S64x45_S64x83_S64x128_d1 : Shape.Concatenates [S64x45, S64x83] S64x128 1
  slices_S64x128x128_o0_83_84_S64x1x44 : S64x128x128.Slices ![0, 83, 84] S64x1x44
  slices_S64x128x128_o0_84_0_S64x1x84 : S64x128x128.Slices ![0, 84, 0] S64x1x84
  concatenates_S64x44_S64x84_S64x128_d1 : Shape.Concatenates [S64x44, S64x84] S64x128 1
  slices_S64x128x128_o0_84_85_S64x1x43 : S64x128x128.Slices ![0, 84, 85] S64x1x43
  slices_S64x128x128_o0_85_0_S64x1x85 : S64x128x128.Slices ![0, 85, 0] S64x1x85
  concatenates_S64x43_S64x85_S64x128_d1 : Shape.Concatenates [S64x43, S64x85] S64x128 1
  slices_S64x128x128_o0_85_86_S64x1x42 : S64x128x128.Slices ![0, 85, 86] S64x1x42
  slices_S64x128x128_o0_86_0_S64x1x86 : S64x128x128.Slices ![0, 86, 0] S64x1x86
  concatenates_S64x42_S64x86_S64x128_d1 : Shape.Concatenates [S64x42, S64x86] S64x128 1
  slices_S64x128x128_o0_86_87_S64x1x41 : S64x128x128.Slices ![0, 86, 87] S64x1x41
  slices_S64x128x128_o0_87_0_S64x1x87 : S64x128x128.Slices ![0, 87, 0] S64x1x87
  concatenates_S64x41_S64x87_S64x128_d1 : Shape.Concatenates [S64x41, S64x87] S64x128 1
  slices_S64x128x128_o0_87_88_S64x1x40 : S64x128x128.Slices ![0, 87, 88] S64x1x40
  slices_S64x128x128_o0_88_0_S64x1x88 : S64x128x128.Slices ![0, 88, 0] S64x1x88
  concatenates_S64x40_S64x88_S64x128_d1 : Shape.Concatenates [S64x40, S64x88] S64x128 1
  slices_S64x128x128_o0_88_89_S64x1x39 : S64x128x128.Slices ![0, 88, 89] S64x1x39
  slices_S64x128x128_o0_89_0_S64x1x89 : S64x128x128.Slices ![0, 89, 0] S64x1x89
  concatenates_S64x39_S64x89_S64x128_d1 : Shape.Concatenates [S64x39, S64x89] S64x128 1
  slices_S64x128x128_o0_89_90_S64x1x38 : S64x128x128.Slices ![0, 89, 90] S64x1x38
  slices_S64x128x128_o0_90_0_S64x1x90 : S64x128x128.Slices ![0, 90, 0] S64x1x90
  concatenates_S64x38_S64x90_S64x128_d1 : Shape.Concatenates [S64x38, S64x90] S64x128 1
  slices_S64x128x128_o0_90_91_S64x1x37 : S64x128x128.Slices ![0, 90, 91] S64x1x37
  slices_S64x128x128_o0_91_0_S64x1x91 : S64x128x128.Slices ![0, 91, 0] S64x1x91
  concatenates_S64x37_S64x91_S64x128_d1 : Shape.Concatenates [S64x37, S64x91] S64x128 1
  slices_S64x128x128_o0_91_92_S64x1x36 : S64x128x128.Slices ![0, 91, 92] S64x1x36
  slices_S64x128x128_o0_92_0_S64x1x92 : S64x128x128.Slices ![0, 92, 0] S64x1x92
  concatenates_S64x36_S64x92_S64x128_d1 : Shape.Concatenates [S64x36, S64x92] S64x128 1
  slices_S64x128x128_o0_92_93_S64x1x35 : S64x128x128.Slices ![0, 92, 93] S64x1x35
  slices_S64x128x128_o0_93_0_S64x1x93 : S64x128x128.Slices ![0, 93, 0] S64x1x93
  concatenates_S64x35_S64x93_S64x128_d1 : Shape.Concatenates [S64x35, S64x93] S64x128 1
  slices_S64x128x128_o0_93_94_S64x1x34 : S64x128x128.Slices ![0, 93, 94] S64x1x34
  slices_S64x128x128_o0_94_0_S64x1x94 : S64x128x128.Slices ![0, 94, 0] S64x1x94
  concatenates_S64x34_S64x94_S64x128_d1 : Shape.Concatenates [S64x34, S64x94] S64x128 1
  slices_S64x128x128_o0_94_95_S64x1x33 : S64x128x128.Slices ![0, 94, 95] S64x1x33
  slices_S64x128x128_o0_95_0_S64x1x95 : S64x128x128.Slices ![0, 95, 0] S64x1x95
  concatenates_S64x33_S64x95_S64x128_d1 : Shape.Concatenates [S64x33, S64x95] S64x128 1
  slices_S64x128x128_o0_95_96_S64x1x32 : S64x128x128.Slices ![0, 95, 96] S64x1x32
  slices_S64x128x128_o0_96_0_S64x1x96 : S64x128x128.Slices ![0, 96, 0] S64x1x96
  concatenates_S64x32_S64x96_S64x128_d1 : Shape.Concatenates [S64x32, S64x96] S64x128 1
  slices_S64x128x128_o0_96_97_S64x1x31 : S64x128x128.Slices ![0, 96, 97] S64x1x31
  slices_S64x128x128_o0_97_0_S64x1x97 : S64x128x128.Slices ![0, 97, 0] S64x1x97
  concatenates_S64x31_S64x97_S64x128_d1 : Shape.Concatenates [S64x31, S64x97] S64x128 1
  slices_S64x128x128_o0_97_98_S64x1x30 : S64x128x128.Slices ![0, 97, 98] S64x1x30
  slices_S64x128x128_o0_98_0_S64x1x98 : S64x128x128.Slices ![0, 98, 0] S64x1x98
  concatenates_S64x30_S64x98_S64x128_d1 : Shape.Concatenates [S64x30, S64x98] S64x128 1
  slices_S64x128x128_o0_98_99_S64x1x29 : S64x128x128.Slices ![0, 98, 99] S64x1x29
  slices_S64x128x128_o0_99_0_S64x1x99 : S64x128x128.Slices ![0, 99, 0] S64x1x99
  concatenates_S64x29_S64x99_S64x128_d1 : Shape.Concatenates [S64x29, S64x99] S64x128 1
  slices_S64x128x128_o0_99_100_S64x1x28 : S64x128x128.Slices ![0, 99, 100] S64x1x28
  slices_S64x128x128_o0_100_0_S64x1x100 : S64x128x128.Slices ![0, 100, 0] S64x1x100
  concatenates_S64x28_S64x100_S64x128_d1 : Shape.Concatenates [S64x28, S64x100] S64x128 1
  slices_S64x128x128_o0_100_101_S64x1x27 : S64x128x128.Slices ![0, 100, 101] S64x1x27
  slices_S64x128x128_o0_101_0_S64x1x101 : S64x128x128.Slices ![0, 101, 0] S64x1x101
  concatenates_S64x27_S64x101_S64x128_d1 : Shape.Concatenates [S64x27, S64x101] S64x128 1
  slices_S64x128x128_o0_101_102_S64x1x26 : S64x128x128.Slices ![0, 101, 102] S64x1x26
  slices_S64x128x128_o0_102_0_S64x1x102 : S64x128x128.Slices ![0, 102, 0] S64x1x102
  concatenates_S64x26_S64x102_S64x128_d1 : Shape.Concatenates [S64x26, S64x102] S64x128 1
  slices_S64x128x128_o0_102_103_S64x1x25 : S64x128x128.Slices ![0, 102, 103] S64x1x25
  slices_S64x128x128_o0_103_0_S64x1x103 : S64x128x128.Slices ![0, 103, 0] S64x1x103
  concatenates_S64x25_S64x103_S64x128_d1 : Shape.Concatenates [S64x25, S64x103] S64x128 1
  slices_S64x128x128_o0_103_104_S64x1x24 : S64x128x128.Slices ![0, 103, 104] S64x1x24
  slices_S64x128x128_o0_104_0_S64x1x104 : S64x128x128.Slices ![0, 104, 0] S64x1x104
  concatenates_S64x24_S64x104_S64x128_d1 : Shape.Concatenates [S64x24, S64x104] S64x128 1
  slices_S64x128x128_o0_104_105_S64x1x23 : S64x128x128.Slices ![0, 104, 105] S64x1x23
  slices_S64x128x128_o0_105_0_S64x1x105 : S64x128x128.Slices ![0, 105, 0] S64x1x105
  concatenates_S64x23_S64x105_S64x128_d1 : Shape.Concatenates [S64x23, S64x105] S64x128 1
  slices_S64x128x128_o0_105_106_S64x1x22 : S64x128x128.Slices ![0, 105, 106] S64x1x22
  slices_S64x128x128_o0_106_0_S64x1x106 : S64x128x128.Slices ![0, 106, 0] S64x1x106
  concatenates_S64x22_S64x106_S64x128_d1 : Shape.Concatenates [S64x22, S64x106] S64x128 1
  slices_S64x128x128_o0_106_107_S64x1x21 : S64x128x128.Slices ![0, 106, 107] S64x1x21
  slices_S64x128x128_o0_107_0_S64x1x107 : S64x128x128.Slices ![0, 107, 0] S64x1x107
  concatenates_S64x21_S64x107_S64x128_d1 : Shape.Concatenates [S64x21, S64x107] S64x128 1
  slices_S64x128x128_o0_107_108_S64x1x20 : S64x128x128.Slices ![0, 107, 108] S64x1x20
  slices_S64x128x128_o0_108_0_S64x1x108 : S64x128x128.Slices ![0, 108, 0] S64x1x108
  concatenates_S64x20_S64x108_S64x128_d1 : Shape.Concatenates [S64x20, S64x108] S64x128 1
  slices_S64x128x128_o0_108_109_S64x1x19 : S64x128x128.Slices ![0, 108, 109] S64x1x19
  slices_S64x128x128_o0_109_0_S64x1x109 : S64x128x128.Slices ![0, 109, 0] S64x1x109
  concatenates_S64x19_S64x109_S64x128_d1 : Shape.Concatenates [S64x19, S64x109] S64x128 1
  slices_S64x128x128_o0_109_110_S64x1x18 : S64x128x128.Slices ![0, 109, 110] S64x1x18
  slices_S64x128x128_o0_110_0_S64x1x110 : S64x128x128.Slices ![0, 110, 0] S64x1x110
  concatenates_S64x18_S64x110_S64x128_d1 : Shape.Concatenates [S64x18, S64x110] S64x128 1
  slices_S64x128x128_o0_110_111_S64x1x17 : S64x128x128.Slices ![0, 110, 111] S64x1x17
  slices_S64x128x128_o0_111_0_S64x1x111 : S64x128x128.Slices ![0, 111, 0] S64x1x111
  concatenates_S64x17_S64x111_S64x128_d1 : Shape.Concatenates [S64x17, S64x111] S64x128 1
  slices_S64x128x128_o0_111_112_S64x1x16 : S64x128x128.Slices ![0, 111, 112] S64x1x16
  slices_S64x128x128_o0_112_0_S64x1x112 : S64x128x128.Slices ![0, 112, 0] S64x1x112
  concatenates_S64x16_S64x112_S64x128_d1 : Shape.Concatenates [S64x16, S64x112] S64x128 1
  slices_S64x128x128_o0_112_113_S64x1x15 : S64x128x128.Slices ![0, 112, 113] S64x1x15
  slices_S64x128x128_o0_113_0_S64x1x113 : S64x128x128.Slices ![0, 113, 0] S64x1x113
  concatenates_S64x15_S64x113_S64x128_d1 : Shape.Concatenates [S64x15, S64x113] S64x128 1
  slices_S64x128x128_o0_113_114_S64x1x14 : S64x128x128.Slices ![0, 113, 114] S64x1x14
  slices_S64x128x128_o0_114_0_S64x1x114 : S64x128x128.Slices ![0, 114, 0] S64x1x114
  concatenates_S64x14_S64x114_S64x128_d1 : Shape.Concatenates [S64x14, S64x114] S64x128 1
  slices_S64x128x128_o0_114_115_S64x1x13 : S64x128x128.Slices ![0, 114, 115] S64x1x13
  slices_S64x128x128_o0_115_0_S64x1x115 : S64x128x128.Slices ![0, 115, 0] S64x1x115
  concatenates_S64x13_S64x115_S64x128_d1 : Shape.Concatenates [S64x13, S64x115] S64x128 1
  slices_S64x128x128_o0_115_116_S64x1x12 : S64x128x128.Slices ![0, 115, 116] S64x1x12
  slices_S64x128x128_o0_116_0_S64x1x116 : S64x128x128.Slices ![0, 116, 0] S64x1x116
  concatenates_S64x12_S64x116_S64x128_d1 : Shape.Concatenates [S64x12, S64x116] S64x128 1
  slices_S64x128x128_o0_116_117_S64x1x11 : S64x128x128.Slices ![0, 116, 117] S64x1x11
  slices_S64x128x128_o0_117_0_S64x1x117 : S64x128x128.Slices ![0, 117, 0] S64x1x117
  concatenates_S64x11_S64x117_S64x128_d1 : Shape.Concatenates [S64x11, S64x117] S64x128 1
  slices_S64x128x128_o0_117_118_S64x1x10 : S64x128x128.Slices ![0, 117, 118] S64x1x10
  slices_S64x128x128_o0_118_0_S64x1x118 : S64x128x128.Slices ![0, 118, 0] S64x1x118
  concatenates_S64x10_S64x118_S64x128_d1 : Shape.Concatenates [S64x10, S64x118] S64x128 1
  slices_S64x128x128_o0_118_119_S64x1x9 : S64x128x128.Slices ![0, 118, 119] S64x1x9
  slices_S64x128x128_o0_119_0_S64x1x119 : S64x128x128.Slices ![0, 119, 0] S64x1x119
  concatenates_S64x9_S64x119_S64x128_d1 : Shape.Concatenates [S64x9, S64x119] S64x128 1
  slices_S64x128x128_o0_119_120_S64x1x8 : S64x128x128.Slices ![0, 119, 120] S64x1x8
  slices_S64x128x128_o0_120_0_S64x1x120 : S64x128x128.Slices ![0, 120, 0] S64x1x120
  concatenates_S64x8_S64x120_S64x128_d1 : Shape.Concatenates [S64x8, S64x120] S64x128 1
  slices_S64x128x128_o0_120_121_S64x1x7 : S64x128x128.Slices ![0, 120, 121] S64x1x7
  slices_S64x128x128_o0_121_0_S64x1x121 : S64x128x128.Slices ![0, 121, 0] S64x1x121
  concatenates_S64x7_S64x121_S64x128_d1 : Shape.Concatenates [S64x7, S64x121] S64x128 1
  slices_S64x128x128_o0_121_122_S64x1x6 : S64x128x128.Slices ![0, 121, 122] S64x1x6
  slices_S64x128x128_o0_122_0_S64x1x122 : S64x128x128.Slices ![0, 122, 0] S64x1x122
  concatenates_S64x6_S64x122_S64x128_d1 : Shape.Concatenates [S64x6, S64x122] S64x128 1
  slices_S64x128x128_o0_122_123_S64x1x5 : S64x128x128.Slices ![0, 122, 123] S64x1x5
  slices_S64x128x128_o0_123_0_S64x1x123 : S64x128x128.Slices ![0, 123, 0] S64x1x123
  concatenates_S64x5_S64x123_S64x128_d1 : Shape.Concatenates [S64x5, S64x123] S64x128 1
  slices_S64x128x128_o0_123_124_S64x1x4 : S64x128x128.Slices ![0, 123, 124] S64x1x4
  slices_S64x128x128_o0_124_0_S64x1x124 : S64x128x128.Slices ![0, 124, 0] S64x1x124
  concatenates_S64x4_S64x124_S64x128_d1 : Shape.Concatenates [S64x4, S64x124] S64x128 1
  slices_S64x128x128_o0_124_125_S64x1x3 : S64x128x128.Slices ![0, 124, 125] S64x1x3
  slices_S64x128x128_o0_125_0_S64x1x125 : S64x128x128.Slices ![0, 125, 0] S64x1x125
  concatenates_S64x3_S64x125_S64x128_d1 : Shape.Concatenates [S64x3, S64x125] S64x128 1
  slices_S64x128x128_o0_125_126_S64x1x2 : S64x128x128.Slices ![0, 125, 126] S64x1x2
  slices_S64x128x128_o0_126_0_S64x1x126 : S64x128x128.Slices ![0, 126, 0] S64x1x126
  concatenates_S64x2_S64x126_S64x128_d1 : Shape.Concatenates [S64x2, S64x126] S64x128 1
  slices_S64x128x128_o0_126_127_S64x1x1 : S64x128x128.Slices ![0, 126, 127] S64x1x1
  slices_S64x128x128_o0_127_0_S64x1x127 : S64x128x128.Slices ![0, 127, 0] S64x1x127
  concatenates_S64x1_S64x127_S64x128_d1 : Shape.Concatenates [S64x1, S64x127] S64x128 1
  concatenates_S64x1x128_S64x1x128_S64x1x128_S64x1x128_S64x1x128_S64x1x128_S64x1x128_S64x1x128_S64x1x128_S64x1x128_S64x1x128_S64x1x128_S64x1x128_S64x1x128_S64x1x128_S64x1x128_S64x1x128_S64x1x128_S64x1x128_S64x1x128_S64x1x128_S64x1x128_S64x1x128_S64x1x128_S64x1x128_S64x1x128_S64x1x128_S64x1x128_S64x1x128_S64x1x128_S64x1x128_S64x1x128_S64x1x128_S64x1x128_S64x1x128_S64x1x128_S64x1x128_S64x1x128_S64x1x128_S64x1x128_S64x1x128_S64x1x128_S64x1x128_S64x1x128_S64x1x128_S64x1x128_S64x1x128_S64x1x128_S64x1x128_S64x1x128_S64x1x128_S64x1x128_S64x1x128_S64x1x128_S64x1x128_S64x1x128_S64x1x128_S64x1x128_S64x1x128_S64x1x128_S64x1x128_S64x1x128_S64x1x128_S64x1x128_S64x1x128_S64x1x128_S64x1x128_S64x1x128_S64x1x128_S64x1x128_S64x1x128_S64x1x128_S64x1x128_S64x1x128_S64x1x128_S64x1x128_S64x1x128_S64x1x128_S64x1x128_S64x1x128_S64x1x128_S64x1x128_S64x1x128_S64x1x128_S64x1x128_S64x1x128_S64x1x128_S64x1x128_S64x1x128_S64x1x128_S64x1x128_S64x1x128_S64x1x128_S64x1x128_S64x1x128_S64x1x128_S64x1x128_S64x1x128_S64x1x128_S64x1x128_S64x1x128_S64x1x128_S64x1x128_S64x1x128_S64x1x128_S64x1x128_S64x1x128_S64x1x128_S64x1x128_S64x1x128_S64x1x128_S64x1x128_S64x1x128_S64x1x128_S64x1x128_S64x1x128_S64x1x128_S64x1x128_S64x1x128_S64x1x128_S64x1x128_S64x1x128_S64x1x128_S64x1x128_S64x1x128_S64x1x128_S64x1x128_S64x1x128_S64x128x128_d1 : Shape.Concatenates (S64x1x128 :: S64x1x128 :: S64x1x128 :: S64x1x128 :: S64x1x128 :: S64x1x128 :: S64x1x128 :: S64x1x128 :: S64x1x128 :: S64x1x128 :: S64x1x128 :: S64x1x128 :: S64x1x128 :: S64x1x128 :: S64x1x128 :: S64x1x128 :: S64x1x128 :: S64x1x128 :: S64x1x128 :: S64x1x128 :: S64x1x128 :: S64x1x128 :: S64x1x128 :: S64x1x128 :: S64x1x128 :: S64x1x128 :: S64x1x128 :: S64x1x128 :: S64x1x128 :: S64x1x128 :: S64x1x128 :: S64x1x128 :: S64x1x128 :: S64x1x128 :: S64x1x128 :: S64x1x128 :: S64x1x128 :: S64x1x128 :: S64x1x128 :: S64x1x128 :: S64x1x128 :: S64x1x128 :: S64x1x128 :: S64x1x128 :: S64x1x128 :: S64x1x128 :: S64x1x128 :: S64x1x128 :: S64x1x128 :: S64x1x128 :: S64x1x128 :: S64x1x128 :: S64x1x128 :: S64x1x128 :: S64x1x128 :: S64x1x128 :: S64x1x128 :: S64x1x128 :: S64x1x128 :: S64x1x128 :: S64x1x128 :: S64x1x128 :: S64x1x128 :: S64x1x128 :: S64x1x128 :: S64x1x128 :: S64x1x128 :: S64x1x128 :: S64x1x128 :: S64x1x128 :: S64x1x128 :: S64x1x128 :: S64x1x128 :: S64x1x128 :: S64x1x128 :: S64x1x128 :: S64x1x128 :: S64x1x128 :: S64x1x128 :: S64x1x128 :: S64x1x128 :: S64x1x128 :: S64x1x128 :: S64x1x128 :: S64x1x128 :: S64x1x128 :: S64x1x128 :: S64x1x128 :: S64x1x128 :: S64x1x128 :: S64x1x128 :: S64x1x128 :: S64x1x128 :: S64x1x128 :: S64x1x128 :: S64x1x128 :: S64x1x128 :: S64x1x128 :: S64x1x128 :: S64x1x128 :: S64x1x128 :: S64x1x128 :: S64x1x128 :: S64x1x128 :: S64x1x128 :: S64x1x128 :: S64x1x128 :: S64x1x128 :: S64x1x128 :: S64x1x128 :: S64x1x128 :: S64x1x128 :: S64x1x128 :: S64x1x128 :: S64x1x128 :: S64x1x128 :: S64x1x128 :: S64x1x128 :: S64x1x128 :: S64x1x128 :: S64x1x128 :: S64x1x128 :: S64x1x128 :: S64x1x128 :: S64x1x128 :: S64x1x128 :: S64x1x128 :: S64x1x128 :: []) S64x128x128 1
  slices_S128x129_o0_0_S128x128 : S128x129.Slices ![0, 0] S128x128
  slices_S128x129_o0_128_S128x1 : S128x129.Slices ![0, 128] S128x1
  shapeCasts_S128x1_S128 : S128x1.ShapeCasts S128
  shapeCasts_S64x128x128_S8192x128 : S64x128x128.ShapeCasts S8192x128
  bitsLt_bf16_f32 : FTy.bits .bf16 < FTy.bits .f32
  shapeCasts_S8192x128_S64x128x128 : S8192x128.ShapeCasts S64x128x128
  shapeCasts_S128_S1x1x128 : S128.ShapeCasts S1x1x128
  broadcasts_S1x1x128_S64x128x128 : S1x1x128.Broadcasts S64x128x128
  reduces_S64x128x128_S128x128 : S64x128x128.Reduces [0] S128x128
  reduces_S128x128_S128 : S128x128.Reduces [0] S128
  inb_S64x128x128_S64x128x128_0_0_0 : ∀ a, (![0, 0, 0] : Fin 3 → Nat) a + S64x128x128.size a ≤ S64x128x128.size a
  h_S64x128x128 : 0 < S64x128x128.numel
  dot_S8192x128_S128x128_S8192x128_1_1_0_0_n_n_wf : DotDims.WF S8192x128 S128x128 S8192x128 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S64x128.size a ≤ S4096x128.size a
  hwx0_0 : ∀ i : grid0.Coords, EltTy.bits .f32 = 32 ∨ (Rect.block (s := S4096x128) S64x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128.size a ≤ S128.size a
  hwx0_1 : ∀ i : grid0.Coords, EltTy.bits .f32 = 32 ∨ (Rect.block (s := S128) S128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128.size a ≤ S128.size a
  hwx0_2 : ∀ i : grid0.Coords, EltTy.bits .f32 = 32 ∨ (Rect.block (s := S128) S128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128.size a ≤ S128.size a
  hwx0_3 : ∀ i : grid0.Coords, EltTy.bits .f32 = 32 ∨ (Rect.block (s := S128) S128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128.size a ≤ S128.size a
  hwx0_4 : ∀ i : grid0.Coords, EltTy.bits .f32 = 32 ∨ (Rect.block (s := S128) S128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x129.size a ≤ S128x129.size a
  hwx0_5 : ∀ i : grid0.Coords, EltTy.bits .f32 = 32 ∨ (Rect.block (s := S128x129) S128x129.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128.size a ≤ S128.size a
  hwx0_6 : ∀ i : grid0.Coords, EltTy.bits .f32 = 32 ∨ (Rect.block (s := S128) S128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128.size a ≤ S128.size a
  hwx0_7 : ∀ i : grid0.Coords, EltTy.bits .f32 = 32 ∨ (Rect.block (s := S128) S128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S128.size a ≤ S128.size a
  hwx0_8 : ∀ i : grid0.Coords, EltTy.bits .f32 = 32 ∨ (Rect.block (s := S128) S128.size (cc0_transform_8 i) (hinb0_8 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S64x128.size a ≤ S4096x128.size a
  hwx1_0 : ∀ i : grid1.Coords, EltTy.bits .f32 = 32 ∨ (Rect.block (s := S4096x128) S64x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128.size a ≤ S128.size a
  hwx1_1 : ∀ i : grid1.Coords, EltTy.bits .f32 = 32 ∨ (Rect.block (s := S128) S128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128.size a ≤ S128.size a
  hwx1_2 : ∀ i : grid1.Coords, EltTy.bits .f32 = 32 ∨ (Rect.block (s := S128) S128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128.size a ≤ S128.size a
  hwx1_3 : ∀ i : grid1.Coords, EltTy.bits .f32 = 32 ∨ (Rect.block (s := S128) S128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128.size a ≤ S128.size a
  hwx1_4 : ∀ i : grid1.Coords, EltTy.bits .f32 = 32 ∨ (Rect.block (s := S128) S128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x129.size a ≤ S128x129.size a
  hwx1_5 : ∀ i : grid1.Coords, EltTy.bits .f32 = 32 ∨ (Rect.block (s := S128x129) S128x129.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S128.size a ≤ S128.size a
  hwx1_6 : ∀ i : grid1.Coords, EltTy.bits .f32 = 32 ∨ (Rect.block (s := S128) S128.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S128.size a ≤ S128.size a
  hwx1_7 : ∀ i : grid1.Coords, EltTy.bits .f32 = 32 ∨ (Rect.block (s := S128) S128.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S128.size a ≤ S128.size a
  hwx1_8 : ∀ i : grid1.Coords, EltTy.bits .f32 = 32 ∨ (Rect.block (s := S128) S128.size (cc1_transform_8 i) (hinb1_8 i)).WholeWords (EltTy.packing .f32)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S128.size a ≤ S128.size a
  hwx1_9 : ∀ i : grid1.Coords, EltTy.bits .f32 = 32 ∨ (Rect.block (s := S128) S128.size (cc1_transform_9 i) (hinb1_9 i)).WholeWords (EltTy.packing .f32)
  hstage1_10 : ∀ j, (stage1_10 j).IsWhole
  nbuf1_10 : grid1.bufCount reads1_10 true = 1
  hreads1_10 : ∀ i i' : grid1.Coords, (∀ a, reads1_10 a = true → i a = i' a) → cc1_transform_10 i = cc1_transform_10 i'
  hinb1_10 : ∀ (i : grid1.Coords) a, (cc1_transform_10 i a + 1) * S128.size a ≤ S128.size a
  hwx1_10 : ∀ i : grid1.Coords, EltTy.bits .f32 = 32 ∨ (Rect.block (s := S128) S128.size (cc1_transform_10 i) (hinb1_10 i)).WholeWords (EltTy.packing .f32)
  hstage1_11 : ∀ j, (stage1_11 j).IsWhole
  nbuf1_11 : grid1.bufCount reads1_11 false = 2
  hreads1_11 : ∀ i i' : grid1.Coords, (∀ a, reads1_11 a = true → i a = i' a) → cc1_transform_11 i = cc1_transform_11 i'
  hinb1_11 : ∀ (i : grid1.Coords) a, (cc1_transform_11 i a + 1) * S64x128x128.size a ≤ S4096x128x128.size a
  hwx1_11 : ∀ i : grid1.Coords, EltTy.bits .f32 = 32 ∨ (Rect.block (s := S4096x128x128) S64x128x128.size (cc1_transform_11 i) (hinb1_11 i)).WholeWords (EltTy.packing .f32)

variable [Facts₀]

def dot_S8192x128_S128x128_S8192x128_1_1_0_0_n_n : DotDims S8192x128 S128x128 S8192x128 where
  lhsContracting := [1]
  rhsContracting := [1]
  lhsNonContracting := [0]
  rhsNonContracting := [0]
  lhsBatch := []
  rhsBatch := []
  wf := dot_S8192x128_S128x128_S8192x128_1_1_0_0_n_n_wf

abbrev win0_0 : Pipeline.Window sig grid0 :=
  Pipeline.Window.ofSpec (Memref.whole main_arg0) S64x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg1) S128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg2) S128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg3) S128x129.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg4) S128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v4_0) S128.size cc0_transform_7 reads0_7 true true 1 stage0_7 sem0_7
    hrank0 hreads0_7 hinb0_7 nbuf0_7 (Memref.isWhole_whole _) hwx0_7 hstage0_7

abbrev win0_8 : Pipeline.Window sig grid0 :=
  Pipeline.Window.ofSpec (Memref.whole main_v4_1) S128.size cc0_transform_8 reads0_8 true true 1 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

abbrev win1_0 : Pipeline.Window sig grid1 :=
  Pipeline.Window.ofSpec (Memref.whole main_arg0) S64x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v2) S128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v3) S128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg1) S128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg2) S128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg3) S128x129.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg4) S128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v6) S128.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v10) S128.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_arg5) S128.size cc1_transform_9 reads1_9 false true 1 stage1_9 sem1_9
    hrank1 hreads1_9 hinb1_9 nbuf1_9 (Memref.isWhole_whole _) hwx1_9 hstage1_9

abbrev win1_10 : Pipeline.Window sig grid1 :=
  Pipeline.Window.ofSpec (Memref.whole main_arg6) S128.size cc1_transform_10 reads1_10 false true 1 stage1_10 sem1_10
    hrank1 hreads1_10 hinb1_10 nbuf1_10 (Memref.isWhole_whole _) hwx1_10 hstage1_10

abbrev win1_11 : Pipeline.Window sig grid1 :=
  Pipeline.Window.ofSpec (Memref.whole main_v11) S64x128x128.size cc1_transform_11 reads1_11 true false 2 stage1_11 sem1_11
    hrank1 hreads1_11 hinb1_11 nbuf1_11 (Memref.isWhole_whole _) hwx1_11 hstage1_11

abbrev win1 : Fin 12 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | 11 => win1_11 | ⟨_ + 12, h⟩ => absurd h (Nat.not_lt.2 (Nat.le_add_left _ _))
abbrev spec1 : Fin 12 → Pipeline.WinSpec sig grid1.rank := fun w => (win1 w).toWinSpec

class Facts : Prop extends Facts₀ where

variable [Facts]
-- ==== ReferenceIdeal.lean ====
abbrev S4096x128 : Shape := ⟨2, ![4096, 128]⟩
abbrev S128 : Shape := ⟨1, ![128]⟩
abbrev S128x129 : Shape := ⟨2, ![128, 129]⟩
abbrev S_ : Shape := ⟨0, ![]⟩
abbrev S1x128 : Shape := ⟨2, ![1, 128]⟩
abbrev S4096x128x1 : Shape := ⟨3, ![4096, 128, 1]⟩
abbrev S4096x1x128 : Shape := ⟨3, ![4096, 1, 128]⟩
abbrev S4096x128x128 : Shape := ⟨3, ![4096, 128, 128]⟩
abbrev S4096x16384 : Shape := ⟨2, ![4096, 16384]⟩
abbrev S4096x16512 : Shape := ⟨2, ![4096, 16512]⟩
abbrev S4096x128x129 : Shape := ⟨3, ![4096, 128, 129]⟩
abbrev S1x1x128 : Shape := ⟨3, ![1, 1, 128]⟩

abbrev nBuf : Space → Nat
  | .hbm => 110
  | .vmem => 0
  | .smem => 0
  | _ => 0

abbrev bufTy : (tb : Table) → Fin (tcTables nBuf tb) → BufTy
  | .hbm, ⟨0, _⟩ => ⟨S4096x128, .f32⟩
  | .hbm, ⟨1, _⟩ => ⟨S128, .f32⟩
  | .hbm, ⟨2, _⟩ => ⟨S128, .f32⟩
  | .hbm, ⟨3, _⟩ => ⟨S128x129, .f32⟩
  | .hbm, ⟨4, _⟩ => ⟨S128, .f32⟩
  | .hbm, ⟨5, _⟩ => ⟨S128, .f32⟩
  | .hbm, ⟨6, _⟩ => ⟨S128, .f32⟩
  | .hbm, ⟨7, _⟩ => ⟨S_, .f32⟩
  | .hbm, ⟨8, _⟩ => ⟨S128, .f32⟩
  | .hbm, ⟨9, _⟩ => ⟨S_, .f32⟩
  | .hbm, ⟨10, _⟩ => ⟨S128, .f32⟩
  | .hbm, ⟨11, _⟩ => ⟨S128, .f32⟩
  | .hbm, ⟨12, _⟩ => ⟨S_, .i32⟩
  | .hbm, ⟨13, _⟩ => ⟨S_, .f32⟩
  | .hbm, ⟨14, _⟩ => ⟨S128, .f32⟩
  | .hbm, ⟨15, _⟩ => ⟨S1x128, .f32⟩
  | .hbm, ⟨16, _⟩ => ⟨S_, .f32⟩
  | .hbm, ⟨17, _⟩ => ⟨S1x128, .f32⟩
  | .hbm, ⟨18, _⟩ => ⟨S1x128, .f32⟩
  | .hbm, ⟨19, _⟩ => ⟨S4096x128, .f32⟩
  | .hbm, ⟨20, _⟩ => ⟨S4096x128, .f32⟩
  | .hbm, ⟨21, _⟩ => ⟨S4096x128, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S128, .f32⟩
  | .hbm, ⟨27, _⟩ => ⟨S128, .f32⟩
  | .hbm, ⟨28, _⟩ => ⟨S128, .f32⟩
  | .hbm, ⟨29, _⟩ => ⟨S_, .f32⟩
  | .hbm, ⟨30, _⟩ => ⟨S_, .i1⟩
  | .hbm, ⟨31, _⟩ => ⟨S_, .f32⟩
  | .hbm, ⟨32, _⟩ => ⟨S_, .f32⟩
  | .hbm, ⟨33, _⟩ => ⟨S128, .f32⟩
  | .hbm, ⟨34, _⟩ => ⟨S128, .f32⟩
  | .hbm, ⟨35, _⟩ => ⟨S1x128, .f32⟩
  | .hbm, ⟨36, _⟩ => ⟨S4096x128, .f32⟩
  | .hbm, ⟨37, _⟩ => ⟨S4096x128, .f32⟩
  | .hbm, ⟨38, _⟩ => ⟨S_, .f32⟩
  | .hbm, ⟨39, _⟩ => ⟨S128, .f32⟩
  | .hbm, ⟨40, _⟩ => ⟨S128, .f32⟩
  | .hbm, ⟨41, _⟩ => ⟨S128, .f32⟩
  | .hbm, ⟨42, _⟩ => ⟨S1x128, .f32⟩
  | .hbm, ⟨43, _⟩ => ⟨S4096x128, .f32⟩
  | .hbm, ⟨44, _⟩ => ⟨S4096x128, .f32⟩
  | .hbm, ⟨45, _⟩ => ⟨S1x128, .f32⟩
  | .hbm, ⟨46, _⟩ => ⟨S4096x128, .f32⟩
  | .hbm, ⟨47, _⟩ => ⟨S4096x128, .f32⟩
  | .hbm, ⟨48, _⟩ => ⟨S1x128, .f32⟩
  | .hbm, ⟨49, _⟩ => ⟨S4096x128, .f32⟩
  | .hbm, ⟨50, _⟩ => ⟨S4096x128, .f32⟩
  | .hbm, ⟨51, _⟩ => ⟨S4096x128x1, .f32⟩
  | .hbm, ⟨52, _⟩ => ⟨S4096x1x128, .f32⟩
  | .hbm, ⟨53, _⟩ => ⟨S4096x128x128, .f32⟩
  | .hbm, ⟨54, _⟩ => ⟨S4096x128x128, .f32⟩
  | .hbm, ⟨55, _⟩ => ⟨S4096x128x128, .f32⟩
  | .hbm, ⟨56, _⟩ => ⟨S4096x16384, .f32⟩
  | .hbm, ⟨57, _⟩ => ⟨S4096x16512, .f32⟩
  | .hbm, ⟨58, _⟩ => ⟨S_, .f32⟩
  | .hbm, ⟨59, _⟩ => ⟨S4096x16512, .f32⟩
  | .hbm, ⟨60, _⟩ => ⟨S4096x16512, .f32⟩
  | .hbm, ⟨61, _⟩ => ⟨S4096x128x129, .f32⟩
  | .hbm, ⟨62, _⟩ => ⟨S4096x128x128, .f32⟩
  | .hbm, ⟨63, _⟩ => ⟨S1x1x128, .f32⟩
  | .hbm, ⟨64, _⟩ => ⟨S4096x128x128, .f32⟩
  | .hbm, ⟨65, _⟩ => ⟨S4096x128x128, .f32⟩
  | .hbm, ⟨66, _⟩ => ⟨S_, .f32⟩
  | .hbm, ⟨67, _⟩ => ⟨S128, .f32⟩
  | .hbm, ⟨68, _⟩ => ⟨S_, .f32⟩
  | .hbm, ⟨69, _⟩ => ⟨S128, .f32⟩
  | .hbm, ⟨70, _⟩ => ⟨S128, .f32⟩
  | .hbm, ⟨71, _⟩ => ⟨S_, .i32⟩
  | .hbm, ⟨72, _⟩ => ⟨S_, .f32⟩
  | .hbm, ⟨73, _⟩ => ⟨S128, .f32⟩
  | .hbm, ⟨74, _⟩ => ⟨S1x1x128, .f32⟩
  | .hbm, ⟨75, _⟩ => ⟨S_, .f32⟩
  | .hbm, ⟨76, _⟩ => ⟨S1x1x128, .f32⟩
  | .hbm, ⟨77, _⟩ => ⟨S1x1x128, .f32⟩
  | .hbm, ⟨78, _⟩ => ⟨S4096x128x128, .f32⟩
  | .hbm, ⟨79, _⟩ => ⟨S4096x128x128, .f32⟩
  | .hbm, ⟨80, _⟩ => ⟨S4096x128x128, .f32⟩
  | .hbm, ⟨81, _⟩ => ⟨S_, .f32⟩
  | .hbm, ⟨82, _⟩ => ⟨S_, .f32⟩
  | .hbm, ⟨83, _⟩ => ⟨S_, .f32⟩
  | .hbm, ⟨84, _⟩ => ⟨S_, .f32⟩
  | .hbm, ⟨85, _⟩ => ⟨S128, .f32⟩
  | .hbm, ⟨86, _⟩ => ⟨S128, .f32⟩
  | .hbm, ⟨87, _⟩ => ⟨S128, .f32⟩
  | .hbm, ⟨88, _⟩ => ⟨S_, .f32⟩
  | .hbm, ⟨89, _⟩ => ⟨S_, .i1⟩
  | .hbm, ⟨90, _⟩ => ⟨S_, .f32⟩
  | .hbm, ⟨91, _⟩ => ⟨S_, .f32⟩
  | .hbm, ⟨92, _⟩ => ⟨S128, .f32⟩
  | .hbm, ⟨93, _⟩ => ⟨S128, .f32⟩
  | .hbm, ⟨94, _⟩ => ⟨S1x1x128, .f32⟩
  | .hbm, ⟨95, _⟩ => ⟨S4096x128x128, .f32⟩
  | .hbm, ⟨96, _⟩ => ⟨S4096x128x128, .f32⟩
  | .hbm, ⟨97, _⟩ => ⟨S_, .f32⟩
  | .hbm, ⟨98, _⟩ => ⟨S128, .f32⟩
  | .hbm, ⟨99, _⟩ => ⟨S128, .f32⟩
  | .hbm, ⟨100, _⟩ => ⟨S128, .f32⟩
  | .hbm, ⟨101, _⟩ => ⟨S1x1x128, .f32⟩
  | .hbm, ⟨102, _⟩ => ⟨S4096x128x128, .f32⟩
  | .hbm, ⟨103, _⟩ => ⟨S4096x128x128, .f32⟩
  | .hbm, ⟨104, _⟩ => ⟨S1x1x128, .f32⟩
  | .hbm, ⟨105, _⟩ => ⟨S4096x128x128, .f32⟩
  | .hbm, ⟨106, _⟩ => ⟨S4096x128x128, .f32⟩
  | .hbm, ⟨107, _⟩ => ⟨S1x1x128, .f32⟩
  | .hbm, ⟨108, _⟩ => ⟨S4096x128x128, .f32⟩
  | .hbm, ⟨109, _⟩ => ⟨S4096x128x128, .f32⟩
  | _, _ => ⟨S4096x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_cst_0 : Ref sig .tc := ⟨.hbm, 9, rfl⟩
abbrev main_v1 : Ref sig .tc := ⟨.hbm, 10, rfl⟩
abbrev main_v2 : Ref sig .tc := ⟨.hbm, 11, rfl⟩
abbrev main_c : Ref sig .tc := ⟨.hbm, 12, rfl⟩
abbrev main_call0_cst : Ref sig .tc := ⟨.hbm, 13, rfl⟩
abbrev main_call0_v0 : Ref sig .tc := ⟨.hbm, 14, rfl⟩
abbrev main_call0_v1 : Ref sig .tc := ⟨.hbm, 15, rfl⟩
abbrev main_call0_cst_0 : Ref sig .tc := ⟨.hbm, 16, rfl⟩
abbrev main_call0_v2 : Ref sig .tc := ⟨.hbm, 17, rfl⟩
abbrev main_call0_v3 : Ref sig .tc := ⟨.hbm, 18, rfl⟩
abbrev main_call0_v4 : Ref sig .tc := ⟨.hbm, 19, rfl⟩
abbrev main_call0_v5 : Ref sig .tc := ⟨.hbm, 20, rfl⟩
abbrev main_call0_v6 : Ref sig .tc := ⟨.hbm, 21, rfl⟩
abbrev main_call0_v7 : Ref sig .tc := ⟨.hbm, 22, rfl⟩
abbrev main_call0_cst_1 : Ref sig .tc := ⟨.hbm, 23, rfl⟩
abbrev main_call0_v8 : Ref sig .tc := ⟨.hbm, 24, rfl⟩
abbrev main_call0_cst_2 : Ref sig .tc := ⟨.hbm, 25, rfl⟩
abbrev main_call0_v9 : Ref sig .tc := ⟨.hbm, 26, rfl⟩
abbrev main_call0_v10 : Ref sig .tc := ⟨.hbm, 27, rfl⟩
abbrev main_call0_v11 : Ref sig .tc := ⟨.hbm, 28, rfl⟩
abbrev main_call0_cst_3 : Ref sig .tc := ⟨.hbm, 29, rfl⟩
abbrev main_call0_v12 : Ref sig .tc := ⟨.hbm, 30, rfl⟩
abbrev main_call0_cst_4 : Ref sig .tc := ⟨.hbm, 31, rfl⟩
abbrev main_call0_call0_v0 : Ref sig .tc := ⟨.hbm, 32, rfl⟩
abbrev main_call0_call0_v1 : Ref sig .tc := ⟨.hbm, 33, rfl⟩
abbrev main_v3 : Ref sig .tc := ⟨.hbm, 34, rfl⟩
abbrev main_v4 : Ref sig .tc := ⟨.hbm, 35, rfl⟩
abbrev main_v5 : Ref sig .tc := ⟨.hbm, 36, rfl⟩
abbrev main_v6 : Ref sig .tc := ⟨.hbm, 37, rfl⟩
abbrev main_cst_1 : Ref sig .tc := ⟨.hbm, 38, rfl⟩
abbrev main_v7 : Ref sig .tc := ⟨.hbm, 39, rfl⟩
abbrev main_v8 : Ref sig .tc := ⟨.hbm, 40, rfl⟩
abbrev main_v9 : Ref sig .tc := ⟨.hbm, 41, rfl⟩
abbrev main_v10 : Ref sig .tc := ⟨.hbm, 42, rfl⟩
abbrev main_v11 : Ref sig .tc := ⟨.hbm, 43, rfl⟩
abbrev main_v12 : Ref sig .tc := ⟨.hbm, 44, rfl⟩
abbrev main_v13 : Ref sig .tc := ⟨.hbm, 45, rfl⟩
abbrev main_v14 : Ref sig .tc := ⟨.hbm, 46, rfl⟩
abbrev main_v15 : Ref sig .tc := ⟨.hbm, 47, rfl⟩
abbrev main_v16 : Ref sig .tc := ⟨.hbm, 48, rfl⟩
abbrev main_v17 : Ref sig .tc := ⟨.hbm, 49, rfl⟩
abbrev main_v18 : Ref sig .tc := ⟨.hbm, 50, rfl⟩
abbrev main_v19 : Ref sig .tc := ⟨.hbm, 51, rfl⟩
abbrev main_v20 : Ref sig .tc := ⟨.hbm, 52, rfl⟩
abbrev main_v21 : Ref sig .tc := ⟨.hbm, 53, rfl⟩
abbrev main_v22 : Ref sig .tc := ⟨.hbm, 54, rfl⟩
abbrev main_v23 : Ref sig .tc := ⟨.hbm, 55, rfl⟩
abbrev main_v24 : Ref sig .tc := ⟨.hbm, 56, rfl⟩
abbrev main_v25 : Ref sig .tc := ⟨.hbm, 57, rfl⟩
abbrev main_call1_cst : Ref sig .tc := ⟨.hbm, 58, rfl⟩
abbrev main_call1_v0 : Ref sig .tc := ⟨.hbm, 59, rfl⟩
abbrev main_v26 : Ref sig .tc := ⟨.hbm, 60, rfl⟩
abbrev main_v27 : Ref sig .tc := ⟨.hbm, 61, rfl⟩
abbrev main_v28 : Ref sig .tc := ⟨.hbm, 62, rfl⟩
abbrev main_v29 : Ref sig .tc := ⟨.hbm, 63, rfl⟩
abbrev main_v30 : Ref sig .tc := ⟨.hbm, 64, rfl⟩
abbrev main_v31 : Ref sig .tc := ⟨.hbm, 65, rfl⟩
abbrev main_cst_2 : Ref sig .tc := ⟨.hbm, 66, rfl⟩
abbrev main_v32 : Ref sig .tc := ⟨.hbm, 67, rfl⟩
abbrev main_cst_3 : Ref sig .tc := ⟨.hbm, 68, rfl⟩
abbrev main_v33 : Ref sig .tc := ⟨.hbm, 69, rfl⟩
abbrev main_v34 : Ref sig .tc := ⟨.hbm, 70, rfl⟩
abbrev main_c_4 : Ref sig .tc := ⟨.hbm, 71, rfl⟩
abbrev main_call2_cst : Ref sig .tc := ⟨.hbm, 72, rfl⟩
abbrev main_call2_v0 : Ref sig .tc := ⟨.hbm, 73, rfl⟩
abbrev main_call2_v1 : Ref sig .tc := ⟨.hbm, 74, rfl⟩
abbrev main_call2_cst_0 : Ref sig .tc := ⟨.hbm, 75, rfl⟩
abbrev main_call2_v2 : Ref sig .tc := ⟨.hbm, 76, rfl⟩
abbrev main_call2_v3 : Ref sig .tc := ⟨.hbm, 77, rfl⟩
abbrev main_call2_v4 : Ref sig .tc := ⟨.hbm, 78, rfl⟩
abbrev main_call2_v5 : Ref sig .tc := ⟨.hbm, 79, rfl⟩
abbrev main_call2_v6 : Ref sig .tc := ⟨.hbm, 80, rfl⟩
abbrev main_call2_v7 : Ref sig .tc := ⟨.hbm, 81, rfl⟩
abbrev main_call2_cst_1 : Ref sig .tc := ⟨.hbm, 82, rfl⟩
abbrev main_call2_v8 : Ref sig .tc := ⟨.hbm, 83, rfl⟩
abbrev main_call2_cst_2 : Ref sig .tc := ⟨.hbm, 84, rfl⟩
abbrev main_call2_v9 : Ref sig .tc := ⟨.hbm, 85, rfl⟩
abbrev main_call2_v10 : Ref sig .tc := ⟨.hbm, 86, rfl⟩
abbrev main_call2_v11 : Ref sig .tc := ⟨.hbm, 87, rfl⟩
abbrev main_call2_cst_3 : Ref sig .tc := ⟨.hbm, 88, rfl⟩
abbrev main_call2_v12 : Ref sig .tc := ⟨.hbm, 89, rfl⟩
abbrev main_call2_cst_4 : Ref sig .tc := ⟨.hbm, 90, rfl⟩
abbrev main_call2_call0_v0 : Ref sig .tc := ⟨.hbm, 91, rfl⟩
abbrev main_call2_call0_v1 : Ref sig .tc := ⟨.hbm, 92, rfl⟩
abbrev main_v35 : Ref sig .tc := ⟨.hbm, 93, rfl⟩
abbrev main_v36 : Ref sig .tc := ⟨.hbm, 94, rfl⟩
abbrev main_v37 : Ref sig .tc := ⟨.hbm, 95, rfl⟩
abbrev main_v38 : Ref sig .tc := ⟨.hbm, 96, rfl⟩
abbrev main_cst_5 : Ref sig .tc := ⟨.hbm, 97, rfl⟩
abbrev main_v39 : Ref sig .tc := ⟨.hbm, 98, rfl⟩
abbrev main_v40 : Ref sig .tc := ⟨.hbm, 99, rfl⟩
abbrev main_v41 : Ref sig .tc := ⟨.hbm, 100, rfl⟩
abbrev main_v42 : Ref sig .tc := ⟨.hbm, 101, rfl⟩
abbrev main_v43 : Ref sig .tc := ⟨.hbm, 102, rfl⟩
abbrev main_v44 : Ref sig .tc := ⟨.hbm, 103, rfl⟩
abbrev main_v45 : Ref sig .tc := ⟨.hbm, 104, rfl⟩
abbrev main_v46 : Ref sig .tc := ⟨.hbm, 105, rfl⟩
abbrev main_v47 : Ref sig .tc := ⟨.hbm, 106, rfl⟩
abbrev main_v48 : Ref sig .tc := ⟨.hbm, 107, rfl⟩
abbrev main_v49 : Ref sig .tc := ⟨.hbm, 108, rfl⟩
abbrev main_v50 : Ref sig .tc := ⟨.hbm, 109, rfl⟩

abbrev nD : Nat := 1
abbrev τ : Topo := Topo.v7x

variable {F : FTy → Type} [FloatOps F]

class Facts₀ : Prop where
  reducesTo_S4096x128_S128_d0 : S4096x128.ReducesTo [0] S128
  h_S_ : 0 < S_.numel
  bcast_S_S128 : S_.BroadcastsInDim S128 (![] : Fin 0 → Fin S128.rank)
  bcast_S128_S1x128_1 : S128.BroadcastsInDim S1x128 (![1] : Fin 1 → Fin S1x128.rank)
  bcast_S_S1x128 : S_.BroadcastsInDim S1x128 (![] : Fin 0 → Fin S1x128.rank)
  bcast_S1x128_S4096x128_0_1 : S1x128.BroadcastsInDim S4096x128 (![0, 1] : Fin 2 → Fin S4096x128.rank)
  bcast_S4096x128_S4096x128x1_0_1 : S4096x128.BroadcastsInDim S4096x128x1 (![0, 1] : Fin 2 → Fin S4096x128x1.rank)
  bcast_S4096x128_S4096x1x128_0_2 : S4096x128.BroadcastsInDim S4096x1x128 (![0, 2] : Fin 2 → Fin S4096x1x128.rank)
  bcast_S4096x128x1_S4096x128x128_0_1_2 : S4096x128x1.BroadcastsInDim S4096x128x128 (![0, 1, 2] : Fin 3 → Fin S4096x128x128.rank)
  bcast_S4096x1x128_S4096x128x128_0_1_2 : S4096x1x128.BroadcastsInDim S4096x128x128 (![0, 1, 2] : Fin 3 → Fin S4096x128x128.rank)
  shapeCasts_S4096x128x128_S4096x16384 : S4096x128x128.ShapeCasts S4096x16384
  concatenates_S4096x128_S4096x16384_S4096x16512_d1 : Shape.Concatenates [S4096x128, S4096x16384] S4096x16512 1
  bcast_S_S4096x16512 : S_.BroadcastsInDim S4096x16512 (![] : Fin 0 → Fin S4096x16512.rank)
  shapeCasts_S4096x16512_S4096x128x129 : S4096x16512.ShapeCasts S4096x128x129
  bcast_S128_S1x1x128_2 : S128.BroadcastsInDim S1x1x128 (![2] : Fin 1 → Fin S1x1x128.rank)
  bcast_S1x1x128_S4096x128x128_0_1_2 : S1x1x128.BroadcastsInDim S4096x128x128 (![0, 1, 2] : Fin 3 → Fin S4096x128x128.rank)
  reducesTo_S4096x128x128_S128_d0_1 : S4096x128x128.ReducesTo [0, 1] S128
  bcast_S_S1x1x128 : S_.BroadcastsInDim S1x1x128 (![] : Fin 0 → Fin S1x1x128.rank)
  dot_S4096x128x129_S128x129_S4096x128x128_2_1_01_0_n_n_wf : DotDims.WF S4096x128x129 S128x129 S4096x128x128 [2] [1] [0, 1] [0] [] []

variable [Facts₀]

def dot_S4096x128x129_S128x129_S4096x128x128_2_1_01_0_n_n : DotDims S4096x128x129 S128x129 S4096x128x128 where
  lhsContracting := [2]
  rhsContracting := [1]
  lhsNonContracting := [0, 1]
  rhsNonContracting := [0]
  lhsBatch := []
  rhsBatch := []
  wf := dot_S4096x128x129_S128x129_S4096x128x128_2_1_01_0_n_n_wf

class Facts : Prop extends Facts₀ where

variable [Facts]
-- ==== Proof.KerRun.lean ====
/-
  The idealized kernel program's run with its RESULT named.

  @main is five segments: two stretches of host operations (the batch mean and variance of x), the statistics kernel's region,
  a stretch of host operations (the channel means and variances from the two totals), the output kernel's region.  The buffer
  contents at each boundary are a fold from the launch memory (W0 … W5 of the generated frame).  Every weakly fair execution
  terminates with every unscoped buffer at the last boundary's contents W5; so the result buffer ends at W5 there, which is
  what the output kernel's region leaves in its output array, and the seven arguments end as launched.
-/
import proofs.«138108_j2860448219241_2_alg».proof.Proof.Gen.KernelIdeal.Frame

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The result buffer is the output kernel's output array (its window 11), so the last boundary's contents there are what
    that region's write-backs leave. -/
theorem W5_result (c : Dev nD) :
    W5 m ρ c (Proc.devRef .tc main_v11) = (dat1 (V4 m ρ) c).arrAt 11 cfg1.N :=
  W5_arr m ρ c 11

set_option backward.isDefEq.respectTransparency.types false in
/-- Every weakly fair execution of @main terminates, nothing faulting, with the result buffer at the last boundary's
    contents and the seven argument arrays as launched. -/
theorem run : θ_run defs (onTc (τ := τ) (main (F := F))) ⟨m, fun _ => 0, ρ⟩ (fun r => ∀ c : Dev nD,
      r.2.mem ((c.tc : Thread nD τ).loc main_v11) = W5 m ρ c (Proc.devRef .tc main_v11)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c =>
      ⟨h c _ (mem_uc main_v11 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c),
       (h c _ (mem_uc main_arg4 (by decide))).trans (W5_main_arg4 m ρ c),
       (h c _ (mem_uc main_arg5 (by decide))).trans (W5_main_arg5 m ρ c),
       (h c _ (mem_uc main_arg6 (by decide))).trans (W5_main_arg6 m ρ c)⟩)

end Cert.KernelIdeal.Run

end
-- ==== Proof.KerHost.lean ====
/-
  What the kernel program's host operations leave in the buffers the two regions read.

  The statistics region (region 0) is entered after the host has computed the batch mean and variance of x; its seven input
  arrays are x, those two vectors and four arguments, all other than the two vectors as launched.  The output region
  (region 1) is entered after the host has divided the statistics region's two totals by 524288 and formed
  "mean of squares minus squared mean"; its other nine input arrays are what region 0 read (no host operation and no
  write-back of region 0 touches them) and two more arguments as launched.
-/
import proofs.«138108_j2860448219241_2_alg».proof.Proof.Gen.KernelIdeal.Frame
import Idealize.ShloMosaic.Lib.StableHlo.Run
import Idealize.ShloMosaic.PureOps.Ideal.Laws

set_option maxRecDepth 16384

noncomputable section

namespace Cert.KernelIdeal.HostVals

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg)

/-! ## At region 0's entry the arguments are as launched -/

theorem W2_arg0 (c : Dev nD) : W2 m ρ c (Proc.devRef .tc main_arg0) = m ((c.tc : Thread nD τ).loc main_arg0) := by
  dsimp only [W2, W1, W0, hostOps0, hostOps0_1]
  after_results

theorem W2_arg1 (c : Dev nD) : W2 m ρ c (Proc.devRef .tc main_arg1) = m ((c.tc : Thread nD τ).loc main_arg1) := by
  dsimp only [W2, W1, W0, hostOps0, hostOps0_1]
  after_results

theorem W2_arg2 (c : Dev nD) : W2 m ρ c (Proc.devRef .tc main_arg2) = m ((c.tc : Thread nD τ).loc main_arg2) := by
  dsimp only [W2, W1, W0, hostOps0, hostOps0_1]
  after_results

theorem W2_arg3 (c : Dev nD) : W2 m ρ c (Proc.devRef .tc main_arg3) = m ((c.tc : Thread nD τ).loc main_arg3) := by
  dsimp only [W2, W1, W0, hostOps0, hostOps0_1]
  after_results

theorem W2_arg4 (c : Dev nD) : W2 m ρ c (Proc.devRef .tc main_arg4) = m ((c.tc : Thread nD τ).loc main_arg4) := by
  dsimp only [W2, W1, W0, hostOps0, hostOps0_1]
  after_results

theorem W2_arg5 (c : Dev nD) : W2 m ρ c (Proc.devRef .tc main_arg5) = m ((c.tc : Thread nD τ).loc main_arg5) := by
  dsimp only [W2, W1, W0, hostOps0, hostOps0_1]
  after_results

theorem W2_arg6 (c : Dev nD) : W2 m ρ c (Proc.devRef .tc main_arg6) = m ((c.tc : Thread nD τ).loc main_arg6) := by
  dsimp only [W2, W1, W0, hostOps0, hostOps0_1]
  after_results

/-! ## Region 0 leaves its input arrays and every buffer that is not one of its arrays as it found them -/

theorem W3_arg0 (c : Dev nD) : W3 m ρ c (Proc.devRef .tc main_arg0) = W2 m ρ c (Proc.devRef .tc main_arg0) :=
  (W3_arr m ρ c 0).trans (((dat0 (V2 m ρ) c).arrAt_in 0 rfl _).trans (A_eq0 (V2 m ρ) c 0))
theorem W3_v2 (c : Dev nD) : W3 m ρ c (Proc.devRef .tc main_v2) = W2 m ρ c (Proc.devRef .tc main_v2) :=
  (W3_arr m ρ c 1).trans (((dat0 (V2 m ρ) c).arrAt_in 1 rfl _).trans (A_eq0 (V2 m ρ) c 1))
theorem W3_v3 (c : Dev nD) : W3 m ρ c (Proc.devRef .tc main_v3) = W2 m ρ c (Proc.devRef .tc main_v3) :=
  (W3_arr m ρ c 2).trans (((dat0 (V2 m ρ) c).arrAt_in 2 rfl _).trans (A_eq0 (V2 m ρ) c 2))
theorem W3_arg1 (c : Dev nD) : W3 m ρ c (Proc.devRef .tc main_arg1) = W2 m ρ c (Proc.devRef .tc main_arg1) :=
  (W3_arr m ρ c 3).trans (((dat0 (V2 m ρ) c).arrAt_in 3 rfl _).trans (A_eq0 (V2 m ρ) c 3))
theorem W3_arg2 (c : Dev nD) : W3 m ρ c (Proc.devRef .tc main_arg2) = W2 m ρ c (Proc.devRef .tc main_arg2) :=
  (W3_arr m ρ c 4).trans (((dat0 (V2 m ρ) c).arrAt_in 4 rfl _).trans (A_eq0 (V2 m ρ) c 4))
theorem W3_arg3 (c : Dev nD) : W3 m ρ c (Proc.devRef .tc main_arg3) = W2 m ρ c (Proc.devRef .tc main_arg3) :=
  (W3_arr m ρ c 5).trans (((dat0 (V2 m ρ) c).arrAt_in 5 rfl _).trans (A_eq0 (V2 m ρ) c 5))
theorem W3_arg4 (c : Dev nD) : W3 m ρ c (Proc.devRef .tc main_arg4) = W2 m ρ c (Proc.devRef .tc main_arg4) :=
  (W3_arr m ρ c 6).trans (((dat0 (V2 m ρ) c).arrAt_in 6 rfl _).trans (A_eq0 (V2 m ρ) c 6))
theorem W3_arg5 (c : Dev nD) : W3 m ρ c (Proc.devRef .tc main_arg5) = W2 m ρ c (Proc.devRef .tc main_arg5) :=
  W3_of_ne m ρ c main_arg5 (by decide)
theorem W3_arg6 (c : Dev nD) : W3 m ρ c (Proc.devRef .tc main_arg6) = W2 m ρ c (Proc.devRef .tc main_arg6) :=
  W3_of_ne m ρ c main_arg6 (by decide)

/-- Region 0's two outputs hold, at its exit, what its write-backs leave. -/
theorem W3_tot (c : Dev nD) : W3 m ρ c (Proc.devRef .tc main_v4_0) = (dat0 (V2 m ρ) c).arrAt 7 cfg0.N := W3_arr m ρ c 7
theorem W3_totSq (c : Dev nD) : W3 m ρ c (Proc.devRef .tc main_v4_1) = (dat0 (V2 m ρ) c).arrAt 8 cfg0.N := W3_arr m ρ c 8

/-! ## The host operations between the regions write only the channel statistics -/

theorem W4_arg0 (c : Dev nD) : W4 m ρ c (Proc.devRef .tc main_arg0) = W3 m ρ c (Proc.devRef .tc main_arg0) := by
  dsimp only [W4, hostOps1]
  after_results

theorem W4_v2 (c : Dev nD) : W4 m ρ c (Proc.devRef .tc main_v2) = W3 m ρ c (Proc.devRef .tc main_v2) := by
  dsimp only [W4, hostOps1]
  after_results

theorem W4_v3 (c : Dev nD) : W4 m ρ c (Proc.devRef .tc main_v3) = W3 m ρ c (Proc.devRef .tc main_v3) := by
  dsimp only [W4, hostOps1]
  after_results

theorem W4_arg1 (c : Dev nD) : W4 m ρ c (Proc.devRef .tc main_arg1) = W3 m ρ c (Proc.devRef .tc main_arg1) := by
  dsimp only [W4, hostOps1]
  after_results

theorem W4_arg2 (c : Dev nD) : W4 m ρ c (Proc.devRef .tc main_arg2) = W3 m ρ c (Proc.devRef .tc main_arg2) := by
  dsimp only [W4, hostOps1]
  after_results

theorem W4_arg3 (c : Dev nD) : W4 m ρ c (Proc.devRef .tc main_arg3) = W3 m ρ c (Proc.devRef .tc main_arg3) := by
  dsimp only [W4, hostOps1]
  after_results

theorem W4_arg4 (c : Dev nD) : W4 m ρ c (Proc.devRef .tc main_arg4) = W3 m ρ c (Proc.devRef .tc main_arg4) := by
  dsimp only [W4, hostOps1]
  after_results

theorem W4_arg5 (c : Dev nD) : W4 m ρ c (Proc.devRef .tc main_arg5) = W3 m ρ c (Proc.devRef .tc main_arg5) := by
  dsimp only [W4, hostOps1]
  after_results

theorem W4_arg6 (c : Dev nD) : W4 m ρ c (Proc.devRef .tc main_arg6) = W3 m ρ c (Proc.devRef .tc main_arg6) := by
  dsimp only [W4, hostOps1]
  after_results

/-- The channel means: the first total divided by 524288. -/
theorem W4_mean (c : Dev nD) : (W4 m ρ c (Proc.devRef .tc main_v6) : S128.Idx → EReal)
    = Host.divf (W3 m ρ c (Proc.devRef .tc main_v4_0)) (broadcastInDim S128 ![] bcast_S_S128 (constant (F := Ideal) S_ .f32 0x49000000#32)) := by
  dsimp only [W4, hostOps1]
  after_results

/-- The channel variances: the second total divided by 524288, minus the squared channel mean. -/
theorem W4_var (c : Dev nD) : (W4 m ρ c (Proc.devRef .tc main_v10) : S128.Idx → EReal)
    = subf (Host.divf (W3 m ρ c (Proc.devRef .tc main_v4_1)) (broadcastInDim S128 ![] bcast_S_S128 (constant (F := Ideal) S_ .f32 0x49000000#32)))
        (mulf (Host.divf (W3 m ρ c (Proc.devRef .tc main_v4_0)) (broadcastInDim S128 ![] bcast_S_S128 (constant (F := Ideal) S_ .f32 0x49000000#32)))
          (Host.divf (W3 m ρ c (Proc.devRef .tc main_v4_0)) (broadcastInDim S128 ![] bcast_S_S128 (constant (F := Ideal) S_ .f32 0x49000000#32)))) := by
  dsimp only [W4, hostOps1]
  after_results

end Cert.KernelIdeal.HostVals

end
-- ==== Proof.Spec.lean ====
/-
  The polynomial-feature module, stated once over the extended reals, away from both programs.

  Inputs: a batch x of 4096 rows of 128 features, the first normalisation's scale g1 and shift b1 (128 each), a weight
  matrix w of 128 output channels by 129 inputs, a bias fb (128), the second normalisation's scale g2 and shift b2 (128).

  Both programs compute, per feature j, the batch mean mu1 and the (biased) batch variance var1 of x, normalise x to xn,
  expand every row v of xn into its 128 first-degree terms followed by its 128·128 products v_p·v_q (row-major in (p, q)),
  clamp below at 0, cut that list of 16512 numbers into 128 consecutive windows of 129, contract every window with every
  row of w and add the bias: a value y(r, i, o) per batch row r, window i, channel o.  Then, per channel o, the mean and
  variance of y over all (r, i) normalise y.

  The two programs differ in three arrangements, and each has its own form below:
    * dividing by a square root (…R) against multiplying by a reciprocal square root (…K);
    * the 129 terms of a window as one sum (featRow, yRowR) against the first 128 of them — read through the two pieces
      "tail of products row i-1, then head of products row i" — plus the 129th, which is the square v_i·v_i (winRow, yRowK);
    * the variance as the mean of squared deviations (var2R) against the mean of squares minus the squared mean (var2K),
      the sums taken tile by tile of 64 batch rows (sumT).
-/
import Idealize.ShloMosaic.PureOps.Ideal

noncomputable section

open scoped BigOperators

namespace Cert.Poly

open Idealize.ShloMosaic

/-- The batch size 4096, as the f32 constant both programs divide by. -/
abbrev nB : EReal := Ideal.ofBits .f32 0x45800000#32
/-- The number 4096·128 = 524288 of (row, window) pairs, as the f32 constant both programs divide by. -/
abbrev nBD : EReal := Ideal.ofBits .f32 0x49000000#32
/-- The variance offset: the f32 nearest 1e-5, the same word in both programs. -/
abbrev eps : EReal := Ideal.ofBits .f32 0x3727C5AC#32

/-! ## The first normalisation -/

/-- Batch mean of feature j. -/
def mu1 (x : Fin 4096 → Fin 128 → EReal) (j : Fin 128) : EReal := Ideal.div (∑ r, x r j) nB

/-- Batch variance of feature j: the mean of the squared deviations. -/
def var1 (x : Fin 4096 → Fin 128 → EReal) (j : Fin 128) : EReal :=
  Ideal.div (∑ r, (x r j - mu1 x j) * (x r j - mu1 x j)) nB

/-- One entry normalised, dividing by the standard deviation: a the entry, mu and v its feature's mean and variance. -/
def normR (a mu v g b : EReal) : EReal := Ideal.div (a - mu) (Ideal.sqrt (v + eps)) * g + b

/-- One entry normalised, multiplying by the reciprocal standard deviation. -/
def normK (a mu v g b : EReal) : EReal := (a - mu) * Ideal.rsqrt (v + eps) * g + b

/-- The normalised batch, dividing by the standard deviation. -/
def xnR (x : Fin 4096 → Fin 128 → EReal) (g1 b1 : Fin 128 → EReal) (r : Fin 4096) (j : Fin 128) : EReal :=
  normR (x r j) (mu1 x j) (var1 x j) (g1 j) (b1 j)

/-- The normalised batch, multiplying by the reciprocal standard deviation. -/
def xnK (x : Fin 4096 → Fin 128 → EReal) (g1 b1 : Fin 128 → EReal) (r : Fin 4096) (j : Fin 128) : EReal :=
  normK (x r j) (mu1 x j) (var1 x j) (g1 j) (b1 j)

/-! ## The expansion, the clamp and the contraction, of one normalised row v -/

/-- Entry n < 16512 of a row's expansion: the row itself, then its products row-major. -/
def polyRow (v : Fin 128 → EReal) (n : Fin 16512) : EReal :=
  if h : n.val < 128 then v ⟨n.val, h⟩
  else v ⟨(n.val - 128) / 128, by have := n.isLt; omega⟩ * v ⟨(n.val - 128) % 128, Nat.mod_lt _ (by norm_num)⟩

/-- Window i, position k < 129 of the clamped expansion. -/
def featRow (v : Fin 128 → EReal) (i : Fin 128) (k : Fin 129) : EReal :=
  max (polyRow v ⟨129 * i.val + k.val, by have := i.isLt; have := k.isLt; omega⟩) 0

/-- The contraction of window i with channel o's weights, plus the bias: one sum of 129 terms. -/
def yRowR (v : Fin 128 → EReal) (w : Fin 128 → Fin 129 → EReal) (fb : Fin 128 → EReal) (i o : Fin 128) : EReal :=
  (∑ k : Fin 129, featRow v i k * w o k) + fb o

/-- The first 128 positions of window i read through two pieces of the clamped products: window 0 is the clamped row;
    window i ≥ 1 is the tail (columns i … 127) of products row i-1 followed by the head (columns 0 … i-1) of products row i. -/
def winRow (v : Fin 128 → EReal) (i k : Fin 128) : EReal :=
  if i.val = 0 then max (v k) 0
  else if h : k.val < 128 - i.val then
    max (v ⟨i.val - 1, by have := i.isLt; omega⟩ * v ⟨i.val + k.val, by omega⟩) 0
  else max (v i * v ⟨k.val - (128 - i.val), by have := k.isLt; omega⟩) 0

/-- The contraction as 128 terms, plus the square v_i·v_i against the 129th weight, plus the bias. -/
def yRowK (v : Fin 128 → EReal) (w : Fin 128 → Fin 129 → EReal) (fb : Fin 128 → EReal) (i o : Fin 128) : EReal :=
  (∑ k : Fin 128, winRow v i k * w o k.castSucc) + v i * v i * w o (Fin.last 128) + fb o

/-- y as the reference arranges it. -/
def yR (xn : Fin 4096 → Fin 128 → EReal) (w : Fin 128 → Fin 129 → EReal) (fb : Fin 128 → EReal)
    (r : Fin 4096) (i o : Fin 128) : EReal := yRowR (xn r) w fb i o

/-- y as the kernel arranges it. -/
def yK (xn : Fin 4096 → Fin 128 → EReal) (w : Fin 128 → Fin 129 → EReal) (fb : Fin 128 → EReal)
    (r : Fin 4096) (i o : Fin 128) : EReal := yRowK (xn r) w fb i o

/-! ## The second normalisation -/

/-- Channel mean of y over all (row, window) pairs. -/
def mu2R (y : Fin 4096 → Fin 128 → Fin 128 → EReal) (o : Fin 128) : EReal := Ideal.div (∑ r, ∑ i, y r i o) nBD

/-- Channel variance of y: the mean of the squared deviations. -/
def var2R (y : Fin 4096 → Fin 128 → Fin 128 → EReal) (o : Fin 128) : EReal :=
  Ideal.div (∑ r, ∑ i, (y r i o - mu2R y o) * (y r i o - mu2R y o)) nBD

/-- The result, dividing by the standard deviation. -/
def outR (y : Fin 4096 → Fin 128 → Fin 128 → EReal) (g2 b2 : Fin 128 → EReal) (r : Fin 4096) (i o : Fin 128) : EReal :=
  normR (y r i o) (mu2R y o) (var2R y o) (g2 o) (b2 o)

/-- Batch row number of row b of tile t (64 rows per tile). -/
def rowOf (t b : Fin 64) : Fin 4096 := ⟨64 * t.val + b.val, by have := t.isLt; have := b.isLt; omega⟩

/-- One tile's total of f: the windows' totals of the tile's row totals. -/
def tileSum (f : Fin 4096 → Fin 128 → EReal) (t : Fin 64) : EReal := ∑ i : Fin 128, ∑ b : Fin 64, f (rowOf t b) i

/-- A channel's total of f over all (row, window) pairs, tile by tile. -/
def sumT (f : Fin 4096 → Fin 128 → EReal) : EReal := ∑ t : Fin 64, tileSum f t

/-- Channel mean, from the tile-by-tile total. -/
def mu2K (y : Fin 4096 → Fin 128 → Fin 128 → EReal) (o : Fin 128) : EReal := Ideal.div (sumT fun r i => y r i o) nBD

/-- Channel variance as the mean of the squares minus the squared mean. -/
def var2K (y : Fin 4096 → Fin 128 → Fin 128 → EReal) (o : Fin 128) : EReal :=
  Ideal.div (sumT fun r i => y r i o * y r i o) nBD - mu2K y o * mu2K y o

/-- The result, multiplying by the reciprocal standard deviation. -/
def outK (y : Fin 4096 → Fin 128 → Fin 128 → EReal) (g2 b2 : Fin 128 → EReal) (r : Fin 4096) (i o : Fin 128) : EReal :=
  normK (y r i o) (mu2K y o) (var2K y o) (g2 o) (b2 o)

/-- What the reference computes. -/
def resultR (x : Fin 4096 → Fin 128 → EReal) (g1 b1 : Fin 128 → EReal) (w : Fin 128 → Fin 129 → EReal)
    (fb g2 b2 : Fin 128 → EReal) : Fin 4096 → Fin 128 → Fin 128 → EReal :=
  outR (yR (xnR x g1 b1) w fb) g2 b2

/-- What the kernel computes. -/
def resultK (x : Fin 4096 → Fin 128 → EReal) (g1 b1 : Fin 128 → EReal) (w : Fin 128 → Fin 129 → EReal)
    (fb g2 b2 : Fin 128 → EReal) : Fin 4096 → Fin 128 → Fin 128 → EReal :=
  outK (yK (xnK x g1 b1) w fb) g2 b2

end Cert.Poly

end
-- ==== Proof.LibBatchStats.lean ====
/-
  The batch statistics of a [4096,128] array read at a feature, as the host computes them.

  * The mean: the sum over the batch axis into the zero word, divided by the constant 4096 spread over the 128 features,
    is Cert.Poly.mu1 at every feature (mean_apply).
  * The variance: the mean kept as a [1,128] row, spread under every batch row, the squared deviations summed over the
    batch axis, divided by 4096 less the conversion of the integer 0, the quotient selected where that divisor is
    positive (it is: 4096 − 0), is Cert.Poly.var1 at every feature (var_apply).

  Every shape relation an operation takes is a hypothesis of the lemma, so the lemmas apply to any program that prints
  these operations over these shapes.
-/
import proofs.«138108_j2860448219241_2_alg».proof.Proof.Spec
import Idealize.ShloMosaic.Lib.ValueIdx
import Idealize.ShloMosaic.Lib.IdealHost
import Idealize.ShloMosaic.Lib.KernelVsHost
import Idealize.ShloMosaic.Lib.Pipeline.Value

noncomputable section

open scoped BigOperators

namespace Cert.Poly.BatchStats

open Idealize.ShloMosaic Idealize.ShloMosaic.ValueIdx

/-- The batch: 4096 rows of 128 features. -/
abbrev sBD : Shape := ⟨2, ![4096, 128]⟩
/-- One value per feature. -/
abbrev sD : Shape := ⟨1, ![128]⟩
/-- One value per feature, kept as a row. -/
abbrev s1D : Shape := ⟨2, ![1, 128]⟩
/-- A scalar. -/
abbrev s0 : Shape := ⟨0, ![]⟩

/-! ## The two divisors are positive numbers -/

/-- The word 0x45800000 is 4096. -/
theorem nB_eq : Cert.Poly.nB = ((4096 : ℝ) : EReal) := by
  simp [Ideal.ofBits, Ideal.ieee, -EReal.coe_mul]; norm_num

/-- The word 0x49000000 is 524288. -/
theorem nBD_eq : Cert.Poly.nBD = ((524288 : ℝ) : EReal) := by
  simp [Ideal.ofBits, Ideal.ieee, -EReal.coe_mul]; norm_num

theorem nB_pos : (0 : EReal) < Cert.Poly.nB := by rw [nB_eq]; exact_mod_cast (by norm_num : (0 : ℝ) < 4096)

theorem nBD_pos : (0 : EReal) < Cert.Poly.nBD := by rw [nBD_eq]; exact_mod_cast (by norm_num : (0 : ℝ) < 524288)

/-- The comparison "the divisor 4096 is greater than 0" holds. -/
theorem cmp_nB : Ideal.cmp .ogt Cert.Poly.nB 0 = 1#1 := by
  unfold Ideal.cmp
  simp [nB_pos]

/-- The comparison "the divisor 524288 is greater than 0" holds. -/
theorem cmp_nBD : Ideal.cmp .ogt Cert.Poly.nBD 0 = 1#1 := by
  unfold Ideal.cmp
  simp [nBD_pos]

/-! ## The sum over the batch axis and the mean -/

/-- The sum over the batch axis, from the initial value: the initial value plus the sum over the rows. -/
theorem colSum_apply (x : FVec Ideal sBD .f32) (init : s0.Idx → Ideal .f32) (hR : sBD.ReducesTo [0] sD) (hS : 0 < s0.numel)
    (j : Fin 128) :
    Host.reduceAdd x init hR hS (ix1 j) = init (Shape.Idx.first hS) + ∑ r : Fin 4096, x (ix2 r j) := by
  have hR' : sBD.Reduces [0] sD := by decide
  rw [hostReduceAdd_apply]
  refine (Ideal.hostReduceAdd_single hR hR' x _ (ix1 j)).trans ?_
  show _ + ∑ r : Fin 4096, x (hR'.lift (ix1 j) r) = _
  refine congrArg _ (Finset.sum_congr rfl fun r _ => congrArg x ?_)
  funext a
  match a with
  | ⟨0, _⟩ => rfl
  | ⟨1, _⟩ => rfl

/-- The sum over the batch axis into the zero word is the sum over the rows. -/
theorem colSum_zero_apply (x : FVec Ideal sBD .f32) (hR : sBD.ReducesTo [0] sD) (hS : 0 < s0.numel) (j : Fin 128) :
    Host.reduceAdd x (constant (F := Ideal) s0 .f32 0x00000000#32) hR hS (ix1 j) = ∑ r : Fin 4096, x (ix2 r j) := by
  rw [colSum_apply, constant_apply, Ideal.ofBits_zero_f32, zero_add]

/-- The batch mean of feature j. -/
theorem mean_apply (x : FVec Ideal sBD .f32) (hR : sBD.ReducesTo [0] sD) (hS : 0 < s0.numel)
    (hB : s0.BroadcastsInDim sD (![] : Fin 0 → Fin sD.rank)) (j : Fin 128) :
    Host.divf (Host.reduceAdd x (constant (F := Ideal) s0 .f32 0x00000000#32) hR hS)
        (broadcastInDim sD ![] hB (constant (F := Ideal) s0 .f32 0x45800000#32)) (ix1 j)
      = Cert.Poly.mu1 (fun r j => x (ix2 r j)) j := by
  rw [hostDivf_apply, colSum_zero_apply, broadcastInDim_scalar_apply, constant_apply]
  rfl

/-! ## The variance -/

/-- A vector of 128 as a [1,128] row reads the vector. -/
theorem row_apply {α : Type} (h : sD.BroadcastsInDim s1D (![1] : Fin 1 → Fin s1D.rank)) (v : sD.Idx → α) (j : Fin 128) :
    broadcastInDim s1D ![1] h v (ix2 (0 : Fin 1) j) = v (ix1 j) := by
  refine broadcastInDim_apply ![1] h v (ix2 (0 : Fin 1) j) (ix1 j) fun a => ?_
  match a with
  | ⟨0, _⟩ => exact (if_neg (by show ¬((128 : ℕ) = 1); decide)).symm

/-- A [1,128] row spread under every one of the 4096 rows reads the row. -/
theorem under_apply {α : Type} (h : s1D.BroadcastsInDim sBD (![0, 1] : Fin 2 → Fin sBD.rank)) (v : s1D.Idx → α)
    (r : Fin 4096) (j : Fin 128) :
    broadcastInDim sBD ![0, 1] h v (ix2 r j) = v (ix2 (0 : Fin 1) j) := by
  refine broadcastInDim_apply ![0, 1] h v (ix2 r j) (ix2 (0 : Fin 1) j) fun a => ?_
  match a with
  | ⟨0, _⟩ => exact (if_pos (by show (1 : ℕ) = 1; rfl)).symm
  | ⟨1, _⟩ => exact (if_neg (by show ¬((128 : ℕ) = 1); decide)).symm

/-- The divisor 4096 − convert(0 : i32) is 4096. -/
theorem den_apply (i : s0.Idx) :
    subf (constant (F := Ideal) s0 .f32 0x45800000#32) (sitofp .f32 (constantI s0 32 0#32)) i = Cert.Poly.nB := by
  show Ideal.ofBits .f32 0x45800000#32 - (Scalar.sitofp .f32 0#32 : Ideal .f32) = _
  rw [sitofp_zero, sub_zero]

/-- The mean kept as a [1,128] row and spread under every batch row reads mu1 of the column. -/
theorem meanUnder_apply (x : FVec Ideal sBD .f32) (hR : sBD.ReducesTo [0] sD) (hS : 0 < s0.numel)
    (hB1 : sD.BroadcastsInDim s1D (![1] : Fin 1 → Fin s1D.rank))
    (hB2 : s0.BroadcastsInDim s1D (![] : Fin 0 → Fin s1D.rank))
    (hB3 : s1D.BroadcastsInDim sBD (![0, 1] : Fin 2 → Fin sBD.rank)) (r : Fin 4096) (j : Fin 128) :
    broadcastInDim sBD ![0, 1] hB3
        (Host.divf (broadcastInDim s1D ![1] hB1 (Host.reduceAdd x (constant (F := Ideal) s0 .f32 0x00000000#32) hR hS))
          (broadcastInDim s1D ![] hB2 (constant (F := Ideal) s0 .f32 0x45800000#32))) (ix2 r j)
      = Cert.Poly.mu1 (fun r j => x (ix2 r j)) j := by
  rw [under_apply, hostDivf_apply, row_apply, colSum_zero_apply, broadcastInDim_scalar_apply, constant_apply]
  rfl

/-- The batch variance of feature j, as @_var computes it with 0 degrees of freedom removed. -/
theorem var_apply (x : FVec Ideal sBD .f32) (hR : sBD.ReducesTo [0] sD) (hS : 0 < s0.numel)
    (hB : s0.BroadcastsInDim sD (![] : Fin 0 → Fin sD.rank))
    (hB1 : sD.BroadcastsInDim s1D (![1] : Fin 1 → Fin s1D.rank))
    (hB2 : s0.BroadcastsInDim s1D (![] : Fin 0 → Fin s1D.rank))
    (hB3 : s1D.BroadcastsInDim sBD (![0, 1] : Fin 2 → Fin sBD.rank)) (j : Fin 128) :
    select
        (broadcastInDim sD ![] hB
          (cmpf .ogt (subf (constant (F := Ideal) s0 .f32 0x45800000#32) (sitofp .f32 (constantI s0 32 0#32)))
            (constant (F := Ideal) s0 .f32 0x00000000#32)))
        (Host.divf
          (Host.reduceAdd
            (mulf
              (subf x (broadcastInDim sBD ![0, 1] hB3
                (Host.divf (broadcastInDim s1D ![1] hB1 (Host.reduceAdd x (constant (F := Ideal) s0 .f32 0x00000000#32) hR hS))
                  (broadcastInDim s1D ![] hB2 (constant (F := Ideal) s0 .f32 0x45800000#32)))))
              (subf x (broadcastInDim sBD ![0, 1] hB3
                (Host.divf (broadcastInDim s1D ![1] hB1 (Host.reduceAdd x (constant (F := Ideal) s0 .f32 0x00000000#32) hR hS))
                  (broadcastInDim s1D ![] hB2 (constant (F := Ideal) s0 .f32 0x45800000#32))))))
            (constant (F := Ideal) s0 .f32 0x00000000#32) hR hS)
          (broadcastInDim sD ![] hB (subf (constant (F := Ideal) s0 .f32 0x45800000#32) (sitofp .f32 (constantI s0 32 0#32)))))
        (broadcastInDim sD ![] hB (id (constant (F := Ideal) s0 .f32 0x7FC00000#32))) (ix1 j)
      = Cert.Poly.var1 (fun r j => x (ix2 r j)) j := by
  rw [select_apply, broadcastInDim_scalar_apply, cmpf_apply, den_apply, constant_apply, Ideal.ofBits_zero_f32,
    Ideal.cmpf_def, cmp_nB, select_one, hostDivf_apply, colSum_zero_apply, broadcastInDim_scalar_apply, den_apply]
  unfold Cert.Poly.var1
  refine congrArg (fun s => Ideal.div s Cert.Poly.nB) (Finset.sum_congr rfl fun r _ => ?_)
  rw [mulf_apply, subf_apply, meanUnder_apply]

end Cert.Poly.BatchStats

end
-- ==== Proof.KerHostStats.lean ====
/-
  The two vectors the kernel normalises x by are the batch mean and the batch variance of x.

  The kernel program's host prefix sums x over the batch axis and divides by 4096 (the mean), then calls the variance
  function on x: its own mean kept as a row, the squared deviations summed, divided by 4096 less the conversion of the
  integer 0, selected where that divisor is positive.  Read at a feature these are the specification's mu1 and var1.
-/
import proofs.«138108_j2860448219241_2_alg».proof.Proof.Gen.KernelIdeal.Frame
import proofs.«138108_j2860448219241_2_alg».proof.Proof.LibBatchStats
import Idealize.ShloMosaic.Lib.StableHlo.Run
import Idealize.ShloMosaic.PureOps.Ideal.Laws

set_option maxRecDepth 16384

noncomputable section

namespace Cert.KernelIdeal.HostVals

open Cert.KernelIdeal Cert.KernelIdeal.Gen
open Idealize.ShloMosaic Idealize.ShloMosaic.TcCoe Idealize.SL.Sem Idealize.ShloMosaic.StableHlo Idealize.ShloMosaic.ValueIdx

variable (m : (ℓ : Loc nD τ sig) → Buf (Elt Ideal) ℓ) (ρ : Dev nD → PrngReg)

/-- The mean buffer at region 0's entry, as the host's two operations on x. -/
theorem W2_mean (c : Dev nD) : (W2 m ρ c (Proc.devRef .tc main_v2) : S128.Idx → EReal)
    = Host.divf (Host.reduceAdd (m ((c.tc : Thread nD τ).loc main_arg0)) (constant (F := Ideal) S_ .f32 0x00000000#32) reducesTo_S4096x128_S128_d0 h_S_)
        (broadcastInDim S128 ![] bcast_S_S128 (constant (F := Ideal) S_ .f32 0x45800000#32)) := by
  dsimp only [W2, W1, W0, hostOps0, hostOps0_1]
  after_results

/-- The mean buffer at a feature is the batch mean of that feature. -/
theorem W2_mean_apply (c : Dev nD) (j : Fin 128) :
    (W2 m ρ c (Proc.devRef .tc main_v2) : S128.Idx → EReal) (ix1 j)
      = Cert.Poly.mu1 (fun r j => (m ((c.tc : Thread nD τ).loc main_arg0) : S4096x128.Idx → EReal) (ix2 r j)) j := by
  rw [W2_mean]
  exact Cert.Poly.BatchStats.mean_apply _ _ _ _ j

set_option maxHeartbeats 1000000 in
/-- The variance buffer at region 0's entry, as the variance function's operations on x. -/
theorem W2_var (c : Dev nD) : (W2 m ρ c (Proc.devRef .tc main_v3) : S128.Idx → EReal)
    = select
        (broadcastInDim S128 ![] bcast_S_S128
          (cmpf .ogt (subf (constant (F := Ideal) S_ .f32 0x45800000#32) (sitofp .f32 (constantI S_ 32 0#32)))
            (constant (F := Ideal) S_ .f32 0x00000000#32)))
        (Host.divf
          (Host.reduceAdd
            (mulf
              (subf (m ((c.tc : Thread nD τ).loc main_arg0)) (broadcastInDim S4096x128 ![0, 1] bcast_S1x128_S4096x128_0_1
                (Host.divf (broadcastInDim S1x128 ![1] bcast_S128_S1x128_1 (Host.reduceAdd (m ((c.tc : Thread nD τ).loc main_arg0)) (constant (F := Ideal) S_ .f32 0x00000000#32) reducesTo_S4096x128_S128_d0 h_S_))
                  (broadcastInDim S1x128 ![] bcast_S_S1x128 (constant (F := Ideal) S_ .f32 0x45800000#32)))))
              (subf (m ((c.tc : Thread nD τ).loc main_arg0)) (broadcastInDim S4096x128 ![0, 1] bcast_S1x128_S4096x128_0_1
                (Host.divf (broadcastInDim S1x128 ![1] bcast_S128_S1x128_1 (Host.reduceAdd (m ((c.tc : Thread nD τ).loc main_arg0)) (constant (F := Ideal) S_ .f32 0x00000000#32) reducesTo_S4096x128_S128_d0 h_S_))
                  (broadcastInDim S1x128 ![] bcast_S_S1x128 (constant (F := Ideal) S_ .f32 0x45800000#32))))))
            (constant (F := Ideal) S_ .f32 0x00000000#32) reducesTo_S4096x128_S128_d0 h_S_)
          (broadcastInDim S128 ![] bcast_S_S128 (subf (constant (F := Ideal) S_ .f32 0x45800000#32) (sitofp .f32 (constantI S_ 32 0#32)))))
        (broadcastInDim S128 ![] bcast_S_S128 (id (constant (F := Ideal) S_ .f32 0x7FC00000#32))) := by
  dsimp only [W2, W1, W0, hostOps0, hostOps0_1]
  after_results
  rfl

/-- The variance buffer at a feature is the batch variance of that feature. -/
theorem W2_var_apply (c : Dev nD) (j : Fin 128) :
    (W2 m ρ c (Proc.devRef .tc main_v3) : S128.Idx → EReal) (ix1 j)
      = Cert.Poly.var1 (fun r j => (m ((c.tc : Thread nD τ).loc main_arg0) : S4096x128.Idx → EReal) (ix2 r j)) j := by
  rw [W2_var]
  exact Cert.Poly.BatchStats.var_apply _ _ _ _ _ _ _ j

end Cert.KernelIdeal.HostVals

end
-- ==== Proof.KerSpec.lean ====
/-
  The kernel's arrangement of the polynomial-feature module read over arrays: a tile of 64 batch rows with the vectors it is
  normalised by, and the whole batch.  Arrays are functions of an index of a literal shape; `ix1`, `ix2`, `ix3` build the index from
  coordinates.
-/
import proofs.«138108_j2860448219241_2_alg».proof.Proof.Spec
import Idealize.ShloMosaic.Lib.ValueIdx

noncomputable section

open scoped BigOperators

namespace Cert.Poly

open Idealize.ShloMosaic Idealize.ShloMosaic.ValueIdx

/-- Row b of a tile of 64 batch rows, normalised with the feature means m1, variances v1, scale g1 and shift b1. -/
def xnT (x0 : (⟨2, ![64, 128]⟩ : Shape).Idx → EReal) (m1 v1 g1 b1 : (⟨1, ![128]⟩ : Shape).Idx → EReal)
    (b : Fin 64) (j : Fin 128) : EReal :=
  normK (x0 (ix2 b j)) (m1 (ix1 j)) (v1 (ix1 j)) (g1 (ix1 j)) (b1 (ix1 j))

/-- The tile's value before the second normalisation, at row b, window i, channel o. -/
def yT (x0 : (⟨2, ![64, 128]⟩ : Shape).Idx → EReal) (m1 v1 g1 b1 : (⟨1, ![128]⟩ : Shape).Idx → EReal)
    (w : (⟨2, ![128, 129]⟩ : Shape).Idx → EReal) (fb : (⟨1, ![128]⟩ : Shape).Idx → EReal)
    (b : Fin 64) (i o : Fin 128) : EReal :=
  yRowK (xnT x0 m1 v1 g1 b1 b) (fun o k => w (ix2 o k)) (fun o => fb (ix1 o)) i o

/-- One tile's total of the tile's values, per channel: the windows' totals of the rows' totals. -/
def tileTot (x0 : (⟨2, ![64, 128]⟩ : Shape).Idx → EReal) (m1 v1 g1 b1 : (⟨1, ![128]⟩ : Shape).Idx → EReal)
    (w : (⟨2, ![128, 129]⟩ : Shape).Idx → EReal) (fb : (⟨1, ![128]⟩ : Shape).Idx → EReal) (o : Fin 128) : EReal :=
  ∑ i : Fin 128, ∑ b : Fin 64, yT x0 m1 v1 g1 b1 w fb b i o

/-- One tile's total of the squared values, per channel. -/
def tileTotSq (x0 : (⟨2, ![64, 128]⟩ : Shape).Idx → EReal) (m1 v1 g1 b1 : (⟨1, ![128]⟩ : Shape).Idx → EReal)
    (w : (⟨2, ![128, 129]⟩ : Shape).Idx → EReal) (fb : (⟨1, ![128]⟩ : Shape).Idx → EReal) (o : Fin 128) : EReal :=
  ∑ i : Fin 128, ∑ b : Fin 64, yT x0 m1 v1 g1 b1 w fb b i o * yT x0 m1 v1 g1 b1 w fb b i o

/-- Batch row r normalised, over whole arrays. -/
def xnArr (x : (⟨2, ![4096, 128]⟩ : Shape).Idx → EReal) (m1 v1 g1 b1 : (⟨1, ![128]⟩ : Shape).Idx → EReal)
    (r : Fin 4096) (j : Fin 128) : EReal :=
  normK (x (ix2 r j)) (m1 (ix1 j)) (v1 (ix1 j)) (g1 (ix1 j)) (b1 (ix1 j))

/-- The value before the second normalisation over whole arrays, at batch row r, window i, channel o. -/
def yArr (x : (⟨2, ![4096, 128]⟩ : Shape).Idx → EReal) (m1 v1 g1 b1 : (⟨1, ![128]⟩ : Shape).Idx → EReal)
    (w : (⟨2, ![128, 129]⟩ : Shape).Idx → EReal) (fb : (⟨1, ![128]⟩ : Shape).Idx → EReal)
    (r : Fin 4096) (i o : Fin 128) : EReal :=
  yRowK (xnArr x m1 v1 g1 b1 r) (fun o k => w (ix2 o k)) (fun o => fb (ix1 o)) i o

end Cert.Poly

end
-- ==== Proof.KerSpecLemmas.lean ====
/-
  From the arrays the output kernel reads to the kernel's arrangement of the specification.

  If the two vectors the kernel normalises x by are the batch mean and variance of x, the array-level value yArr is the
  specification's yK of the kernel-normalised batch; if moreover the two vectors it normalises y by are "tile-by-tile total
  over 524288" and "tile-by-tile total of squares over 524288, minus the squared mean", the normalised value is resultK.
-/
import proofs.«138108_j2860448219241_2_alg».proof.Proof.KerSpec

noncomputable section

open scoped BigOperators

namespace Cert.Poly

open Idealize.ShloMosaic Idealize.ShloMosaic.ValueIdx

variable (x : (⟨2, ![4096, 128]⟩ : Shape).Idx → EReal) (m1 v1 g1 b1 : (⟨1, ![128]⟩ : Shape).Idx → EReal)
  (w : (⟨2, ![128, 129]⟩ : Shape).Idx → EReal) (fb : (⟨1, ![128]⟩ : Shape).Idx → EReal)

/-- The array-level value is yK of the kernel-normalised batch, once the two vectors are the batch statistics. -/
theorem yArr_eq (hm : ∀ j, m1 (ix1 j) = mu1 (fun r j => x (ix2 r j)) j) (hv : ∀ j, v1 (ix1 j) = var1 (fun r j => x (ix2 r j)) j) :
    yArr x m1 v1 g1 b1 w fb
      = yK (xnK (fun r j => x (ix2 r j)) (fun j => g1 (ix1 j)) (fun j => b1 (ix1 j))) (fun o k => w (ix2 o k)) (fun o => fb (ix1 o)) := by
  funext r i o
  have hrow : xnArr x m1 v1 g1 b1 r = xnK (fun r j => x (ix2 r j)) (fun j => g1 (ix1 j)) (fun j => b1 (ix1 j)) r := by
    funext j
    simp only [xnArr, xnK, hm, hv]
  simp only [yArr, yK, hrow]

/-- The kernel's result from the arrays its output stage reads. -/
theorem resultK_of_arrays (g2 b2 mean2 var2 : (⟨1, ![128]⟩ : Shape).Idx → EReal)
    (hm : ∀ j, m1 (ix1 j) = mu1 (fun r j => x (ix2 r j)) j) (hv : ∀ j, v1 (ix1 j) = var1 (fun r j => x (ix2 r j)) j)
    (h7 : ∀ o, mean2 (ix1 o) = Ideal.div (sumT fun r i => yArr x m1 v1 g1 b1 w fb r i o) nBD)
    (h8 : ∀ o, var2 (ix1 o) = Ideal.div (sumT fun r i => yArr x m1 v1 g1 b1 w fb r i o * yArr x m1 v1 g1 b1 w fb r i o) nBD
        - mean2 (ix1 o) * mean2 (ix1 o))
    (r : Fin 4096) (i o : Fin 128) :
    normK (yArr x m1 v1 g1 b1 w fb r i o) (mean2 (ix1 o)) (var2 (ix1 o)) (g2 (ix1 o)) (b2 (ix1 o))
      = resultK (fun r j => x (ix2 r j)) (fun j => g1 (ix1 j)) (fun j => b1 (ix1 j)) (fun o k => w (ix2 o k)) (fun o => fb (ix1 o))
          (fun o => g2 (ix1 o)) (fun o => b2 (ix1 o)) r i o := by
  have hy := yArr_eq x m1 v1 g1 b1 w fb hm hv
  have hmu : mean2 (ix1 o) = mu2K (yArr x m1 v1 g1 b1 w fb) o := by rw [h7]; rfl
  have hvar : var2 (ix1 o) = var2K (yArr x m1 v1 g1 b1 w fb) o := by rw [h8, hmu]; rfl
  rw [hmu, hvar, hy]
  rfl

end Cert.Poly

end
-- ==== Proof.RegionBlocks.lean ====
import proofs.«138108_j2860448219241_2_alg».proof.Proof.KerSpec
import proofs.«138108_j2860448219241_2_alg».proof.Proof.Gen.KernelIdeal.Frame
import Idealize.ShloMosaic.Lib.Pipeline.Value

/-
  The windows' blocks of the two regions read off the arrays the region finds: the batch window's block at point t is rows
  64·t … 64·t + 63 of the batch; every other input window's block is its whole array. The index maps are decided once over
  the grid. Then the tile's values are the whole batch's values at those rows.
-/

noncomputable section

open scoped BigOperators
open Idealize.ShloMosaic Idealize.ShloMosaic.ValueIdx Idealize.ShloMosaic.TcCoe
open Idealize.ShloMosaic.Pipeline (Dat)

namespace Cert.KernelIdeal.Regions

open Cert.KernelIdeal Cert.KernelIdeal.Gen

variable (V : (c : Dev nD) → (b : Ref sig .tc) → Buf (Elt Ideal) ((c : Thread nD τ).loc b))

/-- A point of the first region's grid as a tile number. -/
def pt0 (t : Fin cfg0.N) : Fin 64 := ⟨t.val, by have h := t.isLt; have hN : cfg0.N = 64 := N_0; omega⟩
/-- A point of the second region's grid as a tile number. -/
def pt1 (t : Fin cfg1.N) : Fin 64 := ⟨t.val, by have h := t.isLt; have hN : cfg1.N = 64 := N_1; omega⟩

/-- The first region's index maps at point t: the batch window moves with the point, every other window stays at block 0. -/
structure Idx0 (t : Fin cfg0.N) : Prop where
  w0a : win0_0.index t (0 : Fin 2) = t.val
  w0b : win0_0.index t (1 : Fin 2) = 0
  w1 : win0_1.index t (0 : Fin 1) = 0
  w2 : win0_2.index t (0 : Fin 1) = 0
  w3 : win0_3.index t (0 : Fin 1) = 0
  w4 : win0_4.index t (0 : Fin 1) = 0
  w5a : win0_5.index t (0 : Fin 2) = 0
  w5b : win0_5.index t (1 : Fin 2) = 0
  w6 : win0_6.index t (0 : Fin 1) = 0
  w7 : win0_7.index t (0 : Fin 1) = 0
  w8 : win0_8.index t (0 : Fin 1) = 0

theorem idx0_all : ∀ t : Fin cfg0.N, win0_0.index t (0 : Fin 2) = t.val ∧ win0_0.index t (1 : Fin 2) = 0
      ∧ win0_1.index t (0 : Fin 1) = 0 ∧ win0_2.index t (0 : Fin 1) = 0 ∧ win0_3.index t (0 : Fin 1) = 0
      ∧ win0_4.index t (0 : Fin 1) = 0 ∧ win0_5.index t (0 : Fin 2) = 0 ∧ win0_5.index t (1 : Fin 2) = 0
      ∧ win0_6.index t (0 : Fin 1) = 0 ∧ win0_7.index t (0 : Fin 1) = 0 ∧ win0_8.index t (0 : Fin 1) = 0 :=
  (by decide +kernel : ∀ t : Fin grid0.N, _)

theorem idx0 : ∀ t : Fin cfg0.N, Idx0 t := fun t =>
  have h := idx0_all t
  ⟨h.1, h.2.1, h.2.2.1, h.2.2.2.1, h.2.2.2.2.1, h.2.2.2.2.2.1, h.2.2.2.2.2.2.1, h.2.2.2.2.2.2.2.1, h.2.2.2.2.2.2.2.2.1,
    h.2.2.2.2.2.2.2.2.2.1, h.2.2.2.2.2.2.2.2.2.2⟩

/-- The second region's index maps at point t: the batch window and the output window move with the point, every other
    window stays at block 0. -/
structure Idx1 (t : Fin cfg1.N) : Prop where
  w0a : win1_0.index t (0 : Fin 2) = t.val
  w0b : win1_0.index t (1 : Fin 2) = 0
  w1 : win1_1.index t (0 : Fin 1) = 0
  w2 : win1_2.index t (0 : Fin 1) = 0
  w3 : win1_3.index t (0 : Fin 1) = 0
  w4 : win1_4.index t (0 : Fin 1) = 0
  w5a : win1_5.index t (0 : Fin 2) = 0
  w5b : win1_5.index t (1 : Fin 2) = 0
  w6 : win1_6.index t (0 : Fin 1) = 0
  w7 : win1_7.index t (0 : Fin 1) = 0
  w8 : win1_8.index t (0 : Fin 1) = 0
  w9 : win1_9.index t (0 : Fin 1) = 0
  w10 : win1_10.index t (0 : Fin 1) = 0
  w11a : win1_11.index t (0 : Fin 3) = t.val
  w11b : win1_11.index t (1 : Fin 3) = 0
  w11c : win1_11.index t (2 : Fin 3) = 0

theorem idx1_all : ∀ t : Fin cfg1.N, win1_0.index t (0 : Fin 2) = t.val ∧ win1_0.index t (1 : Fin 2) = 0
      ∧ win1_1.index t (0 : Fin 1) = 0 ∧ win1_2.index t (0 : Fin 1) = 0 ∧ win1_3.index t (0 : Fin 1) = 0
      ∧ win1_4.index t (0 : Fin 1) = 0 ∧ win1_5.index t (0 : Fin 2) = 0 ∧ win1_5.index t (1 : Fin 2) = 0
      ∧ win1_6.index t (0 : Fin 1) = 0 ∧ win1_7.index t (0 : Fin 1) = 0 ∧ win1_8.index t (0 : Fin 1) = 0
      ∧ win1_9.index t (0 : Fin 1) = 0 ∧ win1_10.index t (0 : Fin 1) = 0
      ∧ win1_11.index t (0 : Fin 3) = t.val ∧ win1_11.index t (1 : Fin 3) = 0 ∧ win1_11.index t (2 : Fin 3) = 0 :=
  (by decide +kernel : ∀ t : Fin grid1.N, _)

theorem idx1 : ∀ t : Fin cfg1.N, Idx1 t := fun t =>
  have h := idx1_all t
  ⟨h.1, h.2.1, h.2.2.1, h.2.2.2.1, h.2.2.2.2.1, h.2.2.2.2.2.1, h.2.2.2.2.2.2.1, h.2.2.2.2.2.2.2.1, h.2.2.2.2.2.2.2.2.1,
    h.2.2.2.2.2.2.2.2.2.1, h.2.2.2.2.2.2.2.2.2.2.1, h.2.2.2.2.2.2.2.2.2.2.2.1, h.2.2.2.2.2.2.2.2.2.2.2.2.1,
    h.2.2.2.2.2.2.2.2.2.2.2.2.2.1, h.2.2.2.2.2.2.2.2.2.2.2.2.2.2.1, h.2.2.2.2.2.2.2.2.2.2.2.2.2.2.2⟩

/-! ## The first region's blocks -/

/-- The batch window's block at point t, row b: batch row 64·t + b of the array. -/
theorem iblk0_0_apply (c : Dev nD) (t : Fin cfg0.N) (b : Fin 64) (j : Fin 128) :
    (iblk0 V c 0 t : S64x128.Idx → EReal) (ix2 b j)
      = (V c (Pipeline.arrRef spec0 0) : S4096x128.Idx → EReal) (ix2 (Cert.Poly.rowOf (pt0 t) b) j) := by
  have e0 : win0_0.index t (0 : Fin 2) = t.val := (idx0 t).w0a
  have e1 : win0_0.index t (1 : Fin 2) = 0 := (idx0 t).w0b
  unfold iblk0
  rw [View.read_apply]
  show (V c (Pipeline.arrRef spec0 0) : S4096x128.Idx → EReal) _ = _
  congr 1
  funext a
  apply Fin.ext
  match a with
  | ⟨0, _⟩ => show win0_0.index t (0 : Fin 2) * 64 + 1 * b.val = 64 * t.val + b.val; rw [e0]; omega
  | ⟨1, _⟩ => show win0_0.index t (1 : Fin 2) * 128 + 1 * j.val = j.val; rw [e1]; omega

theorem iblk0_1_eq (c : Dev nD) (t : Fin cfg0.N) :
    (iblk0 V c 1 t : S128.Idx → EReal) = (V c (Pipeline.arrRef spec0 1) : S128.Idx → EReal) := by
  have e : win0_1.index t (0 : Fin 1) = 0 := (idx0 t).w1
  funext y
  unfold iblk0
  rw [View.read_apply]
  show (V c (Pipeline.arrRef spec0 1) : S128.Idx → EReal) _ = _
  congr 1
  funext a
  apply Fin.ext
  match a with
  | ⟨0, _⟩ => show win0_1.index t (0 : Fin 1) * 128 + 1 * (y 0).val = (y 0).val; rw [e]; omega

theorem iblk0_2_eq (c : Dev nD) (t : Fin cfg0.N) :
    (iblk0 V c 2 t : S128.Idx → EReal) = (V c (Pipeline.arrRef spec0 2) : S128.Idx → EReal) := by
  have e : win0_2.index t (0 : Fin 1) = 0 := (idx0 t).w2
  funext y
  unfold iblk0
  rw [View.read_apply]
  show (V c (Pipeline.arrRef spec0 2) : S128.Idx → EReal) _ = _
  congr 1
  funext a
  apply Fin.ext
  match a with
  | ⟨0, _⟩ => show win0_2.index t (0 : Fin 1) * 128 + 1 * (y 0).val = (y 0).val; rw [e]; omega

theorem iblk0_3_eq (c : Dev nD) (t : Fin cfg0.N) :
    (iblk0 V c 3 t : S128.Idx → EReal) = (V c (Pipeline.arrRef spec0 3) : S128.Idx → EReal) := by
  have e : win0_3.index t (0 : Fin 1) = 0 := (idx0 t).w3
  funext y
  unfold iblk0
  rw [View.read_apply]
  show (V c (Pipeline.arrRef spec0 3) : S128.Idx → EReal) _ = _
  congr 1
  funext a
  apply Fin.ext
  match a with
  | ⟨0, _⟩ => show win0_3.index t (0 : Fin 1) * 128 + 1 * (y 0).val = (y 0).val; rw [e]; omega

theorem iblk0_4_eq (c : Dev nD) (t : Fin cfg0.N) :
    (iblk0 V c 4 t : S128.Idx → EReal) = (V c (Pipeline.arrRef spec0 4) : S128.Idx → EReal) := by
  have e : win0_4.index t (0 : Fin 1) = 0 := (idx0 t).w4
  funext y
  unfold iblk0
  rw [View.read_apply]
  show (V c (Pipeline.arrRef spec0 4) : S128.Idx → EReal) _ = _
  congr 1
  funext a
  apply Fin.ext
  match a with
  | ⟨0, _⟩ => show win0_4.index t (0 : Fin 1) * 128 + 1 * (y 0).val = (y 0).val; rw [e]; omega

theorem iblk0_5_eq (c : Dev nD) (t : Fin cfg0.N) :
    (iblk0 V c 5 t : S128x129.Idx → EReal) = (V c (Pipeline.arrRef spec0 5) : S128x129.Idx → EReal) := by
  have e0 : win0_5.index t (0 : Fin 2) = 0 := (idx0 t).w5a
  have e1 : win0_5.index t (1 : Fin 2) = 0 := (idx0 t).w5b
  funext y
  unfold iblk0
  rw [View.read_apply]
  show (V c (Pipeline.arrRef spec0 5) : S128x129.Idx → EReal) _ = _
  congr 1
  funext a
  apply Fin.ext
  match a with
  | ⟨0, _⟩ => show win0_5.index t (0 : Fin 2) * 128 + 1 * (y 0).val = (y 0).val; rw [e0]; omega
  | ⟨1, _⟩ => show win0_5.index t (1 : Fin 2) * 129 + 1 * (y 1).val = (y 1).val; rw [e1]; omega

theorem iblk0_6_eq (c : Dev nD) (t : Fin cfg0.N) :
    (iblk0 V c 6 t : S128.Idx → EReal) = (V c (Pipeline.arrRef spec0 6) : S128.Idx → EReal) := by
  have e : win0_6.index t (0 : Fin 1) = 0 := (idx0 t).w6
  funext y
  unfold iblk0
  rw [View.read_apply]
  show (V c (Pipeline.arrRef spec0 6) : S128.Idx → EReal) _ = _
  congr 1
  funext a
  apply Fin.ext
  match a with
  | ⟨0, _⟩ => show win0_6.index t (0 : Fin 1) * 128 + 1 * (y 0).val = (y 0).val; rw [e]; omega

/-! ## The second region's blocks -/

/-- The batch window's block at point t, row b: batch row 64·t + b of the array. -/
theorem iblk1_0_apply (c : Dev nD) (t : Fin cfg1.N) (b : Fin 64) (j : Fin 128) :
    (iblk1 V c 0 t : S64x128.Idx → EReal) (ix2 b j)
      = (V c (Pipeline.arrRef spec1 0) : S4096x128.Idx → EReal) (ix2 (Cert.Poly.rowOf (pt1 t) b) j) := by
  have e0 : win1_0.index t (0 : Fin 2) = t.val := (idx1 t).w0a
  have e1 : win1_0.index t (1 : Fin 2) = 0 := (idx1 t).w0b
  unfold iblk1
  rw [View.read_apply]
  show (V c (Pipeline.arrRef spec1 0) : S4096x128.Idx → EReal) _ = _
  congr 1
  funext a
  apply Fin.ext
  match a with
  | ⟨0, _⟩ => show win1_0.index t (0 : Fin 2) * 64 + 1 * b.val = 64 * t.val + b.val; rw [e0]; omega
  | ⟨1, _⟩ => show win1_0.index t (1 : Fin 2) * 128 + 1 * j.val = j.val; rw [e1]; omega

theorem iblk1_1_eq (c : Dev nD) (t : Fin cfg1.N) :
    (iblk1 V c 1 t : S128.Idx → EReal) = (V c (Pipeline.arrRef spec1 1) : S128.Idx → EReal) := by
  have e : win1_1.index t (0 : Fin 1) = 0 := (idx1 t).w1
  funext y
  unfold iblk1
  rw [View.read_apply]
  show (V c (Pipeline.arrRef spec1 1) : S128.Idx → EReal) _ = _
  congr 1
  funext a
  apply Fin.ext
  match a with
  | ⟨0, _⟩ => show win1_1.index t (0 : Fin 1) * 128 + 1 * (y 0).val = (y 0).val; rw [e]; omega

theorem iblk1_2_eq (c : Dev nD) (t : Fin cfg1.N) :
    (iblk1 V c 2 t : S128.Idx → EReal) = (V c (Pipeline.arrRef spec1 2) : S128.Idx → EReal) := by
  have e : win1_2.index t (0 : Fin 1) = 0 := (idx1 t).w2
  funext y
  unfold iblk1
  rw [View.read_apply]
  show (V c (Pipeline.arrRef spec1 2) : S128.Idx → EReal) _ = _
  congr 1
  funext a
  apply Fin.ext
  match a with
  | ⟨0, _⟩ => show win1_2.index t (0 : Fin 1) * 128 + 1 * (y 0).val = (y 0).val; rw [e]; omega

theorem iblk1_3_eq (c : Dev nD) (t : Fin cfg1.N) :
    (iblk1 V c 3 t : S128.Idx → EReal) = (V c (Pipeline.arrRef spec1 3) : S128.Idx → EReal) := by
  have e : win1_3.index t (0 : Fin 1) = 0 := (idx1 t).w3
  funext y
  unfold iblk1
  rw [View.read_apply]
  show (V c (Pipeline.arrRef spec1 3) : S128.Idx → EReal) _ = _
  congr 1
  funext a
  apply Fin.ext
  match a with
  | ⟨0, _⟩ => show win1_3.index t (0 : Fin 1) * 128 + 1 * (y 0).val = (y 0).val; rw [e]; omega

theorem iblk1_4_eq (c : Dev nD) (t : Fin cfg1.N) :
    (iblk1 V c 4 t : S128.Idx → EReal) = (V c (Pipeline.arrRef spec1 4) : S128.Idx → EReal) := by
  have e : win1_4.index t (0 : Fin 1) = 0 := (idx1 t).w4
  funext y
  unfold iblk1
  rw [View.read_apply]
  show (V c (Pipeline.arrRef spec1 4) : S128.Idx → EReal) _ = _
  congr 1
  funext a
  apply Fin.ext
  match a with
  | ⟨0, _⟩ => show win1_4.index t (0 : Fin 1) * 128 + 1 * (y 0).val = (y 0).val; rw [e]; omega

theorem iblk1_5_eq (c : Dev nD) (t : Fin cfg1.N) :
    (iblk1 V c 5 t : S128x129.Idx → EReal) = (V c (Pipeline.arrRef spec1 5) : S128x129.Idx → EReal) := by
  have e0 : win1_5.index t (0 : Fin 2) = 0 := (idx1 t).w5a
  have e1 : win1_5.index t (1 : Fin 2) = 0 := (idx1 t).w5b
  funext y
  unfold iblk1
  rw [View.read_apply]
  show (V c (Pipeline.arrRef spec1 5) : S128x129.Idx → EReal) _ = _
  congr 1
  funext a
  apply Fin.ext
  match a with
  | ⟨0, _⟩ => show win1_5.index t (0 : Fin 2) * 128 + 1 * (y 0).val = (y 0).val; rw [e0]; omega
  | ⟨1, _⟩ => show win1_5.index t (1 : Fin 2) * 129 + 1 * (y 1).val = (y 1).val; rw [e1]; omega

theorem iblk1_6_eq (c : Dev nD) (t : Fin cfg1.N) :
    (iblk1 V c 6 t : S128.Idx → EReal) = (V c (Pipeline.arrRef spec1 6) : S128.Idx → EReal) := by
  have e : win1_6.index t (0 : Fin 1) = 0 := (idx1 t).w6
  funext y
  unfold iblk1
  rw [View.read_apply]
  show (V c (Pipeline.arrRef spec1 6) : S128.Idx → EReal) _ = _
  congr 1
  funext a
  apply Fin.ext
  match a with
  | ⟨0, _⟩ => show win1_6.index t (0 : Fin 1) * 128 + 1 * (y 0).val = (y 0).val; rw [e]; omega

theorem iblk1_7_eq (c : Dev nD) (t : Fin cfg1.N) :
    (iblk1 V c 7 t : S128.Idx → EReal) = (V c (Pipeline.arrRef spec1 7) : S128.Idx → EReal) := by
  have e : win1_7.index t (0 : Fin 1) = 0 := (idx1 t).w7
  funext y
  unfold iblk1
  rw [View.read_apply]
  show (V c (Pipeline.arrRef spec1 7) : S128.Idx → EReal) _ = _
  congr 1
  funext a
  apply Fin.ext
  match a with
  | ⟨0, _⟩ => show win1_7.index t (0 : Fin 1) * 128 + 1 * (y 0).val = (y 0).val; rw [e]; omega

theorem iblk1_8_eq (c : Dev nD) (t : Fin cfg1.N) :
    (iblk1 V c 8 t : S128.Idx → EReal) = (V c (Pipeline.arrRef spec1 8) : S128.Idx → EReal) := by
  have e : win1_8.index t (0 : Fin 1) = 0 := (idx1 t).w8
  funext y
  unfold iblk1
  rw [View.read_apply]
  show (V c (Pipeline.arrRef spec1 8) : S128.Idx → EReal) _ = _
  congr 1
  funext a
  apply Fin.ext
  match a with
  | ⟨0, _⟩ => show win1_8.index t (0 : Fin 1) * 128 + 1 * (y 0).val = (y 0).val; rw [e]; omega

theorem iblk1_9_eq (c : Dev nD) (t : Fin cfg1.N) :
    (iblk1 V c 9 t : S128.Idx → EReal) = (V c (Pipeline.arrRef spec1 9) : S128.Idx → EReal) := by
  have e : win1_9.index t (0 : Fin 1) = 0 := (idx1 t).w9
  funext y
  unfold iblk1
  rw [View.read_apply]
  show (V c (Pipeline.arrRef spec1 9) : S128.Idx → EReal) _ = _
  congr 1
  funext a
  apply Fin.ext
  match a with
  | ⟨0, _⟩ => show win1_9.index t (0 : Fin 1) * 128 + 1 * (y 0).val = (y 0).val; rw [e]; omega

theorem iblk1_10_eq (c : Dev nD) (t : Fin cfg1.N) :
    (iblk1 V c 10 t : S128.Idx → EReal) = (V c (Pipeline.arrRef spec1 10) : S128.Idx → EReal) := by
  have e : win1_10.index t (0 : Fin 1) = 0 := (idx1 t).w10
  funext y
  unfold iblk1
  rw [View.read_apply]
  show (V c (Pipeline.arrRef spec1 10) : S128.Idx → EReal) _ = _
  congr 1
  funext a
  apply Fin.ext
  match a with
  | ⟨0, _⟩ => show win1_10.index t (0 : Fin 1) * 128 + 1 * (y 0).val = (y 0).val; rw [e]; omega

/-! ## A tile's values are the batch's values at the tile's rows -/

/-- Two arrays that agree on every coordinate are equal (vectors of 128). -/
theorem vec_ext (f g : S128.Idx → EReal) (h : ∀ o : Fin 128, f (ix1 o) = g (ix1 o)) : f = g :=
  funext fun j => by rw [eq_ix1 j]; exact h _

/-- A tile row that reads the batch at row r has the batch's value there. -/
theorem yT_eq_yArr (x0 : S64x128.Idx → EReal) (x : S4096x128.Idx → EReal) (m1 v1 g1 b1 : S128.Idx → EReal)
    (w : S128x129.Idx → EReal) (fb : S128.Idx → EReal) (r : Fin 4096) (b : Fin 64)
    (hx : ∀ j : Fin 128, x0 (ix2 b j) = x (ix2 r j)) (i o : Fin 128) :
    Cert.Poly.yT x0 m1 v1 g1 b1 w fb b i o = Cert.Poly.yArr x m1 v1 g1 b1 w fb r i o := by
  have e : Cert.Poly.xnT x0 m1 v1 g1 b1 b = Cert.Poly.xnArr x m1 v1 g1 b1 r :=
    funext fun j => by unfold Cert.Poly.xnT Cert.Poly.xnArr; rw [hx j]
  unfold Cert.Poly.yT Cert.Poly.yArr
  rw [e]

/-- The same with every vector replaced by an equal one. -/
theorem yT_congr (x0 : S64x128.Idx → EReal) (x : S4096x128.Idx → EReal) (y1 y2 y3 y4 z1 z2 z3 z4 : S128.Idx → EReal)
    (y5 z5 : S128x129.Idx → EReal) (y6 z6 : S128.Idx → EReal) (r : Fin 4096) (b : Fin 64)
    (hx : ∀ j : Fin 128, x0 (ix2 b j) = x (ix2 r j))
    (h1 : y1 = z1) (h2 : y2 = z2) (h3 : y3 = z3) (h4 : y4 = z4) (h5 : y5 = z5) (h6 : y6 = z6) (i o : Fin 128) :
    Cert.Poly.yT x0 y1 y2 y3 y4 y5 y6 b i o = Cert.Poly.yArr x z1 z2 z3 z4 z5 z6 r i o := by
  subst h1 h2 h3 h4 h5 h6
  exact yT_eq_yArr x0 x y1 y2 y3 y4 y5 y6 r b hx i o

end Cert.KernelIdeal.Regions

end
-- ==== Proof.RegionOut.lean ====
import proofs.«138108_j2860448219241_2_alg».proof.Proof.RegionBlocks

/-
  The second region: every point writes its own block of 64 batch rows of the output, and the blocks tile the array, so the
  array ends holding, at (r, i, o), the value of batch row r, window i, channel o normalised by the channel's vectors.
-/

noncomputable section

open scoped BigOperators
open Idealize.ShloMosaic Idealize.ShloMosaic.ValueIdx Idealize.ShloMosaic.TcCoe
open Idealize.ShloMosaic.Pipeline (Dat)

namespace Cert.KernelIdeal.Regions

open Cert.KernelIdeal Cert.KernelIdeal.Gen

variable (V : (c : Dev nD) → (b : Ref sig .tc) → Buf (Elt Ideal) ((c : Thread nD τ).loc b))

/-- What one point's output block holds, as a function of the point's loaded blocks (the statement about the tile alone). -/
def TileOut : Prop :=
  ∀ (x0 : Vec Ideal S64x128 .f32) (x1 x2 x3 x4 : Vec Ideal S128 .f32) (x5 : Vec Ideal S128x129 .f32)
    (x6 x7 x8 x9 x10 : Vec Ideal S128 .f32) (b : Fin 64) (i o : Fin 128),
    Gen.out1_11 (F := Ideal) x0 x1 x2 x3 x4 x5 x6 x7 x8 x9 x10 (ix3 b i o)
      = Cert.Poly.normK (Cert.Poly.yT x0 x1 x2 x3 x4 x5 x6 b i o) (x7 (ix1 o)) (x8 (ix1 o)) (x9 (ix1 o)) (x10 (ix1 o))

/-- The array the output ends holding. -/
def outArr (c : Dev nD) : S4096x128x128.Idx → EReal := fun j =>
  Cert.Poly.normK (Cert.Poly.yArr (V c (Pipeline.arrRef spec1 0)) (V c (Pipeline.arrRef spec1 1)) (V c (Pipeline.arrRef spec1 2)) (V c (Pipeline.arrRef spec1 3)) (V c (Pipeline.arrRef spec1 4)) (V c (Pipeline.arrRef spec1 5)) (V c (Pipeline.arrRef spec1 6)) (j 0) (j 1) (j 2))
    (V c (Pipeline.arrRef spec1 7) (ix1 (j 2))) (V c (Pipeline.arrRef spec1 8) (ix1 (j 2)))
    (V c (Pipeline.arrRef spec1 9) (ix1 (j 2))) (V c (Pipeline.arrRef spec1 10) (ix1 (j 2)))

/-- The normalised value with every vector replaced by an equal one. -/
theorem normK_congr (a a' : EReal) (y7 y8 y9 y10 z7 z8 z9 z10 : S128.Idx → EReal) (o : Fin 128) (ha : a = a')
    (h7 : y7 = z7) (h8 : y8 = z8) (h9 : y9 = z9) (h10 : y10 = z10) :
    Cert.Poly.normK a (y7 (ix1 o)) (y8 (ix1 o)) (y9 (ix1 o)) (y10 (ix1 o))
      = Cert.Poly.normK a' (z7 (ix1 o)) (z8 (ix1 o)) (z9 (ix1 o)) (z10 (ix1 o)) := by
  subst ha h7 h8 h9 h10; rfl

/-- One point's output block at (b, i, o) is the array's value at batch row 64·t + b. -/
theorem point1 (hk : TileOut) (c : Dev nD) (t : Fin cfg1.N) (b : Fin 64) (i o : Fin 128) :
    Gen.out1_11 (F := Ideal) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (ix3 b i o)
      = outArr V c (ix3 (Cert.Poly.rowOf (pt1 t) b) i o) := by
  refine (hk (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) b i o).trans ?_
  exact normK_congr _ _ (iblk1 V c 7 t) (iblk1 V c 8 t) (iblk1 V c 9 t) (iblk1 V c 10 t)
    (V c (Pipeline.arrRef spec1 7)) (V c (Pipeline.arrRef spec1 8)) (V c (Pipeline.arrRef spec1 9)) (V c (Pipeline.arrRef spec1 10)) o
    (yT_congr (iblk1 V c 0 t) (V c (Pipeline.arrRef spec1 0)) (iblk1 V c 1 t) (iblk1 V c 2 t) (iblk1 V c 3 t) (iblk1 V c 4 t)
      (V c (Pipeline.arrRef spec1 1)) (V c (Pipeline.arrRef spec1 2)) (V c (Pipeline.arrRef spec1 3)) (V c (Pipeline.arrRef spec1 4))
      (iblk1 V c 5 t) (V c (Pipeline.arrRef spec1 5)) (iblk1 V c 6 t) (V c (Pipeline.arrRef spec1 6))
      (Cert.Poly.rowOf (pt1 t) b) b (fun j => iblk1_0_apply V c t b j)
      (iblk1_1_eq V c t) (iblk1_2_eq V c t) (iblk1_3_eq V c t) (iblk1_4_eq V c t) (iblk1_5_eq V c t) (iblk1_6_eq V c t) i o)
    (iblk1_7_eq V c t) (iblk1_8_eq V c t) (iblk1_9_eq V c t) (iblk1_10_eq V c t)

/-- Two blocks that agree at every (b, i, o) are equal. -/
theorem blk_ext (f g : S64x128x128.Idx → EReal) (h : ∀ (b : Fin 64) (i o : Fin 128), f (ix3 b i o) = g (ix3 b i o)) : f = g :=
  funext fun j => by rw [eq_ix3 j]; exact h _ _ _

/-- What point t writes back is block t of the array. -/
theorem flushed_out (hk : TileOut) (c : Dev nD) (t : Fin cfg1.N) :
    (dat1 V c).flushed 11 t = ((cfg1.win 11).blk t).view.read (Elt Ideal) (outArr V c) := by
  show (cfg1.win 11).cut (grid1.coords t) ((dat1 V c).after 11 t) = _
  rw [after1_11]
  refine blk_ext _ _ fun b i o => ?_
  show Gen.out1_11 (F := Ideal) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (ix3 b i o)
    = outArr V c (((cfg1.win 11).blk t).view.emb (ix3 b i o))
  have hemb : ((cfg1.win 11).blk t).view.emb (ix3 b i o) = ix3 (Cert.Poly.rowOf (pt1 t) b) i o := by
    have e0 : win1_11.index t (0 : Fin 3) = t.val := (idx1 t).w11a
    have e1 : win1_11.index t (1 : Fin 3) = 0 := (idx1 t).w11b
    have e2 : win1_11.index t (2 : Fin 3) = 0 := (idx1 t).w11c
    funext a
    apply Fin.ext
    match a with
    | ⟨0, _⟩ => show win1_11.index t (0 : Fin 3) * 64 + 1 * b.val = 64 * t.val + b.val; rw [e0]; omega
    | ⟨1, _⟩ => show win1_11.index t (1 : Fin 3) * 128 + 1 * i.val = i.val; rw [e1]; omega
    | ⟨2, _⟩ => show win1_11.index t (2 : Fin 3) * 128 + 1 * o.val = o.val; rw [e2]; omega
  rw [hemb]
  exact point1 V hk c t b i o

/-- An index of the output array is in point t's block iff each coordinate is in the block's range on its axis. -/
theorem mem_blk_out (t : Fin cfg1.N) (i : S4096x128x128.Idx) :
    i ∈ ((cfg1.win 11).blk t).view.set ↔ ∀ a : Fin 3, win1_11.index t a * S64x128x128.size a ≤ (i a).val ∧ (i a).val < win1_11.index t a * S64x128x128.size a + S64x128x128.size a := by
  show i ∈ ((View.whole main_v11).slice (win1_11.rect t)).set ↔ _
  rw [View.set_slice_whole, Rect.mem_set_unit]
  exact Iff.rfl

/-- Every index of the output array is in the block of the point that holds its batch row: point r / 64. -/
theorem cover_out (i : S4096x128x128.Idx) :
    ∃ t : Fin cfg1.N, (cfg1.win 11).flush t = true ∧ i ∈ ((cfg1.win 11).blk t).view.set := by
  have hN : cfg1.N = 64 := N_1
  have hi0 : (i 0).val < 4096 := (i 0).isLt
  have hi1 : (i 1).val < 128 := (i 1).isLt
  have hi2 : (i 2).val < 128 := (i 2).isLt
  let t : Fin cfg1.N := ⟨(i 0).val / 64, by omega⟩
  have e0 : win1_11.index t (0 : Fin 3) = (i 0).val / 64 := (idx1 t).w11a
  have e1 : win1_11.index t (1 : Fin 3) = 0 := (idx1 t).w11b
  have e2 : win1_11.index t (2 : Fin 3) = 0 := (idx1 t).w11c
  refine ⟨t, flush1_11 t, ?_⟩
  rw [mem_blk_out]
  intro a
  match a with
  | ⟨0, _⟩ => show win1_11.index t (0 : Fin 3) * 64 ≤ (i 0).val ∧ (i 0).val < win1_11.index t (0 : Fin 3) * 64 + 64; omega
  | ⟨1, _⟩ => show win1_11.index t (1 : Fin 3) * 128 ≤ (i 1).val ∧ (i 1).val < win1_11.index t (1 : Fin 3) * 128 + 128; omega
  | ⟨2, _⟩ => show win1_11.index t (2 : Fin 3) * 128 ≤ (i 2).val ∧ (i 2).val < win1_11.index t (2 : Fin 3) * 128 + 128; omega

/-- The output array at the region's exit. -/
theorem out_final_of (hk : TileOut) (c : Dev nD) (r : Fin 4096) (i o : Fin 128) :
    (Gen.dat1 (F := Ideal) V c).arrAt 11 cfg1.N (ix3 r i o)
      = Cert.Poly.normK (Cert.Poly.yArr (V c (Pipeline.arrRef spec1 0)) (V c (Pipeline.arrRef spec1 1)) (V c (Pipeline.arrRef spec1 2)) (V c (Pipeline.arrRef spec1 3)) (V c (Pipeline.arrRef spec1 4)) (V c (Pipeline.arrRef spec1 5)) (V c (Pipeline.arrRef spec1 6)) r i o)
          (V c (Pipeline.arrRef spec1 7) (ix1 o)) (V c (Pipeline.arrRef spec1 8) (ix1 o))
          (V c (Pipeline.arrRef spec1 9) (ix1 o)) (V c (Pipeline.arrRef spec1 10) (ix1 o)) := by
  have h := (dat1 V c).arrAt_eq_of_cover 11 (outArr V c) (fun t _ => flushed_out V hk c t) cover_out
  rw [h]
  rfl

end Cert.KernelIdeal.Regions

end
-- ==== Proof.RegionStats.lean ====
import proofs.«138108_j2860448219241_2_alg».proof.Proof.RegionBlocks

/-
  The first region: the two outputs are one block each that every point revisits; the first point leaves the tile's total
  (of the values, of their squares) and every later point adds its own, so after the last point the block holds the total
  over the whole batch, tile by tile, and the one write-back puts it in the array.
-/

noncomputable section

open scoped BigOperators
open Idealize.ShloMosaic Idealize.ShloMosaic.ValueIdx Idealize.ShloMosaic.TcCoe
open Idealize.ShloMosaic.Pipeline (Dat)

namespace Cert.KernelIdeal.Regions

open Cert.KernelIdeal Cert.KernelIdeal.Gen

variable (V : (c : Dev nD) → (b : Ref sig .tc) → Buf (Elt Ideal) ((c : Thread nD τ).loc b))

/-! ## What one point leaves, as statements about the tile alone -/

/-- The first point leaves the tile's total in output 7, -/
def PieceA7 : Prop :=
  ∀ (c : Dev nD) (i : grid0.Coords) (arg1 : Memref sig .tc .vmem S64x128 .f32) (harg1 : arg1.IsWhole) (arg2 : Memref sig .tc .vmem S128 .f32) (harg2 : arg2.IsWhole) (arg3 : Memref sig .tc .vmem S128 .f32) (harg3 : arg3.IsWhole) (arg4 : Memref sig .tc .vmem S128 .f32) (harg4 : arg4.IsWhole) (arg5 : Memref sig .tc .vmem S128 .f32) (harg5 : arg5.IsWhole) (arg6 : Memref sig .tc .vmem S128x129 .f32) (harg6 : arg6.IsWhole) (arg7 : Memref sig .tc .vmem S128 .f32) (harg7 : arg7.IsWhole) (arg8 : Memref sig .tc .vmem S128 .f32) (harg8 : arg8.IsWhole) (arg9 : Memref sig .tc .vmem S128 .f32) (harg9 : arg9.IsWhole) (hc0 : Gen.cond0_0 i)
    (x0 : Vec Ideal S64x128 .f32) (x1 x2 x3 x4 : Vec Ideal S128 .f32) (x5 : Vec Ideal S128x129 .f32) (x6 : Vec Ideal S128 .f32) (o : Fin 128),
    Gen.out0_A_7 (F := Ideal) c i arg1 harg1 arg2 harg2 arg3 harg3 arg4 harg4 arg5 harg5 arg6 harg6 arg7 harg7 arg8 harg8 arg9 harg9 hc0 x0 x1 x2 x3 x4 x5 x6 (ix1 o)
      = Cert.Poly.tileTot x0 x1 x2 x3 x4 x5 x6 o
/-- and the tile's total of squares in output 8; -/
def PieceA8 : Prop :=
  ∀ (c : Dev nD) (i : grid0.Coords) (arg1 : Memref sig .tc .vmem S64x128 .f32) (harg1 : arg1.IsWhole) (arg2 : Memref sig .tc .vmem S128 .f32) (harg2 : arg2.IsWhole) (arg3 : Memref sig .tc .vmem S128 .f32) (harg3 : arg3.IsWhole) (arg4 : Memref sig .tc .vmem S128 .f32) (harg4 : arg4.IsWhole) (arg5 : Memref sig .tc .vmem S128 .f32) (harg5 : arg5.IsWhole) (arg6 : Memref sig .tc .vmem S128x129 .f32) (harg6 : arg6.IsWhole) (arg7 : Memref sig .tc .vmem S128 .f32) (harg7 : arg7.IsWhole) (arg8 : Memref sig .tc .vmem S128 .f32) (harg8 : arg8.IsWhole) (arg9 : Memref sig .tc .vmem S128 .f32) (harg9 : arg9.IsWhole) (hc0 : Gen.cond0_0 i)
    (x0 : Vec Ideal S64x128 .f32) (x1 x2 x3 x4 : Vec Ideal S128 .f32) (x5 : Vec Ideal S128x129 .f32) (x6 : Vec Ideal S128 .f32) (o : Fin 128),
    Gen.out0_A_8 (F := Ideal) c i arg1 harg1 arg2 harg2 arg3 harg3 arg4 harg4 arg5 harg5 arg6 harg6 arg7 harg7 arg8 harg8 arg9 harg9 hc0 x0 x1 x2 x3 x4 x5 x6 (ix1 o)
      = Cert.Poly.tileTotSq x0 x1 x2 x3 x4 x5 x6 o
/-- a later point adds the tile's total to what output 7 held, -/
def PieceB7 : Prop :=
  ∀ (c : Dev nD) (i : grid0.Coords) (arg1 : Memref sig .tc .vmem S64x128 .f32) (harg1 : arg1.IsWhole) (arg2 : Memref sig .tc .vmem S128 .f32) (harg2 : arg2.IsWhole) (arg3 : Memref sig .tc .vmem S128 .f32) (harg3 : arg3.IsWhole) (arg4 : Memref sig .tc .vmem S128 .f32) (harg4 : arg4.IsWhole) (arg5 : Memref sig .tc .vmem S128 .f32) (harg5 : arg5.IsWhole) (arg6 : Memref sig .tc .vmem S128x129 .f32) (harg6 : arg6.IsWhole) (arg7 : Memref sig .tc .vmem S128 .f32) (harg7 : arg7.IsWhole) (arg8 : Memref sig .tc .vmem S128 .f32) (harg8 : arg8.IsWhole) (arg9 : Memref sig .tc .vmem S128 .f32) (harg9 : arg9.IsWhole) (hc0 : ¬Gen.cond0_0 i)
    (x0 : Vec Ideal S64x128 .f32) (x1 x2 x3 x4 : Vec Ideal S128 .f32) (x5 : Vec Ideal S128x129 .f32) (x6 : Vec Ideal S128 .f32) (xo7 xo8 : Vec Ideal S128 .f32) (o : Fin 128),
    Gen.out0_B_7 (F := Ideal) c i arg1 harg1 arg2 harg2 arg3 harg3 arg4 harg4 arg5 harg5 arg6 harg6 arg7 harg7 arg8 harg8 arg9 harg9 hc0 x0 x1 x2 x3 x4 x5 x6 xo7 xo8 (ix1 o)
      = xo7 (ix1 o) + Cert.Poly.tileTot x0 x1 x2 x3 x4 x5 x6 o
/-- and the tile's total of squares to what output 8 held. -/
def PieceB8 : Prop :=
  ∀ (c : Dev nD) (i : grid0.Coords) (arg1 : Memref sig .tc .vmem S64x128 .f32) (harg1 : arg1.IsWhole) (arg2 : Memref sig .tc .vmem S128 .f32) (harg2 : arg2.IsWhole) (arg3 : Memref sig .tc .vmem S128 .f32) (harg3 : arg3.IsWhole) (arg4 : Memref sig .tc .vmem S128 .f32) (harg4 : arg4.IsWhole) (arg5 : Memref sig .tc .vmem S128 .f32) (harg5 : arg5.IsWhole) (arg6 : Memref sig .tc .vmem S128x129 .f32) (harg6 : arg6.IsWhole) (arg7 : Memref sig .tc .vmem S128 .f32) (harg7 : arg7.IsWhole) (arg8 : Memref sig .tc .vmem S128 .f32) (harg8 : arg8.IsWhole) (arg9 : Memref sig .tc .vmem S128 .f32) (harg9 : arg9.IsWhole) (hc0 : ¬Gen.cond0_0 i)
    (x0 : Vec Ideal S64x128 .f32) (x1 x2 x3 x4 : Vec Ideal S128 .f32) (x5 : Vec Ideal S128x129 .f32) (x6 : Vec Ideal S128 .f32) (xo7 xo8 : Vec Ideal S128 .f32) (o : Fin 128),
    Gen.out0_B_8 (F := Ideal) c i arg1 harg1 arg2 harg2 arg3 harg3 arg4 harg4 arg5 harg5 arg6 harg6 arg7 harg7 arg8 harg8 arg9 harg9 hc0 x0 x1 x2 x3 x4 x5 x6 xo7 xo8 (ix1 o)
      = xo8 (ix1 o) + Cert.Poly.tileTotSq x0 x1 x2 x3 x4 x5 x6 o

/-! ## The tile's totals are the batch's, at the tile's rows -/

/-- Channel o's values over the whole batch, -/
def yCh (c : Dev nD) (o : Fin 128) : Fin 4096 → Fin 128 → EReal := fun r i =>
  Cert.Poly.yArr (V c (Pipeline.arrRef spec0 0)) (V c (Pipeline.arrRef spec0 1)) (V c (Pipeline.arrRef spec0 2)) (V c (Pipeline.arrRef spec0 3)) (V c (Pipeline.arrRef spec0 4)) (V c (Pipeline.arrRef spec0 5)) (V c (Pipeline.arrRef spec0 6)) r i o
/-- and their squares. -/
def ySq (c : Dev nD) (o : Fin 128) : Fin 4096 → Fin 128 → EReal := fun r i =>
  Cert.Poly.yArr (V c (Pipeline.arrRef spec0 0)) (V c (Pipeline.arrRef spec0 1)) (V c (Pipeline.arrRef spec0 2)) (V c (Pipeline.arrRef spec0 3)) (V c (Pipeline.arrRef spec0 4)) (V c (Pipeline.arrRef spec0 5)) (V c (Pipeline.arrRef spec0 6)) r i o
    * Cert.Poly.yArr (V c (Pipeline.arrRef spec0 0)) (V c (Pipeline.arrRef spec0 1)) (V c (Pipeline.arrRef spec0 2)) (V c (Pipeline.arrRef spec0 3)) (V c (Pipeline.arrRef spec0 4)) (V c (Pipeline.arrRef spec0 5)) (V c (Pipeline.arrRef spec0 6)) r i o

theorem tileTot_blk (c : Dev nD) (t : Fin cfg0.N) (o : Fin 128) :
    Cert.Poly.tileTot (iblk0 V c 0 t) (iblk0 V c 1 t) (iblk0 V c 2 t) (iblk0 V c 3 t) (iblk0 V c 4 t) (iblk0 V c 5 t) (iblk0 V c 6 t) o = Cert.Poly.tileSum (yCh V c o) (pt0 t) := by
  unfold Cert.Poly.tileTot Cert.Poly.tileSum
  exact Finset.sum_congr rfl fun i _ => Finset.sum_congr rfl fun b _ =>
    yT_congr (iblk0 V c 0 t) (V c (Pipeline.arrRef spec0 0)) (iblk0 V c 1 t) (iblk0 V c 2 t) (iblk0 V c 3 t) (iblk0 V c 4 t)
      (V c (Pipeline.arrRef spec0 1)) (V c (Pipeline.arrRef spec0 2)) (V c (Pipeline.arrRef spec0 3)) (V c (Pipeline.arrRef spec0 4))
      (iblk0 V c 5 t) (V c (Pipeline.arrRef spec0 5)) (iblk0 V c 6 t) (V c (Pipeline.arrRef spec0 6))
      (Cert.Poly.rowOf (pt0 t) b) b (fun j => iblk0_0_apply V c t b j)
      (iblk0_1_eq V c t) (iblk0_2_eq V c t) (iblk0_3_eq V c t) (iblk0_4_eq V c t) (iblk0_5_eq V c t) (iblk0_6_eq V c t) i o

theorem tileTotSq_blk (c : Dev nD) (t : Fin cfg0.N) (o : Fin 128) :
    Cert.Poly.tileTotSq (iblk0 V c 0 t) (iblk0 V c 1 t) (iblk0 V c 2 t) (iblk0 V c 3 t) (iblk0 V c 4 t) (iblk0 V c 5 t) (iblk0 V c 6 t) o = Cert.Poly.tileSum (ySq V c o) (pt0 t) := by
  unfold Cert.Poly.tileTotSq Cert.Poly.tileSum
  exact Finset.sum_congr rfl fun i _ => Finset.sum_congr rfl fun b _ =>
    congrArg (fun z => z * z) (yT_congr (iblk0 V c 0 t) (V c (Pipeline.arrRef spec0 0)) (iblk0 V c 1 t) (iblk0 V c 2 t) (iblk0 V c 3 t) (iblk0 V c 4 t)
      (V c (Pipeline.arrRef spec0 1)) (V c (Pipeline.arrRef spec0 2)) (V c (Pipeline.arrRef spec0 3)) (V c (Pipeline.arrRef spec0 4))
      (iblk0 V c 5 t) (V c (Pipeline.arrRef spec0 5)) (iblk0 V c 6 t) (V c (Pipeline.arrRef spec0 6))
      (Cert.Poly.rowOf (pt0 t) b) b (fun j => iblk0_0_apply V c t b j)
      (iblk0_1_eq V c t) (iblk0_2_eq V c t) (iblk0_3_eq V c t) (iblk0_4_eq V c t) (iblk0_5_eq V c t) (iblk0_6_eq V c t) i o)

/-- Tile k's total, nothing past the grid: the summand of the running total. -/
def tt (f : Fin 4096 → Fin 128 → EReal) (k : ℕ) : EReal := if h : k < 64 then Cert.Poly.tileSum f ⟨k, h⟩ else 0

theorem tt_pt0 (f : Fin 4096 → Fin 128 → EReal) (t : Fin cfg0.N) : tt f t.val = Cert.Poly.tileSum f (pt0 t) := by
  have h : t.val < 64 := (pt0 t).isLt
  unfold tt
  rw [dif_pos h]
  rfl

/-- The running total over all 64 tiles is the total tile by tile. -/
theorem sum_tt (f : Fin 4096 → Fin 128 → EReal) : ∑ k ∈ Finset.range (63 + 1), tt f k = Cert.Poly.sumT f := by
  show ∑ k ∈ Finset.range 64, tt f k = ∑ t : Fin 64, Cert.Poly.tileSum f t
  rw [Finset.sum_range]
  exact Finset.sum_congr rfl fun t _ => dif_pos t.isLt

/-- The grid's last point. -/
theorem lt_last : 63 < cfg0.N := by have hN : cfg0.N = 64 := N_0; omega
def tLast : Fin cfg0.N := ⟨63, lt_last⟩

/-! ## Output 7: the total of the values -/

/-- At the first point of the grid output 7's buffer holds the tile's total. -/
theorem first_7 (hA : PieceA7) (c : Dev nD) (t : Fin cfg0.N) (h0 : t.val % 64 = 0) (o : Fin 128) :
    (outsAt0 V c t.val t.isLt).1 (ix1 o) = Cert.Poly.tileSum (yCh V c o) (pt0 t) := by
  rw [outsAt0_A V c t h0]
  dsimp only
  exact (hA c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) ((hcond0_0 t).mpr h0)
    (iblk0 V c 0 t) (iblk0 V c 1 t) (iblk0 V c 2 t) (iblk0 V c 3 t) (iblk0 V c 4 t) (iblk0 V c 5 t) (iblk0 V c 6 t) o).trans (tileTot_blk V c t o)

/-- At every later point it holds what the point before left plus the tile's total. -/
theorem later_7 (hB : PieceB7) (c : Dev nD) (t : Fin cfg0.N) (h0 : ¬t.val % 64 = 0) (o : Fin 128) :
    (outsAt0 V c t.val t.isLt).1 (ix1 o)
      = (outsAt0 V c (t.val - 1) (Nat.lt_of_le_of_lt (Nat.sub_le _ _) t.isLt)).1 (ix1 o) + Cert.Poly.tileSum (yCh V c o) (pt0 t) := by
  rw [outsAt0_B V c t h0]
  dsimp only
  exact (hB c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (fun h => h0 ((hcond0_0 t).mp h))
    (iblk0 V c 0 t) (iblk0 V c 1 t) (iblk0 V c 2 t) (iblk0 V c 3 t) (iblk0 V c 4 t) (iblk0 V c 5 t) (iblk0 V c 6 t)
    (outsAt0 V c (t.val - 1) (Nat.lt_of_le_of_lt (Nat.sub_le _ _) t.isLt)).1
    (outsAt0 V c (t.val - 1) (Nat.lt_of_le_of_lt (Nat.sub_le _ _) t.isLt)).2 o).trans
    (congrArg (fun z => (outsAt0 V c (t.val - 1) (Nat.lt_of_le_of_lt (Nat.sub_le _ _) t.isLt)).1 (ix1 o) + z) (tileTot_blk V c t o))

/-- After point n the buffer holds the totals of tiles 0 … n: by induction on the point. -/
theorem partial_7 (hA : PieceA7) (hB : PieceB7) (c : Dev nD) (o : Fin 128) :
    ∀ (n : ℕ) (hn : n < cfg0.N), (outsAt0 V c n hn).1 (ix1 o) = ∑ k ∈ Finset.range (n + 1), tt (yCh V c o) k
  | 0, hn => by
    rw [Finset.sum_range_one]
    exact (first_7 V hA c ⟨0, hn⟩ rfl o).trans (tt_pt0 (yCh V c o) ⟨0, hn⟩).symm
  | n + 1, hn => by
    have hN : cfg0.N = 64 := N_0
    have hB' : ¬(⟨n + 1, hn⟩ : Fin cfg0.N).val % 64 = 0 := by dsimp only; omega
    rw [Finset.sum_range_succ, ← partial_7 hA hB c o n (Nat.lt_of_succ_lt hn)]
    refine (later_7 V hB c ⟨n + 1, hn⟩ hB' o).trans ?_
    show (outsAt0 V c n (Nat.lt_of_succ_lt hn)).1 (ix1 o) + Cert.Poly.tileSum (yCh V c o) (pt0 ⟨n + 1, hn⟩)
      = (outsAt0 V c n (Nat.lt_of_succ_lt hn)).1 (ix1 o) + tt (yCh V c o) (n + 1)
    rw [tt_pt0 (yCh V c o) ⟨n + 1, hn⟩]

/-- After the last point it holds the total over the whole batch. -/
theorem total_7 (hA : PieceA7) (hB : PieceB7) (c : Dev nD) (o : Fin 128) (h63 : 63 < cfg0.N) :
    (outsAt0 V c 63 h63).1 (ix1 o) = Cert.Poly.sumT (yCh V c o) := by
  rw [partial_7 V hA hB c o 63 h63]
  exact sum_tt (yCh V c o)

/-- The array output 7 ends holding. -/
def totArr (c : Dev nD) : S128.Idx → EReal := fun j => Cert.Poly.sumT (yCh V c (j 0))

/-- The one write-back, at the last point, writes it: the block is the whole array. -/
theorem flushed_7 (hA : PieceA7) (hB : PieceB7) (c : Dev nD) (t : Fin cfg0.N) (hf : (cfg0.win 7).flush t = true) :
    (dat0 V c).flushed 7 t = ((cfg0.win 7).blk t).view.read (Elt Ideal) (totArr V c) := by
  have hN : cfg0.N = 64 := N_0
  have h63 : t.val = 63 := by have := (flush0_7 t).mp hf; have := t.isLt; omega
  obtain rfl : t = tLast := Fin.ext h63
  show (cfg0.win 7).cut (grid0.coords tLast) ((dat0 V c).after 7 tLast) = _
  rw [after0_7]
  refine vec_ext _ _ fun o => ?_
  show (outsAt0 V c 63 lt_last).1 (ix1 o) = totArr V c (((cfg0.win 7).blk tLast).view.emb (ix1 o))
  have hemb : ((cfg0.win 7).blk tLast).view.emb (ix1 o) = ix1 o := by
    have e : win0_7.index tLast (0 : Fin 1) = 0 := (idx0 tLast).w7
    funext a
    apply Fin.ext
    match a with
    | ⟨0, _⟩ => show win0_7.index tLast (0 : Fin 1) * 128 + 1 * o.val = o.val; rw [e]; omega
  rw [hemb]
  exact total_7 V hA hB c o lt_last

/-- The last point's block covers the array. -/
theorem cover_7 (i : S128.Idx) :
    ∃ t : Fin cfg0.N, (cfg0.win 7).flush t = true ∧ i ∈ ((cfg0.win 7).blk t).view.set := by
  have hi : (i 0).val < 128 := (i 0).isLt
  have e : win0_7.index tLast (0 : Fin 1) = 0 := (idx0 tLast).w7
  refine ⟨tLast, (flush0_7 tLast).mpr rfl, ?_⟩
  show i ∈ ((View.whole main_v4_0).slice (win0_7.rect tLast)).set
  rw [View.set_slice_whole, Rect.mem_set_unit]
  intro a
  match a with
  | ⟨0, _⟩ => show win0_7.index tLast (0 : Fin 1) * 128 ≤ (i 0).val ∧ (i 0).val < win0_7.index tLast (0 : Fin 1) * 128 + 128; rw [e]; omega

theorem final_7 (hA : PieceA7) (hB : PieceB7) (c : Dev nD) : (dat0 V c).arrAt 7 cfg0.N = totArr V c :=
  (dat0 V c).arrAt_eq_of_cover 7 (totArr V c) (flushed_7 V hA hB c) cover_7

/-! ## Output 8: the total of the squares -/

/-- At the first point of the grid output 8's buffer holds the tile's total. -/
theorem first_8 (hA : PieceA8) (c : Dev nD) (t : Fin cfg0.N) (h0 : t.val % 64 = 0) (o : Fin 128) :
    (outsAt0 V c t.val t.isLt).2 (ix1 o) = Cert.Poly.tileSum (ySq V c o) (pt0 t) := by
  rw [outsAt0_A V c t h0]
  dsimp only
  exact (hA c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) ((hcond0_0 t).mpr h0)
    (iblk0 V c 0 t) (iblk0 V c 1 t) (iblk0 V c 2 t) (iblk0 V c 3 t) (iblk0 V c 4 t) (iblk0 V c 5 t) (iblk0 V c 6 t) o).trans (tileTotSq_blk V c t o)

/-- At every later point it holds what the point before left plus the tile's total. -/
theorem later_8 (hB : PieceB8) (c : Dev nD) (t : Fin cfg0.N) (h0 : ¬t.val % 64 = 0) (o : Fin 128) :
    (outsAt0 V c t.val t.isLt).2 (ix1 o)
      = (outsAt0 V c (t.val - 1) (Nat.lt_of_le_of_lt (Nat.sub_le _ _) t.isLt)).2 (ix1 o) + Cert.Poly.tileSum (ySq V c o) (pt0 t) := by
  rw [outsAt0_B V c t h0]
  dsimp only
  exact (hB c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (fun h => h0 ((hcond0_0 t).mp h))
    (iblk0 V c 0 t) (iblk0 V c 1 t) (iblk0 V c 2 t) (iblk0 V c 3 t) (iblk0 V c 4 t) (iblk0 V c 5 t) (iblk0 V c 6 t)
    (outsAt0 V c (t.val - 1) (Nat.lt_of_le_of_lt (Nat.sub_le _ _) t.isLt)).1
    (outsAt0 V c (t.val - 1) (Nat.lt_of_le_of_lt (Nat.sub_le _ _) t.isLt)).2 o).trans
    (congrArg (fun z => (outsAt0 V c (t.val - 1) (Nat.lt_of_le_of_lt (Nat.sub_le _ _) t.isLt)).2 (ix1 o) + z) (tileTotSq_blk V c t o))

/-- After point n the buffer holds the totals of tiles 0 … n: by induction on the point. -/
theorem partial_8 (hA : PieceA8) (hB : PieceB8) (c : Dev nD) (o : Fin 128) :
    ∀ (n : ℕ) (hn : n < cfg0.N), (outsAt0 V c n hn).2 (ix1 o) = ∑ k ∈ Finset.range (n + 1), tt (ySq V c o) k
  | 0, hn => by
    rw [Finset.sum_range_one]
    exact (first_8 V hA c ⟨0, hn⟩ rfl o).trans (tt_pt0 (ySq V c o) ⟨0, hn⟩).symm
  | n + 1, hn => by
    have hN : cfg0.N = 64 := N_0
    have hB' : ¬(⟨n + 1, hn⟩ : Fin cfg0.N).val % 64 = 0 := by dsimp only; omega
    rw [Finset.sum_range_succ, ← partial_8 hA hB c o n (Nat.lt_of_succ_lt hn)]
    refine (later_8 V hB c ⟨n + 1, hn⟩ hB' o).trans ?_
    show (outsAt0 V c n (Nat.lt_of_succ_lt hn)).2 (ix1 o) + Cert.Poly.tileSum (ySq V c o) (pt0 ⟨n + 1, hn⟩)
      = (outsAt0 V c n (Nat.lt_of_succ_lt hn)).2 (ix1 o) + tt (ySq V c o) (n + 1)
    rw [tt_pt0 (ySq V c o) ⟨n + 1, hn⟩]

/-- After the last point it holds the total over the whole batch. -/
theorem total_8 (hA : PieceA8) (hB : PieceB8) (c : Dev nD) (o : Fin 128) (h63 : 63 < cfg0.N) :
    (outsAt0 V c 63 h63).2 (ix1 o) = Cert.Poly.sumT (ySq V c o) := by
  rw [partial_8 V hA hB c o 63 h63]
  exact sum_tt (ySq V c o)

/-- The array output 8 ends holding. -/
def sqArr (c : Dev nD) : S128.Idx → EReal := fun j => Cert.Poly.sumT (ySq V c (j 0))

/-- The one write-back, at the last point, writes it: the block is the whole array. -/
theorem flushed_8 (hA : PieceA8) (hB : PieceB8) (c : Dev nD) (t : Fin cfg0.N) (hf : (cfg0.win 8).flush t = true) :
    (dat0 V c).flushed 8 t = ((cfg0.win 8).blk t).view.read (Elt Ideal) (sqArr V c) := by
  have hN : cfg0.N = 64 := N_0
  have h63 : t.val = 63 := by have := (flush0_8 t).mp hf; have := t.isLt; omega
  obtain rfl : t = tLast := Fin.ext h63
  show (cfg0.win 8).cut (grid0.coords tLast) ((dat0 V c).after 8 tLast) = _
  rw [after0_8]
  refine vec_ext _ _ fun o => ?_
  show (outsAt0 V c 63 lt_last).2 (ix1 o) = sqArr V c (((cfg0.win 8).blk tLast).view.emb (ix1 o))
  have hemb : ((cfg0.win 8).blk tLast).view.emb (ix1 o) = ix1 o := by
    have e : win0_8.index tLast (0 : Fin 1) = 0 := (idx0 tLast).w8
    funext a
    apply Fin.ext
    match a with
    | ⟨0, _⟩ => show win0_8.index tLast (0 : Fin 1) * 128 + 1 * o.val = o.val; rw [e]; omega
  rw [hemb]
  exact total_8 V hA hB c o lt_last

/-- The last point's block covers the array. -/
theorem cover_8 (i : S128.Idx) :
    ∃ t : Fin cfg0.N, (cfg0.win 8).flush t = true ∧ i ∈ ((cfg0.win 8).blk t).view.set := by
  have hi : (i 0).val < 128 := (i 0).isLt
  have e : win0_8.index tLast (0 : Fin 1) = 0 := (idx0 tLast).w8
  refine ⟨tLast, (flush0_8 tLast).mpr rfl, ?_⟩
  show i ∈ ((View.whole main_v4_1).slice (win0_8.rect tLast)).set
  rw [View.set_slice_whole, Rect.mem_set_unit]
  intro a
  match a with
  | ⟨0, _⟩ => show win0_8.index tLast (0 : Fin 1) * 128 ≤ (i 0).val ∧ (i 0).val < win0_8.index tLast (0 : Fin 1) * 128 + 128; rw [e]; omega

theorem final_8 (hA : PieceA8) (hB : PieceB8) (c : Dev nD) : (dat0 V c).arrAt 8 cfg0.N = sqArr V c :=
  (dat0 V c).arrAt_eq_of_cover 8 (sqArr V c) (flushed_8 V hA hB c) cover_8

/-! ## The two arrays at the region's exit -/

theorem stats_final_of (hA7 : PieceA7) (hA8 : PieceA8) (hB7 : PieceB7) (hB8 : PieceB8) (c : Dev nD) (o : Fin 128) :
    (Gen.dat0 (F := Ideal) V c).arrAt 7 cfg0.N (ix1 o)
        = Cert.Poly.sumT (fun r i => Cert.Poly.yArr (V c (Pipeline.arrRef spec0 0)) (V c (Pipeline.arrRef spec0 1)) (V c (Pipeline.arrRef spec0 2)) (V c (Pipeline.arrRef spec0 3)) (V c (Pipeline.arrRef spec0 4)) (V c (Pipeline.arrRef spec0 5)) (V c (Pipeline.arrRef spec0 6)) r i o)
    ∧ (Gen.dat0 (F := Ideal) V c).arrAt 8 cfg0.N (ix1 o)
        = Cert.Poly.sumT (fun r i => Cert.Poly.yArr (V c (Pipeline.arrRef spec0 0)) (V c (Pipeline.arrRef spec0 1)) (V c (Pipeline.arrRef spec0 2)) (V c (Pipeline.arrRef spec0 3)) (V c (Pipeline.arrRef spec0 4)) (V c (Pipeline.arrRef spec0 5)) (V c (Pipeline.arrRef spec0 6)) r i o
            * Cert.Poly.yArr (V c (Pipeline.arrRef spec0 0)) (V c (Pipeline.arrRef spec0 1)) (V c (Pipeline.arrRef spec0 2)) (V c (Pipeline.arrRef spec0 3)) (V c (Pipeline.arrRef spec0 4)) (V c (Pipeline.arrRef spec0 5)) (V c (Pipeline.arrRef spec0 6)) r i o) := by
  constructor
  · rw [final_7 V hA7 hB7 c]; rfl
  · rw [final_8 V hA8 hB8 c]; rfl

end Cert.KernelIdeal.Regions

end
-- ==== Proof.KerValue.lean ====
/-
  The idealized kernel program's result, entry by entry, is the kernel's arrangement of the specification at the launch arrays.

  The result buffer ends at what the output region's write-backs leave (the run), which at (r, i, o) is the normalised tile
  value over the eleven arrays that region reads (the region's blocks-to-array theorem).  Those arrays are: x, the batch mean
  and variance of x, four arguments, the two channel statistics the host forms from the statistics region's totals, and
  two more arguments (the host stretches read back).  The totals are the tile-by-tile sums of y and y² over the same seven
  arrays (the statistics region's accumulation theorem).  Together: resultK.
-/
import proofs.«138108_j2860448219241_2_alg».proof.Proof.KerRun
import proofs.«138108_j2860448219241_2_alg».proof.Proof.KerHost
import proofs.«138108_j2860448219241_2_alg».proof.Proof.KerHostStats
import proofs.«138108_j2860448219241_2_alg».proof.Proof.KerSpecLemmas
import proofs.«138108_j2860448219241_2_alg».proof.Proof.RegionOut
import proofs.«138108_j2860448219241_2_alg».proof.Proof.RegionStats

set_option maxRecDepth 16384

noncomputable section

namespace Cert.KernelIdeal.Value

open Cert.KernelIdeal Cert.KernelIdeal.Gen Cert.KernelIdeal.HostVals
open Idealize.ShloMosaic Idealize.ShloMosaic.TcCoe Idealize.SL.Sem Idealize.ShloMosaic.ValueIdx

variable (m : (ℓ : Loc nD τ sig) → Buf (Elt Ideal) ℓ) (ρ : Dev nD → PrngReg)

/-- A quotient of two [128] vectors by the host's division, at a channel. -/
theorem hostDivf_at (a b : FVec Ideal S128 .f32) (o : Fin 128) : Host.divf a b (ix1 o) = Ideal.div (a (ix1 o)) (b (ix1 o)) := rfl

/-- The constant 524288 spread over the 128 channels reads 524288 everywhere. -/
theorem nBD_at (o : Fin 128) :
    broadcastInDim S128 ![] bcast_S_S128 (constant (F := Ideal) S_ .f32 0x49000000#32) (ix1 o) = Cert.Poly.nBD :=
  broadcastInDim_apply ![] bcast_S_S128 _ (ix1 o) ix0 (fun d => d.elim0)

/-- Over plain vectors: if the two totals are the tile-by-tile sums of y and y², the value normalised by "first total over
    524288" and "second total over 524288 minus the squared mean" is the kernel's arrangement of the specification. -/
theorem stats_to_result (x : FVec Ideal S4096x128 .f32) (m1 v1 g1 b1 : FVec Ideal S128 .f32) (w : FVec Ideal S128x129 .f32)
    (fb g2 b2 tot totSq : FVec Ideal S128 .f32)
    (hm : ∀ j, m1 (ix1 j) = Cert.Poly.mu1 (fun r j => x (ix2 r j)) j) (hv : ∀ j, v1 (ix1 j) = Cert.Poly.var1 (fun r j => x (ix2 r j)) j)
    (h7 : ∀ o, tot (ix1 o) = Cert.Poly.sumT (fun r i => Cert.Poly.yArr x m1 v1 g1 b1 w fb r i o))
    (h8 : ∀ o, totSq (ix1 o) = Cert.Poly.sumT (fun r i => Cert.Poly.yArr x m1 v1 g1 b1 w fb r i o * Cert.Poly.yArr x m1 v1 g1 b1 w fb r i o))
    (r : Fin 4096) (i o : Fin 128) :
    Cert.Poly.normK (Cert.Poly.yArr x m1 v1 g1 b1 w fb r i o)
        (Host.divf tot (broadcastInDim S128 ![] bcast_S_S128 (constant (F := Ideal) S_ .f32 0x49000000#32)) (ix1 o))
        (subf (Host.divf totSq (broadcastInDim S128 ![] bcast_S_S128 (constant (F := Ideal) S_ .f32 0x49000000#32)))
          (mulf (Host.divf tot (broadcastInDim S128 ![] bcast_S_S128 (constant (F := Ideal) S_ .f32 0x49000000#32)))
            (Host.divf tot (broadcastInDim S128 ![] bcast_S_S128 (constant (F := Ideal) S_ .f32 0x49000000#32)))) (ix1 o))
        (g2 (ix1 o)) (b2 (ix1 o))
      = Cert.Poly.resultK (fun r j => x (ix2 r j)) (fun j => g1 (ix1 j)) (fun j => b1 (ix1 j)) (fun o k => w (ix2 o k)) (fun o => fb (ix1 o))
          (fun o => g2 (ix1 o)) (fun o => b2 (ix1 o)) r i o := by
  refine Cert.Poly.resultK_of_arrays x m1 v1 g1 b1 w fb g2 b2
    (Host.divf tot (broadcastInDim S128 ![] bcast_S_S128 (constant (F := Ideal) S_ .f32 0x49000000#32)))
    (subf (Host.divf totSq (broadcastInDim S128 ![] bcast_S_S128 (constant (F := Ideal) S_ .f32 0x49000000#32)))
      (mulf (Host.divf tot (broadcastInDim S128 ![] bcast_S_S128 (constant (F := Ideal) S_ .f32 0x49000000#32)))
        (Host.divf tot (broadcastInDim S128 ![] bcast_S_S128 (constant (F := Ideal) S_ .f32 0x49000000#32)))))
    hm hv (fun o' => ?_) (fun o' => ?_) r i o
  · rw [hostDivf_at, nBD_at, h7 o']
  · rw [subf_apply, mulf_apply, hostDivf_at, hostDivf_at, nBD_at, h7 o', h8 o']

/-- The same with every array the two regions read given by an equation: the output region's eleven arrays a0 … a10 and the
    statistics region's seven arrays z0 … z6. -/
theorem assemble (x a0 z0 : FVec Ideal S4096x128 .f32) (m1 v1 g1 b1 a1 a2 a3 a4 z1 z2 z3 z4 : FVec Ideal S128 .f32)
    (w a5 z5 : FVec Ideal S128x129 .f32) (fb g2 b2 tot totSq a6 a7 a8 a9 a10 z6 : FVec Ideal S128 .f32)
    (e0 : a0 = x) (e1 : a1 = m1) (e2 : a2 = v1) (e3 : a3 = g1) (e4 : a4 = b1) (e5 : a5 = w) (e6 : a6 = fb)
    (e7 : a7 = Host.divf tot (broadcastInDim S128 ![] bcast_S_S128 (constant (F := Ideal) S_ .f32 0x49000000#32)))
    (e8 : a8 = subf (Host.divf totSq (broadcastInDim S128 ![] bcast_S_S128 (constant (F := Ideal) S_ .f32 0x49000000#32)))
          (mulf (Host.divf tot (broadcastInDim S128 ![] bcast_S_S128 (constant (F := Ideal) S_ .f32 0x49000000#32)))
            (Host.divf tot (broadcastInDim S128 ![] bcast_S_S128 (constant (F := Ideal) S_ .f32 0x49000000#32)))))
    (e9 : a9 = g2) (e10 : a10 = b2)
    (f0 : z0 = x) (f1 : z1 = m1) (f2 : z2 = v1) (f3 : z3 = g1) (f4 : z4 = b1) (f5 : z5 = w) (f6 : z6 = fb)
    (hm : ∀ j, m1 (ix1 j) = Cert.Poly.mu1 (fun r j => x (ix2 r j)) j) (hv : ∀ j, v1 (ix1 j) = Cert.Poly.var1 (fun r j => x (ix2 r j)) j)
    (h7 : ∀ o, tot (ix1 o) = Cert.Poly.sumT (fun r i => Cert.Poly.yArr z0 z1 z2 z3 z4 z5 z6 r i o))
    (h8 : ∀ o, totSq (ix1 o) = Cert.Poly.sumT (fun r i => Cert.Poly.yArr z0 z1 z2 z3 z4 z5 z6 r i o * Cert.Poly.yArr z0 z1 z2 z3 z4 z5 z6 r i o))
    (r : Fin 4096) (i o : Fin 128) :
    Cert.Poly.normK (Cert.Poly.yArr a0 a1 a2 a3 a4 a5 a6 r i o) (a7 (ix1 o)) (a8 (ix1 o)) (a9 (ix1 o)) (a10 (ix1 o))
      = Cert.Poly.resultK (fun r j => x (ix2 r j)) (fun j => g1 (ix1 j)) (fun j => b1 (ix1 j)) (fun o k => w (ix2 o k)) (fun o => fb (ix1 o))
          (fun o => g2 (ix1 o)) (fun o => b2 (ix1 o)) r i o := by
  subst e0 e1 e2 e3 e4 e5 e6 e7 e8 e9 e10 f0 f1 f2 f3 f4 f5 f6
  exact stats_to_result _ _ _ _ _ _ _ _ _ _ _ hm hv h7 h8 r i o

theorem result_apply (hk : Regions.TileOut) (hA7 : Regions.PieceA7) (hA8 : Regions.PieceA8) (hB7 : Regions.PieceB7)
    (hB8 : Regions.PieceB8) (c : Dev nD) (r : Fin 4096) (i o : Fin 128) :
    (W5 m ρ c (Proc.devRef .tc main_v11) : S4096x128x128.Idx → EReal) (ix3 r i o)
      = Cert.Poly.resultK (fun r j => (m ((c.tc : Thread nD τ).loc main_arg0) : S4096x128.Idx → EReal) (ix2 r j))
          (fun j => (m ((c.tc : Thread nD τ).loc main_arg1) : S128.Idx → EReal) (ix1 j))
          (fun j => (m ((c.tc : Thread nD τ).loc main_arg2) : S128.Idx → EReal) (ix1 j))
          (fun o k => (m ((c.tc : Thread nD τ).loc main_arg3) : S128x129.Idx → EReal) (ix2 o k))
          (fun o => (m ((c.tc : Thread nD τ).loc main_arg4) : S128.Idx → EReal) (ix1 o))
          (fun o => (m ((c.tc : Thread nD τ).loc main_arg5) : S128.Idx → EReal) (ix1 o))
          (fun o => (m ((c.tc : Thread nD τ).loc main_arg6) : S128.Idx → EReal) (ix1 o)) r i o := by
  -- the arrays region 1 reads
  have e0 : (V4 m ρ c (Pipeline.arrRef spec1 0) : S4096x128.Idx → EReal) = m ((c.tc : Thread nD τ).loc main_arg0) :=
    (W4_arg0 m ρ c).trans ((W3_arg0 m ρ c).trans (W2_arg0 m ρ c))
  have e1 : (V4 m ρ c (Pipeline.arrRef spec1 1) : S128.Idx → EReal) = W2 m ρ c (Proc.devRef .tc main_v2) :=
    (W4_v2 m ρ c).trans (W3_v2 m ρ c)
  have e2 : (V4 m ρ c (Pipeline.arrRef spec1 2) : S128.Idx → EReal) = W2 m ρ c (Proc.devRef .tc main_v3) :=
    (W4_v3 m ρ c).trans (W3_v3 m ρ c)
  have e3 : (V4 m ρ c (Pipeline.arrRef spec1 3) : S128.Idx → EReal) = m ((c.tc : Thread nD τ).loc main_arg1) :=
    (W4_arg1 m ρ c).trans ((W3_arg1 m ρ c).trans (W2_arg1 m ρ c))
  have e4 : (V4 m ρ c (Pipeline.arrRef spec1 4) : S128.Idx → EReal) = m ((c.tc : Thread nD τ).loc main_arg2) :=
    (W4_arg2 m ρ c).trans ((W3_arg2 m ρ c).trans (W2_arg2 m ρ c))
  have e5 : (V4 m ρ c (Pipeline.arrRef spec1 5) : S128x129.Idx → EReal) = m ((c.tc : Thread nD τ).loc main_arg3) :=
    (W4_arg3 m ρ c).trans ((W3_arg3 m ρ c).trans (W2_arg3 m ρ c))
  have e6 : (V4 m ρ c (Pipeline.arrRef spec1 6) : S128.Idx → EReal) = m ((c.tc : Thread nD τ).loc main_arg4) :=
    (W4_arg4 m ρ c).trans ((W3_arg4 m ρ c).trans (W2_arg4 m ρ c))
  have e9 : (V4 m ρ c (Pipeline.arrRef spec1 9) : S128.Idx → EReal) = m ((c.tc : Thread nD τ).loc main_arg5) :=
    (W4_arg5 m ρ c).trans ((W3_arg5 m ρ c).trans (W2_arg5 m ρ c))
  have e10 : (V4 m ρ c (Pipeline.arrRef spec1 10) : S128.Idx → EReal) = m ((c.tc : Thread nD τ).loc main_arg6) :=
    (W4_arg6 m ρ c).trans ((W3_arg6 m ρ c).trans (W2_arg6 m ρ c))
  -- the arrays region 0 reads are the same seven
  have f0 : (V2 m ρ c (Pipeline.arrRef spec0 0) : S4096x128.Idx → EReal) = m ((c.tc : Thread nD τ).loc main_arg0) := W2_arg0 m ρ c
  have f1 : (V2 m ρ c (Pipeline.arrRef spec0 1) : S128.Idx → EReal) = W2 m ρ c (Proc.devRef .tc main_v2) := rfl
  have f2 : (V2 m ρ c (Pipeline.arrRef spec0 2) : S128.Idx → EReal) = W2 m ρ c (Proc.devRef .tc main_v3) := rfl
  have f3 : (V2 m ρ c (Pipeline.arrRef spec0 3) : S128.Idx → EReal) = m ((c.tc : Thread nD τ).loc main_arg1) := W2_arg1 m ρ c
  have f4 : (V2 m ρ c (Pipeline.arrRef spec0 4) : S128.Idx → EReal) = m ((c.tc : Thread nD τ).loc main_arg2) := W2_arg2 m ρ c
  have f5 : (V2 m ρ c (Pipeline.arrRef spec0 5) : S128x129.Idx → EReal) = m ((c.tc : Thread nD τ).loc main_arg3) := W2_arg3 m ρ c
  have f6 : (V2 m ρ c (Pipeline.arrRef spec0 6) : S128.Idx → EReal) = m ((c.tc : Thread nD τ).loc main_arg4) := W2_arg4 m ρ c
  have hst := fun o' => Regions.stats_final_of (V2 m ρ) hA7 hA8 hB7 hB8 c o'
  -- the two channel statistics, as the host's operations on the two totals
  have e7 : (V4 m ρ c (Pipeline.arrRef spec1 7) : S128.Idx → EReal) = _ := W4_mean m ρ c
  have e8 : (V4 m ρ c (Pipeline.arrRef spec1 8) : S128.Idx → EReal) = _ := W4_var m ρ c
  rw [W3_tot] at e7
  rw [W3_tot, W3_totSq] at e8
  rw [Run.W5_result, Regions.out_final_of (V4 m ρ) hk c r i o]
  exact assemble _ _ _ _ _ _ _ _ _ _ _ _ _ _ _ _ _ _ _ _ _ _ _ _ _ _ _ _ _ e0 e1 e2 e3 e4 e5 e6 e7 e8 e9 e10 f0 f1 f2 f3 f4 f5 f6
    (W2_mean_apply m ρ c) (W2_var_apply m ρ c) (fun o' => (hst o').1) (fun o' => (hst o').2) r i o

end Cert.KernelIdeal.Value

end
-- ==== Proof.LibStaggerRows.lean ====
/-
  Rows assembled from two segments of a stack of matrices, stacks assembled from rows, and a stack flattened to one tall
  matrix, each read at an index.

  A stack v of B matrices of R rows and n columns is an array [B, R, n].  The operations below are layout operations only:
  every entry of a result is ONE entry of an operand, and each lemma names which.
    * a SEGMENT of one row: the [B, 1, p] block of v at offsets [0, a, s] is v(b, a, s + k) at (b, 0, k)  (sliceSeg_apply);
    * the unit middle axis dropped, [B, 1, p] to [B, p], or added, [B, n] to [B, 1, n]  (dropMid_apply, addMid_apply);
    * two matrices [B, p] and [B, q] laid side by side: the left one at the columns below p, the right one after
      (concat2_apply);
    * hence the rows a staggered table is made of (tailHead_apply and its parts): columns s … s+p-1 of row a followed by
      columns 0 … q-1 of row a'; for a stack of square matrices, stagRow is row i of that table and tableRow the table
      with a given matrix as its row 0;
    * N arrays [B, 1, n] stacked along the middle axis: entry (b, i, k) of the stack is entry (b, 0, k) of the i-th
      (stackRows_apply);
    * a stack [B, R, n] flattened to [B·R, n] and back: row (b, i) of the stack is row b·R + i of the tall matrix
      (flatten_apply, unflatten_apply).
  Nothing depends on the extents, so every statement is for all of them; shapes are written as literals so that a lemma
  applies to a program's named shapes by unification.
-/
import Idealize.ShloMosaic.Lib.ValueLayout

namespace Cert.StaggerRows

open Idealize.ShloMosaic Idealize.ShloMosaic.ValueIdx

variable {α : Type}

/-! ## One segment of one row, and the unit middle axis -/

/-- A segment of one row of a stack of matrices: the [B, 1, p] block of v : [B, R, n] at offsets [0, a, s] reads, at
    (b, u, k), the stack at (b, a, s + k). -/
theorem sliceSeg_apply {B R n p : Nat} (a s : Nat) (v : (⟨3, ![B, R, n]⟩ : Shape).Idx → α)
    (hs : (⟨3, ![B, R, n]⟩ : Shape).Slices ![0, a, s] ⟨3, ![B, 1, p]⟩)
    (b : Fin B) (u : Fin 1) (k : Fin p) (r : Fin R) (c : Fin n) (hr : r.val = a) (hc : c.val = s + k.val) :
    extractStridedSlice ⟨3, ![B, 1, p]⟩ ![0, a, s] v hs (ix3 b u k) = v (ix3 b r c) :=
  extractStridedSlice_apply _ _ _ _ _ (fun ax => by
    match ax with
    | ⟨0, _⟩ => exact (Nat.zero_add _).symm
    | ⟨1, _⟩ =>
      show r.val = a + u.val
      have := u.isLt
      omega
    | ⟨2, _⟩ => exact hc)

/-- The row a segment is cut from exists: its number is below the number of rows. -/
theorem sliceSeg_row_lt {B R n p : Nat} {a s : Nat}
    (hs : (⟨3, ![B, R, n]⟩ : Shape).Slices ![0, a, s] ⟨3, ![B, 1, p]⟩) : a < R := by
  have h := hs.2 (1 : Fin 3)
  have h' : a + 1 ≤ R := h
  omega

/-- A segment ends inside its row. -/
theorem sliceSeg_col_le {B R n p : Nat} {a s : Nat}
    (hs : (⟨3, ![B, R, n]⟩ : Shape).Slices ![0, a, s] ⟨3, ![B, 1, p]⟩) : s + p ≤ n := by
  have h := hs.2 (2 : Fin 3)
  exact h

/-- A [B, 1, p] array viewed as [B, p] reads, at (b, k), the operand at (b, 0, k). -/
theorem dropMid_apply {B p : Nat} (x : (⟨3, ![B, 1, p]⟩ : Shape).Idx → α)
    (h : (⟨3, ![B, 1, p]⟩ : Shape).ShapeCasts ⟨2, ![B, p]⟩) (b : Fin B) (k : Fin p) :
    shapeCast ⟨2, ![B, p]⟩ x h (ix2 b k) = x (ix3 b (0 : Fin 1) k) :=
  shapeCast_apply x h _ _ (by
    rw [Shape.rowMajor_val_three, Shape.rowMajor_val_two]
    show (b.val * 1 + 0) * p + k.val = b.val * p + k.val
    rw [Nat.mul_one, Nat.add_zero])

/-- A [B, n] array viewed as [B, 1, n] reads, at (b, u, k), the operand at (b, k). -/
theorem addMid_apply {B n : Nat} (x : (⟨2, ![B, n]⟩ : Shape).Idx → α)
    (h : (⟨2, ![B, n]⟩ : Shape).ShapeCasts ⟨3, ![B, 1, n]⟩) (b : Fin B) (u : Fin 1) (k : Fin n) :
    shapeCast ⟨3, ![B, 1, n]⟩ x h (ix3 b u k) = x (ix2 b k) :=
  shapeCast_apply x h _ _ (by
    have hu : u.val = 0 := by have := u.isLt; omega
    rw [Shape.rowMajor_val_three, Shape.rowMajor_val_two]
    show b.val * n + k.val = (b.val * 1 + u.val) * n + k.val
    rw [hu, Nat.mul_one, Nat.add_zero])

/-- A segment with its unit axis dropped: the [B, p] matrix reads, at (b, k), the stack at (b, a, s + k). -/
theorem seg_apply {B R n p : Nat} (a s : Nat) (v : (⟨3, ![B, R, n]⟩ : Shape).Idx → α)
    (hs : (⟨3, ![B, R, n]⟩ : Shape).Slices ![0, a, s] ⟨3, ![B, 1, p]⟩)
    (hc : (⟨3, ![B, 1, p]⟩ : Shape).ShapeCasts ⟨2, ![B, p]⟩)
    (b : Fin B) (k : Fin p) (r : Fin R) (c : Fin n) (hr : r.val = a) (hcol : c.val = s + k.val) :
    shapeCast ⟨2, ![B, p]⟩ (extractStridedSlice ⟨3, ![B, 1, p]⟩ ![0, a, s] v hs) hc (ix2 b k) = v (ix3 b r c) :=
  (dropMid_apply _ hc b k).trans (sliceSeg_apply a s v hs b 0 k r c hr hcol)

/-! ## Two matrices side by side -/

/-- The widths of two matrices laid side by side add up to the result's. -/
theorem concat2_width {B p q n : Nat}
    (h : Shape.Concatenates [(⟨2, ![B, p]⟩ : Shape), ⟨2, ![B, q]⟩] ⟨2, ![B, n]⟩ 1) : p + q = n := by
  have h2 := h.2.2
  simpa using h2

/-- Two matrices [B, p] and [B, q] laid side by side read, at (b, k), the left one at (b, k) when k < p and the right one
    at (b, k - p) otherwise. -/
theorem concat2_apply {B p q n : Nat} (x1 : (⟨2, ![B, p]⟩ : Shape).Idx → α) (x2 : (⟨2, ![B, q]⟩ : Shape).Idx → α)
    (h : Shape.Concatenates [(⟨2, ![B, p]⟩ : Shape), ⟨2, ![B, q]⟩] ⟨2, ![B, n]⟩ 1) (b : Fin B) (k : Fin n) :
    concatenate ⟨2, ![B, n]⟩ 1 [⟨⟨2, ![B, p]⟩, x1⟩, ⟨⟨2, ![B, q]⟩, x2⟩] h (ix2 b k)
      = if hk : k.val < p then x1 (ix2 b ⟨k.val, hk⟩)
        else x2 (ix2 b ⟨k.val - p, by have := concat2_width h; have := k.isLt; omega⟩) := by
  have hw := concat2_width h
  by_cases hk : k.val < p
  · rw [dif_pos hk]
    refine concatenate_apply_piece (t := ⟨2, ![B, n]⟩) (1 : Fin 2) [⟨⟨2, ![B, p]⟩, x1⟩, ⟨⟨2, ![B, q]⟩, x2⟩] h (ix2 b k) 0 (by simp) ⟨2, ![B, p]⟩ x1 rfl rfl 0 (by simp)
      (ix2 b ⟨k.val, hk⟩) (fun c hc => ?_) (by show 0 + k.val = k.val; omega)
    match c with
    | ⟨0, _⟩ => rfl
    | ⟨1, _⟩ => exact absurd rfl hc
  · rw [dif_neg hk]
    refine concatenate_apply_piece (t := ⟨2, ![B, n]⟩) (1 : Fin 2) [⟨⟨2, ![B, p]⟩, x1⟩, ⟨⟨2, ![B, q]⟩, x2⟩] h (ix2 b k) 1 (by simp) ⟨2, ![B, q]⟩ x2 rfl rfl p (by simp)
      (ix2 b ⟨k.val - p, by have := k.isLt; omega⟩) (fun c hc => ?_) (by show p + (k.val - p) = k.val; omega)
    match c with
    | ⟨0, _⟩ => rfl
    | ⟨1, _⟩ => exact absurd rfl hc

/-! ## A row made of two segments -/

/-- A row made of the segment of row a from column s on, followed by the head of row a': the [B, m] matrix reads, at
    (b, k), the stack at (b, a, s + k) when k < p and at (b, a', k - p) otherwise. -/
theorem tailHead_apply {B R n p q m : Nat} (a s a' : Nat) (v : (⟨3, ![B, R, n]⟩ : Shape).Idx → α)
    (hs1 : (⟨3, ![B, R, n]⟩ : Shape).Slices ![0, a, s] ⟨3, ![B, 1, p]⟩)
    (hc1 : (⟨3, ![B, 1, p]⟩ : Shape).ShapeCasts ⟨2, ![B, p]⟩)
    (hs2 : (⟨3, ![B, R, n]⟩ : Shape).Slices ![0, a', 0] ⟨3, ![B, 1, q]⟩)
    (hc2 : (⟨3, ![B, 1, q]⟩ : Shape).ShapeCasts ⟨2, ![B, q]⟩)
    (hcat : Shape.Concatenates [(⟨2, ![B, p]⟩ : Shape), ⟨2, ![B, q]⟩] ⟨2, ![B, m]⟩ 1) (b : Fin B) (k : Fin m) :
    concatenate ⟨2, ![B, m]⟩ 1
        [⟨⟨2, ![B, p]⟩, shapeCast ⟨2, ![B, p]⟩ (extractStridedSlice ⟨3, ![B, 1, p]⟩ ![0, a, s] v hs1) hc1⟩,
         ⟨⟨2, ![B, q]⟩, shapeCast ⟨2, ![B, q]⟩ (extractStridedSlice ⟨3, ![B, 1, q]⟩ ![0, a', 0] v hs2) hc2⟩] hcat (ix2 b k)
      = if hk : k.val < p then v (ix3 b ⟨a, sliceSeg_row_lt hs1⟩ ⟨s + k.val, by have := sliceSeg_col_le hs1; omega⟩)
        else v (ix3 b ⟨a', sliceSeg_row_lt hs2⟩
          ⟨k.val - p, by have := sliceSeg_col_le hs2; have := concat2_width hcat; have := k.isLt; omega⟩) := by
  rw [concat2_apply]
  split
  · exact seg_apply a s v hs1 hc1 b _ _ _ rfl rfl
  · exact seg_apply a' 0 v hs2 hc2 b _ _ _ rfl (Nat.zero_add _).symm

/-- A row whose left part is a given matrix and whose right part is the head of row a' of the stack. -/
theorem givenHead_apply {B R n p q m : Nat} (a' : Nat) (v : (⟨3, ![B, R, n]⟩ : Shape).Idx → α)
    (x1 : (⟨2, ![B, p]⟩ : Shape).Idx → α)
    (hs2 : (⟨3, ![B, R, n]⟩ : Shape).Slices ![0, a', 0] ⟨3, ![B, 1, q]⟩)
    (hc2 : (⟨3, ![B, 1, q]⟩ : Shape).ShapeCasts ⟨2, ![B, q]⟩)
    (hcat : Shape.Concatenates [(⟨2, ![B, p]⟩ : Shape), ⟨2, ![B, q]⟩] ⟨2, ![B, m]⟩ 1) (b : Fin B) (k : Fin m) :
    concatenate ⟨2, ![B, m]⟩ 1
        [⟨⟨2, ![B, p]⟩, x1⟩,
         ⟨⟨2, ![B, q]⟩, shapeCast ⟨2, ![B, q]⟩ (extractStridedSlice ⟨3, ![B, 1, q]⟩ ![0, a', 0] v hs2) hc2⟩] hcat (ix2 b k)
      = if hk : k.val < p then x1 (ix2 b ⟨k.val, hk⟩)
        else v (ix3 b ⟨a', sliceSeg_row_lt hs2⟩
          ⟨k.val - p, by have := sliceSeg_col_le hs2; have := concat2_width hcat; have := k.isLt; omega⟩) := by
  rw [concat2_apply]
  split
  · rfl
  · exact seg_apply a' 0 v hs2 hc2 b _ _ _ rfl (Nat.zero_add _).symm

/-- A row whose left part is a given matrix and whose right part is a given [B, 1, q] array with its unit axis dropped. -/
theorem givenGiven_apply {B p q m : Nat} (x1 : (⟨2, ![B, p]⟩ : Shape).Idx → α) (x2 : (⟨3, ![B, 1, q]⟩ : Shape).Idx → α)
    (hc2 : (⟨3, ![B, 1, q]⟩ : Shape).ShapeCasts ⟨2, ![B, q]⟩)
    (hcat : Shape.Concatenates [(⟨2, ![B, p]⟩ : Shape), ⟨2, ![B, q]⟩] ⟨2, ![B, m]⟩ 1) (b : Fin B) (k : Fin m) :
    concatenate ⟨2, ![B, m]⟩ 1 [⟨⟨2, ![B, p]⟩, x1⟩, ⟨⟨2, ![B, q]⟩, shapeCast ⟨2, ![B, q]⟩ x2 hc2⟩] hcat (ix2 b k)
      = if hk : k.val < p then x1 (ix2 b ⟨k.val, hk⟩)
        else x2 (ix3 b (0 : Fin 1) ⟨k.val - p, by have := concat2_width hcat; have := k.isLt; omega⟩) := by
  rw [concat2_apply]
  split
  · rfl
  · exact dropMid_apply x2 hc2 b _

/-! ## The staggered table of a stack of square matrices -/

/-- Row i (1 ≤ i < n) of the staggered table of a stack v of n×n matrices, at batch entry b: the tail (columns i … n-1)
    of the matrix's row i-1 followed by the head (columns 0 … i-1) of its row i. -/
def stagRow {B n : Nat} (v : (⟨3, ![B, n, n]⟩ : Shape).Idx → α) (i : Nat) (h1 : 1 ≤ i) (h2 : i < n) (b : Fin B) (k : Fin n) : α :=
  if hk : k.val < n - i then v (ix3 b ⟨i - 1, by omega⟩ ⟨i + k.val, by omega⟩)
  else v (ix3 b ⟨i, h2⟩ ⟨k.val - (n - i), by have := k.isLt; omega⟩)

/-- Row i < n of the whole table: row 0 is the given matrix r0's row, row i ≥ 1 the staggered row of the stack. -/
def tableRow {B n : Nat} (r0 : (⟨2, ![B, n]⟩ : Shape).Idx → α) (v : (⟨3, ![B, n, n]⟩ : Shape).Idx → α)
    (i : Nat) (hi : i < n) (b : Fin B) (k : Fin n) : α :=
  if h : i = 0 then r0 (ix2 b k) else stagRow v i (by omega) hi b k

/-- The row sliced in one piece from the stack is row i of the staggered table. -/
theorem stagRow_of_tailHead {B n p q : Nat} (i : Nat) (h1 : 1 ≤ i) (h2 : i < n) (v : (⟨3, ![B, n, n]⟩ : Shape).Idx → α)
    (hs1 : (⟨3, ![B, n, n]⟩ : Shape).Slices ![0, i - 1, i] ⟨3, ![B, 1, p]⟩)
    (hc1 : (⟨3, ![B, 1, p]⟩ : Shape).ShapeCasts ⟨2, ![B, p]⟩)
    (hs2 : (⟨3, ![B, n, n]⟩ : Shape).Slices ![0, i, 0] ⟨3, ![B, 1, q]⟩)
    (hc2 : (⟨3, ![B, 1, q]⟩ : Shape).ShapeCasts ⟨2, ![B, q]⟩)
    (hcat : Shape.Concatenates [(⟨2, ![B, p]⟩ : Shape), ⟨2, ![B, q]⟩] ⟨2, ![B, n]⟩ 1) (hp : p + i = n)
    (b : Fin B) (k : Fin n) :
    concatenate ⟨2, ![B, n]⟩ 1
        [⟨⟨2, ![B, p]⟩, shapeCast ⟨2, ![B, p]⟩ (extractStridedSlice ⟨3, ![B, 1, p]⟩ ![0, i - 1, i] v hs1) hc1⟩,
         ⟨⟨2, ![B, q]⟩, shapeCast ⟨2, ![B, q]⟩ (extractStridedSlice ⟨3, ![B, 1, q]⟩ ![0, i, 0] v hs2) hc2⟩] hcat (ix2 b k)
      = stagRow v i h1 h2 b k := by
  have hpe : p = n - i := by omega
  subst hpe
  exact tailHead_apply (i - 1) i i v hs1 hc1 hs2 hc2 hcat b k

/-- A row whose left part is GIVEN as the tail of row i-1 and whose right part is sliced from row i is row i of the
    staggered table. -/
theorem stagRow_of_givenHead {B n p q : Nat} (i : Nat) (h1 : 1 ≤ i) (h2 : i < n) (v : (⟨3, ![B, n, n]⟩ : Shape).Idx → α)
    (x1 : (⟨2, ![B, p]⟩ : Shape).Idx → α)
    (hs2 : (⟨3, ![B, n, n]⟩ : Shape).Slices ![0, i, 0] ⟨3, ![B, 1, q]⟩)
    (hc2 : (⟨3, ![B, 1, q]⟩ : Shape).ShapeCasts ⟨2, ![B, q]⟩)
    (hcat : Shape.Concatenates [(⟨2, ![B, p]⟩ : Shape), ⟨2, ![B, q]⟩] ⟨2, ![B, n]⟩ 1) (hp : p + i = n)
    (b : Fin B) (k : Fin n)
    (hx1 : ∀ k' : Fin p, x1 (ix2 b k') = v (ix3 b ⟨i - 1, by omega⟩ ⟨i + k'.val, by have := k'.isLt; omega⟩)) :
    concatenate ⟨2, ![B, n]⟩ 1
        [⟨⟨2, ![B, p]⟩, x1⟩,
         ⟨⟨2, ![B, q]⟩, shapeCast ⟨2, ![B, q]⟩ (extractStridedSlice ⟨3, ![B, 1, q]⟩ ![0, i, 0] v hs2) hc2⟩] hcat (ix2 b k)
      = stagRow v i h1 h2 b k := by
  have hpe : p = n - i := by omega
  subst hpe
  rw [givenHead_apply]
  unfold stagRow
  split
  · exact hx1 _
  · rfl

/-- A row whose two parts are GIVEN, the left as the tail of row i-1 and the right (with a unit middle axis) as the head
    of row i, is row i of the staggered table. -/
theorem stagRow_of_givenGiven {B n p q : Nat} (i : Nat) (h1 : 1 ≤ i) (h2 : i < n) (v : (⟨3, ![B, n, n]⟩ : Shape).Idx → α)
    (x1 : (⟨2, ![B, p]⟩ : Shape).Idx → α) (x2 : (⟨3, ![B, 1, q]⟩ : Shape).Idx → α)
    (hc2 : (⟨3, ![B, 1, q]⟩ : Shape).ShapeCasts ⟨2, ![B, q]⟩)
    (hcat : Shape.Concatenates [(⟨2, ![B, p]⟩ : Shape), ⟨2, ![B, q]⟩] ⟨2, ![B, n]⟩ 1) (hp : p + i = n)
    (b : Fin B) (k : Fin n)
    (hx1 : ∀ k' : Fin p, x1 (ix2 b k') = v (ix3 b ⟨i - 1, by omega⟩ ⟨i + k'.val, by have := k'.isLt; omega⟩))
    (hx2 : ∀ k' : Fin q, x2 (ix3 b (0 : Fin 1) k')
      = v (ix3 b ⟨i, h2⟩ ⟨k'.val, by have := concat2_width hcat; have := k'.isLt; omega⟩)) :
    concatenate ⟨2, ![B, n]⟩ 1 [⟨⟨2, ![B, p]⟩, x1⟩, ⟨⟨2, ![B, q]⟩, shapeCast ⟨2, ![B, q]⟩ x2 hc2⟩] hcat (ix2 b k)
      = stagRow v i h1 h2 b k := by
  have hpe : p = n - i := by omega
  subst hpe
  rw [givenGiven_apply]
  unfold stagRow
  split
  · exact hx1 _
  · exact hx2 _

/-! ## Rows stacked along the middle axis -/

/-- The extents along axis 1 of k arrays [B, 1, n] add up to k. -/
theorem unit_extents_sum {B n m : Nat} (ps : List ((⟨3, ![B, 1, n]⟩ : Shape).Idx → α)) (k : Nat) :
    ((((ps.map fun p => (⟨⟨3, ![B, 1, n]⟩, p⟩ : (s : Shape) × (s.Idx → α))).take k).map (·.1)).map fun s : Shape =>
        if h : s.rank = (⟨3, ![B, m, n]⟩ : Shape).rank then s.size ((1 : Fin 3).cast h.symm) else 0).sum
      = min k ps.length := by
  induction ps generalizing k with
  | nil => simp
  | cons p ps ih =>
    cases k with
    | zero => simp
    | succ k =>
      simp only [List.map_cons, List.take_succ_cons, List.sum_cons, List.length_cons]
      rw [ih k]
      show 1 + min k ps.length = min (k + 1) (ps.length + 1)
      omega

/-- N arrays [B, 1, n] stacked along the middle axis read, at (b, i, k), the i-th of them at (b, 0, k). -/
theorem stackRows_apply {B n m : Nat} (ps : List ((⟨3, ![B, 1, n]⟩ : Shape).Idx → α))
    (h : Shape.Concatenates ((ps.map fun p => (⟨⟨3, ![B, 1, n]⟩, p⟩ : (s : Shape) × (s.Idx → α))).map (·.1))
      ⟨3, ![B, m, n]⟩ 1)
    (b : Fin B) (i : Fin m) (k : Fin n) (hi : i.val < ps.length) :
    concatenate ⟨3, ![B, m, n]⟩ 1 (ps.map fun p => (⟨⟨3, ![B, 1, n]⟩, p⟩ : (s : Shape) × (s.Idx → α))) h (ix3 b i k)
      = ps[i.val] (ix3 b (0 : Fin 1) k) := by
  refine concatenate_apply_piece (t := ⟨3, ![B, m, n]⟩) (1 : Fin 3) _ h (ix3 b i k) i.val (by simpa using hi)
    ⟨3, ![B, 1, n]⟩ ps[i.val] (by simp) rfl i.val ?_ (ix3 b (0 : Fin 1) k) (fun c hc => ?_) (by show i.val + 0 = i.val; omega)
  · rw [unit_extents_sum ps i.val]; omega
  · match c with
    | ⟨0, _⟩ => rfl
    | ⟨1, _⟩ => exact absurd rfl hc
    | ⟨2, _⟩ => rfl

/-! ## A stack flattened to one tall matrix, and back -/

/-- A stack [B, R, n] viewed as the tall matrix [B·R, n] reads, at (r, k) with r = b·R + i, the stack at (b, i, k). -/
theorem flatten_apply {B R n M : Nat} (x : (⟨3, ![B, R, n]⟩ : Shape).Idx → α)
    (h : (⟨3, ![B, R, n]⟩ : Shape).ShapeCasts ⟨2, ![M, n]⟩) (b : Fin B) (i : Fin R) (k : Fin n) (r : Fin M)
    (hr : r.val = b.val * R + i.val) : shapeCast ⟨2, ![M, n]⟩ x h (ix2 r k) = x (ix3 b i k) :=
  shapeCast_apply x h _ _ (by
    rw [Shape.rowMajor_val_three, Shape.rowMajor_val_two]
    show (b.val * R + i.val) * n + k.val = r.val * n + k.val
    rw [hr])

/-- A tall matrix [B·R, n] viewed as the stack [B, R, n] reads, at (b, i, k), the matrix at (r, k) with r = b·R + i. -/
theorem unflatten_apply {B R n M : Nat} (x : (⟨2, ![M, n]⟩ : Shape).Idx → α)
    (h : (⟨2, ![M, n]⟩ : Shape).ShapeCasts ⟨3, ![B, R, n]⟩) (b : Fin B) (i : Fin R) (k : Fin n) (r : Fin M)
    (hr : r.val = b.val * R + i.val) : shapeCast ⟨3, ![B, R, n]⟩ x h (ix3 b i k) = x (ix2 r k) :=
  shapeCast_apply x h _ _ (by
    rw [Shape.rowMajor_val_three, Shape.rowMajor_val_two]
    show r.val * n + k.val = (b.val * R + i.val) * n + k.val
    rw [hr])

end Cert.StaggerRows
-- ==== Proof.LibDotRowsByRows.lean ====
/-
  A matrix product "rows by rows" read at an element, over the extended reals.

  For the dimension numbers "contract the left operand's axis 1 with the right operand's axis 1, no batch axis"
  (DotDims.transposedRhs M K N: an M×K array times an N×K array, the right operand contracted on its LAST axis), the
  contraction position is one coordinate k < K, the left operand is read at (r, k) and the right at (c, k).  So the element
  (r, c) of the product — whether computed by the matrix unit into an accumulator of zeros or by the host's dot_general —
  is the finite sum  Σ_{k < K} lhs(r,k) · rhs(c,k): row r of the left operand against row c of the right one.
  Nothing here depends on the extents, so the statement is for all M, K, N; the last section restates it for any record of
  dimension numbers that IS this one (a program prints its own record with the same fields).
-/
import Idealize.ShloMosaic.Lib.ValueIdx
import Idealize.ShloMosaic.PureOps.Ideal.Laws

noncomputable section

open scoped BigOperators

namespace Cert.DotRowsByRows

open Idealize.ShloMosaic Idealize.ShloMosaic.ValueIdx

variable {M K N : Nat}

/-- The left operand's row coordinate is the output's row coordinate. -/
theorem lhs_row (j : (⟨2, ![M, N]⟩ : Shape).Idx) (q : (DotDims.transposedRhs M K N).contr.Idx) :
    ((DotDims.transposedRhs M K N).lhsIdx j q 0).val = (j 0).val := by
  unfold DotDims.lhsIdx
  rw [dif_neg (show ¬(0 : Fin (⟨2, ![M, K]⟩ : Shape).rank) ∈ (DotDims.transposedRhs M K N).lhsBatch from fun h => nomatch h),
    dif_pos (show (0 : Fin (⟨2, ![M, K]⟩ : Shape).rank) ∈ (DotDims.transposedRhs M K N).lhsNonContracting from List.mem_singleton.mpr rfl)]
  rfl

/-- The right operand's row coordinate is the output's column coordinate. -/
theorem rhs_row (j : (⟨2, ![M, N]⟩ : Shape).Idx) (q : (DotDims.transposedRhs M K N).contr.Idx) :
    ((DotDims.transposedRhs M K N).rhsIdx j q 0).val = (j 1).val := by
  unfold DotDims.rhsIdx
  rw [dif_neg (show ¬(0 : Fin (⟨2, ![N, K]⟩ : Shape).rank) ∈ (DotDims.transposedRhs M K N).rhsBatch from fun h => nomatch h),
    dif_pos (show (0 : Fin (⟨2, ![N, K]⟩ : Shape).rank) ∈ (DotDims.transposedRhs M K N).rhsNonContracting from List.mem_singleton.mpr rfl)]
  rfl

/-- The contraction sum of a rows-by-rows product, re-indexed by the inner coordinate. -/
theorem sum_rowsByRows {φ₁ φ₂ : FTy} (lhs : FVec Ideal ⟨2, ![M, K]⟩ φ₁) (rhs : FVec Ideal ⟨2, ![N, K]⟩ φ₂) (r : Fin M) (c : Fin N) :
    ∑ q : (DotDims.transposedRhs M K N).contr.Idx,
        lhs ((DotDims.transposedRhs M K N).lhsIdx (ix2 r c) q) * rhs ((DotDims.transposedRhs M K N).rhsIdx (ix2 r c) q)
      = ∑ k : Fin K, lhs (ix2 r k) * rhs (ix2 c k) := by
  have hr : (DotDims.transposedRhs M K N).contr.rank = 1 := rfl
  have hs : (DotDims.transposedRhs M K N).contr.size ⟨0, by omega⟩ = K := rfl
  rw [← Equiv.sum_comp (contrEquiv1 (DotDims.transposedRhs M K N) K hr hs).symm]
  refine Finset.sum_congr rfl fun k _ => ?_
  have hk := contrEquiv1_symm_val (DotDims.transposedRhs M K N) K hr hs k
  have el : (DotDims.transposedRhs M K N).lhsIdx (ix2 r c) ((contrEquiv1 (DotDims.transposedRhs M K N) K hr hs).symm k) = ix2 r k :=
    funext fun a => Fin.ext (by
      match a with
      | ⟨0, _⟩ => exact lhs_row _ _
      | ⟨1, _⟩ => exact ((DotDims.transposedRhs M K N).lhsIdx_val_of_single rfl _ _).trans hk)
  have er : (DotDims.transposedRhs M K N).rhsIdx (ix2 r c) ((contrEquiv1 (DotDims.transposedRhs M K N) K hr hs).symm k) = ix2 c k :=
    funext fun a => Fin.ext (by
      match a with
      | ⟨0, _⟩ => exact rhs_row _ _
      | ⟨1, _⟩ => exact ((DotDims.transposedRhs M K N).rhsIdx_val_of_single rfl _ _).trans hk)
  rw [el, er]

/-- A rows-by-rows product accumulated by the matrix unit into zeros, at the element (r, c). -/
theorem matmul_zero_apply {φ₁ φ₂ : FTy} (prec : Option ContractPrecision)
    (lhs : FVec Ideal ⟨2, ![M, K]⟩ φ₁) (rhs : FVec Ideal ⟨2, ![N, K]⟩ φ₂) (r : Fin M) (c : Fin N) :
    FloatOps.matmul (DotDims.transposedRhs M K N) prec lhs rhs (constant ⟨2, ![M, N]⟩ .f32 0x00000000#32) (ix2 r c)
      = ∑ k : Fin K, lhs (ix2 r k) * rhs (ix2 c k) :=
  (Ideal.matmul_constant_zero_apply (DotDims.transposedRhs M K N) prec lhs rhs (ix2 r c)).trans (sum_rowsByRows lhs rhs r c)

/-- A rows-by-rows product computed by the host's dot_general, at the element (r, c). -/
theorem dotGeneral_apply {φ₁ φ₂ : FTy} (prec : Option ContractPrecision) (sched : HostSchedule)
    (lhs : FVec Ideal ⟨2, ![M, K]⟩ φ₁) (rhs : FVec Ideal ⟨2, ![N, K]⟩ φ₂) (r : Fin M) (c : Fin N) :
    FloatOps.dotGeneral (DotDims.transposedRhs M K N) prec sched lhs rhs (ix2 r c)
      = ∑ k : Fin K, lhs (ix2 r k) * rhs (ix2 c k) :=
  (Ideal.dotGeneral_apply (DotDims.transposedRhs M K N) prec sched lhs rhs (ix2 r c)).trans (sum_rowsByRows lhs rhs r c)

/-! ## Any record with these dimension numbers -/

/-- The matrix unit's product into zeros, for any record of dimension numbers equal to the rows-by-rows one. -/
theorem matmul_zero_apply_of_eq {φ₁ φ₂ : FTy} (d : DotDims ⟨2, ![M, K]⟩ ⟨2, ![N, K]⟩ ⟨2, ![M, N]⟩)
    (hd : d = DotDims.transposedRhs M K N) (prec : Option ContractPrecision)
    (lhs : FVec Ideal ⟨2, ![M, K]⟩ φ₁) (rhs : FVec Ideal ⟨2, ![N, K]⟩ φ₂) (r : Fin M) (c : Fin N) :
    FloatOps.matmul d prec lhs rhs (constant ⟨2, ![M, N]⟩ .f32 0x00000000#32) (ix2 r c)
      = ∑ k : Fin K, lhs (ix2 r k) * rhs (ix2 c k) := by
  subst hd
  exact matmul_zero_apply prec lhs rhs r c

end Cert.DotRowsByRows

end
-- ==== Proof.TileMath.lean ====
/-
  The mathematics of one tile of the kernel bodies at the ideal values: the normalised tile, its clamped products and
  squares read at an index, the staggered table of the clamped products as the windows of the specification, and the
  contraction of a stack of windows with the weights.

  Both kernel bodies start with the same computation.  From the tile x0 [64, 128] and the vectors m1, v1, g1, b1 they form
    xn(b, j)   = (x0(b, j) - m1(j)) · rsqrt(v1(j) + eps) · g1(j) + b1(j)          (Cert.Poly.xnT),
    rd(b, p, q) = max(xn(b, p) · xn(b, q), 0),   rx(b, j) = max(xn(b, j), 0),   dg(b, j) = xn(b, j) · xn(b, j).
  Window i of row b of the specification (Cert.Poly.winRow) is rx's row for i = 0 and, for i ≥ 1, row i of the staggered
  table of rd: the tail of rd(b, i-1, ·) followed by the head of rd(b, i, ·)  (stagRow_eq_winRow).
  Given the stack u [64, 128, 128] of the windows, the bodies then compute
    y(b, i, o) = Σ_k u(b, i, k) · w(o, k) + dg(b, i) · w(o, 128) + fb(o)              (yOfStack_apply):
  the stack flattened to 8192 rows, a product of rows by rows with the first 128 columns of w, and the two broadcasts.
-/
import proofs.«138108_j2860448219241_2_alg».proof.Proof.KerSpec
import proofs.«138108_j2860448219241_2_alg».proof.Proof.Gen.KernelIdeal.Skeleton
import proofs.«138108_j2860448219241_2_alg».proof.Proof.LibStaggerRows
import proofs.«138108_j2860448219241_2_alg».proof.Proof.LibDotRowsByRows

noncomputable section

open scoped BigOperators

namespace Cert.KernelIdeal.Tile

open Cert.KernelIdeal Cert.KernelIdeal.Gen Idealize.ShloMosaic Idealize.ShloMosaic.ValueIdx

/-! ## Broadcasts that keep a unit axis, read at an index (all extents) -/

section Spreads
variable {α : Type}

/-- A vector [m] laid as one row under every row, [m] to [1, m] to [a, m], reads at (p, j) the vector at j. -/
theorem rowUnder_apply {a m : Nat} (v : (⟨1, ![m]⟩ : Shape).Idx → α)
    (h1 : (⟨1, ![m]⟩ : Shape).ShapeCasts ⟨2, ![1, m]⟩) (h2 : (⟨2, ![1, m]⟩ : Shape).Broadcasts ⟨2, ![a, m]⟩)
    (p : Fin a) (j : Fin m) :
    broadcastTo ⟨2, ![a, m]⟩ (shapeCast ⟨2, ![1, m]⟩ v h1) h2 (ix2 p j) = v (ix1 j) :=
  (broadcastTo_1b_ab_apply _ h2 p j).trans (shapeCast_a_1a_apply v h1 0 j)

/-- A stack of columns: [B, n] viewed as [B, n, 1] and spread across m columns reads at (b, p, q) the matrix at (b, p). -/
theorem colSpread_apply {B n m : Nat} (x : (⟨2, ![B, n]⟩ : Shape).Idx → α)
    (h1 : (⟨2, ![B, n]⟩ : Shape).ShapeCasts ⟨3, ![B, n, 1]⟩)
    (h2 : (⟨3, ![B, n, 1]⟩ : Shape).Broadcasts ⟨3, ![B, n, m]⟩) (b : Fin B) (p : Fin n) (q : Fin m) :
    broadcastTo ⟨3, ![B, n, m]⟩ (shapeCast ⟨3, ![B, n, 1]⟩ x h1) h2 (ix3 b p q) = x (ix2 b p) := by
  refine (broadcastTo_apply _ h2 (ix3 b p q) (ix3 b p (0 : Fin 1)) fun ax => ?_).trans ?_
  · match ax with
    | ⟨0, _⟩ =>
      show b.val = if B = 1 then 0 else b.val
      split
      · have := b.isLt; omega
      · rfl
    | ⟨1, _⟩ =>
      show p.val = if n = 1 then 0 else p.val
      split
      · have := p.isLt; omega
      · rfl
    | ⟨2, _⟩ => rfl
  · exact shapeCast_apply x h1 _ _ (by
      rw [Shape.rowMajor_val_three, Shape.rowMajor_val_two]
      show b.val * n + p.val = (b.val * n + p.val) * 1 + 0
      omega)

/-- A stack of rows: [B, m] viewed as [B, 1, m] and spread over n rows reads at (b, p, q) the matrix at (b, q). -/
theorem rowSpread_apply {B n m : Nat} (x : (⟨2, ![B, m]⟩ : Shape).Idx → α)
    (h1 : (⟨2, ![B, m]⟩ : Shape).ShapeCasts ⟨3, ![B, 1, m]⟩)
    (h2 : (⟨3, ![B, 1, m]⟩ : Shape).Broadcasts ⟨3, ![B, n, m]⟩) (b : Fin B) (p : Fin n) (q : Fin m) :
    broadcastTo ⟨3, ![B, n, m]⟩ (shapeCast ⟨3, ![B, 1, m]⟩ x h1) h2 (ix3 b p q) = x (ix2 b q) := by
  refine (broadcastTo_apply _ h2 (ix3 b p q) (ix3 b (0 : Fin 1) q) fun ax => ?_).trans ?_
  · match ax with
    | ⟨0, _⟩ =>
      show b.val = if B = 1 then 0 else b.val
      split
      · have := b.isLt; omega
      · rfl
    | ⟨1, _⟩ => rfl
    | ⟨2, _⟩ =>
      show q.val = if m = 1 then 0 else q.val
      split
      · have := q.isLt; omega
      · rfl
  · exact Cert.StaggerRows.addMid_apply x h1 b 0 q

/-- A [1, 1, m] array spread over [B, n, m] reads at (b, p, o) the array at (0, 0, o). -/
theorem chanSpread11_apply {B n m : Nat} (x : (⟨3, ![1, 1, m]⟩ : Shape).Idx → α)
    (h2 : (⟨3, ![1, 1, m]⟩ : Shape).Broadcasts ⟨3, ![B, n, m]⟩) (b : Fin B) (p : Fin n) (o : Fin m) :
    broadcastTo ⟨3, ![B, n, m]⟩ x h2 (ix3 b p o) = x (ix3 (0 : Fin 1) (0 : Fin 1) o) := by
  refine broadcastTo_apply _ h2 (ix3 b p o) (ix3 (0 : Fin 1) (0 : Fin 1) o) fun ax => ?_
  match ax with
  | ⟨0, _⟩ => rfl
  | ⟨1, _⟩ => rfl
  | ⟨2, _⟩ =>
    show o.val = if m = 1 then 0 else o.val
    split
    · have := o.isLt; omega
    · rfl

/-- A vector [m] viewed as [1, 1, m] reads at (0, 0, o) the vector at o. -/
theorem vec11_apply {m : Nat} (v : (⟨1, ![m]⟩ : Shape).Idx → α)
    (h1 : (⟨1, ![m]⟩ : Shape).ShapeCasts ⟨3, ![1, 1, m]⟩) (u u' : Fin 1) (o : Fin m) :
    shapeCast ⟨3, ![1, 1, m]⟩ v h1 (ix3 u u' o) = v (ix1 o) :=
  shapeCast_apply v h1 _ _ (by
    have hu : u.val = 0 := by have := u.isLt; omega
    have hu' : u'.val = 0 := by have := u'.isLt; omega
    rw [Shape.rowMajor_val_three, Shape.rowMajor_val_one]
    show o.val = (u.val * 1 + u'.val) * m + o.val
    rw [hu, hu']; omega)

/-- A vector [m] spread over every (b, p): [m] to [1, 1, m] to [B, n, m] reads at (b, p, o) the vector at o. -/
theorem chanSpread_apply {B n m : Nat} (v : (⟨1, ![m]⟩ : Shape).Idx → α)
    (h1 : (⟨1, ![m]⟩ : Shape).ShapeCasts ⟨3, ![1, 1, m]⟩)
    (h2 : (⟨3, ![1, 1, m]⟩ : Shape).Broadcasts ⟨3, ![B, n, m]⟩) (b : Fin B) (p : Fin n) (o : Fin m) :
    broadcastTo ⟨3, ![B, n, m]⟩ (shapeCast ⟨3, ![1, 1, m]⟩ v h1) h2 (ix3 b p o) = v (ix1 o) :=
  (chanSpread11_apply _ h2 b p o).trans (vec11_apply v h1 0 0 o)

/-- A column [m, 1] viewed as the vector [m] reads at o the column at (o, 0). -/
theorem colVec_apply {m : Nat} (x : (⟨2, ![m, 1]⟩ : Shape).Idx → α)
    (h : (⟨2, ![m, 1]⟩ : Shape).ShapeCasts ⟨1, ![m]⟩) (o : Fin m) :
    shapeCast ⟨1, ![m]⟩ x h (ix1 o) = x (ix2 o (0 : Fin 1)) :=
  shapeCast_apply x h _ _ (by
    rw [Shape.rowMajor_val_two, Shape.rowMajor_val_one]
    show o.val * 1 + 0 = o.val
    omega)

end Spreads

/-- The reciprocal square root of a vector at an index. -/
theorem rsqrt_apply {s : Shape} {φ : FTy} (a : FVec Ideal s φ) (i : s.Idx) : rsqrt a i = Ideal.rsqrt (a i) := rfl

/-! ## The normalised tile, its clamped products, the clamped tile and the squares, at an index -/

/-- The shared computation of the normalised tile, over any five operands. -/
theorem xn_core (x0 : Vec Ideal S64x128 .f32) (x1 x2 x3 x4 : Vec Ideal S128 .f32) (b : Fin 64) (j : Fin 128) :
    addf (mulf (mulf (subf x0 (broadcastTo S64x128 (shapeCast S1x128 (shapeCast S128 x1 shapeCasts_S128_S128) shapeCasts_S128_S1x128) broadcasts_S1x128_S64x128))
        (broadcastTo S64x128 (shapeCast S1x128 (rsqrt (addf (shapeCast S128 x2 shapeCasts_S128_S128)
          (broadcast S128 (Scalar.ofBits (F := Ideal) .f32 0x3727C5AC#32)))) shapeCasts_S128_S1x128) broadcasts_S1x128_S64x128))
        (broadcastTo S64x128 (shapeCast S1x128 x3 shapeCasts_S128_S1x128) broadcasts_S1x128_S64x128))
        (broadcastTo S64x128 (shapeCast S1x128 x4 shapeCasts_S128_S1x128) broadcasts_S1x128_S64x128) (ix2 b j)
      = Cert.Poly.xnT x0 x1 x2 x3 x4 b j := by
  rw [addf_apply, mulf_apply, mulf_apply, subf_apply, rowUnder_apply, rowUnder_apply, rowUnder_apply, rowUnder_apply,
    rsqrt_apply, addf_apply, shapeCast_self, shapeCast_self, broadcast_apply]
  rfl

theorem k0_pay5_apply (x0 : Vec Ideal S64x128 .f32) (x1 x2 x3 x4 : Vec Ideal S128 .f32) (b : Fin 64) (j : Fin 128) :
    k0_pay5 (F := Ideal) x0 x1 x2 x3 x4 (ix2 b j) = Cert.Poly.xnT x0 x1 x2 x3 x4 b j :=
  xn_core x0 x1 x2 x3 x4 b j

theorem k1_pay2_apply (x0 : Vec Ideal S64x128 .f32) (x1 x2 x3 x4 : Vec Ideal S128 .f32) (b : Fin 64) (j : Fin 128) :
    k1_pay2 (F := Ideal) x0 x1 x2 x3 x4 (ix2 b j) = Cert.Poly.xnT x0 x1 x2 x3 x4 b j :=
  xn_core x0 x1 x2 x3 x4 b j

/-- The clamped products of a matrix xn with itself, row by row. -/
theorem rd_core (xn : FVec Ideal S64x128 .f32) (b : Fin 64) (p q : Fin 128) :
    maximumf (mulf (broadcastTo S64x128x128 (shapeCast S64x128x1 xn shapeCasts_S64x128_S64x128x1) broadcasts_S64x128x1_S64x128x128)
        (broadcastTo S64x128x128 (shapeCast S64x1x128 xn shapeCasts_S64x128_S64x1x128) broadcasts_S64x1x128_S64x128x128))
        (broadcast S64x128x128 (Scalar.ofBits (F := Ideal) .f32 0x00000000#32)) (ix3 b p q)
      = max (xn (ix2 b p) * xn (ix2 b q)) 0 := by
  rw [maximumf_apply, mulf_apply, colSpread_apply, rowSpread_apply, broadcast_apply]
  show max _ (Ideal.ofBits .f32 0x00000000#32) = _
  rw [Ideal.ofBits_zero_f32]

theorem k0_pay6_apply (x0 : Vec Ideal S64x128 .f32) (x1 x2 x3 x4 : Vec Ideal S128 .f32) (b : Fin 64) (p q : Fin 128) :
    k0_pay6 (F := Ideal) x0 x1 x2 x3 x4 (ix3 b p q)
      = max (Cert.Poly.xnT x0 x1 x2 x3 x4 b p * Cert.Poly.xnT x0 x1 x2 x3 x4 b q) 0 :=
  (rd_core (k0_pay5 x0 x1 x2 x3 x4) b p q).trans (by rw [k0_pay5_apply, k0_pay5_apply])

theorem k1_pay3_apply (x0 : Vec Ideal S64x128 .f32) (x1 x2 x3 x4 : Vec Ideal S128 .f32) (b : Fin 64) (p q : Fin 128) :
    k1_pay3 (F := Ideal) x0 x1 x2 x3 x4 (ix3 b p q)
      = max (Cert.Poly.xnT x0 x1 x2 x3 x4 b p * Cert.Poly.xnT x0 x1 x2 x3 x4 b q) 0 :=
  (rd_core (k1_pay2 x0 x1 x2 x3 x4) b p q).trans (by rw [k1_pay2_apply, k1_pay2_apply])

/-- The clamped tile. -/
theorem rx_core (xn : FVec Ideal S64x128 .f32) (b : Fin 64) (j : Fin 128) :
    maximumf xn (broadcast S64x128 (Scalar.ofBits (F := Ideal) .f32 0x00000000#32)) (ix2 b j) = max (xn (ix2 b j)) 0 := by
  rw [maximumf_apply, broadcast_apply]
  show max _ (Ideal.ofBits .f32 0x00000000#32) = _
  rw [Ideal.ofBits_zero_f32]

theorem k0_pay7_apply (x0 : Vec Ideal S64x128 .f32) (x1 x2 x3 x4 : Vec Ideal S128 .f32) (b : Fin 64) (j : Fin 128) :
    k0_pay7 (F := Ideal) x0 x1 x2 x3 x4 (ix2 b j) = max (Cert.Poly.xnT x0 x1 x2 x3 x4 b j) 0 :=
  (rx_core (k0_pay5 x0 x1 x2 x3 x4) b j).trans (by rw [k0_pay5_apply])

theorem k1_pay4_apply (x0 : Vec Ideal S64x128 .f32) (x1 x2 x3 x4 : Vec Ideal S128 .f32) (b : Fin 64) (j : Fin 128) :
    k1_pay4 (F := Ideal) x0 x1 x2 x3 x4 (ix2 b j) = max (Cert.Poly.xnT x0 x1 x2 x3 x4 b j) 0 :=
  (rx_core (k1_pay2 x0 x1 x2 x3 x4) b j).trans (by rw [k1_pay2_apply])

theorem k0_pay8_apply (x0 : Vec Ideal S64x128 .f32) (x1 x2 x3 x4 : Vec Ideal S128 .f32) (b : Fin 64) (j : Fin 128) :
    k0_pay8 (F := Ideal) x0 x1 x2 x3 x4 (ix2 b j)
      = Cert.Poly.xnT x0 x1 x2 x3 x4 b j * Cert.Poly.xnT x0 x1 x2 x3 x4 b j :=
  (mulf_apply (k0_pay5 x0 x1 x2 x3 x4) (k0_pay5 x0 x1 x2 x3 x4) (ix2 b j)).trans (by rw [k0_pay5_apply])

theorem k1_pay5_apply (x0 : Vec Ideal S64x128 .f32) (x1 x2 x3 x4 : Vec Ideal S128 .f32) (b : Fin 64) (j : Fin 128) :
    k1_pay5 (F := Ideal) x0 x1 x2 x3 x4 (ix2 b j)
      = Cert.Poly.xnT x0 x1 x2 x3 x4 b j * Cert.Poly.xnT x0 x1 x2 x3 x4 b j :=
  (mulf_apply (k1_pay2 x0 x1 x2 x3 x4) (k1_pay2 x0 x1 x2 x3 x4) (ix2 b j)).trans (by rw [k1_pay2_apply])

/-! ## The staggered table of the clamped products is the specification's windows -/

/-- Row i ≥ 1 of the staggered table of the clamped products of v with itself is window i of v. -/
theorem stagRow_eq_winRow (rd : (⟨3, ![64, 128, 128]⟩ : Shape).Idx → EReal) (v : Fin 128 → EReal) (b : Fin 64)
    (hrd : ∀ p q : Fin 128, rd (ix3 b p q) = max (v p * v q) 0)
    (i : Nat) (h1 : 1 ≤ i) (h2 : i < 128) (k : Fin 128) :
    Cert.StaggerRows.stagRow rd i h1 h2 b k = Cert.Poly.winRow v ⟨i, h2⟩ k := by
  unfold Cert.StaggerRows.stagRow Cert.Poly.winRow
  have hi0 : ¬((⟨i, h2⟩ : Fin 128).val = 0) := by show ¬(i = 0); omega
  rw [if_neg hi0]
  by_cases hk : k.val < 128 - i
  · rw [dif_pos hk, dif_pos (show k.val < 128 - (⟨i, h2⟩ : Fin 128).val from hk), hrd]
  · rw [dif_neg hk, dif_neg (show ¬(k.val < 128 - (⟨i, h2⟩ : Fin 128).val) from hk), hrd]

/-- Window 0 of v is the clamped v. -/
theorem winRow_zero (v : Fin 128 → EReal) (k : Fin 128) : Cert.Poly.winRow v ⟨0, by decide⟩ k = max (v k) 0 := by
  unfold Cert.Poly.winRow
  rw [if_pos rfl]

/-- The whole table, its row 0 the clamped v and its other rows staggered rows of the clamped products, is the windows of v. -/
theorem tableRow_eq_winRow (rx : (⟨2, ![64, 128]⟩ : Shape).Idx → EReal) (rd : (⟨3, ![64, 128, 128]⟩ : Shape).Idx → EReal)
    (v : Fin 128 → EReal) (b : Fin 64) (hrx : ∀ k : Fin 128, rx (ix2 b k) = max (v k) 0)
    (hrd : ∀ p q : Fin 128, rd (ix3 b p q) = max (v p * v q) 0) (i k : Fin 128) :
    Cert.StaggerRows.tableRow rx rd i.val i.isLt b k = Cert.Poly.winRow v i k := by
  unfold Cert.StaggerRows.tableRow
  by_cases h : i.val = 0
  · rw [dif_pos h, hrx]
    unfold Cert.Poly.winRow
    rw [if_pos h]
  · rw [dif_neg h]
    exact stagRow_eq_winRow rd v b hrd i.val (by omega) i.isLt k

/-! ## The contraction of the stack of windows with the weights -/

/-- What both bodies compute from the stack u of the windows, the weights w, the bias fb and the squares dg. -/
def yOfStack (u : FVec Ideal S64x128x128 .f32) (w : Vec Ideal S128x129 .f32) (fb : Vec Ideal S128 .f32)
    (dg : FVec Ideal S64x128 .f32) : FVec Ideal S64x128x128 .f32 :=
  addf (addf
      (shapeCast S64x128x128
        (matmul dot_S8192x128_S128x128_S8192x128_1_1_0_0_n_n none
          (truncf .bf16 (shapeCast S8192x128 u shapeCasts_S64x128x128_S8192x128) bitsLt_bf16_f32)
          (truncf .bf16 (extractStridedSlice S128x128 ![0, 0] w slices_S128x129_o0_0_S128x128) bitsLt_bf16_f32)
          (constant S8192x128 .f32 0x00000000#32))
        shapeCasts_S8192x128_S64x128x128)
      (mulf (broadcastTo S64x128x128 (shapeCast S64x128x1 dg shapeCasts_S64x128_S64x128x1) broadcasts_S64x128x1_S64x128x128)
        (broadcastTo S64x128x128
          (shapeCast S1x1x128 (shapeCast S128 (extractStridedSlice S128x1 ![0, 128] w slices_S128x129_o0_128_S128x1) shapeCasts_S128x1_S128)
            shapeCasts_S128_S1x1x128) broadcasts_S1x1x128_S64x128x128)))
    (broadcastTo S64x128x128 (shapeCast S1x1x128 fb shapeCasts_S128_S1x1x128) broadcasts_S1x1x128_S64x128x128)

/-- The program's dimension numbers are the rows-by-rows ones. -/
theorem dot_eq : dot_S8192x128_S128x128_S8192x128_1_1_0_0_n_n = DotDims.transposedRhs 8192 128 128 := rfl

theorem yOfStack_apply (u : FVec Ideal S64x128x128 .f32) (w : Vec Ideal S128x129 .f32) (fb : Vec Ideal S128 .f32)
    (dg : FVec Ideal S64x128 .f32) (b : Fin 64) (i o : Fin 128) :
    yOfStack u w fb dg (ix3 b i o)
      = (∑ k : Fin 128, u (ix3 b i k) * w (ix2 o k.castSucc)) + dg (ix2 b i) * w (ix2 o (Fin.last 128)) + fb (ix1 o) := by
  unfold yOfStack
  rw [addf_apply, addf_apply, mulf_apply, colSpread_apply, chanSpread_apply, chanSpread_apply, colVec_apply]
  have hr : (⟨b.val * 128 + i.val, by have := b.isLt; have := i.isLt; omega⟩ : Fin 8192).val = b.val * 128 + i.val := rfl
  rw [Cert.StaggerRows.unflatten_apply _ shapeCasts_S8192x128_S64x128x128 b i o
      (⟨b.val * 128 + i.val, by have := b.isLt; have := i.isLt; omega⟩ : Fin 8192) hr]
  simp only [matmul]
  rw [Cert.DotRowsByRows.matmul_zero_apply_of_eq _ dot_eq]
  congr 1
  congr 1
  · refine Finset.sum_congr rfl fun k _ => ?_
    rw [truncf_apply, truncf_apply,
      Cert.StaggerRows.flatten_apply u shapeCasts_S64x128x128_S8192x128 b i k _ hr,
      slice2_axis1_apply 0 w slices_S128x129_o0_0_S128x128 o k k.castSucc (by simp)]
  · rw [slice2_axis1_apply 128 w slices_S128x129_o0_128_S128x1 o (0 : Fin 1) (Fin.last 128) (by simp)]

end Cert.KernelIdeal.Tile

end
-- ==== Proof.LibRowList.lean ====
/-
  A list of rows read one by one.

  The kernels stack a LIST of arrays [B, 1, n] along the middle axis.  To say "the j-th array of the list is row s + j of
  a table R" for a list written out element by element, without ever indexing into the written-out list, the statement
  is built up the way the list is: it holds of the empty list, and of p :: ps when p is row s and ps are the rows from
  s + 1 on (allRows_nil, allRows_cons).  stackRows_of_allRows then reads the stack: entry (b, i, k) is row i of the table.
  tableRowN is the table of LibStaggerRows (row 0 a given matrix, row i ≥ 1 the staggered row of a stack of square
  matrices) as a total function of the row number.
-/
import proofs.«138108_j2860448219241_2_alg».proof.Proof.LibStaggerRows

namespace Cert.StaggerRows

open Idealize.ShloMosaic Idealize.ShloMosaic.ValueIdx

variable {α : Type}

/-- Every array of the list, read at the index idx, is the table's row with its number: the j-th is row s + j. -/
def AllRows {S : Shape} (ps : List (S.Idx → α)) (s : Nat) (R : Nat → α) (idx : S.Idx) : Prop :=
  ∀ (j : Nat) (h : j < ps.length), ps[j] idx = R (s + j)

theorem allRows_nil {S : Shape} (s : Nat) (R : Nat → α) (idx : S.Idx) : AllRows ([] : List (S.Idx → α)) s R idx :=
  fun j h => absurd h (Nat.not_lt_zero j)

theorem allRows_cons {S : Shape} {p : S.Idx → α} {ps : List (S.Idx → α)} {s : Nat} {R : Nat → α} {idx : S.Idx}
    (h0 : p idx = R s) (ht : AllRows ps (s + 1) R idx) : AllRows (p :: ps) s R idx := by
  intro j h
  cases j with
  | zero => exact h0
  | succ j =>
    have := ht j (by simpa using h)
    rw [show s + (j + 1) = s + 1 + j by omega]
    exact this

/-- The table of a given matrix r0 (row 0) and the staggered rows of a stack v of n×n matrices (rows 1 … n-1), as a total
    function of the row number (r0's row again past the end). -/
def tableRowN {B n : Nat} (r0 : (⟨2, ![B, n]⟩ : Shape).Idx → α) (v : (⟨3, ![B, n, n]⟩ : Shape).Idx → α)
    (i : Nat) (b : Fin B) (k : Fin n) : α :=
  if h : i = 0 then r0 (ix2 b k) else if h2 : i < n then stagRow v i (by omega) h2 b k else r0 (ix2 b k)

theorem tableRowN_eq_tableRow {B n : Nat} (r0 : (⟨2, ![B, n]⟩ : Shape).Idx → α) (v : (⟨3, ![B, n, n]⟩ : Shape).Idx → α)
    (i : Nat) (hi : i < n) (b : Fin B) (k : Fin n) : tableRowN r0 v i b k = tableRow r0 v i hi b k := by
  unfold tableRowN tableRow
  by_cases h : i = 0
  · rw [dif_pos h, dif_pos h]
  · rw [dif_neg h, dif_neg h, dif_pos hi]

/-- A stack of arrays [B, 1, n] that are, one by one, the rows of a table reads at (b, i, k) row i of the table. -/
theorem stackRows_of_allRows {B n m : Nat} (ps : List ((⟨3, ![B, 1, n]⟩ : Shape).Idx → α))
    (h : Shape.Concatenates ((ps.map fun p => (⟨⟨3, ![B, 1, n]⟩, p⟩ : (s : Shape) × (s.Idx → α))).map (·.1))
      ⟨3, ![B, m, n]⟩ 1)
    (b : Fin B) (i : Fin m) (k : Fin n) (hi : i.val < ps.length) (R : Nat → α)
    (hall : AllRows ps 0 R (ix3 b (0 : Fin 1) k)) :
    concatenate ⟨3, ![B, m, n]⟩ 1 (ps.map fun p => (⟨⟨3, ![B, 1, n]⟩, p⟩ : (s : Shape) × (s.Idx → α))) h (ix3 b i k)
      = R i.val := by
  rw [stackRows_apply ps h b i k hi, hall i.val hi, Nat.zero_add]

end Cert.StaggerRows
-- ==== Proof.TileY1.lean ====
/-
  The value y of one tile of 64 batch rows, before the second normalisation, as kernel 1's body composes it from the
  blocks it loads: x0 the tile of the batch, x1 … x4 the first normalisation's means, variances, scale and shift, x5 the
  weights, x6 the bias.  The term follows the dataflow of the body's parts: the normalised tile, its clamped products, the
  127 staggered rows and the clamped tile itself as 128 pieces, stacked and contracted with the weights.  k1_pieces lists
  the 128 stacked pieces in order.
-/
import proofs.«138108_j2860448219241_2_alg».proof.Proof.Gen.KernelIdeal.Skeleton

set_option maxRecDepth 65536

noncomputable section

namespace Cert.KernelIdeal.Tile

open Cert.KernelIdeal Cert.KernelIdeal.Gen Idealize.ShloMosaic

variable {F : FTy → Type} [FloatOps F]

/-- The tile's y as kernel 1's body composes it from the loaded blocks. -/
def k1_y (x0 : Vec F S64x128 .f32) (x1 x2 x3 x4 : Vec F S128 .f32) (x5 : Vec F S128x129 .f32) (x6 : Vec F S128 .f32) : FVec F S64x128x128 .f32 :=
  k1_pay253 x5 x6 (k1_pay5 x0 x1 x2 x3 x4) (k1_pay119 (k1_pay3 x0 x1 x2 x3 x4)) (k1_pay122 (k1_pay120 (k1_pay3 x0 x1 x2 x3 x4)) (k1_pay121 (k1_pay3 x0 x1 x2 x3 x4))) (k1_pay123 (k1_pay3 x0 x1 x2 x3 x4)) (k1_pay124 (k1_pay3 x0 x1 x2 x3 x4)) (k1_pay125 (k1_pay3 x0 x1 x2 x3 x4)) (k1_pay126 (k1_pay3 x0 x1 x2 x3 x4)) (k1_pay127 (k1_pay3 x0 x1 x2 x3 x4)) (k1_pay128 (k1_pay3 x0 x1 x2 x3 x4)) (k1_pay129 (k1_pay3 x0 x1 x2 x3 x4)) (k1_pay130 (k1_pay3 x0 x1 x2 x3 x4)) (k1_pay131 (k1_pay3 x0 x1 x2 x3 x4)) (k1_pay132 (k1_pay3 x0 x1 x2 x3 x4)) (k1_pay133 (k1_pay3 x0 x1 x2 x3 x4)) (k1_pay136 (k1_pay134 (k1_pay3 x0 x1 x2 x3 x4)) (k1_pay135 (k1_pay3 x0 x1 x2 x3 x4))) (k1_pay137 (k1_pay3 x0 x1 x2 x3 x4)) (k1_pay138 (k1_pay3 x0 x1 x2 x3 x4)) (k1_pay139 (k1_pay3 x0 x1 x2 x3 x4)) (k1_pay140 (k1_pay3 x0 x1 x2 x3 x4)) (k1_pay141 (k1_pay3 x0 x1 x2 x3 x4)) (k1_pay142 (k1_pay3 x0 x1 x2 x3 x4)) (k1_pay143 (k1_pay3 x0 x1 x2 x3 x4)) (k1_pay144 (k1_pay3 x0 x1 x2 x3 x4)) (k1_pay145 (k1_pay3 x0 x1 x2 x3 x4)) (k1_pay146 (k1_pay3 x0 x1 x2 x3 x4)) (k1_pay147 (k1_pay3 x0 x1 x2 x3 x4)) (k1_pay150 (k1_pay148 (k1_pay3 x0 x1 x2 x3 x4)) (k1_pay149 (k1_pay3 x0 x1 x2 x3 x4))) (k1_pay151 (k1_pay3 x0 x1 x2 x3 x4)) (k1_pay152 (k1_pay3 x0 x1 x2 x3 x4)) (k1_pay153 (k1_pay3 x0 x1 x2 x3 x4)) (k1_pay154 (k1_pay3 x0 x1 x2 x3 x4)) (k1_pay155 (k1_pay4 x0 x1 x2 x3 x4)) (k1_pay156 (k1_pay6 x0 x1 x2 x3 x4)) (k1_pay157 (k1_pay7 x0 x1 x2 x3 x4)) (k1_pay158 (k1_pay10 (k1_pay8 x0 x1 x2 x3 x4) (k1_pay9 x0 x1 x2 x3 x4))) (k1_pay159 (k1_pay11 (k1_pay3 x0 x1 x2 x3 x4))) (k1_pay160 (k1_pay12 (k1_pay3 x0 x1 x2 x3 x4))) (k1_pay161 (k1_pay13 (k1_pay3 x0 x1 x2 x3 x4))) (k1_pay162 (k1_pay14 (k1_pay3 x0 x1 x2 x3 x4))) (k1_pay163 (k1_pay15 (k1_pay3 x0 x1 x2 x3 x4))) (k1_pay164 (k1_pay16 (k1_pay3 x0 x1 x2 x3 x4))) (k1_pay165 (k1_pay17 (k1_pay3 x0 x1 x2 x3 x4))) (k1_pay166 (k1_pay18 (k1_pay3 x0 x1 x2 x3 x4))) (k1_pay167 (k1_pay19 (k1_pay3 x0 x1 x2 x3 x4))) (k1_pay168 (k1_pay20 (k1_pay3 x0 x1 x2 x3 x4))) (k1_pay169 (k1_pay21 (k1_pay3 x0 x1 x2 x3 x4))) (k1_pay170 (k1_pay24 (k1_pay22 (k1_pay3 x0 x1 x2 x3 x4)) (k1_pay23 (k1_pay3 x0 x1 x2 x3 x4)))) (k1_pay171 (k1_pay25 (k1_pay3 x0 x1 x2 x3 x4))) (k1_pay172 (k1_pay26 (k1_pay3 x0 x1 x2 x3 x4))) (k1_pay173 (k1_pay27 (k1_pay3 x0 x1 x2 x3 x4))) (k1_pay174 (k1_pay28 (k1_pay3 x0 x1 x2 x3 x4))) (k1_pay175 (k1_pay29 (k1_pay3 x0 x1 x2 x3 x4))) (k1_pay176 (k1_pay30 (k1_pay3 x0 x1 x2 x3 x4))) (k1_pay177 (k1_pay31 (k1_pay3 x0 x1 x2 x3 x4))) (k1_pay178 (k1_pay32 (k1_pay3 x0 x1 x2 x3 x4))) (k1_pay179 (k1_pay33 (k1_pay3 x0 x1 x2 x3 x4))) (k1_pay180 (k1_pay34 (k1_pay3 x0 x1 x2 x3 x4))) (k1_pay181 (k1_pay35 (k1_pay3 x0 x1 x2 x3 x4))) (k1_pay182 (k1_pay38 (k1_pay36 (k1_pay3 x0 x1 x2 x3 x4)) (k1_pay37 (k1_pay3 x0 x1 x2 x3 x4)))) (k1_pay183 (k1_pay39 (k1_pay3 x0 x1 x2 x3 x4))) (k1_pay184 (k1_pay40 (k1_pay3 x0 x1 x2 x3 x4))) (k1_pay185 (k1_pay41 (k1_pay3 x0 x1 x2 x3 x4))) (k1_pay186 (k1_pay42 (k1_pay3 x0 x1 x2 x3 x4))) (k1_pay187 (k1_pay43 (k1_pay3 x0 x1 x2 x3 x4))) (k1_pay188 (k1_pay44 (k1_pay3 x0 x1 x2 x3 x4))) (k1_pay189 (k1_pay45 (k1_pay3 x0 x1 x2 x3 x4))) (k1_pay190 (k1_pay46 (k1_pay3 x0 x1 x2 x3 x4))) (k1_pay191 (k1_pay47 (k1_pay3 x0 x1 x2 x3 x4))) (k1_pay192 (k1_pay48 (k1_pay3 x0 x1 x2 x3 x4))) (k1_pay193 (k1_pay49 (k1_pay3 x0 x1 x2 x3 x4))) (k1_pay194 (k1_pay52 (k1_pay50 (k1_pay3 x0 x1 x2 x3 x4)) (k1_pay51 (k1_pay3 x0 x1 x2 x3 x4)))) (k1_pay195 (k1_pay53 (k1_pay3 x0 x1 x2 x3 x4))) (k1_pay196 (k1_pay54 (k1_pay3 x0 x1 x2 x3 x4))) (k1_pay197 (k1_pay55 (k1_pay3 x0 x1 x2 x3 x4))) (k1_pay198 (k1_pay56 (k1_pay3 x0 x1 x2 x3 x4))) (k1_pay199 (k1_pay57 (k1_pay3 x0 x1 x2 x3 x4))) (k1_pay200 (k1_pay58 (k1_pay3 x0 x1 x2 x3 x4))) (k1_pay201 (k1_pay59 (k1_pay3 x0 x1 x2 x3 x4))) (k1_pay202 (k1_pay60 (k1_pay3 x0 x1 x2 x3 x4))) (k1_pay203 (k1_pay61 (k1_pay3 x0 x1 x2 x3 x4))) (k1_pay204 (k1_pay62 (k1_pay3 x0 x1 x2 x3 x4))) (k1_pay205 (k1_pay63 (k1_pay3 x0 x1 x2 x3 x4))) (k1_pay206 (k1_pay66 (k1_pay64 (k1_pay3 x0 x1 x2 x3 x4)) (k1_pay65 (k1_pay3 x0 x1 x2 x3 x4)))) (k1_pay207 (k1_pay67 (k1_pay3 x0 x1 x2 x3 x4))) (k1_pay208 (k1_pay68 (k1_pay3 x0 x1 x2 x3 x4))) (k1_pay209 (k1_pay69 (k1_pay3 x0 x1 x2 x3 x4))) (k1_pay210 (k1_pay70 (k1_pay3 x0 x1 x2 x3 x4))) (k1_pay211 (k1_pay71 (k1_pay3 x0 x1 x2 x3 x4))) (k1_pay212 (k1_pay72 (k1_pay3 x0 x1 x2 x3 x4))) (k1_pay213 (k1_pay73 (k1_pay3 x0 x1 x2 x3 x4))) (k1_pay214 (k1_pay74 (k1_pay3 x0 x1 x2 x3 x4))) (k1_pay215 (k1_pay75 (k1_pay3 x0 x1 x2 x3 x4))) (k1_pay216 (k1_pay76 (k1_pay3 x0 x1 x2 x3 x4))) (k1_pay217 (k1_pay77 (k1_pay3 x0 x1 x2 x3 x4))) (k1_pay218 (k1_pay80 (k1_pay78 (k1_pay3 x0 x1 x2 x3 x4)) (k1_pay79 (k1_pay3 x0 x1 x2 x3 x4)))) (k1_pay219 (k1_pay81 (k1_pay3 x0 x1 x2 x3 x4))) (k1_pay220 (k1_pay82 (k1_pay3 x0 x1 x2 x3 x4))) (k1_pay221 (k1_pay83 (k1_pay3 x0 x1 x2 x3 x4))) (k1_pay222 (k1_pay84 (k1_pay3 x0 x1 x2 x3 x4))) (k1_pay223 (k1_pay85 (k1_pay3 x0 x1 x2 x3 x4))) (k1_pay224 (k1_pay86 (k1_pay3 x0 x1 x2 x3 x4))) (k1_pay225 (k1_pay87 (k1_pay3 x0 x1 x2 x3 x4))) (k1_pay226 (k1_pay88 (k1_pay3 x0 x1 x2 x3 x4))) (k1_pay227 (k1_pay89 (k1_pay3 x0 x1 x2 x3 x4))) (k1_pay228 (k1_pay90 (k1_pay3 x0 x1 x2 x3 x4))) (k1_pay229 (k1_pay91 (k1_pay3 x0 x1 x2 x3 x4))) (k1_pay230 (k1_pay94 (k1_pay92 (k1_pay3 x0 x1 x2 x3 x4)) (k1_pay93 (k1_pay3 x0 x1 x2 x3 x4)))) (k1_pay231 (k1_pay95 (k1_pay3 x0 x1 x2 x3 x4))) (k1_pay232 (k1_pay96 (k1_pay3 x0 x1 x2 x3 x4))) (k1_pay233 (k1_pay97 (k1_pay3 x0 x1 x2 x3 x4))) (k1_pay234 (k1_pay98 (k1_pay3 x0 x1 x2 x3 x4))) (k1_pay235 (k1_pay99 (k1_pay3 x0 x1 x2 x3 x4))) (k1_pay236 (k1_pay100 (k1_pay3 x0 x1 x2 x3 x4))) (k1_pay237 (k1_pay101 (k1_pay3 x0 x1 x2 x3 x4))) (k1_pay238 (k1_pay102 (k1_pay3 x0 x1 x2 x3 x4))) (k1_pay239 (k1_pay103 (k1_pay3 x0 x1 x2 x3 x4))) (k1_pay240 (k1_pay104 (k1_pay3 x0 x1 x2 x3 x4))) (k1_pay241 (k1_pay105 (k1_pay3 x0 x1 x2 x3 x4))) (k1_pay242 (k1_pay108 (k1_pay106 (k1_pay3 x0 x1 x2 x3 x4)) (k1_pay107 (k1_pay3 x0 x1 x2 x3 x4)))) (k1_pay243 (k1_pay109 (k1_pay3 x0 x1 x2 x3 x4))) (k1_pay244 (k1_pay110 (k1_pay3 x0 x1 x2 x3 x4))) (k1_pay245 (k1_pay111 (k1_pay3 x0 x1 x2 x3 x4))) (k1_pay246 (k1_pay112 (k1_pay3 x0 x1 x2 x3 x4))) (k1_pay247 (k1_pay113 (k1_pay3 x0 x1 x2 x3 x4))) (k1_pay248 (k1_pay114 (k1_pay3 x0 x1 x2 x3 x4))) (k1_pay249 (k1_pay115 (k1_pay3 x0 x1 x2 x3 x4))) (k1_pay250 (k1_pay116 (k1_pay3 x0 x1 x2 x3 x4))) (k1_pay251 (k1_pay117 (k1_pay3 x0 x1 x2 x3 x4))) (k1_pay252 (k1_pay118 (k1_pay3 x0 x1 x2 x3 x4)))

/-- The 128 pieces [64, 1, 128] the body stacks along the middle axis, in order. -/
def k1_pieces (x0 : Vec F S64x128 .f32) (x1 x2 x3 x4 : Vec F S128 .f32) : List (FVec F S64x1x128 .f32) :=
  [(k1_pay155 (k1_pay4 x0 x1 x2 x3 x4)),
   (k1_pay156 (k1_pay6 x0 x1 x2 x3 x4)),
   (k1_pay157 (k1_pay7 x0 x1 x2 x3 x4)),
   (k1_pay158 (k1_pay10 (k1_pay8 x0 x1 x2 x3 x4) (k1_pay9 x0 x1 x2 x3 x4))),
   (k1_pay159 (k1_pay11 (k1_pay3 x0 x1 x2 x3 x4))),
   (k1_pay160 (k1_pay12 (k1_pay3 x0 x1 x2 x3 x4))),
   (k1_pay161 (k1_pay13 (k1_pay3 x0 x1 x2 x3 x4))),
   (k1_pay162 (k1_pay14 (k1_pay3 x0 x1 x2 x3 x4))),
   (k1_pay163 (k1_pay15 (k1_pay3 x0 x1 x2 x3 x4))),
   (k1_pay164 (k1_pay16 (k1_pay3 x0 x1 x2 x3 x4))),
   (k1_pay165 (k1_pay17 (k1_pay3 x0 x1 x2 x3 x4))),
   (k1_pay166 (k1_pay18 (k1_pay3 x0 x1 x2 x3 x4))),
   (k1_pay167 (k1_pay19 (k1_pay3 x0 x1 x2 x3 x4))),
   (k1_pay168 (k1_pay20 (k1_pay3 x0 x1 x2 x3 x4))),
   (k1_pay169 (k1_pay21 (k1_pay3 x0 x1 x2 x3 x4))),
   (k1_pay170 (k1_pay24 (k1_pay22 (k1_pay3 x0 x1 x2 x3 x4)) (k1_pay23 (k1_pay3 x0 x1 x2 x3 x4)))),
   (k1_pay171 (k1_pay25 (k1_pay3 x0 x1 x2 x3 x4))),
   (k1_pay172 (k1_pay26 (k1_pay3 x0 x1 x2 x3 x4))),
   (k1_pay173 (k1_pay27 (k1_pay3 x0 x1 x2 x3 x4))),
   (k1_pay174 (k1_pay28 (k1_pay3 x0 x1 x2 x3 x4))),
   (k1_pay175 (k1_pay29 (k1_pay3 x0 x1 x2 x3 x4))),
   (k1_pay176 (k1_pay30 (k1_pay3 x0 x1 x2 x3 x4))),
   (k1_pay177 (k1_pay31 (k1_pay3 x0 x1 x2 x3 x4))),
   (k1_pay178 (k1_pay32 (k1_pay3 x0 x1 x2 x3 x4))),
   (k1_pay179 (k1_pay33 (k1_pay3 x0 x1 x2 x3 x4))),
   (k1_pay180 (k1_pay34 (k1_pay3 x0 x1 x2 x3 x4))),
   (k1_pay181 (k1_pay35 (k1_pay3 x0 x1 x2 x3 x4))),
   (k1_pay182 (k1_pay38 (k1_pay36 (k1_pay3 x0 x1 x2 x3 x4)) (k1_pay37 (k1_pay3 x0 x1 x2 x3 x4)))),
   (k1_pay183 (k1_pay39 (k1_pay3 x0 x1 x2 x3 x4))),
   (k1_pay184 (k1_pay40 (k1_pay3 x0 x1 x2 x3 x4))),
   (k1_pay185 (k1_pay41 (k1_pay3 x0 x1 x2 x3 x4))),
   (k1_pay186 (k1_pay42 (k1_pay3 x0 x1 x2 x3 x4))),
   (k1_pay187 (k1_pay43 (k1_pay3 x0 x1 x2 x3 x4))),
   (k1_pay188 (k1_pay44 (k1_pay3 x0 x1 x2 x3 x4))),
   (k1_pay189 (k1_pay45 (k1_pay3 x0 x1 x2 x3 x4))),
   (k1_pay190 (k1_pay46 (k1_pay3 x0 x1 x2 x3 x4))),
   (k1_pay191 (k1_pay47 (k1_pay3 x0 x1 x2 x3 x4))),
   (k1_pay192 (k1_pay48 (k1_pay3 x0 x1 x2 x3 x4))),
   (k1_pay193 (k1_pay49 (k1_pay3 x0 x1 x2 x3 x4))),
   (k1_pay194 (k1_pay52 (k1_pay50 (k1_pay3 x0 x1 x2 x3 x4)) (k1_pay51 (k1_pay3 x0 x1 x2 x3 x4)))),
   (k1_pay195 (k1_pay53 (k1_pay3 x0 x1 x2 x3 x4))),
   (k1_pay196 (k1_pay54 (k1_pay3 x0 x1 x2 x3 x4))),
   (k1_pay197 (k1_pay55 (k1_pay3 x0 x1 x2 x3 x4))),
   (k1_pay198 (k1_pay56 (k1_pay3 x0 x1 x2 x3 x4))),
   (k1_pay199 (k1_pay57 (k1_pay3 x0 x1 x2 x3 x4))),
   (k1_pay200 (k1_pay58 (k1_pay3 x0 x1 x2 x3 x4))),
   (k1_pay201 (k1_pay59 (k1_pay3 x0 x1 x2 x3 x4))),
   (k1_pay202 (k1_pay60 (k1_pay3 x0 x1 x2 x3 x4))),
   (k1_pay203 (k1_pay61 (k1_pay3 x0 x1 x2 x3 x4))),
   (k1_pay204 (k1_pay62 (k1_pay3 x0 x1 x2 x3 x4))),
   (k1_pay205 (k1_pay63 (k1_pay3 x0 x1 x2 x3 x4))),
   (k1_pay206 (k1_pay66 (k1_pay64 (k1_pay3 x0 x1 x2 x3 x4)) (k1_pay65 (k1_pay3 x0 x1 x2 x3 x4)))),
   (k1_pay207 (k1_pay67 (k1_pay3 x0 x1 x2 x3 x4))),
   (k1_pay208 (k1_pay68 (k1_pay3 x0 x1 x2 x3 x4))),
   (k1_pay209 (k1_pay69 (k1_pay3 x0 x1 x2 x3 x4))),
   (k1_pay210 (k1_pay70 (k1_pay3 x0 x1 x2 x3 x4))),
   (k1_pay211 (k1_pay71 (k1_pay3 x0 x1 x2 x3 x4))),
   (k1_pay212 (k1_pay72 (k1_pay3 x0 x1 x2 x3 x4))),
   (k1_pay213 (k1_pay73 (k1_pay3 x0 x1 x2 x3 x4))),
   (k1_pay214 (k1_pay74 (k1_pay3 x0 x1 x2 x3 x4))),
   (k1_pay215 (k1_pay75 (k1_pay3 x0 x1 x2 x3 x4))),
   (k1_pay216 (k1_pay76 (k1_pay3 x0 x1 x2 x3 x4))),
   (k1_pay217 (k1_pay77 (k1_pay3 x0 x1 x2 x3 x4))),
   (k1_pay218 (k1_pay80 (k1_pay78 (k1_pay3 x0 x1 x2 x3 x4)) (k1_pay79 (k1_pay3 x0 x1 x2 x3 x4)))),
   (k1_pay219 (k1_pay81 (k1_pay3 x0 x1 x2 x3 x4))),
   (k1_pay220 (k1_pay82 (k1_pay3 x0 x1 x2 x3 x4))),
   (k1_pay221 (k1_pay83 (k1_pay3 x0 x1 x2 x3 x4))),
   (k1_pay222 (k1_pay84 (k1_pay3 x0 x1 x2 x3 x4))),
   (k1_pay223 (k1_pay85 (k1_pay3 x0 x1 x2 x3 x4))),
   (k1_pay224 (k1_pay86 (k1_pay3 x0 x1 x2 x3 x4))),
   (k1_pay225 (k1_pay87 (k1_pay3 x0 x1 x2 x3 x4))),
   (k1_pay226 (k1_pay88 (k1_pay3 x0 x1 x2 x3 x4))),
   (k1_pay227 (k1_pay89 (k1_pay3 x0 x1 x2 x3 x4))),
   (k1_pay228 (k1_pay90 (k1_pay3 x0 x1 x2 x3 x4))),
   (k1_pay229 (k1_pay91 (k1_pay3 x0 x1 x2 x3 x4))),
   (k1_pay230 (k1_pay94 (k1_pay92 (k1_pay3 x0 x1 x2 x3 x4)) (k1_pay93 (k1_pay3 x0 x1 x2 x3 x4)))),
   (k1_pay231 (k1_pay95 (k1_pay3 x0 x1 x2 x3 x4))),
   (k1_pay232 (k1_pay96 (k1_pay3 x0 x1 x2 x3 x4))),
   (k1_pay233 (k1_pay97 (k1_pay3 x0 x1 x2 x3 x4))),
   (k1_pay234 (k1_pay98 (k1_pay3 x0 x1 x2 x3 x4))),
   (k1_pay235 (k1_pay99 (k1_pay3 x0 x1 x2 x3 x4))),
   (k1_pay236 (k1_pay100 (k1_pay3 x0 x1 x2 x3 x4))),
   (k1_pay237 (k1_pay101 (k1_pay3 x0 x1 x2 x3 x4))),
   (k1_pay238 (k1_pay102 (k1_pay3 x0 x1 x2 x3 x4))),
   (k1_pay239 (k1_pay103 (k1_pay3 x0 x1 x2 x3 x4))),
   (k1_pay240 (k1_pay104 (k1_pay3 x0 x1 x2 x3 x4))),
   (k1_pay241 (k1_pay105 (k1_pay3 x0 x1 x2 x3 x4))),
   (k1_pay242 (k1_pay108 (k1_pay106 (k1_pay3 x0 x1 x2 x3 x4)) (k1_pay107 (k1_pay3 x0 x1 x2 x3 x4)))),
   (k1_pay243 (k1_pay109 (k1_pay3 x0 x1 x2 x3 x4))),
   (k1_pay244 (k1_pay110 (k1_pay3 x0 x1 x2 x3 x4))),
   (k1_pay245 (k1_pay111 (k1_pay3 x0 x1 x2 x3 x4))),
   (k1_pay246 (k1_pay112 (k1_pay3 x0 x1 x2 x3 x4))),
   (k1_pay247 (k1_pay113 (k1_pay3 x0 x1 x2 x3 x4))),
   (k1_pay248 (k1_pay114 (k1_pay3 x0 x1 x2 x3 x4))),
   (k1_pay249 (k1_pay115 (k1_pay3 x0 x1 x2 x3 x4))),
   (k1_pay250 (k1_pay116 (k1_pay3 x0 x1 x2 x3 x4))),
   (k1_pay251 (k1_pay117 (k1_pay3 x0 x1 x2 x3 x4))),
   (k1_pay252 (k1_pay118 (k1_pay3 x0 x1 x2 x3 x4))),
   (shapeCast S64x1x128 (k1_pay119 (k1_pay3 x0 x1 x2 x3 x4)) shapeCasts_S64x128_S64x1x128),
   (shapeCast S64x1x128 (k1_pay122 (k1_pay120 (k1_pay3 x0 x1 x2 x3 x4)) (k1_pay121 (k1_pay3 x0 x1 x2 x3 x4))) shapeCasts_S64x128_S64x1x128),
   (shapeCast S64x1x128 (k1_pay123 (k1_pay3 x0 x1 x2 x3 x4)) shapeCasts_S64x128_S64x1x128),
   (shapeCast S64x1x128 (k1_pay124 (k1_pay3 x0 x1 x2 x3 x4)) shapeCasts_S64x128_S64x1x128),
   (shapeCast S64x1x128 (k1_pay125 (k1_pay3 x0 x1 x2 x3 x4)) shapeCasts_S64x128_S64x1x128),
   (shapeCast S64x1x128 (k1_pay126 (k1_pay3 x0 x1 x2 x3 x4)) shapeCasts_S64x128_S64x1x128),
   (shapeCast S64x1x128 (k1_pay127 (k1_pay3 x0 x1 x2 x3 x4)) shapeCasts_S64x128_S64x1x128),
   (shapeCast S64x1x128 (k1_pay128 (k1_pay3 x0 x1 x2 x3 x4)) shapeCasts_S64x128_S64x1x128),
   (shapeCast S64x1x128 (k1_pay129 (k1_pay3 x0 x1 x2 x3 x4)) shapeCasts_S64x128_S64x1x128),
   (shapeCast S64x1x128 (k1_pay130 (k1_pay3 x0 x1 x2 x3 x4)) shapeCasts_S64x128_S64x1x128),
   (shapeCast S64x1x128 (k1_pay131 (k1_pay3 x0 x1 x2 x3 x4)) shapeCasts_S64x128_S64x1x128),
   (shapeCast S64x1x128 (k1_pay132 (k1_pay3 x0 x1 x2 x3 x4)) shapeCasts_S64x128_S64x1x128),
   (shapeCast S64x1x128 (k1_pay133 (k1_pay3 x0 x1 x2 x3 x4)) shapeCasts_S64x128_S64x1x128),
   (shapeCast S64x1x128 (k1_pay136 (k1_pay134 (k1_pay3 x0 x1 x2 x3 x4)) (k1_pay135 (k1_pay3 x0 x1 x2 x3 x4))) shapeCasts_S64x128_S64x1x128),
   (shapeCast S64x1x128 (k1_pay137 (k1_pay3 x0 x1 x2 x3 x4)) shapeCasts_S64x128_S64x1x128),
   (shapeCast S64x1x128 (k1_pay138 (k1_pay3 x0 x1 x2 x3 x4)) shapeCasts_S64x128_S64x1x128),
   (shapeCast S64x1x128 (k1_pay139 (k1_pay3 x0 x1 x2 x3 x4)) shapeCasts_S64x128_S64x1x128),
   (shapeCast S64x1x128 (k1_pay140 (k1_pay3 x0 x1 x2 x3 x4)) shapeCasts_S64x128_S64x1x128),
   (shapeCast S64x1x128 (k1_pay141 (k1_pay3 x0 x1 x2 x3 x4)) shapeCasts_S64x128_S64x1x128),
   (shapeCast S64x1x128 (k1_pay142 (k1_pay3 x0 x1 x2 x3 x4)) shapeCasts_S64x128_S64x1x128),
   (shapeCast S64x1x128 (k1_pay143 (k1_pay3 x0 x1 x2 x3 x4)) shapeCasts_S64x128_S64x1x128),
   (shapeCast S64x1x128 (k1_pay144 (k1_pay3 x0 x1 x2 x3 x4)) shapeCasts_S64x128_S64x1x128),
   (shapeCast S64x1x128 (k1_pay145 (k1_pay3 x0 x1 x2 x3 x4)) shapeCasts_S64x128_S64x1x128),
   (shapeCast S64x1x128 (k1_pay146 (k1_pay3 x0 x1 x2 x3 x4)) shapeCasts_S64x128_S64x1x128),
   (shapeCast S64x1x128 (k1_pay147 (k1_pay3 x0 x1 x2 x3 x4)) shapeCasts_S64x128_S64x1x128),
   (shapeCast S64x1x128 (k1_pay150 (k1_pay148 (k1_pay3 x0 x1 x2 x3 x4)) (k1_pay149 (k1_pay3 x0 x1 x2 x3 x4))) shapeCasts_S64x128_S64x1x128),
   (shapeCast S64x1x128 (k1_pay151 (k1_pay3 x0 x1 x2 x3 x4)) shapeCasts_S64x128_S64x1x128),
   (shapeCast S64x1x128 (k1_pay152 (k1_pay3 x0 x1 x2 x3 x4)) shapeCasts_S64x128_S64x1x128),
   (shapeCast S64x1x128 (k1_pay153 (k1_pay3 x0 x1 x2 x3 x4)) shapeCasts_S64x128_S64x1x128),
   (shapeCast S64x1x128 (k1_pay154 (k1_pay3 x0 x1 x2 x3 x4)) shapeCasts_S64x128_S64x1x128)]

end Cert.KernelIdeal.Tile

end
-- ==== Proof.Rows1.lean ====
/-
  The rows of kernel 1's staggered table, payload by payload.  Every statement is an instance of a general lemma of
  LibStaggerRows (stagRow_of_tailHead, seg_apply, sliceSeg_apply, stagRow_of_givenHead, stagRow_of_givenGiven,
  addMid_apply) at that payload's literal row number, offsets and shapes, which are read off the generated skeleton;
  the last theorem lists, for i = 0 … 127, that the i-th stacked piece is row i of the table.
-/
import proofs.«138108_j2860448219241_2_alg».proof.Proof.LibRowList
import proofs.«138108_j2860448219241_2_alg».proof.Proof.TileY1

set_option maxRecDepth 65536

noncomputable section

namespace Cert.KernelIdeal.Tile

open Cert.KernelIdeal Cert.KernelIdeal.Gen Idealize.ShloMosaic Idealize.ShloMosaic.ValueIdx Cert.StaggerRows

theorem k1_pay6_apply (v0 : Vec Ideal S64x128 .f32) (v1 : Vec Ideal S128 .f32) (v3 : Vec Ideal S128 .f32) (v5 : Vec Ideal S128 .f32) (v6 : Vec Ideal S128 .f32) (b : Fin 64) (k : Fin 128) :
    k1_pay6 v0 v1 v3 v5 v6 (ix2 b k) = stagRow (k1_pay3 v0 v1 v3 v5 v6) 1 (by decide) (by decide) b k :=
  stagRow_of_tailHead 1 (by decide) (by decide) (k1_pay3 v0 v1 v3 v5 v6) slices_S64x128x128_o0_0_1_S64x1x127 shapeCasts_S64x1x127_S64x127 slices_S64x128x128_o0_1_0_S64x1x1 shapeCasts_S64x1x1_S64x1 concatenates_S64x127_S64x1_S64x128_d1 (by rfl) b k

/-- Row 1 of the table, as the body composes it. -/
theorem k1_row1 (x0 : Vec Ideal S64x128 .f32) (x1 x2 x3 x4 : Vec Ideal S128 .f32) (b : Fin 64) (k : Fin 128) :
    (k1_pay6 x0 x1 x2 x3 x4) (ix2 b k) = stagRow (k1_pay3 x0 x1 x2 x3 x4) 1 (by decide) (by decide) b k :=
  k1_pay6_apply x0 x1 x2 x3 x4 b k

theorem k1_pay7_apply (v0 : Vec Ideal S64x128 .f32) (v1 : Vec Ideal S128 .f32) (v3 : Vec Ideal S128 .f32) (v5 : Vec Ideal S128 .f32) (v6 : Vec Ideal S128 .f32) (b : Fin 64) (k : Fin 128) :
    k1_pay7 v0 v1 v3 v5 v6 (ix2 b k) = stagRow (k1_pay3 v0 v1 v3 v5 v6) 2 (by decide) (by decide) b k :=
  stagRow_of_tailHead 2 (by decide) (by decide) (k1_pay3 v0 v1 v3 v5 v6) slices_S64x128x128_o0_1_2_S64x1x126 shapeCasts_S64x1x126_S64x126 slices_S64x128x128_o0_2_0_S64x1x2 shapeCasts_S64x1x2_S64x2 concatenates_S64x126_S64x2_S64x128_d1 (by rfl) b k

/-- Row 2 of the table, as the body composes it. -/
theorem k1_row2 (x0 : Vec Ideal S64x128 .f32) (x1 x2 x3 x4 : Vec Ideal S128 .f32) (b : Fin 64) (k : Fin 128) :
    (k1_pay7 x0 x1 x2 x3 x4) (ix2 b k) = stagRow (k1_pay3 x0 x1 x2 x3 x4) 2 (by decide) (by decide) b k :=
  k1_pay7_apply x0 x1 x2 x3 x4 b k

theorem k1_pay10_apply (rd : FVec Ideal S64x128x128 .f32) (v45 : FVec Ideal S64x125 .f32) (v46 : FVec Ideal S64x1x3 .f32) (b : Fin 64) (k : Fin 128)
    (hx1 : ∀ k' : Fin 125, v45 (ix2 b k') = rd (ix3 b ⟨2, by decide⟩ ⟨3 + k'.val, by have := k'.isLt; omega⟩))
    (hx2 : ∀ k' : Fin 3, v46 (ix3 b (0 : Fin 1) k') = rd (ix3 b ⟨3, by decide⟩ ⟨k'.val, by have := k'.isLt; omega⟩)) :
    k1_pay10 v45 v46 (ix2 b k) = stagRow rd 3 (by decide) (by decide) b k :=
  stagRow_of_givenGiven 3 (by decide) (by decide) rd v45 v46 shapeCasts_S64x1x3_S64x3 concatenates_S64x125_S64x3_S64x128_d1 (by rfl) b k hx1 hx2

theorem k1_pay8_apply (v0 : Vec Ideal S64x128 .f32) (v1 : Vec Ideal S128 .f32) (v3 : Vec Ideal S128 .f32) (v5 : Vec Ideal S128 .f32) (v6 : Vec Ideal S128 .f32) (b : Fin 64) (k : Fin 125) :
    k1_pay8 v0 v1 v3 v5 v6 (ix2 b k) = (k1_pay3 v0 v1 v3 v5 v6) (ix3 b ⟨2, by decide⟩ ⟨3 + k.val, by have := k.isLt; omega⟩) :=
  seg_apply 2 3 (k1_pay3 v0 v1 v3 v5 v6) slices_S64x128x128_o0_2_3_S64x1x125 shapeCasts_S64x1x125_S64x125 b k _ _ rfl rfl

theorem k1_pay9_apply (v0 : Vec Ideal S64x128 .f32) (v1 : Vec Ideal S128 .f32) (v3 : Vec Ideal S128 .f32) (v5 : Vec Ideal S128 .f32) (v6 : Vec Ideal S128 .f32) (b : Fin 64) (k : Fin 3) :
    k1_pay9 v0 v1 v3 v5 v6 (ix3 b (0 : Fin 1) k) = (k1_pay3 v0 v1 v3 v5 v6) (ix3 b ⟨3, by decide⟩ ⟨k.val, by have := k.isLt; omega⟩) :=
  sliceSeg_apply 3 0 (k1_pay3 v0 v1 v3 v5 v6) slices_S64x128x128_o0_3_0_S64x1x3 b 0 k _ _ rfl (Nat.zero_add _).symm

/-- Row 3 of the table, as the body composes it. -/
theorem k1_row3 (x0 : Vec Ideal S64x128 .f32) (x1 x2 x3 x4 : Vec Ideal S128 .f32) (b : Fin 64) (k : Fin 128) :
    (k1_pay10 (k1_pay8 x0 x1 x2 x3 x4) (k1_pay9 x0 x1 x2 x3 x4)) (ix2 b k) = stagRow (k1_pay3 x0 x1 x2 x3 x4) 3 (by decide) (by decide) b k :=
  k1_pay10_apply (k1_pay3 x0 x1 x2 x3 x4) (k1_pay8 x0 x1 x2 x3 x4) (k1_pay9 x0 x1 x2 x3 x4) b k (fun k' => k1_pay8_apply x0 x1 x2 x3 x4 b k') (fun k' => k1_pay9_apply x0 x1 x2 x3 x4 b k')

theorem k1_pay11_apply (v30 : FVec Ideal S64x128x128 .f32) (b : Fin 64) (k : Fin 128) :
    k1_pay11 v30 (ix2 b k) = stagRow v30 4 (by decide) (by decide) b k :=
  stagRow_of_tailHead 4 (by decide) (by decide) v30 slices_S64x128x128_o0_3_4_S64x1x124 shapeCasts_S64x1x124_S64x124 slices_S64x128x128_o0_4_0_S64x1x4 shapeCasts_S64x1x4_S64x4 concatenates_S64x124_S64x4_S64x128_d1 (by rfl) b k

/-- Row 4 of the table, as the body composes it. -/
theorem k1_row4 (x0 : Vec Ideal S64x128 .f32) (x1 x2 x3 x4 : Vec Ideal S128 .f32) (b : Fin 64) (k : Fin 128) :
    (k1_pay11 (k1_pay3 x0 x1 x2 x3 x4)) (ix2 b k) = stagRow (k1_pay3 x0 x1 x2 x3 x4) 4 (by decide) (by decide) b k :=
  k1_pay11_apply (k1_pay3 x0 x1 x2 x3 x4) b k

theorem k1_pay12_apply (v30 : FVec Ideal S64x128x128 .f32) (b : Fin 64) (k : Fin 128) :
    k1_pay12 v30 (ix2 b k) = stagRow v30 5 (by decide) (by decide) b k :=
  stagRow_of_tailHead 5 (by decide) (by decide) v30 slices_S64x128x128_o0_4_5_S64x1x123 shapeCasts_S64x1x123_S64x123 slices_S64x128x128_o0_5_0_S64x1x5 shapeCasts_S64x1x5_S64x5 concatenates_S64x123_S64x5_S64x128_d1 (by rfl) b k

/-- Row 5 of the table, as the body composes it. -/
theorem k1_row5 (x0 : Vec Ideal S64x128 .f32) (x1 x2 x3 x4 : Vec Ideal S128 .f32) (b : Fin 64) (k : Fin 128) :
    (k1_pay12 (k1_pay3 x0 x1 x2 x3 x4)) (ix2 b k) = stagRow (k1_pay3 x0 x1 x2 x3 x4) 5 (by decide) (by decide) b k :=
  k1_pay12_apply (k1_pay3 x0 x1 x2 x3 x4) b k

theorem k1_pay13_apply (v30 : FVec Ideal S64x128x128 .f32) (b : Fin 64) (k : Fin 128) :
    k1_pay13 v30 (ix2 b k) = stagRow v30 6 (by decide) (by decide) b k :=
  stagRow_of_tailHead 6 (by decide) (by decide) v30 slices_S64x128x128_o0_5_6_S64x1x122 shapeCasts_S64x1x122_S64x122 slices_S64x128x128_o0_6_0_S64x1x6 shapeCasts_S64x1x6_S64x6 concatenates_S64x122_S64x6_S64x128_d1 (by rfl) b k

/-- Row 6 of the table, as the body composes it. -/
theorem k1_row6 (x0 : Vec Ideal S64x128 .f32) (x1 x2 x3 x4 : Vec Ideal S128 .f32) (b : Fin 64) (k : Fin 128) :
    (k1_pay13 (k1_pay3 x0 x1 x2 x3 x4)) (ix2 b k) = stagRow (k1_pay3 x0 x1 x2 x3 x4) 6 (by decide) (by decide) b k :=
  k1_pay13_apply (k1_pay3 x0 x1 x2 x3 x4) b k

theorem k1_pay14_apply (v30 : FVec Ideal S64x128x128 .f32) (b : Fin 64) (k : Fin 128) :
    k1_pay14 v30 (ix2 b k) = stagRow v30 7 (by decide) (by decide) b k :=
  stagRow_of_tailHead 7 (by decide) (by decide) v30 slices_S64x128x128_o0_6_7_S64x1x121 shapeCasts_S64x1x121_S64x121 slices_S64x128x128_o0_7_0_S64x1x7 shapeCasts_S64x1x7_S64x7 concatenates_S64x121_S64x7_S64x128_d1 (by rfl) b k

/-- Row 7 of the table, as the body composes it. -/
theorem k1_row7 (x0 : Vec Ideal S64x128 .f32) (x1 x2 x3 x4 : Vec Ideal S128 .f32) (b : Fin 64) (k : Fin 128) :
    (k1_pay14 (k1_pay3 x0 x1 x2 x3 x4)) (ix2 b k) = stagRow (k1_pay3 x0 x1 x2 x3 x4) 7 (by decide) (by decide) b k :=
  k1_pay14_apply (k1_pay3 x0 x1 x2 x3 x4) b k

theorem k1_pay15_apply (v30 : FVec Ideal S64x128x128 .f32) (b : Fin 64) (k : Fin 128) :
    k1_pay15 v30 (ix2 b k) = stagRow v30 8 (by decide) (by decide) b k :=
  stagRow_of_tailHead 8 (by decide) (by decide) v30 slices_S64x128x128_o0_7_8_S64x1x120 shapeCasts_S64x1x120_S64x120 slices_S64x128x128_o0_8_0_S64x1x8 shapeCasts_S64x1x8_S64x8 concatenates_S64x120_S64x8_S64x128_d1 (by rfl) b k

/-- Row 8 of the table, as the body composes it. -/
theorem k1_row8 (x0 : Vec Ideal S64x128 .f32) (x1 x2 x3 x4 : Vec Ideal S128 .f32) (b : Fin 64) (k : Fin 128) :
    (k1_pay15 (k1_pay3 x0 x1 x2 x3 x4)) (ix2 b k) = stagRow (k1_pay3 x0 x1 x2 x3 x4) 8 (by decide) (by decide) b k :=
  k1_pay15_apply (k1_pay3 x0 x1 x2 x3 x4) b k

theorem k1_pay16_apply (v30 : FVec Ideal S64x128x128 .f32) (b : Fin 64) (k : Fin 128) :
    k1_pay16 v30 (ix2 b k) = stagRow v30 9 (by decide) (by decide) b k :=
  stagRow_of_tailHead 9 (by decide) (by decide) v30 slices_S64x128x128_o0_8_9_S64x1x119 shapeCasts_S64x1x119_S64x119 slices_S64x128x128_o0_9_0_S64x1x9 shapeCasts_S64x1x9_S64x9 concatenates_S64x119_S64x9_S64x128_d1 (by rfl) b k

/-- Row 9 of the table, as the body composes it. -/
theorem k1_row9 (x0 : Vec Ideal S64x128 .f32) (x1 x2 x3 x4 : Vec Ideal S128 .f32) (b : Fin 64) (k : Fin 128) :
    (k1_pay16 (k1_pay3 x0 x1 x2 x3 x4)) (ix2 b k) = stagRow (k1_pay3 x0 x1 x2 x3 x4) 9 (by decide) (by decide) b k :=
  k1_pay16_apply (k1_pay3 x0 x1 x2 x3 x4) b k

theorem k1_pay17_apply (v30 : FVec Ideal S64x128x128 .f32) (b : Fin 64) (k : Fin 128) :
    k1_pay17 v30 (ix2 b k) = stagRow v30 10 (by decide) (by decide) b k :=
  stagRow_of_tailHead 10 (by decide) (by decide) v30 slices_S64x128x128_o0_9_10_S64x1x118 shapeCasts_S64x1x118_S64x118 slices_S64x128x128_o0_10_0_S64x1x10 shapeCasts_S64x1x10_S64x10 concatenates_S64x118_S64x10_S64x128_d1 (by rfl) b k

/-- Row 10 of the table, as the body composes it. -/
theorem k1_row10 (x0 : Vec Ideal S64x128 .f32) (x1 x2 x3 x4 : Vec Ideal S128 .f32) (b : Fin 64) (k : Fin 128) :
    (k1_pay17 (k1_pay3 x0 x1 x2 x3 x4)) (ix2 b k) = stagRow (k1_pay3 x0 x1 x2 x3 x4) 10 (by decide) (by decide) b k :=
  k1_pay17_apply (k1_pay3 x0 x1 x2 x3 x4) b k

theorem k1_pay18_apply (v30 : FVec Ideal S64x128x128 .f32) (b : Fin 64) (k : Fin 128) :
    k1_pay18 v30 (ix2 b k) = stagRow v30 11 (by decide) (by decide) b k :=
  stagRow_of_tailHead 11 (by decide) (by decide) v30 slices_S64x128x128_o0_10_11_S64x1x117 shapeCasts_S64x1x117_S64x117 slices_S64x128x128_o0_11_0_S64x1x11 shapeCasts_S64x1x11_S64x11 concatenates_S64x117_S64x11_S64x128_d1 (by rfl) b k

/-- Row 11 of the table, as the body composes it. -/
theorem k1_row11 (x0 : Vec Ideal S64x128 .f32) (x1 x2 x3 x4 : Vec Ideal S128 .f32) (b : Fin 64) (k : Fin 128) :
    (k1_pay18 (k1_pay3 x0 x1 x2 x3 x4)) (ix2 b k) = stagRow (k1_pay3 x0 x1 x2 x3 x4) 11 (by decide) (by decide) b k :=
  k1_pay18_apply (k1_pay3 x0 x1 x2 x3 x4) b k

theorem k1_pay19_apply (v30 : FVec Ideal S64x128x128 .f32) (b : Fin 64) (k : Fin 128) :
    k1_pay19 v30 (ix2 b k) = stagRow v30 12 (by decide) (by decide) b k :=
  stagRow_of_tailHead 12 (by decide) (by decide) v30 slices_S64x128x128_o0_11_12_S64x1x116 shapeCasts_S64x1x116_S64x116 slices_S64x128x128_o0_12_0_S64x1x12 shapeCasts_S64x1x12_S64x12 concatenates_S64x116_S64x12_S64x128_d1 (by rfl) b k

/-- Row 12 of the table, as the body composes it. -/
theorem k1_row12 (x0 : Vec Ideal S64x128 .f32) (x1 x2 x3 x4 : Vec Ideal S128 .f32) (b : Fin 64) (k : Fin 128) :
    (k1_pay19 (k1_pay3 x0 x1 x2 x3 x4)) (ix2 b k) = stagRow (k1_pay3 x0 x1 x2 x3 x4) 12 (by decide) (by decide) b k :=
  k1_pay19_apply (k1_pay3 x0 x1 x2 x3 x4) b k

theorem k1_pay20_apply (v30 : FVec Ideal S64x128x128 .f32) (b : Fin 64) (k : Fin 128) :
    k1_pay20 v30 (ix2 b k) = stagRow v30 13 (by decide) (by decide) b k :=
  stagRow_of_tailHead 13 (by decide) (by decide) v30 slices_S64x128x128_o0_12_13_S64x1x115 shapeCasts_S64x1x115_S64x115 slices_S64x128x128_o0_13_0_S64x1x13 shapeCasts_S64x1x13_S64x13 concatenates_S64x115_S64x13_S64x128_d1 (by rfl) b k

/-- Row 13 of the table, as the body composes it. -/
theorem k1_row13 (x0 : Vec Ideal S64x128 .f32) (x1 x2 x3 x4 : Vec Ideal S128 .f32) (b : Fin 64) (k : Fin 128) :
    (k1_pay20 (k1_pay3 x0 x1 x2 x3 x4)) (ix2 b k) = stagRow (k1_pay3 x0 x1 x2 x3 x4) 13 (by decide) (by decide) b k :=
  k1_pay20_apply (k1_pay3 x0 x1 x2 x3 x4) b k

theorem k1_pay21_apply (v30 : FVec Ideal S64x128x128 .f32) (b : Fin 64) (k : Fin 128) :
    k1_pay21 v30 (ix2 b k) = stagRow v30 14 (by decide) (by decide) b k :=
  stagRow_of_tailHead 14 (by decide) (by decide) v30 slices_S64x128x128_o0_13_14_S64x1x114 shapeCasts_S64x1x114_S64x114 slices_S64x128x128_o0_14_0_S64x1x14 shapeCasts_S64x1x14_S64x14 concatenates_S64x114_S64x14_S64x128_d1 (by rfl) b k

/-- Row 14 of the table, as the body composes it. -/
theorem k1_row14 (x0 : Vec Ideal S64x128 .f32) (x1 x2 x3 x4 : Vec Ideal S128 .f32) (b : Fin 64) (k : Fin 128) :
    (k1_pay21 (k1_pay3 x0 x1 x2 x3 x4)) (ix2 b k) = stagRow (k1_pay3 x0 x1 x2 x3 x4) 14 (by decide) (by decide) b k :=
  k1_pay21_apply (k1_pay3 x0 x1 x2 x3 x4) b k

theorem k1_pay24_apply (rd : FVec Ideal S64x128x128 .f32) (v105 : FVec Ideal S64x113 .f32) (v106 : FVec Ideal S64x1x15 .f32) (b : Fin 64) (k : Fin 128)
    (hx1 : ∀ k' : Fin 113, v105 (ix2 b k') = rd (ix3 b ⟨14, by decide⟩ ⟨15 + k'.val, by have := k'.isLt; omega⟩))
    (hx2 : ∀ k' : Fin 15, v106 (ix3 b (0 : Fin 1) k') = rd (ix3 b ⟨15, by decide⟩ ⟨k'.val, by have := k'.isLt; omega⟩)) :
    k1_pay24 v105 v106 (ix2 b k) = stagRow rd 15 (by decide) (by decide) b k :=
  stagRow_of_givenGiven 15 (by decide) (by decide) rd v105 v106 shapeCasts_S64x1x15_S64x15 concatenates_S64x113_S64x15_S64x128_d1 (by rfl) b k hx1 hx2

theorem k1_pay22_apply (v30 : FVec Ideal S64x128x128 .f32) (b : Fin 64) (k : Fin 113) :
    k1_pay22 v30 (ix2 b k) = v30 (ix3 b ⟨14, by decide⟩ ⟨15 + k.val, by have := k.isLt; omega⟩) :=
  seg_apply 14 15 v30 slices_S64x128x128_o0_14_15_S64x1x113 shapeCasts_S64x1x113_S64x113 b k _ _ rfl rfl

theorem k1_pay23_apply (v30 : FVec Ideal S64x128x128 .f32) (b : Fin 64) (k : Fin 15) :
    k1_pay23 v30 (ix3 b (0 : Fin 1) k) = v30 (ix3 b ⟨15, by decide⟩ ⟨k.val, by have := k.isLt; omega⟩) :=
  sliceSeg_apply 15 0 v30 slices_S64x128x128_o0_15_0_S64x1x15 b 0 k _ _ rfl (Nat.zero_add _).symm

/-- Row 15 of the table, as the body composes it. -/
theorem k1_row15 (x0 : Vec Ideal S64x128 .f32) (x1 x2 x3 x4 : Vec Ideal S128 .f32) (b : Fin 64) (k : Fin 128) :
    (k1_pay24 (k1_pay22 (k1_pay3 x0 x1 x2 x3 x4)) (k1_pay23 (k1_pay3 x0 x1 x2 x3 x4))) (ix2 b k) = stagRow (k1_pay3 x0 x1 x2 x3 x4) 15 (by decide) (by decide) b k :=
  k1_pay24_apply (k1_pay3 x0 x1 x2 x3 x4) (k1_pay22 (k1_pay3 x0 x1 x2 x3 x4)) (k1_pay23 (k1_pay3 x0 x1 x2 x3 x4)) b k (fun k' => k1_pay22_apply (k1_pay3 x0 x1 x2 x3 x4) b k') (fun k' => k1_pay23_apply (k1_pay3 x0 x1 x2 x3 x4) b k')

theorem k1_pay25_apply (v30 : FVec Ideal S64x128x128 .f32) (b : Fin 64) (k : Fin 128) :
    k1_pay25 v30 (ix2 b k) = stagRow v30 16 (by decide) (by decide) b k :=
  stagRow_of_tailHead 16 (by decide) (by decide) v30 slices_S64x128x128_o0_15_16_S64x1x112 shapeCasts_S64x1x112_S64x112 slices_S64x128x128_o0_16_0_S64x1x16 shapeCasts_S64x1x16_S64x16 concatenates_S64x112_S64x16_S64x128_d1 (by rfl) b k

/-- Row 16 of the table, as the body composes it. -/
theorem k1_row16 (x0 : Vec Ideal S64x128 .f32) (x1 x2 x3 x4 : Vec Ideal S128 .f32) (b : Fin 64) (k : Fin 128) :
    (k1_pay25 (k1_pay3 x0 x1 x2 x3 x4)) (ix2 b k) = stagRow (k1_pay3 x0 x1 x2 x3 x4) 16 (by decide) (by decide) b k :=
  k1_pay25_apply (k1_pay3 x0 x1 x2 x3 x4) b k

theorem k1_pay26_apply (v30 : FVec Ideal S64x128x128 .f32) (b : Fin 64) (k : Fin 128) :
    k1_pay26 v30 (ix2 b k) = stagRow v30 17 (by decide) (by decide) b k :=
  stagRow_of_tailHead 17 (by decide) (by decide) v30 slices_S64x128x128_o0_16_17_S64x1x111 shapeCasts_S64x1x111_S64x111 slices_S64x128x128_o0_17_0_S64x1x17 shapeCasts_S64x1x17_S64x17 concatenates_S64x111_S64x17_S64x128_d1 (by rfl) b k

/-- Row 17 of the table, as the body composes it. -/
theorem k1_row17 (x0 : Vec Ideal S64x128 .f32) (x1 x2 x3 x4 : Vec Ideal S128 .f32) (b : Fin 64) (k : Fin 128) :
    (k1_pay26 (k1_pay3 x0 x1 x2 x3 x4)) (ix2 b k) = stagRow (k1_pay3 x0 x1 x2 x3 x4) 17 (by decide) (by decide) b k :=
  k1_pay26_apply (k1_pay3 x0 x1 x2 x3 x4) b k

theorem k1_pay27_apply (v30 : FVec Ideal S64x128x128 .f32) (b : Fin 64) (k : Fin 128) :
    k1_pay27 v30 (ix2 b k) = stagRow v30 18 (by decide) (by decide) b k :=
  stagRow_of_tailHead 18 (by decide) (by decide) v30 slices_S64x128x128_o0_17_18_S64x1x110 shapeCasts_S64x1x110_S64x110 slices_S64x128x128_o0_18_0_S64x1x18 shapeCasts_S64x1x18_S64x18 concatenates_S64x110_S64x18_S64x128_d1 (by rfl) b k

/-- Row 18 of the table, as the body composes it. -/
theorem k1_row18 (x0 : Vec Ideal S64x128 .f32) (x1 x2 x3 x4 : Vec Ideal S128 .f32) (b : Fin 64) (k : Fin 128) :
    (k1_pay27 (k1_pay3 x0 x1 x2 x3 x4)) (ix2 b k) = stagRow (k1_pay3 x0 x1 x2 x3 x4) 18 (by decide) (by decide) b k :=
  k1_pay27_apply (k1_pay3 x0 x1 x2 x3 x4) b k

theorem k1_pay28_apply (v30 : FVec Ideal S64x128x128 .f32) (b : Fin 64) (k : Fin 128) :
    k1_pay28 v30 (ix2 b k) = stagRow v30 19 (by decide) (by decide) b k :=
  stagRow_of_tailHead 19 (by decide) (by decide) v30 slices_S64x128x128_o0_18_19_S64x1x109 shapeCasts_S64x1x109_S64x109 slices_S64x128x128_o0_19_0_S64x1x19 shapeCasts_S64x1x19_S64x19 concatenates_S64x109_S64x19_S64x128_d1 (by rfl) b k

/-- Row 19 of the table, as the body composes it. -/
theorem k1_row19 (x0 : Vec Ideal S64x128 .f32) (x1 x2 x3 x4 : Vec Ideal S128 .f32) (b : Fin 64) (k : Fin 128) :
    (k1_pay28 (k1_pay3 x0 x1 x2 x3 x4)) (ix2 b k) = stagRow (k1_pay3 x0 x1 x2 x3 x4) 19 (by decide) (by decide) b k :=
  k1_pay28_apply (k1_pay3 x0 x1 x2 x3 x4) b k

theorem k1_pay29_apply (v30 : FVec Ideal S64x128x128 .f32) (b : Fin 64) (k : Fin 128) :
    k1_pay29 v30 (ix2 b k) = stagRow v30 20 (by decide) (by decide) b k :=
  stagRow_of_tailHead 20 (by decide) (by decide) v30 slices_S64x128x128_o0_19_20_S64x1x108 shapeCasts_S64x1x108_S64x108 slices_S64x128x128_o0_20_0_S64x1x20 shapeCasts_S64x1x20_S64x20 concatenates_S64x108_S64x20_S64x128_d1 (by rfl) b k

/-- Row 20 of the table, as the body composes it. -/
theorem k1_row20 (x0 : Vec Ideal S64x128 .f32) (x1 x2 x3 x4 : Vec Ideal S128 .f32) (b : Fin 64) (k : Fin 128) :
    (k1_pay29 (k1_pay3 x0 x1 x2 x3 x4)) (ix2 b k) = stagRow (k1_pay3 x0 x1 x2 x3 x4) 20 (by decide) (by decide) b k :=
  k1_pay29_apply (k1_pay3 x0 x1 x2 x3 x4) b k

theorem k1_pay30_apply (v30 : FVec Ideal S64x128x128 .f32) (b : Fin 64) (k : Fin 128) :
    k1_pay30 v30 (ix2 b k) = stagRow v30 21 (by decide) (by decide) b k :=
  stagRow_of_tailHead 21 (by decide) (by decide) v30 slices_S64x128x128_o0_20_21_S64x1x107 shapeCasts_S64x1x107_S64x107 slices_S64x128x128_o0_21_0_S64x1x21 shapeCasts_S64x1x21_S64x21 concatenates_S64x107_S64x21_S64x128_d1 (by rfl) b k

/-- Row 21 of the table, as the body composes it. -/
theorem k1_row21 (x0 : Vec Ideal S64x128 .f32) (x1 x2 x3 x4 : Vec Ideal S128 .f32) (b : Fin 64) (k : Fin 128) :
    (k1_pay30 (k1_pay3 x0 x1 x2 x3 x4)) (ix2 b k) = stagRow (k1_pay3 x0 x1 x2 x3 x4) 21 (by decide) (by decide) b k :=
  k1_pay30_apply (k1_pay3 x0 x1 x2 x3 x4) b k

theorem k1_pay31_apply (v30 : FVec Ideal S64x128x128 .f32) (b : Fin 64) (k : Fin 128) :
    k1_pay31 v30 (ix2 b k) = stagRow v30 22 (by decide) (by decide) b k :=
  stagRow_of_tailHead 22 (by decide) (by decide) v30 slices_S64x128x128_o0_21_22_S64x1x106 shapeCasts_S64x1x106_S64x106 slices_S64x128x128_o0_22_0_S64x1x22 shapeCasts_S64x1x22_S64x22 concatenates_S64x106_S64x22_S64x128_d1 (by rfl) b k

/-- Row 22 of the table, as the body composes it. -/
theorem k1_row22 (x0 : Vec Ideal S64x128 .f32) (x1 x2 x3 x4 : Vec Ideal S128 .f32) (b : Fin 64) (k : Fin 128) :
    (k1_pay31 (k1_pay3 x0 x1 x2 x3 x4)) (ix2 b k) = stagRow (k1_pay3 x0 x1 x2 x3 x4) 22 (by decide) (by decide) b k :=
  k1_pay31_apply (k1_pay3 x0 x1 x2 x3 x4) b k

theorem k1_pay32_apply (v30 : FVec Ideal S64x128x128 .f32) (b : Fin 64) (k : Fin 128) :
    k1_pay32 v30 (ix2 b k) = stagRow v30 23 (by decide) (by decide) b k :=
  stagRow_of_tailHead 23 (by decide) (by decide) v30 slices_S64x128x128_o0_22_23_S64x1x105 shapeCasts_S64x1x105_S64x105 slices_S64x128x128_o0_23_0_S64x1x23 shapeCasts_S64x1x23_S64x23 concatenates_S64x105_S64x23_S64x128_d1 (by rfl) b k

/-- Row 23 of the table, as the body composes it. -/
theorem k1_row23 (x0 : Vec Ideal S64x128 .f32) (x1 x2 x3 x4 : Vec Ideal S128 .f32) (b : Fin 64) (k : Fin 128) :
    (k1_pay32 (k1_pay3 x0 x1 x2 x3 x4)) (ix2 b k) = stagRow (k1_pay3 x0 x1 x2 x3 x4) 23 (by decide) (by decide) b k :=
  k1_pay32_apply (k1_pay3 x0 x1 x2 x3 x4) b k

theorem k1_pay33_apply (v30 : FVec Ideal S64x128x128 .f32) (b : Fin 64) (k : Fin 128) :
    k1_pay33 v30 (ix2 b k) = stagRow v30 24 (by decide) (by decide) b k :=
  stagRow_of_tailHead 24 (by decide) (by decide) v30 slices_S64x128x128_o0_23_24_S64x1x104 shapeCasts_S64x1x104_S64x104 slices_S64x128x128_o0_24_0_S64x1x24 shapeCasts_S64x1x24_S64x24 concatenates_S64x104_S64x24_S64x128_d1 (by rfl) b k

/-- Row 24 of the table, as the body composes it. -/
theorem k1_row24 (x0 : Vec Ideal S64x128 .f32) (x1 x2 x3 x4 : Vec Ideal S128 .f32) (b : Fin 64) (k : Fin 128) :
    (k1_pay33 (k1_pay3 x0 x1 x2 x3 x4)) (ix2 b k) = stagRow (k1_pay3 x0 x1 x2 x3 x4) 24 (by decide) (by decide) b k :=
  k1_pay33_apply (k1_pay3 x0 x1 x2 x3 x4) b k

theorem k1_pay34_apply (v30 : FVec Ideal S64x128x128 .f32) (b : Fin 64) (k : Fin 128) :
    k1_pay34 v30 (ix2 b k) = stagRow v30 25 (by decide) (by decide) b k :=
  stagRow_of_tailHead 25 (by decide) (by decide) v30 slices_S64x128x128_o0_24_25_S64x1x103 shapeCasts_S64x1x103_S64x103 slices_S64x128x128_o0_25_0_S64x1x25 shapeCasts_S64x1x25_S64x25 concatenates_S64x103_S64x25_S64x128_d1 (by rfl) b k

/-- Row 25 of the table, as the body composes it. -/
theorem k1_row25 (x0 : Vec Ideal S64x128 .f32) (x1 x2 x3 x4 : Vec Ideal S128 .f32) (b : Fin 64) (k : Fin 128) :
    (k1_pay34 (k1_pay3 x0 x1 x2 x3 x4)) (ix2 b k) = stagRow (k1_pay3 x0 x1 x2 x3 x4) 25 (by decide) (by decide) b k :=
  k1_pay34_apply (k1_pay3 x0 x1 x2 x3 x4) b k

theorem k1_pay35_apply (v30 : FVec Ideal S64x128x128 .f32) (b : Fin 64) (k : Fin 128) :
    k1_pay35 v30 (ix2 b k) = stagRow v30 26 (by decide) (by decide) b k :=
  stagRow_of_tailHead 26 (by decide) (by decide) v30 slices_S64x128x128_o0_25_26_S64x1x102 shapeCasts_S64x1x102_S64x102 slices_S64x128x128_o0_26_0_S64x1x26 shapeCasts_S64x1x26_S64x26 concatenates_S64x102_S64x26_S64x128_d1 (by rfl) b k

/-- Row 26 of the table, as the body composes it. -/
theorem k1_row26 (x0 : Vec Ideal S64x128 .f32) (x1 x2 x3 x4 : Vec Ideal S128 .f32) (b : Fin 64) (k : Fin 128) :
    (k1_pay35 (k1_pay3 x0 x1 x2 x3 x4)) (ix2 b k) = stagRow (k1_pay3 x0 x1 x2 x3 x4) 26 (by decide) (by decide) b k :=
  k1_pay35_apply (k1_pay3 x0 x1 x2 x3 x4) b k

theorem k1_pay38_apply (rd : FVec Ideal S64x128x128 .f32) (v165 : FVec Ideal S64x101 .f32) (v166 : FVec Ideal S64x1x27 .f32) (b : Fin 64) (k : Fin 128)
    (hx1 : ∀ k' : Fin 101, v165 (ix2 b k') = rd (ix3 b ⟨26, by decide⟩ ⟨27 + k'.val, by have := k'.isLt; omega⟩))
    (hx2 : ∀ k' : Fin 27, v166 (ix3 b (0 : Fin 1) k') = rd (ix3 b ⟨27, by decide⟩ ⟨k'.val, by have := k'.isLt; omega⟩)) :
    k1_pay38 v165 v166 (ix2 b k) = stagRow rd 27 (by decide) (by decide) b k :=
  stagRow_of_givenGiven 27 (by decide) (by decide) rd v165 v166 shapeCasts_S64x1x27_S64x27 concatenates_S64x101_S64x27_S64x128_d1 (by rfl) b k hx1 hx2

theorem k1_pay36_apply (v30 : FVec Ideal S64x128x128 .f32) (b : Fin 64) (k : Fin 101) :
    k1_pay36 v30 (ix2 b k) = v30 (ix3 b ⟨26, by decide⟩ ⟨27 + k.val, by have := k.isLt; omega⟩) :=
  seg_apply 26 27 v30 slices_S64x128x128_o0_26_27_S64x1x101 shapeCasts_S64x1x101_S64x101 b k _ _ rfl rfl

theorem k1_pay37_apply (v30 : FVec Ideal S64x128x128 .f32) (b : Fin 64) (k : Fin 27) :
    k1_pay37 v30 (ix3 b (0 : Fin 1) k) = v30 (ix3 b ⟨27, by decide⟩ ⟨k.val, by have := k.isLt; omega⟩) :=
  sliceSeg_apply 27 0 v30 slices_S64x128x128_o0_27_0_S64x1x27 b 0 k _ _ rfl (Nat.zero_add _).symm

/-- Row 27 of the table, as the body composes it. -/
theorem k1_row27 (x0 : Vec Ideal S64x128 .f32) (x1 x2 x3 x4 : Vec Ideal S128 .f32) (b : Fin 64) (k : Fin 128) :
    (k1_pay38 (k1_pay36 (k1_pay3 x0 x1 x2 x3 x4)) (k1_pay37 (k1_pay3 x0 x1 x2 x3 x4))) (ix2 b k) = stagRow (k1_pay3 x0 x1 x2 x3 x4) 27 (by decide) (by decide) b k :=
  k1_pay38_apply (k1_pay3 x0 x1 x2 x3 x4) (k1_pay36 (k1_pay3 x0 x1 x2 x3 x4)) (k1_pay37 (k1_pay3 x0 x1 x2 x3 x4)) b k (fun k' => k1_pay36_apply (k1_pay3 x0 x1 x2 x3 x4) b k') (fun k' => k1_pay37_apply (k1_pay3 x0 x1 x2 x3 x4) b k')

theorem k1_pay39_apply (v30 : FVec Ideal S64x128x128 .f32) (b : Fin 64) (k : Fin 128) :
    k1_pay39 v30 (ix2 b k) = stagRow v30 28 (by decide) (by decide) b k :=
  stagRow_of_tailHead 28 (by decide) (by decide) v30 slices_S64x128x128_o0_27_28_S64x1x100 shapeCasts_S64x1x100_S64x100 slices_S64x128x128_o0_28_0_S64x1x28 shapeCasts_S64x1x28_S64x28 concatenates_S64x100_S64x28_S64x128_d1 (by rfl) b k

/-- Row 28 of the table, as the body composes it. -/
theorem k1_row28 (x0 : Vec Ideal S64x128 .f32) (x1 x2 x3 x4 : Vec Ideal S128 .f32) (b : Fin 64) (k : Fin 128) :
    (k1_pay39 (k1_pay3 x0 x1 x2 x3 x4)) (ix2 b k) = stagRow (k1_pay3 x0 x1 x2 x3 x4) 28 (by decide) (by decide) b k :=
  k1_pay39_apply (k1_pay3 x0 x1 x2 x3 x4) b k

theorem k1_pay40_apply (v30 : FVec Ideal S64x128x128 .f32) (b : Fin 64) (k : Fin 128) :
    k1_pay40 v30 (ix2 b k) = stagRow v30 29 (by decide) (by decide) b k :=
  stagRow_of_tailHead 29 (by decide) (by decide) v30 slices_S64x128x128_o0_28_29_S64x1x99 shapeCasts_S64x1x99_S64x99 slices_S64x128x128_o0_29_0_S64x1x29 shapeCasts_S64x1x29_S64x29 concatenates_S64x99_S64x29_S64x128_d1 (by rfl) b k

/-- Row 29 of the table, as the body composes it. -/
theorem k1_row29 (x0 : Vec Ideal S64x128 .f32) (x1 x2 x3 x4 : Vec Ideal S128 .f32) (b : Fin 64) (k : Fin 128) :
    (k1_pay40 (k1_pay3 x0 x1 x2 x3 x4)) (ix2 b k) = stagRow (k1_pay3 x0 x1 x2 x3 x4) 29 (by decide) (by decide) b k :=
  k1_pay40_apply (k1_pay3 x0 x1 x2 x3 x4) b k

theorem k1_pay41_apply (v30 : FVec Ideal S64x128x128 .f32) (b : Fin 64) (k : Fin 128) :
    k1_pay41 v30 (ix2 b k) = stagRow v30 30 (by decide) (by decide) b k :=
  stagRow_of_tailHead 30 (by decide) (by decide) v30 slices_S64x128x128_o0_29_30_S64x1x98 shapeCasts_S64x1x98_S64x98 slices_S64x128x128_o0_30_0_S64x1x30 shapeCasts_S64x1x30_S64x30 concatenates_S64x98_S64x30_S64x128_d1 (by rfl) b k

/-- Row 30 of the table, as the body composes it. -/
theorem k1_row30 (x0 : Vec Ideal S64x128 .f32) (x1 x2 x3 x4 : Vec Ideal S128 .f32) (b : Fin 64) (k : Fin 128) :
    (k1_pay41 (k1_pay3 x0 x1 x2 x3 x4)) (ix2 b k) = stagRow (k1_pay3 x0 x1 x2 x3 x4) 30 (by decide) (by decide) b k :=
  k1_pay41_apply (k1_pay3 x0 x1 x2 x3 x4) b k

theorem k1_pay42_apply (v30 : FVec Ideal S64x128x128 .f32) (b : Fin 64) (k : Fin 128) :
    k1_pay42 v30 (ix2 b k) = stagRow v30 31 (by decide) (by decide) b k :=
  stagRow_of_tailHead 31 (by decide) (by decide) v30 slices_S64x128x128_o0_30_31_S64x1x97 shapeCasts_S64x1x97_S64x97 slices_S64x128x128_o0_31_0_S64x1x31 shapeCasts_S64x1x31_S64x31 concatenates_S64x97_S64x31_S64x128_d1 (by rfl) b k

/-- Row 31 of the table, as the body composes it. -/
theorem k1_row31 (x0 : Vec Ideal S64x128 .f32) (x1 x2 x3 x4 : Vec Ideal S128 .f32) (b : Fin 64) (k : Fin 128) :
    (k1_pay42 (k1_pay3 x0 x1 x2 x3 x4)) (ix2 b k) = stagRow (k1_pay3 x0 x1 x2 x3 x4) 31 (by decide) (by decide) b k :=
  k1_pay42_apply (k1_pay3 x0 x1 x2 x3 x4) b k

theorem k1_pay43_apply (v30 : FVec Ideal S64x128x128 .f32) (b : Fin 64) (k : Fin 128) :
    k1_pay43 v30 (ix2 b k) = stagRow v30 32 (by decide) (by decide) b k :=
  stagRow_of_tailHead 32 (by decide) (by decide) v30 slices_S64x128x128_o0_31_32_S64x1x96 shapeCasts_S64x1x96_S64x96 slices_S64x128x128_o0_32_0_S64x1x32 shapeCasts_S64x1x32_S64x32 concatenates_S64x96_S64x32_S64x128_d1 (by rfl) b k

/-- Row 32 of the table, as the body composes it. -/
theorem k1_row32 (x0 : Vec Ideal S64x128 .f32) (x1 x2 x3 x4 : Vec Ideal S128 .f32) (b : Fin 64) (k : Fin 128) :
    (k1_pay43 (k1_pay3 x0 x1 x2 x3 x4)) (ix2 b k) = stagRow (k1_pay3 x0 x1 x2 x3 x4) 32 (by decide) (by decide) b k :=
  k1_pay43_apply (k1_pay3 x0 x1 x2 x3 x4) b k

theorem k1_pay44_apply (v30 : FVec Ideal S64x128x128 .f32) (b : Fin 64) (k : Fin 128) :
    k1_pay44 v30 (ix2 b k) = stagRow v30 33 (by decide) (by decide) b k :=
  stagRow_of_tailHead 33 (by decide) (by decide) v30 slices_S64x128x128_o0_32_33_S64x1x95 shapeCasts_S64x1x95_S64x95 slices_S64x128x128_o0_33_0_S64x1x33 shapeCasts_S64x1x33_S64x33 concatenates_S64x95_S64x33_S64x128_d1 (by rfl) b k

/-- Row 33 of the table, as the body composes it. -/
theorem k1_row33 (x0 : Vec Ideal S64x128 .f32) (x1 x2 x3 x4 : Vec Ideal S128 .f32) (b : Fin 64) (k : Fin 128) :
    (k1_pay44 (k1_pay3 x0 x1 x2 x3 x4)) (ix2 b k) = stagRow (k1_pay3 x0 x1 x2 x3 x4) 33 (by decide) (by decide) b k :=
  k1_pay44_apply (k1_pay3 x0 x1 x2 x3 x4) b k

theorem k1_pay45_apply (v30 : FVec Ideal S64x128x128 .f32) (b : Fin 64) (k : Fin 128) :
    k1_pay45 v30 (ix2 b k) = stagRow v30 34 (by decide) (by decide) b k :=
  stagRow_of_tailHead 34 (by decide) (by decide) v30 slices_S64x128x128_o0_33_34_S64x1x94 shapeCasts_S64x1x94_S64x94 slices_S64x128x128_o0_34_0_S64x1x34 shapeCasts_S64x1x34_S64x34 concatenates_S64x94_S64x34_S64x128_d1 (by rfl) b k

/-- Row 34 of the table, as the body composes it. -/
theorem k1_row34 (x0 : Vec Ideal S64x128 .f32) (x1 x2 x3 x4 : Vec Ideal S128 .f32) (b : Fin 64) (k : Fin 128) :
    (k1_pay45 (k1_pay3 x0 x1 x2 x3 x4)) (ix2 b k) = stagRow (k1_pay3 x0 x1 x2 x3 x4) 34 (by decide) (by decide) b k :=
  k1_pay45_apply (k1_pay3 x0 x1 x2 x3 x4) b k

theorem k1_pay46_apply (v30 : FVec Ideal S64x128x128 .f32) (b : Fin 64) (k : Fin 128) :
    k1_pay46 v30 (ix2 b k) = stagRow v30 35 (by decide) (by decide) b k :=
  stagRow_of_tailHead 35 (by decide) (by decide) v30 slices_S64x128x128_o0_34_35_S64x1x93 shapeCasts_S64x1x93_S64x93 slices_S64x128x128_o0_35_0_S64x1x35 shapeCasts_S64x1x35_S64x35 concatenates_S64x93_S64x35_S64x128_d1 (by rfl) b k

/-- Row 35 of the table, as the body composes it. -/
theorem k1_row35 (x0 : Vec Ideal S64x128 .f32) (x1 x2 x3 x4 : Vec Ideal S128 .f32) (b : Fin 64) (k : Fin 128) :
    (k1_pay46 (k1_pay3 x0 x1 x2 x3 x4)) (ix2 b k) = stagRow (k1_pay3 x0 x1 x2 x3 x4) 35 (by decide) (by decide) b k :=
  k1_pay46_apply (k1_pay3 x0 x1 x2 x3 x4) b k

theorem k1_pay47_apply (v30 : FVec Ideal S64x128x128 .f32) (b : Fin 64) (k : Fin 128) :
    k1_pay47 v30 (ix2 b k) = stagRow v30 36 (by decide) (by decide) b k :=
  stagRow_of_tailHead 36 (by decide) (by decide) v30 slices_S64x128x128_o0_35_36_S64x1x92 shapeCasts_S64x1x92_S64x92 slices_S64x128x128_o0_36_0_S64x1x36 shapeCasts_S64x1x36_S64x36 concatenates_S64x92_S64x36_S64x128_d1 (by rfl) b k

/-- Row 36 of the table, as the body composes it. -/
theorem k1_row36 (x0 : Vec Ideal S64x128 .f32) (x1 x2 x3 x4 : Vec Ideal S128 .f32) (b : Fin 64) (k : Fin 128) :
    (k1_pay47 (k1_pay3 x0 x1 x2 x3 x4)) (ix2 b k) = stagRow (k1_pay3 x0 x1 x2 x3 x4) 36 (by decide) (by decide) b k :=
  k1_pay47_apply (k1_pay3 x0 x1 x2 x3 x4) b k

theorem k1_pay48_apply (v30 : FVec Ideal S64x128x128 .f32) (b : Fin 64) (k : Fin 128) :
    k1_pay48 v30 (ix2 b k) = stagRow v30 37 (by decide) (by decide) b k :=
  stagRow_of_tailHead 37 (by decide) (by decide) v30 slices_S64x128x128_o0_36_37_S64x1x91 shapeCasts_S64x1x91_S64x91 slices_S64x128x128_o0_37_0_S64x1x37 shapeCasts_S64x1x37_S64x37 concatenates_S64x91_S64x37_S64x128_d1 (by rfl) b k

/-- Row 37 of the table, as the body composes it. -/
theorem k1_row37 (x0 : Vec Ideal S64x128 .f32) (x1 x2 x3 x4 : Vec Ideal S128 .f32) (b : Fin 64) (k : Fin 128) :
    (k1_pay48 (k1_pay3 x0 x1 x2 x3 x4)) (ix2 b k) = stagRow (k1_pay3 x0 x1 x2 x3 x4) 37 (by decide) (by decide) b k :=
  k1_pay48_apply (k1_pay3 x0 x1 x2 x3 x4) b k

theorem k1_pay49_apply (v30 : FVec Ideal S64x128x128 .f32) (b : Fin 64) (k : Fin 128) :
    k1_pay49 v30 (ix2 b k) = stagRow v30 38 (by decide) (by decide) b k :=
  stagRow_of_tailHead 38 (by decide) (by decide) v30 slices_S64x128x128_o0_37_38_S64x1x90 shapeCasts_S64x1x90_S64x90 slices_S64x128x128_o0_38_0_S64x1x38 shapeCasts_S64x1x38_S64x38 concatenates_S64x90_S64x38_S64x128_d1 (by rfl) b k

/-- Row 38 of the table, as the body composes it. -/
theorem k1_row38 (x0 : Vec Ideal S64x128 .f32) (x1 x2 x3 x4 : Vec Ideal S128 .f32) (b : Fin 64) (k : Fin 128) :
    (k1_pay49 (k1_pay3 x0 x1 x2 x3 x4)) (ix2 b k) = stagRow (k1_pay3 x0 x1 x2 x3 x4) 38 (by decide) (by decide) b k :=
  k1_pay49_apply (k1_pay3 x0 x1 x2 x3 x4) b k

theorem k1_pay52_apply (rd : FVec Ideal S64x128x128 .f32) (v225 : FVec Ideal S64x89 .f32) (v226 : FVec Ideal S64x1x39 .f32) (b : Fin 64) (k : Fin 128)
    (hx1 : ∀ k' : Fin 89, v225 (ix2 b k') = rd (ix3 b ⟨38, by decide⟩ ⟨39 + k'.val, by have := k'.isLt; omega⟩))
    (hx2 : ∀ k' : Fin 39, v226 (ix3 b (0 : Fin 1) k') = rd (ix3 b ⟨39, by decide⟩ ⟨k'.val, by have := k'.isLt; omega⟩)) :
    k1_pay52 v225 v226 (ix2 b k) = stagRow rd 39 (by decide) (by decide) b k :=
  stagRow_of_givenGiven 39 (by decide) (by decide) rd v225 v226 shapeCasts_S64x1x39_S64x39 concatenates_S64x89_S64x39_S64x128_d1 (by rfl) b k hx1 hx2

theorem k1_pay50_apply (v30 : FVec Ideal S64x128x128 .f32) (b : Fin 64) (k : Fin 89) :
    k1_pay50 v30 (ix2 b k) = v30 (ix3 b ⟨38, by decide⟩ ⟨39 + k.val, by have := k.isLt; omega⟩) :=
  seg_apply 38 39 v30 slices_S64x128x128_o0_38_39_S64x1x89 shapeCasts_S64x1x89_S64x89 b k _ _ rfl rfl

theorem k1_pay51_apply (v30 : FVec Ideal S64x128x128 .f32) (b : Fin 64) (k : Fin 39) :
    k1_pay51 v30 (ix3 b (0 : Fin 1) k) = v30 (ix3 b ⟨39, by decide⟩ ⟨k.val, by have := k.isLt; omega⟩) :=
  sliceSeg_apply 39 0 v30 slices_S64x128x128_o0_39_0_S64x1x39 b 0 k _ _ rfl (Nat.zero_add _).symm

/-- Row 39 of the table, as the body composes it. -/
theorem k1_row39 (x0 : Vec Ideal S64x128 .f32) (x1 x2 x3 x4 : Vec Ideal S128 .f32) (b : Fin 64) (k : Fin 128) :
    (k1_pay52 (k1_pay50 (k1_pay3 x0 x1 x2 x3 x4)) (k1_pay51 (k1_pay3 x0 x1 x2 x3 x4))) (ix2 b k) = stagRow (k1_pay3 x0 x1 x2 x3 x4) 39 (by decide) (by decide) b k :=
  k1_pay52_apply (k1_pay3 x0 x1 x2 x3 x4) (k1_pay50 (k1_pay3 x0 x1 x2 x3 x4)) (k1_pay51 (k1_pay3 x0 x1 x2 x3 x4)) b k (fun k' => k1_pay50_apply (k1_pay3 x0 x1 x2 x3 x4) b k') (fun k' => k1_pay51_apply (k1_pay3 x0 x1 x2 x3 x4) b k')

theorem k1_pay53_apply (v30 : FVec Ideal S64x128x128 .f32) (b : Fin 64) (k : Fin 128) :
    k1_pay53 v30 (ix2 b k) = stagRow v30 40 (by decide) (by decide) b k :=
  stagRow_of_tailHead 40 (by decide) (by decide) v30 slices_S64x128x128_o0_39_40_S64x1x88 shapeCasts_S64x1x88_S64x88 slices_S64x128x128_o0_40_0_S64x1x40 shapeCasts_S64x1x40_S64x40 concatenates_S64x88_S64x40_S64x128_d1 (by rfl) b k

/-- Row 40 of the table, as the body composes it. -/
theorem k1_row40 (x0 : Vec Ideal S64x128 .f32) (x1 x2 x3 x4 : Vec Ideal S128 .f32) (b : Fin 64) (k : Fin 128) :
    (k1_pay53 (k1_pay3 x0 x1 x2 x3 x4)) (ix2 b k) = stagRow (k1_pay3 x0 x1 x2 x3 x4) 40 (by decide) (by decide) b k :=
  k1_pay53_apply (k1_pay3 x0 x1 x2 x3 x4) b k

theorem k1_pay54_apply (v30 : FVec Ideal S64x128x128 .f32) (b : Fin 64) (k : Fin 128) :
    k1_pay54 v30 (ix2 b k) = stagRow v30 41 (by decide) (by decide) b k :=
  stagRow_of_tailHead 41 (by decide) (by decide) v30 slices_S64x128x128_o0_40_41_S64x1x87 shapeCasts_S64x1x87_S64x87 slices_S64x128x128_o0_41_0_S64x1x41 shapeCasts_S64x1x41_S64x41 concatenates_S64x87_S64x41_S64x128_d1 (by rfl) b k

/-- Row 41 of the table, as the body composes it. -/
theorem k1_row41 (x0 : Vec Ideal S64x128 .f32) (x1 x2 x3 x4 : Vec Ideal S128 .f32) (b : Fin 64) (k : Fin 128) :
    (k1_pay54 (k1_pay3 x0 x1 x2 x3 x4)) (ix2 b k) = stagRow (k1_pay3 x0 x1 x2 x3 x4) 41 (by decide) (by decide) b k :=
  k1_pay54_apply (k1_pay3 x0 x1 x2 x3 x4) b k

theorem k1_pay55_apply (v30 : FVec Ideal S64x128x128 .f32) (b : Fin 64) (k : Fin 128) :
    k1_pay55 v30 (ix2 b k) = stagRow v30 42 (by decide) (by decide) b k :=
  stagRow_of_tailHead 42 (by decide) (by decide) v30 slices_S64x128x128_o0_41_42_S64x1x86 shapeCasts_S64x1x86_S64x86 slices_S64x128x128_o0_42_0_S64x1x42 shapeCasts_S64x1x42_S64x42 concatenates_S64x86_S64x42_S64x128_d1 (by rfl) b k

/-- Row 42 of the table, as the body composes it. -/
theorem k1_row42 (x0 : Vec Ideal S64x128 .f32) (x1 x2 x3 x4 : Vec Ideal S128 .f32) (b : Fin 64) (k : Fin 128) :
    (k1_pay55 (k1_pay3 x0 x1 x2 x3 x4)) (ix2 b k) = stagRow (k1_pay3 x0 x1 x2 x3 x4) 42 (by decide) (by decide) b k :=
  k1_pay55_apply (k1_pay3 x0 x1 x2 x3 x4) b k

theorem k1_pay56_apply (v30 : FVec Ideal S64x128x128 .f32) (b : Fin 64) (k : Fin 128) :
    k1_pay56 v30 (ix2 b k) = stagRow v30 43 (by decide) (by decide) b k :=
  stagRow_of_tailHead 43 (by decide) (by decide) v30 slices_S64x128x128_o0_42_43_S64x1x85 shapeCasts_S64x1x85_S64x85 slices_S64x128x128_o0_43_0_S64x1x43 shapeCasts_S64x1x43_S64x43 concatenates_S64x85_S64x43_S64x128_d1 (by rfl) b k

/-- Row 43 of the table, as the body composes it. -/
theorem k1_row43 (x0 : Vec Ideal S64x128 .f32) (x1 x2 x3 x4 : Vec Ideal S128 .f32) (b : Fin 64) (k : Fin 128) :
    (k1_pay56 (k1_pay3 x0 x1 x2 x3 x4)) (ix2 b k) = stagRow (k1_pay3 x0 x1 x2 x3 x4) 43 (by decide) (by decide) b k :=
  k1_pay56_apply (k1_pay3 x0 x1 x2 x3 x4) b k

theorem k1_pay57_apply (v30 : FVec Ideal S64x128x128 .f32) (b : Fin 64) (k : Fin 128) :
    k1_pay57 v30 (ix2 b k) = stagRow v30 44 (by decide) (by decide) b k :=
  stagRow_of_tailHead 44 (by decide) (by decide) v30 slices_S64x128x128_o0_43_44_S64x1x84 shapeCasts_S64x1x84_S64x84 slices_S64x128x128_o0_44_0_S64x1x44 shapeCasts_S64x1x44_S64x44 concatenates_S64x84_S64x44_S64x128_d1 (by rfl) b k

/-- Row 44 of the table, as the body composes it. -/
theorem k1_row44 (x0 : Vec Ideal S64x128 .f32) (x1 x2 x3 x4 : Vec Ideal S128 .f32) (b : Fin 64) (k : Fin 128) :
    (k1_pay57 (k1_pay3 x0 x1 x2 x3 x4)) (ix2 b k) = stagRow (k1_pay3 x0 x1 x2 x3 x4) 44 (by decide) (by decide) b k :=
  k1_pay57_apply (k1_pay3 x0 x1 x2 x3 x4) b k

theorem k1_pay58_apply (v30 : FVec Ideal S64x128x128 .f32) (b : Fin 64) (k : Fin 128) :
    k1_pay58 v30 (ix2 b k) = stagRow v30 45 (by decide) (by decide) b k :=
  stagRow_of_tailHead 45 (by decide) (by decide) v30 slices_S64x128x128_o0_44_45_S64x1x83 shapeCasts_S64x1x83_S64x83 slices_S64x128x128_o0_45_0_S64x1x45 shapeCasts_S64x1x45_S64x45 concatenates_S64x83_S64x45_S64x128_d1 (by rfl) b k

/-- Row 45 of the table, as the body composes it. -/
theorem k1_row45 (x0 : Vec Ideal S64x128 .f32) (x1 x2 x3 x4 : Vec Ideal S128 .f32) (b : Fin 64) (k : Fin 128) :
    (k1_pay58 (k1_pay3 x0 x1 x2 x3 x4)) (ix2 b k) = stagRow (k1_pay3 x0 x1 x2 x3 x4) 45 (by decide) (by decide) b k :=
  k1_pay58_apply (k1_pay3 x0 x1 x2 x3 x4) b k

theorem k1_pay59_apply (v30 : FVec Ideal S64x128x128 .f32) (b : Fin 64) (k : Fin 128) :
    k1_pay59 v30 (ix2 b k) = stagRow v30 46 (by decide) (by decide) b k :=
  stagRow_of_tailHead 46 (by decide) (by decide) v30 slices_S64x128x128_o0_45_46_S64x1x82 shapeCasts_S64x1x82_S64x82 slices_S64x128x128_o0_46_0_S64x1x46 shapeCasts_S64x1x46_S64x46 concatenates_S64x82_S64x46_S64x128_d1 (by rfl) b k

/-- Row 46 of the table, as the body composes it. -/
theorem k1_row46 (x0 : Vec Ideal S64x128 .f32) (x1 x2 x3 x4 : Vec Ideal S128 .f32) (b : Fin 64) (k : Fin 128) :
    (k1_pay59 (k1_pay3 x0 x1 x2 x3 x4)) (ix2 b k) = stagRow (k1_pay3 x0 x1 x2 x3 x4) 46 (by decide) (by decide) b k :=
  k1_pay59_apply (k1_pay3 x0 x1 x2 x3 x4) b k

theorem k1_pay60_apply (v30 : FVec Ideal S64x128x128 .f32) (b : Fin 64) (k : Fin 128) :
    k1_pay60 v30 (ix2 b k) = stagRow v30 47 (by decide) (by decide) b k :=
  stagRow_of_tailHead 47 (by decide) (by decide) v30 slices_S64x128x128_o0_46_47_S64x1x81 shapeCasts_S64x1x81_S64x81 slices_S64x128x128_o0_47_0_S64x1x47 shapeCasts_S64x1x47_S64x47 concatenates_S64x81_S64x47_S64x128_d1 (by rfl) b k

/-- Row 47 of the table, as the body composes it. -/
theorem k1_row47 (x0 : Vec Ideal S64x128 .f32) (x1 x2 x3 x4 : Vec Ideal S128 .f32) (b : Fin 64) (k : Fin 128) :
    (k1_pay60 (k1_pay3 x0 x1 x2 x3 x4)) (ix2 b k) = stagRow (k1_pay3 x0 x1 x2 x3 x4) 47 (by decide) (by decide) b k :=
  k1_pay60_apply (k1_pay3 x0 x1 x2 x3 x4) b k

theorem k1_pay61_apply (v30 : FVec Ideal S64x128x128 .f32) (b : Fin 64) (k : Fin 128) :
    k1_pay61 v30 (ix2 b k) = stagRow v30 48 (by decide) (by decide) b k :=
  stagRow_of_tailHead 48 (by decide) (by decide) v30 slices_S64x128x128_o0_47_48_S64x1x80 shapeCasts_S64x1x80_S64x80 slices_S64x128x128_o0_48_0_S64x1x48 shapeCasts_S64x1x48_S64x48 concatenates_S64x80_S64x48_S64x128_d1 (by rfl) b k

/-- Row 48 of the table, as the body composes it. -/
theorem k1_row48 (x0 : Vec Ideal S64x128 .f32) (x1 x2 x3 x4 : Vec Ideal S128 .f32) (b : Fin 64) (k : Fin 128) :
    (k1_pay61 (k1_pay3 x0 x1 x2 x3 x4)) (ix2 b k) = stagRow (k1_pay3 x0 x1 x2 x3 x4) 48 (by decide) (by decide) b k :=
  k1_pay61_apply (k1_pay3 x0 x1 x2 x3 x4) b k

theorem k1_pay62_apply (v30 : FVec Ideal S64x128x128 .f32) (b : Fin 64) (k : Fin 128) :
    k1_pay62 v30 (ix2 b k) = stagRow v30 49 (by decide) (by decide) b k :=
  stagRow_of_tailHead 49 (by decide) (by decide) v30 slices_S64x128x128_o0_48_49_S64x1x79 shapeCasts_S64x1x79_S64x79 slices_S64x128x128_o0_49_0_S64x1x49 shapeCasts_S64x1x49_S64x49 concatenates_S64x79_S64x49_S64x128_d1 (by rfl) b k

/-- Row 49 of the table, as the body composes it. -/
theorem k1_row49 (x0 : Vec Ideal S64x128 .f32) (x1 x2 x3 x4 : Vec Ideal S128 .f32) (b : Fin 64) (k : Fin 128) :
    (k1_pay62 (k1_pay3 x0 x1 x2 x3 x4)) (ix2 b k) = stagRow (k1_pay3 x0 x1 x2 x3 x4) 49 (by decide) (by decide) b k :=
  k1_pay62_apply (k1_pay3 x0 x1 x2 x3 x4) b k

theorem k1_pay63_apply (v30 : FVec Ideal S64x128x128 .f32) (b : Fin 64) (k : Fin 128) :
    k1_pay63 v30 (ix2 b k) = stagRow v30 50 (by decide) (by decide) b k :=
  stagRow_of_tailHead 50 (by decide) (by decide) v30 slices_S64x128x128_o0_49_50_S64x1x78 shapeCasts_S64x1x78_S64x78 slices_S64x128x128_o0_50_0_S64x1x50 shapeCasts_S64x1x50_S64x50 concatenates_S64x78_S64x50_S64x128_d1 (by rfl) b k

/-- Row 50 of the table, as the body composes it. -/
theorem k1_row50 (x0 : Vec Ideal S64x128 .f32) (x1 x2 x3 x4 : Vec Ideal S128 .f32) (b : Fin 64) (k : Fin 128) :
    (k1_pay63 (k1_pay3 x0 x1 x2 x3 x4)) (ix2 b k) = stagRow (k1_pay3 x0 x1 x2 x3 x4) 50 (by decide) (by decide) b k :=
  k1_pay63_apply (k1_pay3 x0 x1 x2 x3 x4) b k

theorem k1_pay66_apply (rd : FVec Ideal S64x128x128 .f32) (v285 : FVec Ideal S64x77 .f32) (v286 : FVec Ideal S64x1x51 .f32) (b : Fin 64) (k : Fin 128)
    (hx1 : ∀ k' : Fin 77, v285 (ix2 b k') = rd (ix3 b ⟨50, by decide⟩ ⟨51 + k'.val, by have := k'.isLt; omega⟩))
    (hx2 : ∀ k' : Fin 51, v286 (ix3 b (0 : Fin 1) k') = rd (ix3 b ⟨51, by decide⟩ ⟨k'.val, by have := k'.isLt; omega⟩)) :
    k1_pay66 v285 v286 (ix2 b k) = stagRow rd 51 (by decide) (by decide) b k :=
  stagRow_of_givenGiven 51 (by decide) (by decide) rd v285 v286 shapeCasts_S64x1x51_S64x51 concatenates_S64x77_S64x51_S64x128_d1 (by rfl) b k hx1 hx2

theorem k1_pay64_apply (v30 : FVec Ideal S64x128x128 .f32) (b : Fin 64) (k : Fin 77) :
    k1_pay64 v30 (ix2 b k) = v30 (ix3 b ⟨50, by decide⟩ ⟨51 + k.val, by have := k.isLt; omega⟩) :=
  seg_apply 50 51 v30 slices_S64x128x128_o0_50_51_S64x1x77 shapeCasts_S64x1x77_S64x77 b k _ _ rfl rfl

theorem k1_pay65_apply (v30 : FVec Ideal S64x128x128 .f32) (b : Fin 64) (k : Fin 51) :
    k1_pay65 v30 (ix3 b (0 : Fin 1) k) = v30 (ix3 b ⟨51, by decide⟩ ⟨k.val, by have := k.isLt; omega⟩) :=
  sliceSeg_apply 51 0 v30 slices_S64x128x128_o0_51_0_S64x1x51 b 0 k _ _ rfl (Nat.zero_add _).symm

/-- Row 51 of the table, as the body composes it. -/
theorem k1_row51 (x0 : Vec Ideal S64x128 .f32) (x1 x2 x3 x4 : Vec Ideal S128 .f32) (b : Fin 64) (k : Fin 128) :
    (k1_pay66 (k1_pay64 (k1_pay3 x0 x1 x2 x3 x4)) (k1_pay65 (k1_pay3 x0 x1 x2 x3 x4))) (ix2 b k) = stagRow (k1_pay3 x0 x1 x2 x3 x4) 51 (by decide) (by decide) b k :=
  k1_pay66_apply (k1_pay3 x0 x1 x2 x3 x4) (k1_pay64 (k1_pay3 x0 x1 x2 x3 x4)) (k1_pay65 (k1_pay3 x0 x1 x2 x3 x4)) b k (fun k' => k1_pay64_apply (k1_pay3 x0 x1 x2 x3 x4) b k') (fun k' => k1_pay65_apply (k1_pay3 x0 x1 x2 x3 x4) b k')

theorem k1_pay67_apply (v30 : FVec Ideal S64x128x128 .f32) (b : Fin 64) (k : Fin 128) :
    k1_pay67 v30 (ix2 b k) = stagRow v30 52 (by decide) (by decide) b k :=
  stagRow_of_tailHead 52 (by decide) (by decide) v30 slices_S64x128x128_o0_51_52_S64x1x76 shapeCasts_S64x1x76_S64x76 slices_S64x128x128_o0_52_0_S64x1x52 shapeCasts_S64x1x52_S64x52 concatenates_S64x76_S64x52_S64x128_d1 (by rfl) b k

/-- Row 52 of the table, as the body composes it. -/
theorem k1_row52 (x0 : Vec Ideal S64x128 .f32) (x1 x2 x3 x4 : Vec Ideal S128 .f32) (b : Fin 64) (k : Fin 128) :
    (k1_pay67 (k1_pay3 x0 x1 x2 x3 x4)) (ix2 b k) = stagRow (k1_pay3 x0 x1 x2 x3 x4) 52 (by decide) (by decide) b k :=
  k1_pay67_apply (k1_pay3 x0 x1 x2 x3 x4) b k

theorem k1_pay68_apply (v30 : FVec Ideal S64x128x128 .f32) (b : Fin 64) (k : Fin 128) :
    k1_pay68 v30 (ix2 b k) = stagRow v30 53 (by decide) (by decide) b k :=
  stagRow_of_tailHead 53 (by decide) (by decide) v30 slices_S64x128x128_o0_52_53_S64x1x75 shapeCasts_S64x1x75_S64x75 slices_S64x128x128_o0_53_0_S64x1x53 shapeCasts_S64x1x53_S64x53 concatenates_S64x75_S64x53_S64x128_d1 (by rfl) b k

/-- Row 53 of the table, as the body composes it. -/
theorem k1_row53 (x0 : Vec Ideal S64x128 .f32) (x1 x2 x3 x4 : Vec Ideal S128 .f32) (b : Fin 64) (k : Fin 128) :
    (k1_pay68 (k1_pay3 x0 x1 x2 x3 x4)) (ix2 b k) = stagRow (k1_pay3 x0 x1 x2 x3 x4) 53 (by decide) (by decide) b k :=
  k1_pay68_apply (k1_pay3 x0 x1 x2 x3 x4) b k

theorem k1_pay69_apply (v30 : FVec Ideal S64x128x128 .f32) (b : Fin 64) (k : Fin 128) :
    k1_pay69 v30 (ix2 b k) = stagRow v30 54 (by decide) (by decide) b k :=
  stagRow_of_tailHead 54 (by decide) (by decide) v30 slices_S64x128x128_o0_53_54_S64x1x74 shapeCasts_S64x1x74_S64x74 slices_S64x128x128_o0_54_0_S64x1x54 shapeCasts_S64x1x54_S64x54 concatenates_S64x74_S64x54_S64x128_d1 (by rfl) b k

/-- Row 54 of the table, as the body composes it. -/
theorem k1_row54 (x0 : Vec Ideal S64x128 .f32) (x1 x2 x3 x4 : Vec Ideal S128 .f32) (b : Fin 64) (k : Fin 128) :
    (k1_pay69 (k1_pay3 x0 x1 x2 x3 x4)) (ix2 b k) = stagRow (k1_pay3 x0 x1 x2 x3 x4) 54 (by decide) (by decide) b k :=
  k1_pay69_apply (k1_pay3 x0 x1 x2 x3 x4) b k

theorem k1_pay70_apply (v30 : FVec Ideal S64x128x128 .f32) (b : Fin 64) (k : Fin 128) :
    k1_pay70 v30 (ix2 b k) = stagRow v30 55 (by decide) (by decide) b k :=
  stagRow_of_tailHead 55 (by decide) (by decide) v30 slices_S64x128x128_o0_54_55_S64x1x73 shapeCasts_S64x1x73_S64x73 slices_S64x128x128_o0_55_0_S64x1x55 shapeCasts_S64x1x55_S64x55 concatenates_S64x73_S64x55_S64x128_d1 (by rfl) b k

/-- Row 55 of the table, as the body composes it. -/
theorem k1_row55 (x0 : Vec Ideal S64x128 .f32) (x1 x2 x3 x4 : Vec Ideal S128 .f32) (b : Fin 64) (k : Fin 128) :
    (k1_pay70 (k1_pay3 x0 x1 x2 x3 x4)) (ix2 b k) = stagRow (k1_pay3 x0 x1 x2 x3 x4) 55 (by decide) (by decide) b k :=
  k1_pay70_apply (k1_pay3 x0 x1 x2 x3 x4) b k

theorem k1_pay71_apply (v30 : FVec Ideal S64x128x128 .f32) (b : Fin 64) (k : Fin 128) :
    k1_pay71 v30 (ix2 b k) = stagRow v30 56 (by decide) (by decide) b k :=
  stagRow_of_tailHead 56 (by decide) (by decide) v30 slices_S64x128x128_o0_55_56_S64x1x72 shapeCasts_S64x1x72_S64x72 slices_S64x128x128_o0_56_0_S64x1x56 shapeCasts_S64x1x56_S64x56 concatenates_S64x72_S64x56_S64x128_d1 (by rfl) b k

/-- Row 56 of the table, as the body composes it. -/
theorem k1_row56 (x0 : Vec Ideal S64x128 .f32) (x1 x2 x3 x4 : Vec Ideal S128 .f32) (b : Fin 64) (k : Fin 128) :
    (k1_pay71 (k1_pay3 x0 x1 x2 x3 x4)) (ix2 b k) = stagRow (k1_pay3 x0 x1 x2 x3 x4) 56 (by decide) (by decide) b k :=
  k1_pay71_apply (k1_pay3 x0 x1 x2 x3 x4) b k

theorem k1_pay72_apply (v30 : FVec Ideal S64x128x128 .f32) (b : Fin 64) (k : Fin 128) :
    k1_pay72 v30 (ix2 b k) = stagRow v30 57 (by decide) (by decide) b k :=
  stagRow_of_tailHead 57 (by decide) (by decide) v30 slices_S64x128x128_o0_56_57_S64x1x71 shapeCasts_S64x1x71_S64x71 slices_S64x128x128_o0_57_0_S64x1x57 shapeCasts_S64x1x57_S64x57 concatenates_S64x71_S64x57_S64x128_d1 (by rfl) b k

/-- Row 57 of the table, as the body composes it. -/
theorem k1_row57 (x0 : Vec Ideal S64x128 .f32) (x1 x2 x3 x4 : Vec Ideal S128 .f32) (b : Fin 64) (k : Fin 128) :
    (k1_pay72 (k1_pay3 x0 x1 x2 x3 x4)) (ix2 b k) = stagRow (k1_pay3 x0 x1 x2 x3 x4) 57 (by decide) (by decide) b k :=
  k1_pay72_apply (k1_pay3 x0 x1 x2 x3 x4) b k

theorem k1_pay73_apply (v30 : FVec Ideal S64x128x128 .f32) (b : Fin 64) (k : Fin 128) :
    k1_pay73 v30 (ix2 b k) = stagRow v30 58 (by decide) (by decide) b k :=
  stagRow_of_tailHead 58 (by decide) (by decide) v30 slices_S64x128x128_o0_57_58_S64x1x70 shapeCasts_S64x1x70_S64x70 slices_S64x128x128_o0_58_0_S64x1x58 shapeCasts_S64x1x58_S64x58 concatenates_S64x70_S64x58_S64x128_d1 (by rfl) b k

/-- Row 58 of the table, as the body composes it. -/
theorem k1_row58 (x0 : Vec Ideal S64x128 .f32) (x1 x2 x3 x4 : Vec Ideal S128 .f32) (b : Fin 64) (k : Fin 128) :
    (k1_pay73 (k1_pay3 x0 x1 x2 x3 x4)) (ix2 b k) = stagRow (k1_pay3 x0 x1 x2 x3 x4) 58 (by decide) (by decide) b k :=
  k1_pay73_apply (k1_pay3 x0 x1 x2 x3 x4) b k

theorem k1_pay74_apply (v30 : FVec Ideal S64x128x128 .f32) (b : Fin 64) (k : Fin 128) :
    k1_pay74 v30 (ix2 b k) = stagRow v30 59 (by decide) (by decide) b k :=
  stagRow_of_tailHead 59 (by decide) (by decide) v30 slices_S64x128x128_o0_58_59_S64x1x69 shapeCasts_S64x1x69_S64x69 slices_S64x128x128_o0_59_0_S64x1x59 shapeCasts_S64x1x59_S64x59 concatenates_S64x69_S64x59_S64x128_d1 (by rfl) b k

/-- Row 59 of the table, as the body composes it. -/
theorem k1_row59 (x0 : Vec Ideal S64x128 .f32) (x1 x2 x3 x4 : Vec Ideal S128 .f32) (b : Fin 64) (k : Fin 128) :
    (k1_pay74 (k1_pay3 x0 x1 x2 x3 x4)) (ix2 b k) = stagRow (k1_pay3 x0 x1 x2 x3 x4) 59 (by decide) (by decide) b k :=
  k1_pay74_apply (k1_pay3 x0 x1 x2 x3 x4) b k

theorem k1_pay75_apply (v30 : FVec Ideal S64x128x128 .f32) (b : Fin 64) (k : Fin 128) :
    k1_pay75 v30 (ix2 b k) = stagRow v30 60 (by decide) (by decide) b k :=
  stagRow_of_tailHead 60 (by decide) (by decide) v30 slices_S64x128x128_o0_59_60_S64x1x68 shapeCasts_S64x1x68_S64x68 slices_S64x128x128_o0_60_0_S64x1x60 shapeCasts_S64x1x60_S64x60 concatenates_S64x68_S64x60_S64x128_d1 (by rfl) b k

/-- Row 60 of the table, as the body composes it. -/
theorem k1_row60 (x0 : Vec Ideal S64x128 .f32) (x1 x2 x3 x4 : Vec Ideal S128 .f32) (b : Fin 64) (k : Fin 128) :
    (k1_pay75 (k1_pay3 x0 x1 x2 x3 x4)) (ix2 b k) = stagRow (k1_pay3 x0 x1 x2 x3 x4) 60 (by decide) (by decide) b k :=
  k1_pay75_apply (k1_pay3 x0 x1 x2 x3 x4) b k

theorem k1_pay76_apply (v30 : FVec Ideal S64x128x128 .f32) (b : Fin 64) (k : Fin 128) :
    k1_pay76 v30 (ix2 b k) = stagRow v30 61 (by decide) (by decide) b k :=
  stagRow_of_tailHead 61 (by decide) (by decide) v30 slices_S64x128x128_o0_60_61_S64x1x67 shapeCasts_S64x1x67_S64x67 slices_S64x128x128_o0_61_0_S64x1x61 shapeCasts_S64x1x61_S64x61 concatenates_S64x67_S64x61_S64x128_d1 (by rfl) b k

/-- Row 61 of the table, as the body composes it. -/
theorem k1_row61 (x0 : Vec Ideal S64x128 .f32) (x1 x2 x3 x4 : Vec Ideal S128 .f32) (b : Fin 64) (k : Fin 128) :
    (k1_pay76 (k1_pay3 x0 x1 x2 x3 x4)) (ix2 b k) = stagRow (k1_pay3 x0 x1 x2 x3 x4) 61 (by decide) (by decide) b k :=
  k1_pay76_apply (k1_pay3 x0 x1 x2 x3 x4) b k

theorem k1_pay77_apply (v30 : FVec Ideal S64x128x128 .f32) (b : Fin 64) (k : Fin 128) :
    k1_pay77 v30 (ix2 b k) = stagRow v30 62 (by decide) (by decide) b k :=
  stagRow_of_tailHead 62 (by decide) (by decide) v30 slices_S64x128x128_o0_61_62_S64x1x66 shapeCasts_S64x1x66_S64x66 slices_S64x128x128_o0_62_0_S64x1x62 shapeCasts_S64x1x62_S64x62 concatenates_S64x66_S64x62_S64x128_d1 (by rfl) b k

/-- Row 62 of the table, as the body composes it. -/
theorem k1_row62 (x0 : Vec Ideal S64x128 .f32) (x1 x2 x3 x4 : Vec Ideal S128 .f32) (b : Fin 64) (k : Fin 128) :
    (k1_pay77 (k1_pay3 x0 x1 x2 x3 x4)) (ix2 b k) = stagRow (k1_pay3 x0 x1 x2 x3 x4) 62 (by decide) (by decide) b k :=
  k1_pay77_apply (k1_pay3 x0 x1 x2 x3 x4) b k

theorem k1_pay80_apply (rd : FVec Ideal S64x128x128 .f32) (v345 : FVec Ideal S64x65 .f32) (v346 : FVec Ideal S64x1x63 .f32) (b : Fin 64) (k : Fin 128)
    (hx1 : ∀ k' : Fin 65, v345 (ix2 b k') = rd (ix3 b ⟨62, by decide⟩ ⟨63 + k'.val, by have := k'.isLt; omega⟩))
    (hx2 : ∀ k' : Fin 63, v346 (ix3 b (0 : Fin 1) k') = rd (ix3 b ⟨63, by decide⟩ ⟨k'.val, by have := k'.isLt; omega⟩)) :
    k1_pay80 v345 v346 (ix2 b k) = stagRow rd 63 (by decide) (by decide) b k :=
  stagRow_of_givenGiven 63 (by decide) (by decide) rd v345 v346 shapeCasts_S64x1x63_S64x63 concatenates_S64x65_S64x63_S64x128_d1 (by rfl) b k hx1 hx2

theorem k1_pay78_apply (v30 : FVec Ideal S64x128x128 .f32) (b : Fin 64) (k : Fin 65) :
    k1_pay78 v30 (ix2 b k) = v30 (ix3 b ⟨62, by decide⟩ ⟨63 + k.val, by have := k.isLt; omega⟩) :=
  seg_apply 62 63 v30 slices_S64x128x128_o0_62_63_S64x1x65 shapeCasts_S64x1x65_S64x65 b k _ _ rfl rfl

theorem k1_pay79_apply (v30 : FVec Ideal S64x128x128 .f32) (b : Fin 64) (k : Fin 63) :
    k1_pay79 v30 (ix3 b (0 : Fin 1) k) = v30 (ix3 b ⟨63, by decide⟩ ⟨k.val, by have := k.isLt; omega⟩) :=
  sliceSeg_apply 63 0 v30 slices_S64x128x128_o0_63_0_S64x1x63 b 0 k _ _ rfl (Nat.zero_add _).symm

/-- Row 63 of the table, as the body composes it. -/
theorem k1_row63 (x0 : Vec Ideal S64x128 .f32) (x1 x2 x3 x4 : Vec Ideal S128 .f32) (b : Fin 64) (k : Fin 128) :
    (k1_pay80 (k1_pay78 (k1_pay3 x0 x1 x2 x3 x4)) (k1_pay79 (k1_pay3 x0 x1 x2 x3 x4))) (ix2 b k) = stagRow (k1_pay3 x0 x1 x2 x3 x4) 63 (by decide) (by decide) b k :=
  k1_pay80_apply (k1_pay3 x0 x1 x2 x3 x4) (k1_pay78 (k1_pay3 x0 x1 x2 x3 x4)) (k1_pay79 (k1_pay3 x0 x1 x2 x3 x4)) b k (fun k' => k1_pay78_apply (k1_pay3 x0 x1 x2 x3 x4) b k') (fun k' => k1_pay79_apply (k1_pay3 x0 x1 x2 x3 x4) b k')

theorem k1_pay81_apply (v30 : FVec Ideal S64x128x128 .f32) (b : Fin 64) (k : Fin 128) :
    k1_pay81 v30 (ix2 b k) = stagRow v30 64 (by decide) (by decide) b k :=
  stagRow_of_tailHead 64 (by decide) (by decide) v30 slices_S64x128x128_o0_63_64_S64x1x64 shapeCasts_S64x1x64_S64x64 slices_S64x128x128_o0_64_0_S64x1x64 shapeCasts_S64x1x64_S64x64 concatenates_S64x64_S64x64_S64x128_d1 (by rfl) b k

/-- Row 64 of the table, as the body composes it. -/
theorem k1_row64 (x0 : Vec Ideal S64x128 .f32) (x1 x2 x3 x4 : Vec Ideal S128 .f32) (b : Fin 64) (k : Fin 128) :
    (k1_pay81 (k1_pay3 x0 x1 x2 x3 x4)) (ix2 b k) = stagRow (k1_pay3 x0 x1 x2 x3 x4) 64 (by decide) (by decide) b k :=
  k1_pay81_apply (k1_pay3 x0 x1 x2 x3 x4) b k

theorem k1_pay82_apply (v30 : FVec Ideal S64x128x128 .f32) (b : Fin 64) (k : Fin 128) :
    k1_pay82 v30 (ix2 b k) = stagRow v30 65 (by decide) (by decide) b k :=
  stagRow_of_tailHead 65 (by decide) (by decide) v30 slices_S64x128x128_o0_64_65_S64x1x63 shapeCasts_S64x1x63_S64x63 slices_S64x128x128_o0_65_0_S64x1x65 shapeCasts_S64x1x65_S64x65 concatenates_S64x63_S64x65_S64x128_d1 (by rfl) b k

/-- Row 65 of the table, as the body composes it. -/
theorem k1_row65 (x0 : Vec Ideal S64x128 .f32) (x1 x2 x3 x4 : Vec Ideal S128 .f32) (b : Fin 64) (k : Fin 128) :
    (k1_pay82 (k1_pay3 x0 x1 x2 x3 x4)) (ix2 b k) = stagRow (k1_pay3 x0 x1 x2 x3 x4) 65 (by decide) (by decide) b k :=
  k1_pay82_apply (k1_pay3 x0 x1 x2 x3 x4) b k

theorem k1_pay83_apply (v30 : FVec Ideal S64x128x128 .f32) (b : Fin 64) (k : Fin 128) :
    k1_pay83 v30 (ix2 b k) = stagRow v30 66 (by decide) (by decide) b k :=
  stagRow_of_tailHead 66 (by decide) (by decide) v30 slices_S64x128x128_o0_65_66_S64x1x62 shapeCasts_S64x1x62_S64x62 slices_S64x128x128_o0_66_0_S64x1x66 shapeCasts_S64x1x66_S64x66 concatenates_S64x62_S64x66_S64x128_d1 (by rfl) b k

/-- Row 66 of the table, as the body composes it. -/
theorem k1_row66 (x0 : Vec Ideal S64x128 .f32) (x1 x2 x3 x4 : Vec Ideal S128 .f32) (b : Fin 64) (k : Fin 128) :
    (k1_pay83 (k1_pay3 x0 x1 x2 x3 x4)) (ix2 b k) = stagRow (k1_pay3 x0 x1 x2 x3 x4) 66 (by decide) (by decide) b k :=
  k1_pay83_apply (k1_pay3 x0 x1 x2 x3 x4) b k

theorem k1_pay84_apply (v30 : FVec Ideal S64x128x128 .f32) (b : Fin 64) (k : Fin 128) :
    k1_pay84 v30 (ix2 b k) = stagRow v30 67 (by decide) (by decide) b k :=
  stagRow_of_tailHead 67 (by decide) (by decide) v30 slices_S64x128x128_o0_66_67_S64x1x61 shapeCasts_S64x1x61_S64x61 slices_S64x128x128_o0_67_0_S64x1x67 shapeCasts_S64x1x67_S64x67 concatenates_S64x61_S64x67_S64x128_d1 (by rfl) b k

/-- Row 67 of the table, as the body composes it. -/
theorem k1_row67 (x0 : Vec Ideal S64x128 .f32) (x1 x2 x3 x4 : Vec Ideal S128 .f32) (b : Fin 64) (k : Fin 128) :
    (k1_pay84 (k1_pay3 x0 x1 x2 x3 x4)) (ix2 b k) = stagRow (k1_pay3 x0 x1 x2 x3 x4) 67 (by decide) (by decide) b k :=
  k1_pay84_apply (k1_pay3 x0 x1 x2 x3 x4) b k

theorem k1_pay85_apply (v30 : FVec Ideal S64x128x128 .f32) (b : Fin 64) (k : Fin 128) :
    k1_pay85 v30 (ix2 b k) = stagRow v30 68 (by decide) (by decide) b k :=
  stagRow_of_tailHead 68 (by decide) (by decide) v30 slices_S64x128x128_o0_67_68_S64x1x60 shapeCasts_S64x1x60_S64x60 slices_S64x128x128_o0_68_0_S64x1x68 shapeCasts_S64x1x68_S64x68 concatenates_S64x60_S64x68_S64x128_d1 (by rfl) b k

/-- Row 68 of the table, as the body composes it. -/
theorem k1_row68 (x0 : Vec Ideal S64x128 .f32) (x1 x2 x3 x4 : Vec Ideal S128 .f32) (b : Fin 64) (k : Fin 128) :
    (k1_pay85 (k1_pay3 x0 x1 x2 x3 x4)) (ix2 b k) = stagRow (k1_pay3 x0 x1 x2 x3 x4) 68 (by decide) (by decide) b k :=
  k1_pay85_apply (k1_pay3 x0 x1 x2 x3 x4) b k

theorem k1_pay86_apply (v30 : FVec Ideal S64x128x128 .f32) (b : Fin 64) (k : Fin 128) :
    k1_pay86 v30 (ix2 b k) = stagRow v30 69 (by decide) (by decide) b k :=
  stagRow_of_tailHead 69 (by decide) (by decide) v30 slices_S64x128x128_o0_68_69_S64x1x59 shapeCasts_S64x1x59_S64x59 slices_S64x128x128_o0_69_0_S64x1x69 shapeCasts_S64x1x69_S64x69 concatenates_S64x59_S64x69_S64x128_d1 (by rfl) b k

/-- Row 69 of the table, as the body composes it. -/
theorem k1_row69 (x0 : Vec Ideal S64x128 .f32) (x1 x2 x3 x4 : Vec Ideal S128 .f32) (b : Fin 64) (k : Fin 128) :
    (k1_pay86 (k1_pay3 x0 x1 x2 x3 x4)) (ix2 b k) = stagRow (k1_pay3 x0 x1 x2 x3 x4) 69 (by decide) (by decide) b k :=
  k1_pay86_apply (k1_pay3 x0 x1 x2 x3 x4) b k

theorem k1_pay87_apply (v30 : FVec Ideal S64x128x128 .f32) (b : Fin 64) (k : Fin 128) :
    k1_pay87 v30 (ix2 b k) = stagRow v30 70 (by decide) (by decide) b k :=
  stagRow_of_tailHead 70 (by decide) (by decide) v30 slices_S64x128x128_o0_69_70_S64x1x58 shapeCasts_S64x1x58_S64x58 slices_S64x128x128_o0_70_0_S64x1x70 shapeCasts_S64x1x70_S64x70 concatenates_S64x58_S64x70_S64x128_d1 (by rfl) b k

/-- Row 70 of the table, as the body composes it. -/
theorem k1_row70 (x0 : Vec Ideal S64x128 .f32) (x1 x2 x3 x4 : Vec Ideal S128 .f32) (b : Fin 64) (k : Fin 128) :
    (k1_pay87 (k1_pay3 x0 x1 x2 x3 x4)) (ix2 b k) = stagRow (k1_pay3 x0 x1 x2 x3 x4) 70 (by decide) (by decide) b k :=
  k1_pay87_apply (k1_pay3 x0 x1 x2 x3 x4) b k

theorem k1_pay88_apply (v30 : FVec Ideal S64x128x128 .f32) (b : Fin 64) (k : Fin 128) :
    k1_pay88 v30 (ix2 b k) = stagRow v30 71 (by decide) (by decide) b k :=
  stagRow_of_tailHead 71 (by decide) (by decide) v30 slices_S64x128x128_o0_70_71_S64x1x57 shapeCasts_S64x1x57_S64x57 slices_S64x128x128_o0_71_0_S64x1x71 shapeCasts_S64x1x71_S64x71 concatenates_S64x57_S64x71_S64x128_d1 (by rfl) b k

/-- Row 71 of the table, as the body composes it. -/
theorem k1_row71 (x0 : Vec Ideal S64x128 .f32) (x1 x2 x3 x4 : Vec Ideal S128 .f32) (b : Fin 64) (k : Fin 128) :
    (k1_pay88 (k1_pay3 x0 x1 x2 x3 x4)) (ix2 b k) = stagRow (k1_pay3 x0 x1 x2 x3 x4) 71 (by decide) (by decide) b k :=
  k1_pay88_apply (k1_pay3 x0 x1 x2 x3 x4) b k

theorem k1_pay89_apply (v30 : FVec Ideal S64x128x128 .f32) (b : Fin 64) (k : Fin 128) :
    k1_pay89 v30 (ix2 b k) = stagRow v30 72 (by decide) (by decide) b k :=
  stagRow_of_tailHead 72 (by decide) (by decide) v30 slices_S64x128x128_o0_71_72_S64x1x56 shapeCasts_S64x1x56_S64x56 slices_S64x128x128_o0_72_0_S64x1x72 shapeCasts_S64x1x72_S64x72 concatenates_S64x56_S64x72_S64x128_d1 (by rfl) b k

/-- Row 72 of the table, as the body composes it. -/
theorem k1_row72 (x0 : Vec Ideal S64x128 .f32) (x1 x2 x3 x4 : Vec Ideal S128 .f32) (b : Fin 64) (k : Fin 128) :
    (k1_pay89 (k1_pay3 x0 x1 x2 x3 x4)) (ix2 b k) = stagRow (k1_pay3 x0 x1 x2 x3 x4) 72 (by decide) (by decide) b k :=
  k1_pay89_apply (k1_pay3 x0 x1 x2 x3 x4) b k

theorem k1_pay90_apply (v30 : FVec Ideal S64x128x128 .f32) (b : Fin 64) (k : Fin 128) :
    k1_pay90 v30 (ix2 b k) = stagRow v30 73 (by decide) (by decide) b k :=
  stagRow_of_tailHead 73 (by decide) (by decide) v30 slices_S64x128x128_o0_72_73_S64x1x55 shapeCasts_S64x1x55_S64x55 slices_S64x128x128_o0_73_0_S64x1x73 shapeCasts_S64x1x73_S64x73 concatenates_S64x55_S64x73_S64x128_d1 (by rfl) b k

/-- Row 73 of the table, as the body composes it. -/
theorem k1_row73 (x0 : Vec Ideal S64x128 .f32) (x1 x2 x3 x4 : Vec Ideal S128 .f32) (b : Fin 64) (k : Fin 128) :
    (k1_pay90 (k1_pay3 x0 x1 x2 x3 x4)) (ix2 b k) = stagRow (k1_pay3 x0 x1 x2 x3 x4) 73 (by decide) (by decide) b k :=
  k1_pay90_apply (k1_pay3 x0 x1 x2 x3 x4) b k

theorem k1_pay91_apply (v30 : FVec Ideal S64x128x128 .f32) (b : Fin 64) (k : Fin 128) :
    k1_pay91 v30 (ix2 b k) = stagRow v30 74 (by decide) (by decide) b k :=
  stagRow_of_tailHead 74 (by decide) (by decide) v30 slices_S64x128x128_o0_73_74_S64x1x54 shapeCasts_S64x1x54_S64x54 slices_S64x128x128_o0_74_0_S64x1x74 shapeCasts_S64x1x74_S64x74 concatenates_S64x54_S64x74_S64x128_d1 (by rfl) b k

/-- Row 74 of the table, as the body composes it. -/
theorem k1_row74 (x0 : Vec Ideal S64x128 .f32) (x1 x2 x3 x4 : Vec Ideal S128 .f32) (b : Fin 64) (k : Fin 128) :
    (k1_pay91 (k1_pay3 x0 x1 x2 x3 x4)) (ix2 b k) = stagRow (k1_pay3 x0 x1 x2 x3 x4) 74 (by decide) (by decide) b k :=
  k1_pay91_apply (k1_pay3 x0 x1 x2 x3 x4) b k

theorem k1_pay94_apply (rd : FVec Ideal S64x128x128 .f32) (v405 : FVec Ideal S64x53 .f32) (v406 : FVec Ideal S64x1x75 .f32) (b : Fin 64) (k : Fin 128)
    (hx1 : ∀ k' : Fin 53, v405 (ix2 b k') = rd (ix3 b ⟨74, by decide⟩ ⟨75 + k'.val, by have := k'.isLt; omega⟩))
    (hx2 : ∀ k' : Fin 75, v406 (ix3 b (0 : Fin 1) k') = rd (ix3 b ⟨75, by decide⟩ ⟨k'.val, by have := k'.isLt; omega⟩)) :
    k1_pay94 v405 v406 (ix2 b k) = stagRow rd 75 (by decide) (by decide) b k :=
  stagRow_of_givenGiven 75 (by decide) (by decide) rd v405 v406 shapeCasts_S64x1x75_S64x75 concatenates_S64x53_S64x75_S64x128_d1 (by rfl) b k hx1 hx2

theorem k1_pay92_apply (v30 : FVec Ideal S64x128x128 .f32) (b : Fin 64) (k : Fin 53) :
    k1_pay92 v30 (ix2 b k) = v30 (ix3 b ⟨74, by decide⟩ ⟨75 + k.val, by have := k.isLt; omega⟩) :=
  seg_apply 74 75 v30 slices_S64x128x128_o0_74_75_S64x1x53 shapeCasts_S64x1x53_S64x53 b k _ _ rfl rfl

theorem k1_pay93_apply (v30 : FVec Ideal S64x128x128 .f32) (b : Fin 64) (k : Fin 75) :
    k1_pay93 v30 (ix3 b (0 : Fin 1) k) = v30 (ix3 b ⟨75, by decide⟩ ⟨k.val, by have := k.isLt; omega⟩) :=
  sliceSeg_apply 75 0 v30 slices_S64x128x128_o0_75_0_S64x1x75 b 0 k _ _ rfl (Nat.zero_add _).symm

/-- Row 75 of the table, as the body composes it. -/
theorem k1_row75 (x0 : Vec Ideal S64x128 .f32) (x1 x2 x3 x4 : Vec Ideal S128 .f32) (b : Fin 64) (k : Fin 128) :
    (k1_pay94 (k1_pay92 (k1_pay3 x0 x1 x2 x3 x4)) (k1_pay93 (k1_pay3 x0 x1 x2 x3 x4))) (ix2 b k) = stagRow (k1_pay3 x0 x1 x2 x3 x4) 75 (by decide) (by decide) b k :=
  k1_pay94_apply (k1_pay3 x0 x1 x2 x3 x4) (k1_pay92 (k1_pay3 x0 x1 x2 x3 x4)) (k1_pay93 (k1_pay3 x0 x1 x2 x3 x4)) b k (fun k' => k1_pay92_apply (k1_pay3 x0 x1 x2 x3 x4) b k') (fun k' => k1_pay93_apply (k1_pay3 x0 x1 x2 x3 x4) b k')

theorem k1_pay95_apply (v30 : FVec Ideal S64x128x128 .f32) (b : Fin 64) (k : Fin 128) :
    k1_pay95 v30 (ix2 b k) = stagRow v30 76 (by decide) (by decide) b k :=
  stagRow_of_tailHead 76 (by decide) (by decide) v30 slices_S64x128x128_o0_75_76_S64x1x52 shapeCasts_S64x1x52_S64x52 slices_S64x128x128_o0_76_0_S64x1x76 shapeCasts_S64x1x76_S64x76 concatenates_S64x52_S64x76_S64x128_d1 (by rfl) b k

/-- Row 76 of the table, as the body composes it. -/
theorem k1_row76 (x0 : Vec Ideal S64x128 .f32) (x1 x2 x3 x4 : Vec Ideal S128 .f32) (b : Fin 64) (k : Fin 128) :
    (k1_pay95 (k1_pay3 x0 x1 x2 x3 x4)) (ix2 b k) = stagRow (k1_pay3 x0 x1 x2 x3 x4) 76 (by decide) (by decide) b k :=
  k1_pay95_apply (k1_pay3 x0 x1 x2 x3 x4) b k

theorem k1_pay96_apply (v30 : FVec Ideal S64x128x128 .f32) (b : Fin 64) (k : Fin 128) :
    k1_pay96 v30 (ix2 b k) = stagRow v30 77 (by decide) (by decide) b k :=
  stagRow_of_tailHead 77 (by decide) (by decide) v30 slices_S64x128x128_o0_76_77_S64x1x51 shapeCasts_S64x1x51_S64x51 slices_S64x128x128_o0_77_0_S64x1x77 shapeCasts_S64x1x77_S64x77 concatenates_S64x51_S64x77_S64x128_d1 (by rfl) b k

/-- Row 77 of the table, as the body composes it. -/
theorem k1_row77 (x0 : Vec Ideal S64x128 .f32) (x1 x2 x3 x4 : Vec Ideal S128 .f32) (b : Fin 64) (k : Fin 128) :
    (k1_pay96 (k1_pay3 x0 x1 x2 x3 x4)) (ix2 b k) = stagRow (k1_pay3 x0 x1 x2 x3 x4) 77 (by decide) (by decide) b k :=
  k1_pay96_apply (k1_pay3 x0 x1 x2 x3 x4) b k

theorem k1_pay97_apply (v30 : FVec Ideal S64x128x128 .f32) (b : Fin 64) (k : Fin 128) :
    k1_pay97 v30 (ix2 b k) = stagRow v30 78 (by decide) (by decide) b k :=
  stagRow_of_tailHead 78 (by decide) (by decide) v30 slices_S64x128x128_o0_77_78_S64x1x50 shapeCasts_S64x1x50_S64x50 slices_S64x128x128_o0_78_0_S64x1x78 shapeCasts_S64x1x78_S64x78 concatenates_S64x50_S64x78_S64x128_d1 (by rfl) b k

/-- Row 78 of the table, as the body composes it. -/
theorem k1_row78 (x0 : Vec Ideal S64x128 .f32) (x1 x2 x3 x4 : Vec Ideal S128 .f32) (b : Fin 64) (k : Fin 128) :
    (k1_pay97 (k1_pay3 x0 x1 x2 x3 x4)) (ix2 b k) = stagRow (k1_pay3 x0 x1 x2 x3 x4) 78 (by decide) (by decide) b k :=
  k1_pay97_apply (k1_pay3 x0 x1 x2 x3 x4) b k

theorem k1_pay98_apply (v30 : FVec Ideal S64x128x128 .f32) (b : Fin 64) (k : Fin 128) :
    k1_pay98 v30 (ix2 b k) = stagRow v30 79 (by decide) (by decide) b k :=
  stagRow_of_tailHead 79 (by decide) (by decide) v30 slices_S64x128x128_o0_78_79_S64x1x49 shapeCasts_S64x1x49_S64x49 slices_S64x128x128_o0_79_0_S64x1x79 shapeCasts_S64x1x79_S64x79 concatenates_S64x49_S64x79_S64x128_d1 (by rfl) b k

/-- Row 79 of the table, as the body composes it. -/
theorem k1_row79 (x0 : Vec Ideal S64x128 .f32) (x1 x2 x3 x4 : Vec Ideal S128 .f32) (b : Fin 64) (k : Fin 128) :
    (k1_pay98 (k1_pay3 x0 x1 x2 x3 x4)) (ix2 b k) = stagRow (k1_pay3 x0 x1 x2 x3 x4) 79 (by decide) (by decide) b k :=
  k1_pay98_apply (k1_pay3 x0 x1 x2 x3 x4) b k

theorem k1_pay99_apply (v30 : FVec Ideal S64x128x128 .f32) (b : Fin 64) (k : Fin 128) :
    k1_pay99 v30 (ix2 b k) = stagRow v30 80 (by decide) (by decide) b k :=
  stagRow_of_tailHead 80 (by decide) (by decide) v30 slices_S64x128x128_o0_79_80_S64x1x48 shapeCasts_S64x1x48_S64x48 slices_S64x128x128_o0_80_0_S64x1x80 shapeCasts_S64x1x80_S64x80 concatenates_S64x48_S64x80_S64x128_d1 (by rfl) b k

/-- Row 80 of the table, as the body composes it. -/
theorem k1_row80 (x0 : Vec Ideal S64x128 .f32) (x1 x2 x3 x4 : Vec Ideal S128 .f32) (b : Fin 64) (k : Fin 128) :
    (k1_pay99 (k1_pay3 x0 x1 x2 x3 x4)) (ix2 b k) = stagRow (k1_pay3 x0 x1 x2 x3 x4) 80 (by decide) (by decide) b k :=
  k1_pay99_apply (k1_pay3 x0 x1 x2 x3 x4) b k

theorem k1_pay100_apply (v30 : FVec Ideal S64x128x128 .f32) (b : Fin 64) (k : Fin 128) :
    k1_pay100 v30 (ix2 b k) = stagRow v30 81 (by decide) (by decide) b k :=
  stagRow_of_tailHead 81 (by decide) (by decide) v30 slices_S64x128x128_o0_80_81_S64x1x47 shapeCasts_S64x1x47_S64x47 slices_S64x128x128_o0_81_0_S64x1x81 shapeCasts_S64x1x81_S64x81 concatenates_S64x47_S64x81_S64x128_d1 (by rfl) b k

/-- Row 81 of the table, as the body composes it. -/
theorem k1_row81 (x0 : Vec Ideal S64x128 .f32) (x1 x2 x3 x4 : Vec Ideal S128 .f32) (b : Fin 64) (k : Fin 128) :
    (k1_pay100 (k1_pay3 x0 x1 x2 x3 x4)) (ix2 b k) = stagRow (k1_pay3 x0 x1 x2 x3 x4) 81 (by decide) (by decide) b k :=
  k1_pay100_apply (k1_pay3 x0 x1 x2 x3 x4) b k

theorem k1_pay101_apply (v30 : FVec Ideal S64x128x128 .f32) (b : Fin 64) (k : Fin 128) :
    k1_pay101 v30 (ix2 b k) = stagRow v30 82 (by decide) (by decide) b k :=
  stagRow_of_tailHead 82 (by decide) (by decide) v30 slices_S64x128x128_o0_81_82_S64x1x46 shapeCasts_S64x1x46_S64x46 slices_S64x128x128_o0_82_0_S64x1x82 shapeCasts_S64x1x82_S64x82 concatenates_S64x46_S64x82_S64x128_d1 (by rfl) b k

/-- Row 82 of the table, as the body composes it. -/
theorem k1_row82 (x0 : Vec Ideal S64x128 .f32) (x1 x2 x3 x4 : Vec Ideal S128 .f32) (b : Fin 64) (k : Fin 128) :
    (k1_pay101 (k1_pay3 x0 x1 x2 x3 x4)) (ix2 b k) = stagRow (k1_pay3 x0 x1 x2 x3 x4) 82 (by decide) (by decide) b k :=
  k1_pay101_apply (k1_pay3 x0 x1 x2 x3 x4) b k

theorem k1_pay102_apply (v30 : FVec Ideal S64x128x128 .f32) (b : Fin 64) (k : Fin 128) :
    k1_pay102 v30 (ix2 b k) = stagRow v30 83 (by decide) (by decide) b k :=
  stagRow_of_tailHead 83 (by decide) (by decide) v30 slices_S64x128x128_o0_82_83_S64x1x45 shapeCasts_S64x1x45_S64x45 slices_S64x128x128_o0_83_0_S64x1x83 shapeCasts_S64x1x83_S64x83 concatenates_S64x45_S64x83_S64x128_d1 (by rfl) b k

/-- Row 83 of the table, as the body composes it. -/
theorem k1_row83 (x0 : Vec Ideal S64x128 .f32) (x1 x2 x3 x4 : Vec Ideal S128 .f32) (b : Fin 64) (k : Fin 128) :
    (k1_pay102 (k1_pay3 x0 x1 x2 x3 x4)) (ix2 b k) = stagRow (k1_pay3 x0 x1 x2 x3 x4) 83 (by decide) (by decide) b k :=
  k1_pay102_apply (k1_pay3 x0 x1 x2 x3 x4) b k

theorem k1_pay103_apply (v30 : FVec Ideal S64x128x128 .f32) (b : Fin 64) (k : Fin 128) :
    k1_pay103 v30 (ix2 b k) = stagRow v30 84 (by decide) (by decide) b k :=
  stagRow_of_tailHead 84 (by decide) (by decide) v30 slices_S64x128x128_o0_83_84_S64x1x44 shapeCasts_S64x1x44_S64x44 slices_S64x128x128_o0_84_0_S64x1x84 shapeCasts_S64x1x84_S64x84 concatenates_S64x44_S64x84_S64x128_d1 (by rfl) b k

/-- Row 84 of the table, as the body composes it. -/
theorem k1_row84 (x0 : Vec Ideal S64x128 .f32) (x1 x2 x3 x4 : Vec Ideal S128 .f32) (b : Fin 64) (k : Fin 128) :
    (k1_pay103 (k1_pay3 x0 x1 x2 x3 x4)) (ix2 b k) = stagRow (k1_pay3 x0 x1 x2 x3 x4) 84 (by decide) (by decide) b k :=
  k1_pay103_apply (k1_pay3 x0 x1 x2 x3 x4) b k

theorem k1_pay104_apply (v30 : FVec Ideal S64x128x128 .f32) (b : Fin 64) (k : Fin 128) :
    k1_pay104 v30 (ix2 b k) = stagRow v30 85 (by decide) (by decide) b k :=
  stagRow_of_tailHead 85 (by decide) (by decide) v30 slices_S64x128x128_o0_84_85_S64x1x43 shapeCasts_S64x1x43_S64x43 slices_S64x128x128_o0_85_0_S64x1x85 shapeCasts_S64x1x85_S64x85 concatenates_S64x43_S64x85_S64x128_d1 (by rfl) b k

/-- Row 85 of the table, as the body composes it. -/
theorem k1_row85 (x0 : Vec Ideal S64x128 .f32) (x1 x2 x3 x4 : Vec Ideal S128 .f32) (b : Fin 64) (k : Fin 128) :
    (k1_pay104 (k1_pay3 x0 x1 x2 x3 x4)) (ix2 b k) = stagRow (k1_pay3 x0 x1 x2 x3 x4) 85 (by decide) (by decide) b k :=
  k1_pay104_apply (k1_pay3 x0 x1 x2 x3 x4) b k

theorem k1_pay105_apply (v30 : FVec Ideal S64x128x128 .f32) (b : Fin 64) (k : Fin 128) :
    k1_pay105 v30 (ix2 b k) = stagRow v30 86 (by decide) (by decide) b k :=
  stagRow_of_tailHead 86 (by decide) (by decide) v30 slices_S64x128x128_o0_85_86_S64x1x42 shapeCasts_S64x1x42_S64x42 slices_S64x128x128_o0_86_0_S64x1x86 shapeCasts_S64x1x86_S64x86 concatenates_S64x42_S64x86_S64x128_d1 (by rfl) b k

/-- Row 86 of the table, as the body composes it. -/
theorem k1_row86 (x0 : Vec Ideal S64x128 .f32) (x1 x2 x3 x4 : Vec Ideal S128 .f32) (b : Fin 64) (k : Fin 128) :
    (k1_pay105 (k1_pay3 x0 x1 x2 x3 x4)) (ix2 b k) = stagRow (k1_pay3 x0 x1 x2 x3 x4) 86 (by decide) (by decide) b k :=
  k1_pay105_apply (k1_pay3 x0 x1 x2 x3 x4) b k

theorem k1_pay108_apply (rd : FVec Ideal S64x128x128 .f32) (v465 : FVec Ideal S64x41 .f32) (v466 : FVec Ideal S64x1x87 .f32) (b : Fin 64) (k : Fin 128)
    (hx1 : ∀ k' : Fin 41, v465 (ix2 b k') = rd (ix3 b ⟨86, by decide⟩ ⟨87 + k'.val, by have := k'.isLt; omega⟩))
    (hx2 : ∀ k' : Fin 87, v466 (ix3 b (0 : Fin 1) k') = rd (ix3 b ⟨87, by decide⟩ ⟨k'.val, by have := k'.isLt; omega⟩)) :
    k1_pay108 v465 v466 (ix2 b k) = stagRow rd 87 (by decide) (by decide) b k :=
  stagRow_of_givenGiven 87 (by decide) (by decide) rd v465 v466 shapeCasts_S64x1x87_S64x87 concatenates_S64x41_S64x87_S64x128_d1 (by rfl) b k hx1 hx2

theorem k1_pay106_apply (v30 : FVec Ideal S64x128x128 .f32) (b : Fin 64) (k : Fin 41) :
    k1_pay106 v30 (ix2 b k) = v30 (ix3 b ⟨86, by decide⟩ ⟨87 + k.val, by have := k.isLt; omega⟩) :=
  seg_apply 86 87 v30 slices_S64x128x128_o0_86_87_S64x1x41 shapeCasts_S64x1x41_S64x41 b k _ _ rfl rfl

theorem k1_pay107_apply (v30 : FVec Ideal S64x128x128 .f32) (b : Fin 64) (k : Fin 87) :
    k1_pay107 v30 (ix3 b (0 : Fin 1) k) = v30 (ix3 b ⟨87, by decide⟩ ⟨k.val, by have := k.isLt; omega⟩) :=
  sliceSeg_apply 87 0 v30 slices_S64x128x128_o0_87_0_S64x1x87 b 0 k _ _ rfl (Nat.zero_add _).symm

/-- Row 87 of the table, as the body composes it. -/
theorem k1_row87 (x0 : Vec Ideal S64x128 .f32) (x1 x2 x3 x4 : Vec Ideal S128 .f32) (b : Fin 64) (k : Fin 128) :
    (k1_pay108 (k1_pay106 (k1_pay3 x0 x1 x2 x3 x4)) (k1_pay107 (k1_pay3 x0 x1 x2 x3 x4))) (ix2 b k) = stagRow (k1_pay3 x0 x1 x2 x3 x4) 87 (by decide) (by decide) b k :=
  k1_pay108_apply (k1_pay3 x0 x1 x2 x3 x4) (k1_pay106 (k1_pay3 x0 x1 x2 x3 x4)) (k1_pay107 (k1_pay3 x0 x1 x2 x3 x4)) b k (fun k' => k1_pay106_apply (k1_pay3 x0 x1 x2 x3 x4) b k') (fun k' => k1_pay107_apply (k1_pay3 x0 x1 x2 x3 x4) b k')

theorem k1_pay109_apply (v30 : FVec Ideal S64x128x128 .f32) (b : Fin 64) (k : Fin 128) :
    k1_pay109 v30 (ix2 b k) = stagRow v30 88 (by decide) (by decide) b k :=
  stagRow_of_tailHead 88 (by decide) (by decide) v30 slices_S64x128x128_o0_87_88_S64x1x40 shapeCasts_S64x1x40_S64x40 slices_S64x128x128_o0_88_0_S64x1x88 shapeCasts_S64x1x88_S64x88 concatenates_S64x40_S64x88_S64x128_d1 (by rfl) b k

/-- Row 88 of the table, as the body composes it. -/
theorem k1_row88 (x0 : Vec Ideal S64x128 .f32) (x1 x2 x3 x4 : Vec Ideal S128 .f32) (b : Fin 64) (k : Fin 128) :
    (k1_pay109 (k1_pay3 x0 x1 x2 x3 x4)) (ix2 b k) = stagRow (k1_pay3 x0 x1 x2 x3 x4) 88 (by decide) (by decide) b k :=
  k1_pay109_apply (k1_pay3 x0 x1 x2 x3 x4) b k

theorem k1_pay110_apply (v30 : FVec Ideal S64x128x128 .f32) (b : Fin 64) (k : Fin 128) :
    k1_pay110 v30 (ix2 b k) = stagRow v30 89 (by decide) (by decide) b k :=
  stagRow_of_tailHead 89 (by decide) (by decide) v30 slices_S64x128x128_o0_88_89_S64x1x39 shapeCasts_S64x1x39_S64x39 slices_S64x128x128_o0_89_0_S64x1x89 shapeCasts_S64x1x89_S64x89 concatenates_S64x39_S64x89_S64x128_d1 (by rfl) b k

/-- Row 89 of the table, as the body composes it. -/
theorem k1_row89 (x0 : Vec Ideal S64x128 .f32) (x1 x2 x3 x4 : Vec Ideal S128 .f32) (b : Fin 64) (k : Fin 128) :
    (k1_pay110 (k1_pay3 x0 x1 x2 x3 x4)) (ix2 b k) = stagRow (k1_pay3 x0 x1 x2 x3 x4) 89 (by decide) (by decide) b k :=
  k1_pay110_apply (k1_pay3 x0 x1 x2 x3 x4) b k

theorem k1_pay111_apply (v30 : FVec Ideal S64x128x128 .f32) (b : Fin 64) (k : Fin 128) :
    k1_pay111 v30 (ix2 b k) = stagRow v30 90 (by decide) (by decide) b k :=
  stagRow_of_tailHead 90 (by decide) (by decide) v30 slices_S64x128x128_o0_89_90_S64x1x38 shapeCasts_S64x1x38_S64x38 slices_S64x128x128_o0_90_0_S64x1x90 shapeCasts_S64x1x90_S64x90 concatenates_S64x38_S64x90_S64x128_d1 (by rfl) b k

/-- Row 90 of the table, as the body composes it. -/
theorem k1_row90 (x0 : Vec Ideal S64x128 .f32) (x1 x2 x3 x4 : Vec Ideal S128 .f32) (b : Fin 64) (k : Fin 128) :
    (k1_pay111 (k1_pay3 x0 x1 x2 x3 x4)) (ix2 b k) = stagRow (k1_pay3 x0 x1 x2 x3 x4) 90 (by decide) (by decide) b k :=
  k1_pay111_apply (k1_pay3 x0 x1 x2 x3 x4) b k

theorem k1_pay112_apply (v30 : FVec Ideal S64x128x128 .f32) (b : Fin 64) (k : Fin 128) :
    k1_pay112 v30 (ix2 b k) = stagRow v30 91 (by decide) (by decide) b k :=
  stagRow_of_tailHead 91 (by decide) (by decide) v30 slices_S64x128x128_o0_90_91_S64x1x37 shapeCasts_S64x1x37_S64x37 slices_S64x128x128_o0_91_0_S64x1x91 shapeCasts_S64x1x91_S64x91 concatenates_S64x37_S64x91_S64x128_d1 (by rfl) b k

/-- Row 91 of the table, as the body composes it. -/
theorem k1_row91 (x0 : Vec Ideal S64x128 .f32) (x1 x2 x3 x4 : Vec Ideal S128 .f32) (b : Fin 64) (k : Fin 128) :
    (k1_pay112 (k1_pay3 x0 x1 x2 x3 x4)) (ix2 b k) = stagRow (k1_pay3 x0 x1 x2 x3 x4) 91 (by decide) (by decide) b k :=
  k1_pay112_apply (k1_pay3 x0 x1 x2 x3 x4) b k

theorem k1_pay113_apply (v30 : FVec Ideal S64x128x128 .f32) (b : Fin 64) (k : Fin 128) :
    k1_pay113 v30 (ix2 b k) = stagRow v30 92 (by decide) (by decide) b k :=
  stagRow_of_tailHead 92 (by decide) (by decide) v30 slices_S64x128x128_o0_91_92_S64x1x36 shapeCasts_S64x1x36_S64x36 slices_S64x128x128_o0_92_0_S64x1x92 shapeCasts_S64x1x92_S64x92 concatenates_S64x36_S64x92_S64x128_d1 (by rfl) b k

/-- Row 92 of the table, as the body composes it. -/
theorem k1_row92 (x0 : Vec Ideal S64x128 .f32) (x1 x2 x3 x4 : Vec Ideal S128 .f32) (b : Fin 64) (k : Fin 128) :
    (k1_pay113 (k1_pay3 x0 x1 x2 x3 x4)) (ix2 b k) = stagRow (k1_pay3 x0 x1 x2 x3 x4) 92 (by decide) (by decide) b k :=
  k1_pay113_apply (k1_pay3 x0 x1 x2 x3 x4) b k

theorem k1_pay114_apply (v30 : FVec Ideal S64x128x128 .f32) (b : Fin 64) (k : Fin 128) :
    k1_pay114 v30 (ix2 b k) = stagRow v30 93 (by decide) (by decide) b k :=
  stagRow_of_tailHead 93 (by decide) (by decide) v30 slices_S64x128x128_o0_92_93_S64x1x35 shapeCasts_S64x1x35_S64x35 slices_S64x128x128_o0_93_0_S64x1x93 shapeCasts_S64x1x93_S64x93 concatenates_S64x35_S64x93_S64x128_d1 (by rfl) b k

/-- Row 93 of the table, as the body composes it. -/
theorem k1_row93 (x0 : Vec Ideal S64x128 .f32) (x1 x2 x3 x4 : Vec Ideal S128 .f32) (b : Fin 64) (k : Fin 128) :
    (k1_pay114 (k1_pay3 x0 x1 x2 x3 x4)) (ix2 b k) = stagRow (k1_pay3 x0 x1 x2 x3 x4) 93 (by decide) (by decide) b k :=
  k1_pay114_apply (k1_pay3 x0 x1 x2 x3 x4) b k

theorem k1_pay115_apply (v30 : FVec Ideal S64x128x128 .f32) (b : Fin 64) (k : Fin 128) :
    k1_pay115 v30 (ix2 b k) = stagRow v30 94 (by decide) (by decide) b k :=
  stagRow_of_tailHead 94 (by decide) (by decide) v30 slices_S64x128x128_o0_93_94_S64x1x34 shapeCasts_S64x1x34_S64x34 slices_S64x128x128_o0_94_0_S64x1x94 shapeCasts_S64x1x94_S64x94 concatenates_S64x34_S64x94_S64x128_d1 (by rfl) b k

/-- Row 94 of the table, as the body composes it. -/
theorem k1_row94 (x0 : Vec Ideal S64x128 .f32) (x1 x2 x3 x4 : Vec Ideal S128 .f32) (b : Fin 64) (k : Fin 128) :
    (k1_pay115 (k1_pay3 x0 x1 x2 x3 x4)) (ix2 b k) = stagRow (k1_pay3 x0 x1 x2 x3 x4) 94 (by decide) (by decide) b k :=
  k1_pay115_apply (k1_pay3 x0 x1 x2 x3 x4) b k

theorem k1_pay116_apply (v30 : FVec Ideal S64x128x128 .f32) (b : Fin 64) (k : Fin 128) :
    k1_pay116 v30 (ix2 b k) = stagRow v30 95 (by decide) (by decide) b k :=
  stagRow_of_tailHead 95 (by decide) (by decide) v30 slices_S64x128x128_o0_94_95_S64x1x33 shapeCasts_S64x1x33_S64x33 slices_S64x128x128_o0_95_0_S64x1x95 shapeCasts_S64x1x95_S64x95 concatenates_S64x33_S64x95_S64x128_d1 (by rfl) b k

/-- Row 95 of the table, as the body composes it. -/
theorem k1_row95 (x0 : Vec Ideal S64x128 .f32) (x1 x2 x3 x4 : Vec Ideal S128 .f32) (b : Fin 64) (k : Fin 128) :
    (k1_pay116 (k1_pay3 x0 x1 x2 x3 x4)) (ix2 b k) = stagRow (k1_pay3 x0 x1 x2 x3 x4) 95 (by decide) (by decide) b k :=
  k1_pay116_apply (k1_pay3 x0 x1 x2 x3 x4) b k

theorem k1_pay117_apply (v30 : FVec Ideal S64x128x128 .f32) (b : Fin 64) (k : Fin 128) :
    k1_pay117 v30 (ix2 b k) = stagRow v30 96 (by decide) (by decide) b k :=
  stagRow_of_tailHead 96 (by decide) (by decide) v30 slices_S64x128x128_o0_95_96_S64x1x32 shapeCasts_S64x1x32_S64x32 slices_S64x128x128_o0_96_0_S64x1x96 shapeCasts_S64x1x96_S64x96 concatenates_S64x32_S64x96_S64x128_d1 (by rfl) b k

/-- Row 96 of the table, as the body composes it. -/
theorem k1_row96 (x0 : Vec Ideal S64x128 .f32) (x1 x2 x3 x4 : Vec Ideal S128 .f32) (b : Fin 64) (k : Fin 128) :
    (k1_pay117 (k1_pay3 x0 x1 x2 x3 x4)) (ix2 b k) = stagRow (k1_pay3 x0 x1 x2 x3 x4) 96 (by decide) (by decide) b k :=
  k1_pay117_apply (k1_pay3 x0 x1 x2 x3 x4) b k

theorem k1_pay118_apply (v30 : FVec Ideal S64x128x128 .f32) (b : Fin 64) (k : Fin 128) :
    k1_pay118 v30 (ix2 b k) = stagRow v30 97 (by decide) (by decide) b k :=
  stagRow_of_tailHead 97 (by decide) (by decide) v30 slices_S64x128x128_o0_96_97_S64x1x31 shapeCasts_S64x1x31_S64x31 slices_S64x128x128_o0_97_0_S64x1x97 shapeCasts_S64x1x97_S64x97 concatenates_S64x31_S64x97_S64x128_d1 (by rfl) b k

/-- Row 97 of the table, as the body composes it. -/
theorem k1_row97 (x0 : Vec Ideal S64x128 .f32) (x1 x2 x3 x4 : Vec Ideal S128 .f32) (b : Fin 64) (k : Fin 128) :
    (k1_pay118 (k1_pay3 x0 x1 x2 x3 x4)) (ix2 b k) = stagRow (k1_pay3 x0 x1 x2 x3 x4) 97 (by decide) (by decide) b k :=
  k1_pay118_apply (k1_pay3 x0 x1 x2 x3 x4) b k

theorem k1_pay119_apply (v30 : FVec Ideal S64x128x128 .f32) (b : Fin 64) (k : Fin 128) :
    k1_pay119 v30 (ix2 b k) = stagRow v30 98 (by decide) (by decide) b k :=
  stagRow_of_tailHead 98 (by decide) (by decide) v30 slices_S64x128x128_o0_97_98_S64x1x30 shapeCasts_S64x1x30_S64x30 slices_S64x128x128_o0_98_0_S64x1x98 shapeCasts_S64x1x98_S64x98 concatenates_S64x30_S64x98_S64x128_d1 (by rfl) b k

/-- Row 98 of the table, as the body composes it. -/
theorem k1_row98 (x0 : Vec Ideal S64x128 .f32) (x1 x2 x3 x4 : Vec Ideal S128 .f32) (b : Fin 64) (k : Fin 128) :
    (k1_pay119 (k1_pay3 x0 x1 x2 x3 x4)) (ix2 b k) = stagRow (k1_pay3 x0 x1 x2 x3 x4) 98 (by decide) (by decide) b k :=
  k1_pay119_apply (k1_pay3 x0 x1 x2 x3 x4) b k

theorem k1_pay122_apply (rd : FVec Ideal S64x128x128 .f32) (v525 : FVec Ideal S64x29 .f32) (v526 : FVec Ideal S64x1x99 .f32) (b : Fin 64) (k : Fin 128)
    (hx1 : ∀ k' : Fin 29, v525 (ix2 b k') = rd (ix3 b ⟨98, by decide⟩ ⟨99 + k'.val, by have := k'.isLt; omega⟩))
    (hx2 : ∀ k' : Fin 99, v526 (ix3 b (0 : Fin 1) k') = rd (ix3 b ⟨99, by decide⟩ ⟨k'.val, by have := k'.isLt; omega⟩)) :
    k1_pay122 v525 v526 (ix2 b k) = stagRow rd 99 (by decide) (by decide) b k :=
  stagRow_of_givenGiven 99 (by decide) (by decide) rd v525 v526 shapeCasts_S64x1x99_S64x99 concatenates_S64x29_S64x99_S64x128_d1 (by rfl) b k hx1 hx2

theorem k1_pay120_apply (v30 : FVec Ideal S64x128x128 .f32) (b : Fin 64) (k : Fin 29) :
    k1_pay120 v30 (ix2 b k) = v30 (ix3 b ⟨98, by decide⟩ ⟨99 + k.val, by have := k.isLt; omega⟩) :=
  seg_apply 98 99 v30 slices_S64x128x128_o0_98_99_S64x1x29 shapeCasts_S64x1x29_S64x29 b k _ _ rfl rfl

theorem k1_pay121_apply (v30 : FVec Ideal S64x128x128 .f32) (b : Fin 64) (k : Fin 99) :
    k1_pay121 v30 (ix3 b (0 : Fin 1) k) = v30 (ix3 b ⟨99, by decide⟩ ⟨k.val, by have := k.isLt; omega⟩) :=
  sliceSeg_apply 99 0 v30 slices_S64x128x128_o0_99_0_S64x1x99 b 0 k _ _ rfl (Nat.zero_add _).symm

/-- Row 99 of the table, as the body composes it. -/
theorem k1_row99 (x0 : Vec Ideal S64x128 .f32) (x1 x2 x3 x4 : Vec Ideal S128 .f32) (b : Fin 64) (k : Fin 128) :
    (k1_pay122 (k1_pay120 (k1_pay3 x0 x1 x2 x3 x4)) (k1_pay121 (k1_pay3 x0 x1 x2 x3 x4))) (ix2 b k) = stagRow (k1_pay3 x0 x1 x2 x3 x4) 99 (by decide) (by decide) b k :=
  k1_pay122_apply (k1_pay3 x0 x1 x2 x3 x4) (k1_pay120 (k1_pay3 x0 x1 x2 x3 x4)) (k1_pay121 (k1_pay3 x0 x1 x2 x3 x4)) b k (fun k' => k1_pay120_apply (k1_pay3 x0 x1 x2 x3 x4) b k') (fun k' => k1_pay121_apply (k1_pay3 x0 x1 x2 x3 x4) b k')

theorem k1_pay123_apply (v30 : FVec Ideal S64x128x128 .f32) (b : Fin 64) (k : Fin 128) :
    k1_pay123 v30 (ix2 b k) = stagRow v30 100 (by decide) (by decide) b k :=
  stagRow_of_tailHead 100 (by decide) (by decide) v30 slices_S64x128x128_o0_99_100_S64x1x28 shapeCasts_S64x1x28_S64x28 slices_S64x128x128_o0_100_0_S64x1x100 shapeCasts_S64x1x100_S64x100 concatenates_S64x28_S64x100_S64x128_d1 (by rfl) b k

/-- Row 100 of the table, as the body composes it. -/
theorem k1_row100 (x0 : Vec Ideal S64x128 .f32) (x1 x2 x3 x4 : Vec Ideal S128 .f32) (b : Fin 64) (k : Fin 128) :
    (k1_pay123 (k1_pay3 x0 x1 x2 x3 x4)) (ix2 b k) = stagRow (k1_pay3 x0 x1 x2 x3 x4) 100 (by decide) (by decide) b k :=
  k1_pay123_apply (k1_pay3 x0 x1 x2 x3 x4) b k

theorem k1_pay124_apply (v30 : FVec Ideal S64x128x128 .f32) (b : Fin 64) (k : Fin 128) :
    k1_pay124 v30 (ix2 b k) = stagRow v30 101 (by decide) (by decide) b k :=
  stagRow_of_tailHead 101 (by decide) (by decide) v30 slices_S64x128x128_o0_100_101_S64x1x27 shapeCasts_S64x1x27_S64x27 slices_S64x128x128_o0_101_0_S64x1x101 shapeCasts_S64x1x101_S64x101 concatenates_S64x27_S64x101_S64x128_d1 (by rfl) b k

/-- Row 101 of the table, as the body composes it. -/
theorem k1_row101 (x0 : Vec Ideal S64x128 .f32) (x1 x2 x3 x4 : Vec Ideal S128 .f32) (b : Fin 64) (k : Fin 128) :
    (k1_pay124 (k1_pay3 x0 x1 x2 x3 x4)) (ix2 b k) = stagRow (k1_pay3 x0 x1 x2 x3 x4) 101 (by decide) (by decide) b k :=
  k1_pay124_apply (k1_pay3 x0 x1 x2 x3 x4) b k

theorem k1_pay125_apply (v30 : FVec Ideal S64x128x128 .f32) (b : Fin 64) (k : Fin 128) :
    k1_pay125 v30 (ix2 b k) = stagRow v30 102 (by decide) (by decide) b k :=
  stagRow_of_tailHead 102 (by decide) (by decide) v30 slices_S64x128x128_o0_101_102_S64x1x26 shapeCasts_S64x1x26_S64x26 slices_S64x128x128_o0_102_0_S64x1x102 shapeCasts_S64x1x102_S64x102 concatenates_S64x26_S64x102_S64x128_d1 (by rfl) b k

/-- Row 102 of the table, as the body composes it. -/
theorem k1_row102 (x0 : Vec Ideal S64x128 .f32) (x1 x2 x3 x4 : Vec Ideal S128 .f32) (b : Fin 64) (k : Fin 128) :
    (k1_pay125 (k1_pay3 x0 x1 x2 x3 x4)) (ix2 b k) = stagRow (k1_pay3 x0 x1 x2 x3 x4) 102 (by decide) (by decide) b k :=
  k1_pay125_apply (k1_pay3 x0 x1 x2 x3 x4) b k

theorem k1_pay126_apply (v30 : FVec Ideal S64x128x128 .f32) (b : Fin 64) (k : Fin 128) :
    k1_pay126 v30 (ix2 b k) = stagRow v30 103 (by decide) (by decide) b k :=
  stagRow_of_tailHead 103 (by decide) (by decide) v30 slices_S64x128x128_o0_102_103_S64x1x25 shapeCasts_S64x1x25_S64x25 slices_S64x128x128_o0_103_0_S64x1x103 shapeCasts_S64x1x103_S64x103 concatenates_S64x25_S64x103_S64x128_d1 (by rfl) b k

/-- Row 103 of the table, as the body composes it. -/
theorem k1_row103 (x0 : Vec Ideal S64x128 .f32) (x1 x2 x3 x4 : Vec Ideal S128 .f32) (b : Fin 64) (k : Fin 128) :
    (k1_pay126 (k1_pay3 x0 x1 x2 x3 x4)) (ix2 b k) = stagRow (k1_pay3 x0 x1 x2 x3 x4) 103 (by decide) (by decide) b k :=
  k1_pay126_apply (k1_pay3 x0 x1 x2 x3 x4) b k

theorem k1_pay127_apply (v30 : FVec Ideal S64x128x128 .f32) (b : Fin 64) (k : Fin 128) :
    k1_pay127 v30 (ix2 b k) = stagRow v30 104 (by decide) (by decide) b k :=
  stagRow_of_tailHead 104 (by decide) (by decide) v30 slices_S64x128x128_o0_103_104_S64x1x24 shapeCasts_S64x1x24_S64x24 slices_S64x128x128_o0_104_0_S64x1x104 shapeCasts_S64x1x104_S64x104 concatenates_S64x24_S64x104_S64x128_d1 (by rfl) b k

/-- Row 104 of the table, as the body composes it. -/
theorem k1_row104 (x0 : Vec Ideal S64x128 .f32) (x1 x2 x3 x4 : Vec Ideal S128 .f32) (b : Fin 64) (k : Fin 128) :
    (k1_pay127 (k1_pay3 x0 x1 x2 x3 x4)) (ix2 b k) = stagRow (k1_pay3 x0 x1 x2 x3 x4) 104 (by decide) (by decide) b k :=
  k1_pay127_apply (k1_pay3 x0 x1 x2 x3 x4) b k

theorem k1_pay128_apply (v30 : FVec Ideal S64x128x128 .f32) (b : Fin 64) (k : Fin 128) :
    k1_pay128 v30 (ix2 b k) = stagRow v30 105 (by decide) (by decide) b k :=
  stagRow_of_tailHead 105 (by decide) (by decide) v30 slices_S64x128x128_o0_104_105_S64x1x23 shapeCasts_S64x1x23_S64x23 slices_S64x128x128_o0_105_0_S64x1x105 shapeCasts_S64x1x105_S64x105 concatenates_S64x23_S64x105_S64x128_d1 (by rfl) b k

/-- Row 105 of the table, as the body composes it. -/
theorem k1_row105 (x0 : Vec Ideal S64x128 .f32) (x1 x2 x3 x4 : Vec Ideal S128 .f32) (b : Fin 64) (k : Fin 128) :
    (k1_pay128 (k1_pay3 x0 x1 x2 x3 x4)) (ix2 b k) = stagRow (k1_pay3 x0 x1 x2 x3 x4) 105 (by decide) (by decide) b k :=
  k1_pay128_apply (k1_pay3 x0 x1 x2 x3 x4) b k

theorem k1_pay129_apply (v30 : FVec Ideal S64x128x128 .f32) (b : Fin 64) (k : Fin 128) :
    k1_pay129 v30 (ix2 b k) = stagRow v30 106 (by decide) (by decide) b k :=
  stagRow_of_tailHead 106 (by decide) (by decide) v30 slices_S64x128x128_o0_105_106_S64x1x22 shapeCasts_S64x1x22_S64x22 slices_S64x128x128_o0_106_0_S64x1x106 shapeCasts_S64x1x106_S64x106 concatenates_S64x22_S64x106_S64x128_d1 (by rfl) b k

/-- Row 106 of the table, as the body composes it. -/
theorem k1_row106 (x0 : Vec Ideal S64x128 .f32) (x1 x2 x3 x4 : Vec Ideal S128 .f32) (b : Fin 64) (k : Fin 128) :
    (k1_pay129 (k1_pay3 x0 x1 x2 x3 x4)) (ix2 b k) = stagRow (k1_pay3 x0 x1 x2 x3 x4) 106 (by decide) (by decide) b k :=
  k1_pay129_apply (k1_pay3 x0 x1 x2 x3 x4) b k

theorem k1_pay130_apply (v30 : FVec Ideal S64x128x128 .f32) (b : Fin 64) (k : Fin 128) :
    k1_pay130 v30 (ix2 b k) = stagRow v30 107 (by decide) (by decide) b k :=
  stagRow_of_tailHead 107 (by decide) (by decide) v30 slices_S64x128x128_o0_106_107_S64x1x21 shapeCasts_S64x1x21_S64x21 slices_S64x128x128_o0_107_0_S64x1x107 shapeCasts_S64x1x107_S64x107 concatenates_S64x21_S64x107_S64x128_d1 (by rfl) b k

/-- Row 107 of the table, as the body composes it. -/
theorem k1_row107 (x0 : Vec Ideal S64x128 .f32) (x1 x2 x3 x4 : Vec Ideal S128 .f32) (b : Fin 64) (k : Fin 128) :
    (k1_pay130 (k1_pay3 x0 x1 x2 x3 x4)) (ix2 b k) = stagRow (k1_pay3 x0 x1 x2 x3 x4) 107 (by decide) (by decide) b k :=
  k1_pay130_apply (k1_pay3 x0 x1 x2 x3 x4) b k

theorem k1_pay131_apply (v30 : FVec Ideal S64x128x128 .f32) (b : Fin 64) (k : Fin 128) :
    k1_pay131 v30 (ix2 b k) = stagRow v30 108 (by decide) (by decide) b k :=
  stagRow_of_tailHead 108 (by decide) (by decide) v30 slices_S64x128x128_o0_107_108_S64x1x20 shapeCasts_S64x1x20_S64x20 slices_S64x128x128_o0_108_0_S64x1x108 shapeCasts_S64x1x108_S64x108 concatenates_S64x20_S64x108_S64x128_d1 (by rfl) b k

/-- Row 108 of the table, as the body composes it. -/
theorem k1_row108 (x0 : Vec Ideal S64x128 .f32) (x1 x2 x3 x4 : Vec Ideal S128 .f32) (b : Fin 64) (k : Fin 128) :
    (k1_pay131 (k1_pay3 x0 x1 x2 x3 x4)) (ix2 b k) = stagRow (k1_pay3 x0 x1 x2 x3 x4) 108 (by decide) (by decide) b k :=
  k1_pay131_apply (k1_pay3 x0 x1 x2 x3 x4) b k

theorem k1_pay132_apply (v30 : FVec Ideal S64x128x128 .f32) (b : Fin 64) (k : Fin 128) :
    k1_pay132 v30 (ix2 b k) = stagRow v30 109 (by decide) (by decide) b k :=
  stagRow_of_tailHead 109 (by decide) (by decide) v30 slices_S64x128x128_o0_108_109_S64x1x19 shapeCasts_S64x1x19_S64x19 slices_S64x128x128_o0_109_0_S64x1x109 shapeCasts_S64x1x109_S64x109 concatenates_S64x19_S64x109_S64x128_d1 (by rfl) b k

/-- Row 109 of the table, as the body composes it. -/
theorem k1_row109 (x0 : Vec Ideal S64x128 .f32) (x1 x2 x3 x4 : Vec Ideal S128 .f32) (b : Fin 64) (k : Fin 128) :
    (k1_pay132 (k1_pay3 x0 x1 x2 x3 x4)) (ix2 b k) = stagRow (k1_pay3 x0 x1 x2 x3 x4) 109 (by decide) (by decide) b k :=
  k1_pay132_apply (k1_pay3 x0 x1 x2 x3 x4) b k

theorem k1_pay133_apply (v30 : FVec Ideal S64x128x128 .f32) (b : Fin 64) (k : Fin 128) :
    k1_pay133 v30 (ix2 b k) = stagRow v30 110 (by decide) (by decide) b k :=
  stagRow_of_tailHead 110 (by decide) (by decide) v30 slices_S64x128x128_o0_109_110_S64x1x18 shapeCasts_S64x1x18_S64x18 slices_S64x128x128_o0_110_0_S64x1x110 shapeCasts_S64x1x110_S64x110 concatenates_S64x18_S64x110_S64x128_d1 (by rfl) b k

/-- Row 110 of the table, as the body composes it. -/
theorem k1_row110 (x0 : Vec Ideal S64x128 .f32) (x1 x2 x3 x4 : Vec Ideal S128 .f32) (b : Fin 64) (k : Fin 128) :
    (k1_pay133 (k1_pay3 x0 x1 x2 x3 x4)) (ix2 b k) = stagRow (k1_pay3 x0 x1 x2 x3 x4) 110 (by decide) (by decide) b k :=
  k1_pay133_apply (k1_pay3 x0 x1 x2 x3 x4) b k

theorem k1_pay136_apply (rd : FVec Ideal S64x128x128 .f32) (v585 : FVec Ideal S64x17 .f32) (v586 : FVec Ideal S64x1x111 .f32) (b : Fin 64) (k : Fin 128)
    (hx1 : ∀ k' : Fin 17, v585 (ix2 b k') = rd (ix3 b ⟨110, by decide⟩ ⟨111 + k'.val, by have := k'.isLt; omega⟩))
    (hx2 : ∀ k' : Fin 111, v586 (ix3 b (0 : Fin 1) k') = rd (ix3 b ⟨111, by decide⟩ ⟨k'.val, by have := k'.isLt; omega⟩)) :
    k1_pay136 v585 v586 (ix2 b k) = stagRow rd 111 (by decide) (by decide) b k :=
  stagRow_of_givenGiven 111 (by decide) (by decide) rd v585 v586 shapeCasts_S64x1x111_S64x111 concatenates_S64x17_S64x111_S64x128_d1 (by rfl) b k hx1 hx2

theorem k1_pay134_apply (v30 : FVec Ideal S64x128x128 .f32) (b : Fin 64) (k : Fin 17) :
    k1_pay134 v30 (ix2 b k) = v30 (ix3 b ⟨110, by decide⟩ ⟨111 + k.val, by have := k.isLt; omega⟩) :=
  seg_apply 110 111 v30 slices_S64x128x128_o0_110_111_S64x1x17 shapeCasts_S64x1x17_S64x17 b k _ _ rfl rfl

theorem k1_pay135_apply (v30 : FVec Ideal S64x128x128 .f32) (b : Fin 64) (k : Fin 111) :
    k1_pay135 v30 (ix3 b (0 : Fin 1) k) = v30 (ix3 b ⟨111, by decide⟩ ⟨k.val, by have := k.isLt; omega⟩) :=
  sliceSeg_apply 111 0 v30 slices_S64x128x128_o0_111_0_S64x1x111 b 0 k _ _ rfl (Nat.zero_add _).symm

/-- Row 111 of the table, as the body composes it. -/
theorem k1_row111 (x0 : Vec Ideal S64x128 .f32) (x1 x2 x3 x4 : Vec Ideal S128 .f32) (b : Fin 64) (k : Fin 128) :
    (k1_pay136 (k1_pay134 (k1_pay3 x0 x1 x2 x3 x4)) (k1_pay135 (k1_pay3 x0 x1 x2 x3 x4))) (ix2 b k) = stagRow (k1_pay3 x0 x1 x2 x3 x4) 111 (by decide) (by decide) b k :=
  k1_pay136_apply (k1_pay3 x0 x1 x2 x3 x4) (k1_pay134 (k1_pay3 x0 x1 x2 x3 x4)) (k1_pay135 (k1_pay3 x0 x1 x2 x3 x4)) b k (fun k' => k1_pay134_apply (k1_pay3 x0 x1 x2 x3 x4) b k') (fun k' => k1_pay135_apply (k1_pay3 x0 x1 x2 x3 x4) b k')

theorem k1_pay137_apply (v30 : FVec Ideal S64x128x128 .f32) (b : Fin 64) (k : Fin 128) :
    k1_pay137 v30 (ix2 b k) = stagRow v30 112 (by decide) (by decide) b k :=
  stagRow_of_tailHead 112 (by decide) (by decide) v30 slices_S64x128x128_o0_111_112_S64x1x16 shapeCasts_S64x1x16_S64x16 slices_S64x128x128_o0_112_0_S64x1x112 shapeCasts_S64x1x112_S64x112 concatenates_S64x16_S64x112_S64x128_d1 (by rfl) b k

/-- Row 112 of the table, as the body composes it. -/
theorem k1_row112 (x0 : Vec Ideal S64x128 .f32) (x1 x2 x3 x4 : Vec Ideal S128 .f32) (b : Fin 64) (k : Fin 128) :
    (k1_pay137 (k1_pay3 x0 x1 x2 x3 x4)) (ix2 b k) = stagRow (k1_pay3 x0 x1 x2 x3 x4) 112 (by decide) (by decide) b k :=
  k1_pay137_apply (k1_pay3 x0 x1 x2 x3 x4) b k

theorem k1_pay138_apply (v30 : FVec Ideal S64x128x128 .f32) (b : Fin 64) (k : Fin 128) :
    k1_pay138 v30 (ix2 b k) = stagRow v30 113 (by decide) (by decide) b k :=
  stagRow_of_tailHead 113 (by decide) (by decide) v30 slices_S64x128x128_o0_112_113_S64x1x15 shapeCasts_S64x1x15_S64x15 slices_S64x128x128_o0_113_0_S64x1x113 shapeCasts_S64x1x113_S64x113 concatenates_S64x15_S64x113_S64x128_d1 (by rfl) b k

/-- Row 113 of the table, as the body composes it. -/
theorem k1_row113 (x0 : Vec Ideal S64x128 .f32) (x1 x2 x3 x4 : Vec Ideal S128 .f32) (b : Fin 64) (k : Fin 128) :
    (k1_pay138 (k1_pay3 x0 x1 x2 x3 x4)) (ix2 b k) = stagRow (k1_pay3 x0 x1 x2 x3 x4) 113 (by decide) (by decide) b k :=
  k1_pay138_apply (k1_pay3 x0 x1 x2 x3 x4) b k

theorem k1_pay139_apply (v30 : FVec Ideal S64x128x128 .f32) (b : Fin 64) (k : Fin 128) :
    k1_pay139 v30 (ix2 b k) = stagRow v30 114 (by decide) (by decide) b k :=
  stagRow_of_tailHead 114 (by decide) (by decide) v30 slices_S64x128x128_o0_113_114_S64x1x14 shapeCasts_S64x1x14_S64x14 slices_S64x128x128_o0_114_0_S64x1x114 shapeCasts_S64x1x114_S64x114 concatenates_S64x14_S64x114_S64x128_d1 (by rfl) b k

/-- Row 114 of the table, as the body composes it. -/
theorem k1_row114 (x0 : Vec Ideal S64x128 .f32) (x1 x2 x3 x4 : Vec Ideal S128 .f32) (b : Fin 64) (k : Fin 128) :
    (k1_pay139 (k1_pay3 x0 x1 x2 x3 x4)) (ix2 b k) = stagRow (k1_pay3 x0 x1 x2 x3 x4) 114 (by decide) (by decide) b k :=
  k1_pay139_apply (k1_pay3 x0 x1 x2 x3 x4) b k

theorem k1_pay140_apply (v30 : FVec Ideal S64x128x128 .f32) (b : Fin 64) (k : Fin 128) :
    k1_pay140 v30 (ix2 b k) = stagRow v30 115 (by decide) (by decide) b k :=
  stagRow_of_tailHead 115 (by decide) (by decide) v30 slices_S64x128x128_o0_114_115_S64x1x13 shapeCasts_S64x1x13_S64x13 slices_S64x128x128_o0_115_0_S64x1x115 shapeCasts_S64x1x115_S64x115 concatenates_S64x13_S64x115_S64x128_d1 (by rfl) b k

/-- Row 115 of the table, as the body composes it. -/
theorem k1_row115 (x0 : Vec Ideal S64x128 .f32) (x1 x2 x3 x4 : Vec Ideal S128 .f32) (b : Fin 64) (k : Fin 128) :
    (k1_pay140 (k1_pay3 x0 x1 x2 x3 x4)) (ix2 b k) = stagRow (k1_pay3 x0 x1 x2 x3 x4) 115 (by decide) (by decide) b k :=
  k1_pay140_apply (k1_pay3 x0 x1 x2 x3 x4) b k

theorem k1_pay141_apply (v30 : FVec Ideal S64x128x128 .f32) (b : Fin 64) (k : Fin 128) :
    k1_pay141 v30 (ix2 b k) = stagRow v30 116 (by decide) (by decide) b k :=
  stagRow_of_tailHead 116 (by decide) (by decide) v30 slices_S64x128x128_o0_115_116_S64x1x12 shapeCasts_S64x1x12_S64x12 slices_S64x128x128_o0_116_0_S64x1x116 shapeCasts_S64x1x116_S64x116 concatenates_S64x12_S64x116_S64x128_d1 (by rfl) b k

/-- Row 116 of the table, as the body composes it. -/
theorem k1_row116 (x0 : Vec Ideal S64x128 .f32) (x1 x2 x3 x4 : Vec Ideal S128 .f32) (b : Fin 64) (k : Fin 128) :
    (k1_pay141 (k1_pay3 x0 x1 x2 x3 x4)) (ix2 b k) = stagRow (k1_pay3 x0 x1 x2 x3 x4) 116 (by decide) (by decide) b k :=
  k1_pay141_apply (k1_pay3 x0 x1 x2 x3 x4) b k

theorem k1_pay142_apply (v30 : FVec Ideal S64x128x128 .f32) (b : Fin 64) (k : Fin 128) :
    k1_pay142 v30 (ix2 b k) = stagRow v30 117 (by decide) (by decide) b k :=
  stagRow_of_tailHead 117 (by decide) (by decide) v30 slices_S64x128x128_o0_116_117_S64x1x11 shapeCasts_S64x1x11_S64x11 slices_S64x128x128_o0_117_0_S64x1x117 shapeCasts_S64x1x117_S64x117 concatenates_S64x11_S64x117_S64x128_d1 (by rfl) b k

/-- Row 117 of the table, as the body composes it. -/
theorem k1_row117 (x0 : Vec Ideal S64x128 .f32) (x1 x2 x3 x4 : Vec Ideal S128 .f32) (b : Fin 64) (k : Fin 128) :
    (k1_pay142 (k1_pay3 x0 x1 x2 x3 x4)) (ix2 b k) = stagRow (k1_pay3 x0 x1 x2 x3 x4) 117 (by decide) (by decide) b k :=
  k1_pay142_apply (k1_pay3 x0 x1 x2 x3 x4) b k

theorem k1_pay143_apply (v30 : FVec Ideal S64x128x128 .f32) (b : Fin 64) (k : Fin 128) :
    k1_pay143 v30 (ix2 b k) = stagRow v30 118 (by decide) (by decide) b k :=
  stagRow_of_tailHead 118 (by decide) (by decide) v30 slices_S64x128x128_o0_117_118_S64x1x10 shapeCasts_S64x1x10_S64x10 slices_S64x128x128_o0_118_0_S64x1x118 shapeCasts_S64x1x118_S64x118 concatenates_S64x10_S64x118_S64x128_d1 (by rfl) b k

/-- Row 118 of the table, as the body composes it. -/
theorem k1_row118 (x0 : Vec Ideal S64x128 .f32) (x1 x2 x3 x4 : Vec Ideal S128 .f32) (b : Fin 64) (k : Fin 128) :
    (k1_pay143 (k1_pay3 x0 x1 x2 x3 x4)) (ix2 b k) = stagRow (k1_pay3 x0 x1 x2 x3 x4) 118 (by decide) (by decide) b k :=
  k1_pay143_apply (k1_pay3 x0 x1 x2 x3 x4) b k

theorem k1_pay144_apply (v30 : FVec Ideal S64x128x128 .f32) (b : Fin 64) (k : Fin 128) :
    k1_pay144 v30 (ix2 b k) = stagRow v30 119 (by decide) (by decide) b k :=
  stagRow_of_tailHead 119 (by decide) (by decide) v30 slices_S64x128x128_o0_118_119_S64x1x9 shapeCasts_S64x1x9_S64x9 slices_S64x128x128_o0_119_0_S64x1x119 shapeCasts_S64x1x119_S64x119 concatenates_S64x9_S64x119_S64x128_d1 (by rfl) b k

/-- Row 119 of the table, as the body composes it. -/
theorem k1_row119 (x0 : Vec Ideal S64x128 .f32) (x1 x2 x3 x4 : Vec Ideal S128 .f32) (b : Fin 64) (k : Fin 128) :
    (k1_pay144 (k1_pay3 x0 x1 x2 x3 x4)) (ix2 b k) = stagRow (k1_pay3 x0 x1 x2 x3 x4) 119 (by decide) (by decide) b k :=
  k1_pay144_apply (k1_pay3 x0 x1 x2 x3 x4) b k

theorem k1_pay145_apply (v30 : FVec Ideal S64x128x128 .f32) (b : Fin 64) (k : Fin 128) :
    k1_pay145 v30 (ix2 b k) = stagRow v30 120 (by decide) (by decide) b k :=
  stagRow_of_tailHead 120 (by decide) (by decide) v30 slices_S64x128x128_o0_119_120_S64x1x8 shapeCasts_S64x1x8_S64x8 slices_S64x128x128_o0_120_0_S64x1x120 shapeCasts_S64x1x120_S64x120 concatenates_S64x8_S64x120_S64x128_d1 (by rfl) b k

/-- Row 120 of the table, as the body composes it. -/
theorem k1_row120 (x0 : Vec Ideal S64x128 .f32) (x1 x2 x3 x4 : Vec Ideal S128 .f32) (b : Fin 64) (k : Fin 128) :
    (k1_pay145 (k1_pay3 x0 x1 x2 x3 x4)) (ix2 b k) = stagRow (k1_pay3 x0 x1 x2 x3 x4) 120 (by decide) (by decide) b k :=
  k1_pay145_apply (k1_pay3 x0 x1 x2 x3 x4) b k

theorem k1_pay146_apply (v30 : FVec Ideal S64x128x128 .f32) (b : Fin 64) (k : Fin 128) :
    k1_pay146 v30 (ix2 b k) = stagRow v30 121 (by decide) (by decide) b k :=
  stagRow_of_tailHead 121 (by decide) (by decide) v30 slices_S64x128x128_o0_120_121_S64x1x7 shapeCasts_S64x1x7_S64x7 slices_S64x128x128_o0_121_0_S64x1x121 shapeCasts_S64x1x121_S64x121 concatenates_S64x7_S64x121_S64x128_d1 (by rfl) b k

/-- Row 121 of the table, as the body composes it. -/
theorem k1_row121 (x0 : Vec Ideal S64x128 .f32) (x1 x2 x3 x4 : Vec Ideal S128 .f32) (b : Fin 64) (k : Fin 128) :
    (k1_pay146 (k1_pay3 x0 x1 x2 x3 x4)) (ix2 b k) = stagRow (k1_pay3 x0 x1 x2 x3 x4) 121 (by decide) (by decide) b k :=
  k1_pay146_apply (k1_pay3 x0 x1 x2 x3 x4) b k

theorem k1_pay147_apply (v30 : FVec Ideal S64x128x128 .f32) (b : Fin 64) (k : Fin 128) :
    k1_pay147 v30 (ix2 b k) = stagRow v30 122 (by decide) (by decide) b k :=
  stagRow_of_tailHead 122 (by decide) (by decide) v30 slices_S64x128x128_o0_121_122_S64x1x6 shapeCasts_S64x1x6_S64x6 slices_S64x128x128_o0_122_0_S64x1x122 shapeCasts_S64x1x122_S64x122 concatenates_S64x6_S64x122_S64x128_d1 (by rfl) b k

/-- Row 122 of the table, as the body composes it. -/
theorem k1_row122 (x0 : Vec Ideal S64x128 .f32) (x1 x2 x3 x4 : Vec Ideal S128 .f32) (b : Fin 64) (k : Fin 128) :
    (k1_pay147 (k1_pay3 x0 x1 x2 x3 x4)) (ix2 b k) = stagRow (k1_pay3 x0 x1 x2 x3 x4) 122 (by decide) (by decide) b k :=
  k1_pay147_apply (k1_pay3 x0 x1 x2 x3 x4) b k

theorem k1_pay150_apply (rd : FVec Ideal S64x128x128 .f32) (v645 : FVec Ideal S64x5 .f32) (v646 : FVec Ideal S64x1x123 .f32) (b : Fin 64) (k : Fin 128)
    (hx1 : ∀ k' : Fin 5, v645 (ix2 b k') = rd (ix3 b ⟨122, by decide⟩ ⟨123 + k'.val, by have := k'.isLt; omega⟩))
    (hx2 : ∀ k' : Fin 123, v646 (ix3 b (0 : Fin 1) k') = rd (ix3 b ⟨123, by decide⟩ ⟨k'.val, by have := k'.isLt; omega⟩)) :
    k1_pay150 v645 v646 (ix2 b k) = stagRow rd 123 (by decide) (by decide) b k :=
  stagRow_of_givenGiven 123 (by decide) (by decide) rd v645 v646 shapeCasts_S64x1x123_S64x123 concatenates_S64x5_S64x123_S64x128_d1 (by rfl) b k hx1 hx2

theorem k1_pay148_apply (v30 : FVec Ideal S64x128x128 .f32) (b : Fin 64) (k : Fin 5) :
    k1_pay148 v30 (ix2 b k) = v30 (ix3 b ⟨122, by decide⟩ ⟨123 + k.val, by have := k.isLt; omega⟩) :=
  seg_apply 122 123 v30 slices_S64x128x128_o0_122_123_S64x1x5 shapeCasts_S64x1x5_S64x5 b k _ _ rfl rfl

theorem k1_pay149_apply (v30 : FVec Ideal S64x128x128 .f32) (b : Fin 64) (k : Fin 123) :
    k1_pay149 v30 (ix3 b (0 : Fin 1) k) = v30 (ix3 b ⟨123, by decide⟩ ⟨k.val, by have := k.isLt; omega⟩) :=
  sliceSeg_apply 123 0 v30 slices_S64x128x128_o0_123_0_S64x1x123 b 0 k _ _ rfl (Nat.zero_add _).symm

/-- Row 123 of the table, as the body composes it. -/
theorem k1_row123 (x0 : Vec Ideal S64x128 .f32) (x1 x2 x3 x4 : Vec Ideal S128 .f32) (b : Fin 64) (k : Fin 128) :
    (k1_pay150 (k1_pay148 (k1_pay3 x0 x1 x2 x3 x4)) (k1_pay149 (k1_pay3 x0 x1 x2 x3 x4))) (ix2 b k) = stagRow (k1_pay3 x0 x1 x2 x3 x4) 123 (by decide) (by decide) b k :=
  k1_pay150_apply (k1_pay3 x0 x1 x2 x3 x4) (k1_pay148 (k1_pay3 x0 x1 x2 x3 x4)) (k1_pay149 (k1_pay3 x0 x1 x2 x3 x4)) b k (fun k' => k1_pay148_apply (k1_pay3 x0 x1 x2 x3 x4) b k') (fun k' => k1_pay149_apply (k1_pay3 x0 x1 x2 x3 x4) b k')

theorem k1_pay151_apply (v30 : FVec Ideal S64x128x128 .f32) (b : Fin 64) (k : Fin 128) :
    k1_pay151 v30 (ix2 b k) = stagRow v30 124 (by decide) (by decide) b k :=
  stagRow_of_tailHead 124 (by decide) (by decide) v30 slices_S64x128x128_o0_123_124_S64x1x4 shapeCasts_S64x1x4_S64x4 slices_S64x128x128_o0_124_0_S64x1x124 shapeCasts_S64x1x124_S64x124 concatenates_S64x4_S64x124_S64x128_d1 (by rfl) b k

/-- Row 124 of the table, as the body composes it. -/
theorem k1_row124 (x0 : Vec Ideal S64x128 .f32) (x1 x2 x3 x4 : Vec Ideal S128 .f32) (b : Fin 64) (k : Fin 128) :
    (k1_pay151 (k1_pay3 x0 x1 x2 x3 x4)) (ix2 b k) = stagRow (k1_pay3 x0 x1 x2 x3 x4) 124 (by decide) (by decide) b k :=
  k1_pay151_apply (k1_pay3 x0 x1 x2 x3 x4) b k

theorem k1_pay152_apply (v30 : FVec Ideal S64x128x128 .f32) (b : Fin 64) (k : Fin 128) :
    k1_pay152 v30 (ix2 b k) = stagRow v30 125 (by decide) (by decide) b k :=
  stagRow_of_tailHead 125 (by decide) (by decide) v30 slices_S64x128x128_o0_124_125_S64x1x3 shapeCasts_S64x1x3_S64x3 slices_S64x128x128_o0_125_0_S64x1x125 shapeCasts_S64x1x125_S64x125 concatenates_S64x3_S64x125_S64x128_d1 (by rfl) b k

/-- Row 125 of the table, as the body composes it. -/
theorem k1_row125 (x0 : Vec Ideal S64x128 .f32) (x1 x2 x3 x4 : Vec Ideal S128 .f32) (b : Fin 64) (k : Fin 128) :
    (k1_pay152 (k1_pay3 x0 x1 x2 x3 x4)) (ix2 b k) = stagRow (k1_pay3 x0 x1 x2 x3 x4) 125 (by decide) (by decide) b k :=
  k1_pay152_apply (k1_pay3 x0 x1 x2 x3 x4) b k

theorem k1_pay153_apply (v30 : FVec Ideal S64x128x128 .f32) (b : Fin 64) (k : Fin 128) :
    k1_pay153 v30 (ix2 b k) = stagRow v30 126 (by decide) (by decide) b k :=
  stagRow_of_tailHead 126 (by decide) (by decide) v30 slices_S64x128x128_o0_125_126_S64x1x2 shapeCasts_S64x1x2_S64x2 slices_S64x128x128_o0_126_0_S64x1x126 shapeCasts_S64x1x126_S64x126 concatenates_S64x2_S64x126_S64x128_d1 (by rfl) b k

/-- Row 126 of the table, as the body composes it. -/
theorem k1_row126 (x0 : Vec Ideal S64x128 .f32) (x1 x2 x3 x4 : Vec Ideal S128 .f32) (b : Fin 64) (k : Fin 128) :
    (k1_pay153 (k1_pay3 x0 x1 x2 x3 x4)) (ix2 b k) = stagRow (k1_pay3 x0 x1 x2 x3 x4) 126 (by decide) (by decide) b k :=
  k1_pay153_apply (k1_pay3 x0 x1 x2 x3 x4) b k

theorem k1_pay154_apply (v30 : FVec Ideal S64x128x128 .f32) (b : Fin 64) (k : Fin 128) :
    k1_pay154 v30 (ix2 b k) = stagRow v30 127 (by decide) (by decide) b k :=
  stagRow_of_tailHead 127 (by decide) (by decide) v30 slices_S64x128x128_o0_126_127_S64x1x1 shapeCasts_S64x1x1_S64x1 slices_S64x128x128_o0_127_0_S64x1x127 shapeCasts_S64x1x127_S64x127 concatenates_S64x1_S64x127_S64x128_d1 (by rfl) b k

/-- Row 127 of the table, as the body composes it. -/
theorem k1_row127 (x0 : Vec Ideal S64x128 .f32) (x1 x2 x3 x4 : Vec Ideal S128 .f32) (b : Fin 64) (k : Fin 128) :
    (k1_pay154 (k1_pay3 x0 x1 x2 x3 x4)) (ix2 b k) = stagRow (k1_pay3 x0 x1 x2 x3 x4) 127 (by decide) (by decide) b k :=
  k1_pay154_apply (k1_pay3 x0 x1 x2 x3 x4) b k

/-- The 128 pieces stack along the middle axis to [64, 128, 128]. -/
theorem k1_stack_concatenates (x0 : Vec Ideal S64x128 .f32) (x1 x2 x3 x4 : Vec Ideal S128 .f32) :
    Shape.Concatenates (((k1_pieces x0 x1 x2 x3 x4).map fun p => (⟨S64x1x128, p⟩ : (s : Shape) × (s.Idx → Ideal .f32))).map (·.1)) S64x128x128 1 :=
  concatenates_S64x1x128_S64x1x128_S64x1x128_S64x1x128_S64x1x128_S64x1x128_S64x1x128_S64x1x128_S64x1x128_S64x1x128_S64x1x128_S64x1x128_S64x1x128_S64x1x128_S64x1x128_S64x1x128_S64x1x128_S64x1x128_S64x1x128_S64x1x128_S64x1x128_S64x1x128_S64x1x128_S64x1x128_S64x1x128_S64x1x128_S64x1x128_S64x1x128_S64x1x128_S64x1x128_S64x1x128_S64x1x128_S64x1x128_S64x1x128_S64x1x128_S64x1x128_S64x1x128_S64x1x128_S64x1x128_S64x1x128_S64x1x128_S64x1x128_S64x1x128_S64x1x128_S64x1x128_S64x1x128_S64x1x128_S64x1x128_S64x1x128_S64x1x128_S64x1x128_S64x1x128_S64x1x128_S64x1x128_S64x1x128_S64x1x128_S64x1x128_S64x1x128_S64x1x128_S64x1x128_S64x1x128_S64x1x128_S64x1x128_S64x1x128_S64x1x128_S64x1x128_S64x1x128_S64x1x128_S64x1x128_S64x1x128_S64x1x128_S64x1x128_S64x1x128_S64x1x128_S64x1x128_S64x1x128_S64x1x128_S64x1x128_S64x1x128_S64x1x128_S64x1x128_S64x1x128_S64x1x128_S64x1x128_S64x1x128_S64x1x128_S64x1x128_S64x1x128_S64x1x128_S64x1x128_S64x1x128_S64x1x128_S64x1x128_S64x1x128_S64x1x128_S64x1x128_S64x1x128_S64x1x128_S64x1x128_S64x1x128_S64x1x128_S64x1x128_S64x1x128_S64x1x128_S64x1x128_S64x1x128_S64x1x128_S64x1x128_S64x1x128_S64x1x128_S64x1x128_S64x1x128_S64x1x128_S64x1x128_S64x1x128_S64x1x128_S64x1x128_S64x1x128_S64x1x128_S64x1x128_S64x1x128_S64x1x128_S64x1x128_S64x1x128_S64x1x128_S64x1x128_S64x1x128_S64x1x128_S64x128x128_d1

theorem k1_pieces_length (x0 : Vec Ideal S64x128 .f32) (x1 x2 x3 x4 : Vec Ideal S128 .f32) : (k1_pieces x0 x1 x2 x3 x4).length = 128 := rfl

/-- The stacked pieces are, one by one, the rows of the table: piece 0 the clamped tile, piece i ≥ 1 the staggered row i
    of the clamped products. -/
theorem k1_pieces_rows (x0 : Vec Ideal S64x128 .f32) (x1 x2 x3 x4 : Vec Ideal S128 .f32) (b : Fin 64) (k : Fin 128) :
    AllRows (k1_pieces x0 x1 x2 x3 x4) 0 (fun i => tableRowN (k1_pay4 x0 x1 x2 x3 x4) (k1_pay3 x0 x1 x2 x3 x4) i b k) (ix3 b (0 : Fin 1) k) :=
  allRows_cons (addMid_apply (k1_pay4 x0 x1 x2 x3 x4) shapeCasts_S64x128_S64x1x128 b 0 k) <|
  allRows_cons ((addMid_apply (k1_pay6 x0 x1 x2 x3 x4) shapeCasts_S64x128_S64x1x128 b 0 k).trans (k1_row1 x0 x1 x2 x3 x4 b k)) <|
  allRows_cons ((addMid_apply (k1_pay7 x0 x1 x2 x3 x4) shapeCasts_S64x128_S64x1x128 b 0 k).trans (k1_row2 x0 x1 x2 x3 x4 b k)) <|
  allRows_cons ((addMid_apply (k1_pay10 (k1_pay8 x0 x1 x2 x3 x4) (k1_pay9 x0 x1 x2 x3 x4)) shapeCasts_S64x128_S64x1x128 b 0 k).trans (k1_row3 x0 x1 x2 x3 x4 b k)) <|
  allRows_cons ((addMid_apply (k1_pay11 (k1_pay3 x0 x1 x2 x3 x4)) shapeCasts_S64x128_S64x1x128 b 0 k).trans (k1_row4 x0 x1 x2 x3 x4 b k)) <|
  allRows_cons ((addMid_apply (k1_pay12 (k1_pay3 x0 x1 x2 x3 x4)) shapeCasts_S64x128_S64x1x128 b 0 k).trans (k1_row5 x0 x1 x2 x3 x4 b k)) <|
  allRows_cons ((addMid_apply (k1_pay13 (k1_pay3 x0 x1 x2 x3 x4)) shapeCasts_S64x128_S64x1x128 b 0 k).trans (k1_row6 x0 x1 x2 x3 x4 b k)) <|
  allRows_cons ((addMid_apply (k1_pay14 (k1_pay3 x0 x1 x2 x3 x4)) shapeCasts_S64x128_S64x1x128 b 0 k).trans (k1_row7 x0 x1 x2 x3 x4 b k)) <|
  allRows_cons ((addMid_apply (k1_pay15 (k1_pay3 x0 x1 x2 x3 x4)) shapeCasts_S64x128_S64x1x128 b 0 k).trans (k1_row8 x0 x1 x2 x3 x4 b k)) <|
  allRows_cons ((addMid_apply (k1_pay16 (k1_pay3 x0 x1 x2 x3 x4)) shapeCasts_S64x128_S64x1x128 b 0 k).trans (k1_row9 x0 x1 x2 x3 x4 b k)) <|
  allRows_cons ((addMid_apply (k1_pay17 (k1_pay3 x0 x1 x2 x3 x4)) shapeCasts_S64x128_S64x1x128 b 0 k).trans (k1_row10 x0 x1 x2 x3 x4 b k)) <|
  allRows_cons ((addMid_apply (k1_pay18 (k1_pay3 x0 x1 x2 x3 x4)) shapeCasts_S64x128_S64x1x128 b 0 k).trans (k1_row11 x0 x1 x2 x3 x4 b k)) <|
  allRows_cons ((addMid_apply (k1_pay19 (k1_pay3 x0 x1 x2 x3 x4)) shapeCasts_S64x128_S64x1x128 b 0 k).trans (k1_row12 x0 x1 x2 x3 x4 b k)) <|
  allRows_cons ((addMid_apply (k1_pay20 (k1_pay3 x0 x1 x2 x3 x4)) shapeCasts_S64x128_S64x1x128 b 0 k).trans (k1_row13 x0 x1 x2 x3 x4 b k)) <|
  allRows_cons ((addMid_apply (k1_pay21 (k1_pay3 x0 x1 x2 x3 x4)) shapeCasts_S64x128_S64x1x128 b 0 k).trans (k1_row14 x0 x1 x2 x3 x4 b k)) <|
  allRows_cons ((addMid_apply (k1_pay24 (k1_pay22 (k1_pay3 x0 x1 x2 x3 x4)) (k1_pay23 (k1_pay3 x0 x1 x2 x3 x4))) shapeCasts_S64x128_S64x1x128 b 0 k).trans (k1_row15 x0 x1 x2 x3 x4 b k)) <|
  allRows_cons ((addMid_apply (k1_pay25 (k1_pay3 x0 x1 x2 x3 x4)) shapeCasts_S64x128_S64x1x128 b 0 k).trans (k1_row16 x0 x1 x2 x3 x4 b k)) <|
  allRows_cons ((addMid_apply (k1_pay26 (k1_pay3 x0 x1 x2 x3 x4)) shapeCasts_S64x128_S64x1x128 b 0 k).trans (k1_row17 x0 x1 x2 x3 x4 b k)) <|
  allRows_cons ((addMid_apply (k1_pay27 (k1_pay3 x0 x1 x2 x3 x4)) shapeCasts_S64x128_S64x1x128 b 0 k).trans (k1_row18 x0 x1 x2 x3 x4 b k)) <|
  allRows_cons ((addMid_apply (k1_pay28 (k1_pay3 x0 x1 x2 x3 x4)) shapeCasts_S64x128_S64x1x128 b 0 k).trans (k1_row19 x0 x1 x2 x3 x4 b k)) <|
  allRows_cons ((addMid_apply (k1_pay29 (k1_pay3 x0 x1 x2 x3 x4)) shapeCasts_S64x128_S64x1x128 b 0 k).trans (k1_row20 x0 x1 x2 x3 x4 b k)) <|
  allRows_cons ((addMid_apply (k1_pay30 (k1_pay3 x0 x1 x2 x3 x4)) shapeCasts_S64x128_S64x1x128 b 0 k).trans (k1_row21 x0 x1 x2 x3 x4 b k)) <|
  allRows_cons ((addMid_apply (k1_pay31 (k1_pay3 x0 x1 x2 x3 x4)) shapeCasts_S64x128_S64x1x128 b 0 k).trans (k1_row22 x0 x1 x2 x3 x4 b k)) <|
  allRows_cons ((addMid_apply (k1_pay32 (k1_pay3 x0 x1 x2 x3 x4)) shapeCasts_S64x128_S64x1x128 b 0 k).trans (k1_row23 x0 x1 x2 x3 x4 b k)) <|
  allRows_cons ((addMid_apply (k1_pay33 (k1_pay3 x0 x1 x2 x3 x4)) shapeCasts_S64x128_S64x1x128 b 0 k).trans (k1_row24 x0 x1 x2 x3 x4 b k)) <|
  allRows_cons ((addMid_apply (k1_pay34 (k1_pay3 x0 x1 x2 x3 x4)) shapeCasts_S64x128_S64x1x128 b 0 k).trans (k1_row25 x0 x1 x2 x3 x4 b k)) <|
  allRows_cons ((addMid_apply (k1_pay35 (k1_pay3 x0 x1 x2 x3 x4)) shapeCasts_S64x128_S64x1x128 b 0 k).trans (k1_row26 x0 x1 x2 x3 x4 b k)) <|
  allRows_cons ((addMid_apply (k1_pay38 (k1_pay36 (k1_pay3 x0 x1 x2 x3 x4)) (k1_pay37 (k1_pay3 x0 x1 x2 x3 x4))) shapeCasts_S64x128_S64x1x128 b 0 k).trans (k1_row27 x0 x1 x2 x3 x4 b k)) <|
  allRows_cons ((addMid_apply (k1_pay39 (k1_pay3 x0 x1 x2 x3 x4)) shapeCasts_S64x128_S64x1x128 b 0 k).trans (k1_row28 x0 x1 x2 x3 x4 b k)) <|
  allRows_cons ((addMid_apply (k1_pay40 (k1_pay3 x0 x1 x2 x3 x4)) shapeCasts_S64x128_S64x1x128 b 0 k).trans (k1_row29 x0 x1 x2 x3 x4 b k)) <|
  allRows_cons ((addMid_apply (k1_pay41 (k1_pay3 x0 x1 x2 x3 x4)) shapeCasts_S64x128_S64x1x128 b 0 k).trans (k1_row30 x0 x1 x2 x3 x4 b k)) <|
  allRows_cons ((addMid_apply (k1_pay42 (k1_pay3 x0 x1 x2 x3 x4)) shapeCasts_S64x128_S64x1x128 b 0 k).trans (k1_row31 x0 x1 x2 x3 x4 b k)) <|
  allRows_cons ((addMid_apply (k1_pay43 (k1_pay3 x0 x1 x2 x3 x4)) shapeCasts_S64x128_S64x1x128 b 0 k).trans (k1_row32 x0 x1 x2 x3 x4 b k)) <|
  allRows_cons ((addMid_apply (k1_pay44 (k1_pay3 x0 x1 x2 x3 x4)) shapeCasts_S64x128_S64x1x128 b 0 k).trans (k1_row33 x0 x1 x2 x3 x4 b k)) <|
  allRows_cons ((addMid_apply (k1_pay45 (k1_pay3 x0 x1 x2 x3 x4)) shapeCasts_S64x128_S64x1x128 b 0 k).trans (k1_row34 x0 x1 x2 x3 x4 b k)) <|
  allRows_cons ((addMid_apply (k1_pay46 (k1_pay3 x0 x1 x2 x3 x4)) shapeCasts_S64x128_S64x1x128 b 0 k).trans (k1_row35 x0 x1 x2 x3 x4 b k)) <|
  allRows_cons ((addMid_apply (k1_pay47 (k1_pay3 x0 x1 x2 x3 x4)) shapeCasts_S64x128_S64x1x128 b 0 k).trans (k1_row36 x0 x1 x2 x3 x4 b k)) <|
  allRows_cons ((addMid_apply (k1_pay48 (k1_pay3 x0 x1 x2 x3 x4)) shapeCasts_S64x128_S64x1x128 b 0 k).trans (k1_row37 x0 x1 x2 x3 x4 b k)) <|
  allRows_cons ((addMid_apply (k1_pay49 (k1_pay3 x0 x1 x2 x3 x4)) shapeCasts_S64x128_S64x1x128 b 0 k).trans (k1_row38 x0 x1 x2 x3 x4 b k)) <|
  allRows_cons ((addMid_apply (k1_pay52 (k1_pay50 (k1_pay3 x0 x1 x2 x3 x4)) (k1_pay51 (k1_pay3 x0 x1 x2 x3 x4))) shapeCasts_S64x128_S64x1x128 b 0 k).trans (k1_row39 x0 x1 x2 x3 x4 b k)) <|
  allRows_cons ((addMid_apply (k1_pay53 (k1_pay3 x0 x1 x2 x3 x4)) shapeCasts_S64x128_S64x1x128 b 0 k).trans (k1_row40 x0 x1 x2 x3 x4 b k)) <|
  allRows_cons ((addMid_apply (k1_pay54 (k1_pay3 x0 x1 x2 x3 x4)) shapeCasts_S64x128_S64x1x128 b 0 k).trans (k1_row41 x0 x1 x2 x3 x4 b k)) <|
  allRows_cons ((addMid_apply (k1_pay55 (k1_pay3 x0 x1 x2 x3 x4)) shapeCasts_S64x128_S64x1x128 b 0 k).trans (k1_row42 x0 x1 x2 x3 x4 b k)) <|
  allRows_cons ((addMid_apply (k1_pay56 (k1_pay3 x0 x1 x2 x3 x4)) shapeCasts_S64x128_S64x1x128 b 0 k).trans (k1_row43 x0 x1 x2 x3 x4 b k)) <|
  allRows_cons ((addMid_apply (k1_pay57 (k1_pay3 x0 x1 x2 x3 x4)) shapeCasts_S64x128_S64x1x128 b 0 k).trans (k1_row44 x0 x1 x2 x3 x4 b k)) <|
  allRows_cons ((addMid_apply (k1_pay58 (k1_pay3 x0 x1 x2 x3 x4)) shapeCasts_S64x128_S64x1x128 b 0 k).trans (k1_row45 x0 x1 x2 x3 x4 b k)) <|
  allRows_cons ((addMid_apply (k1_pay59 (k1_pay3 x0 x1 x2 x3 x4)) shapeCasts_S64x128_S64x1x128 b 0 k).trans (k1_row46 x0 x1 x2 x3 x4 b k)) <|
  allRows_cons ((addMid_apply (k1_pay60 (k1_pay3 x0 x1 x2 x3 x4)) shapeCasts_S64x128_S64x1x128 b 0 k).trans (k1_row47 x0 x1 x2 x3 x4 b k)) <|
  allRows_cons ((addMid_apply (k1_pay61 (k1_pay3 x0 x1 x2 x3 x4)) shapeCasts_S64x128_S64x1x128 b 0 k).trans (k1_row48 x0 x1 x2 x3 x4 b k)) <|
  allRows_cons ((addMid_apply (k1_pay62 (k1_pay3 x0 x1 x2 x3 x4)) shapeCasts_S64x128_S64x1x128 b 0 k).trans (k1_row49 x0 x1 x2 x3 x4 b k)) <|
  allRows_cons ((addMid_apply (k1_pay63 (k1_pay3 x0 x1 x2 x3 x4)) shapeCasts_S64x128_S64x1x128 b 0 k).trans (k1_row50 x0 x1 x2 x3 x4 b k)) <|
  allRows_cons ((addMid_apply (k1_pay66 (k1_pay64 (k1_pay3 x0 x1 x2 x3 x4)) (k1_pay65 (k1_pay3 x0 x1 x2 x3 x4))) shapeCasts_S64x128_S64x1x128 b 0 k).trans (k1_row51 x0 x1 x2 x3 x4 b k)) <|
  allRows_cons ((addMid_apply (k1_pay67 (k1_pay3 x0 x1 x2 x3 x4)) shapeCasts_S64x128_S64x1x128 b 0 k).trans (k1_row52 x0 x1 x2 x3 x4 b k)) <|
  allRows_cons ((addMid_apply (k1_pay68 (k1_pay3 x0 x1 x2 x3 x4)) shapeCasts_S64x128_S64x1x128 b 0 k).trans (k1_row53 x0 x1 x2 x3 x4 b k)) <|
  allRows_cons ((addMid_apply (k1_pay69 (k1_pay3 x0 x1 x2 x3 x4)) shapeCasts_S64x128_S64x1x128 b 0 k).trans (k1_row54 x0 x1 x2 x3 x4 b k)) <|
  allRows_cons ((addMid_apply (k1_pay70 (k1_pay3 x0 x1 x2 x3 x4)) shapeCasts_S64x128_S64x1x128 b 0 k).trans (k1_row55 x0 x1 x2 x3 x4 b k)) <|
  allRows_cons ((addMid_apply (k1_pay71 (k1_pay3 x0 x1 x2 x3 x4)) shapeCasts_S64x128_S64x1x128 b 0 k).trans (k1_row56 x0 x1 x2 x3 x4 b k)) <|
  allRows_cons ((addMid_apply (k1_pay72 (k1_pay3 x0 x1 x2 x3 x4)) shapeCasts_S64x128_S64x1x128 b 0 k).trans (k1_row57 x0 x1 x2 x3 x4 b k)) <|
  allRows_cons ((addMid_apply (k1_pay73 (k1_pay3 x0 x1 x2 x3 x4)) shapeCasts_S64x128_S64x1x128 b 0 k).trans (k1_row58 x0 x1 x2 x3 x4 b k)) <|
  allRows_cons ((addMid_apply (k1_pay74 (k1_pay3 x0 x1 x2 x3 x4)) shapeCasts_S64x128_S64x1x128 b 0 k).trans (k1_row59 x0 x1 x2 x3 x4 b k)) <|
  allRows_cons ((addMid_apply (k1_pay75 (k1_pay3 x0 x1 x2 x3 x4)) shapeCasts_S64x128_S64x1x128 b 0 k).trans (k1_row60 x0 x1 x2 x3 x4 b k)) <|
  allRows_cons ((addMid_apply (k1_pay76 (k1_pay3 x0 x1 x2 x3 x4)) shapeCasts_S64x128_S64x1x128 b 0 k).trans (k1_row61 x0 x1 x2 x3 x4 b k)) <|
  allRows_cons ((addMid_apply (k1_pay77 (k1_pay3 x0 x1 x2 x3 x4)) shapeCasts_S64x128_S64x1x128 b 0 k).trans (k1_row62 x0 x1 x2 x3 x4 b k)) <|
  allRows_cons ((addMid_apply (k1_pay80 (k1_pay78 (k1_pay3 x0 x1 x2 x3 x4)) (k1_pay79 (k1_pay3 x0 x1 x2 x3 x4))) shapeCasts_S64x128_S64x1x128 b 0 k).trans (k1_row63 x0 x1 x2 x3 x4 b k)) <|
  allRows_cons ((addMid_apply (k1_pay81 (k1_pay3 x0 x1 x2 x3 x4)) shapeCasts_S64x128_S64x1x128 b 0 k).trans (k1_row64 x0 x1 x2 x3 x4 b k)) <|
  allRows_cons ((addMid_apply (k1_pay82 (k1_pay3 x0 x1 x2 x3 x4)) shapeCasts_S64x128_S64x1x128 b 0 k).trans (k1_row65 x0 x1 x2 x3 x4 b k)) <|
  allRows_cons ((addMid_apply (k1_pay83 (k1_pay3 x0 x1 x2 x3 x4)) shapeCasts_S64x128_S64x1x128 b 0 k).trans (k1_row66 x0 x1 x2 x3 x4 b k)) <|
  allRows_cons ((addMid_apply (k1_pay84 (k1_pay3 x0 x1 x2 x3 x4)) shapeCasts_S64x128_S64x1x128 b 0 k).trans (k1_row67 x0 x1 x2 x3 x4 b k)) <|
  allRows_cons ((addMid_apply (k1_pay85 (k1_pay3 x0 x1 x2 x3 x4)) shapeCasts_S64x128_S64x1x128 b 0 k).trans (k1_row68 x0 x1 x2 x3 x4 b k)) <|
  allRows_cons ((addMid_apply (k1_pay86 (k1_pay3 x0 x1 x2 x3 x4)) shapeCasts_S64x128_S64x1x128 b 0 k).trans (k1_row69 x0 x1 x2 x3 x4 b k)) <|
  allRows_cons ((addMid_apply (k1_pay87 (k1_pay3 x0 x1 x2 x3 x4)) shapeCasts_S64x128_S64x1x128 b 0 k).trans (k1_row70 x0 x1 x2 x3 x4 b k)) <|
  allRows_cons ((addMid_apply (k1_pay88 (k1_pay3 x0 x1 x2 x3 x4)) shapeCasts_S64x128_S64x1x128 b 0 k).trans (k1_row71 x0 x1 x2 x3 x4 b k)) <|
  allRows_cons ((addMid_apply (k1_pay89 (k1_pay3 x0 x1 x2 x3 x4)) shapeCasts_S64x128_S64x1x128 b 0 k).trans (k1_row72 x0 x1 x2 x3 x4 b k)) <|
  allRows_cons ((addMid_apply (k1_pay90 (k1_pay3 x0 x1 x2 x3 x4)) shapeCasts_S64x128_S64x1x128 b 0 k).trans (k1_row73 x0 x1 x2 x3 x4 b k)) <|
  allRows_cons ((addMid_apply (k1_pay91 (k1_pay3 x0 x1 x2 x3 x4)) shapeCasts_S64x128_S64x1x128 b 0 k).trans (k1_row74 x0 x1 x2 x3 x4 b k)) <|
  allRows_cons ((addMid_apply (k1_pay94 (k1_pay92 (k1_pay3 x0 x1 x2 x3 x4)) (k1_pay93 (k1_pay3 x0 x1 x2 x3 x4))) shapeCasts_S64x128_S64x1x128 b 0 k).trans (k1_row75 x0 x1 x2 x3 x4 b k)) <|
  allRows_cons ((addMid_apply (k1_pay95 (k1_pay3 x0 x1 x2 x3 x4)) shapeCasts_S64x128_S64x1x128 b 0 k).trans (k1_row76 x0 x1 x2 x3 x4 b k)) <|
  allRows_cons ((addMid_apply (k1_pay96 (k1_pay3 x0 x1 x2 x3 x4)) shapeCasts_S64x128_S64x1x128 b 0 k).trans (k1_row77 x0 x1 x2 x3 x4 b k)) <|
  allRows_cons ((addMid_apply (k1_pay97 (k1_pay3 x0 x1 x2 x3 x4)) shapeCasts_S64x128_S64x1x128 b 0 k).trans (k1_row78 x0 x1 x2 x3 x4 b k)) <|
  allRows_cons ((addMid_apply (k1_pay98 (k1_pay3 x0 x1 x2 x3 x4)) shapeCasts_S64x128_S64x1x128 b 0 k).trans (k1_row79 x0 x1 x2 x3 x4 b k)) <|
  allRows_cons ((addMid_apply (k1_pay99 (k1_pay3 x0 x1 x2 x3 x4)) shapeCasts_S64x128_S64x1x128 b 0 k).trans (k1_row80 x0 x1 x2 x3 x4 b k)) <|
  allRows_cons ((addMid_apply (k1_pay100 (k1_pay3 x0 x1 x2 x3 x4)) shapeCasts_S64x128_S64x1x128 b 0 k).trans (k1_row81 x0 x1 x2 x3 x4 b k)) <|
  allRows_cons ((addMid_apply (k1_pay101 (k1_pay3 x0 x1 x2 x3 x4)) shapeCasts_S64x128_S64x1x128 b 0 k).trans (k1_row82 x0 x1 x2 x3 x4 b k)) <|
  allRows_cons ((addMid_apply (k1_pay102 (k1_pay3 x0 x1 x2 x3 x4)) shapeCasts_S64x128_S64x1x128 b 0 k).trans (k1_row83 x0 x1 x2 x3 x4 b k)) <|
  allRows_cons ((addMid_apply (k1_pay103 (k1_pay3 x0 x1 x2 x3 x4)) shapeCasts_S64x128_S64x1x128 b 0 k).trans (k1_row84 x0 x1 x2 x3 x4 b k)) <|
  allRows_cons ((addMid_apply (k1_pay104 (k1_pay3 x0 x1 x2 x3 x4)) shapeCasts_S64x128_S64x1x128 b 0 k).trans (k1_row85 x0 x1 x2 x3 x4 b k)) <|
  allRows_cons ((addMid_apply (k1_pay105 (k1_pay3 x0 x1 x2 x3 x4)) shapeCasts_S64x128_S64x1x128 b 0 k).trans (k1_row86 x0 x1 x2 x3 x4 b k)) <|
  allRows_cons ((addMid_apply (k1_pay108 (k1_pay106 (k1_pay3 x0 x1 x2 x3 x4)) (k1_pay107 (k1_pay3 x0 x1 x2 x3 x4))) shapeCasts_S64x128_S64x1x128 b 0 k).trans (k1_row87 x0 x1 x2 x3 x4 b k)) <|
  allRows_cons ((addMid_apply (k1_pay109 (k1_pay3 x0 x1 x2 x3 x4)) shapeCasts_S64x128_S64x1x128 b 0 k).trans (k1_row88 x0 x1 x2 x3 x4 b k)) <|
  allRows_cons ((addMid_apply (k1_pay110 (k1_pay3 x0 x1 x2 x3 x4)) shapeCasts_S64x128_S64x1x128 b 0 k).trans (k1_row89 x0 x1 x2 x3 x4 b k)) <|
  allRows_cons ((addMid_apply (k1_pay111 (k1_pay3 x0 x1 x2 x3 x4)) shapeCasts_S64x128_S64x1x128 b 0 k).trans (k1_row90 x0 x1 x2 x3 x4 b k)) <|
  allRows_cons ((addMid_apply (k1_pay112 (k1_pay3 x0 x1 x2 x3 x4)) shapeCasts_S64x128_S64x1x128 b 0 k).trans (k1_row91 x0 x1 x2 x3 x4 b k)) <|
  allRows_cons ((addMid_apply (k1_pay113 (k1_pay3 x0 x1 x2 x3 x4)) shapeCasts_S64x128_S64x1x128 b 0 k).trans (k1_row92 x0 x1 x2 x3 x4 b k)) <|
  allRows_cons ((addMid_apply (k1_pay114 (k1_pay3 x0 x1 x2 x3 x4)) shapeCasts_S64x128_S64x1x128 b 0 k).trans (k1_row93 x0 x1 x2 x3 x4 b k)) <|
  allRows_cons ((addMid_apply (k1_pay115 (k1_pay3 x0 x1 x2 x3 x4)) shapeCasts_S64x128_S64x1x128 b 0 k).trans (k1_row94 x0 x1 x2 x3 x4 b k)) <|
  allRows_cons ((addMid_apply (k1_pay116 (k1_pay3 x0 x1 x2 x3 x4)) shapeCasts_S64x128_S64x1x128 b 0 k).trans (k1_row95 x0 x1 x2 x3 x4 b k)) <|
  allRows_cons ((addMid_apply (k1_pay117 (k1_pay3 x0 x1 x2 x3 x4)) shapeCasts_S64x128_S64x1x128 b 0 k).trans (k1_row96 x0 x1 x2 x3 x4 b k)) <|
  allRows_cons ((addMid_apply (k1_pay118 (k1_pay3 x0 x1 x2 x3 x4)) shapeCasts_S64x128_S64x1x128 b 0 k).trans (k1_row97 x0 x1 x2 x3 x4 b k)) <|
  allRows_cons ((addMid_apply (k1_pay119 (k1_pay3 x0 x1 x2 x3 x4)) shapeCasts_S64x128_S64x1x128 b 0 k).trans (k1_row98 x0 x1 x2 x3 x4 b k)) <|
  allRows_cons ((addMid_apply (k1_pay122 (k1_pay120 (k1_pay3 x0 x1 x2 x3 x4)) (k1_pay121 (k1_pay3 x0 x1 x2 x3 x4))) shapeCasts_S64x128_S64x1x128 b 0 k).trans (k1_row99 x0 x1 x2 x3 x4 b k)) <|
  allRows_cons ((addMid_apply (k1_pay123 (k1_pay3 x0 x1 x2 x3 x4)) shapeCasts_S64x128_S64x1x128 b 0 k).trans (k1_row100 x0 x1 x2 x3 x4 b k)) <|
  allRows_cons ((addMid_apply (k1_pay124 (k1_pay3 x0 x1 x2 x3 x4)) shapeCasts_S64x128_S64x1x128 b 0 k).trans (k1_row101 x0 x1 x2 x3 x4 b k)) <|
  allRows_cons ((addMid_apply (k1_pay125 (k1_pay3 x0 x1 x2 x3 x4)) shapeCasts_S64x128_S64x1x128 b 0 k).trans (k1_row102 x0 x1 x2 x3 x4 b k)) <|
  allRows_cons ((addMid_apply (k1_pay126 (k1_pay3 x0 x1 x2 x3 x4)) shapeCasts_S64x128_S64x1x128 b 0 k).trans (k1_row103 x0 x1 x2 x3 x4 b k)) <|
  allRows_cons ((addMid_apply (k1_pay127 (k1_pay3 x0 x1 x2 x3 x4)) shapeCasts_S64x128_S64x1x128 b 0 k).trans (k1_row104 x0 x1 x2 x3 x4 b k)) <|
  allRows_cons ((addMid_apply (k1_pay128 (k1_pay3 x0 x1 x2 x3 x4)) shapeCasts_S64x128_S64x1x128 b 0 k).trans (k1_row105 x0 x1 x2 x3 x4 b k)) <|
  allRows_cons ((addMid_apply (k1_pay129 (k1_pay3 x0 x1 x2 x3 x4)) shapeCasts_S64x128_S64x1x128 b 0 k).trans (k1_row106 x0 x1 x2 x3 x4 b k)) <|
  allRows_cons ((addMid_apply (k1_pay130 (k1_pay3 x0 x1 x2 x3 x4)) shapeCasts_S64x128_S64x1x128 b 0 k).trans (k1_row107 x0 x1 x2 x3 x4 b k)) <|
  allRows_cons ((addMid_apply (k1_pay131 (k1_pay3 x0 x1 x2 x3 x4)) shapeCasts_S64x128_S64x1x128 b 0 k).trans (k1_row108 x0 x1 x2 x3 x4 b k)) <|
  allRows_cons ((addMid_apply (k1_pay132 (k1_pay3 x0 x1 x2 x3 x4)) shapeCasts_S64x128_S64x1x128 b 0 k).trans (k1_row109 x0 x1 x2 x3 x4 b k)) <|
  allRows_cons ((addMid_apply (k1_pay133 (k1_pay3 x0 x1 x2 x3 x4)) shapeCasts_S64x128_S64x1x128 b 0 k).trans (k1_row110 x0 x1 x2 x3 x4 b k)) <|
  allRows_cons ((addMid_apply (k1_pay136 (k1_pay134 (k1_pay3 x0 x1 x2 x3 x4)) (k1_pay135 (k1_pay3 x0 x1 x2 x3 x4))) shapeCasts_S64x128_S64x1x128 b 0 k).trans (k1_row111 x0 x1 x2 x3 x4 b k)) <|
  allRows_cons ((addMid_apply (k1_pay137 (k1_pay3 x0 x1 x2 x3 x4)) shapeCasts_S64x128_S64x1x128 b 0 k).trans (k1_row112 x0 x1 x2 x3 x4 b k)) <|
  allRows_cons ((addMid_apply (k1_pay138 (k1_pay3 x0 x1 x2 x3 x4)) shapeCasts_S64x128_S64x1x128 b 0 k).trans (k1_row113 x0 x1 x2 x3 x4 b k)) <|
  allRows_cons ((addMid_apply (k1_pay139 (k1_pay3 x0 x1 x2 x3 x4)) shapeCasts_S64x128_S64x1x128 b 0 k).trans (k1_row114 x0 x1 x2 x3 x4 b k)) <|
  allRows_cons ((addMid_apply (k1_pay140 (k1_pay3 x0 x1 x2 x3 x4)) shapeCasts_S64x128_S64x1x128 b 0 k).trans (k1_row115 x0 x1 x2 x3 x4 b k)) <|
  allRows_cons ((addMid_apply (k1_pay141 (k1_pay3 x0 x1 x2 x3 x4)) shapeCasts_S64x128_S64x1x128 b 0 k).trans (k1_row116 x0 x1 x2 x3 x4 b k)) <|
  allRows_cons ((addMid_apply (k1_pay142 (k1_pay3 x0 x1 x2 x3 x4)) shapeCasts_S64x128_S64x1x128 b 0 k).trans (k1_row117 x0 x1 x2 x3 x4 b k)) <|
  allRows_cons ((addMid_apply (k1_pay143 (k1_pay3 x0 x1 x2 x3 x4)) shapeCasts_S64x128_S64x1x128 b 0 k).trans (k1_row118 x0 x1 x2 x3 x4 b k)) <|
  allRows_cons ((addMid_apply (k1_pay144 (k1_pay3 x0 x1 x2 x3 x4)) shapeCasts_S64x128_S64x1x128 b 0 k).trans (k1_row119 x0 x1 x2 x3 x4 b k)) <|
  allRows_cons ((addMid_apply (k1_pay145 (k1_pay3 x0 x1 x2 x3 x4)) shapeCasts_S64x128_S64x1x128 b 0 k).trans (k1_row120 x0 x1 x2 x3 x4 b k)) <|
  allRows_cons ((addMid_apply (k1_pay146 (k1_pay3 x0 x1 x2 x3 x4)) shapeCasts_S64x128_S64x1x128 b 0 k).trans (k1_row121 x0 x1 x2 x3 x4 b k)) <|
  allRows_cons ((addMid_apply (k1_pay147 (k1_pay3 x0 x1 x2 x3 x4)) shapeCasts_S64x128_S64x1x128 b 0 k).trans (k1_row122 x0 x1 x2 x3 x4 b k)) <|
  allRows_cons ((addMid_apply (k1_pay150 (k1_pay148 (k1_pay3 x0 x1 x2 x3 x4)) (k1_pay149 (k1_pay3 x0 x1 x2 x3 x4))) shapeCasts_S64x128_S64x1x128 b 0 k).trans (k1_row123 x0 x1 x2 x3 x4 b k)) <|
  allRows_cons ((addMid_apply (k1_pay151 (k1_pay3 x0 x1 x2 x3 x4)) shapeCasts_S64x128_S64x1x128 b 0 k).trans (k1_row124 x0 x1 x2 x3 x4 b k)) <|
  allRows_cons ((addMid_apply (k1_pay152 (k1_pay3 x0 x1 x2 x3 x4)) shapeCasts_S64x128_S64x1x128 b 0 k).trans (k1_row125 x0 x1 x2 x3 x4 b k)) <|
  allRows_cons ((addMid_apply (k1_pay153 (k1_pay3 x0 x1 x2 x3 x4)) shapeCasts_S64x128_S64x1x128 b 0 k).trans (k1_row126 x0 x1 x2 x3 x4 b k)) <|
  allRows_cons ((addMid_apply (k1_pay154 (k1_pay3 x0 x1 x2 x3 x4)) shapeCasts_S64x128_S64x1x128 b 0 k).trans (k1_row127 x0 x1 x2 x3 x4 b k)) <|
  allRows_nil _ _ _

end Cert.KernelIdeal.Tile

end
-- ==== Proof.Tile1.lean ====
/-
  Kernel 1's block: what the output kernel leaves in its [64, 128, 128] block, read at (b, i, o), is the second
  normalisation (Cert.Poly.normK) of the tile value Cert.Poly.yT with the channel's mean x7, variance x8, scale x9 and
  shift x10.

  The body's one store goes through the whole block, so the block reads as the stored payload, and every whole-block
  load reads the loaded block.  The payload is (y - x7) · rsqrt(x8 + eps) · x9 + x10 with the four vectors spread over
  every (b, i); y is the composed term k1_y, the contraction (TileMath.yOfStack) of the stack of its 128 pieces, whose
  i-th piece is row i of the table of the clamped tile and the clamped products (Rows1).
-/
import proofs.«138108_j2860448219241_2_alg».proof.Proof.KerSpec
import proofs.«138108_j2860448219241_2_alg».proof.Proof.TileMath
import proofs.«138108_j2860448219241_2_alg».proof.Proof.Rows1
import proofs.«138108_j2860448219241_2_alg».proof.Proof.Gen.KernelIdeal.Frame

set_option maxRecDepth 65536

noncomputable section

open scoped BigOperators

namespace Cert.KernelIdeal.Tile

open Cert.KernelIdeal Cert.KernelIdeal.Gen Idealize.ShloMosaic Idealize.ShloMosaic.ValueIdx

/-- The composed term is the contraction of the stack of its 128 pieces. -/
theorem k1_y_eq (x0 : Vec Ideal S64x128 .f32) (x1 x2 x3 x4 : Vec Ideal S128 .f32) (x5 : Vec Ideal S128x129 .f32)
    (x6 : Vec Ideal S128 .f32) :
    k1_y x0 x1 x2 x3 x4 x5 x6
      = yOfStack (concatenate S64x128x128 1
          ((k1_pieces x0 x1 x2 x3 x4).map fun p => (⟨S64x1x128, p⟩ : (s : Shape) × (s.Idx → Ideal .f32)))
          (k1_stack_concatenates x0 x1 x2 x3 x4)) x5 x6 (k1_pay5 x0 x1 x2 x3 x4) := rfl

/-- The i-th piece of the stack at (b, 0, k) is window i of the normalised row b at k. -/
theorem k1_piece_eq_winRow (x0 : Vec Ideal S64x128 .f32) (x1 x2 x3 x4 : Vec Ideal S128 .f32) (b : Fin 64) (i k : Fin 128) :
    concatenate S64x128x128 1
        ((k1_pieces x0 x1 x2 x3 x4).map fun p => (⟨S64x1x128, p⟩ : (s : Shape) × (s.Idx → Ideal .f32)))
        (k1_stack_concatenates x0 x1 x2 x3 x4) (ix3 b i k)
      = Cert.Poly.winRow (Cert.Poly.xnT x0 x1 x2 x3 x4 b) i k :=
  (Cert.StaggerRows.stackRows_of_allRows (k1_pieces x0 x1 x2 x3 x4) (k1_stack_concatenates x0 x1 x2 x3 x4) b i k
      (by rw [k1_pieces_length]; exact i.isLt) _ (k1_pieces_rows x0 x1 x2 x3 x4 b k)).trans
    ((Cert.StaggerRows.tableRowN_eq_tableRow _ _ i.val i.isLt b k).trans
      (tableRow_eq_winRow _ _ (Cert.Poly.xnT x0 x1 x2 x3 x4 b) b (fun k' => k1_pay4_apply x0 x1 x2 x3 x4 b k')
        (fun p q => k1_pay3_apply x0 x1 x2 x3 x4 b p q) i k))

/-- Kernel 1's tile value is the specification's. -/
theorem k1_y_apply (x0 : Vec Ideal S64x128 .f32) (x1 x2 x3 x4 : Vec Ideal S128 .f32) (x5 : Vec Ideal S128x129 .f32)
    (x6 : Vec Ideal S128 .f32) (b : Fin 64) (i o : Fin 128) :
    k1_y x0 x1 x2 x3 x4 x5 x6 (ix3 b i o) = Cert.Poly.yT x0 x1 x2 x3 x4 x5 x6 b i o := by
  rw [k1_y_eq, yOfStack_apply, k1_pay5_apply]
  show _ = (∑ k : Fin 128, Cert.Poly.winRow (Cert.Poly.xnT x0 x1 x2 x3 x4 b) i k * x5 (ix2 o k.castSucc))
      + Cert.Poly.xnT x0 x1 x2 x3 x4 b i * Cert.Poly.xnT x0 x1 x2 x3 x4 b i * x5 (ix2 o (Fin.last 128)) + x6 (ix1 o)
  congr 1
  congr 1
  exact Finset.sum_congr rfl fun k _ => by rw [k1_piece_eq_winRow]

/-- The second normalisation's payload at an index. -/
theorem k1_pay1_apply (y : FVec Ideal S64x128x128 .f32) (x7 x8 x9 x10 : Vec Ideal S128 .f32) (b : Fin 64) (i o : Fin 128) :
    k1_pay1 y (k1_pay254 x8) (k1_pay255 x7) x9 x10 (ix3 b i o)
      = Cert.Poly.normK (y (ix3 b i o)) (x7 (ix1 o)) (x8 (ix1 o)) (x9 (ix1 o)) (x10 (ix1 o)) := by
  unfold k1_pay1 k1_pay254 k1_pay255
  rw [addf_apply, mulf_apply, mulf_apply, subf_apply, chanSpread_apply, chanSpread_apply, chanSpread_apply, chanSpread_apply,
    rsqrt_apply, addf_apply, shapeCast_self, shapeCast_self, broadcast_apply]
  rfl

theorem offsets1_zero : (![0] : Fin 1 → Nat) = fun _ => 0 := by funext a; fin_cases a; rfl
theorem offsets2_zero : (![0, 0] : Fin 2 → Nat) = fun _ => 0 := by funext a; fin_cases a <;> rfl
theorem offsets3_zero : (![0, 0, 0] : Fin 3 → Nat) = fun _ => 0 := by funext a; fin_cases a <;> rfl

/-- The block kernel 1 leaves is the second normalisation's payload over the loaded blocks. -/
theorem out1_11_eq (x0 : Vec Ideal S64x128 .f32) (x1 x2 x3 x4 : Vec Ideal S128 .f32) (x5 : Vec Ideal S128x129 .f32)
    (x6 x7 x8 x9 x10 : Vec Ideal S128 .f32) :
    Gen.out1_11 (F := Ideal) x0 x1 x2 x3 x4 x5 x6 x7 x8 x9 x10
      = k1_pay1 (k1_y x0 x1 x2 x3 x4 x5 x6) (k1_pay254 x8) (k1_pay255 x7) x9 x10 := by
  unfold Gen.out1_11
  rw [View.canon_unit_zero offsets3_zero]
  simp only [View.ld_unit_zero (S := S64x128) offsets2_zero, View.ld_unit_zero (S := S128) offsets1_zero,
    View.ld_unit_zero (S := S128x129) offsets2_zero]
  rfl

theorem out1_11_apply (x0 : Vec Ideal S64x128 .f32) (x1 x2 x3 x4 : Vec Ideal S128 .f32) (x5 : Vec Ideal S128x129 .f32)
    (x6 x7 x8 x9 x10 : Vec Ideal S128 .f32) (b : Fin 64) (i o : Fin 128) :
    Gen.out1_11 (F := Ideal) x0 x1 x2 x3 x4 x5 x6 x7 x8 x9 x10 (ix3 b i o)
      = Cert.Poly.normK (Cert.Poly.yT x0 x1 x2 x3 x4 x5 x6 b i o) (x7 (ix1 o)) (x8 (ix1 o)) (x9 (ix1 o)) (x10 (ix1 o)) := by
  rw [out1_11_eq, k1_pay1_apply, k1_y_apply]

end Cert.KernelIdeal.Tile

end
-- ==== Proof.TileY.lean ====
/-
  The value y of one tile of 64 batch rows, before the second normalisation, as kernel 0's body composes it from the
  blocks it loads: x0 the tile of the batch, x1 … x4 the first normalisation's means, variances, scale and shift, x5 the
  weights, x6 the bias.  The term follows the dataflow of the body's parts: the normalised tile, its clamped products, the
  127 staggered rows and the clamped tile itself as 128 pieces, stacked and contracted with the weights.  k0_pieces lists
  the 128 stacked pieces in order.
-/
import proofs.«138108_j2860448219241_2_alg».proof.Proof.Gen.KernelIdeal.Skeleton

set_option maxRecDepth 65536

noncomputable section

namespace Cert.KernelIdeal.Tile

open Cert.KernelIdeal Cert.KernelIdeal.Gen Idealize.ShloMosaic

variable {F : FTy → Type} [FloatOps F]

/-- The tile's y as kernel 0's body composes it from the loaded blocks. -/
def k0_y (x0 : Vec F S64x128 .f32) (x1 x2 x3 x4 : Vec F S128 .f32) (x5 : Vec F S128x129 .f32) (x6 : Vec F S128 .f32) : FVec F S64x128x128 .f32 :=
  k0_pay239 x5 x6 (k0_pay8 x0 x1 x2 x3 x4) (k0_pay108 (k0_pay6 x0 x1 x2 x3 x4)) (k0_pay109 (k0_pay6 x0 x1 x2 x3 x4)) (k0_pay110 (k0_pay6 x0 x1 x2 x3 x4)) (k0_pay111 (k0_pay6 x0 x1 x2 x3 x4)) (k0_pay112 (k0_pay6 x0 x1 x2 x3 x4)) (k0_pay113 (k0_pay6 x0 x1 x2 x3 x4)) (k0_pay115 (k0_pay6 x0 x1 x2 x3 x4) (k0_pay114 (k0_pay6 x0 x1 x2 x3 x4))) (k0_pay116 (k0_pay6 x0 x1 x2 x3 x4)) (k0_pay117 (k0_pay6 x0 x1 x2 x3 x4)) (k0_pay118 (k0_pay6 x0 x1 x2 x3 x4)) (k0_pay119 (k0_pay6 x0 x1 x2 x3 x4)) (k0_pay120 (k0_pay6 x0 x1 x2 x3 x4)) (k0_pay121 (k0_pay6 x0 x1 x2 x3 x4)) (k0_pay122 (k0_pay6 x0 x1 x2 x3 x4)) (k0_pay123 (k0_pay6 x0 x1 x2 x3 x4)) (k0_pay124 (k0_pay6 x0 x1 x2 x3 x4)) (k0_pay125 (k0_pay6 x0 x1 x2 x3 x4)) (k0_pay126 (k0_pay6 x0 x1 x2 x3 x4)) (k0_pay128 (k0_pay6 x0 x1 x2 x3 x4) (k0_pay127 (k0_pay6 x0 x1 x2 x3 x4))) (k0_pay129 (k0_pay6 x0 x1 x2 x3 x4)) (k0_pay130 (k0_pay6 x0 x1 x2 x3 x4)) (k0_pay131 (k0_pay6 x0 x1 x2 x3 x4)) (k0_pay132 (k0_pay6 x0 x1 x2 x3 x4)) (k0_pay133 (k0_pay6 x0 x1 x2 x3 x4)) (k0_pay134 (k0_pay6 x0 x1 x2 x3 x4)) (k0_pay135 (k0_pay6 x0 x1 x2 x3 x4)) (k0_pay136 (k0_pay6 x0 x1 x2 x3 x4)) (k0_pay137 (k0_pay6 x0 x1 x2 x3 x4)) (k0_pay138 (k0_pay6 x0 x1 x2 x3 x4)) (k0_pay139 (k0_pay6 x0 x1 x2 x3 x4)) (k0_pay141 (k0_pay6 x0 x1 x2 x3 x4) (k0_pay140 (k0_pay6 x0 x1 x2 x3 x4))) (k0_pay142 (k0_pay6 x0 x1 x2 x3 x4)) (k0_pay143 (k0_pay6 x0 x1 x2 x3 x4)) (k0_pay144 (k0_pay6 x0 x1 x2 x3 x4)) (k0_pay145 (k0_pay6 x0 x1 x2 x3 x4)) (k0_pay146 (k0_pay6 x0 x1 x2 x3 x4)) (k0_pay147 (k0_pay7 x0 x1 x2 x3 x4)) (k0_pay148 (k0_pay9 x0 x1 x2 x3 x4)) (k0_pay149 (k0_pay11 (k0_pay6 x0 x1 x2 x3 x4) (k0_pay10 x0 x1 x2 x3 x4))) (k0_pay150 (k0_pay12 (k0_pay6 x0 x1 x2 x3 x4))) (k0_pay151 (k0_pay13 (k0_pay6 x0 x1 x2 x3 x4))) (k0_pay152 (k0_pay14 (k0_pay6 x0 x1 x2 x3 x4))) (k0_pay153 (k0_pay15 (k0_pay6 x0 x1 x2 x3 x4))) (k0_pay154 (k0_pay16 (k0_pay6 x0 x1 x2 x3 x4))) (k0_pay155 (k0_pay17 (k0_pay6 x0 x1 x2 x3 x4))) (k0_pay156 (k0_pay18 (k0_pay6 x0 x1 x2 x3 x4))) (k0_pay157 (k0_pay19 (k0_pay6 x0 x1 x2 x3 x4))) (k0_pay158 (k0_pay20 (k0_pay6 x0 x1 x2 x3 x4))) (k0_pay159 (k0_pay21 (k0_pay6 x0 x1 x2 x3 x4))) (k0_pay160 (k0_pay22 (k0_pay6 x0 x1 x2 x3 x4))) (k0_pay161 (k0_pay24 (k0_pay6 x0 x1 x2 x3 x4) (k0_pay23 (k0_pay6 x0 x1 x2 x3 x4)))) (k0_pay162 (k0_pay25 (k0_pay6 x0 x1 x2 x3 x4))) (k0_pay163 (k0_pay26 (k0_pay6 x0 x1 x2 x3 x4))) (k0_pay164 (k0_pay27 (k0_pay6 x0 x1 x2 x3 x4))) (k0_pay165 (k0_pay28 (k0_pay6 x0 x1 x2 x3 x4))) (k0_pay166 (k0_pay29 (k0_pay6 x0 x1 x2 x3 x4))) (k0_pay167 (k0_pay30 (k0_pay6 x0 x1 x2 x3 x4))) (k0_pay168 (k0_pay31 (k0_pay6 x0 x1 x2 x3 x4))) (k0_pay169 (k0_pay32 (k0_pay6 x0 x1 x2 x3 x4))) (k0_pay170 (k0_pay33 (k0_pay6 x0 x1 x2 x3 x4))) (k0_pay171 (k0_pay34 (k0_pay6 x0 x1 x2 x3 x4))) (k0_pay172 (k0_pay35 (k0_pay6 x0 x1 x2 x3 x4))) (k0_pay173 (k0_pay37 (k0_pay6 x0 x1 x2 x3 x4) (k0_pay36 (k0_pay6 x0 x1 x2 x3 x4)))) (k0_pay174 (k0_pay38 (k0_pay6 x0 x1 x2 x3 x4))) (k0_pay175 (k0_pay39 (k0_pay6 x0 x1 x2 x3 x4))) (k0_pay176 (k0_pay40 (k0_pay6 x0 x1 x2 x3 x4))) (k0_pay177 (k0_pay41 (k0_pay6 x0 x1 x2 x3 x4))) (k0_pay178 (k0_pay42 (k0_pay6 x0 x1 x2 x3 x4))) (k0_pay179 (k0_pay43 (k0_pay6 x0 x1 x2 x3 x4))) (k0_pay180 (k0_pay44 (k0_pay6 x0 x1 x2 x3 x4))) (k0_pay181 (k0_pay45 (k0_pay6 x0 x1 x2 x3 x4))) (k0_pay182 (k0_pay46 (k0_pay6 x0 x1 x2 x3 x4))) (k0_pay183 (k0_pay47 (k0_pay6 x0 x1 x2 x3 x4))) (k0_pay184 (k0_pay48 (k0_pay6 x0 x1 x2 x3 x4))) (k0_pay185 (k0_pay50 (k0_pay6 x0 x1 x2 x3 x4) (k0_pay49 (k0_pay6 x0 x1 x2 x3 x4)))) (k0_pay186 (k0_pay51 (k0_pay6 x0 x1 x2 x3 x4))) (k0_pay187 (k0_pay52 (k0_pay6 x0 x1 x2 x3 x4))) (k0_pay188 (k0_pay53 (k0_pay6 x0 x1 x2 x3 x4))) (k0_pay189 (k0_pay54 (k0_pay6 x0 x1 x2 x3 x4))) (k0_pay190 (k0_pay55 (k0_pay6 x0 x1 x2 x3 x4))) (k0_pay191 (k0_pay56 (k0_pay6 x0 x1 x2 x3 x4))) (k0_pay192 (k0_pay57 (k0_pay6 x0 x1 x2 x3 x4))) (k0_pay193 (k0_pay58 (k0_pay6 x0 x1 x2 x3 x4))) (k0_pay194 (k0_pay59 (k0_pay6 x0 x1 x2 x3 x4))) (k0_pay195 (k0_pay60 (k0_pay6 x0 x1 x2 x3 x4))) (k0_pay196 (k0_pay61 (k0_pay6 x0 x1 x2 x3 x4))) (k0_pay197 (k0_pay63 (k0_pay6 x0 x1 x2 x3 x4) (k0_pay62 (k0_pay6 x0 x1 x2 x3 x4)))) (k0_pay198 (k0_pay64 (k0_pay6 x0 x1 x2 x3 x4))) (k0_pay199 (k0_pay65 (k0_pay6 x0 x1 x2 x3 x4))) (k0_pay200 (k0_pay66 (k0_pay6 x0 x1 x2 x3 x4))) (k0_pay201 (k0_pay67 (k0_pay6 x0 x1 x2 x3 x4))) (k0_pay202 (k0_pay68 (k0_pay6 x0 x1 x2 x3 x4))) (k0_pay203 (k0_pay69 (k0_pay6 x0 x1 x2 x3 x4))) (k0_pay204 (k0_pay70 (k0_pay6 x0 x1 x2 x3 x4))) (k0_pay205 (k0_pay71 (k0_pay6 x0 x1 x2 x3 x4))) (k0_pay206 (k0_pay72 (k0_pay6 x0 x1 x2 x3 x4))) (k0_pay207 (k0_pay73 (k0_pay6 x0 x1 x2 x3 x4))) (k0_pay208 (k0_pay74 (k0_pay6 x0 x1 x2 x3 x4))) (k0_pay209 (k0_pay76 (k0_pay6 x0 x1 x2 x3 x4) (k0_pay75 (k0_pay6 x0 x1 x2 x3 x4)))) (k0_pay210 (k0_pay77 (k0_pay6 x0 x1 x2 x3 x4))) (k0_pay211 (k0_pay78 (k0_pay6 x0 x1 x2 x3 x4))) (k0_pay212 (k0_pay79 (k0_pay6 x0 x1 x2 x3 x4))) (k0_pay213 (k0_pay80 (k0_pay6 x0 x1 x2 x3 x4))) (k0_pay214 (k0_pay81 (k0_pay6 x0 x1 x2 x3 x4))) (k0_pay215 (k0_pay82 (k0_pay6 x0 x1 x2 x3 x4))) (k0_pay216 (k0_pay83 (k0_pay6 x0 x1 x2 x3 x4))) (k0_pay217 (k0_pay84 (k0_pay6 x0 x1 x2 x3 x4))) (k0_pay218 (k0_pay85 (k0_pay6 x0 x1 x2 x3 x4))) (k0_pay219 (k0_pay86 (k0_pay6 x0 x1 x2 x3 x4))) (k0_pay220 (k0_pay87 (k0_pay6 x0 x1 x2 x3 x4))) (k0_pay221 (k0_pay89 (k0_pay6 x0 x1 x2 x3 x4) (k0_pay88 (k0_pay6 x0 x1 x2 x3 x4)))) (k0_pay222 (k0_pay90 (k0_pay6 x0 x1 x2 x3 x4))) (k0_pay223 (k0_pay91 (k0_pay6 x0 x1 x2 x3 x4))) (k0_pay224 (k0_pay92 (k0_pay6 x0 x1 x2 x3 x4))) (k0_pay225 (k0_pay93 (k0_pay6 x0 x1 x2 x3 x4))) (k0_pay226 (k0_pay94 (k0_pay6 x0 x1 x2 x3 x4))) (k0_pay227 (k0_pay95 (k0_pay6 x0 x1 x2 x3 x4))) (k0_pay228 (k0_pay96 (k0_pay6 x0 x1 x2 x3 x4))) (k0_pay229 (k0_pay97 (k0_pay6 x0 x1 x2 x3 x4))) (k0_pay230 (k0_pay98 (k0_pay6 x0 x1 x2 x3 x4))) (k0_pay231 (k0_pay99 (k0_pay6 x0 x1 x2 x3 x4))) (k0_pay232 (k0_pay100 (k0_pay6 x0 x1 x2 x3 x4))) (k0_pay233 (k0_pay102 (k0_pay6 x0 x1 x2 x3 x4) (k0_pay101 (k0_pay6 x0 x1 x2 x3 x4)))) (k0_pay234 (k0_pay103 (k0_pay6 x0 x1 x2 x3 x4))) (k0_pay235 (k0_pay104 (k0_pay6 x0 x1 x2 x3 x4))) (k0_pay236 (k0_pay105 (k0_pay6 x0 x1 x2 x3 x4))) (k0_pay237 (k0_pay106 (k0_pay6 x0 x1 x2 x3 x4))) (k0_pay238 (k0_pay107 (k0_pay6 x0 x1 x2 x3 x4)))

/-- The 128 pieces [64, 1, 128] the body stacks along the middle axis, in order. -/
def k0_pieces (x0 : Vec F S64x128 .f32) (x1 x2 x3 x4 : Vec F S128 .f32) : List (FVec F S64x1x128 .f32) :=
  [(k0_pay147 (k0_pay7 x0 x1 x2 x3 x4)),
   (k0_pay148 (k0_pay9 x0 x1 x2 x3 x4)),
   (k0_pay149 (k0_pay11 (k0_pay6 x0 x1 x2 x3 x4) (k0_pay10 x0 x1 x2 x3 x4))),
   (k0_pay150 (k0_pay12 (k0_pay6 x0 x1 x2 x3 x4))),
   (k0_pay151 (k0_pay13 (k0_pay6 x0 x1 x2 x3 x4))),
   (k0_pay152 (k0_pay14 (k0_pay6 x0 x1 x2 x3 x4))),
   (k0_pay153 (k0_pay15 (k0_pay6 x0 x1 x2 x3 x4))),
   (k0_pay154 (k0_pay16 (k0_pay6 x0 x1 x2 x3 x4))),
   (k0_pay155 (k0_pay17 (k0_pay6 x0 x1 x2 x3 x4))),
   (k0_pay156 (k0_pay18 (k0_pay6 x0 x1 x2 x3 x4))),
   (k0_pay157 (k0_pay19 (k0_pay6 x0 x1 x2 x3 x4))),
   (k0_pay158 (k0_pay20 (k0_pay6 x0 x1 x2 x3 x4))),
   (k0_pay159 (k0_pay21 (k0_pay6 x0 x1 x2 x3 x4))),
   (k0_pay160 (k0_pay22 (k0_pay6 x0 x1 x2 x3 x4))),
   (k0_pay161 (k0_pay24 (k0_pay6 x0 x1 x2 x3 x4) (k0_pay23 (k0_pay6 x0 x1 x2 x3 x4)))),
   (k0_pay162 (k0_pay25 (k0_pay6 x0 x1 x2 x3 x4))),
   (k0_pay163 (k0_pay26 (k0_pay6 x0 x1 x2 x3 x4))),
   (k0_pay164 (k0_pay27 (k0_pay6 x0 x1 x2 x3 x4))),
   (k0_pay165 (k0_pay28 (k0_pay6 x0 x1 x2 x3 x4))),
   (k0_pay166 (k0_pay29 (k0_pay6 x0 x1 x2 x3 x4))),
   (k0_pay167 (k0_pay30 (k0_pay6 x0 x1 x2 x3 x4))),
   (k0_pay168 (k0_pay31 (k0_pay6 x0 x1 x2 x3 x4))),
   (k0_pay169 (k0_pay32 (k0_pay6 x0 x1 x2 x3 x4))),
   (k0_pay170 (k0_pay33 (k0_pay6 x0 x1 x2 x3 x4))),
   (k0_pay171 (k0_pay34 (k0_pay6 x0 x1 x2 x3 x4))),
   (k0_pay172 (k0_pay35 (k0_pay6 x0 x1 x2 x3 x4))),
   (k0_pay173 (k0_pay37 (k0_pay6 x0 x1 x2 x3 x4) (k0_pay36 (k0_pay6 x0 x1 x2 x3 x4)))),
   (k0_pay174 (k0_pay38 (k0_pay6 x0 x1 x2 x3 x4))),
   (k0_pay175 (k0_pay39 (k0_pay6 x0 x1 x2 x3 x4))),
   (k0_pay176 (k0_pay40 (k0_pay6 x0 x1 x2 x3 x4))),
   (k0_pay177 (k0_pay41 (k0_pay6 x0 x1 x2 x3 x4))),
   (k0_pay178 (k0_pay42 (k0_pay6 x0 x1 x2 x3 x4))),
   (k0_pay179 (k0_pay43 (k0_pay6 x0 x1 x2 x3 x4))),
   (k0_pay180 (k0_pay44 (k0_pay6 x0 x1 x2 x3 x4))),
   (k0_pay181 (k0_pay45 (k0_pay6 x0 x1 x2 x3 x4))),
   (k0_pay182 (k0_pay46 (k0_pay6 x0 x1 x2 x3 x4))),
   (k0_pay183 (k0_pay47 (k0_pay6 x0 x1 x2 x3 x4))),
   (k0_pay184 (k0_pay48 (k0_pay6 x0 x1 x2 x3 x4))),
   (k0_pay185 (k0_pay50 (k0_pay6 x0 x1 x2 x3 x4) (k0_pay49 (k0_pay6 x0 x1 x2 x3 x4)))),
   (k0_pay186 (k0_pay51 (k0_pay6 x0 x1 x2 x3 x4))),
   (k0_pay187 (k0_pay52 (k0_pay6 x0 x1 x2 x3 x4))),
   (k0_pay188 (k0_pay53 (k0_pay6 x0 x1 x2 x3 x4))),
   (k0_pay189 (k0_pay54 (k0_pay6 x0 x1 x2 x3 x4))),
   (k0_pay190 (k0_pay55 (k0_pay6 x0 x1 x2 x3 x4))),
   (k0_pay191 (k0_pay56 (k0_pay6 x0 x1 x2 x3 x4))),
   (k0_pay192 (k0_pay57 (k0_pay6 x0 x1 x2 x3 x4))),
   (k0_pay193 (k0_pay58 (k0_pay6 x0 x1 x2 x3 x4))),
   (k0_pay194 (k0_pay59 (k0_pay6 x0 x1 x2 x3 x4))),
   (k0_pay195 (k0_pay60 (k0_pay6 x0 x1 x2 x3 x4))),
   (k0_pay196 (k0_pay61 (k0_pay6 x0 x1 x2 x3 x4))),
   (k0_pay197 (k0_pay63 (k0_pay6 x0 x1 x2 x3 x4) (k0_pay62 (k0_pay6 x0 x1 x2 x3 x4)))),
   (k0_pay198 (k0_pay64 (k0_pay6 x0 x1 x2 x3 x4))),
   (k0_pay199 (k0_pay65 (k0_pay6 x0 x1 x2 x3 x4))),
   (k0_pay200 (k0_pay66 (k0_pay6 x0 x1 x2 x3 x4))),
   (k0_pay201 (k0_pay67 (k0_pay6 x0 x1 x2 x3 x4))),
   (k0_pay202 (k0_pay68 (k0_pay6 x0 x1 x2 x3 x4))),
   (k0_pay203 (k0_pay69 (k0_pay6 x0 x1 x2 x3 x4))),
   (k0_pay204 (k0_pay70 (k0_pay6 x0 x1 x2 x3 x4))),
   (k0_pay205 (k0_pay71 (k0_pay6 x0 x1 x2 x3 x4))),
   (k0_pay206 (k0_pay72 (k0_pay6 x0 x1 x2 x3 x4))),
   (k0_pay207 (k0_pay73 (k0_pay6 x0 x1 x2 x3 x4))),
   (k0_pay208 (k0_pay74 (k0_pay6 x0 x1 x2 x3 x4))),
   (k0_pay209 (k0_pay76 (k0_pay6 x0 x1 x2 x3 x4) (k0_pay75 (k0_pay6 x0 x1 x2 x3 x4)))),
   (k0_pay210 (k0_pay77 (k0_pay6 x0 x1 x2 x3 x4))),
   (k0_pay211 (k0_pay78 (k0_pay6 x0 x1 x2 x3 x4))),
   (k0_pay212 (k0_pay79 (k0_pay6 x0 x1 x2 x3 x4))),
   (k0_pay213 (k0_pay80 (k0_pay6 x0 x1 x2 x3 x4))),
   (k0_pay214 (k0_pay81 (k0_pay6 x0 x1 x2 x3 x4))),
   (k0_pay215 (k0_pay82 (k0_pay6 x0 x1 x2 x3 x4))),
   (k0_pay216 (k0_pay83 (k0_pay6 x0 x1 x2 x3 x4))),
   (k0_pay217 (k0_pay84 (k0_pay6 x0 x1 x2 x3 x4))),
   (k0_pay218 (k0_pay85 (k0_pay6 x0 x1 x2 x3 x4))),
   (k0_pay219 (k0_pay86 (k0_pay6 x0 x1 x2 x3 x4))),
   (k0_pay220 (k0_pay87 (k0_pay6 x0 x1 x2 x3 x4))),
   (k0_pay221 (k0_pay89 (k0_pay6 x0 x1 x2 x3 x4) (k0_pay88 (k0_pay6 x0 x1 x2 x3 x4)))),
   (k0_pay222 (k0_pay90 (k0_pay6 x0 x1 x2 x3 x4))),
   (k0_pay223 (k0_pay91 (k0_pay6 x0 x1 x2 x3 x4))),
   (k0_pay224 (k0_pay92 (k0_pay6 x0 x1 x2 x3 x4))),
   (k0_pay225 (k0_pay93 (k0_pay6 x0 x1 x2 x3 x4))),
   (k0_pay226 (k0_pay94 (k0_pay6 x0 x1 x2 x3 x4))),
   (k0_pay227 (k0_pay95 (k0_pay6 x0 x1 x2 x3 x4))),
   (k0_pay228 (k0_pay96 (k0_pay6 x0 x1 x2 x3 x4))),
   (k0_pay229 (k0_pay97 (k0_pay6 x0 x1 x2 x3 x4))),
   (k0_pay230 (k0_pay98 (k0_pay6 x0 x1 x2 x3 x4))),
   (k0_pay231 (k0_pay99 (k0_pay6 x0 x1 x2 x3 x4))),
   (k0_pay232 (k0_pay100 (k0_pay6 x0 x1 x2 x3 x4))),
   (k0_pay233 (k0_pay102 (k0_pay6 x0 x1 x2 x3 x4) (k0_pay101 (k0_pay6 x0 x1 x2 x3 x4)))),
   (k0_pay234 (k0_pay103 (k0_pay6 x0 x1 x2 x3 x4))),
   (k0_pay235 (k0_pay104 (k0_pay6 x0 x1 x2 x3 x4))),
   (k0_pay236 (k0_pay105 (k0_pay6 x0 x1 x2 x3 x4))),
   (k0_pay237 (k0_pay106 (k0_pay6 x0 x1 x2 x3 x4))),
   (k0_pay238 (k0_pay107 (k0_pay6 x0 x1 x2 x3 x4))),
   (shapeCast S64x1x128 (k0_pay108 (k0_pay6 x0 x1 x2 x3 x4)) shapeCasts_S64x128_S64x1x128),
   (shapeCast S64x1x128 (k0_pay109 (k0_pay6 x0 x1 x2 x3 x4)) shapeCasts_S64x128_S64x1x128),
   (shapeCast S64x1x128 (k0_pay110 (k0_pay6 x0 x1 x2 x3 x4)) shapeCasts_S64x128_S64x1x128),
   (shapeCast S64x1x128 (k0_pay111 (k0_pay6 x0 x1 x2 x3 x4)) shapeCasts_S64x128_S64x1x128),
   (shapeCast S64x1x128 (k0_pay112 (k0_pay6 x0 x1 x2 x3 x4)) shapeCasts_S64x128_S64x1x128),
   (shapeCast S64x1x128 (k0_pay113 (k0_pay6 x0 x1 x2 x3 x4)) shapeCasts_S64x128_S64x1x128),
   (shapeCast S64x1x128 (k0_pay115 (k0_pay6 x0 x1 x2 x3 x4) (k0_pay114 (k0_pay6 x0 x1 x2 x3 x4))) shapeCasts_S64x128_S64x1x128),
   (shapeCast S64x1x128 (k0_pay116 (k0_pay6 x0 x1 x2 x3 x4)) shapeCasts_S64x128_S64x1x128),
   (shapeCast S64x1x128 (k0_pay117 (k0_pay6 x0 x1 x2 x3 x4)) shapeCasts_S64x128_S64x1x128),
   (shapeCast S64x1x128 (k0_pay118 (k0_pay6 x0 x1 x2 x3 x4)) shapeCasts_S64x128_S64x1x128),
   (shapeCast S64x1x128 (k0_pay119 (k0_pay6 x0 x1 x2 x3 x4)) shapeCasts_S64x128_S64x1x128),
   (shapeCast S64x1x128 (k0_pay120 (k0_pay6 x0 x1 x2 x3 x4)) shapeCasts_S64x128_S64x1x128),
   (shapeCast S64x1x128 (k0_pay121 (k0_pay6 x0 x1 x2 x3 x4)) shapeCasts_S64x128_S64x1x128),
   (shapeCast S64x1x128 (k0_pay122 (k0_pay6 x0 x1 x2 x3 x4)) shapeCasts_S64x128_S64x1x128),
   (shapeCast S64x1x128 (k0_pay123 (k0_pay6 x0 x1 x2 x3 x4)) shapeCasts_S64x128_S64x1x128),
   (shapeCast S64x1x128 (k0_pay124 (k0_pay6 x0 x1 x2 x3 x4)) shapeCasts_S64x128_S64x1x128),
   (shapeCast S64x1x128 (k0_pay125 (k0_pay6 x0 x1 x2 x3 x4)) shapeCasts_S64x128_S64x1x128),
   (shapeCast S64x1x128 (k0_pay126 (k0_pay6 x0 x1 x2 x3 x4)) shapeCasts_S64x128_S64x1x128),
   (shapeCast S64x1x128 (k0_pay128 (k0_pay6 x0 x1 x2 x3 x4) (k0_pay127 (k0_pay6 x0 x1 x2 x3 x4))) shapeCasts_S64x128_S64x1x128),
   (shapeCast S64x1x128 (k0_pay129 (k0_pay6 x0 x1 x2 x3 x4)) shapeCasts_S64x128_S64x1x128),
   (shapeCast S64x1x128 (k0_pay130 (k0_pay6 x0 x1 x2 x3 x4)) shapeCasts_S64x128_S64x1x128),
   (shapeCast S64x1x128 (k0_pay131 (k0_pay6 x0 x1 x2 x3 x4)) shapeCasts_S64x128_S64x1x128),
   (shapeCast S64x1x128 (k0_pay132 (k0_pay6 x0 x1 x2 x3 x4)) shapeCasts_S64x128_S64x1x128),
   (shapeCast S64x1x128 (k0_pay133 (k0_pay6 x0 x1 x2 x3 x4)) shapeCasts_S64x128_S64x1x128),
   (shapeCast S64x1x128 (k0_pay134 (k0_pay6 x0 x1 x2 x3 x4)) shapeCasts_S64x128_S64x1x128),
   (shapeCast S64x1x128 (k0_pay135 (k0_pay6 x0 x1 x2 x3 x4)) shapeCasts_S64x128_S64x1x128),
   (shapeCast S64x1x128 (k0_pay136 (k0_pay6 x0 x1 x2 x3 x4)) shapeCasts_S64x128_S64x1x128),
   (shapeCast S64x1x128 (k0_pay137 (k0_pay6 x0 x1 x2 x3 x4)) shapeCasts_S64x128_S64x1x128),
   (shapeCast S64x1x128 (k0_pay138 (k0_pay6 x0 x1 x2 x3 x4)) shapeCasts_S64x128_S64x1x128),
   (shapeCast S64x1x128 (k0_pay139 (k0_pay6 x0 x1 x2 x3 x4)) shapeCasts_S64x128_S64x1x128),
   (shapeCast S64x1x128 (k0_pay141 (k0_pay6 x0 x1 x2 x3 x4) (k0_pay140 (k0_pay6 x0 x1 x2 x3 x4))) shapeCasts_S64x128_S64x1x128),
   (shapeCast S64x1x128 (k0_pay142 (k0_pay6 x0 x1 x2 x3 x4)) shapeCasts_S64x128_S64x1x128),
   (shapeCast S64x1x128 (k0_pay143 (k0_pay6 x0 x1 x2 x3 x4)) shapeCasts_S64x128_S64x1x128),
   (shapeCast S64x1x128 (k0_pay144 (k0_pay6 x0 x1 x2 x3 x4)) shapeCasts_S64x128_S64x1x128),
   (shapeCast S64x1x128 (k0_pay145 (k0_pay6 x0 x1 x2 x3 x4)) shapeCasts_S64x128_S64x1x128),
   (shapeCast S64x1x128 (k0_pay146 (k0_pay6 x0 x1 x2 x3 x4)) shapeCasts_S64x128_S64x1x128)]

end Cert.KernelIdeal.Tile

end
-- ==== Proof.StatsTot.lean ====
/-
  The two small payloads that close the statistics kernel's body, read at a channel over the extended reals.

  The body ends by adding to each running total (one per output channel o) the tile's contribution: for the total of the
  values, the previous total plus the sum over the 128 windows i of the sum over the tile's 64 rows b of y(b, i, o); for the
  total of the squares, the same with y(b, i, o)·y(b, i, o).  Both are stated for any array y of the tile's shape and any
  previous total z, so nothing here depends on how y is computed.
-/
import proofs.«138108_j2860448219241_2_alg».proof.Proof.Gen.KernelIdeal.Skeleton
import Idealize.ShloMosaic.Lib.Pipeline.Value
import Idealize.ShloMosaic.Lib.ValueIdx
import Idealize.ShloMosaic.PureOps.Ideal.Laws

noncomputable section

namespace Cert.KernelIdeal.Tile

open Cert.KernelIdeal Cert.KernelIdeal.Gen Idealize.ShloMosaic Idealize.ShloMosaic.ValueIdx
open scoped BigOperators

section Generic
variable {F : FTy → Type} [FloatOps F]

/-- The previous total z plus, per channel, the windows' totals of the rows' totals of y. -/
def accTot (y : FVec F S64x128x128 .f32) (z : Vec F S128 .f32) : FVec F S128 .f32 :=
  k0_pay1 (multiReduction .add [0] S128x128 y 0x00000000#32 reduces_S64x128x128_S128x128 (.inl rfl) rfl) (k0_pay241 z)

/-- The previous total z plus, per channel, the windows' totals of the rows' totals of y·y. -/
def accTotSq (y : FVec F S64x128x128 .f32) (z : Vec F S128 .f32) : FVec F S128 .f32 := k0_pay2 y z

end Generic

section AtIdeal

/-- The total over axis 0 of a [128,128] array at channel o is the sum over the windows i of the entry (i, o). -/
theorem red1_apply (v : FVec Ideal S128x128 .f32) (o : Fin 128) :
    multiReduction (F := Ideal) .add [0] S128 v 0x00000000#32 reduces_S128x128_S128 (.inl rfl) rfl (ix1 o)
      = ∑ i : Fin 128, v (ix2 i o) := by
  refine (Ideal.multiReduction_add_single v 0x00000000#32 reduces_S128x128_S128 (.inl rfl) rfl (ix1 o)).trans ?_
  refine Finset.sum_congr rfl fun i _ => congrArg v ?_
  funext d
  apply Fin.ext
  match d with
  | ⟨0, _⟩ => rfl
  | ⟨1, _⟩ => rfl

/-- The total over axis 0 of a [64,128,128] array at (i, o) is the sum over the rows b of the entry (b, i, o). -/
theorem red0_apply (y : FVec Ideal S64x128x128 .f32) (i o : Fin 128) :
    multiReduction (F := Ideal) .add [0] S128x128 y 0x00000000#32 reduces_S64x128x128_S128x128 (.inl rfl) rfl (ix2 i o)
      = ∑ b : Fin 64, y (ix3 b i o) := by
  refine (Ideal.multiReduction_add_single y 0x00000000#32 reduces_S64x128x128_S128x128 (.inl rfl) rfl (ix2 i o)).trans ?_
  refine Finset.sum_congr rfl fun b _ => congrArg y ?_
  funext d
  apply Fin.ext
  match d with
  | ⟨0, _⟩ => rfl
  | ⟨1, _⟩ => rfl
  | ⟨2, _⟩ => rfl

/-- The running total after a point, at a channel: the previous total plus the windows' totals of the rows' totals. -/
theorem accTot_apply (y : FVec Ideal S64x128x128 .f32) (z : Vec Ideal S128 .f32) (o : Fin 128) :
    accTot y z (ix1 o) = z (ix1 o) + ∑ i : Fin 128, ∑ b : Fin 64, y (ix3 b i o) := by
  unfold accTot k0_pay1 k0_pay241
  show shapeCast S128 z shapeCasts_S128_S128 (ix1 o) + multiReduction (F := Ideal) .add [0] S128 _ 0x00000000#32 reduces_S128x128_S128 (.inl rfl) rfl (ix1 o) = _
  rw [shapeCast_self]
  refine congrArg (z (ix1 o) + ·) ?_
  refine (red1_apply _ o).trans ?_
  exact Finset.sum_congr rfl fun i _ => red0_apply y i o

/-- The running total of squares after a point, at a channel. -/
theorem accTotSq_apply (y : FVec Ideal S64x128x128 .f32) (z : Vec Ideal S128 .f32) (o : Fin 128) :
    accTotSq y z (ix1 o) = z (ix1 o) + ∑ i : Fin 128, ∑ b : Fin 64, y (ix3 b i o) * y (ix3 b i o) := by
  unfold accTotSq k0_pay2
  show shapeCast S128 z shapeCasts_S128_S128 (ix1 o) + multiReduction (F := Ideal) .add [0] S128 _ 0x00000000#32 reduces_S128x128_S128 (.inl rfl) rfl (ix1 o) = _
  rw [shapeCast_self]
  refine congrArg (z (ix1 o) + ·) ?_
  refine (red1_apply _ o).trans ?_
  exact Finset.sum_congr rfl fun i _ => red0_apply (mulf y y) i o

/-- The zeros stored into the total of the values at the first point, at a channel. -/
theorem pay3_apply (o : Fin 128) : k0_pay3 (F := Ideal) (ix1 o) = 0 := by
  unfold k0_pay3
  exact Ideal.ofBits_zero_f32

/-- The zeros stored into the total of the squares at the first point, at a channel. -/
theorem pay4_apply (o : Fin 128) : k0_pay4 (F := Ideal) (ix1 o) = 0 := by
  unfold k0_pay4
  exact Ideal.ofBits_zero_f32

end AtIdeal

end Cert.KernelIdeal.Tile

end
-- ==== Proof.StatsPieces.lean ====
/-
  What each control case of the statistics kernel's body leaves in the staging buffers of its two outputs, as values.

  The body runs in two cases.  At the first grid point it stores zeros into both running totals, reads them back, and stores
  the totals plus the tile's contribution; at every later point it reads the running totals as the point before left them and
  stores them plus the tile's contribution.  In both cases the last store into an output goes through the whole buffer, so
  the buffer ends holding that store's payload, and every load of an input goes through the whole buffer, so it reads the
  input's block.  The payload is accTot (for the values) or accTotSq (for the squares) of the tile's y, k0_y, and of the
  total read back: the zeros just stored (first point) or the previous contents (later points).  Stated for any number
  format F.
-/
import proofs.«138108_j2860448219241_2_alg».proof.Proof.Gen.KernelIdeal.Frame
import proofs.«138108_j2860448219241_2_alg».proof.Proof.TileY
import proofs.«138108_j2860448219241_2_alg».proof.Proof.StatsTot
import Idealize.ShloMosaic.Lib.Pipeline.Value
import Idealize.ShloMosaic.Lib.Tactic

set_option maxRecDepth 16384

noncomputable section

namespace Cert.KernelIdeal.Tile

open Cert.KernelIdeal Cert.KernelIdeal.Gen Idealize.ShloMosaic Idealize.ShloMosaic.Tactic Idealize.SL.Sem

variable {F : FTy → Type} [FloatOps F]

/-- The offsets of a whole-buffer access of a vector are zero. -/
theorem hz1 : (![0] : Fin 1 → Nat) = fun _ => 0 := funext fun a => by fin_cases a; rfl

/-- The offsets of a whole-buffer access of a matrix are zero. -/
theorem hz2 : (![0, 0] : Fin 2 → Nat) = fun _ => 0 := funext fun a => by fin_cases a <;> rfl

/-- At the first point the total of the values is zeroed, read back, and left holding the zeros plus the tile's contribution. -/
theorem out0_A_7_eq (c : Dev nD) (i : grid0.Coords) (arg1 : Memref sig .tc .vmem S64x128 .f32) (harg1 : arg1.IsWhole) (arg2 : Memref sig .tc .vmem S128 .f32) (harg2 : arg2.IsWhole) (arg3 : Memref sig .tc .vmem S128 .f32) (harg3 : arg3.IsWhole) (arg4 : Memref sig .tc .vmem S128 .f32) (harg4 : arg4.IsWhole) (arg5 : Memref sig .tc .vmem S128 .f32) (harg5 : arg5.IsWhole) (arg6 : Memref sig .tc .vmem S128x129 .f32) (harg6 : arg6.IsWhole) (arg7 : Memref sig .tc .vmem S128 .f32) (harg7 : arg7.IsWhole) (arg8 : Memref sig .tc .vmem S128 .f32) (harg8 : arg8.IsWhole) (arg9 : Memref sig .tc .vmem S128 .f32) (harg9 : arg9.IsWhole) (hc0 : cond0_0 i)
    (x0 : Vec F S64x128 .f32) (x1 : Vec F S128 .f32) (x2 : Vec F S128 .f32) (x3 : Vec F S128 .f32) (x4 : Vec F S128 .f32) (x5 : Vec F S128x129 .f32) (x6 : Vec F S128 .f32) :
    out0_A_7 c i arg1 harg1 arg2 harg2 arg3 harg3 arg4 harg4 arg5 harg5 arg6 harg6 arg7 harg7 arg8 harg8 arg9 harg9 hc0 x0 x1 x2 x3 x4 x5 x6 = accTot (k0_y x0 x1 x2 x3 x4 x5 x6) k0_pay3 := by
  unfold out0_A_7
  rw [View.read_writes_eq_canon _ _ _ (cover0_A_7 c i arg1 harg1 arg2 harg2 arg3 harg3 arg4 harg4 arg5 harg5 arg6 harg6 arg7 harg7 arg8 harg8 arg9 harg9 hc0 x0 x1 x2 x3 x4 x5 x6)]
  unfold kernelRun0_A
  dsimp only
  sl_unfold_words
  rw [View.canon_cons_unit_zero (S := S128) hz1]
  simp only [View.readCov_unit_zero (S := S128) _ hz1]
  simp only [View.readAt_eq_ld, harg1.read_unread, harg2.read_unread, harg3.read_unread, harg4.read_unread, harg5.read_unread, harg6.read_unread, harg7.read_unread, harg8.read_unread, harg9.read_unread, View.ld_unit_zero (S := S128) hz1, View.ld_unit_zero (S := S64x128) hz2, View.ld_unit_zero (S := S128x129) hz2]
  rfl

/-- At the first point the total of the squares is zeroed, read back, and left holding the zeros plus the tile's contribution. -/
theorem out0_A_8_eq (c : Dev nD) (i : grid0.Coords) (arg1 : Memref sig .tc .vmem S64x128 .f32) (harg1 : arg1.IsWhole) (arg2 : Memref sig .tc .vmem S128 .f32) (harg2 : arg2.IsWhole) (arg3 : Memref sig .tc .vmem S128 .f32) (harg3 : arg3.IsWhole) (arg4 : Memref sig .tc .vmem S128 .f32) (harg4 : arg4.IsWhole) (arg5 : Memref sig .tc .vmem S128 .f32) (harg5 : arg5.IsWhole) (arg6 : Memref sig .tc .vmem S128x129 .f32) (harg6 : arg6.IsWhole) (arg7 : Memref sig .tc .vmem S128 .f32) (harg7 : arg7.IsWhole) (arg8 : Memref sig .tc .vmem S128 .f32) (harg8 : arg8.IsWhole) (arg9 : Memref sig .tc .vmem S128 .f32) (harg9 : arg9.IsWhole) (hc0 : cond0_0 i)
    (x0 : Vec F S64x128 .f32) (x1 : Vec F S128 .f32) (x2 : Vec F S128 .f32) (x3 : Vec F S128 .f32) (x4 : Vec F S128 .f32) (x5 : Vec F S128x129 .f32) (x6 : Vec F S128 .f32) :
    out0_A_8 c i arg1 harg1 arg2 harg2 arg3 harg3 arg4 harg4 arg5 harg5 arg6 harg6 arg7 harg7 arg8 harg8 arg9 harg9 hc0 x0 x1 x2 x3 x4 x5 x6 = accTotSq (k0_y x0 x1 x2 x3 x4 x5 x6) k0_pay4 := by
  unfold out0_A_8
  rw [View.read_writes_eq_canon _ _ _ (cover0_A_8 c i arg1 harg1 arg2 harg2 arg3 harg3 arg4 harg4 arg5 harg5 arg6 harg6 arg7 harg7 arg8 harg8 arg9 harg9 hc0 x0 x1 x2 x3 x4 x5 x6)]
  unfold kernelRun0_A
  dsimp only
  sl_unfold_words
  rw [View.canon_cons_unit_zero (S := S128) hz1]
  simp only [View.readCov_unit_zero (S := S128) _ hz1]
  simp only [View.readAt_eq_ld, harg1.read_unread, harg2.read_unread, harg3.read_unread, harg4.read_unread, harg5.read_unread, harg6.read_unread, harg7.read_unread, harg8.read_unread, harg9.read_unread, View.ld_unit_zero (S := S128) hz1, View.ld_unit_zero (S := S64x128) hz2, View.ld_unit_zero (S := S128x129) hz2]
  rfl

/-- At a later point the total of the values is left holding its previous contents plus the tile's contribution. -/
theorem out0_B_7_eq (c : Dev nD) (i : grid0.Coords) (arg1 : Memref sig .tc .vmem S64x128 .f32) (harg1 : arg1.IsWhole) (arg2 : Memref sig .tc .vmem S128 .f32) (harg2 : arg2.IsWhole) (arg3 : Memref sig .tc .vmem S128 .f32) (harg3 : arg3.IsWhole) (arg4 : Memref sig .tc .vmem S128 .f32) (harg4 : arg4.IsWhole) (arg5 : Memref sig .tc .vmem S128 .f32) (harg5 : arg5.IsWhole) (arg6 : Memref sig .tc .vmem S128x129 .f32) (harg6 : arg6.IsWhole) (arg7 : Memref sig .tc .vmem S128 .f32) (harg7 : arg7.IsWhole) (arg8 : Memref sig .tc .vmem S128 .f32) (harg8 : arg8.IsWhole) (arg9 : Memref sig .tc .vmem S128 .f32) (harg9 : arg9.IsWhole) (hc0 : ¬cond0_0 i)
    (x0 : Vec F S64x128 .f32) (x1 : Vec F S128 .f32) (x2 : Vec F S128 .f32) (x3 : Vec F S128 .f32) (x4 : Vec F S128 .f32) (x5 : Vec F S128x129 .f32) (x6 : Vec F S128 .f32) (xo7 : Vec F S128 .f32) (xo8 : Vec F S128 .f32) :
    out0_B_7 c i arg1 harg1 arg2 harg2 arg3 harg3 arg4 harg4 arg5 harg5 arg6 harg6 arg7 harg7 arg8 harg8 arg9 harg9 hc0 x0 x1 x2 x3 x4 x5 x6 xo7 xo8 = accTot (k0_y x0 x1 x2 x3 x4 x5 x6) xo7 := by
  unfold out0_B_7
  rw [View.read_writes_eq_canon _ _ _ (cover0_B_7 c i arg1 harg1 arg2 harg2 arg3 harg3 arg4 harg4 arg5 harg5 arg6 harg6 arg7 harg7 arg8 harg8 arg9 harg9 hc0 x0 x1 x2 x3 x4 x5 x6 xo7 xo8)]
  unfold kernelRun0_B
  dsimp only
  sl_unfold_words
  rw [View.canon_unit_zero hz1]
  simp only [View.readAt_eq_ld, harg1.read_unread, harg2.read_unread, harg3.read_unread, harg4.read_unread, harg5.read_unread, harg6.read_unread, harg7.read_unread, harg8.read_unread, harg9.read_unread, View.ld_unit_zero (S := S128) hz1, View.ld_unit_zero (S := S64x128) hz2, View.ld_unit_zero (S := S128x129) hz2]
  rfl

/-- At a later point the total of the squares is left holding its previous contents plus the tile's contribution. -/
theorem out0_B_8_eq (c : Dev nD) (i : grid0.Coords) (arg1 : Memref sig .tc .vmem S64x128 .f32) (harg1 : arg1.IsWhole) (arg2 : Memref sig .tc .vmem S128 .f32) (harg2 : arg2.IsWhole) (arg3 : Memref sig .tc .vmem S128 .f32) (harg3 : arg3.IsWhole) (arg4 : Memref sig .tc .vmem S128 .f32) (harg4 : arg4.IsWhole) (arg5 : Memref sig .tc .vmem S128 .f32) (harg5 : arg5.IsWhole) (arg6 : Memref sig .tc .vmem S128x129 .f32) (harg6 : arg6.IsWhole) (arg7 : Memref sig .tc .vmem S128 .f32) (harg7 : arg7.IsWhole) (arg8 : Memref sig .tc .vmem S128 .f32) (harg8 : arg8.IsWhole) (arg9 : Memref sig .tc .vmem S128 .f32) (harg9 : arg9.IsWhole) (hc0 : ¬cond0_0 i)
    (x0 : Vec F S64x128 .f32) (x1 : Vec F S128 .f32) (x2 : Vec F S128 .f32) (x3 : Vec F S128 .f32) (x4 : Vec F S128 .f32) (x5 : Vec F S128x129 .f32) (x6 : Vec F S128 .f32) (xo7 : Vec F S128 .f32) (xo8 : Vec F S128 .f32) :
    out0_B_8 c i arg1 harg1 arg2 harg2 arg3 harg3 arg4 harg4 arg5 harg5 arg6 harg6 arg7 harg7 arg8 harg8 arg9 harg9 hc0 x0 x1 x2 x3 x4 x5 x6 xo7 xo8 = accTotSq (k0_y x0 x1 x2 x3 x4 x5 x6) xo8 := by
  unfold out0_B_8
  rw [View.read_writes_eq_canon _ _ _ (cover0_B_8 c i arg1 harg1 arg2 harg2 arg3 harg3 arg4 harg4 arg5 harg5 arg6 harg6 arg7 harg7 arg8 harg8 arg9 harg9 hc0 x0 x1 x2 x3 x4 x5 x6 xo7 xo8)]
  unfold kernelRun0_B
  dsimp only
  sl_unfold_words
  rw [View.canon_unit_zero hz1]
  simp only [View.readAt_eq_ld, harg1.read_unread, harg2.read_unread, harg3.read_unread, harg4.read_unread, harg5.read_unread, harg6.read_unread, harg7.read_unread, harg8.read_unread, harg9.read_unread, View.ld_unit_zero (S := S128) hz1, View.ld_unit_zero (S := S64x128) hz2, View.ld_unit_zero (S := S128x129) hz2]
  rfl

end Cert.KernelIdeal.Tile

end
-- ==== Proof.Rows0.lean ====
/-
  The rows of kernel 0's staggered table, payload by payload.  Every statement is an instance of a general lemma of
  LibStaggerRows (stagRow_of_tailHead, seg_apply, sliceSeg_apply, stagRow_of_givenHead, stagRow_of_givenGiven,
  addMid_apply) at that payload's literal row number, offsets and shapes, which are read off the generated skeleton;
  the last theorem lists, for i = 0 … 127, that the i-th stacked piece is row i of the table.
-/
import proofs.«138108_j2860448219241_2_alg».proof.Proof.LibRowList
import proofs.«138108_j2860448219241_2_alg».proof.Proof.TileY

set_option maxRecDepth 65536

noncomputable section

namespace Cert.KernelIdeal.Tile

open Cert.KernelIdeal Cert.KernelIdeal.Gen Idealize.ShloMosaic Idealize.ShloMosaic.ValueIdx Cert.StaggerRows

theorem k0_pay9_apply (v3 : Vec Ideal S64x128 .f32) (v4 : Vec Ideal S128 .f32) (v6 : Vec Ideal S128 .f32) (v8 : Vec Ideal S128 .f32) (v9 : Vec Ideal S128 .f32) (b : Fin 64) (k : Fin 128) :
    k0_pay9 v3 v4 v6 v8 v9 (ix2 b k) = stagRow (k0_pay6 v3 v4 v6 v8 v9) 1 (by decide) (by decide) b k :=
  stagRow_of_tailHead 1 (by decide) (by decide) (k0_pay6 v3 v4 v6 v8 v9) slices_S64x128x128_o0_0_1_S64x1x127 shapeCasts_S64x1x127_S64x127 slices_S64x128x128_o0_1_0_S64x1x1 shapeCasts_S64x1x1_S64x1 concatenates_S64x127_S64x1_S64x128_d1 (by rfl) b k

/-- Row 1 of the table, as the body composes it. -/
theorem k0_row1 (x0 : Vec Ideal S64x128 .f32) (x1 x2 x3 x4 : Vec Ideal S128 .f32) (b : Fin 64) (k : Fin 128) :
    (k0_pay9 x0 x1 x2 x3 x4) (ix2 b k) = stagRow (k0_pay6 x0 x1 x2 x3 x4) 1 (by decide) (by decide) b k :=
  k0_pay9_apply x0 x1 x2 x3 x4 b k

theorem k0_pay11_apply (v33 : FVec Ideal S64x128x128 .f32) (v43 : FVec Ideal S64x126 .f32) (b : Fin 64) (k : Fin 128)
    (hx1 : ∀ k' : Fin 126, v43 (ix2 b k') = v33 (ix3 b ⟨1, by decide⟩ ⟨2 + k'.val, by have := k'.isLt; omega⟩)) :
    k0_pay11 v33 v43 (ix2 b k) = stagRow v33 2 (by decide) (by decide) b k :=
  stagRow_of_givenHead 2 (by decide) (by decide) v33 v43 slices_S64x128x128_o0_2_0_S64x1x2 shapeCasts_S64x1x2_S64x2 concatenates_S64x126_S64x2_S64x128_d1 (by rfl) b k hx1

theorem k0_pay10_apply (v3 : Vec Ideal S64x128 .f32) (v4 : Vec Ideal S128 .f32) (v6 : Vec Ideal S128 .f32) (v8 : Vec Ideal S128 .f32) (v9 : Vec Ideal S128 .f32) (b : Fin 64) (k : Fin 126) :
    k0_pay10 v3 v4 v6 v8 v9 (ix2 b k) = (k0_pay6 v3 v4 v6 v8 v9) (ix3 b ⟨1, by decide⟩ ⟨2 + k.val, by have := k.isLt; omega⟩) :=
  seg_apply 1 2 (k0_pay6 v3 v4 v6 v8 v9) slices_S64x128x128_o0_1_2_S64x1x126 shapeCasts_S64x1x126_S64x126 b k _ _ rfl rfl

/-- Row 2 of the table, as the body composes it. -/
theorem k0_row2 (x0 : Vec Ideal S64x128 .f32) (x1 x2 x3 x4 : Vec Ideal S128 .f32) (b : Fin 64) (k : Fin 128) :
    (k0_pay11 (k0_pay6 x0 x1 x2 x3 x4) (k0_pay10 x0 x1 x2 x3 x4)) (ix2 b k) = stagRow (k0_pay6 x0 x1 x2 x3 x4) 2 (by decide) (by decide) b k :=
  k0_pay11_apply (k0_pay6 x0 x1 x2 x3 x4) (k0_pay10 x0 x1 x2 x3 x4) b k (fun k' => k0_pay10_apply x0 x1 x2 x3 x4 b k')

theorem k0_pay12_apply (v33 : FVec Ideal S64x128x128 .f32) (b : Fin 64) (k : Fin 128) :
    k0_pay12 v33 (ix2 b k) = stagRow v33 3 (by decide) (by decide) b k :=
  stagRow_of_tailHead 3 (by decide) (by decide) v33 slices_S64x128x128_o0_2_3_S64x1x125 shapeCasts_S64x1x125_S64x125 slices_S64x128x128_o0_3_0_S64x1x3 shapeCasts_S64x1x3_S64x3 concatenates_S64x125_S64x3_S64x128_d1 (by rfl) b k

/-- Row 3 of the table, as the body composes it. -/
theorem k0_row3 (x0 : Vec Ideal S64x128 .f32) (x1 x2 x3 x4 : Vec Ideal S128 .f32) (b : Fin 64) (k : Fin 128) :
    (k0_pay12 (k0_pay6 x0 x1 x2 x3 x4)) (ix2 b k) = stagRow (k0_pay6 x0 x1 x2 x3 x4) 3 (by decide) (by decide) b k :=
  k0_pay12_apply (k0_pay6 x0 x1 x2 x3 x4) b k

theorem k0_pay13_apply (v33 : FVec Ideal S64x128x128 .f32) (b : Fin 64) (k : Fin 128) :
    k0_pay13 v33 (ix2 b k) = stagRow v33 4 (by decide) (by decide) b k :=
  stagRow_of_tailHead 4 (by decide) (by decide) v33 slices_S64x128x128_o0_3_4_S64x1x124 shapeCasts_S64x1x124_S64x124 slices_S64x128x128_o0_4_0_S64x1x4 shapeCasts_S64x1x4_S64x4 concatenates_S64x124_S64x4_S64x128_d1 (by rfl) b k

/-- Row 4 of the table, as the body composes it. -/
theorem k0_row4 (x0 : Vec Ideal S64x128 .f32) (x1 x2 x3 x4 : Vec Ideal S128 .f32) (b : Fin 64) (k : Fin 128) :
    (k0_pay13 (k0_pay6 x0 x1 x2 x3 x4)) (ix2 b k) = stagRow (k0_pay6 x0 x1 x2 x3 x4) 4 (by decide) (by decide) b k :=
  k0_pay13_apply (k0_pay6 x0 x1 x2 x3 x4) b k

theorem k0_pay14_apply (v33 : FVec Ideal S64x128x128 .f32) (b : Fin 64) (k : Fin 128) :
    k0_pay14 v33 (ix2 b k) = stagRow v33 5 (by decide) (by decide) b k :=
  stagRow_of_tailHead 5 (by decide) (by decide) v33 slices_S64x128x128_o0_4_5_S64x1x123 shapeCasts_S64x1x123_S64x123 slices_S64x128x128_o0_5_0_S64x1x5 shapeCasts_S64x1x5_S64x5 concatenates_S64x123_S64x5_S64x128_d1 (by rfl) b k

/-- Row 5 of the table, as the body composes it. -/
theorem k0_row5 (x0 : Vec Ideal S64x128 .f32) (x1 x2 x3 x4 : Vec Ideal S128 .f32) (b : Fin 64) (k : Fin 128) :
    (k0_pay14 (k0_pay6 x0 x1 x2 x3 x4)) (ix2 b k) = stagRow (k0_pay6 x0 x1 x2 x3 x4) 5 (by decide) (by decide) b k :=
  k0_pay14_apply (k0_pay6 x0 x1 x2 x3 x4) b k

theorem k0_pay15_apply (v33 : FVec Ideal S64x128x128 .f32) (b : Fin 64) (k : Fin 128) :
    k0_pay15 v33 (ix2 b k) = stagRow v33 6 (by decide) (by decide) b k :=
  stagRow_of_tailHead 6 (by decide) (by decide) v33 slices_S64x128x128_o0_5_6_S64x1x122 shapeCasts_S64x1x122_S64x122 slices_S64x128x128_o0_6_0_S64x1x6 shapeCasts_S64x1x6_S64x6 concatenates_S64x122_S64x6_S64x128_d1 (by rfl) b k

/-- Row 6 of the table, as the body composes it. -/
theorem k0_row6 (x0 : Vec Ideal S64x128 .f32) (x1 x2 x3 x4 : Vec Ideal S128 .f32) (b : Fin 64) (k : Fin 128) :
    (k0_pay15 (k0_pay6 x0 x1 x2 x3 x4)) (ix2 b k) = stagRow (k0_pay6 x0 x1 x2 x3 x4) 6 (by decide) (by decide) b k :=
  k0_pay15_apply (k0_pay6 x0 x1 x2 x3 x4) b k

theorem k0_pay16_apply (v33 : FVec Ideal S64x128x128 .f32) (b : Fin 64) (k : Fin 128) :
    k0_pay16 v33 (ix2 b k) = stagRow v33 7 (by decide) (by decide) b k :=
  stagRow_of_tailHead 7 (by decide) (by decide) v33 slices_S64x128x128_o0_6_7_S64x1x121 shapeCasts_S64x1x121_S64x121 slices_S64x128x128_o0_7_0_S64x1x7 shapeCasts_S64x1x7_S64x7 concatenates_S64x121_S64x7_S64x128_d1 (by rfl) b k

/-- Row 7 of the table, as the body composes it. -/
theorem k0_row7 (x0 : Vec Ideal S64x128 .f32) (x1 x2 x3 x4 : Vec Ideal S128 .f32) (b : Fin 64) (k : Fin 128) :
    (k0_pay16 (k0_pay6 x0 x1 x2 x3 x4)) (ix2 b k) = stagRow (k0_pay6 x0 x1 x2 x3 x4) 7 (by decide) (by decide) b k :=
  k0_pay16_apply (k0_pay6 x0 x1 x2 x3 x4) b k

theorem k0_pay17_apply (v33 : FVec Ideal S64x128x128 .f32) (b : Fin 64) (k : Fin 128) :
    k0_pay17 v33 (ix2 b k) = stagRow v33 8 (by decide) (by decide) b k :=
  stagRow_of_tailHead 8 (by decide) (by decide) v33 slices_S64x128x128_o0_7_8_S64x1x120 shapeCasts_S64x1x120_S64x120 slices_S64x128x128_o0_8_0_S64x1x8 shapeCasts_S64x1x8_S64x8 concatenates_S64x120_S64x8_S64x128_d1 (by rfl) b k

/-- Row 8 of the table, as the body composes it. -/
theorem k0_row8 (x0 : Vec Ideal S64x128 .f32) (x1 x2 x3 x4 : Vec Ideal S128 .f32) (b : Fin 64) (k : Fin 128) :
    (k0_pay17 (k0_pay6 x0 x1 x2 x3 x4)) (ix2 b k) = stagRow (k0_pay6 x0 x1 x2 x3 x4) 8 (by decide) (by decide) b k :=
  k0_pay17_apply (k0_pay6 x0 x1 x2 x3 x4) b k

theorem k0_pay18_apply (v33 : FVec Ideal S64x128x128 .f32) (b : Fin 64) (k : Fin 128) :
    k0_pay18 v33 (ix2 b k) = stagRow v33 9 (by decide) (by decide) b k :=
  stagRow_of_tailHead 9 (by decide) (by decide) v33 slices_S64x128x128_o0_8_9_S64x1x119 shapeCasts_S64x1x119_S64x119 slices_S64x128x128_o0_9_0_S64x1x9 shapeCasts_S64x1x9_S64x9 concatenates_S64x119_S64x9_S64x128_d1 (by rfl) b k

/-- Row 9 of the table, as the body composes it. -/
theorem k0_row9 (x0 : Vec Ideal S64x128 .f32) (x1 x2 x3 x4 : Vec Ideal S128 .f32) (b : Fin 64) (k : Fin 128) :
    (k0_pay18 (k0_pay6 x0 x1 x2 x3 x4)) (ix2 b k) = stagRow (k0_pay6 x0 x1 x2 x3 x4) 9 (by decide) (by decide) b k :=
  k0_pay18_apply (k0_pay6 x0 x1 x2 x3 x4) b k

theorem k0_pay19_apply (v33 : FVec Ideal S64x128x128 .f32) (b : Fin 64) (k : Fin 128) :
    k0_pay19 v33 (ix2 b k) = stagRow v33 10 (by decide) (by decide) b k :=
  stagRow_of_tailHead 10 (by decide) (by decide) v33 slices_S64x128x128_o0_9_10_S64x1x118 shapeCasts_S64x1x118_S64x118 slices_S64x128x128_o0_10_0_S64x1x10 shapeCasts_S64x1x10_S64x10 concatenates_S64x118_S64x10_S64x128_d1 (by rfl) b k

/-- Row 10 of the table, as the body composes it. -/
theorem k0_row10 (x0 : Vec Ideal S64x128 .f32) (x1 x2 x3 x4 : Vec Ideal S128 .f32) (b : Fin 64) (k : Fin 128) :
    (k0_pay19 (k0_pay6 x0 x1 x2 x3 x4)) (ix2 b k) = stagRow (k0_pay6 x0 x1 x2 x3 x4) 10 (by decide) (by decide) b k :=
  k0_pay19_apply (k0_pay6 x0 x1 x2 x3 x4) b k

theorem k0_pay20_apply (v33 : FVec Ideal S64x128x128 .f32) (b : Fin 64) (k : Fin 128) :
    k0_pay20 v33 (ix2 b k) = stagRow v33 11 (by decide) (by decide) b k :=
  stagRow_of_tailHead 11 (by decide) (by decide) v33 slices_S64x128x128_o0_10_11_S64x1x117 shapeCasts_S64x1x117_S64x117 slices_S64x128x128_o0_11_0_S64x1x11 shapeCasts_S64x1x11_S64x11 concatenates_S64x117_S64x11_S64x128_d1 (by rfl) b k

/-- Row 11 of the table, as the body composes it. -/
theorem k0_row11 (x0 : Vec Ideal S64x128 .f32) (x1 x2 x3 x4 : Vec Ideal S128 .f32) (b : Fin 64) (k : Fin 128) :
    (k0_pay20 (k0_pay6 x0 x1 x2 x3 x4)) (ix2 b k) = stagRow (k0_pay6 x0 x1 x2 x3 x4) 11 (by decide) (by decide) b k :=
  k0_pay20_apply (k0_pay6 x0 x1 x2 x3 x4) b k

theorem k0_pay21_apply (v33 : FVec Ideal S64x128x128 .f32) (b : Fin 64) (k : Fin 128) :
    k0_pay21 v33 (ix2 b k) = stagRow v33 12 (by decide) (by decide) b k :=
  stagRow_of_tailHead 12 (by decide) (by decide) v33 slices_S64x128x128_o0_11_12_S64x1x116 shapeCasts_S64x1x116_S64x116 slices_S64x128x128_o0_12_0_S64x1x12 shapeCasts_S64x1x12_S64x12 concatenates_S64x116_S64x12_S64x128_d1 (by rfl) b k

/-- Row 12 of the table, as the body composes it. -/
theorem k0_row12 (x0 : Vec Ideal S64x128 .f32) (x1 x2 x3 x4 : Vec Ideal S128 .f32) (b : Fin 64) (k : Fin 128) :
    (k0_pay21 (k0_pay6 x0 x1 x2 x3 x4)) (ix2 b k) = stagRow (k0_pay6 x0 x1 x2 x3 x4) 12 (by decide) (by decide) b k :=
  k0_pay21_apply (k0_pay6 x0 x1 x2 x3 x4) b k

theorem k0_pay22_apply (v33 : FVec Ideal S64x128x128 .f32) (b : Fin 64) (k : Fin 128) :
    k0_pay22 v33 (ix2 b k) = stagRow v33 13 (by decide) (by decide) b k :=
  stagRow_of_tailHead 13 (by decide) (by decide) v33 slices_S64x128x128_o0_12_13_S64x1x115 shapeCasts_S64x1x115_S64x115 slices_S64x128x128_o0_13_0_S64x1x13 shapeCasts_S64x1x13_S64x13 concatenates_S64x115_S64x13_S64x128_d1 (by rfl) b k

/-- Row 13 of the table, as the body composes it. -/
theorem k0_row13 (x0 : Vec Ideal S64x128 .f32) (x1 x2 x3 x4 : Vec Ideal S128 .f32) (b : Fin 64) (k : Fin 128) :
    (k0_pay22 (k0_pay6 x0 x1 x2 x3 x4)) (ix2 b k) = stagRow (k0_pay6 x0 x1 x2 x3 x4) 13 (by decide) (by decide) b k :=
  k0_pay22_apply (k0_pay6 x0 x1 x2 x3 x4) b k

theorem k0_pay24_apply (v33 : FVec Ideal S64x128x128 .f32) (v103 : FVec Ideal S64x114 .f32) (b : Fin 64) (k : Fin 128)
    (hx1 : ∀ k' : Fin 114, v103 (ix2 b k') = v33 (ix3 b ⟨13, by decide⟩ ⟨14 + k'.val, by have := k'.isLt; omega⟩)) :
    k0_pay24 v33 v103 (ix2 b k) = stagRow v33 14 (by decide) (by decide) b k :=
  stagRow_of_givenHead 14 (by decide) (by decide) v33 v103 slices_S64x128x128_o0_14_0_S64x1x14 shapeCasts_S64x1x14_S64x14 concatenates_S64x114_S64x14_S64x128_d1 (by rfl) b k hx1

theorem k0_pay23_apply (v33 : FVec Ideal S64x128x128 .f32) (b : Fin 64) (k : Fin 114) :
    k0_pay23 v33 (ix2 b k) = v33 (ix3 b ⟨13, by decide⟩ ⟨14 + k.val, by have := k.isLt; omega⟩) :=
  seg_apply 13 14 v33 slices_S64x128x128_o0_13_14_S64x1x114 shapeCasts_S64x1x114_S64x114 b k _ _ rfl rfl

/-- Row 14 of the table, as the body composes it. -/
theorem k0_row14 (x0 : Vec Ideal S64x128 .f32) (x1 x2 x3 x4 : Vec Ideal S128 .f32) (b : Fin 64) (k : Fin 128) :
    (k0_pay24 (k0_pay6 x0 x1 x2 x3 x4) (k0_pay23 (k0_pay6 x0 x1 x2 x3 x4))) (ix2 b k) = stagRow (k0_pay6 x0 x1 x2 x3 x4) 14 (by decide) (by decide) b k :=
  k0_pay24_apply (k0_pay6 x0 x1 x2 x3 x4) (k0_pay23 (k0_pay6 x0 x1 x2 x3 x4)) b k (fun k' => k0_pay23_apply (k0_pay6 x0 x1 x2 x3 x4) b k')

theorem k0_pay25_apply (v33 : FVec Ideal S64x128x128 .f32) (b : Fin 64) (k : Fin 128) :
    k0_pay25 v33 (ix2 b k) = stagRow v33 15 (by decide) (by decide) b k :=
  stagRow_of_tailHead 15 (by decide) (by decide) v33 slices_S64x128x128_o0_14_15_S64x1x113 shapeCasts_S64x1x113_S64x113 slices_S64x128x128_o0_15_0_S64x1x15 shapeCasts_S64x1x15_S64x15 concatenates_S64x113_S64x15_S64x128_d1 (by rfl) b k

/-- Row 15 of the table, as the body composes it. -/
theorem k0_row15 (x0 : Vec Ideal S64x128 .f32) (x1 x2 x3 x4 : Vec Ideal S128 .f32) (b : Fin 64) (k : Fin 128) :
    (k0_pay25 (k0_pay6 x0 x1 x2 x3 x4)) (ix2 b k) = stagRow (k0_pay6 x0 x1 x2 x3 x4) 15 (by decide) (by decide) b k :=
  k0_pay25_apply (k0_pay6 x0 x1 x2 x3 x4) b k

theorem k0_pay26_apply (v33 : FVec Ideal S64x128x128 .f32) (b : Fin 64) (k : Fin 128) :
    k0_pay26 v33 (ix2 b k) = stagRow v33 16 (by decide) (by decide) b k :=
  stagRow_of_tailHead 16 (by decide) (by decide) v33 slices_S64x128x128_o0_15_16_S64x1x112 shapeCasts_S64x1x112_S64x112 slices_S64x128x128_o0_16_0_S64x1x16 shapeCasts_S64x1x16_S64x16 concatenates_S64x112_S64x16_S64x128_d1 (by rfl) b k

/-- Row 16 of the table, as the body composes it. -/
theorem k0_row16 (x0 : Vec Ideal S64x128 .f32) (x1 x2 x3 x4 : Vec Ideal S128 .f32) (b : Fin 64) (k : Fin 128) :
    (k0_pay26 (k0_pay6 x0 x1 x2 x3 x4)) (ix2 b k) = stagRow (k0_pay6 x0 x1 x2 x3 x4) 16 (by decide) (by decide) b k :=
  k0_pay26_apply (k0_pay6 x0 x1 x2 x3 x4) b k

theorem k0_pay27_apply (v33 : FVec Ideal S64x128x128 .f32) (b : Fin 64) (k : Fin 128) :
    k0_pay27 v33 (ix2 b k) = stagRow v33 17 (by decide) (by decide) b k :=
  stagRow_of_tailHead 17 (by decide) (by decide) v33 slices_S64x128x128_o0_16_17_S64x1x111 shapeCasts_S64x1x111_S64x111 slices_S64x128x128_o0_17_0_S64x1x17 shapeCasts_S64x1x17_S64x17 concatenates_S64x111_S64x17_S64x128_d1 (by rfl) b k

/-- Row 17 of the table, as the body composes it. -/
theorem k0_row17 (x0 : Vec Ideal S64x128 .f32) (x1 x2 x3 x4 : Vec Ideal S128 .f32) (b : Fin 64) (k : Fin 128) :
    (k0_pay27 (k0_pay6 x0 x1 x2 x3 x4)) (ix2 b k) = stagRow (k0_pay6 x0 x1 x2 x3 x4) 17 (by decide) (by decide) b k :=
  k0_pay27_apply (k0_pay6 x0 x1 x2 x3 x4) b k

theorem k0_pay28_apply (v33 : FVec Ideal S64x128x128 .f32) (b : Fin 64) (k : Fin 128) :
    k0_pay28 v33 (ix2 b k) = stagRow v33 18 (by decide) (by decide) b k :=
  stagRow_of_tailHead 18 (by decide) (by decide) v33 slices_S64x128x128_o0_17_18_S64x1x110 shapeCasts_S64x1x110_S64x110 slices_S64x128x128_o0_18_0_S64x1x18 shapeCasts_S64x1x18_S64x18 concatenates_S64x110_S64x18_S64x128_d1 (by rfl) b k

/-- Row 18 of the table, as the body composes it. -/
theorem k0_row18 (x0 : Vec Ideal S64x128 .f32) (x1 x2 x3 x4 : Vec Ideal S128 .f32) (b : Fin 64) (k : Fin 128) :
    (k0_pay28 (k0_pay6 x0 x1 x2 x3 x4)) (ix2 b k) = stagRow (k0_pay6 x0 x1 x2 x3 x4) 18 (by decide) (by decide) b k :=
  k0_pay28_apply (k0_pay6 x0 x1 x2 x3 x4) b k

theorem k0_pay29_apply (v33 : FVec Ideal S64x128x128 .f32) (b : Fin 64) (k : Fin 128) :
    k0_pay29 v33 (ix2 b k) = stagRow v33 19 (by decide) (by decide) b k :=
  stagRow_of_tailHead 19 (by decide) (by decide) v33 slices_S64x128x128_o0_18_19_S64x1x109 shapeCasts_S64x1x109_S64x109 slices_S64x128x128_o0_19_0_S64x1x19 shapeCasts_S64x1x19_S64x19 concatenates_S64x109_S64x19_S64x128_d1 (by rfl) b k

/-- Row 19 of the table, as the body composes it. -/
theorem k0_row19 (x0 : Vec Ideal S64x128 .f32) (x1 x2 x3 x4 : Vec Ideal S128 .f32) (b : Fin 64) (k : Fin 128) :
    (k0_pay29 (k0_pay6 x0 x1 x2 x3 x4)) (ix2 b k) = stagRow (k0_pay6 x0 x1 x2 x3 x4) 19 (by decide) (by decide) b k :=
  k0_pay29_apply (k0_pay6 x0 x1 x2 x3 x4) b k

theorem k0_pay30_apply (v33 : FVec Ideal S64x128x128 .f32) (b : Fin 64) (k : Fin 128) :
    k0_pay30 v33 (ix2 b k) = stagRow v33 20 (by decide) (by decide) b k :=
  stagRow_of_tailHead 20 (by decide) (by decide) v33 slices_S64x128x128_o0_19_20_S64x1x108 shapeCasts_S64x1x108_S64x108 slices_S64x128x128_o0_20_0_S64x1x20 shapeCasts_S64x1x20_S64x20 concatenates_S64x108_S64x20_S64x128_d1 (by rfl) b k

/-- Row 20 of the table, as the body composes it. -/
theorem k0_row20 (x0 : Vec Ideal S64x128 .f32) (x1 x2 x3 x4 : Vec Ideal S128 .f32) (b : Fin 64) (k : Fin 128) :
    (k0_pay30 (k0_pay6 x0 x1 x2 x3 x4)) (ix2 b k) = stagRow (k0_pay6 x0 x1 x2 x3 x4) 20 (by decide) (by decide) b k :=
  k0_pay30_apply (k0_pay6 x0 x1 x2 x3 x4) b k

theorem k0_pay31_apply (v33 : FVec Ideal S64x128x128 .f32) (b : Fin 64) (k : Fin 128) :
    k0_pay31 v33 (ix2 b k) = stagRow v33 21 (by decide) (by decide) b k :=
  stagRow_of_tailHead 21 (by decide) (by decide) v33 slices_S64x128x128_o0_20_21_S64x1x107 shapeCasts_S64x1x107_S64x107 slices_S64x128x128_o0_21_0_S64x1x21 shapeCasts_S64x1x21_S64x21 concatenates_S64x107_S64x21_S64x128_d1 (by rfl) b k

/-- Row 21 of the table, as the body composes it. -/
theorem k0_row21 (x0 : Vec Ideal S64x128 .f32) (x1 x2 x3 x4 : Vec Ideal S128 .f32) (b : Fin 64) (k : Fin 128) :
    (k0_pay31 (k0_pay6 x0 x1 x2 x3 x4)) (ix2 b k) = stagRow (k0_pay6 x0 x1 x2 x3 x4) 21 (by decide) (by decide) b k :=
  k0_pay31_apply (k0_pay6 x0 x1 x2 x3 x4) b k

theorem k0_pay32_apply (v33 : FVec Ideal S64x128x128 .f32) (b : Fin 64) (k : Fin 128) :
    k0_pay32 v33 (ix2 b k) = stagRow v33 22 (by decide) (by decide) b k :=
  stagRow_of_tailHead 22 (by decide) (by decide) v33 slices_S64x128x128_o0_21_22_S64x1x106 shapeCasts_S64x1x106_S64x106 slices_S64x128x128_o0_22_0_S64x1x22 shapeCasts_S64x1x22_S64x22 concatenates_S64x106_S64x22_S64x128_d1 (by rfl) b k

/-- Row 22 of the table, as the body composes it. -/
theorem k0_row22 (x0 : Vec Ideal S64x128 .f32) (x1 x2 x3 x4 : Vec Ideal S128 .f32) (b : Fin 64) (k : Fin 128) :
    (k0_pay32 (k0_pay6 x0 x1 x2 x3 x4)) (ix2 b k) = stagRow (k0_pay6 x0 x1 x2 x3 x4) 22 (by decide) (by decide) b k :=
  k0_pay32_apply (k0_pay6 x0 x1 x2 x3 x4) b k

theorem k0_pay33_apply (v33 : FVec Ideal S64x128x128 .f32) (b : Fin 64) (k : Fin 128) :
    k0_pay33 v33 (ix2 b k) = stagRow v33 23 (by decide) (by decide) b k :=
  stagRow_of_tailHead 23 (by decide) (by decide) v33 slices_S64x128x128_o0_22_23_S64x1x105 shapeCasts_S64x1x105_S64x105 slices_S64x128x128_o0_23_0_S64x1x23 shapeCasts_S64x1x23_S64x23 concatenates_S64x105_S64x23_S64x128_d1 (by rfl) b k

/-- Row 23 of the table, as the body composes it. -/
theorem k0_row23 (x0 : Vec Ideal S64x128 .f32) (x1 x2 x3 x4 : Vec Ideal S128 .f32) (b : Fin 64) (k : Fin 128) :
    (k0_pay33 (k0_pay6 x0 x1 x2 x3 x4)) (ix2 b k) = stagRow (k0_pay6 x0 x1 x2 x3 x4) 23 (by decide) (by decide) b k :=
  k0_pay33_apply (k0_pay6 x0 x1 x2 x3 x4) b k

theorem k0_pay34_apply (v33 : FVec Ideal S64x128x128 .f32) (b : Fin 64) (k : Fin 128) :
    k0_pay34 v33 (ix2 b k) = stagRow v33 24 (by decide) (by decide) b k :=
  stagRow_of_tailHead 24 (by decide) (by decide) v33 slices_S64x128x128_o0_23_24_S64x1x104 shapeCasts_S64x1x104_S64x104 slices_S64x128x128_o0_24_0_S64x1x24 shapeCasts_S64x1x24_S64x24 concatenates_S64x104_S64x24_S64x128_d1 (by rfl) b k

/-- Row 24 of the table, as the body composes it. -/
theorem k0_row24 (x0 : Vec Ideal S64x128 .f32) (x1 x2 x3 x4 : Vec Ideal S128 .f32) (b : Fin 64) (k : Fin 128) :
    (k0_pay34 (k0_pay6 x0 x1 x2 x3 x4)) (ix2 b k) = stagRow (k0_pay6 x0 x1 x2 x3 x4) 24 (by decide) (by decide) b k :=
  k0_pay34_apply (k0_pay6 x0 x1 x2 x3 x4) b k

theorem k0_pay35_apply (v33 : FVec Ideal S64x128x128 .f32) (b : Fin 64) (k : Fin 128) :
    k0_pay35 v33 (ix2 b k) = stagRow v33 25 (by decide) (by decide) b k :=
  stagRow_of_tailHead 25 (by decide) (by decide) v33 slices_S64x128x128_o0_24_25_S64x1x103 shapeCasts_S64x1x103_S64x103 slices_S64x128x128_o0_25_0_S64x1x25 shapeCasts_S64x1x25_S64x25 concatenates_S64x103_S64x25_S64x128_d1 (by rfl) b k

/-- Row 25 of the table, as the body composes it. -/
theorem k0_row25 (x0 : Vec Ideal S64x128 .f32) (x1 x2 x3 x4 : Vec Ideal S128 .f32) (b : Fin 64) (k : Fin 128) :
    (k0_pay35 (k0_pay6 x0 x1 x2 x3 x4)) (ix2 b k) = stagRow (k0_pay6 x0 x1 x2 x3 x4) 25 (by decide) (by decide) b k :=
  k0_pay35_apply (k0_pay6 x0 x1 x2 x3 x4) b k

theorem k0_pay37_apply (v33 : FVec Ideal S64x128x128 .f32) (v163 : FVec Ideal S64x102 .f32) (b : Fin 64) (k : Fin 128)
    (hx1 : ∀ k' : Fin 102, v163 (ix2 b k') = v33 (ix3 b ⟨25, by decide⟩ ⟨26 + k'.val, by have := k'.isLt; omega⟩)) :
    k0_pay37 v33 v163 (ix2 b k) = stagRow v33 26 (by decide) (by decide) b k :=
  stagRow_of_givenHead 26 (by decide) (by decide) v33 v163 slices_S64x128x128_o0_26_0_S64x1x26 shapeCasts_S64x1x26_S64x26 concatenates_S64x102_S64x26_S64x128_d1 (by rfl) b k hx1

theorem k0_pay36_apply (v33 : FVec Ideal S64x128x128 .f32) (b : Fin 64) (k : Fin 102) :
    k0_pay36 v33 (ix2 b k) = v33 (ix3 b ⟨25, by decide⟩ ⟨26 + k.val, by have := k.isLt; omega⟩) :=
  seg_apply 25 26 v33 slices_S64x128x128_o0_25_26_S64x1x102 shapeCasts_S64x1x102_S64x102 b k _ _ rfl rfl

/-- Row 26 of the table, as the body composes it. -/
theorem k0_row26 (x0 : Vec Ideal S64x128 .f32) (x1 x2 x3 x4 : Vec Ideal S128 .f32) (b : Fin 64) (k : Fin 128) :
    (k0_pay37 (k0_pay6 x0 x1 x2 x3 x4) (k0_pay36 (k0_pay6 x0 x1 x2 x3 x4))) (ix2 b k) = stagRow (k0_pay6 x0 x1 x2 x3 x4) 26 (by decide) (by decide) b k :=
  k0_pay37_apply (k0_pay6 x0 x1 x2 x3 x4) (k0_pay36 (k0_pay6 x0 x1 x2 x3 x4)) b k (fun k' => k0_pay36_apply (k0_pay6 x0 x1 x2 x3 x4) b k')

theorem k0_pay38_apply (v33 : FVec Ideal S64x128x128 .f32) (b : Fin 64) (k : Fin 128) :
    k0_pay38 v33 (ix2 b k) = stagRow v33 27 (by decide) (by decide) b k :=
  stagRow_of_tailHead 27 (by decide) (by decide) v33 slices_S64x128x128_o0_26_27_S64x1x101 shapeCasts_S64x1x101_S64x101 slices_S64x128x128_o0_27_0_S64x1x27 shapeCasts_S64x1x27_S64x27 concatenates_S64x101_S64x27_S64x128_d1 (by rfl) b k

/-- Row 27 of the table, as the body composes it. -/
theorem k0_row27 (x0 : Vec Ideal S64x128 .f32) (x1 x2 x3 x4 : Vec Ideal S128 .f32) (b : Fin 64) (k : Fin 128) :
    (k0_pay38 (k0_pay6 x0 x1 x2 x3 x4)) (ix2 b k) = stagRow (k0_pay6 x0 x1 x2 x3 x4) 27 (by decide) (by decide) b k :=
  k0_pay38_apply (k0_pay6 x0 x1 x2 x3 x4) b k

theorem k0_pay39_apply (v33 : FVec Ideal S64x128x128 .f32) (b : Fin 64) (k : Fin 128) :
    k0_pay39 v33 (ix2 b k) = stagRow v33 28 (by decide) (by decide) b k :=
  stagRow_of_tailHead 28 (by decide) (by decide) v33 slices_S64x128x128_o0_27_28_S64x1x100 shapeCasts_S64x1x100_S64x100 slices_S64x128x128_o0_28_0_S64x1x28 shapeCasts_S64x1x28_S64x28 concatenates_S64x100_S64x28_S64x128_d1 (by rfl) b k

/-- Row 28 of the table, as the body composes it. -/
theorem k0_row28 (x0 : Vec Ideal S64x128 .f32) (x1 x2 x3 x4 : Vec Ideal S128 .f32) (b : Fin 64) (k : Fin 128) :
    (k0_pay39 (k0_pay6 x0 x1 x2 x3 x4)) (ix2 b k) = stagRow (k0_pay6 x0 x1 x2 x3 x4) 28 (by decide) (by decide) b k :=
  k0_pay39_apply (k0_pay6 x0 x1 x2 x3 x4) b k

theorem k0_pay40_apply (v33 : FVec Ideal S64x128x128 .f32) (b : Fin 64) (k : Fin 128) :
    k0_pay40 v33 (ix2 b k) = stagRow v33 29 (by decide) (by decide) b k :=
  stagRow_of_tailHead 29 (by decide) (by decide) v33 slices_S64x128x128_o0_28_29_S64x1x99 shapeCasts_S64x1x99_S64x99 slices_S64x128x128_o0_29_0_S64x1x29 shapeCasts_S64x1x29_S64x29 concatenates_S64x99_S64x29_S64x128_d1 (by rfl) b k

/-- Row 29 of the table, as the body composes it. -/
theorem k0_row29 (x0 : Vec Ideal S64x128 .f32) (x1 x2 x3 x4 : Vec Ideal S128 .f32) (b : Fin 64) (k : Fin 128) :
    (k0_pay40 (k0_pay6 x0 x1 x2 x3 x4)) (ix2 b k) = stagRow (k0_pay6 x0 x1 x2 x3 x4) 29 (by decide) (by decide) b k :=
  k0_pay40_apply (k0_pay6 x0 x1 x2 x3 x4) b k

theorem k0_pay41_apply (v33 : FVec Ideal S64x128x128 .f32) (b : Fin 64) (k : Fin 128) :
    k0_pay41 v33 (ix2 b k) = stagRow v33 30 (by decide) (by decide) b k :=
  stagRow_of_tailHead 30 (by decide) (by decide) v33 slices_S64x128x128_o0_29_30_S64x1x98 shapeCasts_S64x1x98_S64x98 slices_S64x128x128_o0_30_0_S64x1x30 shapeCasts_S64x1x30_S64x30 concatenates_S64x98_S64x30_S64x128_d1 (by rfl) b k

/-- Row 30 of the table, as the body composes it. -/
theorem k0_row30 (x0 : Vec Ideal S64x128 .f32) (x1 x2 x3 x4 : Vec Ideal S128 .f32) (b : Fin 64) (k : Fin 128) :
    (k0_pay41 (k0_pay6 x0 x1 x2 x3 x4)) (ix2 b k) = stagRow (k0_pay6 x0 x1 x2 x3 x4) 30 (by decide) (by decide) b k :=
  k0_pay41_apply (k0_pay6 x0 x1 x2 x3 x4) b k

theorem k0_pay42_apply (v33 : FVec Ideal S64x128x128 .f32) (b : Fin 64) (k : Fin 128) :
    k0_pay42 v33 (ix2 b k) = stagRow v33 31 (by decide) (by decide) b k :=
  stagRow_of_tailHead 31 (by decide) (by decide) v33 slices_S64x128x128_o0_30_31_S64x1x97 shapeCasts_S64x1x97_S64x97 slices_S64x128x128_o0_31_0_S64x1x31 shapeCasts_S64x1x31_S64x31 concatenates_S64x97_S64x31_S64x128_d1 (by rfl) b k

/-- Row 31 of the table, as the body composes it. -/
theorem k0_row31 (x0 : Vec Ideal S64x128 .f32) (x1 x2 x3 x4 : Vec Ideal S128 .f32) (b : Fin 64) (k : Fin 128) :
    (k0_pay42 (k0_pay6 x0 x1 x2 x3 x4)) (ix2 b k) = stagRow (k0_pay6 x0 x1 x2 x3 x4) 31 (by decide) (by decide) b k :=
  k0_pay42_apply (k0_pay6 x0 x1 x2 x3 x4) b k

theorem k0_pay43_apply (v33 : FVec Ideal S64x128x128 .f32) (b : Fin 64) (k : Fin 128) :
    k0_pay43 v33 (ix2 b k) = stagRow v33 32 (by decide) (by decide) b k :=
  stagRow_of_tailHead 32 (by decide) (by decide) v33 slices_S64x128x128_o0_31_32_S64x1x96 shapeCasts_S64x1x96_S64x96 slices_S64x128x128_o0_32_0_S64x1x32 shapeCasts_S64x1x32_S64x32 concatenates_S64x96_S64x32_S64x128_d1 (by rfl) b k

/-- Row 32 of the table, as the body composes it. -/
theorem k0_row32 (x0 : Vec Ideal S64x128 .f32) (x1 x2 x3 x4 : Vec Ideal S128 .f32) (b : Fin 64) (k : Fin 128) :
    (k0_pay43 (k0_pay6 x0 x1 x2 x3 x4)) (ix2 b k) = stagRow (k0_pay6 x0 x1 x2 x3 x4) 32 (by decide) (by decide) b k :=
  k0_pay43_apply (k0_pay6 x0 x1 x2 x3 x4) b k

theorem k0_pay44_apply (v33 : FVec Ideal S64x128x128 .f32) (b : Fin 64) (k : Fin 128) :
    k0_pay44 v33 (ix2 b k) = stagRow v33 33 (by decide) (by decide) b k :=
  stagRow_of_tailHead 33 (by decide) (by decide) v33 slices_S64x128x128_o0_32_33_S64x1x95 shapeCasts_S64x1x95_S64x95 slices_S64x128x128_o0_33_0_S64x1x33 shapeCasts_S64x1x33_S64x33 concatenates_S64x95_S64x33_S64x128_d1 (by rfl) b k

/-- Row 33 of the table, as the body composes it. -/
theorem k0_row33 (x0 : Vec Ideal S64x128 .f32) (x1 x2 x3 x4 : Vec Ideal S128 .f32) (b : Fin 64) (k : Fin 128) :
    (k0_pay44 (k0_pay6 x0 x1 x2 x3 x4)) (ix2 b k) = stagRow (k0_pay6 x0 x1 x2 x3 x4) 33 (by decide) (by decide) b k :=
  k0_pay44_apply (k0_pay6 x0 x1 x2 x3 x4) b k

theorem k0_pay45_apply (v33 : FVec Ideal S64x128x128 .f32) (b : Fin 64) (k : Fin 128) :
    k0_pay45 v33 (ix2 b k) = stagRow v33 34 (by decide) (by decide) b k :=
  stagRow_of_tailHead 34 (by decide) (by decide) v33 slices_S64x128x128_o0_33_34_S64x1x94 shapeCasts_S64x1x94_S64x94 slices_S64x128x128_o0_34_0_S64x1x34 shapeCasts_S64x1x34_S64x34 concatenates_S64x94_S64x34_S64x128_d1 (by rfl) b k

/-- Row 34 of the table, as the body composes it. -/
theorem k0_row34 (x0 : Vec Ideal S64x128 .f32) (x1 x2 x3 x4 : Vec Ideal S128 .f32) (b : Fin 64) (k : Fin 128) :
    (k0_pay45 (k0_pay6 x0 x1 x2 x3 x4)) (ix2 b k) = stagRow (k0_pay6 x0 x1 x2 x3 x4) 34 (by decide) (by decide) b k :=
  k0_pay45_apply (k0_pay6 x0 x1 x2 x3 x4) b k

theorem k0_pay46_apply (v33 : FVec Ideal S64x128x128 .f32) (b : Fin 64) (k : Fin 128) :
    k0_pay46 v33 (ix2 b k) = stagRow v33 35 (by decide) (by decide) b k :=
  stagRow_of_tailHead 35 (by decide) (by decide) v33 slices_S64x128x128_o0_34_35_S64x1x93 shapeCasts_S64x1x93_S64x93 slices_S64x128x128_o0_35_0_S64x1x35 shapeCasts_S64x1x35_S64x35 concatenates_S64x93_S64x35_S64x128_d1 (by rfl) b k

/-- Row 35 of the table, as the body composes it. -/
theorem k0_row35 (x0 : Vec Ideal S64x128 .f32) (x1 x2 x3 x4 : Vec Ideal S128 .f32) (b : Fin 64) (k : Fin 128) :
    (k0_pay46 (k0_pay6 x0 x1 x2 x3 x4)) (ix2 b k) = stagRow (k0_pay6 x0 x1 x2 x3 x4) 35 (by decide) (by decide) b k :=
  k0_pay46_apply (k0_pay6 x0 x1 x2 x3 x4) b k

theorem k0_pay47_apply (v33 : FVec Ideal S64x128x128 .f32) (b : Fin 64) (k : Fin 128) :
    k0_pay47 v33 (ix2 b k) = stagRow v33 36 (by decide) (by decide) b k :=
  stagRow_of_tailHead 36 (by decide) (by decide) v33 slices_S64x128x128_o0_35_36_S64x1x92 shapeCasts_S64x1x92_S64x92 slices_S64x128x128_o0_36_0_S64x1x36 shapeCasts_S64x1x36_S64x36 concatenates_S64x92_S64x36_S64x128_d1 (by rfl) b k

/-- Row 36 of the table, as the body composes it. -/
theorem k0_row36 (x0 : Vec Ideal S64x128 .f32) (x1 x2 x3 x4 : Vec Ideal S128 .f32) (b : Fin 64) (k : Fin 128) :
    (k0_pay47 (k0_pay6 x0 x1 x2 x3 x4)) (ix2 b k) = stagRow (k0_pay6 x0 x1 x2 x3 x4) 36 (by decide) (by decide) b k :=
  k0_pay47_apply (k0_pay6 x0 x1 x2 x3 x4) b k

theorem k0_pay48_apply (v33 : FVec Ideal S64x128x128 .f32) (b : Fin 64) (k : Fin 128) :
    k0_pay48 v33 (ix2 b k) = stagRow v33 37 (by decide) (by decide) b k :=
  stagRow_of_tailHead 37 (by decide) (by decide) v33 slices_S64x128x128_o0_36_37_S64x1x91 shapeCasts_S64x1x91_S64x91 slices_S64x128x128_o0_37_0_S64x1x37 shapeCasts_S64x1x37_S64x37 concatenates_S64x91_S64x37_S64x128_d1 (by rfl) b k

/-- Row 37 of the table, as the body composes it. -/
theorem k0_row37 (x0 : Vec Ideal S64x128 .f32) (x1 x2 x3 x4 : Vec Ideal S128 .f32) (b : Fin 64) (k : Fin 128) :
    (k0_pay48 (k0_pay6 x0 x1 x2 x3 x4)) (ix2 b k) = stagRow (k0_pay6 x0 x1 x2 x3 x4) 37 (by decide) (by decide) b k :=
  k0_pay48_apply (k0_pay6 x0 x1 x2 x3 x4) b k

theorem k0_pay50_apply (v33 : FVec Ideal S64x128x128 .f32) (v223 : FVec Ideal S64x90 .f32) (b : Fin 64) (k : Fin 128)
    (hx1 : ∀ k' : Fin 90, v223 (ix2 b k') = v33 (ix3 b ⟨37, by decide⟩ ⟨38 + k'.val, by have := k'.isLt; omega⟩)) :
    k0_pay50 v33 v223 (ix2 b k) = stagRow v33 38 (by decide) (by decide) b k :=
  stagRow_of_givenHead 38 (by decide) (by decide) v33 v223 slices_S64x128x128_o0_38_0_S64x1x38 shapeCasts_S64x1x38_S64x38 concatenates_S64x90_S64x38_S64x128_d1 (by rfl) b k hx1

theorem k0_pay49_apply (v33 : FVec Ideal S64x128x128 .f32) (b : Fin 64) (k : Fin 90) :
    k0_pay49 v33 (ix2 b k) = v33 (ix3 b ⟨37, by decide⟩ ⟨38 + k.val, by have := k.isLt; omega⟩) :=
  seg_apply 37 38 v33 slices_S64x128x128_o0_37_38_S64x1x90 shapeCasts_S64x1x90_S64x90 b k _ _ rfl rfl

/-- Row 38 of the table, as the body composes it. -/
theorem k0_row38 (x0 : Vec Ideal S64x128 .f32) (x1 x2 x3 x4 : Vec Ideal S128 .f32) (b : Fin 64) (k : Fin 128) :
    (k0_pay50 (k0_pay6 x0 x1 x2 x3 x4) (k0_pay49 (k0_pay6 x0 x1 x2 x3 x4))) (ix2 b k) = stagRow (k0_pay6 x0 x1 x2 x3 x4) 38 (by decide) (by decide) b k :=
  k0_pay50_apply (k0_pay6 x0 x1 x2 x3 x4) (k0_pay49 (k0_pay6 x0 x1 x2 x3 x4)) b k (fun k' => k0_pay49_apply (k0_pay6 x0 x1 x2 x3 x4) b k')

theorem k0_pay51_apply (v33 : FVec Ideal S64x128x128 .f32) (b : Fin 64) (k : Fin 128) :
    k0_pay51 v33 (ix2 b k) = stagRow v33 39 (by decide) (by decide) b k :=
  stagRow_of_tailHead 39 (by decide) (by decide) v33 slices_S64x128x128_o0_38_39_S64x1x89 shapeCasts_S64x1x89_S64x89 slices_S64x128x128_o0_39_0_S64x1x39 shapeCasts_S64x1x39_S64x39 concatenates_S64x89_S64x39_S64x128_d1 (by rfl) b k

/-- Row 39 of the table, as the body composes it. -/
theorem k0_row39 (x0 : Vec Ideal S64x128 .f32) (x1 x2 x3 x4 : Vec Ideal S128 .f32) (b : Fin 64) (k : Fin 128) :
    (k0_pay51 (k0_pay6 x0 x1 x2 x3 x4)) (ix2 b k) = stagRow (k0_pay6 x0 x1 x2 x3 x4) 39 (by decide) (by decide) b k :=
  k0_pay51_apply (k0_pay6 x0 x1 x2 x3 x4) b k

theorem k0_pay52_apply (v33 : FVec Ideal S64x128x128 .f32) (b : Fin 64) (k : Fin 128) :
    k0_pay52 v33 (ix2 b k) = stagRow v33 40 (by decide) (by decide) b k :=
  stagRow_of_tailHead 40 (by decide) (by decide) v33 slices_S64x128x128_o0_39_40_S64x1x88 shapeCasts_S64x1x88_S64x88 slices_S64x128x128_o0_40_0_S64x1x40 shapeCasts_S64x1x40_S64x40 concatenates_S64x88_S64x40_S64x128_d1 (by rfl) b k

/-- Row 40 of the table, as the body composes it. -/
theorem k0_row40 (x0 : Vec Ideal S64x128 .f32) (x1 x2 x3 x4 : Vec Ideal S128 .f32) (b : Fin 64) (k : Fin 128) :
    (k0_pay52 (k0_pay6 x0 x1 x2 x3 x4)) (ix2 b k) = stagRow (k0_pay6 x0 x1 x2 x3 x4) 40 (by decide) (by decide) b k :=
  k0_pay52_apply (k0_pay6 x0 x1 x2 x3 x4) b k

theorem k0_pay53_apply (v33 : FVec Ideal S64x128x128 .f32) (b : Fin 64) (k : Fin 128) :
    k0_pay53 v33 (ix2 b k) = stagRow v33 41 (by decide) (by decide) b k :=
  stagRow_of_tailHead 41 (by decide) (by decide) v33 slices_S64x128x128_o0_40_41_S64x1x87 shapeCasts_S64x1x87_S64x87 slices_S64x128x128_o0_41_0_S64x1x41 shapeCasts_S64x1x41_S64x41 concatenates_S64x87_S64x41_S64x128_d1 (by rfl) b k

/-- Row 41 of the table, as the body composes it. -/
theorem k0_row41 (x0 : Vec Ideal S64x128 .f32) (x1 x2 x3 x4 : Vec Ideal S128 .f32) (b : Fin 64) (k : Fin 128) :
    (k0_pay53 (k0_pay6 x0 x1 x2 x3 x4)) (ix2 b k) = stagRow (k0_pay6 x0 x1 x2 x3 x4) 41 (by decide) (by decide) b k :=
  k0_pay53_apply (k0_pay6 x0 x1 x2 x3 x4) b k

theorem k0_pay54_apply (v33 : FVec Ideal S64x128x128 .f32) (b : Fin 64) (k : Fin 128) :
    k0_pay54 v33 (ix2 b k) = stagRow v33 42 (by decide) (by decide) b k :=
  stagRow_of_tailHead 42 (by decide) (by decide) v33 slices_S64x128x128_o0_41_42_S64x1x86 shapeCasts_S64x1x86_S64x86 slices_S64x128x128_o0_42_0_S64x1x42 shapeCasts_S64x1x42_S64x42 concatenates_S64x86_S64x42_S64x128_d1 (by rfl) b k

/-- Row 42 of the table, as the body composes it. -/
theorem k0_row42 (x0 : Vec Ideal S64x128 .f32) (x1 x2 x3 x4 : Vec Ideal S128 .f32) (b : Fin 64) (k : Fin 128) :
    (k0_pay54 (k0_pay6 x0 x1 x2 x3 x4)) (ix2 b k) = stagRow (k0_pay6 x0 x1 x2 x3 x4) 42 (by decide) (by decide) b k :=
  k0_pay54_apply (k0_pay6 x0 x1 x2 x3 x4) b k

theorem k0_pay55_apply (v33 : FVec Ideal S64x128x128 .f32) (b : Fin 64) (k : Fin 128) :
    k0_pay55 v33 (ix2 b k) = stagRow v33 43 (by decide) (by decide) b k :=
  stagRow_of_tailHead 43 (by decide) (by decide) v33 slices_S64x128x128_o0_42_43_S64x1x85 shapeCasts_S64x1x85_S64x85 slices_S64x128x128_o0_43_0_S64x1x43 shapeCasts_S64x1x43_S64x43 concatenates_S64x85_S64x43_S64x128_d1 (by rfl) b k

/-- Row 43 of the table, as the body composes it. -/
theorem k0_row43 (x0 : Vec Ideal S64x128 .f32) (x1 x2 x3 x4 : Vec Ideal S128 .f32) (b : Fin 64) (k : Fin 128) :
    (k0_pay55 (k0_pay6 x0 x1 x2 x3 x4)) (ix2 b k) = stagRow (k0_pay6 x0 x1 x2 x3 x4) 43 (by decide) (by decide) b k :=
  k0_pay55_apply (k0_pay6 x0 x1 x2 x3 x4) b k

theorem k0_pay56_apply (v33 : FVec Ideal S64x128x128 .f32) (b : Fin 64) (k : Fin 128) :
    k0_pay56 v33 (ix2 b k) = stagRow v33 44 (by decide) (by decide) b k :=
  stagRow_of_tailHead 44 (by decide) (by decide) v33 slices_S64x128x128_o0_43_44_S64x1x84 shapeCasts_S64x1x84_S64x84 slices_S64x128x128_o0_44_0_S64x1x44 shapeCasts_S64x1x44_S64x44 concatenates_S64x84_S64x44_S64x128_d1 (by rfl) b k

/-- Row 44 of the table, as the body composes it. -/
theorem k0_row44 (x0 : Vec Ideal S64x128 .f32) (x1 x2 x3 x4 : Vec Ideal S128 .f32) (b : Fin 64) (k : Fin 128) :
    (k0_pay56 (k0_pay6 x0 x1 x2 x3 x4)) (ix2 b k) = stagRow (k0_pay6 x0 x1 x2 x3 x4) 44 (by decide) (by decide) b k :=
  k0_pay56_apply (k0_pay6 x0 x1 x2 x3 x4) b k

theorem k0_pay57_apply (v33 : FVec Ideal S64x128x128 .f32) (b : Fin 64) (k : Fin 128) :
    k0_pay57 v33 (ix2 b k) = stagRow v33 45 (by decide) (by decide) b k :=
  stagRow_of_tailHead 45 (by decide) (by decide) v33 slices_S64x128x128_o0_44_45_S64x1x83 shapeCasts_S64x1x83_S64x83 slices_S64x128x128_o0_45_0_S64x1x45 shapeCasts_S64x1x45_S64x45 concatenates_S64x83_S64x45_S64x128_d1 (by rfl) b k

/-- Row 45 of the table, as the body composes it. -/
theorem k0_row45 (x0 : Vec Ideal S64x128 .f32) (x1 x2 x3 x4 : Vec Ideal S128 .f32) (b : Fin 64) (k : Fin 128) :
    (k0_pay57 (k0_pay6 x0 x1 x2 x3 x4)) (ix2 b k) = stagRow (k0_pay6 x0 x1 x2 x3 x4) 45 (by decide) (by decide) b k :=
  k0_pay57_apply (k0_pay6 x0 x1 x2 x3 x4) b k

theorem k0_pay58_apply (v33 : FVec Ideal S64x128x128 .f32) (b : Fin 64) (k : Fin 128) :
    k0_pay58 v33 (ix2 b k) = stagRow v33 46 (by decide) (by decide) b k :=
  stagRow_of_tailHead 46 (by decide) (by decide) v33 slices_S64x128x128_o0_45_46_S64x1x82 shapeCasts_S64x1x82_S64x82 slices_S64x128x128_o0_46_0_S64x1x46 shapeCasts_S64x1x46_S64x46 concatenates_S64x82_S64x46_S64x128_d1 (by rfl) b k

/-- Row 46 of the table, as the body composes it. -/
theorem k0_row46 (x0 : Vec Ideal S64x128 .f32) (x1 x2 x3 x4 : Vec Ideal S128 .f32) (b : Fin 64) (k : Fin 128) :
    (k0_pay58 (k0_pay6 x0 x1 x2 x3 x4)) (ix2 b k) = stagRow (k0_pay6 x0 x1 x2 x3 x4) 46 (by decide) (by decide) b k :=
  k0_pay58_apply (k0_pay6 x0 x1 x2 x3 x4) b k

theorem k0_pay59_apply (v33 : FVec Ideal S64x128x128 .f32) (b : Fin 64) (k : Fin 128) :
    k0_pay59 v33 (ix2 b k) = stagRow v33 47 (by decide) (by decide) b k :=
  stagRow_of_tailHead 47 (by decide) (by decide) v33 slices_S64x128x128_o0_46_47_S64x1x81 shapeCasts_S64x1x81_S64x81 slices_S64x128x128_o0_47_0_S64x1x47 shapeCasts_S64x1x47_S64x47 concatenates_S64x81_S64x47_S64x128_d1 (by rfl) b k

/-- Row 47 of the table, as the body composes it. -/
theorem k0_row47 (x0 : Vec Ideal S64x128 .f32) (x1 x2 x3 x4 : Vec Ideal S128 .f32) (b : Fin 64) (k : Fin 128) :
    (k0_pay59 (k0_pay6 x0 x1 x2 x3 x4)) (ix2 b k) = stagRow (k0_pay6 x0 x1 x2 x3 x4) 47 (by decide) (by decide) b k :=
  k0_pay59_apply (k0_pay6 x0 x1 x2 x3 x4) b k

theorem k0_pay60_apply (v33 : FVec Ideal S64x128x128 .f32) (b : Fin 64) (k : Fin 128) :
    k0_pay60 v33 (ix2 b k) = stagRow v33 48 (by decide) (by decide) b k :=
  stagRow_of_tailHead 48 (by decide) (by decide) v33 slices_S64x128x128_o0_47_48_S64x1x80 shapeCasts_S64x1x80_S64x80 slices_S64x128x128_o0_48_0_S64x1x48 shapeCasts_S64x1x48_S64x48 concatenates_S64x80_S64x48_S64x128_d1 (by rfl) b k

/-- Row 48 of the table, as the body composes it. -/
theorem k0_row48 (x0 : Vec Ideal S64x128 .f32) (x1 x2 x3 x4 : Vec Ideal S128 .f32) (b : Fin 64) (k : Fin 128) :
    (k0_pay60 (k0_pay6 x0 x1 x2 x3 x4)) (ix2 b k) = stagRow (k0_pay6 x0 x1 x2 x3 x4) 48 (by decide) (by decide) b k :=
  k0_pay60_apply (k0_pay6 x0 x1 x2 x3 x4) b k

theorem k0_pay61_apply (v33 : FVec Ideal S64x128x128 .f32) (b : Fin 64) (k : Fin 128) :
    k0_pay61 v33 (ix2 b k) = stagRow v33 49 (by decide) (by decide) b k :=
  stagRow_of_tailHead 49 (by decide) (by decide) v33 slices_S64x128x128_o0_48_49_S64x1x79 shapeCasts_S64x1x79_S64x79 slices_S64x128x128_o0_49_0_S64x1x49 shapeCasts_S64x1x49_S64x49 concatenates_S64x79_S64x49_S64x128_d1 (by rfl) b k

/-- Row 49 of the table, as the body composes it. -/
theorem k0_row49 (x0 : Vec Ideal S64x128 .f32) (x1 x2 x3 x4 : Vec Ideal S128 .f32) (b : Fin 64) (k : Fin 128) :
    (k0_pay61 (k0_pay6 x0 x1 x2 x3 x4)) (ix2 b k) = stagRow (k0_pay6 x0 x1 x2 x3 x4) 49 (by decide) (by decide) b k :=
  k0_pay61_apply (k0_pay6 x0 x1 x2 x3 x4) b k

theorem k0_pay63_apply (v33 : FVec Ideal S64x128x128 .f32) (v283 : FVec Ideal S64x78 .f32) (b : Fin 64) (k : Fin 128)
    (hx1 : ∀ k' : Fin 78, v283 (ix2 b k') = v33 (ix3 b ⟨49, by decide⟩ ⟨50 + k'.val, by have := k'.isLt; omega⟩)) :
    k0_pay63 v33 v283 (ix2 b k) = stagRow v33 50 (by decide) (by decide) b k :=
  stagRow_of_givenHead 50 (by decide) (by decide) v33 v283 slices_S64x128x128_o0_50_0_S64x1x50 shapeCasts_S64x1x50_S64x50 concatenates_S64x78_S64x50_S64x128_d1 (by rfl) b k hx1

theorem k0_pay62_apply (v33 : FVec Ideal S64x128x128 .f32) (b : Fin 64) (k : Fin 78) :
    k0_pay62 v33 (ix2 b k) = v33 (ix3 b ⟨49, by decide⟩ ⟨50 + k.val, by have := k.isLt; omega⟩) :=
  seg_apply 49 50 v33 slices_S64x128x128_o0_49_50_S64x1x78 shapeCasts_S64x1x78_S64x78 b k _ _ rfl rfl

/-- Row 50 of the table, as the body composes it. -/
theorem k0_row50 (x0 : Vec Ideal S64x128 .f32) (x1 x2 x3 x4 : Vec Ideal S128 .f32) (b : Fin 64) (k : Fin 128) :
    (k0_pay63 (k0_pay6 x0 x1 x2 x3 x4) (k0_pay62 (k0_pay6 x0 x1 x2 x3 x4))) (ix2 b k) = stagRow (k0_pay6 x0 x1 x2 x3 x4) 50 (by decide) (by decide) b k :=
  k0_pay63_apply (k0_pay6 x0 x1 x2 x3 x4) (k0_pay62 (k0_pay6 x0 x1 x2 x3 x4)) b k (fun k' => k0_pay62_apply (k0_pay6 x0 x1 x2 x3 x4) b k')

theorem k0_pay64_apply (v33 : FVec Ideal S64x128x128 .f32) (b : Fin 64) (k : Fin 128) :
    k0_pay64 v33 (ix2 b k) = stagRow v33 51 (by decide) (by decide) b k :=
  stagRow_of_tailHead 51 (by decide) (by decide) v33 slices_S64x128x128_o0_50_51_S64x1x77 shapeCasts_S64x1x77_S64x77 slices_S64x128x128_o0_51_0_S64x1x51 shapeCasts_S64x1x51_S64x51 concatenates_S64x77_S64x51_S64x128_d1 (by rfl) b k

/-- Row 51 of the table, as the body composes it. -/
theorem k0_row51 (x0 : Vec Ideal S64x128 .f32) (x1 x2 x3 x4 : Vec Ideal S128 .f32) (b : Fin 64) (k : Fin 128) :
    (k0_pay64 (k0_pay6 x0 x1 x2 x3 x4)) (ix2 b k) = stagRow (k0_pay6 x0 x1 x2 x3 x4) 51 (by decide) (by decide) b k :=
  k0_pay64_apply (k0_pay6 x0 x1 x2 x3 x4) b k

theorem k0_pay65_apply (v33 : FVec Ideal S64x128x128 .f32) (b : Fin 64) (k : Fin 128) :
    k0_pay65 v33 (ix2 b k) = stagRow v33 52 (by decide) (by decide) b k :=
  stagRow_of_tailHead 52 (by decide) (by decide) v33 slices_S64x128x128_o0_51_52_S64x1x76 shapeCasts_S64x1x76_S64x76 slices_S64x128x128_o0_52_0_S64x1x52 shapeCasts_S64x1x52_S64x52 concatenates_S64x76_S64x52_S64x128_d1 (by rfl) b k

/-- Row 52 of the table, as the body composes it. -/
theorem k0_row52 (x0 : Vec Ideal S64x128 .f32) (x1 x2 x3 x4 : Vec Ideal S128 .f32) (b : Fin 64) (k : Fin 128) :
    (k0_pay65 (k0_pay6 x0 x1 x2 x3 x4)) (ix2 b k) = stagRow (k0_pay6 x0 x1 x2 x3 x4) 52 (by decide) (by decide) b k :=
  k0_pay65_apply (k0_pay6 x0 x1 x2 x3 x4) b k

theorem k0_pay66_apply (v33 : FVec Ideal S64x128x128 .f32) (b : Fin 64) (k : Fin 128) :
    k0_pay66 v33 (ix2 b k) = stagRow v33 53 (by decide) (by decide) b k :=
  stagRow_of_tailHead 53 (by decide) (by decide) v33 slices_S64x128x128_o0_52_53_S64x1x75 shapeCasts_S64x1x75_S64x75 slices_S64x128x128_o0_53_0_S64x1x53 shapeCasts_S64x1x53_S64x53 concatenates_S64x75_S64x53_S64x128_d1 (by rfl) b k

/-- Row 53 of the table, as the body composes it. -/
theorem k0_row53 (x0 : Vec Ideal S64x128 .f32) (x1 x2 x3 x4 : Vec Ideal S128 .f32) (b : Fin 64) (k : Fin 128) :
    (k0_pay66 (k0_pay6 x0 x1 x2 x3 x4)) (ix2 b k) = stagRow (k0_pay6 x0 x1 x2 x3 x4) 53 (by decide) (by decide) b k :=
  k0_pay66_apply (k0_pay6 x0 x1 x2 x3 x4) b k

theorem k0_pay67_apply (v33 : FVec Ideal S64x128x128 .f32) (b : Fin 64) (k : Fin 128) :
    k0_pay67 v33 (ix2 b k) = stagRow v33 54 (by decide) (by decide) b k :=
  stagRow_of_tailHead 54 (by decide) (by decide) v33 slices_S64x128x128_o0_53_54_S64x1x74 shapeCasts_S64x1x74_S64x74 slices_S64x128x128_o0_54_0_S64x1x54 shapeCasts_S64x1x54_S64x54 concatenates_S64x74_S64x54_S64x128_d1 (by rfl) b k

/-- Row 54 of the table, as the body composes it. -/
theorem k0_row54 (x0 : Vec Ideal S64x128 .f32) (x1 x2 x3 x4 : Vec Ideal S128 .f32) (b : Fin 64) (k : Fin 128) :
    (k0_pay67 (k0_pay6 x0 x1 x2 x3 x4)) (ix2 b k) = stagRow (k0_pay6 x0 x1 x2 x3 x4) 54 (by decide) (by decide) b k :=
  k0_pay67_apply (k0_pay6 x0 x1 x2 x3 x4) b k

theorem k0_pay68_apply (v33 : FVec Ideal S64x128x128 .f32) (b : Fin 64) (k : Fin 128) :
    k0_pay68 v33 (ix2 b k) = stagRow v33 55 (by decide) (by decide) b k :=
  stagRow_of_tailHead 55 (by decide) (by decide) v33 slices_S64x128x128_o0_54_55_S64x1x73 shapeCasts_S64x1x73_S64x73 slices_S64x128x128_o0_55_0_S64x1x55 shapeCasts_S64x1x55_S64x55 concatenates_S64x73_S64x55_S64x128_d1 (by rfl) b k

/-- Row 55 of the table, as the body composes it. -/
theorem k0_row55 (x0 : Vec Ideal S64x128 .f32) (x1 x2 x3 x4 : Vec Ideal S128 .f32) (b : Fin 64) (k : Fin 128) :
    (k0_pay68 (k0_pay6 x0 x1 x2 x3 x4)) (ix2 b k) = stagRow (k0_pay6 x0 x1 x2 x3 x4) 55 (by decide) (by decide) b k :=
  k0_pay68_apply (k0_pay6 x0 x1 x2 x3 x4) b k

theorem k0_pay69_apply (v33 : FVec Ideal S64x128x128 .f32) (b : Fin 64) (k : Fin 128) :
    k0_pay69 v33 (ix2 b k) = stagRow v33 56 (by decide) (by decide) b k :=
  stagRow_of_tailHead 56 (by decide) (by decide) v33 slices_S64x128x128_o0_55_56_S64x1x72 shapeCasts_S64x1x72_S64x72 slices_S64x128x128_o0_56_0_S64x1x56 shapeCasts_S64x1x56_S64x56 concatenates_S64x72_S64x56_S64x128_d1 (by rfl) b k

/-- Row 56 of the table, as the body composes it. -/
theorem k0_row56 (x0 : Vec Ideal S64x128 .f32) (x1 x2 x3 x4 : Vec Ideal S128 .f32) (b : Fin 64) (k : Fin 128) :
    (k0_pay69 (k0_pay6 x0 x1 x2 x3 x4)) (ix2 b k) = stagRow (k0_pay6 x0 x1 x2 x3 x4) 56 (by decide) (by decide) b k :=
  k0_pay69_apply (k0_pay6 x0 x1 x2 x3 x4) b k

theorem k0_pay70_apply (v33 : FVec Ideal S64x128x128 .f32) (b : Fin 64) (k : Fin 128) :
    k0_pay70 v33 (ix2 b k) = stagRow v33 57 (by decide) (by decide) b k :=
  stagRow_of_tailHead 57 (by decide) (by decide) v33 slices_S64x128x128_o0_56_57_S64x1x71 shapeCasts_S64x1x71_S64x71 slices_S64x128x128_o0_57_0_S64x1x57 shapeCasts_S64x1x57_S64x57 concatenates_S64x71_S64x57_S64x128_d1 (by rfl) b k

/-- Row 57 of the table, as the body composes it. -/
theorem k0_row57 (x0 : Vec Ideal S64x128 .f32) (x1 x2 x3 x4 : Vec Ideal S128 .f32) (b : Fin 64) (k : Fin 128) :
    (k0_pay70 (k0_pay6 x0 x1 x2 x3 x4)) (ix2 b k) = stagRow (k0_pay6 x0 x1 x2 x3 x4) 57 (by decide) (by decide) b k :=
  k0_pay70_apply (k0_pay6 x0 x1 x2 x3 x4) b k

theorem k0_pay71_apply (v33 : FVec Ideal S64x128x128 .f32) (b : Fin 64) (k : Fin 128) :
    k0_pay71 v33 (ix2 b k) = stagRow v33 58 (by decide) (by decide) b k :=
  stagRow_of_tailHead 58 (by decide) (by decide) v33 slices_S64x128x128_o0_57_58_S64x1x70 shapeCasts_S64x1x70_S64x70 slices_S64x128x128_o0_58_0_S64x1x58 shapeCasts_S64x1x58_S64x58 concatenates_S64x70_S64x58_S64x128_d1 (by rfl) b k

/-- Row 58 of the table, as the body composes it. -/
theorem k0_row58 (x0 : Vec Ideal S64x128 .f32) (x1 x2 x3 x4 : Vec Ideal S128 .f32) (b : Fin 64) (k : Fin 128) :
    (k0_pay71 (k0_pay6 x0 x1 x2 x3 x4)) (ix2 b k) = stagRow (k0_pay6 x0 x1 x2 x3 x4) 58 (by decide) (by decide) b k :=
  k0_pay71_apply (k0_pay6 x0 x1 x2 x3 x4) b k

theorem k0_pay72_apply (v33 : FVec Ideal S64x128x128 .f32) (b : Fin 64) (k : Fin 128) :
    k0_pay72 v33 (ix2 b k) = stagRow v33 59 (by decide) (by decide) b k :=
  stagRow_of_tailHead 59 (by decide) (by decide) v33 slices_S64x128x128_o0_58_59_S64x1x69 shapeCasts_S64x1x69_S64x69 slices_S64x128x128_o0_59_0_S64x1x59 shapeCasts_S64x1x59_S64x59 concatenates_S64x69_S64x59_S64x128_d1 (by rfl) b k

/-- Row 59 of the table, as the body composes it. -/
theorem k0_row59 (x0 : Vec Ideal S64x128 .f32) (x1 x2 x3 x4 : Vec Ideal S128 .f32) (b : Fin 64) (k : Fin 128) :
    (k0_pay72 (k0_pay6 x0 x1 x2 x3 x4)) (ix2 b k) = stagRow (k0_pay6 x0 x1 x2 x3 x4) 59 (by decide) (by decide) b k :=
  k0_pay72_apply (k0_pay6 x0 x1 x2 x3 x4) b k

theorem k0_pay73_apply (v33 : FVec Ideal S64x128x128 .f32) (b : Fin 64) (k : Fin 128) :
    k0_pay73 v33 (ix2 b k) = stagRow v33 60 (by decide) (by decide) b k :=
  stagRow_of_tailHead 60 (by decide) (by decide) v33 slices_S64x128x128_o0_59_60_S64x1x68 shapeCasts_S64x1x68_S64x68 slices_S64x128x128_o0_60_0_S64x1x60 shapeCasts_S64x1x60_S64x60 concatenates_S64x68_S64x60_S64x128_d1 (by rfl) b k

/-- Row 60 of the table, as the body composes it. -/
theorem k0_row60 (x0 : Vec Ideal S64x128 .f32) (x1 x2 x3 x4 : Vec Ideal S128 .f32) (b : Fin 64) (k : Fin 128) :
    (k0_pay73 (k0_pay6 x0 x1 x2 x3 x4)) (ix2 b k) = stagRow (k0_pay6 x0 x1 x2 x3 x4) 60 (by decide) (by decide) b k :=
  k0_pay73_apply (k0_pay6 x0 x1 x2 x3 x4) b k

theorem k0_pay74_apply (v33 : FVec Ideal S64x128x128 .f32) (b : Fin 64) (k : Fin 128) :
    k0_pay74 v33 (ix2 b k) = stagRow v33 61 (by decide) (by decide) b k :=
  stagRow_of_tailHead 61 (by decide) (by decide) v33 slices_S64x128x128_o0_60_61_S64x1x67 shapeCasts_S64x1x67_S64x67 slices_S64x128x128_o0_61_0_S64x1x61 shapeCasts_S64x1x61_S64x61 concatenates_S64x67_S64x61_S64x128_d1 (by rfl) b k

/-- Row 61 of the table, as the body composes it. -/
theorem k0_row61 (x0 : Vec Ideal S64x128 .f32) (x1 x2 x3 x4 : Vec Ideal S128 .f32) (b : Fin 64) (k : Fin 128) :
    (k0_pay74 (k0_pay6 x0 x1 x2 x3 x4)) (ix2 b k) = stagRow (k0_pay6 x0 x1 x2 x3 x4) 61 (by decide) (by decide) b k :=
  k0_pay74_apply (k0_pay6 x0 x1 x2 x3 x4) b k

theorem k0_pay76_apply (v33 : FVec Ideal S64x128x128 .f32) (v343 : FVec Ideal S64x66 .f32) (b : Fin 64) (k : Fin 128)
    (hx1 : ∀ k' : Fin 66, v343 (ix2 b k') = v33 (ix3 b ⟨61, by decide⟩ ⟨62 + k'.val, by have := k'.isLt; omega⟩)) :
    k0_pay76 v33 v343 (ix2 b k) = stagRow v33 62 (by decide) (by decide) b k :=
  stagRow_of_givenHead 62 (by decide) (by decide) v33 v343 slices_S64x128x128_o0_62_0_S64x1x62 shapeCasts_S64x1x62_S64x62 concatenates_S64x66_S64x62_S64x128_d1 (by rfl) b k hx1

theorem k0_pay75_apply (v33 : FVec Ideal S64x128x128 .f32) (b : Fin 64) (k : Fin 66) :
    k0_pay75 v33 (ix2 b k) = v33 (ix3 b ⟨61, by decide⟩ ⟨62 + k.val, by have := k.isLt; omega⟩) :=
  seg_apply 61 62 v33 slices_S64x128x128_o0_61_62_S64x1x66 shapeCasts_S64x1x66_S64x66 b k _ _ rfl rfl

/-- Row 62 of the table, as the body composes it. -/
theorem k0_row62 (x0 : Vec Ideal S64x128 .f32) (x1 x2 x3 x4 : Vec Ideal S128 .f32) (b : Fin 64) (k : Fin 128) :
    (k0_pay76 (k0_pay6 x0 x1 x2 x3 x4) (k0_pay75 (k0_pay6 x0 x1 x2 x3 x4))) (ix2 b k) = stagRow (k0_pay6 x0 x1 x2 x3 x4) 62 (by decide) (by decide) b k :=
  k0_pay76_apply (k0_pay6 x0 x1 x2 x3 x4) (k0_pay75 (k0_pay6 x0 x1 x2 x3 x4)) b k (fun k' => k0_pay75_apply (k0_pay6 x0 x1 x2 x3 x4) b k')

theorem k0_pay77_apply (v33 : FVec Ideal S64x128x128 .f32) (b : Fin 64) (k : Fin 128) :
    k0_pay77 v33 (ix2 b k) = stagRow v33 63 (by decide) (by decide) b k :=
  stagRow_of_tailHead 63 (by decide) (by decide) v33 slices_S64x128x128_o0_62_63_S64x1x65 shapeCasts_S64x1x65_S64x65 slices_S64x128x128_o0_63_0_S64x1x63 shapeCasts_S64x1x63_S64x63 concatenates_S64x65_S64x63_S64x128_d1 (by rfl) b k

/-- Row 63 of the table, as the body composes it. -/
theorem k0_row63 (x0 : Vec Ideal S64x128 .f32) (x1 x2 x3 x4 : Vec Ideal S128 .f32) (b : Fin 64) (k : Fin 128) :
    (k0_pay77 (k0_pay6 x0 x1 x2 x3 x4)) (ix2 b k) = stagRow (k0_pay6 x0 x1 x2 x3 x4) 63 (by decide) (by decide) b k :=
  k0_pay77_apply (k0_pay6 x0 x1 x2 x3 x4) b k

theorem k0_pay78_apply (v33 : FVec Ideal S64x128x128 .f32) (b : Fin 64) (k : Fin 128) :
    k0_pay78 v33 (ix2 b k) = stagRow v33 64 (by decide) (by decide) b k :=
  stagRow_of_tailHead 64 (by decide) (by decide) v33 slices_S64x128x128_o0_63_64_S64x1x64 shapeCasts_S64x1x64_S64x64 slices_S64x128x128_o0_64_0_S64x1x64 shapeCasts_S64x1x64_S64x64 concatenates_S64x64_S64x64_S64x128_d1 (by rfl) b k

/-- Row 64 of the table, as the body composes it. -/
theorem k0_row64 (x0 : Vec Ideal S64x128 .f32) (x1 x2 x3 x4 : Vec Ideal S128 .f32) (b : Fin 64) (k : Fin 128) :
    (k0_pay78 (k0_pay6 x0 x1 x2 x3 x4)) (ix2 b k) = stagRow (k0_pay6 x0 x1 x2 x3 x4) 64 (by decide) (by decide) b k :=
  k0_pay78_apply (k0_pay6 x0 x1 x2 x3 x4) b k

theorem k0_pay79_apply (v33 : FVec Ideal S64x128x128 .f32) (b : Fin 64) (k : Fin 128) :
    k0_pay79 v33 (ix2 b k) = stagRow v33 65 (by decide) (by decide) b k :=
  stagRow_of_tailHead 65 (by decide) (by decide) v33 slices_S64x128x128_o0_64_65_S64x1x63 shapeCasts_S64x1x63_S64x63 slices_S64x128x128_o0_65_0_S64x1x65 shapeCasts_S64x1x65_S64x65 concatenates_S64x63_S64x65_S64x128_d1 (by rfl) b k

/-- Row 65 of the table, as the body composes it. -/
theorem k0_row65 (x0 : Vec Ideal S64x128 .f32) (x1 x2 x3 x4 : Vec Ideal S128 .f32) (b : Fin 64) (k : Fin 128) :
    (k0_pay79 (k0_pay6 x0 x1 x2 x3 x4)) (ix2 b k) = stagRow (k0_pay6 x0 x1 x2 x3 x4) 65 (by decide) (by decide) b k :=
  k0_pay79_apply (k0_pay6 x0 x1 x2 x3 x4) b k

theorem k0_pay80_apply (v33 : FVec Ideal S64x128x128 .f32) (b : Fin 64) (k : Fin 128) :
    k0_pay80 v33 (ix2 b k) = stagRow v33 66 (by decide) (by decide) b k :=
  stagRow_of_tailHead 66 (by decide) (by decide) v33 slices_S64x128x128_o0_65_66_S64x1x62 shapeCasts_S64x1x62_S64x62 slices_S64x128x128_o0_66_0_S64x1x66 shapeCasts_S64x1x66_S64x66 concatenates_S64x62_S64x66_S64x128_d1 (by rfl) b k

/-- Row 66 of the table, as the body composes it. -/
theorem k0_row66 (x0 : Vec Ideal S64x128 .f32) (x1 x2 x3 x4 : Vec Ideal S128 .f32) (b : Fin 64) (k : Fin 128) :
    (k0_pay80 (k0_pay6 x0 x1 x2 x3 x4)) (ix2 b k) = stagRow (k0_pay6 x0 x1 x2 x3 x4) 66 (by decide) (by decide) b k :=
  k0_pay80_apply (k0_pay6 x0 x1 x2 x3 x4) b k

theorem k0_pay81_apply (v33 : FVec Ideal S64x128x128 .f32) (b : Fin 64) (k : Fin 128) :
    k0_pay81 v33 (ix2 b k) = stagRow v33 67 (by decide) (by decide) b k :=
  stagRow_of_tailHead 67 (by decide) (by decide) v33 slices_S64x128x128_o0_66_67_S64x1x61 shapeCasts_S64x1x61_S64x61 slices_S64x128x128_o0_67_0_S64x1x67 shapeCasts_S64x1x67_S64x67 concatenates_S64x61_S64x67_S64x128_d1 (by rfl) b k

/-- Row 67 of the table, as the body composes it. -/
theorem k0_row67 (x0 : Vec Ideal S64x128 .f32) (x1 x2 x3 x4 : Vec Ideal S128 .f32) (b : Fin 64) (k : Fin 128) :
    (k0_pay81 (k0_pay6 x0 x1 x2 x3 x4)) (ix2 b k) = stagRow (k0_pay6 x0 x1 x2 x3 x4) 67 (by decide) (by decide) b k :=
  k0_pay81_apply (k0_pay6 x0 x1 x2 x3 x4) b k

theorem k0_pay82_apply (v33 : FVec Ideal S64x128x128 .f32) (b : Fin 64) (k : Fin 128) :
    k0_pay82 v33 (ix2 b k) = stagRow v33 68 (by decide) (by decide) b k :=
  stagRow_of_tailHead 68 (by decide) (by decide) v33 slices_S64x128x128_o0_67_68_S64x1x60 shapeCasts_S64x1x60_S64x60 slices_S64x128x128_o0_68_0_S64x1x68 shapeCasts_S64x1x68_S64x68 concatenates_S64x60_S64x68_S64x128_d1 (by rfl) b k

/-- Row 68 of the table, as the body composes it. -/
theorem k0_row68 (x0 : Vec Ideal S64x128 .f32) (x1 x2 x3 x4 : Vec Ideal S128 .f32) (b : Fin 64) (k : Fin 128) :
    (k0_pay82 (k0_pay6 x0 x1 x2 x3 x4)) (ix2 b k) = stagRow (k0_pay6 x0 x1 x2 x3 x4) 68 (by decide) (by decide) b k :=
  k0_pay82_apply (k0_pay6 x0 x1 x2 x3 x4) b k

theorem k0_pay83_apply (v33 : FVec Ideal S64x128x128 .f32) (b : Fin 64) (k : Fin 128) :
    k0_pay83 v33 (ix2 b k) = stagRow v33 69 (by decide) (by decide) b k :=
  stagRow_of_tailHead 69 (by decide) (by decide) v33 slices_S64x128x128_o0_68_69_S64x1x59 shapeCasts_S64x1x59_S64x59 slices_S64x128x128_o0_69_0_S64x1x69 shapeCasts_S64x1x69_S64x69 concatenates_S64x59_S64x69_S64x128_d1 (by rfl) b k

/-- Row 69 of the table, as the body composes it. -/
theorem k0_row69 (x0 : Vec Ideal S64x128 .f32) (x1 x2 x3 x4 : Vec Ideal S128 .f32) (b : Fin 64) (k : Fin 128) :
    (k0_pay83 (k0_pay6 x0 x1 x2 x3 x4)) (ix2 b k) = stagRow (k0_pay6 x0 x1 x2 x3 x4) 69 (by decide) (by decide) b k :=
  k0_pay83_apply (k0_pay6 x0 x1 x2 x3 x4) b k

theorem k0_pay84_apply (v33 : FVec Ideal S64x128x128 .f32) (b : Fin 64) (k : Fin 128) :
    k0_pay84 v33 (ix2 b k) = stagRow v33 70 (by decide) (by decide) b k :=
  stagRow_of_tailHead 70 (by decide) (by decide) v33 slices_S64x128x128_o0_69_70_S64x1x58 shapeCasts_S64x1x58_S64x58 slices_S64x128x128_o0_70_0_S64x1x70 shapeCasts_S64x1x70_S64x70 concatenates_S64x58_S64x70_S64x128_d1 (by rfl) b k

/-- Row 70 of the table, as the body composes it. -/
theorem k0_row70 (x0 : Vec Ideal S64x128 .f32) (x1 x2 x3 x4 : Vec Ideal S128 .f32) (b : Fin 64) (k : Fin 128) :
    (k0_pay84 (k0_pay6 x0 x1 x2 x3 x4)) (ix2 b k) = stagRow (k0_pay6 x0 x1 x2 x3 x4) 70 (by decide) (by decide) b k :=
  k0_pay84_apply (k0_pay6 x0 x1 x2 x3 x4) b k

theorem k0_pay85_apply (v33 : FVec Ideal S64x128x128 .f32) (b : Fin 64) (k : Fin 128) :
    k0_pay85 v33 (ix2 b k) = stagRow v33 71 (by decide) (by decide) b k :=
  stagRow_of_tailHead 71 (by decide) (by decide) v33 slices_S64x128x128_o0_70_71_S64x1x57 shapeCasts_S64x1x57_S64x57 slices_S64x128x128_o0_71_0_S64x1x71 shapeCasts_S64x1x71_S64x71 concatenates_S64x57_S64x71_S64x128_d1 (by rfl) b k

/-- Row 71 of the table, as the body composes it. -/
theorem k0_row71 (x0 : Vec Ideal S64x128 .f32) (x1 x2 x3 x4 : Vec Ideal S128 .f32) (b : Fin 64) (k : Fin 128) :
    (k0_pay85 (k0_pay6 x0 x1 x2 x3 x4)) (ix2 b k) = stagRow (k0_pay6 x0 x1 x2 x3 x4) 71 (by decide) (by decide) b k :=
  k0_pay85_apply (k0_pay6 x0 x1 x2 x3 x4) b k

theorem k0_pay86_apply (v33 : FVec Ideal S64x128x128 .f32) (b : Fin 64) (k : Fin 128) :
    k0_pay86 v33 (ix2 b k) = stagRow v33 72 (by decide) (by decide) b k :=
  stagRow_of_tailHead 72 (by decide) (by decide) v33 slices_S64x128x128_o0_71_72_S64x1x56 shapeCasts_S64x1x56_S64x56 slices_S64x128x128_o0_72_0_S64x1x72 shapeCasts_S64x1x72_S64x72 concatenates_S64x56_S64x72_S64x128_d1 (by rfl) b k

/-- Row 72 of the table, as the body composes it. -/
theorem k0_row72 (x0 : Vec Ideal S64x128 .f32) (x1 x2 x3 x4 : Vec Ideal S128 .f32) (b : Fin 64) (k : Fin 128) :
    (k0_pay86 (k0_pay6 x0 x1 x2 x3 x4)) (ix2 b k) = stagRow (k0_pay6 x0 x1 x2 x3 x4) 72 (by decide) (by decide) b k :=
  k0_pay86_apply (k0_pay6 x0 x1 x2 x3 x4) b k

theorem k0_pay87_apply (v33 : FVec Ideal S64x128x128 .f32) (b : Fin 64) (k : Fin 128) :
    k0_pay87 v33 (ix2 b k) = stagRow v33 73 (by decide) (by decide) b k :=
  stagRow_of_tailHead 73 (by decide) (by decide) v33 slices_S64x128x128_o0_72_73_S64x1x55 shapeCasts_S64x1x55_S64x55 slices_S64x128x128_o0_73_0_S64x1x73 shapeCasts_S64x1x73_S64x73 concatenates_S64x55_S64x73_S64x128_d1 (by rfl) b k

/-- Row 73 of the table, as the body composes it. -/
theorem k0_row73 (x0 : Vec Ideal S64x128 .f32) (x1 x2 x3 x4 : Vec Ideal S128 .f32) (b : Fin 64) (k : Fin 128) :
    (k0_pay87 (k0_pay6 x0 x1 x2 x3 x4)) (ix2 b k) = stagRow (k0_pay6 x0 x1 x2 x3 x4) 73 (by decide) (by decide) b k :=
  k0_pay87_apply (k0_pay6 x0 x1 x2 x3 x4) b k

theorem k0_pay89_apply (v33 : FVec Ideal S64x128x128 .f32) (v403 : FVec Ideal S64x54 .f32) (b : Fin 64) (k : Fin 128)
    (hx1 : ∀ k' : Fin 54, v403 (ix2 b k') = v33 (ix3 b ⟨73, by decide⟩ ⟨74 + k'.val, by have := k'.isLt; omega⟩)) :
    k0_pay89 v33 v403 (ix2 b k) = stagRow v33 74 (by decide) (by decide) b k :=
  stagRow_of_givenHead 74 (by decide) (by decide) v33 v403 slices_S64x128x128_o0_74_0_S64x1x74 shapeCasts_S64x1x74_S64x74 concatenates_S64x54_S64x74_S64x128_d1 (by rfl) b k hx1

theorem k0_pay88_apply (v33 : FVec Ideal S64x128x128 .f32) (b : Fin 64) (k : Fin 54) :
    k0_pay88 v33 (ix2 b k) = v33 (ix3 b ⟨73, by decide⟩ ⟨74 + k.val, by have := k.isLt; omega⟩) :=
  seg_apply 73 74 v33 slices_S64x128x128_o0_73_74_S64x1x54 shapeCasts_S64x1x54_S64x54 b k _ _ rfl rfl

/-- Row 74 of the table, as the body composes it. -/
theorem k0_row74 (x0 : Vec Ideal S64x128 .f32) (x1 x2 x3 x4 : Vec Ideal S128 .f32) (b : Fin 64) (k : Fin 128) :
    (k0_pay89 (k0_pay6 x0 x1 x2 x3 x4) (k0_pay88 (k0_pay6 x0 x1 x2 x3 x4))) (ix2 b k) = stagRow (k0_pay6 x0 x1 x2 x3 x4) 74 (by decide) (by decide) b k :=
  k0_pay89_apply (k0_pay6 x0 x1 x2 x3 x4) (k0_pay88 (k0_pay6 x0 x1 x2 x3 x4)) b k (fun k' => k0_pay88_apply (k0_pay6 x0 x1 x2 x3 x4) b k')

theorem k0_pay90_apply (v33 : FVec Ideal S64x128x128 .f32) (b : Fin 64) (k : Fin 128) :
    k0_pay90 v33 (ix2 b k) = stagRow v33 75 (by decide) (by decide) b k :=
  stagRow_of_tailHead 75 (by decide) (by decide) v33 slices_S64x128x128_o0_74_75_S64x1x53 shapeCasts_S64x1x53_S64x53 slices_S64x128x128_o0_75_0_S64x1x75 shapeCasts_S64x1x75_S64x75 concatenates_S64x53_S64x75_S64x128_d1 (by rfl) b k

/-- Row 75 of the table, as the body composes it. -/
theorem k0_row75 (x0 : Vec Ideal S64x128 .f32) (x1 x2 x3 x4 : Vec Ideal S128 .f32) (b : Fin 64) (k : Fin 128) :
    (k0_pay90 (k0_pay6 x0 x1 x2 x3 x4)) (ix2 b k) = stagRow (k0_pay6 x0 x1 x2 x3 x4) 75 (by decide) (by decide) b k :=
  k0_pay90_apply (k0_pay6 x0 x1 x2 x3 x4) b k

theorem k0_pay91_apply (v33 : FVec Ideal S64x128x128 .f32) (b : Fin 64) (k : Fin 128) :
    k0_pay91 v33 (ix2 b k) = stagRow v33 76 (by decide) (by decide) b k :=
  stagRow_of_tailHead 76 (by decide) (by decide) v33 slices_S64x128x128_o0_75_76_S64x1x52 shapeCasts_S64x1x52_S64x52 slices_S64x128x128_o0_76_0_S64x1x76 shapeCasts_S64x1x76_S64x76 concatenates_S64x52_S64x76_S64x128_d1 (by rfl) b k

/-- Row 76 of the table, as the body composes it. -/
theorem k0_row76 (x0 : Vec Ideal S64x128 .f32) (x1 x2 x3 x4 : Vec Ideal S128 .f32) (b : Fin 64) (k : Fin 128) :
    (k0_pay91 (k0_pay6 x0 x1 x2 x3 x4)) (ix2 b k) = stagRow (k0_pay6 x0 x1 x2 x3 x4) 76 (by decide) (by decide) b k :=
  k0_pay91_apply (k0_pay6 x0 x1 x2 x3 x4) b k

theorem k0_pay92_apply (v33 : FVec Ideal S64x128x128 .f32) (b : Fin 64) (k : Fin 128) :
    k0_pay92 v33 (ix2 b k) = stagRow v33 77 (by decide) (by decide) b k :=
  stagRow_of_tailHead 77 (by decide) (by decide) v33 slices_S64x128x128_o0_76_77_S64x1x51 shapeCasts_S64x1x51_S64x51 slices_S64x128x128_o0_77_0_S64x1x77 shapeCasts_S64x1x77_S64x77 concatenates_S64x51_S64x77_S64x128_d1 (by rfl) b k

/-- Row 77 of the table, as the body composes it. -/
theorem k0_row77 (x0 : Vec Ideal S64x128 .f32) (x1 x2 x3 x4 : Vec Ideal S128 .f32) (b : Fin 64) (k : Fin 128) :
    (k0_pay92 (k0_pay6 x0 x1 x2 x3 x4)) (ix2 b k) = stagRow (k0_pay6 x0 x1 x2 x3 x4) 77 (by decide) (by decide) b k :=
  k0_pay92_apply (k0_pay6 x0 x1 x2 x3 x4) b k

theorem k0_pay93_apply (v33 : FVec Ideal S64x128x128 .f32) (b : Fin 64) (k : Fin 128) :
    k0_pay93 v33 (ix2 b k) = stagRow v33 78 (by decide) (by decide) b k :=
  stagRow_of_tailHead 78 (by decide) (by decide) v33 slices_S64x128x128_o0_77_78_S64x1x50 shapeCasts_S64x1x50_S64x50 slices_S64x128x128_o0_78_0_S64x1x78 shapeCasts_S64x1x78_S64x78 concatenates_S64x50_S64x78_S64x128_d1 (by rfl) b k

/-- Row 78 of the table, as the body composes it. -/
theorem k0_row78 (x0 : Vec Ideal S64x128 .f32) (x1 x2 x3 x4 : Vec Ideal S128 .f32) (b : Fin 64) (k : Fin 128) :
    (k0_pay93 (k0_pay6 x0 x1 x2 x3 x4)) (ix2 b k) = stagRow (k0_pay6 x0 x1 x2 x3 x4) 78 (by decide) (by decide) b k :=
  k0_pay93_apply (k0_pay6 x0 x1 x2 x3 x4) b k

theorem k0_pay94_apply (v33 : FVec Ideal S64x128x128 .f32) (b : Fin 64) (k : Fin 128) :
    k0_pay94 v33 (ix2 b k) = stagRow v33 79 (by decide) (by decide) b k :=
  stagRow_of_tailHead 79 (by decide) (by decide) v33 slices_S64x128x128_o0_78_79_S64x1x49 shapeCasts_S64x1x49_S64x49 slices_S64x128x128_o0_79_0_S64x1x79 shapeCasts_S64x1x79_S64x79 concatenates_S64x49_S64x79_S64x128_d1 (by rfl) b k

/-- Row 79 of the table, as the body composes it. -/
theorem k0_row79 (x0 : Vec Ideal S64x128 .f32) (x1 x2 x3 x4 : Vec Ideal S128 .f32) (b : Fin 64) (k : Fin 128) :
    (k0_pay94 (k0_pay6 x0 x1 x2 x3 x4)) (ix2 b k) = stagRow (k0_pay6 x0 x1 x2 x3 x4) 79 (by decide) (by decide) b k :=
  k0_pay94_apply (k0_pay6 x0 x1 x2 x3 x4) b k

theorem k0_pay95_apply (v33 : FVec Ideal S64x128x128 .f32) (b : Fin 64) (k : Fin 128) :
    k0_pay95 v33 (ix2 b k) = stagRow v33 80 (by decide) (by decide) b k :=
  stagRow_of_tailHead 80 (by decide) (by decide) v33 slices_S64x128x128_o0_79_80_S64x1x48 shapeCasts_S64x1x48_S64x48 slices_S64x128x128_o0_80_0_S64x1x80 shapeCasts_S64x1x80_S64x80 concatenates_S64x48_S64x80_S64x128_d1 (by rfl) b k

/-- Row 80 of the table, as the body composes it. -/
theorem k0_row80 (x0 : Vec Ideal S64x128 .f32) (x1 x2 x3 x4 : Vec Ideal S128 .f32) (b : Fin 64) (k : Fin 128) :
    (k0_pay95 (k0_pay6 x0 x1 x2 x3 x4)) (ix2 b k) = stagRow (k0_pay6 x0 x1 x2 x3 x4) 80 (by decide) (by decide) b k :=
  k0_pay95_apply (k0_pay6 x0 x1 x2 x3 x4) b k

theorem k0_pay96_apply (v33 : FVec Ideal S64x128x128 .f32) (b : Fin 64) (k : Fin 128) :
    k0_pay96 v33 (ix2 b k) = stagRow v33 81 (by decide) (by decide) b k :=
  stagRow_of_tailHead 81 (by decide) (by decide) v33 slices_S64x128x128_o0_80_81_S64x1x47 shapeCasts_S64x1x47_S64x47 slices_S64x128x128_o0_81_0_S64x1x81 shapeCasts_S64x1x81_S64x81 concatenates_S64x47_S64x81_S64x128_d1 (by rfl) b k

/-- Row 81 of the table, as the body composes it. -/
theorem k0_row81 (x0 : Vec Ideal S64x128 .f32) (x1 x2 x3 x4 : Vec Ideal S128 .f32) (b : Fin 64) (k : Fin 128) :
    (k0_pay96 (k0_pay6 x0 x1 x2 x3 x4)) (ix2 b k) = stagRow (k0_pay6 x0 x1 x2 x3 x4) 81 (by decide) (by decide) b k :=
  k0_pay96_apply (k0_pay6 x0 x1 x2 x3 x4) b k

theorem k0_pay97_apply (v33 : FVec Ideal S64x128x128 .f32) (b : Fin 64) (k : Fin 128) :
    k0_pay97 v33 (ix2 b k) = stagRow v33 82 (by decide) (by decide) b k :=
  stagRow_of_tailHead 82 (by decide) (by decide) v33 slices_S64x128x128_o0_81_82_S64x1x46 shapeCasts_S64x1x46_S64x46 slices_S64x128x128_o0_82_0_S64x1x82 shapeCasts_S64x1x82_S64x82 concatenates_S64x46_S64x82_S64x128_d1 (by rfl) b k

/-- Row 82 of the table, as the body composes it. -/
theorem k0_row82 (x0 : Vec Ideal S64x128 .f32) (x1 x2 x3 x4 : Vec Ideal S128 .f32) (b : Fin 64) (k : Fin 128) :
    (k0_pay97 (k0_pay6 x0 x1 x2 x3 x4)) (ix2 b k) = stagRow (k0_pay6 x0 x1 x2 x3 x4) 82 (by decide) (by decide) b k :=
  k0_pay97_apply (k0_pay6 x0 x1 x2 x3 x4) b k

theorem k0_pay98_apply (v33 : FVec Ideal S64x128x128 .f32) (b : Fin 64) (k : Fin 128) :
    k0_pay98 v33 (ix2 b k) = stagRow v33 83 (by decide) (by decide) b k :=
  stagRow_of_tailHead 83 (by decide) (by decide) v33 slices_S64x128x128_o0_82_83_S64x1x45 shapeCasts_S64x1x45_S64x45 slices_S64x128x128_o0_83_0_S64x1x83 shapeCasts_S64x1x83_S64x83 concatenates_S64x45_S64x83_S64x128_d1 (by rfl) b k

/-- Row 83 of the table, as the body composes it. -/
theorem k0_row83 (x0 : Vec Ideal S64x128 .f32) (x1 x2 x3 x4 : Vec Ideal S128 .f32) (b : Fin 64) (k : Fin 128) :
    (k0_pay98 (k0_pay6 x0 x1 x2 x3 x4)) (ix2 b k) = stagRow (k0_pay6 x0 x1 x2 x3 x4) 83 (by decide) (by decide) b k :=
  k0_pay98_apply (k0_pay6 x0 x1 x2 x3 x4) b k

theorem k0_pay99_apply (v33 : FVec Ideal S64x128x128 .f32) (b : Fin 64) (k : Fin 128) :
    k0_pay99 v33 (ix2 b k) = stagRow v33 84 (by decide) (by decide) b k :=
  stagRow_of_tailHead 84 (by decide) (by decide) v33 slices_S64x128x128_o0_83_84_S64x1x44 shapeCasts_S64x1x44_S64x44 slices_S64x128x128_o0_84_0_S64x1x84 shapeCasts_S64x1x84_S64x84 concatenates_S64x44_S64x84_S64x128_d1 (by rfl) b k

/-- Row 84 of the table, as the body composes it. -/
theorem k0_row84 (x0 : Vec Ideal S64x128 .f32) (x1 x2 x3 x4 : Vec Ideal S128 .f32) (b : Fin 64) (k : Fin 128) :
    (k0_pay99 (k0_pay6 x0 x1 x2 x3 x4)) (ix2 b k) = stagRow (k0_pay6 x0 x1 x2 x3 x4) 84 (by decide) (by decide) b k :=
  k0_pay99_apply (k0_pay6 x0 x1 x2 x3 x4) b k

theorem k0_pay100_apply (v33 : FVec Ideal S64x128x128 .f32) (b : Fin 64) (k : Fin 128) :
    k0_pay100 v33 (ix2 b k) = stagRow v33 85 (by decide) (by decide) b k :=
  stagRow_of_tailHead 85 (by decide) (by decide) v33 slices_S64x128x128_o0_84_85_S64x1x43 shapeCasts_S64x1x43_S64x43 slices_S64x128x128_o0_85_0_S64x1x85 shapeCasts_S64x1x85_S64x85 concatenates_S64x43_S64x85_S64x128_d1 (by rfl) b k

/-- Row 85 of the table, as the body composes it. -/
theorem k0_row85 (x0 : Vec Ideal S64x128 .f32) (x1 x2 x3 x4 : Vec Ideal S128 .f32) (b : Fin 64) (k : Fin 128) :
    (k0_pay100 (k0_pay6 x0 x1 x2 x3 x4)) (ix2 b k) = stagRow (k0_pay6 x0 x1 x2 x3 x4) 85 (by decide) (by decide) b k :=
  k0_pay100_apply (k0_pay6 x0 x1 x2 x3 x4) b k

theorem k0_pay102_apply (v33 : FVec Ideal S64x128x128 .f32) (v463 : FVec Ideal S64x42 .f32) (b : Fin 64) (k : Fin 128)
    (hx1 : ∀ k' : Fin 42, v463 (ix2 b k') = v33 (ix3 b ⟨85, by decide⟩ ⟨86 + k'.val, by have := k'.isLt; omega⟩)) :
    k0_pay102 v33 v463 (ix2 b k) = stagRow v33 86 (by decide) (by decide) b k :=
  stagRow_of_givenHead 86 (by decide) (by decide) v33 v463 slices_S64x128x128_o0_86_0_S64x1x86 shapeCasts_S64x1x86_S64x86 concatenates_S64x42_S64x86_S64x128_d1 (by rfl) b k hx1

theorem k0_pay101_apply (v33 : FVec Ideal S64x128x128 .f32) (b : Fin 64) (k : Fin 42) :
    k0_pay101 v33 (ix2 b k) = v33 (ix3 b ⟨85, by decide⟩ ⟨86 + k.val, by have := k.isLt; omega⟩) :=
  seg_apply 85 86 v33 slices_S64x128x128_o0_85_86_S64x1x42 shapeCasts_S64x1x42_S64x42 b k _ _ rfl rfl

/-- Row 86 of the table, as the body composes it. -/
theorem k0_row86 (x0 : Vec Ideal S64x128 .f32) (x1 x2 x3 x4 : Vec Ideal S128 .f32) (b : Fin 64) (k : Fin 128) :
    (k0_pay102 (k0_pay6 x0 x1 x2 x3 x4) (k0_pay101 (k0_pay6 x0 x1 x2 x3 x4))) (ix2 b k) = stagRow (k0_pay6 x0 x1 x2 x3 x4) 86 (by decide) (by decide) b k :=
  k0_pay102_apply (k0_pay6 x0 x1 x2 x3 x4) (k0_pay101 (k0_pay6 x0 x1 x2 x3 x4)) b k (fun k' => k0_pay101_apply (k0_pay6 x0 x1 x2 x3 x4) b k')

theorem k0_pay103_apply (v33 : FVec Ideal S64x128x128 .f32) (b : Fin 64) (k : Fin 128) :
    k0_pay103 v33 (ix2 b k) = stagRow v33 87 (by decide) (by decide) b k :=
  stagRow_of_tailHead 87 (by decide) (by decide) v33 slices_S64x128x128_o0_86_87_S64x1x41 shapeCasts_S64x1x41_S64x41 slices_S64x128x128_o0_87_0_S64x1x87 shapeCasts_S64x1x87_S64x87 concatenates_S64x41_S64x87_S64x128_d1 (by rfl) b k

/-- Row 87 of the table, as the body composes it. -/
theorem k0_row87 (x0 : Vec Ideal S64x128 .f32) (x1 x2 x3 x4 : Vec Ideal S128 .f32) (b : Fin 64) (k : Fin 128) :
    (k0_pay103 (k0_pay6 x0 x1 x2 x3 x4)) (ix2 b k) = stagRow (k0_pay6 x0 x1 x2 x3 x4) 87 (by decide) (by decide) b k :=
  k0_pay103_apply (k0_pay6 x0 x1 x2 x3 x4) b k

theorem k0_pay104_apply (v33 : FVec Ideal S64x128x128 .f32) (b : Fin 64) (k : Fin 128) :
    k0_pay104 v33 (ix2 b k) = stagRow v33 88 (by decide) (by decide) b k :=
  stagRow_of_tailHead 88 (by decide) (by decide) v33 slices_S64x128x128_o0_87_88_S64x1x40 shapeCasts_S64x1x40_S64x40 slices_S64x128x128_o0_88_0_S64x1x88 shapeCasts_S64x1x88_S64x88 concatenates_S64x40_S64x88_S64x128_d1 (by rfl) b k

/-- Row 88 of the table, as the body composes it. -/
theorem k0_row88 (x0 : Vec Ideal S64x128 .f32) (x1 x2 x3 x4 : Vec Ideal S128 .f32) (b : Fin 64) (k : Fin 128) :
    (k0_pay104 (k0_pay6 x0 x1 x2 x3 x4)) (ix2 b k) = stagRow (k0_pay6 x0 x1 x2 x3 x4) 88 (by decide) (by decide) b k :=
  k0_pay104_apply (k0_pay6 x0 x1 x2 x3 x4) b k

theorem k0_pay105_apply (v33 : FVec Ideal S64x128x128 .f32) (b : Fin 64) (k : Fin 128) :
    k0_pay105 v33 (ix2 b k) = stagRow v33 89 (by decide) (by decide) b k :=
  stagRow_of_tailHead 89 (by decide) (by decide) v33 slices_S64x128x128_o0_88_89_S64x1x39 shapeCasts_S64x1x39_S64x39 slices_S64x128x128_o0_89_0_S64x1x89 shapeCasts_S64x1x89_S64x89 concatenates_S64x39_S64x89_S64x128_d1 (by rfl) b k

/-- Row 89 of the table, as the body composes it. -/
theorem k0_row89 (x0 : Vec Ideal S64x128 .f32) (x1 x2 x3 x4 : Vec Ideal S128 .f32) (b : Fin 64) (k : Fin 128) :
    (k0_pay105 (k0_pay6 x0 x1 x2 x3 x4)) (ix2 b k) = stagRow (k0_pay6 x0 x1 x2 x3 x4) 89 (by decide) (by decide) b k :=
  k0_pay105_apply (k0_pay6 x0 x1 x2 x3 x4) b k

theorem k0_pay106_apply (v33 : FVec Ideal S64x128x128 .f32) (b : Fin 64) (k : Fin 128) :
    k0_pay106 v33 (ix2 b k) = stagRow v33 90 (by decide) (by decide) b k :=
  stagRow_of_tailHead 90 (by decide) (by decide) v33 slices_S64x128x128_o0_89_90_S64x1x38 shapeCasts_S64x1x38_S64x38 slices_S64x128x128_o0_90_0_S64x1x90 shapeCasts_S64x1x90_S64x90 concatenates_S64x38_S64x90_S64x128_d1 (by rfl) b k

/-- Row 90 of the table, as the body composes it. -/
theorem k0_row90 (x0 : Vec Ideal S64x128 .f32) (x1 x2 x3 x4 : Vec Ideal S128 .f32) (b : Fin 64) (k : Fin 128) :
    (k0_pay106 (k0_pay6 x0 x1 x2 x3 x4)) (ix2 b k) = stagRow (k0_pay6 x0 x1 x2 x3 x4) 90 (by decide) (by decide) b k :=
  k0_pay106_apply (k0_pay6 x0 x1 x2 x3 x4) b k

theorem k0_pay107_apply (v33 : FVec Ideal S64x128x128 .f32) (b : Fin 64) (k : Fin 128) :
    k0_pay107 v33 (ix2 b k) = stagRow v33 91 (by decide) (by decide) b k :=
  stagRow_of_tailHead 91 (by decide) (by decide) v33 slices_S64x128x128_o0_90_91_S64x1x37 shapeCasts_S64x1x37_S64x37 slices_S64x128x128_o0_91_0_S64x1x91 shapeCasts_S64x1x91_S64x91 concatenates_S64x37_S64x91_S64x128_d1 (by rfl) b k

/-- Row 91 of the table, as the body composes it. -/
theorem k0_row91 (x0 : Vec Ideal S64x128 .f32) (x1 x2 x3 x4 : Vec Ideal S128 .f32) (b : Fin 64) (k : Fin 128) :
    (k0_pay107 (k0_pay6 x0 x1 x2 x3 x4)) (ix2 b k) = stagRow (k0_pay6 x0 x1 x2 x3 x4) 91 (by decide) (by decide) b k :=
  k0_pay107_apply (k0_pay6 x0 x1 x2 x3 x4) b k

theorem k0_pay108_apply (v33 : FVec Ideal S64x128x128 .f32) (b : Fin 64) (k : Fin 128) :
    k0_pay108 v33 (ix2 b k) = stagRow v33 92 (by decide) (by decide) b k :=
  stagRow_of_tailHead 92 (by decide) (by decide) v33 slices_S64x128x128_o0_91_92_S64x1x36 shapeCasts_S64x1x36_S64x36 slices_S64x128x128_o0_92_0_S64x1x92 shapeCasts_S64x1x92_S64x92 concatenates_S64x36_S64x92_S64x128_d1 (by rfl) b k

/-- Row 92 of the table, as the body composes it. -/
theorem k0_row92 (x0 : Vec Ideal S64x128 .f32) (x1 x2 x3 x4 : Vec Ideal S128 .f32) (b : Fin 64) (k : Fin 128) :
    (k0_pay108 (k0_pay6 x0 x1 x2 x3 x4)) (ix2 b k) = stagRow (k0_pay6 x0 x1 x2 x3 x4) 92 (by decide) (by decide) b k :=
  k0_pay108_apply (k0_pay6 x0 x1 x2 x3 x4) b k

theorem k0_pay109_apply (v33 : FVec Ideal S64x128x128 .f32) (b : Fin 64) (k : Fin 128) :
    k0_pay109 v33 (ix2 b k) = stagRow v33 93 (by decide) (by decide) b k :=
  stagRow_of_tailHead 93 (by decide) (by decide) v33 slices_S64x128x128_o0_92_93_S64x1x35 shapeCasts_S64x1x35_S64x35 slices_S64x128x128_o0_93_0_S64x1x93 shapeCasts_S64x1x93_S64x93 concatenates_S64x35_S64x93_S64x128_d1 (by rfl) b k

/-- Row 93 of the table, as the body composes it. -/
theorem k0_row93 (x0 : Vec Ideal S64x128 .f32) (x1 x2 x3 x4 : Vec Ideal S128 .f32) (b : Fin 64) (k : Fin 128) :
    (k0_pay109 (k0_pay6 x0 x1 x2 x3 x4)) (ix2 b k) = stagRow (k0_pay6 x0 x1 x2 x3 x4) 93 (by decide) (by decide) b k :=
  k0_pay109_apply (k0_pay6 x0 x1 x2 x3 x4) b k

theorem k0_pay110_apply (v33 : FVec Ideal S64x128x128 .f32) (b : Fin 64) (k : Fin 128) :
    k0_pay110 v33 (ix2 b k) = stagRow v33 94 (by decide) (by decide) b k :=
  stagRow_of_tailHead 94 (by decide) (by decide) v33 slices_S64x128x128_o0_93_94_S64x1x34 shapeCasts_S64x1x34_S64x34 slices_S64x128x128_o0_94_0_S64x1x94 shapeCasts_S64x1x94_S64x94 concatenates_S64x34_S64x94_S64x128_d1 (by rfl) b k

/-- Row 94 of the table, as the body composes it. -/
theorem k0_row94 (x0 : Vec Ideal S64x128 .f32) (x1 x2 x3 x4 : Vec Ideal S128 .f32) (b : Fin 64) (k : Fin 128) :
    (k0_pay110 (k0_pay6 x0 x1 x2 x3 x4)) (ix2 b k) = stagRow (k0_pay6 x0 x1 x2 x3 x4) 94 (by decide) (by decide) b k :=
  k0_pay110_apply (k0_pay6 x0 x1 x2 x3 x4) b k

theorem k0_pay111_apply (v33 : FVec Ideal S64x128x128 .f32) (b : Fin 64) (k : Fin 128) :
    k0_pay111 v33 (ix2 b k) = stagRow v33 95 (by decide) (by decide) b k :=
  stagRow_of_tailHead 95 (by decide) (by decide) v33 slices_S64x128x128_o0_94_95_S64x1x33 shapeCasts_S64x1x33_S64x33 slices_S64x128x128_o0_95_0_S64x1x95 shapeCasts_S64x1x95_S64x95 concatenates_S64x33_S64x95_S64x128_d1 (by rfl) b k

/-- Row 95 of the table, as the body composes it. -/
theorem k0_row95 (x0 : Vec Ideal S64x128 .f32) (x1 x2 x3 x4 : Vec Ideal S128 .f32) (b : Fin 64) (k : Fin 128) :
    (k0_pay111 (k0_pay6 x0 x1 x2 x3 x4)) (ix2 b k) = stagRow (k0_pay6 x0 x1 x2 x3 x4) 95 (by decide) (by decide) b k :=
  k0_pay111_apply (k0_pay6 x0 x1 x2 x3 x4) b k

theorem k0_pay112_apply (v33 : FVec Ideal S64x128x128 .f32) (b : Fin 64) (k : Fin 128) :
    k0_pay112 v33 (ix2 b k) = stagRow v33 96 (by decide) (by decide) b k :=
  stagRow_of_tailHead 96 (by decide) (by decide) v33 slices_S64x128x128_o0_95_96_S64x1x32 shapeCasts_S64x1x32_S64x32 slices_S64x128x128_o0_96_0_S64x1x96 shapeCasts_S64x1x96_S64x96 concatenates_S64x32_S64x96_S64x128_d1 (by rfl) b k

/-- Row 96 of the table, as the body composes it. -/
theorem k0_row96 (x0 : Vec Ideal S64x128 .f32) (x1 x2 x3 x4 : Vec Ideal S128 .f32) (b : Fin 64) (k : Fin 128) :
    (k0_pay112 (k0_pay6 x0 x1 x2 x3 x4)) (ix2 b k) = stagRow (k0_pay6 x0 x1 x2 x3 x4) 96 (by decide) (by decide) b k :=
  k0_pay112_apply (k0_pay6 x0 x1 x2 x3 x4) b k

theorem k0_pay113_apply (v33 : FVec Ideal S64x128x128 .f32) (b : Fin 64) (k : Fin 128) :
    k0_pay113 v33 (ix2 b k) = stagRow v33 97 (by decide) (by decide) b k :=
  stagRow_of_tailHead 97 (by decide) (by decide) v33 slices_S64x128x128_o0_96_97_S64x1x31 shapeCasts_S64x1x31_S64x31 slices_S64x128x128_o0_97_0_S64x1x97 shapeCasts_S64x1x97_S64x97 concatenates_S64x31_S64x97_S64x128_d1 (by rfl) b k

/-- Row 97 of the table, as the body composes it. -/
theorem k0_row97 (x0 : Vec Ideal S64x128 .f32) (x1 x2 x3 x4 : Vec Ideal S128 .f32) (b : Fin 64) (k : Fin 128) :
    (k0_pay113 (k0_pay6 x0 x1 x2 x3 x4)) (ix2 b k) = stagRow (k0_pay6 x0 x1 x2 x3 x4) 97 (by decide) (by decide) b k :=
  k0_pay113_apply (k0_pay6 x0 x1 x2 x3 x4) b k

theorem k0_pay115_apply (v33 : FVec Ideal S64x128x128 .f32) (v523 : FVec Ideal S64x30 .f32) (b : Fin 64) (k : Fin 128)
    (hx1 : ∀ k' : Fin 30, v523 (ix2 b k') = v33 (ix3 b ⟨97, by decide⟩ ⟨98 + k'.val, by have := k'.isLt; omega⟩)) :
    k0_pay115 v33 v523 (ix2 b k) = stagRow v33 98 (by decide) (by decide) b k :=
  stagRow_of_givenHead 98 (by decide) (by decide) v33 v523 slices_S64x128x128_o0_98_0_S64x1x98 shapeCasts_S64x1x98_S64x98 concatenates_S64x30_S64x98_S64x128_d1 (by rfl) b k hx1

theorem k0_pay114_apply (v33 : FVec Ideal S64x128x128 .f32) (b : Fin 64) (k : Fin 30) :
    k0_pay114 v33 (ix2 b k) = v33 (ix3 b ⟨97, by decide⟩ ⟨98 + k.val, by have := k.isLt; omega⟩) :=
  seg_apply 97 98 v33 slices_S64x128x128_o0_97_98_S64x1x30 shapeCasts_S64x1x30_S64x30 b k _ _ rfl rfl

/-- Row 98 of the table, as the body composes it. -/
theorem k0_row98 (x0 : Vec Ideal S64x128 .f32) (x1 x2 x3 x4 : Vec Ideal S128 .f32) (b : Fin 64) (k : Fin 128) :
    (k0_pay115 (k0_pay6 x0 x1 x2 x3 x4) (k0_pay114 (k0_pay6 x0 x1 x2 x3 x4))) (ix2 b k) = stagRow (k0_pay6 x0 x1 x2 x3 x4) 98 (by decide) (by decide) b k :=
  k0_pay115_apply (k0_pay6 x0 x1 x2 x3 x4) (k0_pay114 (k0_pay6 x0 x1 x2 x3 x4)) b k (fun k' => k0_pay114_apply (k0_pay6 x0 x1 x2 x3 x4) b k')

theorem k0_pay116_apply (v33 : FVec Ideal S64x128x128 .f32) (b : Fin 64) (k : Fin 128) :
    k0_pay116 v33 (ix2 b k) = stagRow v33 99 (by decide) (by decide) b k :=
  stagRow_of_tailHead 99 (by decide) (by decide) v33 slices_S64x128x128_o0_98_99_S64x1x29 shapeCasts_S64x1x29_S64x29 slices_S64x128x128_o0_99_0_S64x1x99 shapeCasts_S64x1x99_S64x99 concatenates_S64x29_S64x99_S64x128_d1 (by rfl) b k

/-- Row 99 of the table, as the body composes it. -/
theorem k0_row99 (x0 : Vec Ideal S64x128 .f32) (x1 x2 x3 x4 : Vec Ideal S128 .f32) (b : Fin 64) (k : Fin 128) :
    (k0_pay116 (k0_pay6 x0 x1 x2 x3 x4)) (ix2 b k) = stagRow (k0_pay6 x0 x1 x2 x3 x4) 99 (by decide) (by decide) b k :=
  k0_pay116_apply (k0_pay6 x0 x1 x2 x3 x4) b k

theorem k0_pay117_apply (v33 : FVec Ideal S64x128x128 .f32) (b : Fin 64) (k : Fin 128) :
    k0_pay117 v33 (ix2 b k) = stagRow v33 100 (by decide) (by decide) b k :=
  stagRow_of_tailHead 100 (by decide) (by decide) v33 slices_S64x128x128_o0_99_100_S64x1x28 shapeCasts_S64x1x28_S64x28 slices_S64x128x128_o0_100_0_S64x1x100 shapeCasts_S64x1x100_S64x100 concatenates_S64x28_S64x100_S64x128_d1 (by rfl) b k

/-- Row 100 of the table, as the body composes it. -/
theorem k0_row100 (x0 : Vec Ideal S64x128 .f32) (x1 x2 x3 x4 : Vec Ideal S128 .f32) (b : Fin 64) (k : Fin 128) :
    (k0_pay117 (k0_pay6 x0 x1 x2 x3 x4)) (ix2 b k) = stagRow (k0_pay6 x0 x1 x2 x3 x4) 100 (by decide) (by decide) b k :=
  k0_pay117_apply (k0_pay6 x0 x1 x2 x3 x4) b k

theorem k0_pay118_apply (v33 : FVec Ideal S64x128x128 .f32) (b : Fin 64) (k : Fin 128) :
    k0_pay118 v33 (ix2 b k) = stagRow v33 101 (by decide) (by decide) b k :=
  stagRow_of_tailHead 101 (by decide) (by decide) v33 slices_S64x128x128_o0_100_101_S64x1x27 shapeCasts_S64x1x27_S64x27 slices_S64x128x128_o0_101_0_S64x1x101 shapeCasts_S64x1x101_S64x101 concatenates_S64x27_S64x101_S64x128_d1 (by rfl) b k

/-- Row 101 of the table, as the body composes it. -/
theorem k0_row101 (x0 : Vec Ideal S64x128 .f32) (x1 x2 x3 x4 : Vec Ideal S128 .f32) (b : Fin 64) (k : Fin 128) :
    (k0_pay118 (k0_pay6 x0 x1 x2 x3 x4)) (ix2 b k) = stagRow (k0_pay6 x0 x1 x2 x3 x4) 101 (by decide) (by decide) b k :=
  k0_pay118_apply (k0_pay6 x0 x1 x2 x3 x4) b k

theorem k0_pay119_apply (v33 : FVec Ideal S64x128x128 .f32) (b : Fin 64) (k : Fin 128) :
    k0_pay119 v33 (ix2 b k) = stagRow v33 102 (by decide) (by decide) b k :=
  stagRow_of_tailHead 102 (by decide) (by decide) v33 slices_S64x128x128_o0_101_102_S64x1x26 shapeCasts_S64x1x26_S64x26 slices_S64x128x128_o0_102_0_S64x1x102 shapeCasts_S64x1x102_S64x102 concatenates_S64x26_S64x102_S64x128_d1 (by rfl) b k

/-- Row 102 of the table, as the body composes it. -/
theorem k0_row102 (x0 : Vec Ideal S64x128 .f32) (x1 x2 x3 x4 : Vec Ideal S128 .f32) (b : Fin 64) (k : Fin 128) :
    (k0_pay119 (k0_pay6 x0 x1 x2 x3 x4)) (ix2 b k) = stagRow (k0_pay6 x0 x1 x2 x3 x4) 102 (by decide) (by decide) b k :=
  k0_pay119_apply (k0_pay6 x0 x1 x2 x3 x4) b k

theorem k0_pay120_apply (v33 : FVec Ideal S64x128x128 .f32) (b : Fin 64) (k : Fin 128) :
    k0_pay120 v33 (ix2 b k) = stagRow v33 103 (by decide) (by decide) b k :=
  stagRow_of_tailHead 103 (by decide) (by decide) v33 slices_S64x128x128_o0_102_103_S64x1x25 shapeCasts_S64x1x25_S64x25 slices_S64x128x128_o0_103_0_S64x1x103 shapeCasts_S64x1x103_S64x103 concatenates_S64x25_S64x103_S64x128_d1 (by rfl) b k

/-- Row 103 of the table, as the body composes it. -/
theorem k0_row103 (x0 : Vec Ideal S64x128 .f32) (x1 x2 x3 x4 : Vec Ideal S128 .f32) (b : Fin 64) (k : Fin 128) :
    (k0_pay120 (k0_pay6 x0 x1 x2 x3 x4)) (ix2 b k) = stagRow (k0_pay6 x0 x1 x2 x3 x4) 103 (by decide) (by decide) b k :=
  k0_pay120_apply (k0_pay6 x0 x1 x2 x3 x4) b k

theorem k0_pay121_apply (v33 : FVec Ideal S64x128x128 .f32) (b : Fin 64) (k : Fin 128) :
    k0_pay121 v33 (ix2 b k) = stagRow v33 104 (by decide) (by decide) b k :=
  stagRow_of_tailHead 104 (by decide) (by decide) v33 slices_S64x128x128_o0_103_104_S64x1x24 shapeCasts_S64x1x24_S64x24 slices_S64x128x128_o0_104_0_S64x1x104 shapeCasts_S64x1x104_S64x104 concatenates_S64x24_S64x104_S64x128_d1 (by rfl) b k

/-- Row 104 of the table, as the body composes it. -/
theorem k0_row104 (x0 : Vec Ideal S64x128 .f32) (x1 x2 x3 x4 : Vec Ideal S128 .f32) (b : Fin 64) (k : Fin 128) :
    (k0_pay121 (k0_pay6 x0 x1 x2 x3 x4)) (ix2 b k) = stagRow (k0_pay6 x0 x1 x2 x3 x4) 104 (by decide) (by decide) b k :=
  k0_pay121_apply (k0_pay6 x0 x1 x2 x3 x4) b k

theorem k0_pay122_apply (v33 : FVec Ideal S64x128x128 .f32) (b : Fin 64) (k : Fin 128) :
    k0_pay122 v33 (ix2 b k) = stagRow v33 105 (by decide) (by decide) b k :=
  stagRow_of_tailHead 105 (by decide) (by decide) v33 slices_S64x128x128_o0_104_105_S64x1x23 shapeCasts_S64x1x23_S64x23 slices_S64x128x128_o0_105_0_S64x1x105 shapeCasts_S64x1x105_S64x105 concatenates_S64x23_S64x105_S64x128_d1 (by rfl) b k

/-- Row 105 of the table, as the body composes it. -/
theorem k0_row105 (x0 : Vec Ideal S64x128 .f32) (x1 x2 x3 x4 : Vec Ideal S128 .f32) (b : Fin 64) (k : Fin 128) :
    (k0_pay122 (k0_pay6 x0 x1 x2 x3 x4)) (ix2 b k) = stagRow (k0_pay6 x0 x1 x2 x3 x4) 105 (by decide) (by decide) b k :=
  k0_pay122_apply (k0_pay6 x0 x1 x2 x3 x4) b k

theorem k0_pay123_apply (v33 : FVec Ideal S64x128x128 .f32) (b : Fin 64) (k : Fin 128) :
    k0_pay123 v33 (ix2 b k) = stagRow v33 106 (by decide) (by decide) b k :=
  stagRow_of_tailHead 106 (by decide) (by decide) v33 slices_S64x128x128_o0_105_106_S64x1x22 shapeCasts_S64x1x22_S64x22 slices_S64x128x128_o0_106_0_S64x1x106 shapeCasts_S64x1x106_S64x106 concatenates_S64x22_S64x106_S64x128_d1 (by rfl) b k

/-- Row 106 of the table, as the body composes it. -/
theorem k0_row106 (x0 : Vec Ideal S64x128 .f32) (x1 x2 x3 x4 : Vec Ideal S128 .f32) (b : Fin 64) (k : Fin 128) :
    (k0_pay123 (k0_pay6 x0 x1 x2 x3 x4)) (ix2 b k) = stagRow (k0_pay6 x0 x1 x2 x3 x4) 106 (by decide) (by decide) b k :=
  k0_pay123_apply (k0_pay6 x0 x1 x2 x3 x4) b k

theorem k0_pay124_apply (v33 : FVec Ideal S64x128x128 .f32) (b : Fin 64) (k : Fin 128) :
    k0_pay124 v33 (ix2 b k) = stagRow v33 107 (by decide) (by decide) b k :=
  stagRow_of_tailHead 107 (by decide) (by decide) v33 slices_S64x128x128_o0_106_107_S64x1x21 shapeCasts_S64x1x21_S64x21 slices_S64x128x128_o0_107_0_S64x1x107 shapeCasts_S64x1x107_S64x107 concatenates_S64x21_S64x107_S64x128_d1 (by rfl) b k

/-- Row 107 of the table, as the body composes it. -/
theorem k0_row107 (x0 : Vec Ideal S64x128 .f32) (x1 x2 x3 x4 : Vec Ideal S128 .f32) (b : Fin 64) (k : Fin 128) :
    (k0_pay124 (k0_pay6 x0 x1 x2 x3 x4)) (ix2 b k) = stagRow (k0_pay6 x0 x1 x2 x3 x4) 107 (by decide) (by decide) b k :=
  k0_pay124_apply (k0_pay6 x0 x1 x2 x3 x4) b k

theorem k0_pay125_apply (v33 : FVec Ideal S64x128x128 .f32) (b : Fin 64) (k : Fin 128) :
    k0_pay125 v33 (ix2 b k) = stagRow v33 108 (by decide) (by decide) b k :=
  stagRow_of_tailHead 108 (by decide) (by decide) v33 slices_S64x128x128_o0_107_108_S64x1x20 shapeCasts_S64x1x20_S64x20 slices_S64x128x128_o0_108_0_S64x1x108 shapeCasts_S64x1x108_S64x108 concatenates_S64x20_S64x108_S64x128_d1 (by rfl) b k

/-- Row 108 of the table, as the body composes it. -/
theorem k0_row108 (x0 : Vec Ideal S64x128 .f32) (x1 x2 x3 x4 : Vec Ideal S128 .f32) (b : Fin 64) (k : Fin 128) :
    (k0_pay125 (k0_pay6 x0 x1 x2 x3 x4)) (ix2 b k) = stagRow (k0_pay6 x0 x1 x2 x3 x4) 108 (by decide) (by decide) b k :=
  k0_pay125_apply (k0_pay6 x0 x1 x2 x3 x4) b k

theorem k0_pay126_apply (v33 : FVec Ideal S64x128x128 .f32) (b : Fin 64) (k : Fin 128) :
    k0_pay126 v33 (ix2 b k) = stagRow v33 109 (by decide) (by decide) b k :=
  stagRow_of_tailHead 109 (by decide) (by decide) v33 slices_S64x128x128_o0_108_109_S64x1x19 shapeCasts_S64x1x19_S64x19 slices_S64x128x128_o0_109_0_S64x1x109 shapeCasts_S64x1x109_S64x109 concatenates_S64x19_S64x109_S64x128_d1 (by rfl) b k

/-- Row 109 of the table, as the body composes it. -/
theorem k0_row109 (x0 : Vec Ideal S64x128 .f32) (x1 x2 x3 x4 : Vec Ideal S128 .f32) (b : Fin 64) (k : Fin 128) :
    (k0_pay126 (k0_pay6 x0 x1 x2 x3 x4)) (ix2 b k) = stagRow (k0_pay6 x0 x1 x2 x3 x4) 109 (by decide) (by decide) b k :=
  k0_pay126_apply (k0_pay6 x0 x1 x2 x3 x4) b k

theorem k0_pay128_apply (v33 : FVec Ideal S64x128x128 .f32) (v583 : FVec Ideal S64x18 .f32) (b : Fin 64) (k : Fin 128)
    (hx1 : ∀ k' : Fin 18, v583 (ix2 b k') = v33 (ix3 b ⟨109, by decide⟩ ⟨110 + k'.val, by have := k'.isLt; omega⟩)) :
    k0_pay128 v33 v583 (ix2 b k) = stagRow v33 110 (by decide) (by decide) b k :=
  stagRow_of_givenHead 110 (by decide) (by decide) v33 v583 slices_S64x128x128_o0_110_0_S64x1x110 shapeCasts_S64x1x110_S64x110 concatenates_S64x18_S64x110_S64x128_d1 (by rfl) b k hx1

theorem k0_pay127_apply (v33 : FVec Ideal S64x128x128 .f32) (b : Fin 64) (k : Fin 18) :
    k0_pay127 v33 (ix2 b k) = v33 (ix3 b ⟨109, by decide⟩ ⟨110 + k.val, by have := k.isLt; omega⟩) :=
  seg_apply 109 110 v33 slices_S64x128x128_o0_109_110_S64x1x18 shapeCasts_S64x1x18_S64x18 b k _ _ rfl rfl

/-- Row 110 of the table, as the body composes it. -/
theorem k0_row110 (x0 : Vec Ideal S64x128 .f32) (x1 x2 x3 x4 : Vec Ideal S128 .f32) (b : Fin 64) (k : Fin 128) :
    (k0_pay128 (k0_pay6 x0 x1 x2 x3 x4) (k0_pay127 (k0_pay6 x0 x1 x2 x3 x4))) (ix2 b k) = stagRow (k0_pay6 x0 x1 x2 x3 x4) 110 (by decide) (by decide) b k :=
  k0_pay128_apply (k0_pay6 x0 x1 x2 x3 x4) (k0_pay127 (k0_pay6 x0 x1 x2 x3 x4)) b k (fun k' => k0_pay127_apply (k0_pay6 x0 x1 x2 x3 x4) b k')

theorem k0_pay129_apply (v33 : FVec Ideal S64x128x128 .f32) (b : Fin 64) (k : Fin 128) :
    k0_pay129 v33 (ix2 b k) = stagRow v33 111 (by decide) (by decide) b k :=
  stagRow_of_tailHead 111 (by decide) (by decide) v33 slices_S64x128x128_o0_110_111_S64x1x17 shapeCasts_S64x1x17_S64x17 slices_S64x128x128_o0_111_0_S64x1x111 shapeCasts_S64x1x111_S64x111 concatenates_S64x17_S64x111_S64x128_d1 (by rfl) b k

/-- Row 111 of the table, as the body composes it. -/
theorem k0_row111 (x0 : Vec Ideal S64x128 .f32) (x1 x2 x3 x4 : Vec Ideal S128 .f32) (b : Fin 64) (k : Fin 128) :
    (k0_pay129 (k0_pay6 x0 x1 x2 x3 x4)) (ix2 b k) = stagRow (k0_pay6 x0 x1 x2 x3 x4) 111 (by decide) (by decide) b k :=
  k0_pay129_apply (k0_pay6 x0 x1 x2 x3 x4) b k

theorem k0_pay130_apply (v33 : FVec Ideal S64x128x128 .f32) (b : Fin 64) (k : Fin 128) :
    k0_pay130 v33 (ix2 b k) = stagRow v33 112 (by decide) (by decide) b k :=
  stagRow_of_tailHead 112 (by decide) (by decide) v33 slices_S64x128x128_o0_111_112_S64x1x16 shapeCasts_S64x1x16_S64x16 slices_S64x128x128_o0_112_0_S64x1x112 shapeCasts_S64x1x112_S64x112 concatenates_S64x16_S64x112_S64x128_d1 (by rfl) b k

/-- Row 112 of the table, as the body composes it. -/
theorem k0_row112 (x0 : Vec Ideal S64x128 .f32) (x1 x2 x3 x4 : Vec Ideal S128 .f32) (b : Fin 64) (k : Fin 128) :
    (k0_pay130 (k0_pay6 x0 x1 x2 x3 x4)) (ix2 b k) = stagRow (k0_pay6 x0 x1 x2 x3 x4) 112 (by decide) (by decide) b k :=
  k0_pay130_apply (k0_pay6 x0 x1 x2 x3 x4) b k

theorem k0_pay131_apply (v33 : FVec Ideal S64x128x128 .f32) (b : Fin 64) (k : Fin 128) :
    k0_pay131 v33 (ix2 b k) = stagRow v33 113 (by decide) (by decide) b k :=
  stagRow_of_tailHead 113 (by decide) (by decide) v33 slices_S64x128x128_o0_112_113_S64x1x15 shapeCasts_S64x1x15_S64x15 slices_S64x128x128_o0_113_0_S64x1x113 shapeCasts_S64x1x113_S64x113 concatenates_S64x15_S64x113_S64x128_d1 (by rfl) b k

/-- Row 113 of the table, as the body composes it. -/
theorem k0_row113 (x0 : Vec Ideal S64x128 .f32) (x1 x2 x3 x4 : Vec Ideal S128 .f32) (b : Fin 64) (k : Fin 128) :
    (k0_pay131 (k0_pay6 x0 x1 x2 x3 x4)) (ix2 b k) = stagRow (k0_pay6 x0 x1 x2 x3 x4) 113 (by decide) (by decide) b k :=
  k0_pay131_apply (k0_pay6 x0 x1 x2 x3 x4) b k

theorem k0_pay132_apply (v33 : FVec Ideal S64x128x128 .f32) (b : Fin 64) (k : Fin 128) :
    k0_pay132 v33 (ix2 b k) = stagRow v33 114 (by decide) (by decide) b k :=
  stagRow_of_tailHead 114 (by decide) (by decide) v33 slices_S64x128x128_o0_113_114_S64x1x14 shapeCasts_S64x1x14_S64x14 slices_S64x128x128_o0_114_0_S64x1x114 shapeCasts_S64x1x114_S64x114 concatenates_S64x14_S64x114_S64x128_d1 (by rfl) b k

/-- Row 114 of the table, as the body composes it. -/
theorem k0_row114 (x0 : Vec Ideal S64x128 .f32) (x1 x2 x3 x4 : Vec Ideal S128 .f32) (b : Fin 64) (k : Fin 128) :
    (k0_pay132 (k0_pay6 x0 x1 x2 x3 x4)) (ix2 b k) = stagRow (k0_pay6 x0 x1 x2 x3 x4) 114 (by decide) (by decide) b k :=
  k0_pay132_apply (k0_pay6 x0 x1 x2 x3 x4) b k

theorem k0_pay133_apply (v33 : FVec Ideal S64x128x128 .f32) (b : Fin 64) (k : Fin 128) :
    k0_pay133 v33 (ix2 b k) = stagRow v33 115 (by decide) (by decide) b k :=
  stagRow_of_tailHead 115 (by decide) (by decide) v33 slices_S64x128x128_o0_114_115_S64x1x13 shapeCasts_S64x1x13_S64x13 slices_S64x128x128_o0_115_0_S64x1x115 shapeCasts_S64x1x115_S64x115 concatenates_S64x13_S64x115_S64x128_d1 (by rfl) b k

/-- Row 115 of the table, as the body composes it. -/
theorem k0_row115 (x0 : Vec Ideal S64x128 .f32) (x1 x2 x3 x4 : Vec Ideal S128 .f32) (b : Fin 64) (k : Fin 128) :
    (k0_pay133 (k0_pay6 x0 x1 x2 x3 x4)) (ix2 b k) = stagRow (k0_pay6 x0 x1 x2 x3 x4) 115 (by decide) (by decide) b k :=
  k0_pay133_apply (k0_pay6 x0 x1 x2 x3 x4) b k

theorem k0_pay134_apply (v33 : FVec Ideal S64x128x128 .f32) (b : Fin 64) (k : Fin 128) :
    k0_pay134 v33 (ix2 b k) = stagRow v33 116 (by decide) (by decide) b k :=
  stagRow_of_tailHead 116 (by decide) (by decide) v33 slices_S64x128x128_o0_115_116_S64x1x12 shapeCasts_S64x1x12_S64x12 slices_S64x128x128_o0_116_0_S64x1x116 shapeCasts_S64x1x116_S64x116 concatenates_S64x12_S64x116_S64x128_d1 (by rfl) b k

/-- Row 116 of the table, as the body composes it. -/
theorem k0_row116 (x0 : Vec Ideal S64x128 .f32) (x1 x2 x3 x4 : Vec Ideal S128 .f32) (b : Fin 64) (k : Fin 128) :
    (k0_pay134 (k0_pay6 x0 x1 x2 x3 x4)) (ix2 b k) = stagRow (k0_pay6 x0 x1 x2 x3 x4) 116 (by decide) (by decide) b k :=
  k0_pay134_apply (k0_pay6 x0 x1 x2 x3 x4) b k

theorem k0_pay135_apply (v33 : FVec Ideal S64x128x128 .f32) (b : Fin 64) (k : Fin 128) :
    k0_pay135 v33 (ix2 b k) = stagRow v33 117 (by decide) (by decide) b k :=
  stagRow_of_tailHead 117 (by decide) (by decide) v33 slices_S64x128x128_o0_116_117_S64x1x11 shapeCasts_S64x1x11_S64x11 slices_S64x128x128_o0_117_0_S64x1x117 shapeCasts_S64x1x117_S64x117 concatenates_S64x11_S64x117_S64x128_d1 (by rfl) b k

/-- Row 117 of the table, as the body composes it. -/
theorem k0_row117 (x0 : Vec Ideal S64x128 .f32) (x1 x2 x3 x4 : Vec Ideal S128 .f32) (b : Fin 64) (k : Fin 128) :
    (k0_pay135 (k0_pay6 x0 x1 x2 x3 x4)) (ix2 b k) = stagRow (k0_pay6 x0 x1 x2 x3 x4) 117 (by decide) (by decide) b k :=
  k0_pay135_apply (k0_pay6 x0 x1 x2 x3 x4) b k

theorem k0_pay136_apply (v33 : FVec Ideal S64x128x128 .f32) (b : Fin 64) (k : Fin 128) :
    k0_pay136 v33 (ix2 b k) = stagRow v33 118 (by decide) (by decide) b k :=
  stagRow_of_tailHead 118 (by decide) (by decide) v33 slices_S64x128x128_o0_117_118_S64x1x10 shapeCasts_S64x1x10_S64x10 slices_S64x128x128_o0_118_0_S64x1x118 shapeCasts_S64x1x118_S64x118 concatenates_S64x10_S64x118_S64x128_d1 (by rfl) b k

/-- Row 118 of the table, as the body composes it. -/
theorem k0_row118 (x0 : Vec Ideal S64x128 .f32) (x1 x2 x3 x4 : Vec Ideal S128 .f32) (b : Fin 64) (k : Fin 128) :
    (k0_pay136 (k0_pay6 x0 x1 x2 x3 x4)) (ix2 b k) = stagRow (k0_pay6 x0 x1 x2 x3 x4) 118 (by decide) (by decide) b k :=
  k0_pay136_apply (k0_pay6 x0 x1 x2 x3 x4) b k

theorem k0_pay137_apply (v33 : FVec Ideal S64x128x128 .f32) (b : Fin 64) (k : Fin 128) :
    k0_pay137 v33 (ix2 b k) = stagRow v33 119 (by decide) (by decide) b k :=
  stagRow_of_tailHead 119 (by decide) (by decide) v33 slices_S64x128x128_o0_118_119_S64x1x9 shapeCasts_S64x1x9_S64x9 slices_S64x128x128_o0_119_0_S64x1x119 shapeCasts_S64x1x119_S64x119 concatenates_S64x9_S64x119_S64x128_d1 (by rfl) b k

/-- Row 119 of the table, as the body composes it. -/
theorem k0_row119 (x0 : Vec Ideal S64x128 .f32) (x1 x2 x3 x4 : Vec Ideal S128 .f32) (b : Fin 64) (k : Fin 128) :
    (k0_pay137 (k0_pay6 x0 x1 x2 x3 x4)) (ix2 b k) = stagRow (k0_pay6 x0 x1 x2 x3 x4) 119 (by decide) (by decide) b k :=
  k0_pay137_apply (k0_pay6 x0 x1 x2 x3 x4) b k

theorem k0_pay138_apply (v33 : FVec Ideal S64x128x128 .f32) (b : Fin 64) (k : Fin 128) :
    k0_pay138 v33 (ix2 b k) = stagRow v33 120 (by decide) (by decide) b k :=
  stagRow_of_tailHead 120 (by decide) (by decide) v33 slices_S64x128x128_o0_119_120_S64x1x8 shapeCasts_S64x1x8_S64x8 slices_S64x128x128_o0_120_0_S64x1x120 shapeCasts_S64x1x120_S64x120 concatenates_S64x8_S64x120_S64x128_d1 (by rfl) b k

/-- Row 120 of the table, as the body composes it. -/
theorem k0_row120 (x0 : Vec Ideal S64x128 .f32) (x1 x2 x3 x4 : Vec Ideal S128 .f32) (b : Fin 64) (k : Fin 128) :
    (k0_pay138 (k0_pay6 x0 x1 x2 x3 x4)) (ix2 b k) = stagRow (k0_pay6 x0 x1 x2 x3 x4) 120 (by decide) (by decide) b k :=
  k0_pay138_apply (k0_pay6 x0 x1 x2 x3 x4) b k

theorem k0_pay139_apply (v33 : FVec Ideal S64x128x128 .f32) (b : Fin 64) (k : Fin 128) :
    k0_pay139 v33 (ix2 b k) = stagRow v33 121 (by decide) (by decide) b k :=
  stagRow_of_tailHead 121 (by decide) (by decide) v33 slices_S64x128x128_o0_120_121_S64x1x7 shapeCasts_S64x1x7_S64x7 slices_S64x128x128_o0_121_0_S64x1x121 shapeCasts_S64x1x121_S64x121 concatenates_S64x7_S64x121_S64x128_d1 (by rfl) b k

/-- Row 121 of the table, as the body composes it. -/
theorem k0_row121 (x0 : Vec Ideal S64x128 .f32) (x1 x2 x3 x4 : Vec Ideal S128 .f32) (b : Fin 64) (k : Fin 128) :
    (k0_pay139 (k0_pay6 x0 x1 x2 x3 x4)) (ix2 b k) = stagRow (k0_pay6 x0 x1 x2 x3 x4) 121 (by decide) (by decide) b k :=
  k0_pay139_apply (k0_pay6 x0 x1 x2 x3 x4) b k

theorem k0_pay141_apply (v33 : FVec Ideal S64x128x128 .f32) (v643 : FVec Ideal S64x6 .f32) (b : Fin 64) (k : Fin 128)
    (hx1 : ∀ k' : Fin 6, v643 (ix2 b k') = v33 (ix3 b ⟨121, by decide⟩ ⟨122 + k'.val, by have := k'.isLt; omega⟩)) :
    k0_pay141 v33 v643 (ix2 b k) = stagRow v33 122 (by decide) (by decide) b k :=
  stagRow_of_givenHead 122 (by decide) (by decide) v33 v643 slices_S64x128x128_o0_122_0_S64x1x122 shapeCasts_S64x1x122_S64x122 concatenates_S64x6_S64x122_S64x128_d1 (by rfl) b k hx1

theorem k0_pay140_apply (v33 : FVec Ideal S64x128x128 .f32) (b : Fin 64) (k : Fin 6) :
    k0_pay140 v33 (ix2 b k) = v33 (ix3 b ⟨121, by decide⟩ ⟨122 + k.val, by have := k.isLt; omega⟩) :=
  seg_apply 121 122 v33 slices_S64x128x128_o0_121_122_S64x1x6 shapeCasts_S64x1x6_S64x6 b k _ _ rfl rfl

/-- Row 122 of the table, as the body composes it. -/
theorem k0_row122 (x0 : Vec Ideal S64x128 .f32) (x1 x2 x3 x4 : Vec Ideal S128 .f32) (b : Fin 64) (k : Fin 128) :
    (k0_pay141 (k0_pay6 x0 x1 x2 x3 x4) (k0_pay140 (k0_pay6 x0 x1 x2 x3 x4))) (ix2 b k) = stagRow (k0_pay6 x0 x1 x2 x3 x4) 122 (by decide) (by decide) b k :=
  k0_pay141_apply (k0_pay6 x0 x1 x2 x3 x4) (k0_pay140 (k0_pay6 x0 x1 x2 x3 x4)) b k (fun k' => k0_pay140_apply (k0_pay6 x0 x1 x2 x3 x4) b k')

theorem k0_pay142_apply (v33 : FVec Ideal S64x128x128 .f32) (b : Fin 64) (k : Fin 128) :
    k0_pay142 v33 (ix2 b k) = stagRow v33 123 (by decide) (by decide) b k :=
  stagRow_of_tailHead 123 (by decide) (by decide) v33 slices_S64x128x128_o0_122_123_S64x1x5 shapeCasts_S64x1x5_S64x5 slices_S64x128x128_o0_123_0_S64x1x123 shapeCasts_S64x1x123_S64x123 concatenates_S64x5_S64x123_S64x128_d1 (by rfl) b k

/-- Row 123 of the table, as the body composes it. -/
theorem k0_row123 (x0 : Vec Ideal S64x128 .f32) (x1 x2 x3 x4 : Vec Ideal S128 .f32) (b : Fin 64) (k : Fin 128) :
    (k0_pay142 (k0_pay6 x0 x1 x2 x3 x4)) (ix2 b k) = stagRow (k0_pay6 x0 x1 x2 x3 x4) 123 (by decide) (by decide) b k :=
  k0_pay142_apply (k0_pay6 x0 x1 x2 x3 x4) b k

theorem k0_pay143_apply (v33 : FVec Ideal S64x128x128 .f32) (b : Fin 64) (k : Fin 128) :
    k0_pay143 v33 (ix2 b k) = stagRow v33 124 (by decide) (by decide) b k :=
  stagRow_of_tailHead 124 (by decide) (by decide) v33 slices_S64x128x128_o0_123_124_S64x1x4 shapeCasts_S64x1x4_S64x4 slices_S64x128x128_o0_124_0_S64x1x124 shapeCasts_S64x1x124_S64x124 concatenates_S64x4_S64x124_S64x128_d1 (by rfl) b k

/-- Row 124 of the table, as the body composes it. -/
theorem k0_row124 (x0 : Vec Ideal S64x128 .f32) (x1 x2 x3 x4 : Vec Ideal S128 .f32) (b : Fin 64) (k : Fin 128) :
    (k0_pay143 (k0_pay6 x0 x1 x2 x3 x4)) (ix2 b k) = stagRow (k0_pay6 x0 x1 x2 x3 x4) 124 (by decide) (by decide) b k :=
  k0_pay143_apply (k0_pay6 x0 x1 x2 x3 x4) b k

theorem k0_pay144_apply (v33 : FVec Ideal S64x128x128 .f32) (b : Fin 64) (k : Fin 128) :
    k0_pay144 v33 (ix2 b k) = stagRow v33 125 (by decide) (by decide) b k :=
  stagRow_of_tailHead 125 (by decide) (by decide) v33 slices_S64x128x128_o0_124_125_S64x1x3 shapeCasts_S64x1x3_S64x3 slices_S64x128x128_o0_125_0_S64x1x125 shapeCasts_S64x1x125_S64x125 concatenates_S64x3_S64x125_S64x128_d1 (by rfl) b k

/-- Row 125 of the table, as the body composes it. -/
theorem k0_row125 (x0 : Vec Ideal S64x128 .f32) (x1 x2 x3 x4 : Vec Ideal S128 .f32) (b : Fin 64) (k : Fin 128) :
    (k0_pay144 (k0_pay6 x0 x1 x2 x3 x4)) (ix2 b k) = stagRow (k0_pay6 x0 x1 x2 x3 x4) 125 (by decide) (by decide) b k :=
  k0_pay144_apply (k0_pay6 x0 x1 x2 x3 x4) b k

theorem k0_pay145_apply (v33 : FVec Ideal S64x128x128 .f32) (b : Fin 64) (k : Fin 128) :
    k0_pay145 v33 (ix2 b k) = stagRow v33 126 (by decide) (by decide) b k :=
  stagRow_of_tailHead 126 (by decide) (by decide) v33 slices_S64x128x128_o0_125_126_S64x1x2 shapeCasts_S64x1x2_S64x2 slices_S64x128x128_o0_126_0_S64x1x126 shapeCasts_S64x1x126_S64x126 concatenates_S64x2_S64x126_S64x128_d1 (by rfl) b k

/-- Row 126 of the table, as the body composes it. -/
theorem k0_row126 (x0 : Vec Ideal S64x128 .f32) (x1 x2 x3 x4 : Vec Ideal S128 .f32) (b : Fin 64) (k : Fin 128) :
    (k0_pay145 (k0_pay6 x0 x1 x2 x3 x4)) (ix2 b k) = stagRow (k0_pay6 x0 x1 x2 x3 x4) 126 (by decide) (by decide) b k :=
  k0_pay145_apply (k0_pay6 x0 x1 x2 x3 x4) b k

theorem k0_pay146_apply (v33 : FVec Ideal S64x128x128 .f32) (b : Fin 64) (k : Fin 128) :
    k0_pay146 v33 (ix2 b k) = stagRow v33 127 (by decide) (by decide) b k :=
  stagRow_of_tailHead 127 (by decide) (by decide) v33 slices_S64x128x128_o0_126_127_S64x1x1 shapeCasts_S64x1x1_S64x1 slices_S64x128x128_o0_127_0_S64x1x127 shapeCasts_S64x1x127_S64x127 concatenates_S64x1_S64x127_S64x128_d1 (by rfl) b k

/-- Row 127 of the table, as the body composes it. -/
theorem k0_row127 (x0 : Vec Ideal S64x128 .f32) (x1 x2 x3 x4 : Vec Ideal S128 .f32) (b : Fin 64) (k : Fin 128) :
    (k0_pay146 (k0_pay6 x0 x1 x2 x3 x4)) (ix2 b k) = stagRow (k0_pay6 x0 x1 x2 x3 x4) 127 (by decide) (by decide) b k :=
  k0_pay146_apply (k0_pay6 x0 x1 x2 x3 x4) b k

/-- The 128 pieces stack along the middle axis to [64, 128, 128]. -/
theorem k0_stack_concatenates (x0 : Vec Ideal S64x128 .f32) (x1 x2 x3 x4 : Vec Ideal S128 .f32) :
    Shape.Concatenates (((k0_pieces x0 x1 x2 x3 x4).map fun p => (⟨S64x1x128, p⟩ : (s : Shape) × (s.Idx → Ideal .f32))).map (·.1)) S64x128x128 1 :=
  concatenates_S64x1x128_S64x1x128_S64x1x128_S64x1x128_S64x1x128_S64x1x128_S64x1x128_S64x1x128_S64x1x128_S64x1x128_S64x1x128_S64x1x128_S64x1x128_S64x1x128_S64x1x128_S64x1x128_S64x1x128_S64x1x128_S64x1x128_S64x1x128_S64x1x128_S64x1x128_S64x1x128_S64x1x128_S64x1x128_S64x1x128_S64x1x128_S64x1x128_S64x1x128_S64x1x128_S64x1x128_S64x1x128_S64x1x128_S64x1x128_S64x1x128_S64x1x128_S64x1x128_S64x1x128_S64x1x128_S64x1x128_S64x1x128_S64x1x128_S64x1x128_S64x1x128_S64x1x128_S64x1x128_S64x1x128_S64x1x128_S64x1x128_S64x1x128_S64x1x128_S64x1x128_S64x1x128_S64x1x128_S64x1x128_S64x1x128_S64x1x128_S64x1x128_S64x1x128_S64x1x128_S64x1x128_S64x1x128_S64x1x128_S64x1x128_S64x1x128_S64x1x128_S64x1x128_S64x1x128_S64x1x128_S64x1x128_S64x1x128_S64x1x128_S64x1x128_S64x1x128_S64x1x128_S64x1x128_S64x1x128_S64x1x128_S64x1x128_S64x1x128_S64x1x128_S64x1x128_S64x1x128_S64x1x128_S64x1x128_S64x1x128_S64x1x128_S64x1x128_S64x1x128_S64x1x128_S64x1x128_S64x1x128_S64x1x128_S64x1x128_S64x1x128_S64x1x128_S64x1x128_S64x1x128_S64x1x128_S64x1x128_S64x1x128_S64x1x128_S64x1x128_S64x1x128_S64x1x128_S64x1x128_S64x1x128_S64x1x128_S64x1x128_S64x1x128_S64x1x128_S64x1x128_S64x1x128_S64x1x128_S64x1x128_S64x1x128_S64x1x128_S64x1x128_S64x1x128_S64x1x128_S64x1x128_S64x1x128_S64x1x128_S64x1x128_S64x1x128_S64x1x128_S64x1x128_S64x1x128_S64x128x128_d1

theorem k0_pieces_length (x0 : Vec Ideal S64x128 .f32) (x1 x2 x3 x4 : Vec Ideal S128 .f32) : (k0_pieces x0 x1 x2 x3 x4).length = 128 := rfl

/-- The stacked pieces are, one by one, the rows of the table: piece 0 the clamped tile, piece i ≥ 1 the staggered row i
    of the clamped products. -/
theorem k0_pieces_rows (x0 : Vec Ideal S64x128 .f32) (x1 x2 x3 x4 : Vec Ideal S128 .f32) (b : Fin 64) (k : Fin 128) :
    AllRows (k0_pieces x0 x1 x2 x3 x4) 0 (fun i => tableRowN (k0_pay7 x0 x1 x2 x3 x4) (k0_pay6 x0 x1 x2 x3 x4) i b k) (ix3 b (0 : Fin 1) k) :=
  allRows_cons (addMid_apply (k0_pay7 x0 x1 x2 x3 x4) shapeCasts_S64x128_S64x1x128 b 0 k) <|
  allRows_cons ((addMid_apply (k0_pay9 x0 x1 x2 x3 x4) shapeCasts_S64x128_S64x1x128 b 0 k).trans (k0_row1 x0 x1 x2 x3 x4 b k)) <|
  allRows_cons ((addMid_apply (k0_pay11 (k0_pay6 x0 x1 x2 x3 x4) (k0_pay10 x0 x1 x2 x3 x4)) shapeCasts_S64x128_S64x1x128 b 0 k).trans (k0_row2 x0 x1 x2 x3 x4 b k)) <|
  allRows_cons ((addMid_apply (k0_pay12 (k0_pay6 x0 x1 x2 x3 x4)) shapeCasts_S64x128_S64x1x128 b 0 k).trans (k0_row3 x0 x1 x2 x3 x4 b k)) <|
  allRows_cons ((addMid_apply (k0_pay13 (k0_pay6 x0 x1 x2 x3 x4)) shapeCasts_S64x128_S64x1x128 b 0 k).trans (k0_row4 x0 x1 x2 x3 x4 b k)) <|
  allRows_cons ((addMid_apply (k0_pay14 (k0_pay6 x0 x1 x2 x3 x4)) shapeCasts_S64x128_S64x1x128 b 0 k).trans (k0_row5 x0 x1 x2 x3 x4 b k)) <|
  allRows_cons ((addMid_apply (k0_pay15 (k0_pay6 x0 x1 x2 x3 x4)) shapeCasts_S64x128_S64x1x128 b 0 k).trans (k0_row6 x0 x1 x2 x3 x4 b k)) <|
  allRows_cons ((addMid_apply (k0_pay16 (k0_pay6 x0 x1 x2 x3 x4)) shapeCasts_S64x128_S64x1x128 b 0 k).trans (k0_row7 x0 x1 x2 x3 x4 b k)) <|
  allRows_cons ((addMid_apply (k0_pay17 (k0_pay6 x0 x1 x2 x3 x4)) shapeCasts_S64x128_S64x1x128 b 0 k).trans (k0_row8 x0 x1 x2 x3 x4 b k)) <|
  allRows_cons ((addMid_apply (k0_pay18 (k0_pay6 x0 x1 x2 x3 x4)) shapeCasts_S64x128_S64x1x128 b 0 k).trans (k0_row9 x0 x1 x2 x3 x4 b k)) <|
  allRows_cons ((addMid_apply (k0_pay19 (k0_pay6 x0 x1 x2 x3 x4)) shapeCasts_S64x128_S64x1x128 b 0 k).trans (k0_row10 x0 x1 x2 x3 x4 b k)) <|
  allRows_cons ((addMid_apply (k0_pay20 (k0_pay6 x0 x1 x2 x3 x4)) shapeCasts_S64x128_S64x1x128 b 0 k).trans (k0_row11 x0 x1 x2 x3 x4 b k)) <|
  allRows_cons ((addMid_apply (k0_pay21 (k0_pay6 x0 x1 x2 x3 x4)) shapeCasts_S64x128_S64x1x128 b 0 k).trans (k0_row12 x0 x1 x2 x3 x4 b k)) <|
  allRows_cons ((addMid_apply (k0_pay22 (k0_pay6 x0 x1 x2 x3 x4)) shapeCasts_S64x128_S64x1x128 b 0 k).trans (k0_row13 x0 x1 x2 x3 x4 b k)) <|
  allRows_cons ((addMid_apply (k0_pay24 (k0_pay6 x0 x1 x2 x3 x4) (k0_pay23 (k0_pay6 x0 x1 x2 x3 x4))) shapeCasts_S64x128_S64x1x128 b 0 k).trans (k0_row14 x0 x1 x2 x3 x4 b k)) <|
  allRows_cons ((addMid_apply (k0_pay25 (k0_pay6 x0 x1 x2 x3 x4)) shapeCasts_S64x128_S64x1x128 b 0 k).trans (k0_row15 x0 x1 x2 x3 x4 b k)) <|
  allRows_cons ((addMid_apply (k0_pay26 (k0_pay6 x0 x1 x2 x3 x4)) shapeCasts_S64x128_S64x1x128 b 0 k).trans (k0_row16 x0 x1 x2 x3 x4 b k)) <|
  allRows_cons ((addMid_apply (k0_pay27 (k0_pay6 x0 x1 x2 x3 x4)) shapeCasts_S64x128_S64x1x128 b 0 k).trans (k0_row17 x0 x1 x2 x3 x4 b k)) <|
  allRows_cons ((addMid_apply (k0_pay28 (k0_pay6 x0 x1 x2 x3 x4)) shapeCasts_S64x128_S64x1x128 b 0 k).trans (k0_row18 x0 x1 x2 x3 x4 b k)) <|
  allRows_cons ((addMid_apply (k0_pay29 (k0_pay6 x0 x1 x2 x3 x4)) shapeCasts_S64x128_S64x1x128 b 0 k).trans (k0_row19 x0 x1 x2 x3 x4 b k)) <|
  allRows_cons ((addMid_apply (k0_pay30 (k0_pay6 x0 x1 x2 x3 x4)) shapeCasts_S64x128_S64x1x128 b 0 k).trans (k0_row20 x0 x1 x2 x3 x4 b k)) <|
  allRows_cons ((addMid_apply (k0_pay31 (k0_pay6 x0 x1 x2 x3 x4)) shapeCasts_S64x128_S64x1x128 b 0 k).trans (k0_row21 x0 x1 x2 x3 x4 b k)) <|
  allRows_cons ((addMid_apply (k0_pay32 (k0_pay6 x0 x1 x2 x3 x4)) shapeCasts_S64x128_S64x1x128 b 0 k).trans (k0_row22 x0 x1 x2 x3 x4 b k)) <|
  allRows_cons ((addMid_apply (k0_pay33 (k0_pay6 x0 x1 x2 x3 x4)) shapeCasts_S64x128_S64x1x128 b 0 k).trans (k0_row23 x0 x1 x2 x3 x4 b k)) <|
  allRows_cons ((addMid_apply (k0_pay34 (k0_pay6 x0 x1 x2 x3 x4)) shapeCasts_S64x128_S64x1x128 b 0 k).trans (k0_row24 x0 x1 x2 x3 x4 b k)) <|
  allRows_cons ((addMid_apply (k0_pay35 (k0_pay6 x0 x1 x2 x3 x4)) shapeCasts_S64x128_S64x1x128 b 0 k).trans (k0_row25 x0 x1 x2 x3 x4 b k)) <|
  allRows_cons ((addMid_apply (k0_pay37 (k0_pay6 x0 x1 x2 x3 x4) (k0_pay36 (k0_pay6 x0 x1 x2 x3 x4))) shapeCasts_S64x128_S64x1x128 b 0 k).trans (k0_row26 x0 x1 x2 x3 x4 b k)) <|
  allRows_cons ((addMid_apply (k0_pay38 (k0_pay6 x0 x1 x2 x3 x4)) shapeCasts_S64x128_S64x1x128 b 0 k).trans (k0_row27 x0 x1 x2 x3 x4 b k)) <|
  allRows_cons ((addMid_apply (k0_pay39 (k0_pay6 x0 x1 x2 x3 x4)) shapeCasts_S64x128_S64x1x128 b 0 k).trans (k0_row28 x0 x1 x2 x3 x4 b k)) <|
  allRows_cons ((addMid_apply (k0_pay40 (k0_pay6 x0 x1 x2 x3 x4)) shapeCasts_S64x128_S64x1x128 b 0 k).trans (k0_row29 x0 x1 x2 x3 x4 b k)) <|
  allRows_cons ((addMid_apply (k0_pay41 (k0_pay6 x0 x1 x2 x3 x4)) shapeCasts_S64x128_S64x1x128 b 0 k).trans (k0_row30 x0 x1 x2 x3 x4 b k)) <|
  allRows_cons ((addMid_apply (k0_pay42 (k0_pay6 x0 x1 x2 x3 x4)) shapeCasts_S64x128_S64x1x128 b 0 k).trans (k0_row31 x0 x1 x2 x3 x4 b k)) <|
  allRows_cons ((addMid_apply (k0_pay43 (k0_pay6 x0 x1 x2 x3 x4)) shapeCasts_S64x128_S64x1x128 b 0 k).trans (k0_row32 x0 x1 x2 x3 x4 b k)) <|
  allRows_cons ((addMid_apply (k0_pay44 (k0_pay6 x0 x1 x2 x3 x4)) shapeCasts_S64x128_S64x1x128 b 0 k).trans (k0_row33 x0 x1 x2 x3 x4 b k)) <|
  allRows_cons ((addMid_apply (k0_pay45 (k0_pay6 x0 x1 x2 x3 x4)) shapeCasts_S64x128_S64x1x128 b 0 k).trans (k0_row34 x0 x1 x2 x3 x4 b k)) <|
  allRows_cons ((addMid_apply (k0_pay46 (k0_pay6 x0 x1 x2 x3 x4)) shapeCasts_S64x128_S64x1x128 b 0 k).trans (k0_row35 x0 x1 x2 x3 x4 b k)) <|
  allRows_cons ((addMid_apply (k0_pay47 (k0_pay6 x0 x1 x2 x3 x4)) shapeCasts_S64x128_S64x1x128 b 0 k).trans (k0_row36 x0 x1 x2 x3 x4 b k)) <|
  allRows_cons ((addMid_apply (k0_pay48 (k0_pay6 x0 x1 x2 x3 x4)) shapeCasts_S64x128_S64x1x128 b 0 k).trans (k0_row37 x0 x1 x2 x3 x4 b k)) <|
  allRows_cons ((addMid_apply (k0_pay50 (k0_pay6 x0 x1 x2 x3 x4) (k0_pay49 (k0_pay6 x0 x1 x2 x3 x4))) shapeCasts_S64x128_S64x1x128 b 0 k).trans (k0_row38 x0 x1 x2 x3 x4 b k)) <|
  allRows_cons ((addMid_apply (k0_pay51 (k0_pay6 x0 x1 x2 x3 x4)) shapeCasts_S64x128_S64x1x128 b 0 k).trans (k0_row39 x0 x1 x2 x3 x4 b k)) <|
  allRows_cons ((addMid_apply (k0_pay52 (k0_pay6 x0 x1 x2 x3 x4)) shapeCasts_S64x128_S64x1x128 b 0 k).trans (k0_row40 x0 x1 x2 x3 x4 b k)) <|
  allRows_cons ((addMid_apply (k0_pay53 (k0_pay6 x0 x1 x2 x3 x4)) shapeCasts_S64x128_S64x1x128 b 0 k).trans (k0_row41 x0 x1 x2 x3 x4 b k)) <|
  allRows_cons ((addMid_apply (k0_pay54 (k0_pay6 x0 x1 x2 x3 x4)) shapeCasts_S64x128_S64x1x128 b 0 k).trans (k0_row42 x0 x1 x2 x3 x4 b k)) <|
  allRows_cons ((addMid_apply (k0_pay55 (k0_pay6 x0 x1 x2 x3 x4)) shapeCasts_S64x128_S64x1x128 b 0 k).trans (k0_row43 x0 x1 x2 x3 x4 b k)) <|
  allRows_cons ((addMid_apply (k0_pay56 (k0_pay6 x0 x1 x2 x3 x4)) shapeCasts_S64x128_S64x1x128 b 0 k).trans (k0_row44 x0 x1 x2 x3 x4 b k)) <|
  allRows_cons ((addMid_apply (k0_pay57 (k0_pay6 x0 x1 x2 x3 x4)) shapeCasts_S64x128_S64x1x128 b 0 k).trans (k0_row45 x0 x1 x2 x3 x4 b k)) <|
  allRows_cons ((addMid_apply (k0_pay58 (k0_pay6 x0 x1 x2 x3 x4)) shapeCasts_S64x128_S64x1x128 b 0 k).trans (k0_row46 x0 x1 x2 x3 x4 b k)) <|
  allRows_cons ((addMid_apply (k0_pay59 (k0_pay6 x0 x1 x2 x3 x4)) shapeCasts_S64x128_S64x1x128 b 0 k).trans (k0_row47 x0 x1 x2 x3 x4 b k)) <|
  allRows_cons ((addMid_apply (k0_pay60 (k0_pay6 x0 x1 x2 x3 x4)) shapeCasts_S64x128_S64x1x128 b 0 k).trans (k0_row48 x0 x1 x2 x3 x4 b k)) <|
  allRows_cons ((addMid_apply (k0_pay61 (k0_pay6 x0 x1 x2 x3 x4)) shapeCasts_S64x128_S64x1x128 b 0 k).trans (k0_row49 x0 x1 x2 x3 x4 b k)) <|
  allRows_cons ((addMid_apply (k0_pay63 (k0_pay6 x0 x1 x2 x3 x4) (k0_pay62 (k0_pay6 x0 x1 x2 x3 x4))) shapeCasts_S64x128_S64x1x128 b 0 k).trans (k0_row50 x0 x1 x2 x3 x4 b k)) <|
  allRows_cons ((addMid_apply (k0_pay64 (k0_pay6 x0 x1 x2 x3 x4)) shapeCasts_S64x128_S64x1x128 b 0 k).trans (k0_row51 x0 x1 x2 x3 x4 b k)) <|
  allRows_cons ((addMid_apply (k0_pay65 (k0_pay6 x0 x1 x2 x3 x4)) shapeCasts_S64x128_S64x1x128 b 0 k).trans (k0_row52 x0 x1 x2 x3 x4 b k)) <|
  allRows_cons ((addMid_apply (k0_pay66 (k0_pay6 x0 x1 x2 x3 x4)) shapeCasts_S64x128_S64x1x128 b 0 k).trans (k0_row53 x0 x1 x2 x3 x4 b k)) <|
  allRows_cons ((addMid_apply (k0_pay67 (k0_pay6 x0 x1 x2 x3 x4)) shapeCasts_S64x128_S64x1x128 b 0 k).trans (k0_row54 x0 x1 x2 x3 x4 b k)) <|
  allRows_cons ((addMid_apply (k0_pay68 (k0_pay6 x0 x1 x2 x3 x4)) shapeCasts_S64x128_S64x1x128 b 0 k).trans (k0_row55 x0 x1 x2 x3 x4 b k)) <|
  allRows_cons ((addMid_apply (k0_pay69 (k0_pay6 x0 x1 x2 x3 x4)) shapeCasts_S64x128_S64x1x128 b 0 k).trans (k0_row56 x0 x1 x2 x3 x4 b k)) <|
  allRows_cons ((addMid_apply (k0_pay70 (k0_pay6 x0 x1 x2 x3 x4)) shapeCasts_S64x128_S64x1x128 b 0 k).trans (k0_row57 x0 x1 x2 x3 x4 b k)) <|
  allRows_cons ((addMid_apply (k0_pay71 (k0_pay6 x0 x1 x2 x3 x4)) shapeCasts_S64x128_S64x1x128 b 0 k).trans (k0_row58 x0 x1 x2 x3 x4 b k)) <|
  allRows_cons ((addMid_apply (k0_pay72 (k0_pay6 x0 x1 x2 x3 x4)) shapeCasts_S64x128_S64x1x128 b 0 k).trans (k0_row59 x0 x1 x2 x3 x4 b k)) <|
  allRows_cons ((addMid_apply (k0_pay73 (k0_pay6 x0 x1 x2 x3 x4)) shapeCasts_S64x128_S64x1x128 b 0 k).trans (k0_row60 x0 x1 x2 x3 x4 b k)) <|
  allRows_cons ((addMid_apply (k0_pay74 (k0_pay6 x0 x1 x2 x3 x4)) shapeCasts_S64x128_S64x1x128 b 0 k).trans (k0_row61 x0 x1 x2 x3 x4 b k)) <|
  allRows_cons ((addMid_apply (k0_pay76 (k0_pay6 x0 x1 x2 x3 x4) (k0_pay75 (k0_pay6 x0 x1 x2 x3 x4))) shapeCasts_S64x128_S64x1x128 b 0 k).trans (k0_row62 x0 x1 x2 x3 x4 b k)) <|
  allRows_cons ((addMid_apply (k0_pay77 (k0_pay6 x0 x1 x2 x3 x4)) shapeCasts_S64x128_S64x1x128 b 0 k).trans (k0_row63 x0 x1 x2 x3 x4 b k)) <|
  allRows_cons ((addMid_apply (k0_pay78 (k0_pay6 x0 x1 x2 x3 x4)) shapeCasts_S64x128_S64x1x128 b 0 k).trans (k0_row64 x0 x1 x2 x3 x4 b k)) <|
  allRows_cons ((addMid_apply (k0_pay79 (k0_pay6 x0 x1 x2 x3 x4)) shapeCasts_S64x128_S64x1x128 b 0 k).trans (k0_row65 x0 x1 x2 x3 x4 b k)) <|
  allRows_cons ((addMid_apply (k0_pay80 (k0_pay6 x0 x1 x2 x3 x4)) shapeCasts_S64x128_S64x1x128 b 0 k).trans (k0_row66 x0 x1 x2 x3 x4 b k)) <|
  allRows_cons ((addMid_apply (k0_pay81 (k0_pay6 x0 x1 x2 x3 x4)) shapeCasts_S64x128_S64x1x128 b 0 k).trans (k0_row67 x0 x1 x2 x3 x4 b k)) <|
  allRows_cons ((addMid_apply (k0_pay82 (k0_pay6 x0 x1 x2 x3 x4)) shapeCasts_S64x128_S64x1x128 b 0 k).trans (k0_row68 x0 x1 x2 x3 x4 b k)) <|
  allRows_cons ((addMid_apply (k0_pay83 (k0_pay6 x0 x1 x2 x3 x4)) shapeCasts_S64x128_S64x1x128 b 0 k).trans (k0_row69 x0 x1 x2 x3 x4 b k)) <|
  allRows_cons ((addMid_apply (k0_pay84 (k0_pay6 x0 x1 x2 x3 x4)) shapeCasts_S64x128_S64x1x128 b 0 k).trans (k0_row70 x0 x1 x2 x3 x4 b k)) <|
  allRows_cons ((addMid_apply (k0_pay85 (k0_pay6 x0 x1 x2 x3 x4)) shapeCasts_S64x128_S64x1x128 b 0 k).trans (k0_row71 x0 x1 x2 x3 x4 b k)) <|
  allRows_cons ((addMid_apply (k0_pay86 (k0_pay6 x0 x1 x2 x3 x4)) shapeCasts_S64x128_S64x1x128 b 0 k).trans (k0_row72 x0 x1 x2 x3 x4 b k)) <|
  allRows_cons ((addMid_apply (k0_pay87 (k0_pay6 x0 x1 x2 x3 x4)) shapeCasts_S64x128_S64x1x128 b 0 k).trans (k0_row73 x0 x1 x2 x3 x4 b k)) <|
  allRows_cons ((addMid_apply (k0_pay89 (k0_pay6 x0 x1 x2 x3 x4) (k0_pay88 (k0_pay6 x0 x1 x2 x3 x4))) shapeCasts_S64x128_S64x1x128 b 0 k).trans (k0_row74 x0 x1 x2 x3 x4 b k)) <|
  allRows_cons ((addMid_apply (k0_pay90 (k0_pay6 x0 x1 x2 x3 x4)) shapeCasts_S64x128_S64x1x128 b 0 k).trans (k0_row75 x0 x1 x2 x3 x4 b k)) <|
  allRows_cons ((addMid_apply (k0_pay91 (k0_pay6 x0 x1 x2 x3 x4)) shapeCasts_S64x128_S64x1x128 b 0 k).trans (k0_row76 x0 x1 x2 x3 x4 b k)) <|
  allRows_cons ((addMid_apply (k0_pay92 (k0_pay6 x0 x1 x2 x3 x4)) shapeCasts_S64x128_S64x1x128 b 0 k).trans (k0_row77 x0 x1 x2 x3 x4 b k)) <|
  allRows_cons ((addMid_apply (k0_pay93 (k0_pay6 x0 x1 x2 x3 x4)) shapeCasts_S64x128_S64x1x128 b 0 k).trans (k0_row78 x0 x1 x2 x3 x4 b k)) <|
  allRows_cons ((addMid_apply (k0_pay94 (k0_pay6 x0 x1 x2 x3 x4)) shapeCasts_S64x128_S64x1x128 b 0 k).trans (k0_row79 x0 x1 x2 x3 x4 b k)) <|
  allRows_cons ((addMid_apply (k0_pay95 (k0_pay6 x0 x1 x2 x3 x4)) shapeCasts_S64x128_S64x1x128 b 0 k).trans (k0_row80 x0 x1 x2 x3 x4 b k)) <|
  allRows_cons ((addMid_apply (k0_pay96 (k0_pay6 x0 x1 x2 x3 x4)) shapeCasts_S64x128_S64x1x128 b 0 k).trans (k0_row81 x0 x1 x2 x3 x4 b k)) <|
  allRows_cons ((addMid_apply (k0_pay97 (k0_pay6 x0 x1 x2 x3 x4)) shapeCasts_S64x128_S64x1x128 b 0 k).trans (k0_row82 x0 x1 x2 x3 x4 b k)) <|
  allRows_cons ((addMid_apply (k0_pay98 (k0_pay6 x0 x1 x2 x3 x4)) shapeCasts_S64x128_S64x1x128 b 0 k).trans (k0_row83 x0 x1 x2 x3 x4 b k)) <|
  allRows_cons ((addMid_apply (k0_pay99 (k0_pay6 x0 x1 x2 x3 x4)) shapeCasts_S64x128_S64x1x128 b 0 k).trans (k0_row84 x0 x1 x2 x3 x4 b k)) <|
  allRows_cons ((addMid_apply (k0_pay100 (k0_pay6 x0 x1 x2 x3 x4)) shapeCasts_S64x128_S64x1x128 b 0 k).trans (k0_row85 x0 x1 x2 x3 x4 b k)) <|
  allRows_cons ((addMid_apply (k0_pay102 (k0_pay6 x0 x1 x2 x3 x4) (k0_pay101 (k0_pay6 x0 x1 x2 x3 x4))) shapeCasts_S64x128_S64x1x128 b 0 k).trans (k0_row86 x0 x1 x2 x3 x4 b k)) <|
  allRows_cons ((addMid_apply (k0_pay103 (k0_pay6 x0 x1 x2 x3 x4)) shapeCasts_S64x128_S64x1x128 b 0 k).trans (k0_row87 x0 x1 x2 x3 x4 b k)) <|
  allRows_cons ((addMid_apply (k0_pay104 (k0_pay6 x0 x1 x2 x3 x4)) shapeCasts_S64x128_S64x1x128 b 0 k).trans (k0_row88 x0 x1 x2 x3 x4 b k)) <|
  allRows_cons ((addMid_apply (k0_pay105 (k0_pay6 x0 x1 x2 x3 x4)) shapeCasts_S64x128_S64x1x128 b 0 k).trans (k0_row89 x0 x1 x2 x3 x4 b k)) <|
  allRows_cons ((addMid_apply (k0_pay106 (k0_pay6 x0 x1 x2 x3 x4)) shapeCasts_S64x128_S64x1x128 b 0 k).trans (k0_row90 x0 x1 x2 x3 x4 b k)) <|
  allRows_cons ((addMid_apply (k0_pay107 (k0_pay6 x0 x1 x2 x3 x4)) shapeCasts_S64x128_S64x1x128 b 0 k).trans (k0_row91 x0 x1 x2 x3 x4 b k)) <|
  allRows_cons ((addMid_apply (k0_pay108 (k0_pay6 x0 x1 x2 x3 x4)) shapeCasts_S64x128_S64x1x128 b 0 k).trans (k0_row92 x0 x1 x2 x3 x4 b k)) <|
  allRows_cons ((addMid_apply (k0_pay109 (k0_pay6 x0 x1 x2 x3 x4)) shapeCasts_S64x128_S64x1x128 b 0 k).trans (k0_row93 x0 x1 x2 x3 x4 b k)) <|
  allRows_cons ((addMid_apply (k0_pay110 (k0_pay6 x0 x1 x2 x3 x4)) shapeCasts_S64x128_S64x1x128 b 0 k).trans (k0_row94 x0 x1 x2 x3 x4 b k)) <|
  allRows_cons ((addMid_apply (k0_pay111 (k0_pay6 x0 x1 x2 x3 x4)) shapeCasts_S64x128_S64x1x128 b 0 k).trans (k0_row95 x0 x1 x2 x3 x4 b k)) <|
  allRows_cons ((addMid_apply (k0_pay112 (k0_pay6 x0 x1 x2 x3 x4)) shapeCasts_S64x128_S64x1x128 b 0 k).trans (k0_row96 x0 x1 x2 x3 x4 b k)) <|
  allRows_cons ((addMid_apply (k0_pay113 (k0_pay6 x0 x1 x2 x3 x4)) shapeCasts_S64x128_S64x1x128 b 0 k).trans (k0_row97 x0 x1 x2 x3 x4 b k)) <|
  allRows_cons ((addMid_apply (k0_pay115 (k0_pay6 x0 x1 x2 x3 x4) (k0_pay114 (k0_pay6 x0 x1 x2 x3 x4))) shapeCasts_S64x128_S64x1x128 b 0 k).trans (k0_row98 x0 x1 x2 x3 x4 b k)) <|
  allRows_cons ((addMid_apply (k0_pay116 (k0_pay6 x0 x1 x2 x3 x4)) shapeCasts_S64x128_S64x1x128 b 0 k).trans (k0_row99 x0 x1 x2 x3 x4 b k)) <|
  allRows_cons ((addMid_apply (k0_pay117 (k0_pay6 x0 x1 x2 x3 x4)) shapeCasts_S64x128_S64x1x128 b 0 k).trans (k0_row100 x0 x1 x2 x3 x4 b k)) <|
  allRows_cons ((addMid_apply (k0_pay118 (k0_pay6 x0 x1 x2 x3 x4)) shapeCasts_S64x128_S64x1x128 b 0 k).trans (k0_row101 x0 x1 x2 x3 x4 b k)) <|
  allRows_cons ((addMid_apply (k0_pay119 (k0_pay6 x0 x1 x2 x3 x4)) shapeCasts_S64x128_S64x1x128 b 0 k).trans (k0_row102 x0 x1 x2 x3 x4 b k)) <|
  allRows_cons ((addMid_apply (k0_pay120 (k0_pay6 x0 x1 x2 x3 x4)) shapeCasts_S64x128_S64x1x128 b 0 k).trans (k0_row103 x0 x1 x2 x3 x4 b k)) <|
  allRows_cons ((addMid_apply (k0_pay121 (k0_pay6 x0 x1 x2 x3 x4)) shapeCasts_S64x128_S64x1x128 b 0 k).trans (k0_row104 x0 x1 x2 x3 x4 b k)) <|
  allRows_cons ((addMid_apply (k0_pay122 (k0_pay6 x0 x1 x2 x3 x4)) shapeCasts_S64x128_S64x1x128 b 0 k).trans (k0_row105 x0 x1 x2 x3 x4 b k)) <|
  allRows_cons ((addMid_apply (k0_pay123 (k0_pay6 x0 x1 x2 x3 x4)) shapeCasts_S64x128_S64x1x128 b 0 k).trans (k0_row106 x0 x1 x2 x3 x4 b k)) <|
  allRows_cons ((addMid_apply (k0_pay124 (k0_pay6 x0 x1 x2 x3 x4)) shapeCasts_S64x128_S64x1x128 b 0 k).trans (k0_row107 x0 x1 x2 x3 x4 b k)) <|
  allRows_cons ((addMid_apply (k0_pay125 (k0_pay6 x0 x1 x2 x3 x4)) shapeCasts_S64x128_S64x1x128 b 0 k).trans (k0_row108 x0 x1 x2 x3 x4 b k)) <|
  allRows_cons ((addMid_apply (k0_pay126 (k0_pay6 x0 x1 x2 x3 x4)) shapeCasts_S64x128_S64x1x128 b 0 k).trans (k0_row109 x0 x1 x2 x3 x4 b k)) <|
  allRows_cons ((addMid_apply (k0_pay128 (k0_pay6 x0 x1 x2 x3 x4) (k0_pay127 (k0_pay6 x0 x1 x2 x3 x4))) shapeCasts_S64x128_S64x1x128 b 0 k).trans (k0_row110 x0 x1 x2 x3 x4 b k)) <|
  allRows_cons ((addMid_apply (k0_pay129 (k0_pay6 x0 x1 x2 x3 x4)) shapeCasts_S64x128_S64x1x128 b 0 k).trans (k0_row111 x0 x1 x2 x3 x4 b k)) <|
  allRows_cons ((addMid_apply (k0_pay130 (k0_pay6 x0 x1 x2 x3 x4)) shapeCasts_S64x128_S64x1x128 b 0 k).trans (k0_row112 x0 x1 x2 x3 x4 b k)) <|
  allRows_cons ((addMid_apply (k0_pay131 (k0_pay6 x0 x1 x2 x3 x4)) shapeCasts_S64x128_S64x1x128 b 0 k).trans (k0_row113 x0 x1 x2 x3 x4 b k)) <|
  allRows_cons ((addMid_apply (k0_pay132 (k0_pay6 x0 x1 x2 x3 x4)) shapeCasts_S64x128_S64x1x128 b 0 k).trans (k0_row114 x0 x1 x2 x3 x4 b k)) <|
  allRows_cons ((addMid_apply (k0_pay133 (k0_pay6 x0 x1 x2 x3 x4)) shapeCasts_S64x128_S64x1x128 b 0 k).trans (k0_row115 x0 x1 x2 x3 x4 b k)) <|
  allRows_cons ((addMid_apply (k0_pay134 (k0_pay6 x0 x1 x2 x3 x4)) shapeCasts_S64x128_S64x1x128 b 0 k).trans (k0_row116 x0 x1 x2 x3 x4 b k)) <|
  allRows_cons ((addMid_apply (k0_pay135 (k0_pay6 x0 x1 x2 x3 x4)) shapeCasts_S64x128_S64x1x128 b 0 k).trans (k0_row117 x0 x1 x2 x3 x4 b k)) <|
  allRows_cons ((addMid_apply (k0_pay136 (k0_pay6 x0 x1 x2 x3 x4)) shapeCasts_S64x128_S64x1x128 b 0 k).trans (k0_row118 x0 x1 x2 x3 x4 b k)) <|
  allRows_cons ((addMid_apply (k0_pay137 (k0_pay6 x0 x1 x2 x3 x4)) shapeCasts_S64x128_S64x1x128 b 0 k).trans (k0_row119 x0 x1 x2 x3 x4 b k)) <|
  allRows_cons ((addMid_apply (k0_pay138 (k0_pay6 x0 x1 x2 x3 x4)) shapeCasts_S64x128_S64x1x128 b 0 k).trans (k0_row120 x0 x1 x2 x3 x4 b k)) <|
  allRows_cons ((addMid_apply (k0_pay139 (k0_pay6 x0 x1 x2 x3 x4)) shapeCasts_S64x128_S64x1x128 b 0 k).trans (k0_row121 x0 x1 x2 x3 x4 b k)) <|
  allRows_cons ((addMid_apply (k0_pay141 (k0_pay6 x0 x1 x2 x3 x4) (k0_pay140 (k0_pay6 x0 x1 x2 x3 x4))) shapeCasts_S64x128_S64x1x128 b 0 k).trans (k0_row122 x0 x1 x2 x3 x4 b k)) <|
  allRows_cons ((addMid_apply (k0_pay142 (k0_pay6 x0 x1 x2 x3 x4)) shapeCasts_S64x128_S64x1x128 b 0 k).trans (k0_row123 x0 x1 x2 x3 x4 b k)) <|
  allRows_cons ((addMid_apply (k0_pay143 (k0_pay6 x0 x1 x2 x3 x4)) shapeCasts_S64x128_S64x1x128 b 0 k).trans (k0_row124 x0 x1 x2 x3 x4 b k)) <|
  allRows_cons ((addMid_apply (k0_pay144 (k0_pay6 x0 x1 x2 x3 x4)) shapeCasts_S64x128_S64x1x128 b 0 k).trans (k0_row125 x0 x1 x2 x3 x4 b k)) <|
  allRows_cons ((addMid_apply (k0_pay145 (k0_pay6 x0 x1 x2 x3 x4)) shapeCasts_S64x128_S64x1x128 b 0 k).trans (k0_row126 x0 x1 x2 x3 x4 b k)) <|
  allRows_cons ((addMid_apply (k0_pay146 (k0_pay6 x0 x1 x2 x3 x4)) shapeCasts_S64x128_S64x1x128 b 0 k).trans (k0_row127 x0 x1 x2 x3 x4 b k)) <|
  allRows_nil _ _ _

end Cert.KernelIdeal.Tile

end
-- ==== Proof.Tile0.lean ====
/-
  Kernel 0's tile value is the specification's: the composed term k0_y read at (b, i, o) is Cert.Poly.yT.

  The composed term is the contraction (TileMath.yOfStack) of the stack of its 128 pieces with the weights; the i-th piece
  is row i of the table of the clamped tile and the clamped products (Rows0), which is window i of the normalised row
  (TileMath.tableRow_eq_winRow); and the squares are the 129th term.
-/
import proofs.«138108_j2860448219241_2_alg».proof.Proof.KerSpec
import proofs.«138108_j2860448219241_2_alg».proof.Proof.TileMath
import proofs.«138108_j2860448219241_2_alg».proof.Proof.Rows0

set_option maxRecDepth 65536

noncomputable section

open scoped BigOperators

namespace Cert.KernelIdeal.Tile

open Cert.KernelIdeal Cert.KernelIdeal.Gen Idealize.ShloMosaic Idealize.ShloMosaic.ValueIdx

/-- The composed term is the contraction of the stack of its 128 pieces. -/
theorem k0_y_eq (x0 : Vec Ideal S64x128 .f32) (x1 x2 x3 x4 : Vec Ideal S128 .f32) (x5 : Vec Ideal S128x129 .f32)
    (x6 : Vec Ideal S128 .f32) :
    k0_y x0 x1 x2 x3 x4 x5 x6
      = yOfStack (concatenate S64x128x128 1
          ((k0_pieces x0 x1 x2 x3 x4).map fun p => (⟨S64x1x128, p⟩ : (s : Shape) × (s.Idx → Ideal .f32)))
          (k0_stack_concatenates x0 x1 x2 x3 x4)) x5 x6 (k0_pay8 x0 x1 x2 x3 x4) := rfl

/-- The i-th piece of the stack at (b, 0, k) is window i of the normalised row b at k. -/
theorem k0_piece_eq_winRow (x0 : Vec Ideal S64x128 .f32) (x1 x2 x3 x4 : Vec Ideal S128 .f32) (b : Fin 64) (i k : Fin 128) :
    concatenate S64x128x128 1
        ((k0_pieces x0 x1 x2 x3 x4).map fun p => (⟨S64x1x128, p⟩ : (s : Shape) × (s.Idx → Ideal .f32)))
        (k0_stack_concatenates x0 x1 x2 x3 x4) (ix3 b i k)
      = Cert.Poly.winRow (Cert.Poly.xnT x0 x1 x2 x3 x4 b) i k :=
  (Cert.StaggerRows.stackRows_of_allRows (k0_pieces x0 x1 x2 x3 x4) (k0_stack_concatenates x0 x1 x2 x3 x4) b i k
      (by rw [k0_pieces_length]; exact i.isLt) _ (k0_pieces_rows x0 x1 x2 x3 x4 b k)).trans
    ((Cert.StaggerRows.tableRowN_eq_tableRow _ _ i.val i.isLt b k).trans
      (tableRow_eq_winRow _ _ (Cert.Poly.xnT x0 x1 x2 x3 x4 b) b (fun k' => k0_pay7_apply x0 x1 x2 x3 x4 b k')
        (fun p q => k0_pay6_apply x0 x1 x2 x3 x4 b p q) i k))

theorem k0_y_apply (x0 : Vec Ideal S64x128 .f32) (x1 x2 x3 x4 : Vec Ideal S128 .f32) (x5 : Vec Ideal S128x129 .f32)
    (x6 : Vec Ideal S128 .f32) (b : Fin 64) (i o : Fin 128) :
    k0_y x0 x1 x2 x3 x4 x5 x6 (ix3 b i o) = Cert.Poly.yT x0 x1 x2 x3 x4 x5 x6 b i o := by
  rw [k0_y_eq, yOfStack_apply, k0_pay8_apply]
  show _ = (∑ k : Fin 128, Cert.Poly.winRow (Cert.Poly.xnT x0 x1 x2 x3 x4 b) i k * x5 (ix2 o k.castSucc))
      + Cert.Poly.xnT x0 x1 x2 x3 x4 b i * Cert.Poly.xnT x0 x1 x2 x3 x4 b i * x5 (ix2 o (Fin.last 128)) + x6 (ix1 o)
  congr 1
  congr 1
  exact Finset.sum_congr rfl fun k _ => by rw [k0_piece_eq_winRow]

end Cert.KernelIdeal.Tile

end
-- ==== Proof.StatsApply.lean ====
/-
  The four found pieces of the statistics kernel read at an output channel, over the extended reals.

  At the first grid point the two outputs are left holding the tile's total of y and of y·y per channel (the zeros stored
  first are absorbed: 0 + t = t); at every later point they are left holding their previous contents plus those totals.
  The totals are the specification's tileTot and tileTotSq: the sum over the 128 windows of the sum over the tile's 64 rows.
-/
import proofs.«138108_j2860448219241_2_alg».proof.Proof.KerSpec
import proofs.«138108_j2860448219241_2_alg».proof.Proof.StatsPieces
import proofs.«138108_j2860448219241_2_alg».proof.Proof.Tile0

noncomputable section

namespace Cert.KernelIdeal.Tile

open Cert.KernelIdeal Cert.KernelIdeal.Gen Idealize.ShloMosaic Idealize.ShloMosaic.ValueIdx
open scoped BigOperators

/-- At the first point output 7 is left holding, at channel o, the tile's total. -/
theorem out0_A_7_apply (c : Dev nD) (i : grid0.Coords) (arg1 : Memref sig .tc .vmem S64x128 .f32) (harg1 : arg1.IsWhole) (arg2 : Memref sig .tc .vmem S128 .f32) (harg2 : arg2.IsWhole) (arg3 : Memref sig .tc .vmem S128 .f32) (harg3 : arg3.IsWhole) (arg4 : Memref sig .tc .vmem S128 .f32) (harg4 : arg4.IsWhole) (arg5 : Memref sig .tc .vmem S128 .f32) (harg5 : arg5.IsWhole) (arg6 : Memref sig .tc .vmem S128x129 .f32) (harg6 : arg6.IsWhole) (arg7 : Memref sig .tc .vmem S128 .f32) (harg7 : arg7.IsWhole) (arg8 : Memref sig .tc .vmem S128 .f32) (harg8 : arg8.IsWhole) (arg9 : Memref sig .tc .vmem S128 .f32) (harg9 : arg9.IsWhole) (hc0 : cond0_0 i)
    (x0 : Vec Ideal S64x128 .f32) (x1 : Vec Ideal S128 .f32) (x2 : Vec Ideal S128 .f32) (x3 : Vec Ideal S128 .f32) (x4 : Vec Ideal S128 .f32) (x5 : Vec Ideal S128x129 .f32) (x6 : Vec Ideal S128 .f32) (o : Fin 128) :
    Gen.out0_A_7 (F := Ideal) c i arg1 harg1 arg2 harg2 arg3 harg3 arg4 harg4 arg5 harg5 arg6 harg6 arg7 harg7 arg8 harg8 arg9 harg9 hc0 x0 x1 x2 x3 x4 x5 x6 (ix1 o) = Cert.Poly.tileTot x0 x1 x2 x3 x4 x5 x6 o := by
  rw [out0_A_7_eq, accTot_apply, pay3_apply, zero_add]
  unfold Cert.Poly.tileTot
  exact Finset.sum_congr rfl fun i _ => Finset.sum_congr rfl fun b _ => k0_y_apply x0 x1 x2 x3 x4 x5 x6 b i o

/-- At the first point output 8 is left holding, at channel o, the tile's total of squares. -/
theorem out0_A_8_apply (c : Dev nD) (i : grid0.Coords) (arg1 : Memref sig .tc .vmem S64x128 .f32) (harg1 : arg1.IsWhole) (arg2 : Memref sig .tc .vmem S128 .f32) (harg2 : arg2.IsWhole) (arg3 : Memref sig .tc .vmem S128 .f32) (harg3 : arg3.IsWhole) (arg4 : Memref sig .tc .vmem S128 .f32) (harg4 : arg4.IsWhole) (arg5 : Memref sig .tc .vmem S128 .f32) (harg5 : arg5.IsWhole) (arg6 : Memref sig .tc .vmem S128x129 .f32) (harg6 : arg6.IsWhole) (arg7 : Memref sig .tc .vmem S128 .f32) (harg7 : arg7.IsWhole) (arg8 : Memref sig .tc .vmem S128 .f32) (harg8 : arg8.IsWhole) (arg9 : Memref sig .tc .vmem S128 .f32) (harg9 : arg9.IsWhole) (hc0 : cond0_0 i)
    (x0 : Vec Ideal S64x128 .f32) (x1 : Vec Ideal S128 .f32) (x2 : Vec Ideal S128 .f32) (x3 : Vec Ideal S128 .f32) (x4 : Vec Ideal S128 .f32) (x5 : Vec Ideal S128x129 .f32) (x6 : Vec Ideal S128 .f32) (o : Fin 128) :
    Gen.out0_A_8 (F := Ideal) c i arg1 harg1 arg2 harg2 arg3 harg3 arg4 harg4 arg5 harg5 arg6 harg6 arg7 harg7 arg8 harg8 arg9 harg9 hc0 x0 x1 x2 x3 x4 x5 x6 (ix1 o) = Cert.Poly.tileTotSq x0 x1 x2 x3 x4 x5 x6 o := by
  rw [out0_A_8_eq, accTotSq_apply, pay4_apply, zero_add]
  unfold Cert.Poly.tileTotSq
  exact Finset.sum_congr rfl fun i _ => Finset.sum_congr rfl fun b _ => by rw [k0_y_apply x0 x1 x2 x3 x4 x5 x6 b i o]

/-- At a later point output 7 is left holding, at channel o, the previous total plus the tile's. -/
theorem out0_B_7_apply (c : Dev nD) (i : grid0.Coords) (arg1 : Memref sig .tc .vmem S64x128 .f32) (harg1 : arg1.IsWhole) (arg2 : Memref sig .tc .vmem S128 .f32) (harg2 : arg2.IsWhole) (arg3 : Memref sig .tc .vmem S128 .f32) (harg3 : arg3.IsWhole) (arg4 : Memref sig .tc .vmem S128 .f32) (harg4 : arg4.IsWhole) (arg5 : Memref sig .tc .vmem S128 .f32) (harg5 : arg5.IsWhole) (arg6 : Memref sig .tc .vmem S128x129 .f32) (harg6 : arg6.IsWhole) (arg7 : Memref sig .tc .vmem S128 .f32) (harg7 : arg7.IsWhole) (arg8 : Memref sig .tc .vmem S128 .f32) (harg8 : arg8.IsWhole) (arg9 : Memref sig .tc .vmem S128 .f32) (harg9 : arg9.IsWhole) (hc0 : ¬cond0_0 i)
    (x0 : Vec Ideal S64x128 .f32) (x1 : Vec Ideal S128 .f32) (x2 : Vec Ideal S128 .f32) (x3 : Vec Ideal S128 .f32) (x4 : Vec Ideal S128 .f32) (x5 : Vec Ideal S128x129 .f32) (x6 : Vec Ideal S128 .f32) (xo7 : Vec Ideal S128 .f32) (xo8 : Vec Ideal S128 .f32) (o : Fin 128) :
    Gen.out0_B_7 (F := Ideal) c i arg1 harg1 arg2 harg2 arg3 harg3 arg4 harg4 arg5 harg5 arg6 harg6 arg7 harg7 arg8 harg8 arg9 harg9 hc0 x0 x1 x2 x3 x4 x5 x6 xo7 xo8 (ix1 o) = xo7 (ix1 o) + Cert.Poly.tileTot x0 x1 x2 x3 x4 x5 x6 o := by
  rw [out0_B_7_eq, accTot_apply]
  unfold Cert.Poly.tileTot
  exact congrArg (xo7 (ix1 o) + ·) (Finset.sum_congr rfl fun i _ => Finset.sum_congr rfl fun b _ => k0_y_apply x0 x1 x2 x3 x4 x5 x6 b i o)

/-- At a later point output 8 is left holding, at channel o, the previous total of squares plus the tile's. -/
theorem out0_B_8_apply (c : Dev nD) (i : grid0.Coords) (arg1 : Memref sig .tc .vmem S64x128 .f32) (harg1 : arg1.IsWhole) (arg2 : Memref sig .tc .vmem S128 .f32) (harg2 : arg2.IsWhole) (arg3 : Memref sig .tc .vmem S128 .f32) (harg3 : arg3.IsWhole) (arg4 : Memref sig .tc .vmem S128 .f32) (harg4 : arg4.IsWhole) (arg5 : Memref sig .tc .vmem S128 .f32) (harg5 : arg5.IsWhole) (arg6 : Memref sig .tc .vmem S128x129 .f32) (harg6 : arg6.IsWhole) (arg7 : Memref sig .tc .vmem S128 .f32) (harg7 : arg7.IsWhole) (arg8 : Memref sig .tc .vmem S128 .f32) (harg8 : arg8.IsWhole) (arg9 : Memref sig .tc .vmem S128 .f32) (harg9 : arg9.IsWhole) (hc0 : ¬cond0_0 i)
    (x0 : Vec Ideal S64x128 .f32) (x1 : Vec Ideal S128 .f32) (x2 : Vec Ideal S128 .f32) (x3 : Vec Ideal S128 .f32) (x4 : Vec Ideal S128 .f32) (x5 : Vec Ideal S128x129 .f32) (x6 : Vec Ideal S128 .f32) (xo7 : Vec Ideal S128 .f32) (xo8 : Vec Ideal S128 .f32) (o : Fin 128) :
    Gen.out0_B_8 (F := Ideal) c i arg1 harg1 arg2 harg2 arg3 harg3 arg4 harg4 arg5 harg5 arg6 harg6 arg7 harg7 arg8 harg8 arg9 harg9 hc0 x0 x1 x2 x3 x4 x5 x6 xo7 xo8 (ix1 o) = xo8 (ix1 o) + Cert.Poly.tileTotSq x0 x1 x2 x3 x4 x5 x6 o := by
  rw [out0_B_8_eq, accTotSq_apply]
  unfold Cert.Poly.tileTotSq
  exact congrArg (xo8 (ix1 o) + ·) (Finset.sum_congr rfl fun i _ => Finset.sum_congr rfl fun b _ => by rw [k0_y_apply x0 x1 x2 x3 x4 x5 x6 b i o])

end Cert.KernelIdeal.Tile

end
-- ==== Proof.Regions.lean ====
/-
  The two regions' exit contents with nothing assumed: the tile-level statements (the output kernel's block at an index;
  the statistics kernel's four found pieces at a channel) discharge the hypotheses of the accumulation and blocks-to-array
  theorems.
-/
import proofs.«138108_j2860448219241_2_alg».proof.Proof.RegionOut
import proofs.«138108_j2860448219241_2_alg».proof.Proof.RegionStats
import proofs.«138108_j2860448219241_2_alg».proof.Proof.Tile1
import proofs.«138108_j2860448219241_2_alg».proof.Proof.StatsApply

noncomputable section

namespace Cert.KernelIdeal.Regions

open Cert.KernelIdeal Cert.KernelIdeal.Gen Idealize.ShloMosaic

/-- The output kernel's block, entry by entry. -/
theorem tileOut : TileOut := by
  unfold TileOut
  exact Cert.KernelIdeal.Tile.out1_11_apply

/-- The first point's total of y. -/
theorem pieceA7 : PieceA7 := by
  unfold PieceA7
  exact Cert.KernelIdeal.Tile.out0_A_7_apply

/-- The first point's total of y². -/
theorem pieceA8 : PieceA8 := by
  unfold PieceA8
  exact Cert.KernelIdeal.Tile.out0_A_8_apply

/-- A later point's total of y: the total so far plus the tile's. -/
theorem pieceB7 : PieceB7 := by
  unfold PieceB7
  exact Cert.KernelIdeal.Tile.out0_B_7_apply

/-- A later point's total of y². -/
theorem pieceB8 : PieceB8 := by
  unfold PieceB8
  exact Cert.KernelIdeal.Tile.out0_B_8_apply

end Cert.KernelIdeal.Regions

end
-- ==== Proof.AlgReal.lean ====
/-
  Real numbers inside the extended reals.

  A sum, a product, a difference, a maximum of reals is a real; so is the quotient of a real by a nonzero real
  constant.  A mean of reals and the two forms of their variance — the mean of the squared deviations, and the mean of
  the squares minus the squared mean — are computed inside ℝ, where the two forms are one number, and carried to the
  extended reals through the coercion.
-/
import Idealize.ShloMosaic.PureOps.Ideal

noncomputable section

open scoped BigOperators

namespace Cert.Poly

open Idealize.ShloMosaic

/-- The coercion of ℝ into the extended reals commutes with a finite sum. -/
theorem coe_sum {ι : Type*} (s : Finset ι) (f : ι → ℝ) :
    ((∑ i ∈ s, f i : ℝ) : EReal) = ∑ i ∈ s, (f i : EReal) := by
  classical
  refine Finset.induction_on s ?_ ?_
  · simp
  · intro a s ha ih
    rw [Finset.sum_insert ha, Finset.sum_insert ha, EReal.coe_add, ih]

/-- An extended real that is a real number. -/
def IsR (z : EReal) : Prop := ∃ r : ℝ, z = (r : EReal)

theorem IsR.coe (r : ℝ) : IsR (r : EReal) := ⟨r, rfl⟩

theorem IsR.zero : IsR (0 : EReal) := ⟨0, EReal.coe_zero.symm⟩

theorem IsR.add {a b : EReal} (ha : IsR a) (hb : IsR b) : IsR (a + b) := by
  obtain ⟨x, rfl⟩ := ha
  obtain ⟨y, rfl⟩ := hb
  exact ⟨x + y, (EReal.coe_add x y).symm⟩

theorem IsR.sub {a b : EReal} (ha : IsR a) (hb : IsR b) : IsR (a - b) := by
  obtain ⟨x, rfl⟩ := ha
  obtain ⟨y, rfl⟩ := hb
  exact ⟨x - y, (EReal.coe_sub x y).symm⟩

theorem IsR.mul {a b : EReal} (ha : IsR a) (hb : IsR b) : IsR (a * b) := by
  obtain ⟨x, rfl⟩ := ha
  obtain ⟨y, rfl⟩ := hb
  exact ⟨x * y, (EReal.coe_mul x y).symm⟩

theorem IsR.max {a b : EReal} (ha : IsR a) (hb : IsR b) : IsR (max a b) := by
  obtain ⟨x, rfl⟩ := ha
  obtain ⟨y, rfl⟩ := hb
  exact ⟨Max.max x y, (EReal.coe_strictMono.monotone.map_max).symm⟩

theorem IsR.sum {ι : Type*} (s : Finset ι) {f : ι → EReal} (h : ∀ i, IsR (f i)) : IsR (∑ i ∈ s, f i) := by
  choose g hg using h
  exact ⟨∑ i ∈ s, g i, by rw [coe_sum]; exact Finset.sum_congr rfl (fun i _ => hg i)⟩

/-- The quotient of a real by a nonzero real constant is a real. -/
theorem IsR.div_coe {a : EReal} (ha : IsR a) {y : ℝ} (hy : y ≠ 0) : IsR (Ideal.div a (y : EReal)) := by
  obtain ⟨x, rfl⟩ := ha
  rw [Ideal.div_coe hy]
  exact ⟨x * (1 / y), (EReal.coe_mul _ _).symm⟩

/-! ## Means and variances of finitely many reals -/

section Moments

variable {ι : Type*} [Fintype ι]

/-- A sum of reals divided by a nonzero real constant. -/
theorem div_sum_coe (f : ι → ℝ) {N : ℝ} (hN : N ≠ 0) :
    Ideal.div (∑ i, (f i : EReal)) (N : EReal) = (((∑ i, f i) / N : ℝ) : EReal) := by
  rw [Ideal.div_coe hN, ← coe_sum, ← EReal.coe_mul, mul_one_div]

/-- The mean of the squared deviations from a real m. -/
theorem div_sum_sqdev_coe (f : ι → ℝ) (m : ℝ) {N : ℝ} (hN : N ≠ 0) :
    Ideal.div (∑ i, ((f i : EReal) - (m : EReal)) * ((f i : EReal) - (m : EReal))) (N : EReal)
      = (((∑ i, (f i - m) * (f i - m)) / N : ℝ) : EReal) := by
  rw [← div_sum_coe (fun i => (f i - m) * (f i - m)) hN]
  simp only [EReal.coe_mul, EReal.coe_sub]

/-- The mean of the squares minus the square of a real m. -/
theorem div_sum_sq_sub_coe (f : ι → ℝ) (m : ℝ) {N : ℝ} (hN : N ≠ 0) :
    Ideal.div (∑ i, (f i : EReal) * (f i : EReal)) (N : EReal) - (m : EReal) * (m : EReal)
      = (((∑ i, f i * f i) / N - m * m : ℝ) : EReal) := by
  rw [EReal.coe_sub, EReal.coe_mul, ← div_sum_coe (fun i => f i * f i) hN]
  simp only [EReal.coe_mul]

/-- The two forms of the variance of N reals: the mean of the squares minus the squared mean is the mean of the
    squared deviations from the mean.  With S the sum and m = S/N: Σ (f - m)² = Σ f² - 2 m S + N m² = Σ f² - N m². -/
theorem var_two_forms (f : ι → ℝ) {N : ℝ} (hN : N ≠ 0) (hc : (Fintype.card ι : ℝ) = N) :
    (∑ i, f i * f i) / N - ((∑ i, f i) / N) * ((∑ i, f i) / N)
      = (∑ i, (f i - (∑ i, f i) / N) * (f i - (∑ i, f i) / N)) / N := by
  have key : ∀ m : ℝ, ∑ i, (f i - m) * (f i - m) = (∑ i, f i * f i) - 2 * m * (∑ i, f i) + N * (m * m) := by
    intro m
    have h : ∀ i, (f i - m) * (f i - m) = f i * f i - 2 * m * f i + m * m := fun i => by ring
    simp only [h, Finset.sum_add_distrib, Finset.sum_sub_distrib, ← Finset.mul_sum, Finset.sum_const,
      Finset.card_univ, nsmul_eq_mul, hc]
    ring
  rw [key]
  field_simp
  ring

/-- A mean of squares is not negative. -/
theorem sqdev_nonneg (f : ι → ℝ) (m : ℝ) {N : ℝ} (hN : 0 < N) : 0 ≤ (∑ i, (f i - m) * (f i - m)) / N :=
  div_nonneg (Finset.sum_nonneg (fun i _ => mul_self_nonneg _)) hN.le

end Moments

end Cert.Poly

end
-- ==== Proof.AlgNorm.lean ====
/-
  The first normalisation on a batch of reals.

  The three constants are reals (4096, 524288 and a positive offset).  The batch mean and the batch variance of reals
  are reals, the variance not negative, so the variance plus the offset is a positive real s.  There the reciprocal
  square root is (√s)⁻¹ and the square root is √s ≠ 0, and dividing by √s is multiplying by (√s)⁻¹: the two
  arrangements of a normalised entry agree, and the entry is a real.
-/
import proofs.«138108_j2860448219241_2_alg».proof.Proof.Spec
import proofs.«138108_j2860448219241_2_alg».proof.Proof.AlgReal

noncomputable section

open scoped BigOperators

namespace Cert.Poly

open Idealize.ShloMosaic

/-- The batch size as a real. -/
theorem nB_eq : nB = ((4096 : ℝ) : EReal) := by
  simp [nB, Ideal.ofBits, Ideal.ieee, -EReal.coe_mul] <;> norm_num

/-- The number of (row, window) pairs as a real. -/
theorem nBD_eq : nBD = ((524288 : ℝ) : EReal) := by
  simp [nBD, Ideal.ofBits, Ideal.ieee, -EReal.coe_mul] <;> norm_num

/-- The variance offset is a positive real: 10995116 · 2⁻⁴⁰. -/
theorem eps_pos : ∃ e : ℝ, 0 < e ∧ eps = (e : EReal) := by
  refine ⟨(10995116 : ℝ) * (2 : ℝ) ^ (-40 : ℤ), by positivity, ?_⟩
  simp [eps, Ideal.ofBits, Ideal.ieee, -EReal.coe_mul] <;> norm_num

/-- Multiplying by the reciprocal square root and dividing by the square root agree wherever the variance plus the
    offset is a positive real s: both are the product with (√s)⁻¹. -/
theorem normK_eq_normR (a mu v g b : EReal) {s : ℝ} (hs : 0 < s) (hv : v + eps = (s : EReal)) :
    normK a mu v g b = normR a mu v g b := by
  have h0 : Real.sqrt s ≠ 0 := (Real.sqrt_pos.2 hs).ne'
  unfold normK normR
  rw [hv, Ideal.sqrt_coe, Ideal.rsqrt_coe, if_neg (not_lt.2 hs.le), if_neg hs.ne', if_neg (not_lt.2 hs.le),
    Ideal.div_coe h0, one_div]

/-- A normalised entry of reals is a real. -/
theorem IsR.normR {a mu v g b : EReal} (ha : IsR a) (hmu : IsR mu) (hg : IsR g) (hb : IsR b) {s : ℝ} (hs : 0 < s)
    (hv : v + eps = (s : EReal)) : IsR (normR a mu v g b) := by
  have h0 : Real.sqrt s ≠ 0 := (Real.sqrt_pos.2 hs).ne'
  unfold Cert.Poly.normR
  rw [hv, Ideal.sqrt_coe, if_neg (not_lt.2 hs.le)]
  exact (((ha.sub hmu).div_coe h0).mul hg).add hb

/-! ## The first normalisation of a batch of reals -/

/-- The batch mean of reals. -/
theorem mu1_coe (x : Fin 4096 → Fin 128 → ℝ) (j : Fin 128) :
    mu1 (fun r j => ((x r j : ℝ) : EReal)) j = (((∑ r, x r j) / 4096 : ℝ) : EReal) := by
  unfold mu1
  rw [nB_eq]
  exact div_sum_coe (fun r => x r j) (by norm_num)

/-- The batch variance of reals. -/
theorem var1_coe (x : Fin 4096 → Fin 128 → ℝ) (j : Fin 128) :
    var1 (fun r j => ((x r j : ℝ) : EReal)) j
      = (((∑ r, (x r j - (∑ r, x r j) / 4096) * (x r j - (∑ r, x r j) / 4096)) / 4096 : ℝ) : EReal) := by
  unfold var1
  rw [mu1_coe, nB_eq]
  exact div_sum_sqdev_coe (fun r => x r j) _ (by norm_num)

/-- The batch variance of reals plus the offset is a positive real. -/
theorem var1_add_eps (x : Fin 4096 → Fin 128 → ℝ) (j : Fin 128) :
    ∃ s : ℝ, 0 < s ∧ var1 (fun r j => ((x r j : ℝ) : EReal)) j + eps = (s : EReal) := by
  obtain ⟨e, he, hE⟩ := eps_pos
  rw [var1_coe, hE, ← EReal.coe_add]
  exact ⟨_, add_pos_of_nonneg_of_pos (sqdev_nonneg (fun r => x r j) _ (by norm_num)) he, rfl⟩

/-- On a batch of reals the two arrangements of the first normalisation agree. -/
theorem xnK_eq_xnR (x : Fin 4096 → Fin 128 → ℝ) (g1 b1 : Fin 128 → EReal) :
    xnK (fun r j => ((x r j : ℝ) : EReal)) g1 b1 = xnR (fun r j => ((x r j : ℝ) : EReal)) g1 b1 := by
  funext r j
  obtain ⟨s, hs, hv⟩ := var1_add_eps x j
  exact normK_eq_normR _ _ _ _ _ hs hv

/-- A normalised batch of reals, with real scale and shift, is a batch of reals. -/
theorem IsR.xnR (x : Fin 4096 → Fin 128 → ℝ) (g1 b1 : Fin 128 → ℝ) (r : Fin 4096) (j : Fin 128) :
    IsR (xnR (fun r j => ((x r j : ℝ) : EReal)) (fun j => ((g1 j : ℝ) : EReal)) (fun j => ((b1 j : ℝ) : EReal)) r j) := by
  obtain ⟨s, hs, hv⟩ := var1_add_eps x j
  unfold Cert.Poly.xnR
  exact IsR.normR (IsR.coe _) (by rw [mu1_coe]; exact IsR.coe _) (IsR.coe _) (IsR.coe _) hs hv

end Cert.Poly

end
-- ==== Proof.AlgWindow.lean ====
/-
  The two readings of a window of the clamped expansion.

  Window i, position k is entry 129·i + k of the expansion.  Position 128 is entry 128 + 128·i + i, the square v_i·v_i,
  which is not negative, so the clamp keeps it.  Positions k < 128 are the row itself for i = 0, and for i ≥ 1 the tail
  of products row i-1 followed by the head of products row i.  So the sum of 129 terms splits into the 128 terms read
  through the two pieces plus the square against the 129th weight: the two contractions agree for every row of
  extended reals (addition and multiplication there are commutative and associative; nothing else is used).
-/
import proofs.«138108_j2860448219241_2_alg».proof.Proof.Spec
import proofs.«138108_j2860448219241_2_alg».proof.Proof.AlgReal

noncomputable section

open scoped BigOperators

namespace Cert.Poly

open Idealize.ShloMosaic

/-- A square is not negative in the extended reals: both infinities square to ⊤. -/
theorem mul_self_nonneg_ereal (a : EReal) : 0 ≤ a * a := by
  induction a using EReal.rec with
  | bot => simp
  | coe x => rw [← EReal.coe_mul]; exact EReal.coe_nonneg.2 (mul_self_nonneg x)
  | top => simp

/-- A first-degree entry of the expansion. -/
theorem polyRow_lin (v : Fin 128 → EReal) (n : Fin 16512) (k : Fin 128) (h : n.val = k.val) : polyRow v n = v k := by
  have hk := k.isLt
  unfold polyRow
  rw [dif_pos (by omega)]
  congr 1
  exact Fin.ext h

/-- A product entry of the expansion: entry 128 + 128·p + q is v_p · v_q. -/
theorem polyRow_prod (v : Fin 128 → EReal) (n : Fin 16512) (p q : Fin 128) (h : n.val = 128 + 128 * p.val + q.val) :
    polyRow v n = v p * v q := by
  have hp := p.isLt
  have hq := q.isLt
  unfold polyRow
  rw [dif_neg (by omega)]
  congr 2 <;> (apply Fin.ext; show _ = _; simp only []; omega)

/-- Position 128 of window i is entry 129·i + 128 = 128 + 128·i + i: the square v_i · v_i, which the clamp keeps. -/
theorem featRow_last (v : Fin 128 → EReal) (i : Fin 128) : featRow v i (Fin.last 128) = v i * v i := by
  have hi := i.isLt
  unfold featRow
  rw [polyRow_prod v _ i i (by simp only [Fin.val_last]; omega)]
  exact max_eq_left (mul_self_nonneg_ereal (v i))

/-- Position k < 128 of window i is entry 129·i + k.  For i = 0 it is the first-degree entry k.  For i ≥ 1,
    129·i + k - 128 = 128·(i-1) + (i+k): for i + k < 128 that is column i+k of products row i-1, and otherwise
    128·i + (i+k-128), column k-(128-i) of products row i. -/
theorem featRow_castSucc (v : Fin 128 → EReal) (i k : Fin 128) : featRow v i k.castSucc = winRow v i k := by
  have hi := i.isLt
  have hk := k.isLt
  unfold featRow winRow
  split_ifs with h0 h1
  · rw [polyRow_lin v _ k (by simp only [Fin.coe_castSucc]; omega)]
  · rw [polyRow_prod v _ ⟨i.val - 1, by omega⟩ ⟨i.val + k.val, by omega⟩ (by simp only [Fin.coe_castSucc]; omega)]
  · rw [polyRow_prod v _ i ⟨k.val - (128 - i.val), by omega⟩ (by simp only [Fin.coe_castSucc]; omega)]

/-- The two arrangements of a window's contraction agree, for every row of extended reals. -/
theorem yRowK_eq_yRowR (v : Fin 128 → EReal) (w : Fin 128 → Fin 129 → EReal) (fb : Fin 128 → EReal) (i o : Fin 128) :
    yRowK v w fb i o = yRowR v w fb i o := by
  unfold yRowK yRowR
  rw [Fin.sum_univ_castSucc (fun k : Fin 129 => featRow v i k * w o k), featRow_last]
  simp only [featRow_castSucc]

theorem yK_eq_yR (xn : Fin 4096 → Fin 128 → EReal) (w : Fin 128 → Fin 129 → EReal) (fb : Fin 128 → EReal) :
    yK xn w fb = yR xn w fb := by
  funext r i o
  exact yRowK_eq_yRowR (xn r) w fb i o

/-- Every entry of the clamped expansion of a row of reals is a real. -/
theorem IsR.featRow {v : Fin 128 → EReal} (hv : ∀ k, IsR (v k)) (i : Fin 128) (k : Fin 129) : IsR (featRow v i k) := by
  unfold Cert.Poly.featRow polyRow
  split_ifs
  · exact (hv _).max IsR.zero
  · exact ((hv _).mul (hv _)).max IsR.zero

/-- A window's contraction of a row of reals with real weights and a real bias is a real. -/
theorem IsR.yRowR {v : Fin 128 → EReal} {w : Fin 128 → Fin 129 → EReal} {fb : Fin 128 → EReal}
    (hv : ∀ k, IsR (v k)) (hw : ∀ o k, IsR (w o k)) (hfb : ∀ o, IsR (fb o)) (i o : Fin 128) :
    IsR (yRowR v w fb i o) := by
  unfold Cert.Poly.yRowR
  exact (IsR.sum _ (fun k => (IsR.featRow hv i k).mul (hw o k))).add (hfb o)

end Cert.Poly

end
-- ==== Proof.AlgTiles.lean ====
/-
  The tile-by-tile total is the total over all rows.

  Batch row 64·t + b is row b of tile t, and (t, b) ↦ 64·t + b is a bijection of 64 × 64 pairs with the 4096 rows.
  Exchanging the sum over a tile's rows with the sum over windows, and re-indexing, turns the sum over tiles of the
  tile totals into the sum over rows of the row totals.
-/
import proofs.«138108_j2860448219241_2_alg».proof.Proof.Spec

noncomputable section

open scoped BigOperators

namespace Cert.Poly

open Idealize.ShloMosaic

/-- Row b of tile t is batch row 64·t + b: the pairs (t, b) number the 4096 batch rows once each. -/
def rowEquiv : Fin 64 × Fin 64 ≃ Fin 4096 where
  toFun p := rowOf p.1 p.2
  invFun r := (⟨r.val / 64, by have := r.isLt; omega⟩, ⟨r.val % 64, Nat.mod_lt _ (by norm_num)⟩)
  left_inv p := by
    obtain ⟨t, b⟩ := p
    have ht := t.isLt
    have hb := b.isLt
    refine Prod.ext (Fin.ext ?_) (Fin.ext ?_)
    · show (64 * t.val + b.val) / 64 = t.val
      omega
    · show (64 * t.val + b.val) % 64 = b.val
      omega
  right_inv r := by
    apply Fin.ext
    show 64 * (r.val / 64) + r.val % 64 = r.val
    omega

/-- The tile-by-tile total is the total over all (row, window) pairs, rows outermost. -/
theorem sumT_eq (f : Fin 4096 → Fin 128 → EReal) : sumT f = ∑ r, ∑ i, f r i := by
  unfold sumT tileSum
  calc ∑ t : Fin 64, ∑ i : Fin 128, ∑ b : Fin 64, f (rowOf t b) i
      = ∑ t : Fin 64, ∑ b : Fin 64, ∑ i : Fin 128, f (rowOf t b) i :=
        Finset.sum_congr rfl (fun t _ => Finset.sum_comm)
    _ = ∑ p : Fin 64 × Fin 64, ∑ i : Fin 128, f (rowOf p.1 p.2) i :=
        (Fintype.sum_prod_type' (fun t b => ∑ i : Fin 128, f (rowOf t b) i)).symm
    _ = ∑ r, ∑ i, f r i := Fintype.sum_equiv rowEquiv _ _ (fun p => rfl)

end Cert.Poly

end
-- ==== Proof.AlgSecond.lean ====
/-
  The second normalisation on reals.

  For a real-valued y the channel mean is a real m, the same whether the total is taken tile by tile or row by row.
  The mean of the squares minus m² and the mean of the squared deviations from m are the same real (the two forms
  of a variance of 524288 numbers), not negative; adding the positive offset gives a positive real, where the two
  arrangements of a normalised entry agree.
-/
import proofs.«138108_j2860448219241_2_alg».proof.Proof.Spec
import proofs.«138108_j2860448219241_2_alg».proof.Proof.AlgReal
import proofs.«138108_j2860448219241_2_alg».proof.Proof.AlgNorm
import proofs.«138108_j2860448219241_2_alg».proof.Proof.AlgTiles

noncomputable section

open scoped BigOperators

namespace Cert.Poly

open Idealize.ShloMosaic

/-- A total over all (row, window) pairs as one sum over the pairs. -/
theorem dsum_eq (F : Fin 4096 → Fin 128 → EReal) :
    ∑ r, ∑ i, F r i = ∑ p : Fin 4096 × Fin 128, F p.1 p.2 := (Fintype.sum_prod_type' F).symm

/-- There are 524288 (row, window) pairs. -/
theorem card_pairs : (Fintype.card (Fin 4096 × Fin 128) : ℝ) = 524288 := by
  rw [Fintype.card_prod, Fintype.card_fin, Fintype.card_fin]
  norm_num

/-- The tile-by-tile channel mean is the channel mean. -/
theorem mu2K_eq_mu2R (y : Fin 4096 → Fin 128 → Fin 128 → EReal) (o : Fin 128) : mu2K y o = mu2R y o := by
  unfold mu2K mu2R
  rw [sumT_eq]

section

variable (y : Fin 4096 → Fin 128 → Fin 128 → ℝ) (o : Fin 128)

/-- The channel mean of reals, as a real. -/
def m2 : ℝ := (∑ p : Fin 4096 × Fin 128, y p.1 p.2 o) / 524288

/-- The channel variance of reals, as a real: the mean of the squared deviations. -/
def v2 : ℝ := (∑ p : Fin 4096 × Fin 128, (y p.1 p.2 o - m2 y o) * (y p.1 p.2 o - m2 y o)) / 524288

theorem mu2R_coe : mu2R (fun r i o => ((y r i o : ℝ) : EReal)) o = ((m2 y o : ℝ) : EReal) := by
  unfold mu2R
  rw [nBD_eq, dsum_eq (fun r i => ((y r i o : ℝ) : EReal))]
  exact div_sum_coe (fun p : Fin 4096 × Fin 128 => y p.1 p.2 o) (by norm_num)

theorem var2R_coe : var2R (fun r i o => ((y r i o : ℝ) : EReal)) o = ((v2 y o : ℝ) : EReal) := by
  unfold var2R
  rw [mu2R_coe, nBD_eq,
    dsum_eq (fun r i => (((y r i o : ℝ) : EReal) - ((m2 y o : ℝ) : EReal)) * (((y r i o : ℝ) : EReal) - ((m2 y o : ℝ) : EReal)))]
  exact div_sum_sqdev_coe (fun p : Fin 4096 × Fin 128 => y p.1 p.2 o) (m2 y o) (by norm_num)

/-- On reals the mean of the squares minus the squared mean, totals taken tile by tile, is the mean of the squared
    deviations. -/
theorem var2K_eq_var2R :
    var2K (fun r i o => ((y r i o : ℝ) : EReal)) o = var2R (fun r i o => ((y r i o : ℝ) : EReal)) o := by
  rw [var2R_coe]
  unfold var2K
  rw [mu2K_eq_mu2R, mu2R_coe, sumT_eq, nBD_eq,
    dsum_eq (fun r i => ((y r i o : ℝ) : EReal) * ((y r i o : ℝ) : EReal))]
  rw [div_sum_sq_sub_coe (fun p : Fin 4096 × Fin 128 => y p.1 p.2 o) (m2 y o) (by norm_num)]
  congr 1
  exact var_two_forms (fun p : Fin 4096 × Fin 128 => y p.1 p.2 o) (by norm_num) card_pairs

/-- The channel variance of reals plus the offset is a positive real. -/
theorem var2R_add_eps : ∃ s : ℝ, 0 < s ∧ var2R (fun r i o => ((y r i o : ℝ) : EReal)) o + eps = (s : EReal) := by
  obtain ⟨e, he, hE⟩ := eps_pos
  rw [var2R_coe, hE, ← EReal.coe_add]
  exact ⟨_, add_pos_of_nonneg_of_pos
    (sqdev_nonneg (fun p : Fin 4096 × Fin 128 => y p.1 p.2 o) (m2 y o) (by norm_num)) he, rfl⟩

end

/-- On reals the two arrangements of the second normalisation agree. -/
theorem outK_eq_outR (y : Fin 4096 → Fin 128 → Fin 128 → ℝ) (g2 b2 : Fin 128 → EReal) :
    outK (fun r i o => ((y r i o : ℝ) : EReal)) g2 b2 = outR (fun r i o => ((y r i o : ℝ) : EReal)) g2 b2 := by
  funext r i o
  obtain ⟨s, hs, hv⟩ := var2R_add_eps y o
  unfold outK outR
  rw [mu2K_eq_mu2R, var2K_eq_var2R]
  exact normK_eq_normR _ _ _ _ _ hs hv

end Cert.Poly

end
-- ==== Proof.Algebra.lean ====
/-
  The kernel's arrangement and the reference's arrangement of the polynomial-feature module are the same function
  of real inputs.

  On a batch of reals the two first normalisations agree and give reals.  The two contractions of a window agree for
  every row, so both arrangements produce the same y, and y is real-valued.  On a real-valued y the two second
  normalisations agree.
-/
import proofs.«138108_j2860448219241_2_alg».proof.Proof.Spec
import proofs.«138108_j2860448219241_2_alg».proof.Proof.AlgReal
import proofs.«138108_j2860448219241_2_alg».proof.Proof.AlgNorm
import proofs.«138108_j2860448219241_2_alg».proof.Proof.AlgWindow
import proofs.«138108_j2860448219241_2_alg».proof.Proof.AlgSecond

noncomputable section

open scoped BigOperators

namespace Cert.Poly

open Idealize.ShloMosaic

/-- The kernel's arrangement and the reference's arrangement are the same function of a batch of reals, real scales
    and shifts, real weights and a real bias. -/
theorem resultK_eq_resultR (x : Fin 4096 → Fin 128 → ℝ) (g1 b1 : Fin 128 → ℝ) (w : Fin 128 → Fin 129 → ℝ) (fb g2 b2 : Fin 128 → ℝ) :
    resultK (fun r j => ((x r j : ℝ) : EReal)) (fun j => ((g1 j : ℝ) : EReal)) (fun j => ((b1 j : ℝ) : EReal)) (fun o k => ((w o k : ℝ) : EReal))
        (fun o => ((fb o : ℝ) : EReal)) (fun o => ((g2 o : ℝ) : EReal)) (fun o => ((b2 o : ℝ) : EReal))
      = resultR (fun r j => ((x r j : ℝ) : EReal)) (fun j => ((g1 j : ℝ) : EReal)) (fun j => ((b1 j : ℝ) : EReal)) (fun o k => ((w o k : ℝ) : EReal))
        (fun o => ((fb o : ℝ) : EReal)) (fun o => ((g2 o : ℝ) : EReal)) (fun o => ((b2 o : ℝ) : EReal)) := by
  unfold resultK resultR
  rw [xnK_eq_xnR, yK_eq_yR]
  have hy : ∀ r i o, IsR (yR (xnR (fun r j => ((x r j : ℝ) : EReal)) (fun j => ((g1 j : ℝ) : EReal))
      (fun j => ((b1 j : ℝ) : EReal))) (fun o k => ((w o k : ℝ) : EReal)) (fun o => ((fb o : ℝ) : EReal)) r i o) :=
    fun r i o => IsR.yRowR (fun k => IsR.xnR x g1 b1 r k) (fun o k => IsR.coe _) (fun o => IsR.coe _) i o
  choose y' hy' using hy
  have hfun : yR (xnR (fun r j => ((x r j : ℝ) : EReal)) (fun j => ((g1 j : ℝ) : EReal))
      (fun j => ((b1 j : ℝ) : EReal))) (fun o k => ((w o k : ℝ) : EReal)) (fun o => ((fb o : ℝ) : EReal))
      = fun r i o => ((y' r i o : ℝ) : EReal) := by
    funext r i o
    exact hy' r i o
  rw [hfun]
  exact outK_eq_outR y' _ _

end Cert.Poly

end
-- ==== Proof.RefOps.lean ====
import proofs.«138108_j2860448219241_2_alg».proof.ReferenceIdeal
import Idealize.ShloMosaic.Lib.StableHlo.Run

/-! # The reference's @main as a list of host operations

@main of the reference is a straight line of StableHLO operations and four calls (the batch variance `@_var`, the
clamp `@relu`, the per-channel variance `@_var_0`; each variance ends in a call of `@_where`). Unfolding every call at
its site — the callee's operations over that call's own buffers — leaves 103 operations, listed here in seven
consecutive stretches: the batch mean, the batch variance, the first normalisation, the feature windows, the linear
layer with the channel mean, the channel variance, the second normalisation. -/

noncomputable section

namespace Cert.ReferenceIdeal.RefValue

open Cert.ReferenceIdeal Idealize.ShloMosaic Idealize.ShloMosaic.TcCoe Idealize.SL.Sem Idealize.ShloMosaic.StableHlo
open Cert.ReferenceIdeal.Facts₀ Cert.ReferenceIdeal.Facts

variable {F : FTy → Type} [FloatOps F] [Facts]

/-- The batch mean of each of the 128 input columns (and the integer zero the variance is called with). -/
abbrev opsA : List (HloOp τ sig (Elt F)) :=
  [ nullary main_cst (constant S_ .f32 0x00000000#32),
    binary main_arg0 main_cst main_v0 ((fun x v => Host.reduceAdd x v reducesTo_S4096x128_S128_d0 h_S_) : (⟨S4096x128, .f32⟩ : BufTy).Contents (Elt F) → (⟨S_, .f32⟩ : BufTy).Contents (Elt F) → (⟨S128, .f32⟩ : BufTy).Contents (Elt F)),
    nullary main_cst_0 (constant S_ .f32 0x45800000#32),
    unary main_cst_0 main_v1 (broadcastInDim S128 ![] bcast_S_S128 : (⟨S_, .f32⟩ : BufTy).Contents (Elt F) → (⟨S128, .f32⟩ : BufTy).Contents (Elt F)),
    binary main_v0 main_v1 main_v2 (Host.divf : (⟨S128, .f32⟩ : BufTy).Contents (Elt F) → (⟨S128, .f32⟩ : BufTy).Contents (Elt F) → (⟨S128, .f32⟩ : BufTy).Contents (Elt F)),
    nullary main_c (constantI S_ 32 0#32) ]

/-- The batch variance: `@_var` on the input and the integer zero, ending in `@_where`; its result is `%3`. -/
abbrev opsB : List (HloOp τ sig (Elt F)) :=
  [ TRef.nullary main_call0.cst (constant S_ .f32 0x00000000#32),
    TRef.binary (.of main_arg0 : TRef sig ⟨S4096x128, .f32⟩) main_call0.cst main_call0.v0 (fun x v => Host.reduceAdd x v reducesTo_S4096x128_S128_d0 h_S_),
    TRef.unary main_call0.v0 main_call0.v1 (broadcastInDim S1x128 ![1] bcast_S128_S1x128_1),
    TRef.nullary main_call0.cst_0 (constant S_ .f32 0x45800000#32),
    TRef.unary main_call0.cst_0 main_call0.v2 (broadcastInDim S1x128 ![] bcast_S_S1x128),
    TRef.binary main_call0.v1 main_call0.v2 main_call0.v3 Host.divf,
    TRef.unary main_call0.v3 main_call0.v4 (broadcastInDim S4096x128 ![0, 1] bcast_S1x128_S4096x128_0_1),
    TRef.binary (.of main_arg0 : TRef sig ⟨S4096x128, .f32⟩) main_call0.v4 main_call0.v5 subf,
    TRef.binary main_call0.v5 main_call0.v5 main_call0.v6 mulf,
    TRef.unary (.of main_c : TRef sig ⟨S_, .i32⟩) main_call0.v7 (sitofp .f32),
    TRef.nullary main_call0.cst_1 (constant S_ .f32 0x45800000#32),
    TRef.binary main_call0.cst_1 main_call0.v7 main_call0.v8 subf,
    TRef.nullary main_call0.cst_2 (constant S_ .f32 0x00000000#32),
    TRef.binary main_call0.v6 main_call0.cst_2 main_call0.v9 (fun x v => Host.reduceAdd x v reducesTo_S4096x128_S128_d0 h_S_),
    TRef.unary main_call0.v8 main_call0.v10 (broadcastInDim S128 ![] bcast_S_S128),
    TRef.binary main_call0.v9 main_call0.v10 main_call0.v11 Host.divf,
    TRef.nullary main_call0.cst_3 (constant S_ .f32 0x00000000#32),
    TRef.binary main_call0.v8 main_call0.cst_3 main_call0.v12 (cmpf .ogt),
    TRef.nullary main_call0.cst_4 (constant S_ .f32 0x7FC00000#32),
    TRef.unary main_call0.cst_4 main_call0.call0.v0 id,
    TRef.unary main_call0.call0.v0 main_call0.call0.v1 (broadcastInDim S128 ![] bcast_S_S128),
    TRef.ternary main_call0.v12 main_call0.v11 main_call0.call0.v1 main_call0.call0.v2 (fun p a b => select (broadcastInDim S128 ![] bcast_S_S128 p) a b) ]

/-- The first normalisation: the input minus its batch mean, over the root of the variance plus 1e-5, scaled and shifted: `%18`. -/
abbrev opsC : List (HloOp τ sig (Elt F)) :=
  [ unary main_v2 main_v4 (broadcastInDim S1x128 ![1] bcast_S128_S1x128_1 : (⟨S128, .f32⟩ : BufTy).Contents (Elt F) → (⟨S1x128, .f32⟩ : BufTy).Contents (Elt F)),
    unary main_v4 main_v5 (broadcastInDim S4096x128 ![0, 1] bcast_S1x128_S4096x128_0_1 : (⟨S1x128, .f32⟩ : BufTy).Contents (Elt F) → (⟨S4096x128, .f32⟩ : BufTy).Contents (Elt F)),
    binary main_arg0 main_v5 main_v6 (subf : (⟨S4096x128, .f32⟩ : BufTy).Contents (Elt F) → (⟨S4096x128, .f32⟩ : BufTy).Contents (Elt F) → (⟨S4096x128, .f32⟩ : BufTy).Contents (Elt F)),
    nullary main_cst_1 (constant S_ .f32 0x3727C5AC#32),
    unary main_cst_1 main_v7 (broadcastInDim S128 ![] bcast_S_S128 : (⟨S_, .f32⟩ : BufTy).Contents (Elt F) → (⟨S128, .f32⟩ : BufTy).Contents (Elt F)),
    binary main_v3 main_v7 main_v8 (addf : (⟨S128, .f32⟩ : BufTy).Contents (Elt F) → (⟨S128, .f32⟩ : BufTy).Contents (Elt F) → (⟨S128, .f32⟩ : BufTy).Contents (Elt F)),
    unary main_v8 main_v9 (Host.sqrt : (⟨S128, .f32⟩ : BufTy).Contents (Elt F) → (⟨S128, .f32⟩ : BufTy).Contents (Elt F)),
    unary main_v9 main_v10 (broadcastInDim S1x128 ![1] bcast_S128_S1x128_1 : (⟨S128, .f32⟩ : BufTy).Contents (Elt F) → (⟨S1x128, .f32⟩ : BufTy).Contents (Elt F)),
    unary main_v10 main_v11 (broadcastInDim S4096x128 ![0, 1] bcast_S1x128_S4096x128_0_1 : (⟨S1x128, .f32⟩ : BufTy).Contents (Elt F) → (⟨S4096x128, .f32⟩ : BufTy).Contents (Elt F)),
    binary main_v6 main_v11 main_v12 (Host.divf : (⟨S4096x128, .f32⟩ : BufTy).Contents (Elt F) → (⟨S4096x128, .f32⟩ : BufTy).Contents (Elt F) → (⟨S4096x128, .f32⟩ : BufTy).Contents (Elt F)),
    unary main_arg1 main_v13 (broadcastInDim S1x128 ![1] bcast_S128_S1x128_1 : (⟨S128, .f32⟩ : BufTy).Contents (Elt F) → (⟨S1x128, .f32⟩ : BufTy).Contents (Elt F)),
    unary main_v13 main_v14 (broadcastInDim S4096x128 ![0, 1] bcast_S1x128_S4096x128_0_1 : (⟨S1x128, .f32⟩ : BufTy).Contents (Elt F) → (⟨S4096x128, .f32⟩ : BufTy).Contents (Elt F)),
    binary main_v12 main_v14 main_v15 (mulf : (⟨S4096x128, .f32⟩ : BufTy).Contents (Elt F) → (⟨S4096x128, .f32⟩ : BufTy).Contents (Elt F) → (⟨S4096x128, .f32⟩ : BufTy).Contents (Elt F)),
    unary main_arg2 main_v16 (broadcastInDim S1x128 ![1] bcast_S128_S1x128_1 : (⟨S128, .f32⟩ : BufTy).Contents (Elt F) → (⟨S1x128, .f32⟩ : BufTy).Contents (Elt F)),
    unary main_v16 main_v17 (broadcastInDim S4096x128 ![0, 1] bcast_S1x128_S4096x128_0_1 : (⟨S1x128, .f32⟩ : BufTy).Contents (Elt F) → (⟨S4096x128, .f32⟩ : BufTy).Contents (Elt F)),
    binary main_v15 main_v17 main_v18 (addf : (⟨S4096x128, .f32⟩ : BufTy).Contents (Elt F) → (⟨S4096x128, .f32⟩ : BufTy).Contents (Elt F) → (⟨S4096x128, .f32⟩ : BufTy).Contents (Elt F)) ]

/-- The feature windows: every row followed by all products of two of its entries, clamped at zero (`@relu`), cut into
    128 windows of 129: `%27`. -/
abbrev opsD : List (HloOp τ sig (Elt F)) :=
  [ unary main_v18 main_v19 (broadcastInDim S4096x128x1 ![0, 1] bcast_S4096x128_S4096x128x1_0_1 : (⟨S4096x128, .f32⟩ : BufTy).Contents (Elt F) → (⟨S4096x128x1, .f32⟩ : BufTy).Contents (Elt F)),
    unary main_v18 main_v20 (broadcastInDim S4096x1x128 ![0, 2] bcast_S4096x128_S4096x1x128_0_2 : (⟨S4096x128, .f32⟩ : BufTy).Contents (Elt F) → (⟨S4096x1x128, .f32⟩ : BufTy).Contents (Elt F)),
    unary main_v19 main_v21 (broadcastInDim S4096x128x128 ![0, 1, 2] bcast_S4096x128x1_S4096x128x128_0_1_2 : (⟨S4096x128x1, .f32⟩ : BufTy).Contents (Elt F) → (⟨S4096x128x128, .f32⟩ : BufTy).Contents (Elt F)),
    unary main_v20 main_v22 (broadcastInDim S4096x128x128 ![0, 1, 2] bcast_S4096x1x128_S4096x128x128_0_1_2 : (⟨S4096x1x128, .f32⟩ : BufTy).Contents (Elt F) → (⟨S4096x128x128, .f32⟩ : BufTy).Contents (Elt F)),
    binary main_v21 main_v22 main_v23 (mulf : (⟨S4096x128x128, .f32⟩ : BufTy).Contents (Elt F) → (⟨S4096x128x128, .f32⟩ : BufTy).Contents (Elt F) → (⟨S4096x128x128, .f32⟩ : BufTy).Contents (Elt F)),
    reshape main_v23 main_v24 rfl shapeCasts_S4096x128x128_S4096x16384,
    binary main_v18 main_v24 main_v25 ((fun a b => concatenate S4096x16512 1 [⟨S4096x128, a⟩, ⟨S4096x16384, b⟩] concatenates_S4096x128_S4096x16384_S4096x16512_d1) : (⟨S4096x128, .f32⟩ : BufTy).Contents (Elt F) → (⟨S4096x16384, .f32⟩ : BufTy).Contents (Elt F) → (⟨S4096x16512, .f32⟩ : BufTy).Contents (Elt F)),
    TRef.nullary main_call1.cst (constant S_ .f32 0x00000000#32),
    TRef.unary main_call1.cst main_call1.v0 (broadcastInDim S4096x16512 ![] bcast_S_S4096x16512),
    TRef.binary (.of main_v25 : TRef sig ⟨S4096x16512, .f32⟩) main_call1.v0 main_call1.v1 maximumf,
    reshape main_v26 main_v27 rfl shapeCasts_S4096x16512_S4096x128x129 ]

/-- The linear layer — every window contracted with every weight row, plus the bias: `%31` — and the mean of each output
    channel over all (row, window) pairs: `%34` (and the integer zero the variance is called with). -/
abbrev opsE : List (HloOp τ sig (Elt F)) :=
  [ binary main_v27 main_arg3 main_v28 ((fun l r => Host.dotGeneral dot_S4096x128x129_S128x129_S4096x128x128_2_1_01_0_n_n none l r) : (⟨S4096x128x129, .f32⟩ : BufTy).Contents (Elt F) → (⟨S128x129, .f32⟩ : BufTy).Contents (Elt F) → (⟨S4096x128x128, .f32⟩ : BufTy).Contents (Elt F)),
    unary main_arg4 main_v29 (broadcastInDim S1x1x128 ![2] bcast_S128_S1x1x128_2 : (⟨S128, .f32⟩ : BufTy).Contents (Elt F) → (⟨S1x1x128, .f32⟩ : BufTy).Contents (Elt F)),
    unary main_v29 main_v30 (broadcastInDim S4096x128x128 ![0, 1, 2] bcast_S1x1x128_S4096x128x128_0_1_2 : (⟨S1x1x128, .f32⟩ : BufTy).Contents (Elt F) → (⟨S4096x128x128, .f32⟩ : BufTy).Contents (Elt F)),
    binary main_v28 main_v30 main_v31 (addf : (⟨S4096x128x128, .f32⟩ : BufTy).Contents (Elt F) → (⟨S4096x128x128, .f32⟩ : BufTy).Contents (Elt F) → (⟨S4096x128x128, .f32⟩ : BufTy).Contents (Elt F)),
    nullary main_cst_2 (constant S_ .f32 0x00000000#32),
    binary main_v31 main_cst_2 main_v32 ((fun x v => Host.reduceAdd x v reducesTo_S4096x128x128_S128_d0_1 h_S_) : (⟨S4096x128x128, .f32⟩ : BufTy).Contents (Elt F) → (⟨S_, .f32⟩ : BufTy).Contents (Elt F) → (⟨S128, .f32⟩ : BufTy).Contents (Elt F)),
    nullary main_cst_3 (constant S_ .f32 0x49000000#32),
    unary main_cst_3 main_v33 (broadcastInDim S128 ![] bcast_S_S128 : (⟨S_, .f32⟩ : BufTy).Contents (Elt F) → (⟨S128, .f32⟩ : BufTy).Contents (Elt F)),
    binary main_v32 main_v33 main_v34 (Host.divf : (⟨S128, .f32⟩ : BufTy).Contents (Elt F) → (⟨S128, .f32⟩ : BufTy).Contents (Elt F) → (⟨S128, .f32⟩ : BufTy).Contents (Elt F)),
    nullary main_c_4 (constantI S_ 32 0#32) ]

/-- The channel variance: `@_var_0` on the linear layer's output and the integer zero, ending in `@_where`; its result is `%35`. -/
abbrev opsG : List (HloOp τ sig (Elt F)) :=
  [ TRef.nullary main_call2.cst (constant S_ .f32 0x00000000#32),
    TRef.binary (.of main_v31 : TRef sig ⟨S4096x128x128, .f32⟩) main_call2.cst main_call2.v0 (fun x v => Host.reduceAdd x v reducesTo_S4096x128x128_S128_d0_1 h_S_),
    TRef.unary main_call2.v0 main_call2.v1 (broadcastInDim S1x1x128 ![2] bcast_S128_S1x1x128_2),
    TRef.nullary main_call2.cst_0 (constant S_ .f32 0x49000000#32),
    TRef.unary main_call2.cst_0 main_call2.v2 (broadcastInDim S1x1x128 ![] bcast_S_S1x1x128),
    TRef.binary main_call2.v1 main_call2.v2 main_call2.v3 Host.divf,
    TRef.unary main_call2.v3 main_call2.v4 (broadcastInDim S4096x128x128 ![0, 1, 2] bcast_S1x1x128_S4096x128x128_0_1_2),
    TRef.binary (.of main_v31 : TRef sig ⟨S4096x128x128, .f32⟩) main_call2.v4 main_call2.v5 subf,
    TRef.binary main_call2.v5 main_call2.v5 main_call2.v6 mulf,
    TRef.unary (.of main_c_4 : TRef sig ⟨S_, .i32⟩) main_call2.v7 (sitofp .f32),
    TRef.nullary main_call2.cst_1 (constant S_ .f32 0x49000000#32),
    TRef.binary main_call2.cst_1 main_call2.v7 main_call2.v8 subf,
    TRef.nullary main_call2.cst_2 (constant S_ .f32 0x00000000#32),
    TRef.binary main_call2.v6 main_call2.cst_2 main_call2.v9 (fun x v => Host.reduceAdd x v reducesTo_S4096x128x128_S128_d0_1 h_S_),
    TRef.unary main_call2.v8 main_call2.v10 (broadcastInDim S128 ![] bcast_S_S128),
    TRef.binary main_call2.v9 main_call2.v10 main_call2.v11 Host.divf,
    TRef.nullary main_call2.cst_3 (constant S_ .f32 0x00000000#32),
    TRef.binary main_call2.v8 main_call2.cst_3 main_call2.v12 (cmpf .ogt),
    TRef.nullary main_call2.cst_4 (constant S_ .f32 0x7FC00000#32),
    TRef.unary main_call2.cst_4 main_call2.call0.v0 id,
    TRef.unary main_call2.call0.v0 main_call2.call0.v1 (broadcastInDim S128 ![] bcast_S_S128),
    TRef.ternary main_call2.v12 main_call2.v11 main_call2.call0.v1 main_call2.call0.v2 (fun p a b => select (broadcastInDim S128 ![] bcast_S_S128 p) a b) ]

/-- The second normalisation: the layer's output minus its channel mean, over the root of the channel variance plus 1e-5,
    scaled and shifted: `%50`, the result. -/
abbrev opsH : List (HloOp τ sig (Elt F)) :=
  [ unary main_v34 main_v36 (broadcastInDim S1x1x128 ![2] bcast_S128_S1x1x128_2 : (⟨S128, .f32⟩ : BufTy).Contents (Elt F) → (⟨S1x1x128, .f32⟩ : BufTy).Contents (Elt F)),
    unary main_v36 main_v37 (broadcastInDim S4096x128x128 ![0, 1, 2] bcast_S1x1x128_S4096x128x128_0_1_2 : (⟨S1x1x128, .f32⟩ : BufTy).Contents (Elt F) → (⟨S4096x128x128, .f32⟩ : BufTy).Contents (Elt F)),
    binary main_v31 main_v37 main_v38 (subf : (⟨S4096x128x128, .f32⟩ : BufTy).Contents (Elt F) → (⟨S4096x128x128, .f32⟩ : BufTy).Contents (Elt F) → (⟨S4096x128x128, .f32⟩ : BufTy).Contents (Elt F)),
    nullary main_cst_5 (constant S_ .f32 0x3727C5AC#32),
    unary main_cst_5 main_v39 (broadcastInDim S128 ![] bcast_S_S128 : (⟨S_, .f32⟩ : BufTy).Contents (Elt F) → (⟨S128, .f32⟩ : BufTy).Contents (Elt F)),
    binary main_v35 main_v39 main_v40 (addf : (⟨S128, .f32⟩ : BufTy).Contents (Elt F) → (⟨S128, .f32⟩ : BufTy).Contents (Elt F) → (⟨S128, .f32⟩ : BufTy).Contents (Elt F)),
    unary main_v40 main_v41 (Host.sqrt : (⟨S128, .f32⟩ : BufTy).Contents (Elt F) → (⟨S128, .f32⟩ : BufTy).Contents (Elt F)),
    unary main_v41 main_v42 (broadcastInDim S1x1x128 ![2] bcast_S128_S1x1x128_2 : (⟨S128, .f32⟩ : BufTy).Contents (Elt F) → (⟨S1x1x128, .f32⟩ : BufTy).Contents (Elt F)),
    unary main_v42 main_v43 (broadcastInDim S4096x128x128 ![0, 1, 2] bcast_S1x1x128_S4096x128x128_0_1_2 : (⟨S1x1x128, .f32⟩ : BufTy).Contents (Elt F) → (⟨S4096x128x128, .f32⟩ : BufTy).Contents (Elt F)),
    binary main_v38 main_v43 main_v44 (Host.divf : (⟨S4096x128x128, .f32⟩ : BufTy).Contents (Elt F) → (⟨S4096x128x128, .f32⟩ : BufTy).Contents (Elt F) → (⟨S4096x128x128, .f32⟩ : BufTy).Contents (Elt F)),
    unary main_arg5 main_v45 (broadcastInDim S1x1x128 ![2] bcast_S128_S1x1x128_2 : (⟨S128, .f32⟩ : BufTy).Contents (Elt F) → (⟨S1x1x128, .f32⟩ : BufTy).Contents (Elt F)),
    unary main_v45 main_v46 (broadcastInDim S4096x128x128 ![0, 1, 2] bcast_S1x1x128_S4096x128x128_0_1_2 : (⟨S1x1x128, .f32⟩ : BufTy).Contents (Elt F) → (⟨S4096x128x128, .f32⟩ : BufTy).Contents (Elt F)),
    binary main_v44 main_v46 main_v47 (mulf : (⟨S4096x128x128, .f32⟩ : BufTy).Contents (Elt F) → (⟨S4096x128x128, .f32⟩ : BufTy).Contents (Elt F) → (⟨S4096x128x128, .f32⟩ : BufTy).Contents (Elt F)),
    unary main_arg6 main_v48 (broadcastInDim S1x1x128 ![2] bcast_S128_S1x1x128_2 : (⟨S128, .f32⟩ : BufTy).Contents (Elt F) → (⟨S1x1x128, .f32⟩ : BufTy).Contents (Elt F)),
    unary main_v48 main_v49 (broadcastInDim S4096x128x128 ![0, 1, 2] bcast_S1x1x128_S4096x128x128_0_1_2 : (⟨S1x1x128, .f32⟩ : BufTy).Contents (Elt F) → (⟨S4096x128x128, .f32⟩ : BufTy).Contents (Elt F)),
    binary main_v47 main_v49 main_v50 (addf : (⟨S4096x128x128, .f32⟩ : BufTy).Contents (Elt F) → (⟨S4096x128x128, .f32⟩ : BufTy).Contents (Elt F) → (⟨S4096x128x128, .f32⟩ : BufTy).Contents (Elt F)) ]

/-- @main's 103 operations, in order. -/
abbrev ops : List (HloOp τ sig (Elt F)) := opsA ++ (opsB ++ (opsC ++ (opsD ++ (opsE ++ (opsG ++ opsH)))))

-- one hundred and three binds re-associated: the rewrite under the chain recurses once per statement
set_option maxRecDepth 65536 in
set_option maxHeartbeats 1000000 in
/-- @main is that straight line: the functions' definitions unfolded at their calls and the records at their fields, both
    sides are one chain of `hlo` steps once sequencing is reassociated. -/
theorem main_eq (c : Dev nD) : main (F := F) c = seq ops := rfl

theorem scopedRefs_eq : (Finset.univ.filter fun b : Ref sig .tc => b.isScoped) = ∅ := by decide
theorem scopedSems_eq : (Finset.univ.filter fun sm : SemLoc sig => sm.isScoped .tc) = ∅ := by decide

theorem opsA_sub : (opsA : List (HloOp τ sig (Elt F))).Forall fun op => op.bufs ⊆ tcRefs τ sig :=
  ⟨nullary_bufs_sub .., binary_bufs_sub .., nullary_bufs_sub .., unary_bufs_sub .., binary_bufs_sub .., nullary_bufs_sub ..⟩
theorem opsB_sub : (opsB : List (HloOp τ sig (Elt F))).Forall fun op => op.bufs ⊆ tcRefs τ sig :=
  ⟨nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub ..⟩
theorem opsC_sub : (opsC : List (HloOp τ sig (Elt F))).Forall fun op => op.bufs ⊆ tcRefs τ sig :=
  ⟨unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub ..⟩
theorem opsD_sub : (opsD : List (HloOp τ sig (Elt F))).Forall fun op => op.bufs ⊆ tcRefs τ sig :=
  ⟨unary_bufs_sub .., unary_bufs_sub .., unary_bufs_sub .., unary_bufs_sub .., binary_bufs_sub .., reshape_bufs_sub .., binary_bufs_sub .., nullary_bufs_sub .., unary_bufs_sub .., binary_bufs_sub .., reshape_bufs_sub ..⟩
theorem opsE_sub : (opsE : List (HloOp τ sig (Elt F))).Forall fun op => op.bufs ⊆ tcRefs τ sig :=
  ⟨binary_bufs_sub .., unary_bufs_sub .., unary_bufs_sub .., binary_bufs_sub .., nullary_bufs_sub .., binary_bufs_sub .., nullary_bufs_sub .., unary_bufs_sub .., binary_bufs_sub .., nullary_bufs_sub ..⟩
theorem opsG_sub : (opsG : List (HloOp τ sig (Elt F))).Forall fun op => op.bufs ⊆ tcRefs τ sig :=
  ⟨nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub ..⟩
theorem opsH_sub : (opsH : List (HloOp τ sig (Elt F))).Forall fun op => op.bufs ⊆ tcRefs τ sig :=
  ⟨unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub ..⟩

/-- Every operation touches TensorCore references only. -/
theorem ops_sub : (ops : List (HloOp τ sig (Elt F))).Forall fun op => op.bufs ⊆ tcRefs τ sig :=
  List.forall_append.mpr ⟨opsA_sub, List.forall_append.mpr ⟨opsB_sub, List.forall_append.mpr ⟨opsC_sub,
    List.forall_append.mpr ⟨opsD_sub, List.forall_append.mpr ⟨opsE_sub, List.forall_append.mpr ⟨opsG_sub, opsH_sub⟩⟩⟩⟩⟩⟩

/-- On every device, for any float values, from any memory with zero counters: every weakly fair execution of @main
    terminates, and every final state has each TensorCore buffer at the operations' fold over the launch contents. -/
theorem run_all (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Cert.ReferenceIdeal.RefValue

end
-- ==== Proof.RefKeep.lean ====
import proofs.«138108_j2860448219241_2_alg».proof.Proof.RefOps

/-! # What the reference's operations leave alone

Each of the seven stretches of @main's operations writes the buffers listed here and no other, so every other buffer
keeps its contents through the stretch; a buffer none of them writes — each of the seven arguments — holds at the end
what it held at the start. -/

noncomputable section

namespace Cert.ReferenceIdeal.RefValue

open Cert.ReferenceIdeal Idealize.ShloMosaic Idealize.ShloMosaic.TcCoe Idealize.SL.Sem Idealize.ShloMosaic.StableHlo
open Cert.ReferenceIdeal.Facts₀ Cert.ReferenceIdeal.Facts

variable {F : FTy → Type} [FloatOps F] [Facts]

/-- Two lines of operations run one after the other: the second from what the first leaves. -/
theorem after_app : ∀ (l₁ l₂ : List (HloOp τ sig (Elt F))) (V : Valuation τ sig (Elt F)),
    after (l₁ ++ l₂) V = after l₂ (after l₁ V)
  | [], _, _ => rfl
  | op :: l₁, l₂, V => by rw [List.cons_append, after_cons, after_cons, after_app l₁ l₂]

/-! ## What each stretch writes -/

/-- One operation's result buffer is in the list: the builder's `writes` is that one buffer. -/
local macro "one_write" : tactic =>
  `(tactic| (simp only [nullary_writes, unary_writes, binary_writes, ternary_writes, reshape_writes,
      Finset.singleton_subset_iff, List.mem_toFinset]; exact List.mem_map_of_mem (by decide)))

abbrev opsA_W : List (Ref sig .tc) := [main_cst, main_v0, main_cst_0, main_v1, main_v2, main_c]
abbrev opsB_W : List (Ref sig .tc) :=
  [main_call0_cst, main_call0_v0, main_call0_v1, main_call0_cst_0, main_call0_v2, main_call0_v3, main_call0_v4, main_call0_v5,
   main_call0_v6, main_call0_v7, main_call0_cst_1, main_call0_v8, main_call0_cst_2, main_call0_v9, main_call0_v10, main_call0_v11,
   main_call0_cst_3, main_call0_v12, main_call0_cst_4, main_call0_call0_v0, main_call0_call0_v1, main_v3]
abbrev opsC_W : List (Ref sig .tc) :=
  [main_v4, main_v5, main_v6, main_cst_1, main_v7, main_v8, main_v9, main_v10, main_v11, main_v12, main_v13, main_v14, main_v15,
   main_v16, main_v17, main_v18]
abbrev opsD_W : List (Ref sig .tc) :=
  [main_v19, main_v20, main_v21, main_v22, main_v23, main_v24, main_v25, main_call1_cst, main_call1_v0, main_v26, main_v27]
abbrev opsE_W : List (Ref sig .tc) :=
  [main_v28, main_v29, main_v30, main_v31, main_cst_2, main_v32, main_cst_3, main_v33, main_v34, main_c_4]
abbrev opsG_W : List (Ref sig .tc) :=
  [main_call2_cst, main_call2_v0, main_call2_v1, main_call2_cst_0, main_call2_v2, main_call2_v3, main_call2_v4, main_call2_v5,
   main_call2_v6, main_call2_v7, main_call2_cst_1, main_call2_v8, main_call2_cst_2, main_call2_v9, main_call2_v10, main_call2_v11,
   main_call2_cst_3, main_call2_v12, main_call2_cst_4, main_call2_call0_v0, main_call2_call0_v1, main_v35]
abbrev opsH_W : List (Ref sig .tc) :=
  [main_v36, main_v37, main_v38, main_cst_5, main_v39, main_v40, main_v41, main_v42, main_v43, main_v44, main_v45, main_v46, main_v47,
   main_v48, main_v49, main_v50]

theorem opsA_writes : (opsA : List (HloOp τ sig (Elt F))).Forall fun op => op.writes ⊆ (opsA_W.map (Proc.devRef (τ := τ) .tc)).toFinset := by
  simp only [List.Forall]
  repeat' apply And.intro
  all_goals one_write
theorem opsB_writes : (opsB : List (HloOp τ sig (Elt F))).Forall fun op => op.writes ⊆ (opsB_W.map (Proc.devRef (τ := τ) .tc)).toFinset := by
  simp only [List.Forall]
  repeat' apply And.intro
  all_goals one_write
theorem opsC_writes : (opsC : List (HloOp τ sig (Elt F))).Forall fun op => op.writes ⊆ (opsC_W.map (Proc.devRef (τ := τ) .tc)).toFinset := by
  simp only [List.Forall]
  repeat' apply And.intro
  all_goals one_write
theorem opsD_writes : (opsD : List (HloOp τ sig (Elt F))).Forall fun op => op.writes ⊆ (opsD_W.map (Proc.devRef (τ := τ) .tc)).toFinset := by
  simp only [List.Forall]
  repeat' apply And.intro
  all_goals one_write
theorem opsE_writes : (opsE : List (HloOp τ sig (Elt F))).Forall fun op => op.writes ⊆ (opsE_W.map (Proc.devRef (τ := τ) .tc)).toFinset := by
  simp only [List.Forall]
  repeat' apply And.intro
  all_goals one_write
theorem opsG_writes : (opsG : List (HloOp τ sig (Elt F))).Forall fun op => op.writes ⊆ (opsG_W.map (Proc.devRef (τ := τ) .tc)).toFinset := by
  simp only [List.Forall]
  repeat' apply And.intro
  all_goals one_write
theorem opsH_writes : (opsH : List (HloOp τ sig (Elt F))).Forall fun op => op.writes ⊆ (opsH_W.map (Proc.devRef (τ := τ) .tc)).toFinset := by
  simp only [List.Forall]
  repeat' apply And.intro
  all_goals one_write

/-- A buffer a stretch does not write keeps its contents through it. -/
theorem keepA (V : Valuation τ sig (Elt F)) (r : Ref sig .tc) (h : r ∉ opsA_W) :
    after opsA V (Proc.devRef .tc r) = V (Proc.devRef .tc r) := after_of_writes_sub opsA V opsA_writes h
theorem keepB (V : Valuation τ sig (Elt F)) (r : Ref sig .tc) (h : r ∉ opsB_W) :
    after opsB V (Proc.devRef .tc r) = V (Proc.devRef .tc r) := after_of_writes_sub opsB V opsB_writes h
theorem keepC (V : Valuation τ sig (Elt F)) (r : Ref sig .tc) (h : r ∉ opsC_W) :
    after opsC V (Proc.devRef .tc r) = V (Proc.devRef .tc r) := after_of_writes_sub opsC V opsC_writes h
theorem keepD (V : Valuation τ sig (Elt F)) (r : Ref sig .tc) (h : r ∉ opsD_W) :
    after opsD V (Proc.devRef .tc r) = V (Proc.devRef .tc r) := after_of_writes_sub opsD V opsD_writes h
theorem keepE (V : Valuation τ sig (Elt F)) (r : Ref sig .tc) (h : r ∉ opsE_W) :
    after opsE V (Proc.devRef .tc r) = V (Proc.devRef .tc r) := after_of_writes_sub opsE V opsE_writes h
theorem keepG (V : Valuation τ sig (Elt F)) (r : Ref sig .tc) (h : r ∉ opsG_W) :
    after opsG V (Proc.devRef .tc r) = V (Proc.devRef .tc r) := after_of_writes_sub opsG V opsG_writes h
theorem keepH (V : Valuation τ sig (Elt F)) (r : Ref sig .tc) (h : r ∉ opsH_W) :
    after opsH V (Proc.devRef .tc r) = V (Proc.devRef .tc r) := after_of_writes_sub opsH V opsH_writes h

/-- A buffer no stretch writes holds at the end what it held at the start. -/
theorem ops_old (V : Valuation τ sig (Elt F)) (r : Ref sig .tc) (hA : r ∉ opsA_W) (hB : r ∉ opsB_W) (hC : r ∉ opsC_W)
    (hD : r ∉ opsD_W) (hE : r ∉ opsE_W) (hG : r ∉ opsG_W) (hH : r ∉ opsH_W) :
    after ops V (Proc.devRef .tc r) = V (Proc.devRef .tc r) := by
  simp only [ops, after_app]
  rw [keepH _ r hH, keepG _ r hG, keepE _ r hE, keepD _ r hD, keepC _ r hC, keepB _ r hB, keepA _ r hA]

end Cert.ReferenceIdeal.RefValue

end
-- ==== Proof.RefStages.lean ====
/-
  The reference program's result as a pure function of its seven argument arrays: every operation of @main composed in
  order, the outlined functions (@_where, @_var, @relu, @_var_0) as functions of their operands applied at their call sites.
  Each stage is a definition over the stages before it, its operation spelled as the program prints it.
-/
import proofs.«138108_j2860448219241_2_alg».proof.ReferenceIdeal

noncomputable section

namespace Cert.ReferenceIdeal.RefValue

open Idealize.ShloMosaic Idealize.SL.Sem
open Cert.ReferenceIdeal Cert.ReferenceIdeal.Facts₀ Cert.ReferenceIdeal.Facts

variable {F : FTy → Type} [FloatOps F] [Facts]

/-! ## The outlined functions, as functions of their operands -/

/-- @_where: the scalar b spread over 128 entries where the (scalar) condition p fails, a where it holds. -/
def fnWhere (p : (⟨S_, .i1⟩ : BufTy).Contents (Elt F)) (a : (⟨S128, .f32⟩ : BufTy).Contents (Elt F))
    (b : (⟨S_, .f32⟩ : BufTy).Contents (Elt F)) : (⟨S128, .f32⟩ : BufTy).Contents (Elt F) :=
  select (broadcastInDim S128 ![] bcast_S_S128 p) a (broadcastInDim S128 ![] bcast_S_S128 (id b))

/-- @_var's column mean, kept over the batch axis as a [1,128] row: %3 of its body. -/
def fnVar_mean (x : (⟨S4096x128, .f32⟩ : BufTy).Contents (Elt F)) : (⟨S1x128, .f32⟩ : BufTy).Contents (Elt F) :=
  Host.divf (broadcastInDim S1x128 ![1] bcast_S128_S1x128_1 (Host.reduceAdd x (constant S_ .f32 0x00000000#32) reducesTo_S4096x128_S128_d0 h_S_))
    (broadcastInDim S1x128 ![] bcast_S_S1x128 (constant S_ .f32 0x45800000#32))

/-- @_var's squared deviations: %6 of its body. -/
def fnVar_sq (x : (⟨S4096x128, .f32⟩ : BufTy).Contents (Elt F)) : (⟨S4096x128, .f32⟩ : BufTy).Contents (Elt F) :=
  mulf (subf x (broadcastInDim S4096x128 ![0, 1] bcast_S1x128_S4096x128_0_1 (fnVar_mean x)))
    (subf x (broadcastInDim S4096x128 ![0, 1] bcast_S1x128_S4096x128_0_1 (fnVar_mean x)))

/-- @_var's divisor 4096 − convert(c): %8 of its body. -/
def fnVar_den (c : (⟨S_, .i32⟩ : BufTy).Contents (Elt F)) : (⟨S_, .f32⟩ : BufTy).Contents (Elt F) :=
  subf (constant S_ .f32 0x45800000#32) (sitofp .f32 c)

/-- @_var: the variance over the batch axis with c degrees of freedom removed. -/
def fnVar (x : (⟨S4096x128, .f32⟩ : BufTy).Contents (Elt F)) (c : (⟨S_, .i32⟩ : BufTy).Contents (Elt F)) :
    (⟨S128, .f32⟩ : BufTy).Contents (Elt F) :=
  fnWhere (cmpf .ogt (fnVar_den c) (constant S_ .f32 0x00000000#32))
    (Host.divf (Host.reduceAdd (fnVar_sq x) (constant S_ .f32 0x00000000#32) reducesTo_S4096x128_S128_d0 h_S_)
      (broadcastInDim S128 ![] bcast_S_S128 (fnVar_den c)))
    (constant S_ .f32 0x7FC00000#32)

/-- @relu: the maximum with the scalar 0 spread over the array. -/
def fnRelu (x : (⟨S4096x16512, .f32⟩ : BufTy).Contents (Elt F)) : (⟨S4096x16512, .f32⟩ : BufTy).Contents (Elt F) :=
  maximumf x (broadcastInDim S4096x16512 ![] bcast_S_S4096x16512 (constant S_ .f32 0x00000000#32))

/-- @_var_0's channel mean, kept as a [1,1,128] array: %3 of its body. -/
def fnVar0_mean (y : (⟨S4096x128x128, .f32⟩ : BufTy).Contents (Elt F)) : (⟨S1x1x128, .f32⟩ : BufTy).Contents (Elt F) :=
  Host.divf (broadcastInDim S1x1x128 ![2] bcast_S128_S1x1x128_2 (Host.reduceAdd y (constant S_ .f32 0x00000000#32) reducesTo_S4096x128x128_S128_d0_1 h_S_))
    (broadcastInDim S1x1x128 ![] bcast_S_S1x1x128 (constant S_ .f32 0x49000000#32))

/-- @_var_0's squared deviations: %6 of its body. -/
def fnVar0_sq (y : (⟨S4096x128x128, .f32⟩ : BufTy).Contents (Elt F)) : (⟨S4096x128x128, .f32⟩ : BufTy).Contents (Elt F) :=
  mulf (subf y (broadcastInDim S4096x128x128 ![0, 1, 2] bcast_S1x1x128_S4096x128x128_0_1_2 (fnVar0_mean y)))
    (subf y (broadcastInDim S4096x128x128 ![0, 1, 2] bcast_S1x1x128_S4096x128x128_0_1_2 (fnVar0_mean y)))

/-- @_var_0's divisor 524288 − convert(c): %8 of its body. -/
def fnVar0_den (c : (⟨S_, .i32⟩ : BufTy).Contents (Elt F)) : (⟨S_, .f32⟩ : BufTy).Contents (Elt F) :=
  subf (constant S_ .f32 0x49000000#32) (sitofp .f32 c)

/-- @_var_0: the variance over the (row, window) axes with c degrees of freedom removed. -/
def fnVar0 (y : (⟨S4096x128x128, .f32⟩ : BufTy).Contents (Elt F)) (c : (⟨S_, .i32⟩ : BufTy).Contents (Elt F)) :
    (⟨S128, .f32⟩ : BufTy).Contents (Elt F) :=
  fnWhere (cmpf .ogt (fnVar0_den c) (constant S_ .f32 0x00000000#32))
    (Host.divf (Host.reduceAdd (fnVar0_sq y) (constant S_ .f32 0x00000000#32) reducesTo_S4096x128x128_S128_d0_1 h_S_)
      (broadcastInDim S128 ![] bcast_S_S128 (fnVar0_den c)))
    (constant S_ .f32 0x7FC00000#32)

/-! ## The stages of @main -/

/-- %2: the batch mean of every feature. -/
def st_mean (a0 : (⟨S4096x128, .f32⟩ : BufTy).Contents (Elt F)) : (⟨S128, .f32⟩ : BufTy).Contents (Elt F) :=
  Host.divf (Host.reduceAdd a0 (constant S_ .f32 0x00000000#32) reducesTo_S4096x128_S128_d0 h_S_)
    (broadcastInDim S128 ![] bcast_S_S128 (constant S_ .f32 0x45800000#32))

/-- %3: the batch variance of every feature. -/
def st_var (a0 : (⟨S4096x128, .f32⟩ : BufTy).Contents (Elt F)) : (⟨S128, .f32⟩ : BufTy).Contents (Elt F) :=
  fnVar a0 (constantI S_ 32 0#32)

/-- A vector of 128 spread under every one of the 4096 rows: the pair of broadcasts [128] → [1,128] → [4096,128]. -/
def rows2 (v : (⟨S128, .f32⟩ : BufTy).Contents (Elt F)) : (⟨S4096x128, .f32⟩ : BufTy).Contents (Elt F) :=
  broadcastInDim S4096x128 ![0, 1] bcast_S1x128_S4096x128_0_1 (broadcastInDim S1x128 ![1] bcast_S128_S1x128_1 v)

/-- A vector of 128 spread along the last axis of a [4096,128,128] array: [128] → [1,1,128] → [4096,128,128]. -/
def rows3 (v : (⟨S128, .f32⟩ : BufTy).Contents (Elt F)) : (⟨S4096x128x128, .f32⟩ : BufTy).Contents (Elt F) :=
  broadcastInDim S4096x128x128 ![0, 1, 2] bcast_S1x1x128_S4096x128x128_0_1_2 (broadcastInDim S1x1x128 ![2] bcast_S128_S1x1x128_2 v)

/-- %18: the normalised batch. -/
def st_xn (a0 : (⟨S4096x128, .f32⟩ : BufTy).Contents (Elt F)) (a1 a2 : (⟨S128, .f32⟩ : BufTy).Contents (Elt F)) :
    (⟨S4096x128, .f32⟩ : BufTy).Contents (Elt F) :=
  addf (mulf (Host.divf (subf a0 (rows2 (st_mean a0)))
      (rows2 (Host.sqrt (addf (st_var a0) (broadcastInDim S128 ![] bcast_S_S128 (constant S_ .f32 0x3727C5AC#32))))))
    (rows2 a1)) (rows2 a2)

/-- %23: all products of two entries of a row, as a [4096,128,128] array. -/
def st_prod (xn : (⟨S4096x128, .f32⟩ : BufTy).Contents (Elt F)) : (⟨S4096x128x128, .f32⟩ : BufTy).Contents (Elt F) :=
  mulf (broadcastInDim S4096x128x128 ![0, 1, 2] bcast_S4096x128x1_S4096x128x128_0_1_2 (broadcastInDim S4096x128x1 ![0, 1] bcast_S4096x128_S4096x128x1_0_1 xn))
    (broadcastInDim S4096x128x128 ![0, 1, 2] bcast_S4096x1x128_S4096x128x128_0_1_2 (broadcastInDim S4096x1x128 ![0, 2] bcast_S4096x128_S4096x1x128_0_2 xn))

/-- %25: every row followed by its products, row-major: a [4096,16512] array. -/
def st_poly (xn : (⟨S4096x128, .f32⟩ : BufTy).Contents (Elt F)) : (⟨S4096x16512, .f32⟩ : BufTy).Contents (Elt F) :=
  concatenate S4096x16512 1 [⟨S4096x128, xn⟩, ⟨S4096x16384, shapeCast S4096x16384 (st_prod xn) shapeCasts_S4096x128x128_S4096x16384⟩]
    concatenates_S4096x128_S4096x16384_S4096x16512_d1

/-- %27: the clamped expansion cut into 128 windows of 129. -/
def st_feat (xn : (⟨S4096x128, .f32⟩ : BufTy).Contents (Elt F)) : (⟨S4096x128x129, .f32⟩ : BufTy).Contents (Elt F) :=
  shapeCast S4096x128x129 (fnRelu (st_poly xn)) shapeCasts_S4096x16512_S4096x128x129

/-- %31: every window contracted with every weight row, plus the bias. -/
def st_y (feat : (⟨S4096x128x129, .f32⟩ : BufTy).Contents (Elt F)) (a3 : (⟨S128x129, .f32⟩ : BufTy).Contents (Elt F))
    (a4 : (⟨S128, .f32⟩ : BufTy).Contents (Elt F)) : (⟨S4096x128x128, .f32⟩ : BufTy).Contents (Elt F) :=
  addf (Host.dotGeneral dot_S4096x128x129_S128x129_S4096x128x128_2_1_01_0_n_n none feat a3) (rows3 a4)

/-- %34: the channel mean over all (row, window) pairs. -/
def st_mean2 (y : (⟨S4096x128x128, .f32⟩ : BufTy).Contents (Elt F)) : (⟨S128, .f32⟩ : BufTy).Contents (Elt F) :=
  Host.divf (Host.reduceAdd y (constant S_ .f32 0x00000000#32) reducesTo_S4096x128x128_S128_d0_1 h_S_)
    (broadcastInDim S128 ![] bcast_S_S128 (constant S_ .f32 0x49000000#32))

/-- %35: the channel variance. -/
def st_var2 (y : (⟨S4096x128x128, .f32⟩ : BufTy).Contents (Elt F)) : (⟨S128, .f32⟩ : BufTy).Contents (Elt F) :=
  fnVar0 y (constantI S_ 32 0#32)

/-- %50: the second normalisation of y. -/
def st_out (y : (⟨S4096x128x128, .f32⟩ : BufTy).Contents (Elt F)) (a5 a6 : (⟨S128, .f32⟩ : BufTy).Contents (Elt F)) :
    (⟨S4096x128x128, .f32⟩ : BufTy).Contents (Elt F) :=
  addf (mulf (Host.divf (subf y (rows3 (st_mean2 y)))
      (rows3 (Host.sqrt (addf (st_var2 y) (broadcastInDim S128 ![] bcast_S_S128 (constant S_ .f32 0x3727C5AC#32))))))
    (rows3 a5)) (rows3 a6)

/-- The reference's result as a pure function of its seven argument arrays: @main's operations composed, the outlined
    functions inlined at their call sites. -/
def refOut (a0 : (⟨S4096x128, .f32⟩ : BufTy).Contents (Elt F)) (a1 a2 : (⟨S128, .f32⟩ : BufTy).Contents (Elt F))
    (a3 : (⟨S128x129, .f32⟩ : BufTy).Contents (Elt F)) (a4 a5 a6 : (⟨S128, .f32⟩ : BufTy).Contents (Elt F)) :
    (⟨S4096x128x128, .f32⟩ : BufTy).Contents (Elt F) :=
  st_out (st_y (st_feat (st_xn a0 a1 a2)) a3 a4) a5 a6

end Cert.ReferenceIdeal.RefValue

end
-- ==== Proof.RefVals.lean ====
import proofs.«138108_j2860448219241_2_alg».proof.Proof.RefOps
import proofs.«138108_j2860448219241_2_alg».proof.Proof.RefStages

/-! # What each stretch of the reference's operations computes

For each of the seven stretches of @main's operations: the buffer (or the two or three buffers) that later stretches
read, after the stretch has run from any contents, as a stage function of what the stretch found in the buffers it
reads. The outlined functions' operations carry their values through buffer-type conversions that are the identity at
these literal buffers, so each equation holds by computation once every operation's result is read off. -/

noncomputable section

namespace Cert.ReferenceIdeal.RefValue

open Cert.ReferenceIdeal Idealize.ShloMosaic Idealize.ShloMosaic.TcCoe Idealize.SL.Sem Idealize.ShloMosaic.StableHlo
open Cert.ReferenceIdeal.Facts₀ Cert.ReferenceIdeal.Facts

variable {F : FTy → Type} [FloatOps F] [Facts]

/-! ## What each stretch computes -/

/-- The batch mean. -/
theorem opsA_v2 (V : Valuation τ sig (Elt F)) :
    after opsA V (Proc.devRef .tc main_v2) = st_mean (V (Proc.devRef .tc main_arg0)) := by
  simp only [opsA]
  after_results_simp
  rfl

/-- The integer zero the batch variance is called with. -/
theorem opsA_c (V : Valuation τ sig (Elt F)) :
    after opsA V (Proc.devRef .tc main_c) = constantI S_ 32 0#32 := by
  simp only [opsA]
  after_results_simp

/-- The batch variance, of what the stretch finds in the input buffer and in the integer's. -/
theorem opsB_v3 (V : Valuation τ sig (Elt F)) :
    after opsB V (Proc.devRef .tc main_v3) = fnVar (V (Proc.devRef .tc main_arg0)) (V (Proc.devRef .tc main_c)) := by
  simp only [opsB]
  after_results_simp
  rfl

/-- The first normalisation, of the input, the mean, the variance, the scale and the shift. -/
theorem opsC_v18 (V : Valuation τ sig (Elt F)) :
    after opsC V (Proc.devRef .tc main_v18)
      = addf (mulf (Host.divf (subf (V (Proc.devRef .tc main_arg0)) (rows2 (V (Proc.devRef .tc main_v2))))
          (rows2 (Host.sqrt (addf (V (Proc.devRef .tc main_v3)) (broadcastInDim S128 ![] bcast_S_S128 (constant S_ .f32 0x3727C5AC#32))))))
        (rows2 (V (Proc.devRef .tc main_arg1)))) (rows2 (V (Proc.devRef .tc main_arg2))) := by
  simp only [opsC]
  after_results_simp
  rfl

/-- The feature windows of the normalised batch. -/
theorem opsD_v27 (V : Valuation τ sig (Elt F)) :
    after opsD V (Proc.devRef .tc main_v27) = st_feat (V (Proc.devRef .tc main_v18)) := by
  simp only [opsD]
  after_results_simp
  rfl

/-- The linear layer's output. -/
theorem opsE_v31 (V : Valuation τ sig (Elt F)) :
    after opsE V (Proc.devRef .tc main_v31)
      = st_y (V (Proc.devRef .tc main_v27)) (V (Proc.devRef .tc main_arg3)) (V (Proc.devRef .tc main_arg4)) := by
  simp only [opsE]
  after_results_simp
  rfl

/-- Its channel mean. -/
theorem opsE_v34 (V : Valuation τ sig (Elt F)) :
    after opsE V (Proc.devRef .tc main_v34)
      = st_mean2 (st_y (V (Proc.devRef .tc main_v27)) (V (Proc.devRef .tc main_arg3)) (V (Proc.devRef .tc main_arg4))) := by
  simp only [opsE]
  after_results_simp
  rfl

/-- The integer zero the channel variance is called with. -/
theorem opsE_c4 (V : Valuation τ sig (Elt F)) :
    after opsE V (Proc.devRef .tc main_c_4) = constantI S_ 32 0#32 := by
  simp only [opsE]
  after_results_simp

/-- The channel variance, of what the stretch finds in the layer's output buffer and in the integer's. -/
theorem opsG_v35 (V : Valuation τ sig (Elt F)) :
    after opsG V (Proc.devRef .tc main_v35) = fnVar0 (V (Proc.devRef .tc main_v31)) (V (Proc.devRef .tc main_c_4)) := by
  simp only [opsG]
  after_results_simp
  rfl

/-- The second normalisation, of the layer's output, its channel mean and variance, the scale and the shift. -/
theorem opsH_v50 (V : Valuation τ sig (Elt F)) :
    after opsH V (Proc.devRef .tc main_v50)
      = addf (mulf (Host.divf (subf (V (Proc.devRef .tc main_v31)) (rows3 (V (Proc.devRef .tc main_v34))))
          (rows3 (Host.sqrt (addf (V (Proc.devRef .tc main_v35)) (broadcastInDim S128 ![] bcast_S_S128 (constant S_ .f32 0x3727C5AC#32))))))
        (rows3 (V (Proc.devRef .tc main_arg5)))) (rows3 (V (Proc.devRef .tc main_arg6))) := by
  simp only [opsH]
  after_results_simp
  rfl

end Cert.ReferenceIdeal.RefValue

end
-- ==== Proof.RefRun.lean ====
import proofs.«138108_j2860448219241_2_alg».proof.Proof.RefKeep
import proofs.«138108_j2860448219241_2_alg».proof.Proof.RefVals

/-! # The reference's run, read back

Every weakly fair execution of the reference's @main terminates with its result buffer at `refOut` of the seven
argument arrays and the arguments unchanged. The 103 operations are read stretch by stretch, last stretch first: what a
stretch leaves in the buffers later stretches read is a stage function of what it found in the buffers it reads, and
every buffer it does not write keeps its contents; composing the seven stretches gives the result as the composition of
the stages, which is `refOut` by its definition. -/

noncomputable section

namespace Cert.ReferenceIdeal.RefValue

open Cert.ReferenceIdeal Idealize.ShloMosaic Idealize.ShloMosaic.TcCoe Idealize.SL.Sem Idealize.ShloMosaic.StableHlo
open Cert.ReferenceIdeal.Facts₀ Cert.ReferenceIdeal.Facts

variable {F : FTy → Type} [FloatOps F] [Facts]

/-- The result buffer after all the operations, from any contents: `refOut` of the seven argument buffers' contents. -/
theorem ops_v50 (V : Valuation τ sig (Elt F)) :
    after ops V (Proc.devRef .tc main_v50)
      = refOut (V (Proc.devRef .tc main_arg0)) (V (Proc.devRef .tc main_arg1)) (V (Proc.devRef .tc main_arg2))
          (V (Proc.devRef .tc main_arg3)) (V (Proc.devRef .tc main_arg4)) (V (Proc.devRef .tc main_arg5))
          (V (Proc.devRef .tc main_arg6)) := by
  simp only [ops, after_app]
  -- the second normalisation reads the layer's output, its channel mean and variance, the scale and the shift
  rw [opsH_v50]
  -- the channel variance reads the layer's output and the integer zero; the rest passes through it
  rw [opsG_v35, keepG _ main_v31 (by decide), keepG _ main_v34 (by decide), keepG _ main_arg5 (by decide),
    keepG _ main_arg6 (by decide)]
  -- the linear layer and its channel mean read the feature windows, the weights and the bias
  rw [opsE_v31, opsE_v34, opsE_c4, keepE _ main_arg5 (by decide), keepE _ main_arg6 (by decide)]
  -- the feature windows read the normalised batch
  rw [opsD_v27, keepD _ main_arg3 (by decide), keepD _ main_arg4 (by decide), keepD _ main_arg5 (by decide),
    keepD _ main_arg6 (by decide)]
  -- the first normalisation reads the input, its batch mean and variance, the scale and the shift
  rw [opsC_v18, keepC _ main_arg3 (by decide), keepC _ main_arg4 (by decide), keepC _ main_arg5 (by decide),
    keepC _ main_arg6 (by decide)]
  -- the batch variance reads the input and the integer zero
  rw [opsB_v3, keepB _ main_v2 (by decide), keepB _ main_arg0 (by decide), keepB _ main_arg1 (by decide),
    keepB _ main_arg2 (by decide), keepB _ main_arg3 (by decide), keepB _ main_arg4 (by decide),
    keepB _ main_arg5 (by decide), keepB _ main_arg6 (by decide)]
  -- the batch mean reads the input
  rw [opsA_v2, opsA_c, keepA _ main_arg0 (by decide), keepA _ main_arg1 (by decide), keepA _ main_arg2 (by decide),
    keepA _ main_arg3 (by decide), keepA _ main_arg4 (by decide), keepA _ main_arg5 (by decide),
    keepA _ main_arg6 (by decide)]
  rfl

/-- On every device, for any float values, from any memory with zero counters: every weakly fair execution of @main
    terminates with the result buffer at `refOut` of the arguments' launch contents and the arguments unchanged. -/
theorem run (m : (ℓ : Loc nD τ sig) → Buf (Elt F) ℓ) (ρ : Dev nD → PrngReg) :
    θ_run (defs (F := F)) (onTc (τ := τ) (main (F := F))) ⟨m, fun _ => 0, ρ⟩ fun r => ∀ c : Dev nD,
      r.2.mem ((c.tc : Thread nD τ).loc main_v50)
          = refOut (F := F) (m ((c.tc : Thread nD τ).loc main_arg0)) (m ((c.tc : Thread nD τ).loc main_arg1))
              (m ((c.tc : Thread nD τ).loc main_arg2)) (m ((c.tc : Thread nD τ).loc main_arg3))
              (m ((c.tc : Thread nD τ).loc main_arg4)) (m ((c.tc : Thread nD τ).loc main_arg5))
              (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c => ⟨(h c main_v50).trans (ops_v50 (launchContents m c)),
      (h c main_arg0).trans (ops_old _ main_arg0 (by decide) (by decide) (by decide) (by decide) (by decide) (by decide) (by decide)),
      (h c main_arg1).trans (ops_old _ main_arg1 (by decide) (by decide) (by decide) (by decide) (by decide) (by decide) (by decide)),
      (h c main_arg2).trans (ops_old _ main_arg2 (by decide) (by decide) (by decide) (by decide) (by decide) (by decide) (by decide)),
      (h c main_arg3).trans (ops_old _ main_arg3 (by decide) (by decide) (by decide) (by decide) (by decide) (by decide) (by decide)),
      (h c main_arg4).trans (ops_old _ main_arg4 (by decide) (by decide) (by decide) (by decide) (by decide) (by decide) (by decide)),
      (h c main_arg5).trans (ops_old _ main_arg5 (by decide) (by decide) (by decide) (by decide) (by decide) (by decide) (by decide)),
      (h c main_arg6).trans (ops_old _ main_arg6 (by decide) (by decide) (by decide) (by decide) (by decide) (by decide) (by decide))⟩)
    (run_all m ρ)

/-- The same executions, keeping only that the seven argument arrays end unchanged. -/
theorem frame_run (m : (ℓ : Loc nD τ sig) → Buf (Elt F) ℓ) (ρ : Dev nD → PrngReg) :
    θ_run (defs (F := F)) (onTc (τ := τ) (main (F := F))) ⟨m, fun _ => 0, ρ⟩ fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c => (h c).2) (run m ρ)

end Cert.ReferenceIdeal.RefValue

end
-- ==== Proof.RefReadNorm1.lean ====
/-
  The first normalisation of the reference read at an index: the batch mean and variance of every feature, and the
  normalised batch, are the specification's mu1, var1 and xnR.
-/
import proofs.«138108_j2860448219241_2_alg».proof.Proof.RefStages
import proofs.«138108_j2860448219241_2_alg».proof.Proof.LibBatchStats

noncomputable section

open scoped BigOperators

namespace Cert.ReferenceIdeal.RefValue

open Idealize.ShloMosaic Idealize.ShloMosaic.ValueIdx Cert.Poly.BatchStats
open Cert.ReferenceIdeal Cert.ReferenceIdeal.Facts₀ Cert.ReferenceIdeal.Facts

variable [Facts]

/-- %2 at feature j is the batch mean mu1. -/
theorem st_mean_apply (a0 : FVec Ideal S4096x128 .f32) (j : Fin 128) :
    st_mean (F := Ideal) a0 (ix1 j) = Cert.Poly.mu1 (fun r j => a0 (ix2 r j)) j :=
  mean_apply a0 reducesTo_S4096x128_S128_d0 h_S_ bcast_S_S128 j

/-- %3 at feature j is the batch variance var1. -/
theorem st_var_apply (a0 : FVec Ideal S4096x128 .f32) (j : Fin 128) :
    st_var (F := Ideal) a0 (ix1 j) = Cert.Poly.var1 (fun r j => a0 (ix2 r j)) j :=
  var_apply a0 reducesTo_S4096x128_S128_d0 h_S_ bcast_S_S128 bcast_S128_S1x128_1 bcast_S_S1x128 bcast_S1x128_S4096x128_0_1 j

/-- A vector of 128 spread under every row reads the vector at the column. -/
theorem rows2_apply (v : FVec Ideal S128 .f32) (r : Fin 4096) (j : Fin 128) :
    rows2 (F := Ideal) v (ix2 r j) = v (ix1 j) := by
  unfold rows2
  rw [under_apply, row_apply]

/-- The host's square root at an index is the extended reals' square root of the entry. -/
theorem hostSqrt_apply {s : Shape} {φ : FTy} (x : FVec Ideal s φ) (i : s.Idx) : Host.sqrt x i = Ideal.sqrt (x i) := rfl

/-- %18 at (r, j) is the normalised entry xnR. -/
theorem st_xn_apply (a0 : FVec Ideal S4096x128 .f32) (a1 a2 : FVec Ideal S128 .f32) (r : Fin 4096) (j : Fin 128) :
    st_xn (F := Ideal) a0 a1 a2 (ix2 r j)
      = Cert.Poly.xnR (fun r j => a0 (ix2 r j)) (fun j => a1 (ix1 j)) (fun j => a2 (ix1 j)) r j := by
  unfold st_xn
  rw [addf_apply, mulf_apply, hostDivf_apply, subf_apply, rows2_apply, rows2_apply, rows2_apply, rows2_apply, st_mean_apply]
  rw [hostSqrt_apply, addf_apply, st_var_apply, broadcastInDim_scalar_apply, constant_apply]
  rfl

end Cert.ReferenceIdeal.RefValue

end
-- ==== Proof.RefReadPoly.lean ====
/-
  The expansion of a normalised row read at an index: the products of two entries, the row followed by its products
  (row-major), the clamp and the cut into 128 windows of 129 are the specification's polyRow and featRow.
-/
import proofs.«138108_j2860448219241_2_alg».proof.Proof.RefStages
import proofs.«138108_j2860448219241_2_alg».proof.Proof.Spec
import Idealize.ShloMosaic.Lib.ValueIdx
import Idealize.ShloMosaic.Lib.IdealHost
import Idealize.ShloMosaic.Lib.Pipeline.Value

noncomputable section

open scoped BigOperators

namespace Cert.ReferenceIdeal.RefValue

open Idealize.ShloMosaic Idealize.ShloMosaic.ValueIdx
open Cert.ReferenceIdeal Cert.ReferenceIdeal.Facts₀ Cert.ReferenceIdeal.Facts

variable [Facts]

/-- %23 at (r, p, q) is the product of the row's entries p and q. -/
theorem st_prod_apply (xn : FVec Ideal S4096x128 .f32) (r : Fin 4096) (p q : Fin 128) :
    st_prod (F := Ideal) xn (ix3 r p q) = xn (ix2 r p) * xn (ix2 r q) := by
  unfold st_prod
  rw [mulf_apply]
  congr 1
  · refine (broadcastInDim_apply ![0, 1, 2] bcast_S4096x128x1_S4096x128x128_0_1_2 _ (ix3 r p q) (ix3 r p (0 : Fin 1)) fun a => ?_).trans ?_
    · match a with
      | ⟨0, _⟩ => exact (if_neg (by show ¬((4096 : ℕ) = 1); decide)).symm
      | ⟨1, _⟩ => exact (if_neg (by show ¬((128 : ℕ) = 1); decide)).symm
      | ⟨2, _⟩ => exact (if_pos (by show (1 : ℕ) = 1; rfl)).symm
    · refine broadcastInDim_apply ![0, 1] bcast_S4096x128_S4096x128x1_0_1 xn (ix3 r p (0 : Fin 1)) (ix2 r p) fun a => ?_
      match a with
      | ⟨0, _⟩ => exact (if_neg (by show ¬((4096 : ℕ) = 1); decide)).symm
      | ⟨1, _⟩ => exact (if_neg (by show ¬((128 : ℕ) = 1); decide)).symm
  · refine (broadcastInDim_apply ![0, 1, 2] bcast_S4096x1x128_S4096x128x128_0_1_2 _ (ix3 r p q) (ix3 r (0 : Fin 1) q) fun a => ?_).trans ?_
    · match a with
      | ⟨0, _⟩ => exact (if_neg (by show ¬((4096 : ℕ) = 1); decide)).symm
      | ⟨1, _⟩ => exact (if_pos (by show (1 : ℕ) = 1; rfl)).symm
      | ⟨2, _⟩ => exact (if_neg (by show ¬((128 : ℕ) = 1); decide)).symm
    · refine broadcastInDim_apply ![0, 2] bcast_S4096x128_S4096x1x128_0_2 xn (ix3 r (0 : Fin 1) q) (ix2 r q) fun a => ?_
      match a with
      | ⟨0, _⟩ => exact (if_neg (by show ¬((4096 : ℕ) = 1); decide)).symm
      | ⟨1, _⟩ => exact (if_neg (by show ¬((128 : ℕ) = 1); decide)).symm

/-- The products as a [4096,16384] array: entry m of row r is the product ((m / 128), (m % 128)). -/
theorem prodFlat_apply (xn : FVec Ideal S4096x128 .f32) (r : Fin 4096) (m : Fin 16384) :
    shapeCast S4096x16384 (st_prod (F := Ideal) xn) shapeCasts_S4096x128x128_S4096x16384 (ix2 r m)
      = xn (ix2 r ⟨m.val / 128, by have := m.isLt; omega⟩) * xn (ix2 r ⟨m.val % 128, Nat.mod_lt _ (by norm_num)⟩) := by
  rw [← st_prod_apply]
  refine shapeCast_apply _ _ (ix2 r m) (ix3 r ⟨m.val / 128, by have := m.isLt; omega⟩ ⟨m.val % 128, Nat.mod_lt _ (by norm_num)⟩) ?_
  rw [Shape.rowMajor_val_three, Shape.rowMajor_val_two]
  show (r.val * 128 + m.val / 128) * 128 + m.val % 128 = r.val * 16384 + m.val
  omega

/-- %25 at (r, n) is entry n of the expansion of row r. -/
theorem st_poly_apply (xn : FVec Ideal S4096x128 .f32) (r : Fin 4096) (n : Fin 16512) :
    st_poly (F := Ideal) xn (ix2 r n) = Cert.Poly.polyRow (fun j => xn (ix2 r j)) n := by
  unfold st_poly Cert.Poly.polyRow
  by_cases h : n.val < 128
  · rw [dif_pos h]
    refine concatenate_pair_apply_left (1 : Fin S4096x16512.rank) xn _ concatenates_S4096x128_S4096x16384_S4096x16512_d1 (ix2 r n) rfl
      (ix2 r ⟨n.val, h⟩) fun b => ?_
    match b with
    | ⟨0, _⟩ => rfl
    | ⟨1, _⟩ => rfl
  · rw [dif_neg h]
    have hm : n.val - 128 < 16384 := by have := n.isLt; omega
    refine (concatenate_pair_apply_right (1 : Fin S4096x16512.rank) xn _ concatenates_S4096x128_S4096x16384_S4096x16512_d1 (ix2 r n) rfl rfl
      (ix2 r (⟨n.val - 128, hm⟩ : Fin 16384)) (fun b => ?_) ?_).trans ?_
    · match b with
      | ⟨0, _⟩ => exact fun _ => rfl
      | ⟨1, _⟩ => exact fun hne => absurd rfl hne
    · show n.val - 128 + 128 = n.val
      omega
    · exact prodFlat_apply xn r ⟨n.val - 128, hm⟩

/-- @relu at an index: the maximum with 0. -/
theorem fnRelu_apply (x : FVec Ideal S4096x16512 .f32) (i : S4096x16512.Idx) : fnRelu (F := Ideal) x i = max (x i) 0 := by
  unfold fnRelu
  rw [maximumf_apply, broadcastInDim_scalar_apply, constant_apply, Ideal.ofBits_zero_f32]

/-- %27 at (r, i, k): window i, position k of the clamped expansion of row r. -/
theorem st_feat_apply (xn : FVec Ideal S4096x128 .f32) (r : Fin 4096) (i : Fin 128) (k : Fin 129) :
    st_feat (F := Ideal) xn (ix3 r i k) = Cert.Poly.featRow (fun j => xn (ix2 r j)) i k := by
  unfold st_feat Cert.Poly.featRow
  have hn : 129 * i.val + k.val < 16512 := by have := i.isLt; have := k.isLt; omega
  rw [← st_poly_apply, ← fnRelu_apply]
  refine shapeCast_apply _ _ (ix3 r i k) (ix2 r (⟨129 * i.val + k.val, hn⟩ : Fin 16512)) ?_
  rw [Shape.rowMajor_val_three, Shape.rowMajor_val_two]
  show r.val * 16512 + (129 * i.val + k.val) = (r.val * 128 + i.val) * 129 + k.val
  omega

end Cert.ReferenceIdeal.RefValue

end
-- ==== Proof.RefReadDot.lean ====
/-
  The linear layer of the reference read at an index: every window of 129 contracted with every weight row, plus the
  bias, is one sum of 129 products plus the bias entry.
-/
import proofs.«138108_j2860448219241_2_alg».proof.Proof.RefStages
import Idealize.ShloMosaic.Lib.ValueIdx
import Idealize.ShloMosaic.Lib.IdealHost
import Idealize.ShloMosaic.Lib.Pipeline.Value

noncomputable section

open scoped BigOperators

namespace Cert.ReferenceIdeal.RefValue

open Idealize.ShloMosaic Idealize.ShloMosaic.ValueIdx
open Cert.ReferenceIdeal Cert.ReferenceIdeal.Facts₀ Cert.ReferenceIdeal.Facts

variable [Facts]

/-- A vector of 128 spread along the last axis of a [4096,128,128] array reads the vector at the last coordinate. -/
theorem rows3_apply (v : FVec Ideal S128 .f32) (r : Fin 4096) (i o : Fin 128) :
    rows3 (F := Ideal) v (ix3 r i o) = v (ix1 o) := by
  unfold rows3
  refine (broadcastInDim_apply ![0, 1, 2] bcast_S1x1x128_S4096x128x128_0_1_2 _ (ix3 r i o) (ix3 (0 : Fin 1) (0 : Fin 1) o) fun a => ?_).trans ?_
  · match a with
    | ⟨0, _⟩ => exact (if_pos (by show (1 : ℕ) = 1; rfl)).symm
    | ⟨1, _⟩ => exact (if_pos (by show (1 : ℕ) = 1; rfl)).symm
    | ⟨2, _⟩ => exact (if_neg (by show ¬((128 : ℕ) = 1); decide)).symm
  · refine broadcastInDim_apply ![2] bcast_S128_S1x1x128_2 v (ix3 (0 : Fin 1) (0 : Fin 1) o) (ix1 o) fun a => ?_
    match a with
    | ⟨0, _⟩ => exact (if_neg (by show ¬((128 : ℕ) = 1); decide)).symm

/-- The dimension numbers of the contraction: the last axis of the windows against axis 1 of the weights. -/
abbrev dotD : DotDims S4096x128x129 S128x129 S4096x128x128 := dot_S4096x128x129_S128x129_S4096x128x128_2_1_01_0_n_n

/-- The left operand's index at result index (r, i, o) and contraction position k is (r, i, k). -/
theorem lhsIdx_eq (r : Fin 4096) (i o : Fin 128) (k : Fin 129) :
    dotD.lhsIdx (ix3 r i o) ((contrEquiv1 dotD 129 rfl rfl).symm k) = ix3 r i k := by
  funext a
  refine Fin.ext ?_
  match a with
  | ⟨0, _⟩ => rfl
  | ⟨1, _⟩ => rfl
  | ⟨2, _⟩ =>
    exact (dotD.lhsIdx_val_of_single (cl := (2 : Fin S4096x128x129.rank)) rfl (ix3 r i o) _).trans
      (contrEquiv1_symm_val dotD 129 rfl rfl k)

/-- The right operand's index at result index (r, i, o) and contraction position k is (o, k). -/
theorem rhsIdx_eq (r : Fin 4096) (i o : Fin 128) (k : Fin 129) :
    dotD.rhsIdx (ix3 r i o) ((contrEquiv1 dotD 129 rfl rfl).symm k) = ix2 o k := by
  funext a
  refine Fin.ext ?_
  match a with
  | ⟨0, _⟩ => rfl
  | ⟨1, _⟩ =>
    exact (dotD.rhsIdx_val_of_single (cr := (1 : Fin S128x129.rank)) rfl (ix3 r i o) _).trans
      (contrEquiv1_symm_val dotD 129 rfl rfl k)

/-- %31 at (r, i, o): window i of row r against weight row o, plus the bias of channel o. -/
theorem st_y_apply (feat : FVec Ideal S4096x128x129 .f32) (a3 : FVec Ideal S128x129 .f32) (a4 : FVec Ideal S128 .f32)
    (r : Fin 4096) (i o : Fin 128) :
    st_y (F := Ideal) feat a3 a4 (ix3 r i o) = (∑ k : Fin 129, feat (ix3 r i k) * a3 (ix2 o k)) + a4 (ix1 o) := by
  unfold st_y
  rw [addf_apply, rows3_apply]
  congr 1
  show FloatOps.dotGeneral dotD none .single feat a3 (ix3 r i o) = _
  rw [Ideal.dotGeneral_apply, ← Equiv.sum_comp (contrEquiv1 dotD 129 rfl rfl).symm]
  refine Finset.sum_congr rfl fun k _ => ?_
  rw [lhsIdx_eq, rhsIdx_eq]

end Cert.ReferenceIdeal.RefValue

end
-- ==== Proof.RefReadNorm2.lean ====
/-
  The second normalisation of the reference read at an index: the sums over (row, window) of a [4096,128,128] array per
  channel, the channel mean and variance, and the normalised result are the specification's mu2R, var2R and outR.
-/
import proofs.«138108_j2860448219241_2_alg».proof.Proof.RefStages
import proofs.«138108_j2860448219241_2_alg».proof.Proof.LibBatchStats
import proofs.«138108_j2860448219241_2_alg».proof.Proof.RefReadNorm1
import proofs.«138108_j2860448219241_2_alg».proof.Proof.RefReadDot

noncomputable section

open scoped BigOperators

namespace Cert.ReferenceIdeal.RefValue

open Idealize.ShloMosaic Idealize.ShloMosaic.ValueIdx Cert.Poly.BatchStats
open Cert.ReferenceIdeal Cert.ReferenceIdeal.Facts₀ Cert.ReferenceIdeal.Facts

variable [Facts]

/-- An index (r, i, o) drops, under the reduction over the first two axes, to the channel o. -/
theorem drop_ix3 (r : Fin 4096) (i o : Fin 128) :
    reducesTo_S4096x128x128_S128_d0_1.drop (ix3 r i o) = ix1 o := by
  funext b
  match b with
  | ⟨0, _⟩ => rfl

/-- An index that drops to the channel o has o as its last coordinate. -/
theorem last_of_drop (j : S4096x128x128.Idx) (o : Fin 128) (h : reducesTo_S4096x128x128_S128_d0_1.drop j = ix1 o) :
    (j 2).val = o.val := by
  have := congrArg (fun f => (f (0 : Fin 1)).val) h
  exact this

/-- A rank-3 index set is the product of its three coordinate ranges … -/
def idxEquiv3 {n0 n1 n2 : Nat} : (⟨3, ![n0, n1, n2]⟩ : Shape).Idx ≃ Fin n0 × Fin n1 × Fin n2 where
  toFun j := (j 0, j 1, j 2)
  invFun p := ix3 p.1 p.2.1 p.2.2
  left_inv j := (eq_ix3 j).symm
  right_inv _ := rfl

/-- … so a sum over it is the triple sum over the coordinates. -/
theorem sum_idx3 {M : Type*} [AddCommMonoid M] {n0 n1 n2 : Nat} (f : (⟨3, ![n0, n1, n2]⟩ : Shape).Idx → M) :
    ∑ j, f j = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-- The sum over the first two axes, from the initial value: the initial value plus the sum over rows and windows. -/
theorem sum2_apply (y : FVec Ideal S4096x128x128 .f32) (init : S_.Idx → Ideal .f32) (o : Fin 128) :
    Host.reduceAdd y init reducesTo_S4096x128x128_S128_d0_1 h_S_ (ix1 o)
      = init (Shape.Idx.first h_S_) + ∑ r : Fin 4096, ∑ i : Fin 128, y (ix3 r i o) := by
  rw [hostReduceAdd_apply]
  unfold Ideal.hostReduceAdd
  refine congrArg _ ?_
  rw [Finset.sum_filter, sum_idx3]
  refine Finset.sum_congr rfl fun r _ => Finset.sum_congr rfl fun i _ => ?_
  rw [Finset.sum_eq_single o]
  · rw [if_pos (drop_ix3 r i o)]
  · intro q _ hq
    rw [if_neg]
    intro h
    exact hq (Fin.ext (last_of_drop (ix3 r i q) o h))
  · intro h
    exact absurd (Finset.mem_univ o) h

/-- The sum over the first two axes into the zero word. -/
theorem sum2_zero_apply (y : FVec Ideal S4096x128x128 .f32) (o : Fin 128) :
    Host.reduceAdd y (constant (F := Ideal) S_ .f32 0x00000000#32) reducesTo_S4096x128x128_S128_d0_1 h_S_ (ix1 o)
      = ∑ r : Fin 4096, ∑ i : Fin 128, y (ix3 r i o) := by
  rw [sum2_apply, constant_apply, Ideal.ofBits_zero_f32, zero_add]

/-- %34 at channel o is the channel mean mu2R. -/
theorem st_mean2_apply (y : FVec Ideal S4096x128x128 .f32) (o : Fin 128) :
    st_mean2 (F := Ideal) y (ix1 o) = Cert.Poly.mu2R (fun r i o => y (ix3 r i o)) o := by
  unfold st_mean2
  rw [hostDivf_apply, sum2_zero_apply, broadcastInDim_scalar_apply, constant_apply]
  rfl

/-- The divisor 524288 − convert(0 : i32) is 524288. -/
theorem den0_apply (i : S_.Idx) : fnVar0_den (F := Ideal) (constantI S_ 32 0#32) i = Cert.Poly.nBD := by
  show Ideal.ofBits .f32 0x49000000#32 - (Scalar.sitofp .f32 0#32 : Ideal .f32) = _
  rw [sitofp_zero, sub_zero]

/-- @_var_0's inner mean spread over the whole array reads mu2R of the channel. -/
theorem mean0Under_apply (y : FVec Ideal S4096x128x128 .f32) (r : Fin 4096) (i o : Fin 128) :
    broadcastInDim S4096x128x128 ![0, 1, 2] bcast_S1x1x128_S4096x128x128_0_1_2 (fnVar0_mean (F := Ideal) y) (ix3 r i o)
      = Cert.Poly.mu2R (fun r i o => y (ix3 r i o)) o := by
  refine (broadcastInDim_apply ![0, 1, 2] bcast_S1x1x128_S4096x128x128_0_1_2 _ (ix3 r i o) (ix3 (0 : Fin 1) (0 : Fin 1) o) fun a => ?_).trans ?_
  · match a with
    | ⟨0, _⟩ => exact (if_pos (by show (1 : ℕ) = 1; rfl)).symm
    | ⟨1, _⟩ => exact (if_pos (by show (1 : ℕ) = 1; rfl)).symm
    | ⟨2, _⟩ => exact (if_neg (by show ¬((128 : ℕ) = 1); decide)).symm
  · unfold fnVar0_mean
    rw [hostDivf_apply, broadcastInDim_scalar_apply, constant_apply]
    have hb : broadcastInDim S1x1x128 ![2] bcast_S128_S1x1x128_2
        (Host.reduceAdd y (constant (F := Ideal) S_ .f32 0x00000000#32) reducesTo_S4096x128x128_S128_d0_1 h_S_)
        (ix3 (0 : Fin 1) (0 : Fin 1) o)
        = Host.reduceAdd y (constant (F := Ideal) S_ .f32 0x00000000#32) reducesTo_S4096x128x128_S128_d0_1 h_S_ (ix1 o) := by
      refine broadcastInDim_apply ![2] bcast_S128_S1x1x128_2 _ (ix3 (0 : Fin 1) (0 : Fin 1) o) (ix1 o) fun a => ?_
      match a with
      | ⟨0, _⟩ => exact (if_neg (by show ¬((128 : ℕ) = 1); decide)).symm
    rw [hb, sum2_zero_apply]
    rfl

/-- %35 at channel o is the channel variance var2R. -/
theorem st_var2_apply (y : FVec Ideal S4096x128x128 .f32) (o : Fin 128) :
    st_var2 (F := Ideal) y (ix1 o) = Cert.Poly.var2R (fun r i o => y (ix3 r i o)) o := by
  unfold st_var2 fnVar0 fnWhere
  rw [select_apply, broadcastInDim_scalar_apply, cmpf_apply, den0_apply, constant_apply, Ideal.ofBits_zero_f32,
    Ideal.cmpf_def, cmp_nBD, select_one, hostDivf_apply, sum2_zero_apply, broadcastInDim_scalar_apply, den0_apply]
  unfold Cert.Poly.var2R fnVar0_sq
  refine congrArg (fun s => Ideal.div s Cert.Poly.nBD) (Finset.sum_congr rfl fun r _ => Finset.sum_congr rfl fun i _ => ?_)
  rw [mulf_apply, subf_apply, mean0Under_apply]

/-- %50 at (r, i, o) is the normalised value outR. -/
theorem st_out_apply (y : FVec Ideal S4096x128x128 .f32) (a5 a6 : FVec Ideal S128 .f32) (r : Fin 4096) (i o : Fin 128) :
    st_out (F := Ideal) y a5 a6 (ix3 r i o)
      = Cert.Poly.outR (fun r i o => y (ix3 r i o)) (fun o => a5 (ix1 o)) (fun o => a6 (ix1 o)) r i o := by
  unfold st_out
  rw [addf_apply, mulf_apply, hostDivf_apply, subf_apply, rows3_apply, rows3_apply, rows3_apply, rows3_apply, st_mean2_apply,
    hostSqrt_apply, addf_apply, st_var2_apply, broadcastInDim_scalar_apply, constant_apply]
  rfl

end Cert.ReferenceIdeal.RefValue

end
-- ==== Proof.RefRead.lean ====
/-
  The reference's result read at an index (r, i, o) is the specification's resultR there: the stages read in order, the
  outermost first.
-/
import proofs.«138108_j2860448219241_2_alg».proof.Proof.RefStages
import proofs.«138108_j2860448219241_2_alg».proof.Proof.RefReadNorm1
import proofs.«138108_j2860448219241_2_alg».proof.Proof.RefReadPoly
import proofs.«138108_j2860448219241_2_alg».proof.Proof.RefReadDot
import proofs.«138108_j2860448219241_2_alg».proof.Proof.RefReadNorm2

noncomputable section

open scoped BigOperators

namespace Cert.ReferenceIdeal.RefValue

open Idealize.ShloMosaic Idealize.ShloMosaic.ValueIdx
open Cert.ReferenceIdeal Cert.ReferenceIdeal.Facts₀ Cert.ReferenceIdeal.Facts

variable [Facts]

/-- %31 over the stages before it, read at every index, is the specification's yR of the normalised batch. -/
theorem st_y_eq (a0 : FVec Ideal S4096x128 .f32) (a1 a2 : FVec Ideal S128 .f32) (a3 : FVec Ideal S128x129 .f32)
    (a4 : FVec Ideal S128 .f32) :
    (fun (r : Fin 4096) (i o : Fin 128) => st_y (F := Ideal) (st_feat (st_xn a0 a1 a2)) a3 a4 (ix3 r i o))
      = Cert.Poly.yR (Cert.Poly.xnR (fun r j => a0 (ix2 r j)) (fun j => a1 (ix1 j)) (fun j => a2 (ix1 j)))
          (fun o k => a3 (ix2 o k)) (fun o => a4 (ix1 o)) := by
  funext r i o
  rw [st_y_apply]
  unfold Cert.Poly.yR Cert.Poly.yRowR
  have hrow : (fun j => st_xn (F := Ideal) a0 a1 a2 (ix2 r j))
      = Cert.Poly.xnR (fun r j => a0 (ix2 r j)) (fun j => a1 (ix1 j)) (fun j => a2 (ix1 j)) r :=
    funext fun j => st_xn_apply a0 a1 a2 r j
  refine congrArg (· + a4 (ix1 o)) (Finset.sum_congr rfl fun k _ => ?_)
  rw [st_feat_apply, hrow]

/-- The reference's result at (r, i, o). -/
theorem refOut_apply (a0 : FVec Ideal S4096x128 .f32) (a1 a2 : FVec Ideal S128 .f32) (a3 : FVec Ideal S128x129 .f32)
    (a4 a5 a6 : FVec Ideal S128 .f32) (r : Fin 4096) (i o : Fin 128) :
    refOut (F := Ideal) a0 a1 a2 a3 a4 a5 a6 (ValueIdx.ix3 r i o)
      = Cert.Poly.resultR (fun r j => a0 (ValueIdx.ix2 r j)) (fun j => a1 (ValueIdx.ix1 j)) (fun j => a2 (ValueIdx.ix1 j))
          (fun o k => a3 (ValueIdx.ix2 o k)) (fun o => a4 (ValueIdx.ix1 o)) (fun o => a5 (ValueIdx.ix1 o))
          (fun o => a6 (ValueIdx.ix1 o)) r i o := by
  unfold refOut Cert.Poly.resultR
  rw [st_out_apply, st_y_eq]

end Cert.ReferenceIdeal.RefValue

end
-- ==== Proof.FiniteInputs.lean ====
/-
  The precondition read back: when the printed predicate "every entry of every float input has absolute value below +∞"
  answers all ones, every entry of each of the seven arrays is a real number.
-/
import proofs.«138108_j2860448219241_2_alg».proof.Pre_finite_inputs
import Idealize.ShloMosaic.Lib.ReduceAll
import Idealize.ShloMosaic.Lib.ValueIdx
import Idealize.ShloMosaic.Lib.Pipeline.Value
import Idealize.ShloMosaic.PureOps.Ideal.Laws

noncomputable section

namespace Cert.Pre_finite_inputs.Decode

open Idealize.ShloMosaic Idealize.ShloMosaic.ValueIdx Cert.Pre_finite_inputs

variable [Facts]
open Facts

instance : Subsingleton S_.Idx := ⟨fun a b => funext fun d => d.elim0⟩

/-- The word 0x7F800000 denotes +∞. -/
theorem inf_word : Ideal.ofBits .f32 0x7F800000#32 = (⊤ : EReal) := by
  simp [Ideal.ofBits, Ideal.ieee]

/-- An extended real whose absolute value max x (−x) is strictly below +∞ is a real number. -/
theorem real_of_abs_lt_top (x : EReal) (h : Ideal.cmp .olt (max x (-x)) (⊤ : EReal) = 1#1) : ∃ a : ℝ, x = (a : EReal) := by
  induction x using EReal.rec with
  | bot => simp [Ideal.cmp] at h
  | coe a => exact ⟨a, rfl⟩
  | top => simp [Ideal.cmp] at h

/-- One array: if the conjunction over all entries of |a| < +∞ is one, every entry of a is a real. -/
theorem all_real {s : Shape} {axes : List (Fin s.rank)} (a : FVec Ideal s .f32) (hb : S_.BroadcastsInDim s (![] : Fin 0 → Fin s.rank))
    (hr : s.ReducesTo axes S_) (hu : 0 < S_.numel)
    (h : Host.reduce IntOp.andi (cmpf .olt (Host.absf a) (broadcastInDim s ![] hb (constant S_ .f32 0x7F800000#32)))
          (constantI S_ 1 1#1) hr hu ix0 = 1#1) (i : s.Idx) : ∃ r : ℝ, a i = (r : EReal) := by
  have hi := Host.reduce_andi_all _ _ hr hu ix0 h i
  rw [cmpf_apply] at hi
  have hbc : broadcastInDim s ![] hb (constant (F := Ideal) S_ .f32 0x7F800000#32) i = Ideal.ofBits .f32 0x7F800000#32 :=
    broadcastInDim_apply ![] hb _ i ix0 (fun d => d.elim0)
  have ha : Host.absf a i = max (a i) (-(a i)) := rfl
  rw [hbc, ha, inf_word] at hi
  exact real_of_abs_lt_top _ hi

/-- The precondition's answer "all ones" says that every entry of every one of the seven arrays is a real number. -/
theorem real_of_pre (a0 : FVec Ideal S4096x128 .f32) (a1 a2 : FVec Ideal S128 .f32) (a3 : FVec Ideal S128x129 .f32)
    (a4 a5 a6 : FVec Ideal S128 .f32) (h : fn (F := Ideal) a0 a1 a2 a3 a4 a5 a6 = fun _ => 1#1) :
    (∀ i, ∃ r : ℝ, a0 i = (r : EReal)) ∧ (∀ i, ∃ r : ℝ, a1 i = (r : EReal)) ∧ (∀ i, ∃ r : ℝ, a2 i = (r : EReal))
      ∧ (∀ i, ∃ r : ℝ, a3 i = (r : EReal)) ∧ (∀ i, ∃ r : ℝ, a4 i = (r : EReal)) ∧ (∀ i, ∃ r : ℝ, a5 i = (r : EReal))
      ∧ (∀ i, ∃ r : ℝ, a6 i = (r : EReal)) := by
  have h0 := congrFun h ix0
  dsimp only [fn, fn_part1] at h0
  obtain ⟨h0, h6⟩ := IntOp.andi_eq_one.1 h0
  obtain ⟨h0, h5⟩ := IntOp.andi_eq_one.1 h0
  obtain ⟨h0, h4⟩ := IntOp.andi_eq_one.1 h0
  obtain ⟨h0, h3⟩ := IntOp.andi_eq_one.1 h0
  obtain ⟨h0, h2⟩ := IntOp.andi_eq_one.1 h0
  obtain ⟨h0, h1⟩ := IntOp.andi_eq_one.1 h0
  exact ⟨all_real a0 _ _ _ h0, all_real a1 _ _ _ h1, all_real a2 _ _ _ h2, all_real a3 _ _ _ h3, all_real a4 _ _ _ h4,
    all_real a5 _ _ _ h5, all_real a6 _ _ _ h6⟩

end Cert.Pre_finite_inputs.Decode

end
-- ==== Proof.Claims.lean ====
/-
  The five claims.

  Frames: the two kernel programs' frames are the generated frame certificates; the reference's is its run with the result
  dropped.  Preserves: the idealization rewrote nothing, the claim is True.  Algebraic: the kernel program ends with its
  result at the kernel's arrangement of the specification at the launch arrays; the reference, run from a memory agreeing on
  the arguments, ends with its result at the reference's arrangement of the same arrays; the precondition makes every entry of
  every argument a real number, and on real inputs the two arrangements are one function.
-/
import proofs.«138108_j2860448219241_2_alg».proof.Defs
import proofs.«138108_j2860448219241_2_alg».proof.Proof.Gen.Kernel.Frame
import proofs.«138108_j2860448219241_2_alg».proof.Proof.Gen.KernelIdeal.Frame
import proofs.«138108_j2860448219241_2_alg».proof.Proof.Gen.ReferenceIdeal
import proofs.«138108_j2860448219241_2_alg».proof.Proof.Gen.Pre_finite_inputs
import proofs.«138108_j2860448219241_2_alg».proof.Proof.KerValue
import proofs.«138108_j2860448219241_2_alg».proof.Proof.Regions
import proofs.«138108_j2860448219241_2_alg».proof.Proof.Algebra
import proofs.«138108_j2860448219241_2_alg».proof.Proof.RefRun
import proofs.«138108_j2860448219241_2_alg».proof.Proof.RefRead
import proofs.«138108_j2860448219241_2_alg».proof.Proof.FiniteInputs

set_option maxRecDepth 16384

noncomputable section

namespace Cert.Proof.Claims

open Idealize.ShloMosaic Idealize.ShloMosaic.TcCoe Idealize.SL.Sem Idealize.ShloMosaic.ValueIdx

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ => Cert.ReferenceIdeal.RefValue.frame_run (F := Ideal) m ρ

theorem preserves : Cert.preserves_Kernel_KernelIdeal := trivial

/-- An array of reals, entry by entry, as the coercion of a real-valued array. -/
theorem coe_of_real {ι : Type} (a : ι → EReal) (h : ∀ i, ∃ r : ℝ, a i = (r : EReal)) : ∃ f : ι → ℝ, a = fun i => ((f i : ℝ) : EReal) := by
  choose f hf using h
  exact ⟨f, funext hf⟩

theorem algebraic : Cert.algebraic_KernelIdeal_ReferenceIdeal := by
  intro m ρ m' ρ' hpre hagree
  refine ⟨fun c => Cert.KernelIdeal.Gen.W5 m ρ c (Proc.devRef .tc Cert.KernelIdeal.main_v11), Cert.KernelIdeal.Run.run m ρ, ?_⟩
  refine (θ_run (Cert.ReferenceIdeal.defs (F := Ideal)) _ _).mono (fun r h c => ⟨(h c).1.trans ?_, (h c).2⟩)
    (Cert.ReferenceIdeal.RefValue.run (F := Ideal) m' ρ')
  obtain ⟨a0, a1, a2, a3, a4, a5, a6⟩ := hagree c
  rw [a0, a1, a2, a3, a4, a5, a6]
  obtain ⟨h0, h1, h2, h3, h4, h5, h6⟩ := Cert.Pre_finite_inputs.Decode.real_of_pre _ _ _ _ _ _ _ (hpre c)
  funext j
  obtain ⟨r, i, o, rfl⟩ : ∃ (r : Fin 4096) (i o : Fin 128), j = ix3 r i o := ⟨j 0, j 1, j 2, eq_ix3 j⟩
  rw [Cert.ReferenceIdeal.RefValue.refOut_apply]
  refine Eq.trans ?_ (Cert.KernelIdeal.Value.result_apply m ρ Cert.KernelIdeal.Regions.tileOut Cert.KernelIdeal.Regions.pieceA7
    Cert.KernelIdeal.Regions.pieceA8 Cert.KernelIdeal.Regions.pieceB7 Cert.KernelIdeal.Regions.pieceB8 c r i o).symm
  obtain ⟨x, hx⟩ := coe_of_real _ (fun p : Fin 4096 × Fin 128 => h0 (ix2 p.1 p.2))
  obtain ⟨g1, hg1⟩ := coe_of_real _ (fun j : Fin 128 => h1 (ix1 j))
  obtain ⟨b1, hb1⟩ := coe_of_real _ (fun j : Fin 128 => h2 (ix1 j))
  obtain ⟨w, hw⟩ := coe_of_real _ (fun p : Fin 128 × Fin 129 => h3 (ix2 p.1 p.2))
  obtain ⟨fb, hfb⟩ := coe_of_real _ (fun j : Fin 128 => h4 (ix1 j))
  obtain ⟨g2, hg2⟩ := coe_of_real _ (fun j : Fin 128 => h5 (ix1 j))
  obtain ⟨b2, hb2⟩ := coe_of_real _ (fun j : Fin 128 => h6 (ix1 j))
  have ex : (fun (r : Fin 4096) (j : Fin 128) => (m ((c.tc : Thread Cert.KernelIdeal.nD Cert.KernelIdeal.τ).loc Cert.KernelIdeal.main_arg0) : Cert.KernelIdeal.S4096x128.Idx → EReal) (ix2 r j))
      = fun r j => ((x (r, j) : ℝ) : EReal) := by funext r j; exact congrFun hx (r, j)
  have ew : (fun (o : Fin 128) (k : Fin 129) => (m ((c.tc : Thread Cert.KernelIdeal.nD Cert.KernelIdeal.τ).loc Cert.KernelIdeal.main_arg3) : Cert.KernelIdeal.S128x129.Idx → EReal) (ix2 o k))
      = fun o k => ((w (o, k) : ℝ) : EReal) := by funext o k; exact congrFun hw (o, k)
  rw [ex, hg1, hb1, ew, hfb, hg2, hb2]
  exact (congrFun (congrFun (congrFun (Cert.Poly.resultK_eq_resultR (fun r j => x (r, j)) g1 b1 (fun o k => w (o, k)) fb g2 b2) r) i) o).symm

end Cert.Proof.Claims

end
-- ==== Proof.lean ====
/-
  The certificate of a polynomial-feature module computed two ways.

  A batch x of 4096 rows of 128 features is normalised per feature by its batch mean and variance; every normalised row is
  expanded into its 128 entries followed by its 128·128 pairwise products, clamped below at 0, and cut into 128 consecutive
  windows of 129 numbers; every window is contracted with each of 128 weight rows and a bias is added, which gives a value
  y(r, i, o) per batch row, window and output channel; finally y is normalised per channel by its mean and variance over all
  rows and windows.

  The reference does exactly this on whole arrays.  The kernel never forms the expansion: per tile of 64 rows it builds the
  first 128 positions of window i from two pieces of the clamped products (the tail of products row i−1 and the head of
  products row i), contracts them with the first 128 weights, and adds the 129th term, the square of entry i, separately;
  a first pass over the tiles accumulates per channel the totals of y and y², from which the channel mean and the variance as
  "mean of squares minus squared mean" are formed, and a second pass recomputes y and normalises it, multiplying by
  reciprocal square roots where the reference divides by square roots.

  Over the extended reals, on inputs that are real numbers, the two are one function: the window identity is a re-indexing of a
  finite sum together with "a square is nonnegative"; the two variance formulas agree for real data; and a quotient by the
  square root of a positive real is the product with its reciprocal square root.  The modules under Proof/ prove, in order:
  the specification and this algebra (Spec, Alg*, Algebra); the reference's run and its value at an index (Ref*,
  LibBatchStats); the kernel program's run with its result named, what its host operations leave for the two regions, the tile
  mathematics of the body, the statistics region's accumulation over its 64 points and the output region's blocks (Ker*, Lib*,
  Tile*, Rows*, Stats*, Region*); the precondition read back as "every entry is a real" (FiniteInputs); and the five claims
  (Claims).
-/
import proofs.«138108_j2860448219241_2_alg».proof.Defs
import proofs.«138108_j2860448219241_2_alg».proof.Proof.Gen.Kernel
import proofs.«138108_j2860448219241_2_alg».proof.Proof.Gen.Kernel.Skeleton
import proofs.«138108_j2860448219241_2_alg».proof.Proof.Gen.Kernel.Launch
import proofs.«138108_j2860448219241_2_alg».proof.Proof.Gen.Kernel.Points
import proofs.«138108_j2860448219241_2_alg».proof.Proof.Gen.Kernel.Frame
import proofs.«138108_j2860448219241_2_alg».proof.Proof.Gen.KernelIdeal
import proofs.«138108_j2860448219241_2_alg».proof.Proof.Gen.KernelIdeal.Skeleton
import proofs.«138108_j2860448219241_2_alg».proof.Proof.Gen.KernelIdeal.Launch
import proofs.«138108_j2860448219241_2_alg».proof.Proof.Gen.KernelIdeal.Points
import proofs.«138108_j2860448219241_2_alg».proof.Proof.Gen.KernelIdeal.Frame
import proofs.«138108_j2860448219241_2_alg».proof.Proof.Gen.ReferenceIdeal
import proofs.«138108_j2860448219241_2_alg».proof.Proof.Gen.Pre_finite_inputs
import proofs.«138108_j2860448219241_2_alg».proof.Proof.Claims
import Idealize.ShloMosaic.Adequacy
import Idealize.ShloMosaic.Init

noncomputable section

namespace Cert.Proof

open Idealize.ShloMosaic Idealize.SL.Sem Cert.Kernel

theorem claim : Cert.Claim :=
  ⟨Cert.Kernel.Gen.facts, Cert.KernelIdeal.Gen.facts, Cert.ReferenceIdeal.Gen.facts, Cert.Pre_finite_inputs.Gen.facts,
    Claims.frame_k, Claims.frame_ki, Claims.frame_ri, Claims.preserves, Claims.algebraic⟩

end Cert.Proof

end
